-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1656 : Shape := ⟨3, ![8, 16, 1656]⟩
abbrev S207x207 : Shape := ⟨2, ![207, 207]⟩
abbrev S360x128 : Shape := ⟨2, ![360, 128]⟩
abbrev S128 : Shape := ⟨1, ![128]⟩
abbrev S360x64 : Shape := ⟨2, ![360, 64]⟩
abbrev S64 : Shape := ⟨1, ![64]⟩
abbrev S325x128 : Shape := ⟨2, ![325, 128]⟩
abbrev S325x64 : Shape := ⟨2, ![325, 64]⟩
abbrev S64x1 : Shape := ⟨2, ![64, 1]⟩
abbrev S1 : Shape := ⟨1, ![1]⟩
abbrev S_ : Shape := ⟨0, ![]⟩

class Facts : Prop where
  bcast_S_S8x16x1656 : S_.BroadcastsInDim S8x16x1656 (![] : Fin 0 → Fin S8x16x1656.rank)
  reducesTo_S8x16x1656_S_d0_1_2 : S8x16x1656.ReducesTo [0, 1, 2] S_
  h_S_ : 0 < S_.numel
  bcast_S_S207x207 : S_.BroadcastsInDim S207x207 (![] : Fin 0 → Fin S207x207.rank)
  reducesTo_S207x207_S_d0_1 : S207x207.ReducesTo [0, 1] S_
  bcast_S_S360x128 : S_.BroadcastsInDim S360x128 (![] : Fin 0 → Fin S360x128.rank)
  reducesTo_S360x128_S_d0_1 : S360x128.ReducesTo [0, 1] S_
  bcast_S_S128 : S_.BroadcastsInDim S128 (![] : Fin 0 → Fin S128.rank)
  reducesTo_S128_S_d0 : S128.ReducesTo [0] S_
  bcast_S_S360x64 : S_.BroadcastsInDim S360x64 (![] : Fin 0 → Fin S360x64.rank)
  reducesTo_S360x64_S_d0_1 : S360x64.ReducesTo [0, 1] S_
  bcast_S_S64 : S_.BroadcastsInDim S64 (![] : Fin 0 → Fin S64.rank)
  reducesTo_S64_S_d0 : S64.ReducesTo [0] S_
  bcast_S_S325x128 : S_.BroadcastsInDim S325x128 (![] : Fin 0 → Fin S325x128.rank)
  reducesTo_S325x128_S_d0_1 : S325x128.ReducesTo [0, 1] S_
  bcast_S_S325x64 : S_.BroadcastsInDim S325x64 (![] : Fin 0 → Fin S325x64.rank)
  reducesTo_S325x64_S_d0_1 : S325x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S325x128 .f32) (main_arg8 : FVec F S128 .f32) (main_arg9 : FVec F S325x64 .f32) (main_arg10 : FVec F S64 .f32) (main_arg11 : FVec F S64x1 .f32) (main_arg12 : FVec F S1 .f32) (main_v33 : IVec S_ 1) : IVec S_ 1 :=
  let main_v34 : FVec F S325x128 .f32 := Host.absf main_arg7
  let main_cst_12 : FVec F S_ .f32 := constant S_ .f32 0x7F800000#32
  let main_v35 : FVec F S325x128 .f32 := broadcastInDim S325x128 ![] bcast_S_S325x128 main_cst_12
  let main_v36 : IVec S325x128 1 := cmpf .olt main_v34 main_v35
  let main_c_13 : IVec S_ 1 := constantI S_ 1 1#1
  let main_v37 : IVec S_ 1 := (fun x v => Host.reduce IntOp.andi x v reducesTo_S325x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S325x64 .f32 := Host.absf main_arg9
  let main_cst_16 : FVec F S_ .f32 := constant S_ .f32 0x7F800000#32
  let main_v45 : FVec F S325x64 .f32 := broadcastInDim S325x64 ![] bcast_S_S325x64 main_cst_16
  let main_v46 : IVec S325x64 1 := cmpf .olt main_v44 main_v45
  let main_c_17 : IVec S_ 1 := constantI S_ 1 1#1
  let main_v47 : IVec S_ 1 := (fun x v => Host.reduce IntOp.andi x v reducesTo_S325x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S360x64 .f32) (main_arg6 : FVec F S64 .f32) (main_arg7 : FVec F S325x128 .f32) (main_arg8 : FVec F S128 .f32) (main_arg9 : FVec F S325x64 .f32) (main_arg10 : FVec F S64 .f32) (main_arg11 : FVec F S64x1 .f32) (main_arg12 : FVec F S1 .f32) (main_v13 : IVec S_ 1) (main_v16 : IVec S360x128 1) : IVec S_ 1 :=
  let main_c_5 : IVec S_ 1 := constantI S_ 1 1#1
  let main_v17 : IVec S_ 1 := (fun x v => Host.reduce IntOp.andi x v reducesTo_S360x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S360x64 .f32 := Host.absf main_arg5
  let main_cst_8 : FVec F S_ .f32 := constant S_ .f32 0x7F800000#32
  let main_v25 : FVec F S360x64 .f32 := broadcastInDim S360x64 ![] bcast_S_S360x64 main_cst_8
  let main_v26 : IVec S360x64 1 := cmpf .olt main_v24 main_v25
  let main_c_9 : IVec S_ 1 := constantI S_ 1 1#1
  let main_v27 : IVec S_ 1 := (fun x v => Host.reduce IntOp.andi x v reducesTo_S360x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x16x1656 .f32) (main_arg1 : FVec F S207x207 .f32) (main_arg2 : FVec F S207x207 .f32) (main_arg3 : FVec F S360x128 .f32) (main_arg4 : FVec F S128 .f32) (main_arg5 : FVec F S360x64 .f32) (main_arg6 : FVec F S64 .f32) (main_arg7 : FVec F S325x128 .f32) (main_arg8 : FVec F S128 .f32) (main_arg9 : FVec F S325x64 .f32) (main_arg10 : FVec F S64 .f32) (main_arg11 : FVec F S64x1 .f32) (main_arg12 : FVec F S1 .f32) : IVec S_ 1 :=
  let main_v0 : FVec F S8x16x1656 .f32 := Host.absf main_arg0
  let main_cst : FVec F S_ .f32 := constant S_ .f32 0x7F800000#32
  let main_v1 : FVec F S8x16x1656 .f32 := broadcastInDim S8x16x1656 ![] bcast_S_S8x16x1656 main_cst
  let main_v2 : IVec S8x16x1656 1 := cmpf .olt main_v0 main_v1
  let main_c : IVec S_ 1 := constantI S_ 1 1#1
  let main_v3 : IVec S_ 1 := (fun x v => Host.reduce IntOp.andi x v reducesTo_S8x16x1656_S_d0_1_2 h_S_) main_v2 main_c
  let main_v4 : FVec F S207x207 .f32 := Host.absf main_arg1
  let main_cst_0 : FVec F S_ .f32 := constant S_ .f32 0x7F800000#32
  let main_v5 : FVec F S207x207 .f32 := broadcastInDim S207x207 ![] bcast_S_S207x207 main_cst_0
  let main_v6 : IVec S207x207 1 := cmpf .olt main_v4 main_v5
  let main_c_1 : IVec S_ 1 := constantI S_ 1 1#1
  let main_v7 : IVec S_ 1 := (fun x v => Host.reduce IntOp.andi x v reducesTo_S207x207_S_d0_1 h_S_) main_v6 main_c_1
  let main_v8 : IVec S_ 1 := andi main_v3 main_v7
  let main_v9 : FVec F S207x207 .f32 := Host.absf main_arg2
  let main_cst_2 : FVec F S_ .f32 := constant S_ .f32 0x7F800000#32
  let main_v10 : FVec F S207x207 .f32 := broadcastInDim S207x207 ![] bcast_S_S207x207 main_cst_2
  let main_v11 : IVec S207x207 1 := cmpf .olt main_v9 main_v10
  let main_c_3 : IVec S_ 1 := constantI S_ 1 1#1
  let main_v12 : IVec S_ 1 := (fun x v => Host.reduce IntOp.andi x v reducesTo_S207x207_S_d0_1 h_S_) main_v11 main_c_3
  let main_v13 : IVec S_ 1 := andi main_v8 main_v12
  let main_v14 : FVec F S360x128 .f32 := Host.absf main_arg3
  let main_cst_4 : FVec F S_ .f32 := constant S_ .f32 0x7F800000#32
  let main_v15 : FVec F S360x128 .f32 := broadcastInDim S360x128 ![] bcast_S_S360x128 main_cst_4
  let main_v16 : IVec S360x128 1 := cmpf .olt main_v14 main_v15
  fn_part1 (F := F) main_arg4 main_arg5 main_arg6 main_arg7 main_arg8 main_arg9 main_arg10 main_arg11 main_arg12 main_v13 main_v16
-- ==== Kernel.lean ====
abbrev S8x16x1656 : Shape := ⟨3, ![8, 16, 1656]⟩
abbrev S207x207 : Shape := ⟨2, ![207, 207]⟩
abbrev S360x128 : Shape := ⟨2, ![360, 128]⟩
abbrev S128 : Shape := ⟨1, ![128]⟩
abbrev S360x64 : Shape := ⟨2, ![360, 64]⟩
abbrev S64 : Shape := ⟨1, ![64]⟩
abbrev S325x128 : Shape := ⟨2, ![325, 128]⟩
abbrev S325x64 : Shape := ⟨2, ![325, 64]⟩
abbrev S64x1 : Shape := ⟨2, ![64, 1]⟩
abbrev S1 : Shape := ⟨1, ![1]⟩
abbrev S8x3312x8 : Shape := ⟨3, ![8, 3312, 8]⟩
abbrev S_ : Shape := ⟨0, ![]⟩
abbrev S8x3312x16 : Shape := ⟨3, ![8, 3312, 16]⟩
abbrev S72x5x128 : Shape := ⟨3, ![72, 5, 128]⟩
abbrev S64x5x128 : Shape := ⟨3, ![64, 5, 128]⟩
abbrev S8x5x128 : Shape := ⟨3, ![8, 5, 128]⟩
abbrev S80x5x128 : Shape := ⟨3, ![80, 5, 128]⟩
abbrev S80x1x128 : Shape := ⟨3, ![80, 1, 128]⟩
abbrev S80x128 : Shape := ⟨2, ![80, 128]⟩
abbrev S320x128 : Shape := ⟨2, ![320, 128]⟩
abbrev S72x5x64 : Shape := ⟨3, ![72, 5, 64]⟩
abbrev S64x5x64 : Shape := ⟨3, ![64, 5, 64]⟩
abbrev S8x5x64 : Shape := ⟨3, ![8, 5, 64]⟩
abbrev S80x5x64 : Shape := ⟨3, ![80, 5, 64]⟩
abbrev S80x1x64 : Shape := ⟨3, ![80, 1, 64]⟩
abbrev S80x64 : Shape := ⟨2, ![80, 64]⟩
abbrev S320x64 : Shape := ⟨2, ![320, 64]⟩
abbrev S65x5x128 : Shape := ⟨3, ![65, 5, 128]⟩
abbrev S1x5x128 : Shape := ⟨3, ![1, 5, 128]⟩
abbrev S15x5x128 : Shape := ⟨3, ![15, 5, 128]⟩
abbrev S65x5x64 : Shape := ⟨3, ![65, 5, 64]⟩
abbrev S1x5x64 : Shape := ⟨3, ![1, 5, 64]⟩
abbrev S15x5x64 : Shape := ⟨3, ![15, 5, 64]⟩
abbrev S207x49 : Shape := ⟨2, ![207, 49]⟩
abbrev S207x512 : Shape := ⟨2, ![207, 512]⟩
abbrev S1x128 : Shape := ⟨2, ![1, 128]⟩
abbrev S1x64 : Shape := ⟨2, ![1, 64]⟩
abbrev S1x1 : Shape := ⟨2, ![1, 1]⟩
abbrev S8x3312 : Shape := ⟨2, ![8, 3312]⟩
abbrev S3312x64 : Shape := ⟨2, ![3312, 64]⟩
abbrev S1x3312x16 : Shape := ⟨3, ![1, 3312, 16]⟩
abbrev S3312x16 : Shape := ⟨2, ![3312, 16]⟩
abbrev S3312x80 : Shape := ⟨2, ![3312, 80]⟩
abbrev S3312x128 : Shape := ⟨2, ![3312, 128]⟩
abbrev S16x207x80 : Shape := ⟨3, ![16, 207, 80]⟩
abbrev S1x207x80 : Shape := ⟨3, ![1, 207, 80]⟩
abbrev S207x80 : Shape := ⟨2, ![207, 80]⟩
abbrev S80x512 : Shape := ⟨2, ![80, 512]⟩
abbrev S1280x512 : Shape := ⟨2, ![1280, 512]⟩
abbrev S1280x207 : Shape := ⟨2, ![1280, 207]⟩
abbrev S80x207 : Shape := ⟨2, ![80, 207]⟩
abbrev S320x207 : Shape := ⟨2, ![320, 207]⟩
abbrev S207x128 : Shape := ⟨2, ![207, 128]⟩
abbrev S207x64 : Shape := ⟨2, ![207, 64]⟩
abbrev S64x3312 : Shape := ⟨2, ![64, 3312]⟩
abbrev S1x3312 : Shape := ⟨2, ![1, 3312]⟩
abbrev S3312x1 : Shape := ⟨2, ![3312, 1]⟩
abbrev S3312x15 : Shape := ⟨2, ![3312, 15]⟩
abbrev S8x16x207 : Shape := ⟨3, ![8, 16, 207]⟩

abbrev nBuf : Space → Nat
  | .hbm => 157
  | .vmem => 19
  | .smem => 0
  | _ => 0

abbrev hbmTy0_0 (i : Nat) : BufTy := match i % 128 with
  | 0 => ⟨S8x16x1656, .f32⟩
  | 1 => ⟨S207x207, .f32⟩
  | 2 => ⟨S207x207, .f32⟩
  | 3 => ⟨S360x128, .f32⟩
  | 4 => ⟨S128, .f32⟩
  | 5 => ⟨S360x64, .f32⟩
  | 6 => ⟨S64, .f32⟩
  | 7 => ⟨S325x128, .f32⟩
  | 8 => ⟨S128, .f32⟩
  | 9 => ⟨S325x64, .f32⟩
  | 10 => ⟨S64, .f32⟩
  | 11 => ⟨S64x1, .f32⟩
  | 12 => ⟨S1, .f32⟩
  | 13 => ⟨S8x3312x8, .f32⟩
  | 14 => ⟨S_, .i32⟩
  | 15 => ⟨S_, .f32⟩
  | 16 => ⟨S8x3312x16, .f32⟩
  | 17 => ⟨S8x3312x16, .bf16⟩
  | 18 => ⟨S72x5x128, .f32⟩
  | 19 => ⟨S64x5x128, .f32⟩
  | 20 => ⟨S8x5x128, .f32⟩
  | 21 => ⟨S_, .f32⟩
  | 22 => ⟨S8x5x128, .f32⟩
  | 23 => ⟨S80x5x128, .f32⟩
  | 24 => ⟨S80x1x128, .f32⟩
  | 25 => ⟨S80x128, .f32⟩
  | 26 => ⟨S80x1x128, .f32⟩
  | 27 => ⟨S80x128, .f32⟩
  | 28 => ⟨S80x128, .f32⟩
  | 29 => ⟨S80x1x128, .f32⟩
  | 30 => ⟨S80x128, .f32⟩
  | 31 => ⟨S80x128, .f32⟩
  | 32 => ⟨S80x1x128, .f32⟩
  | 33 => ⟨S80x128, .f32⟩
  | 34 => ⟨S80x1x128, .f32⟩
  | 35 => ⟨S80x128, .f32⟩
  | 36 => ⟨S_, .f32⟩
  | 37 => ⟨S80x128, .f32⟩
  | 38 => ⟨S80x128, .f32⟩
  | 39 => ⟨S80x1x128, .f32⟩
  | 40 => ⟨S80x128, .f32⟩
  | 41 => ⟨S80x1x128, .f32⟩
  | 42 => ⟨S80x128, .f32⟩
  | 43 => ⟨S_, .f32⟩
  | 44 => ⟨S80x128, .f32⟩
  | 45 => ⟨S80x128, .f32⟩
  | 46 => ⟨S320x128, .f32⟩
  | 47 => ⟨S80x128, .bf16⟩
  | 48 => ⟨S320x128, .bf16⟩
  | 49 => ⟨S72x5x64, .f32⟩
  | 50 => ⟨S64x5x64, .f32⟩
  | 51 => ⟨S8x5x64, .f32⟩
  | 52 => ⟨S_, .f32⟩
  | 53 => ⟨S8x5x64, .f32⟩
  | 54 => ⟨S80x5x64, .f32⟩
  | 55 => ⟨S80x1x64, .f32⟩
  | 56 => ⟨S80x64, .f32⟩
  | 57 => ⟨S80x1x64, .f32⟩
  | 58 => ⟨S80x64, .f32⟩
  | 59 => ⟨S80x64, .f32⟩
  | 60 => ⟨S80x1x64, .f32⟩
  | 61 => ⟨S80x64, .f32⟩
  | 62 => ⟨S80x64, .f32⟩
  | 63 => ⟨S80x1x64, .f32⟩
  | 64 => ⟨S80x64, .f32⟩
  | 65 => ⟨S80x1x64, .f32⟩
  | 66 => ⟨S80x64, .f32⟩
  | 67 => ⟨S_, .f32⟩
  | 68 => ⟨S80x64, .f32⟩
  | 69 => ⟨S80x64, .f32⟩
  | 70 => ⟨S80x1x64, .f32⟩
  | 71 => ⟨S80x64, .f32⟩
  | 72 => ⟨S80x1x64, .f32⟩
  | 73 => ⟨S80x64, .f32⟩
  | 74 => ⟨S_, .f32⟩
  | 75 => ⟨S80x64, .f32⟩
  | 76 => ⟨S80x64, .f32⟩
  | 77 => ⟨S320x64, .f32⟩
  | 78 => ⟨S80x64, .bf16⟩
  | 79 => ⟨S320x64, .bf16⟩
  | 80 => ⟨S65x5x128, .f32⟩
  | 81 => ⟨S64x5x128, .f32⟩
  | 82 => ⟨S1x5x128, .f32⟩
  | 83 => ⟨S_, .f32⟩
  | 84 => ⟨S15x5x128, .f32⟩
  | 85 => ⟨S80x5x128, .f32⟩
  | 86 => ⟨S80x1x128, .f32⟩
  | 87 => ⟨S80x128, .f32⟩
  | 88 => ⟨S80x1x128, .f32⟩
  | 89 => ⟨S80x128, .f32⟩
  | 90 => ⟨S80x128, .f32⟩
  | 91 => ⟨S80x1x128, .f32⟩
  | 92 => ⟨S80x128, .f32⟩
  | 93 => ⟨S80x128, .f32⟩
  | 94 => ⟨S80x1x128, .f32⟩
  | 95 => ⟨S80x128, .f32⟩
  | 96 => ⟨S80x1x128, .f32⟩
  | 97 => ⟨S80x128, .f32⟩
  | 98 => ⟨S_, .f32⟩
  | 99 => ⟨S80x128, .f32⟩
  | 100 => ⟨S80x128, .f32⟩
  | 101 => ⟨S80x1x128, .f32⟩
  | 102 => ⟨S80x128, .f32⟩
  | 103 => ⟨S80x1x128, .f32⟩
  | 104 => ⟨S80x128, .f32⟩
  | 105 => ⟨S_, .f32⟩
  | 106 => ⟨S80x128, .f32⟩
  | 107 => ⟨S80x128, .f32⟩
  | 108 => ⟨S320x128, .f32⟩
  | 109 => ⟨S80x128, .bf16⟩
  | 110 => ⟨S320x128, .bf16⟩
  | 111 => ⟨S65x5x64, .f32⟩
  | 112 => ⟨S64x5x64, .f32⟩
  | 113 => ⟨S1x5x64, .f32⟩
  | 114 => ⟨S_, .f32⟩
  | 115 => ⟨S15x5x64, .f32⟩
  | 116 => ⟨S80x5x64, .f32⟩
  | 117 => ⟨S80x1x64, .f32⟩
  | 118 => ⟨S80x64, .f32⟩
  | 119 => ⟨S80x1x64, .f32⟩
  | 120 => ⟨S80x64, .f32⟩
  | 121 => ⟨S80x64, .f32⟩
  | 122 => ⟨S80x1x64, .f32⟩
  | 123 => ⟨S80x64, .f32⟩
  | 124 => ⟨S80x64, .f32⟩
  | 125 => ⟨S80x1x64, .f32⟩
  | 126 => ⟨S80x64, .f32⟩
  | 127 => ⟨S80x1x64, .f32⟩
  | _ => ⟨S8x16x1656, .f32⟩

abbrev hbmTy0_1 (i : Nat) : BufTy := match i % 128 with
  | 0 => ⟨S80x64, .f32⟩
  | 1 => ⟨S_, .f32⟩
  | 2 => ⟨S80x64, .f32⟩
  | 3 => ⟨S80x64, .f32⟩
  | 4 => ⟨S80x1x64, .f32⟩
  | 5 => ⟨S80x64, .f32⟩
  | 6 => ⟨S80x1x64, .f32⟩
  | 7 => ⟨S80x64, .f32⟩
  | 8 => ⟨S_, .f32⟩
  | 9 => ⟨S80x64, .f32⟩
  | 10 => ⟨S80x64, .f32⟩
  | 11 => ⟨S320x64, .f32⟩
  | 12 => ⟨S80x64, .bf16⟩
  | 13 => ⟨S320x64, .bf16⟩
  | 14 => ⟨S207x207, .f32⟩
  | 15 => ⟨S207x207, .bf16⟩
  | 16 => ⟨S207x207, .f32⟩
  | 17 => ⟨S207x207, .bf16⟩
  | 18 => ⟨S_, .bf16⟩
  | 19 => ⟨S207x49, .bf16⟩
  | 20 => ⟨S207x512, .bf16⟩
  | 21 => ⟨S1x128, .f32⟩
  | 22 => ⟨S1x64, .f32⟩
  | 23 => ⟨S1x128, .f32⟩
  | 24 => ⟨S1x64, .f32⟩
  | 25 => ⟨S1x64, .f32⟩
  | 26 => ⟨S1x1, .f32⟩
  | 27 => ⟨S8x3312, .f32⟩
  | 28 => ⟨S8x16x207, .f32⟩
  | _ => ⟨S8x16x1656, .f32⟩

abbrev hbmTy (i : Nat) : BufTy := match i / 128 with
  | 0 => hbmTy0_0 i
  | 1 => hbmTy0_1 i
  | _ => ⟨S8x16x1656, .f32⟩

abbrev bufTy : (tb : Table) → Fin (tcTables nBuf tb) → BufTy
  | .hbm, ⟨i, _⟩ => hbmTy i
  | .local _ .vmem, ⟨0, _⟩ => ⟨S8x3312x16, .bf16⟩
  | .local _ .vmem, ⟨1, _⟩ => ⟨S207x512, .bf16⟩
  | .local _ .vmem, ⟨2, _⟩ => ⟨S207x207, .bf16⟩
  | .local _ .vmem, ⟨3, _⟩ => ⟨S207x207, .bf16⟩
  | .local _ .vmem, ⟨4, _⟩ => ⟨S80x128, .bf16⟩
  | .local _ .vmem, ⟨5, _⟩ => ⟨S320x128, .bf16⟩
  | .local _ .vmem, ⟨6, _⟩ => ⟨S1x128, .f32⟩
  | .local _ .vmem, ⟨7, _⟩ => ⟨S80x64, .bf16⟩
  | .local _ .vmem, ⟨8, _⟩ => ⟨S320x64, .bf16⟩
  | .local _ .vmem, ⟨9, _⟩ => ⟨S1x64, .f32⟩
  | .local _ .vmem, ⟨10, _⟩ => ⟨S80x128, .bf16⟩
  | .local _ .vmem, ⟨11, _⟩ => ⟨S320x128, .bf16⟩
  | .local _ .vmem, ⟨12, _⟩ => ⟨S1x128, .f32⟩
  | .local _ .vmem, ⟨13, _⟩ => ⟨S80x64, .bf16⟩
  | .local _ .vmem, ⟨14, _⟩ => ⟨S320x64, .bf16⟩
  | .local _ .vmem, ⟨15, _⟩ => ⟨S1x64, .f32⟩
  | .local _ .vmem, ⟨16, _⟩ => ⟨S1x64, .f32⟩
  | .local _ .vmem, ⟨17, _⟩ => ⟨S1x1, .f32⟩
  | .local _ .vmem, ⟨18, _⟩ => ⟨S8x3312, .f32⟩
  | _, _ => ⟨S8x16x1656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_5 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_6 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_7 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_8 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_9 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_10 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_11 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v19 : BitVec 32 := Scalar.addi c0_i32 c8_i32
  let c1_i32 : BitVec 32 := 1#32
  ⟨c0_i32, v19, c1_i32⟩
def k0_off1 (k0_t1 : Fin k0_t1_loop.trips) : Fin 3 → Nat :=
  let c0_i32 : BitVec 32 := 0#32
  let c1_i32 : BitVec 32 := 1#32
  let arg19 : BitVec 32 := Scf.iv c0_i32 c1_i32 k0_t1
  let v39 : Index := Scalar.indexCast arg19
  let c0_38 : Index := 0#32
  let c0_39 : Index := 0#32
  ![v39.toNat, 0, 0]
@[reducible] def k0_t2_loop : Scf.Loop 32 :=
  let c0_i32_34 : BitVec 32 := 0#32
  let c8_i32_35 : BitVec 32 := 8#32
  let v37 : BitVec 32 := Scalar.addi c0_i32_34 c8_i32_35
  let c1_i32_36 : BitVec 32 := 1#32
  ⟨c0_i32_34, v37, c1_i32_36⟩
def k0_off2 (k0_t2 : Fin k0_t2_loop.trips) : Fin 2 → Nat :=
  let c0_i32_34 : BitVec 32 := 0#32
  let c1_i32_36 : BitVec 32 := 1#32
  let arg19 : BitVec 32 := Scf.iv c0_i32_34 c1_i32_36 k0_t2
  let v415 : Index := Scalar.indexCast arg19
  let c0_114 : Index := 0#32
  ![v415.toNat, 0]
abbrev stage0_0 : Fin 1 → Memref sig .tc .vmem S8x3312x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S207x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S207x207 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S207x207 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S80x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S320x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S80x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S320x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S80x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S320x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S8x3312 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

class Facts₀ : Prop where
  shapeCasts_S8x16x1656_S8x3312x8 : S8x16x1656.ShapeCasts S8x3312x8
  pads_S8x3312x8_S8x3312x16_000_000_080 : S8x3312x8.Pads (![0, 0, 0] : Fin 3 → Nat) ![0, 0, 8] ![0, 0, 0] S8x3312x16
  h_S_ : 0 < S_.numel
  bitsLt_bf16_f32 : FTy.bits .bf16 < FTy.bits .f32
  shapeCasts_S360x128_S72x5x128 : S360x128.ShapeCasts S72x5x128
  slices_S72x5x128_S64x5x128_8_0_0 : S72x5x128.Slices ![8, 0, 0] S64x5x128
  slices_S72x5x128_S8x5x128_0_0_0 : S72x5x128.Slices ![0, 0, 0] S8x5x128
  bcast_S_S8x5x128 : S_.BroadcastsInDim S8x5x128 (![] : Fin 0 → Fin S8x5x128.rank)
  concatenates_S64x5x128_S8x5x128_S8x5x128_S80x5x128_d0 : Shape.Concatenates [S64x5x128, S8x5x128, S8x5x128] S80x5x128 0
  slices_S80x5x128_S80x1x128_0_0_0 : S80x5x128.Slices ![0, 0, 0] S80x1x128
  shapeCasts_S80x1x128_S80x128 : S80x1x128.ShapeCasts S80x128
  slices_S80x5x128_S80x1x128_0_2_0 : S80x5x128.Slices ![0, 2, 0] S80x1x128
  slices_S80x5x128_S80x1x128_0_4_0 : S80x5x128.Slices ![0, 4, 0] S80x1x128
  slices_S80x5x128_S80x1x128_0_1_0 : S80x5x128.Slices ![0, 1, 0] S80x1x128
  bcast_S_S80x128 : S_.BroadcastsInDim S80x128 (![] : Fin 0 → Fin S80x128.rank)
  slices_S80x5x128_S80x1x128_0_3_0 : S80x5x128.Slices ![0, 3, 0] S80x1x128
  concatenates_S80x128_S80x128_S80x128_S80x128_S320x128_d0 : Shape.Concatenates [S80x128, S80x128, S80x128, S80x128] S320x128 0
  shapeCasts_S360x64_S72x5x64 : S360x64.ShapeCasts S72x5x64
  slices_S72x5x64_S64x5x64_8_0_0 : S72x5x64.Slices ![8, 0, 0] S64x5x64
  slices_S72x5x64_S8x5x64_0_0_0 : S72x5x64.Slices ![0, 0, 0] S8x5x64
  bcast_S_S8x5x64 : S_.BroadcastsInDim S8x5x64 (![] : Fin 0 → Fin S8x5x64.rank)
  concatenates_S64x5x64_S8x5x64_S8x5x64_S80x5x64_d0 : Shape.Concatenates [S64x5x64, S8x5x64, S8x5x64] S80x5x64 0
  slices_S80x5x64_S80x1x64_0_0_0 : S80x5x64.Slices ![0, 0, 0] S80x1x64
  shapeCasts_S80x1x64_S80x64 : S80x1x64.ShapeCasts S80x64
  slices_S80x5x64_S80x1x64_0_2_0 : S80x5x64.Slices ![0, 2, 0] S80x1x64
  slices_S80x5x64_S80x1x64_0_4_0 : S80x5x64.Slices ![0, 4, 0] S80x1x64
  slices_S80x5x64_S80x1x64_0_1_0 : S80x5x64.Slices ![0, 1, 0] S80x1x64
  bcast_S_S80x64 : S_.BroadcastsInDim S80x64 (![] : Fin 0 → Fin S80x64.rank)
  slices_S80x5x64_S80x1x64_0_3_0 : S80x5x64.Slices ![0, 3, 0] S80x1x64
  concatenates_S80x64_S80x64_S80x64_S80x64_S320x64_d0 : Shape.Concatenates [S80x64, S80x64, S80x64, S80x64] S320x64 0
  shapeCasts_S325x128_S65x5x128 : S325x128.ShapeCasts S65x5x128
  slices_S65x5x128_S64x5x128_1_0_0 : S65x5x128.Slices ![1, 0, 0] S64x5x128
  slices_S65x5x128_S1x5x128_0_0_0 : S65x5x128.Slices ![0, 0, 0] S1x5x128
  bcast_S_S15x5x128 : S_.BroadcastsInDim S15x5x128 (![] : Fin 0 → Fin S15x5x128.rank)
  concatenates_S64x5x128_S1x5x128_S15x5x128_S80x5x128_d0 : Shape.Concatenates [S64x5x128, S1x5x128, S15x5x128] S80x5x128 0
  shapeCasts_S325x64_S65x5x64 : S325x64.ShapeCasts S65x5x64
  slices_S65x5x64_S64x5x64_1_0_0 : S65x5x64.Slices ![1, 0, 0] S64x5x64
  slices_S65x5x64_S1x5x64_0_0_0 : S65x5x64.Slices ![0, 0, 0] S1x5x64
  bcast_S_S15x5x64 : S_.BroadcastsInDim S15x5x64 (![] : Fin 0 → Fin S15x5x64.rank)
  concatenates_S64x5x64_S1x5x64_S15x5x64_S80x5x64_d0 : Shape.Concatenates [S64x5x64, S1x5x64, S15x5x64] S80x5x64 0
  transposes_S207x207_S207x207_1_0 : S207x207.Transposes [1, 0] S207x207
  bcast_S_S207x49 : S_.BroadcastsInDim S207x49 (![] : Fin 0 → Fin S207x49.rank)
  concatenates_S207x207_S207x49_S207x207_S207x49_S207x512_d1 : Shape.Concatenates [S207x207, S207x49, S207x207, S207x49] S207x512 1
  shapeCasts_S128_S1x128 : S128.ShapeCasts S1x128
  shapeCasts_S64_S1x64 : S64.ShapeCasts S1x64
  transposes_S64x1_S1x64_1_0 : S64x1.Transposes [1, 0] S1x64
  shapeCasts_S1_S1x1 : S1.ShapeCasts S1x1
  inb_S207x512_S207x512_0_0 : ∀ a, (![0, 0] : Fin 2 → Nat) a + S207x512.size a ≤ S207x512.size a
  h_S207x512 : 0 < S207x512.numel
  shapeCasts_S207x512_S207x512 : S207x512.ShapeCasts S207x512
  inb_S207x207_S207x207_0_0 : ∀ a, (![0, 0] : Fin 2 → Nat) a + S207x207.size a ≤ S207x207.size a
  h_S207x207 : 0 < S207x207.numel
  shapeCasts_S207x207_S207x207 : S207x207.ShapeCasts S207x207
  inb_S80x128_S80x128_0_0 : ∀ a, (![0, 0] : Fin 2 → Nat) a + S80x128.size a ≤ S80x128.size a
  h_S80x128 : 0 < S80x128.numel
  shapeCasts_S80x128_S80x128 : S80x128.ShapeCasts S80x128
  inb_S320x128_S320x128_0_0 : ∀ a, (![0, 0] : Fin 2 → Nat) a + S320x128.size a ≤ S320x128.size a
  h_S320x128 : 0 < S320x128.numel
  shapeCasts_S320x128_S320x128 : S320x128.ShapeCasts S320x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S80x64_S80x64_0_0 : ∀ a, (![0, 0] : Fin 2 → Nat) a + S80x64.size a ≤ S80x64.size a
  h_S80x64 : 0 < S80x64.numel
  shapeCasts_S80x64_S80x64 : S80x64.ShapeCasts S80x64
  inb_S320x64_S320x64_0_0 : ∀ a, (![0, 0] : Fin 2 → Nat) a + S320x64.size a ≤ S320x64.size a
  h_S320x64 : 0 < S320x64.numel
  shapeCasts_S320x64_S320x64 : S320x64.ShapeCasts S320x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  h_S1x3312x16 : 0 < S1x3312x16.numel
  shapeCasts_S1x3312x16_S1x3312x16 : S1x3312x16.ShapeCasts S1x3312x16
  shapeCasts_S1x3312x16_S3312x16 : S1x3312x16.ShapeCasts S3312x16
  concatenates_S3312x64_S3312x16_S3312x80_d1 : Shape.Concatenates [S3312x64, S3312x16] S3312x80 1
  shapeCasts_S3312x80_S16x207x80 : S3312x80.ShapeCasts S16x207x80
  slices_S16x207x80_o0_0_0_S1x207x80 : S16x207x80.Slices ![0, 0, 0] S1x207x80
  shapeCasts_S1x207x80_S207x80 : S1x207x80.ShapeCasts S207x80
  slices_S16x207x80_o1_0_0_S1x207x80 : S16x207x80.Slices ![1, 0, 0] S1x207x80
  slices_S16x207x80_o2_0_0_S1x207x80 : S16x207x80.Slices ![2, 0, 0] S1x207x80
  slices_S16x207x80_o3_0_0_S1x207x80 : S16x207x80.Slices ![3, 0, 0] S1x207x80
  slices_S16x207x80_o4_0_0_S1x207x80 : S16x207x80.Slices ![4, 0, 0] S1x207x80
  slices_S16x207x80_o5_0_0_S1x207x80 : S16x207x80.Slices ![5, 0, 0] S1x207x80
  slices_S16x207x80_o6_0_0_S1x207x80 : S16x207x80.Slices ![6, 0, 0] S1x207x80
  slices_S16x207x80_o7_0_0_S1x207x80 : S16x207x80.Slices ![7, 0, 0] S1x207x80
  slices_S16x207x80_o8_0_0_S1x207x80 : S16x207x80.Slices ![8, 0, 0] S1x207x80
  slices_S16x207x80_o9_0_0_S1x207x80 : S16x207x80.Slices ![9, 0, 0] S1x207x80
  slices_S16x207x80_o10_0_0_S1x207x80 : S16x207x80.Slices ![10, 0, 0] S1x207x80
  slices_S16x207x80_o11_0_0_S1x207x80 : S16x207x80.Slices ![11, 0, 0] S1x207x80
  slices_S16x207x80_o12_0_0_S1x207x80 : S16x207x80.Slices ![12, 0, 0] S1x207x80
  slices_S16x207x80_o13_0_0_S1x207x80 : S16x207x80.Slices ![13, 0, 0] S1x207x80
  slices_S16x207x80_o14_0_0_S1x207x80 : S16x207x80.Slices ![14, 0, 0] S1x207x80
  slices_S16x207x80_o15_0_0_S1x207x80 : S16x207x80.Slices ![15, 0, 0] S1x207x80
  concatenates_S80x512_S80x512_S80x512_S80x512_S80x512_S80x512_S80x512_S80x512_S80x512_S80x512_S80x512_S80x512_S80x512_S80x512_S80x512_S80x512_S1280x512_d0 : Shape.Concatenates [S80x512, S80x512, S80x512, S80x512, S80x512, S80x512, S80x512, S80x512, S80x512, S80x512, S80x512, S80x512, S80x512, S80x512, S80x512, S80x512] S1280x512 0
  slices_S1280x512_o0_0_S1280x207 : S1280x512.Slices ![0, 0] S1280x207
  slices_S1280x512_o0_256_S1280x207 : S1280x512.Slices ![0, 256] S1280x207
  slices_S1280x207_o0_0_S80x207 : S1280x207.Slices ![0, 0] S80x207
  concatenates_S80x207_S80x207_S80x207_S80x207_S320x207_d0 : Shape.Concatenates [S80x207, S80x207, S80x207, S80x207] S320x207 0
  slices_S1280x207_o80_0_S80x207 : S1280x207.Slices ![80, 0] S80x207
  slices_S1280x207_o160_0_S80x207 : S1280x207.Slices ![160, 0] S80x207
  slices_S1280x207_o240_0_S80x207 : S1280x207.Slices ![240, 0] S80x207
  slices_S1280x207_o320_0_S80x207 : S1280x207.Slices ![320, 0] S80x207
  slices_S1280x207_o400_0_S80x207 : S1280x207.Slices ![400, 0] S80x207
  slices_S1280x207_o480_0_S80x207 : S1280x207.Slices ![480, 0] S80x207
  slices_S1280x207_o560_0_S80x207 : S1280x207.Slices ![560, 0] S80x207
  slices_S1280x207_o640_0_S80x207 : S1280x207.Slices ![640, 0] S80x207
  slices_S1280x207_o720_0_S80x207 : S1280x207.Slices ![720, 0] S80x207
  slices_S1280x207_o800_0_S80x207 : S1280x207.Slices ![800, 0] S80x207
  slices_S1280x207_o880_0_S80x207 : S1280x207.Slices ![880, 0] S80x207
  slices_S1280x207_o960_0_S80x207 : S1280x207.Slices ![960, 0] S80x207
  slices_S1280x207_o1040_0_S80x207 : S1280x207.Slices ![1040, 0] S80x207
  slices_S1280x207_o1120_0_S80x207 : S1280x207.Slices ![1120, 0] S80x207
  slices_S1280x207_o1200_0_S80x207 : S1280x207.Slices ![1200, 0] S80x207
  concatenates_S207x128_S207x128_S207x128_S207x128_S207x128_S207x128_S207x128_S207x128_S207x128_S207x128_S207x128_S207x128_S207x128_S207x128_S207x128_S207x128_S3312x128_d0 : Shape.Concatenates [S207x128, S207x128, S207x128, S207x128, S207x128, S207x128, S207x128, S207x128, S207x128, S207x128, S207x128, S207x128, S207x128, S207x128, S207x128, S207x128] S3312x128 0
  broadcasts_S1x128_S3312x128 : S1x128.Broadcasts S3312x128
  slices_S3312x128_o0_0_S3312x64 : S3312x128.Slices ![0, 0] S3312x64
  slices_S3312x128_o0_64_S3312x64 : S3312x128.Slices ![0, 64] S3312x64
  concatenates_S207x64_S207x64_S207x64_S207x64_S207x64_S207x64_S207x64_S207x64_S207x64_S207x64_S207x64_S207x64_S207x64_S207x64_S207x64_S207x64_S3312x64_d0 : Shape.Concatenates [S207x64, S207x64, S207x64, S207x64, S207x64, S207x64, S207x64, S207x64, S207x64, S207x64, S207x64, S207x64, S207x64, S207x64, S207x64, S207x64] S3312x64 0
  broadcasts_S1x64_S3312x64 : S1x64.Broadcasts S3312x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  transposes_S3312x64_p1_0_S64x3312 : S3312x64.Transposes [1, 0] S64x3312
  transposes_S1x3312_p1_0_S3312x1 : S1x3312.Transposes [1, 0] S3312x1
  concatenates_S3312x1_S3312x15_S3312x16_d1 : Shape.Concatenates [S3312x1, S3312x15] S3312x16 1
  h_S1x3312 : 0 < S1x3312.numel
  shapeCasts_S8x3312_S8x16x207 : S8x3312.ShapeCasts S8x16x207
  dot_S3312x80_S80x128_S3312x128_1_0_0_1_n_n_wf : DotDims.WF S3312x80 S80x128 S3312x128 [1] [0] [0] [1] [] []
  dot_S207x80_S207x512_S80x512_0_0_1_1_n_n_wf : DotDims.WF S207x80 S207x512 S80x512 [0] [0] [1] [1] [] []
  dot_S1280x207_S207x207_S1280x207_1_0_0_1_n_n_wf : DotDims.WF S1280x207 S207x207 S1280x207 [1] [0] [0] [1] [] []
  dot_S320x207_S320x128_S207x128_0_0_1_1_n_n_wf : DotDims.WF S320x207 S320x128 S207x128 [0] [0] [1] [1] [] []
  dot_S3312x80_S80x64_S3312x64_1_0_0_1_n_n_wf : DotDims.WF S3312x80 S80x64 S3312x64 [1] [0] [0] [1] [] []
  dot_S320x207_S320x64_S207x64_0_0_1_1_n_n_wf : DotDims.WF S320x207 S320x64 S207x64 [0] [0] [1] [1] [] []
  dot_S1x64_S64x3312_S1x3312_1_0_0_1_n_n_wf : DotDims.WF S1x64 S64x3312 S1x3312 [1] [0] [0] [1] [] []
  k0_t1_ok : k0_t1_loop.OK
  k0_off1_inb : ∀ k0_t1 : Fin k0_t1_loop.trips, ∀ a, (k0_off1 k0_t1) a + S1x3312x16.size a ≤ S8x3312x16.size a
  k0_t2_ok : k0_t2_loop.OK
  k0_off2_inb : ∀ k0_t2 : Fin k0_t2_loop.trips, ∀ a, (k0_off2 k0_t2) a + S1x3312.size a ≤ S8x3312.size a
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole

variable [Facts₀]

def dot_S3312x80_S80x128_S3312x128_1_0_0_1_n_n : DotDims S3312x80 S80x128 S3312x128 where
  lhsContracting := [1]
  rhsContracting := [0]
  lhsNonContracting := [0]
  rhsNonContracting := [1]
  lhsBatch := []
  rhsBatch := []
  wf := dot_S3312x80_S80x128_S3312x128_1_0_0_1_n_n_wf
def dot_S207x80_S207x512_S80x512_0_0_1_1_n_n : DotDims S207x80 S207x512 S80x512 where
  lhsContracting := [0]
  rhsContracting := [0]
  lhsNonContracting := [1]
  rhsNonContracting := [1]
  lhsBatch := []
  rhsBatch := []
  wf := dot_S207x80_S207x512_S80x512_0_0_1_1_n_n_wf
def dot_S1280x207_S207x207_S1280x207_1_0_0_1_n_n : DotDims S1280x207 S207x207 S1280x207 where
  lhsContracting := [1]
  rhsContracting := [0]
  lhsNonContracting := [0]
  rhsNonContracting := [1]
  lhsBatch := []
  rhsBatch := []
  wf := dot_S1280x207_S207x207_S1280x207_1_0_0_1_n_n_wf
def dot_S320x207_S320x128_S207x128_0_0_1_1_n_n : DotDims S320x207 S320x128 S207x128 where
  lhsContracting := [0]
  rhsContracting := [0]
  lhsNonContracting := [1]
  rhsNonContracting := [1]
  lhsBatch := []
  rhsBatch := []
  wf := dot_S320x207_S320x128_S207x128_0_0_1_1_n_n_wf
def dot_S3312x80_S80x64_S3312x64_1_0_0_1_n_n : DotDims S3312x80 S80x64 S3312x64 where
  lhsContracting := [1]
  rhsContracting := [0]
  lhsNonContracting := [0]
  rhsNonContracting := [1]
  lhsBatch := []
  rhsBatch := []
  wf := dot_S3312x80_S80x64_S3312x64_1_0_0_1_n_n_wf
def dot_S320x207_S320x64_S207x64_0_0_1_1_n_n : DotDims S320x207 S320x64 S207x64 where
  lhsContracting := [0]
  rhsContracting := [0]
  lhsNonContracting := [1]
  rhsNonContracting := [1]
  lhsBatch := []
  rhsBatch := []
  wf := dot_S320x207_S320x64_S207x64_0_0_1_1_n_n_wf
def dot_S1x64_S64x3312_S1x3312_1_0_0_1_n_n : DotDims S1x64 S64x3312 S1x3312 where
  lhsContracting := [1]
  rhsContracting := [0]
  lhsNonContracting := [0]
  rhsNonContracting := [1]
  lhsBatch := []
  rhsBatch := []
  wf := dot_S1x64_S64x3312_S1x3312_1_0_0_1_n_n_wf

abbrev win0_0 : Pipeline.Window sig grid0 :=
  Pipeline.Window.whole (Memref.whole main_v2) false false (stage0_0 0) (sem0_0 0) (Memref.isWhole_whole _) (hstage0_0 0)

abbrev win0_1 : Pipeline.Window sig grid0 :=
  Pipeline.Window.whole (Memref.whole main_v120) false false (stage0_1 0) (sem0_1 0) (Memref.isWhole_whole _) (hstage0_1 0)

abbrev win0_2 : Pipeline.Window sig grid0 :=
  Pipeline.Window.whole (Memref.whole main_v116) false false (stage0_2 0) (sem0_2 0) (Memref.isWhole_whole _) (hstage0_2 0)

abbrev win0_3 : Pipeline.Window sig grid0 :=
  Pipeline.Window.whole (Memref.whole main_v118) false false (stage0_3 0) (sem0_3 0) (Memref.isWhole_whole _) (hstage0_3 0)

abbrev win0_4 : Pipeline.Window sig grid0 :=
  Pipeline.Window.whole (Memref.whole main_v29) false false (stage0_4 0) (sem0_4 0) (Memref.isWhole_whole _) (hstage0_4 0)

abbrev win0_5 : Pipeline.Window sig grid0 :=
  Pipeline.Window.whole (Memref.whole main_v30) false false (stage0_5 0) (sem0_5 0) (Memref.isWhole_whole _) (hstage0_5 0)

abbrev win0_6 : Pipeline.Window sig grid0 :=
  Pipeline.Window.whole (Memref.whole main_v121) false false (stage0_6 0) (sem0_6 0) (Memref.isWhole_whole _) (hstage0_6 0)

abbrev win0_7 : Pipeline.Window sig grid0 :=
  Pipeline.Window.whole (Memref.whole main_v57) false false (stage0_7 0) (sem0_7 0) (Memref.isWhole_whole _) (hstage0_7 0)

abbrev win0_8 : Pipeline.Window sig grid0 :=
  Pipeline.Window.whole (Memref.whole main_v58) false false (stage0_8 0) (sem0_8 0) (Memref.isWhole_whole _) (hstage0_8 0)

abbrev win0_9 : Pipeline.Window sig grid0 :=
  Pipeline.Window.whole (Memref.whole main_v122) false false (stage0_9 0) (sem0_9 0) (Memref.isWhole_whole _) (hstage0_9 0)

abbrev win0_10 : Pipeline.Window sig grid0 :=
  Pipeline.Window.whole (Memref.whole main_v85) false false (stage0_10 0) (sem0_10 0) (Memref.isWhole_whole _) (hstage0_10 0)

abbrev win0_11 : Pipeline.Window sig grid0 :=
  Pipeline.Window.whole (Memref.whole main_v86) false false (stage0_11 0) (sem0_11 0) (Memref.isWhole_whole _) (hstage0_11 0)

abbrev win0_12 : Pipeline.Window sig grid0 :=
  Pipeline.Window.whole (Memref.whole main_v123) false false (stage0_12 0) (sem0_12 0) (Memref.isWhole_whole _) (hstage0_12 0)

abbrev win0_13 : Pipeline.Window sig grid0 :=
  Pipeline.Window.whole (Memref.whole main_v113) false false (stage0_13 0) (sem0_13 0) (Memref.isWhole_whole _) (hstage0_13 0)

abbrev win0_14 : Pipeline.Window sig grid0 :=
  Pipeline.Window.whole (Memref.whole main_v114) false false (stage0_14 0) (sem0_14 0) (Memref.isWhole_whole _) (hstage0_14 0)

abbrev win0_15 : Pipeline.Window sig grid0 :=
  Pipeline.Window.whole (Memref.whole main_v124) false false (stage0_15 0) (sem0_15 0) (Memref.isWhole_whole _) (hstage0_15 0)

abbrev win0_16 : Pipeline.Window sig grid0 :=
  Pipeline.Window.whole (Memref.whole main_v125) false false (stage0_16 0) (sem0_16 0) (Memref.isWhole_whole _) (hstage0_16 0)

abbrev win0_17 : Pipeline.Window sig grid0 :=
  Pipeline.Window.whole (Memref.whole main_v126) false false (stage0_17 0) (sem0_17 0) (Memref.isWhole_whole _) (hstage0_17 0)

abbrev win0_18 : Pipeline.Window sig grid0 :=
  Pipeline.Window.whole (Memref.whole main_v127) true false (stage0_18 0) (sem0_18 0) (Memref.isWhole_whole _) (hstage0_18 0)

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S8x16x1656 : Shape := ⟨3, ![8, 16, 1656]⟩
abbrev S207x207 : Shape := ⟨2, ![207, 207]⟩
abbrev S360x128 : Shape := ⟨2, ![360, 128]⟩
abbrev S128 : Shape := ⟨1, ![128]⟩
abbrev S360x64 : Shape := ⟨2, ![360, 64]⟩
abbrev S64 : Shape := ⟨1, ![64]⟩
abbrev S325x128 : Shape := ⟨2, ![325, 128]⟩
abbrev S325x64 : Shape := ⟨2, ![325, 64]⟩
abbrev S64x1 : Shape := ⟨2, ![64, 1]⟩
abbrev S1 : Shape := ⟨1, ![1]⟩
abbrev S_ : Shape := ⟨0, ![]⟩
abbrev S16x13248 : Shape := ⟨2, ![16, 13248]⟩
abbrev S1x16x1656 : Shape := ⟨3, ![1, 16, 1656]⟩
abbrev S16x1656 : Shape := ⟨2, ![16, 1656]⟩
abbrev S16x207x8 : Shape := ⟨3, ![16, 207, 8]⟩
abbrev S16x207x64 : Shape := ⟨3, ![16, 207, 64]⟩
abbrev S16x207x72 : Shape := ⟨3, ![16, 207, 72]⟩
abbrev S207x72x16 : Shape := ⟨3, ![207, 72, 16]⟩
abbrev S207x1152 : Shape := ⟨2, ![207, 1152]⟩
abbrev S1x207x1152 : Shape := ⟨3, ![1, 207, 1152]⟩
abbrev S5x207x1152 : Shape := ⟨3, ![5, 207, 1152]⟩
abbrev S5x207x72x16 : Shape := ⟨4, ![5, 207, 72, 16]⟩
abbrev S16x207x72x5 : Shape := ⟨4, ![16, 207, 72, 5]⟩
abbrev S3312x360 : Shape := ⟨2, ![3312, 360]⟩
abbrev S3312x128 : Shape := ⟨2, ![3312, 128]⟩
abbrev S1x128 : Shape := ⟨2, ![1, 128]⟩
abbrev S16x26496 : Shape := ⟨2, ![16, 26496]⟩
abbrev S16x207x128 : Shape := ⟨3, ![16, 207, 128]⟩
abbrev S3312x64 : Shape := ⟨2, ![3312, 64]⟩
abbrev S1x64 : Shape := ⟨2, ![1, 64]⟩
abbrev S16x207 : Shape := ⟨2, ![16, 207]⟩
abbrev S16x207x1 : Shape := ⟨3, ![16, 207, 1]⟩
abbrev S16x207x65 : Shape := ⟨3, ![16, 207, 65]⟩
abbrev S207x65x16 : Shape := ⟨3, ![207, 65, 16]⟩
abbrev S207x1040 : Shape := ⟨2, ![207, 1040]⟩
abbrev S1x207x1040 : Shape := ⟨3, ![1, 207, 1040]⟩
abbrev S5x207x1040 : Shape := ⟨3, ![5, 207, 1040]⟩
abbrev S5x207x65x16 : Shape := ⟨4, ![5, 207, 65, 16]⟩
abbrev S16x207x65x5 : Shape := ⟨4, ![16, 207, 65, 5]⟩
abbrev S3312x325 : Shape := ⟨2, ![3312, 325]⟩
abbrev S3312x1 : Shape := ⟨2, ![3312, 1]⟩
abbrev S1x1 : Shape := ⟨2, ![1, 1]⟩
abbrev S1x16x207 : Shape := ⟨3, ![1, 16, 207]⟩
abbrev S8x16x207 : Shape := ⟨3, ![8, 16, 207]⟩

abbrev nBuf : Space → Nat
  | .hbm => 1402
  | .vmem => 0
  | .smem => 0
  | _ => 0

abbrev hbmTy0_0 (i : Nat) : BufTy := match i % 128 with
  | 0 => ⟨S8x16x1656, .f32⟩
  | 1 => ⟨S207x207, .f32⟩
  | 2 => ⟨S207x207, .f32⟩
  | 3 => ⟨S360x128, .f32⟩
  | 4 => ⟨S128, .f32⟩
  | 5 => ⟨S360x64, .f32⟩
  | 6 => ⟨S64, .f32⟩
  | 7 => ⟨S325x128, .f32⟩
  | 8 => ⟨S128, .f32⟩
  | 9 => ⟨S325x64, .f32⟩
  | 10 => ⟨S64, .f32⟩
  | 11 => ⟨S64x1, .f32⟩
  | 12 => ⟨S1, .f32⟩
  | 13 => ⟨S_, .f32⟩
  | 14 => ⟨S16x13248, .f32⟩
  | 15 => ⟨S1x16x1656, .f32⟩
  | 16 => ⟨S16x1656, .f32⟩
  | 17 => ⟨S16x207x8, .f32⟩
  | 18 => ⟨S16x207x64, .f32⟩
  | 19 => ⟨S16x207x72, .f32⟩
  | 20 => ⟨S207x72x16, .f32⟩
  | 21 => ⟨S207x1152, .f32⟩
  | 22 => ⟨S207x1152, .f32⟩
  | 23 => ⟨S207x1152, .f32⟩
  | 24 => ⟨S_, .f32⟩
  | 25 => ⟨S207x1152, .f32⟩
  | 26 => ⟨S207x1152, .f32⟩
  | 27 => ⟨S207x1152, .f32⟩
  | 28 => ⟨S207x1152, .f32⟩
  | 29 => ⟨S207x1152, .f32⟩
  | 30 => ⟨S_, .f32⟩
  | 31 => ⟨S207x1152, .f32⟩
  | 32 => ⟨S207x1152, .f32⟩
  | 33 => ⟨S207x1152, .f32⟩
  | 34 => ⟨S1x207x1152, .f32⟩
  | 35 => ⟨S1x207x1152, .f32⟩
  | 36 => ⟨S1x207x1152, .f32⟩
  | 37 => ⟨S1x207x1152, .f32⟩
  | 38 => ⟨S1x207x1152, .f32⟩
  | 39 => ⟨S5x207x1152, .f32⟩
  | 40 => ⟨S5x207x72x16, .f32⟩
  | 41 => ⟨S16x207x72x5, .f32⟩
  | 42 => ⟨S3312x360, .f32⟩
  | 43 => ⟨S3312x128, .f32⟩
  | 44 => ⟨S1x128, .f32⟩
  | 45 => ⟨S3312x128, .f32⟩
  | 46 => ⟨S3312x128, .f32⟩
  | 47 => ⟨S16x26496, .f32⟩
  | 48 => ⟨S16x26496, .f32⟩
  | 49 => ⟨S16x26496, .f32⟩
  | 50 => ⟨S_, .f32⟩
  | 51 => ⟨S16x26496, .f32⟩
  | 52 => ⟨S16x26496, .f32⟩
  | 53 => ⟨S_, .f32⟩
  | 54 => ⟨S16x26496, .f32⟩
  | 55 => ⟨S16x26496, .f32⟩
  | 56 => ⟨S16x207x128, .f32⟩
  | 57 => ⟨S16x207x64, .f32⟩
  | 58 => ⟨S16x13248, .f32⟩
  | 59 => ⟨S16x207x64, .f32⟩
  | 60 => ⟨S16x13248, .f32⟩
  | 61 => ⟨S16x13248, .f32⟩
  | 62 => ⟨S16x207x64, .f32⟩
  | 63 => ⟨S16x207x72, .f32⟩
  | 64 => ⟨S207x72x16, .f32⟩
  | 65 => ⟨S207x1152, .f32⟩
  | 66 => ⟨S207x1152, .f32⟩
  | 67 => ⟨S207x1152, .f32⟩
  | 68 => ⟨S_, .f32⟩
  | 69 => ⟨S207x1152, .f32⟩
  | 70 => ⟨S207x1152, .f32⟩
  | 71 => ⟨S207x1152, .f32⟩
  | 72 => ⟨S207x1152, .f32⟩
  | 73 => ⟨S207x1152, .f32⟩
  | 74 => ⟨S_, .f32⟩
  | 75 => ⟨S207x1152, .f32⟩
  | 76 => ⟨S207x1152, .f32⟩
  | 77 => ⟨S207x1152, .f32⟩
  | 78 => ⟨S1x207x1152, .f32⟩
  | 79 => ⟨S1x207x1152, .f32⟩
  | 80 => ⟨S1x207x1152, .f32⟩
  | 81 => ⟨S1x207x1152, .f32⟩
  | 82 => ⟨S1x207x1152, .f32⟩
  | 83 => ⟨S5x207x1152, .f32⟩
  | 84 => ⟨S5x207x72x16, .f32⟩
  | 85 => ⟨S16x207x72x5, .f32⟩
  | 86 => ⟨S3312x360, .f32⟩
  | 87 => ⟨S3312x64, .f32⟩
  | 88 => ⟨S1x64, .f32⟩
  | 89 => ⟨S3312x64, .f32⟩
  | 90 => ⟨S3312x64, .f32⟩
  | 91 => ⟨S16x13248, .f32⟩
  | 92 => ⟨S16x13248, .f32⟩
  | 93 => ⟨S16x13248, .f32⟩
  | 94 => ⟨S_, .f32⟩
  | 95 => ⟨S16x13248, .f32⟩
  | 96 => ⟨S16x13248, .f32⟩
  | 97 => ⟨S16x13248, .f32⟩
  | 98 => ⟨S16x13248, .f32⟩
  | 99 => ⟨S1x16x1656, .f32⟩
  | 100 => ⟨S16x1656, .f32⟩
  | 101 => ⟨S16x207x8, .f32⟩
  | 102 => ⟨S16x207x64, .f32⟩
  | 103 => ⟨S16x207x72, .f32⟩
  | 104 => ⟨S207x72x16, .f32⟩
  | 105 => ⟨S207x1152, .f32⟩
  | 106 => ⟨S207x1152, .f32⟩
  | 107 => ⟨S207x1152, .f32⟩
  | 108 => ⟨S_, .f32⟩
  | 109 => ⟨S207x1152, .f32⟩
  | 110 => ⟨S207x1152, .f32⟩
  | 111 => ⟨S207x1152, .f32⟩
  | 112 => ⟨S207x1152, .f32⟩
  | 113 => ⟨S207x1152, .f32⟩
  | 114 => ⟨S_, .f32⟩
  | 115 => ⟨S207x1152, .f32⟩
  | 116 => ⟨S207x1152, .f32⟩
  | 117 => ⟨S207x1152, .f32⟩
  | 118 => ⟨S1x207x1152, .f32⟩
  | 119 => ⟨S1x207x1152, .f32⟩
  | 120 => ⟨S1x207x1152, .f32⟩
  | 121 => ⟨S1x207x1152, .f32⟩
  | 122 => ⟨S1x207x1152, .f32⟩
  | 123 => ⟨S5x207x1152, .f32⟩
  | 124 => ⟨S5x207x72x16, .f32⟩
  | 125 => ⟨S16x207x72x5, .f32⟩
  | 126 => ⟨S3312x360, .f32⟩
  | 127 => ⟨S3312x128, .f32⟩
  | _ => ⟨S8x16x1656, .f32⟩

abbrev hbmTy0_1 (i : Nat) : BufTy := match i % 128 with
  | 0 => ⟨S1x128, .f32⟩
  | 1 => ⟨S3312x128, .f32⟩
  | 2 => ⟨S3312x128, .f32⟩
  | 3 => ⟨S16x26496, .f32⟩
  | 4 => ⟨S16x26496, .f32⟩
  | 5 => ⟨S16x26496, .f32⟩
  | 6 => ⟨S_, .f32⟩
  | 7 => ⟨S16x26496, .f32⟩
  | 8 => ⟨S16x26496, .f32⟩
  | 9 => ⟨S_, .f32⟩
  | 10 => ⟨S16x26496, .f32⟩
  | 11 => ⟨S16x26496, .f32⟩
  | 12 => ⟨S16x207x128, .f32⟩
  | 13 => ⟨S16x207x64, .f32⟩
  | 14 => ⟨S16x13248, .f32⟩
  | 15 => ⟨S16x207x64, .f32⟩
  | 16 => ⟨S16x13248, .f32⟩
  | 17 => ⟨S16x13248, .f32⟩
  | 18 => ⟨S16x207x64, .f32⟩
  | 19 => ⟨S16x207x72, .f32⟩
  | 20 => ⟨S207x72x16, .f32⟩
  | 21 => ⟨S207x1152, .f32⟩
  | 22 => ⟨S207x1152, .f32⟩
  | 23 => ⟨S207x1152, .f32⟩
  | 24 => ⟨S_, .f32⟩
  | 25 => ⟨S207x1152, .f32⟩
  | 26 => ⟨S207x1152, .f32⟩
  | 27 => ⟨S207x1152, .f32⟩
  | 28 => ⟨S207x1152, .f32⟩
  | 29 => ⟨S207x1152, .f32⟩
  | 30 => ⟨S_, .f32⟩
  | 31 => ⟨S207x1152, .f32⟩
  | 32 => ⟨S207x1152, .f32⟩
  | 33 => ⟨S207x1152, .f32⟩
  | 34 => ⟨S1x207x1152, .f32⟩
  | 35 => ⟨S1x207x1152, .f32⟩
  | 36 => ⟨S1x207x1152, .f32⟩
  | 37 => ⟨S1x207x1152, .f32⟩
  | 38 => ⟨S1x207x1152, .f32⟩
  | 39 => ⟨S5x207x1152, .f32⟩
  | 40 => ⟨S5x207x72x16, .f32⟩
  | 41 => ⟨S16x207x72x5, .f32⟩
  | 42 => ⟨S3312x360, .f32⟩
  | 43 => ⟨S3312x64, .f32⟩
  | 44 => ⟨S1x64, .f32⟩
  | 45 => ⟨S3312x64, .f32⟩
  | 46 => ⟨S3312x64, .f32⟩
  | 47 => ⟨S16x13248, .f32⟩
  | 48 => ⟨S16x13248, .f32⟩
  | 49 => ⟨S16x13248, .f32⟩
  | 50 => ⟨S_, .f32⟩
  | 51 => ⟨S16x13248, .f32⟩
  | 52 => ⟨S16x13248, .f32⟩
  | 53 => ⟨S16x13248, .f32⟩
  | 54 => ⟨S16x13248, .f32⟩
  | 55 => ⟨S1x16x1656, .f32⟩
  | 56 => ⟨S16x1656, .f32⟩
  | 57 => ⟨S16x207x8, .f32⟩
  | 58 => ⟨S16x207x64, .f32⟩
  | 59 => ⟨S16x207x72, .f32⟩
  | 60 => ⟨S207x72x16, .f32⟩
  | 61 => ⟨S207x1152, .f32⟩
  | 62 => ⟨S207x1152, .f32⟩
  | 63 => ⟨S207x1152, .f32⟩
  | 64 => ⟨S_, .f32⟩
  | 65 => ⟨S207x1152, .f32⟩
  | 66 => ⟨S207x1152, .f32⟩
  | 67 => ⟨S207x1152, .f32⟩
  | 68 => ⟨S207x1152, .f32⟩
  | 69 => ⟨S207x1152, .f32⟩
  | 70 => ⟨S_, .f32⟩
  | 71 => ⟨S207x1152, .f32⟩
  | 72 => ⟨S207x1152, .f32⟩
  | 73 => ⟨S207x1152, .f32⟩
  | 74 => ⟨S1x207x1152, .f32⟩
  | 75 => ⟨S1x207x1152, .f32⟩
  | 76 => ⟨S1x207x1152, .f32⟩
  | 77 => ⟨S1x207x1152, .f32⟩
  | 78 => ⟨S1x207x1152, .f32⟩
  | 79 => ⟨S5x207x1152, .f32⟩
  | 80 => ⟨S5x207x72x16, .f32⟩
  | 81 => ⟨S16x207x72x5, .f32⟩
  | 82 => ⟨S3312x360, .f32⟩
  | 83 => ⟨S3312x128, .f32⟩
  | 84 => ⟨S1x128, .f32⟩
  | 85 => ⟨S3312x128, .f32⟩
  | 86 => ⟨S3312x128, .f32⟩
  | 87 => ⟨S16x26496, .f32⟩
  | 88 => ⟨S16x26496, .f32⟩
  | 89 => ⟨S16x26496, .f32⟩
  | 90 => ⟨S_, .f32⟩
  | 91 => ⟨S16x26496, .f32⟩
  | 92 => ⟨S16x26496, .f32⟩
  | 93 => ⟨S_, .f32⟩
  | 94 => ⟨S16x26496, .f32⟩
  | 95 => ⟨S16x26496, .f32⟩
  | 96 => ⟨S16x207x128, .f32⟩
  | 97 => ⟨S16x207x64, .f32⟩
  | 98 => ⟨S16x13248, .f32⟩
  | 99 => ⟨S16x207x64, .f32⟩
  | 100 => ⟨S16x13248, .f32⟩
  | 101 => ⟨S16x13248, .f32⟩
  | 102 => ⟨S16x207x64, .f32⟩
  | 103 => ⟨S16x207x72, .f32⟩
  | 104 => ⟨S207x72x16, .f32⟩
  | 105 => ⟨S207x1152, .f32⟩
  | 106 => ⟨S207x1152, .f32⟩
  | 107 => ⟨S207x1152, .f32⟩
  | 108 => ⟨S_, .f32⟩
  | 109 => ⟨S207x1152, .f32⟩
  | 110 => ⟨S207x1152, .f32⟩
  | 111 => ⟨S207x1152, .f32⟩
  | 112 => ⟨S207x1152, .f32⟩
  | 113 => ⟨S207x1152, .f32⟩
  | 114 => ⟨S_, .f32⟩
  | 115 => ⟨S207x1152, .f32⟩
  | 116 => ⟨S207x1152, .f32⟩
  | 117 => ⟨S207x1152, .f32⟩
  | 118 => ⟨S1x207x1152, .f32⟩
  | 119 => ⟨S1x207x1152, .f32⟩
  | 120 => ⟨S1x207x1152, .f32⟩
  | 121 => ⟨S1x207x1152, .f32⟩
  | 122 => ⟨S1x207x1152, .f32⟩
  | 123 => ⟨S5x207x1152, .f32⟩
  | 124 => ⟨S5x207x72x16, .f32⟩
  | 125 => ⟨S16x207x72x5, .f32⟩
  | 126 => ⟨S3312x360, .f32⟩
  | 127 => ⟨S3312x64, .f32⟩
  | _ => ⟨S8x16x1656, .f32⟩

abbrev hbmTy0_2 (i : Nat) : BufTy := match i % 128 with
  | 0 => ⟨S1x64, .f32⟩
  | 1 => ⟨S3312x64, .f32⟩
  | 2 => ⟨S3312x64, .f32⟩
  | 3 => ⟨S16x13248, .f32⟩
  | 4 => ⟨S16x13248, .f32⟩
  | 5 => ⟨S16x13248, .f32⟩
  | 6 => ⟨S_, .f32⟩
  | 7 => ⟨S16x13248, .f32⟩
  | 8 => ⟨S16x13248, .f32⟩
  | 9 => ⟨S16x13248, .f32⟩
  | 10 => ⟨S16x13248, .f32⟩
  | 11 => ⟨S1x16x1656, .f32⟩
  | 12 => ⟨S16x1656, .f32⟩
  | 13 => ⟨S16x207x8, .f32⟩
  | 14 => ⟨S16x207x64, .f32⟩
  | 15 => ⟨S16x207x72, .f32⟩
  | 16 => ⟨S207x72x16, .f32⟩
  | 17 => ⟨S207x1152, .f32⟩
  | 18 => ⟨S207x1152, .f32⟩
  | 19 => ⟨S207x1152, .f32⟩
  | 20 => ⟨S_, .f32⟩
  | 21 => ⟨S207x1152, .f32⟩
  | 22 => ⟨S207x1152, .f32⟩
  | 23 => ⟨S207x1152, .f32⟩
  | 24 => ⟨S207x1152, .f32⟩
  | 25 => ⟨S207x1152, .f32⟩
  | 26 => ⟨S_, .f32⟩
  | 27 => ⟨S207x1152, .f32⟩
  | 28 => ⟨S207x1152, .f32⟩
  | 29 => ⟨S207x1152, .f32⟩
  | 30 => ⟨S1x207x1152, .f32⟩
  | 31 => ⟨S1x207x1152, .f32⟩
  | 32 => ⟨S1x207x1152, .f32⟩
  | 33 => ⟨S1x207x1152, .f32⟩
  | 34 => ⟨S1x207x1152, .f32⟩
  | 35 => ⟨S5x207x1152, .f32⟩
  | 36 => ⟨S5x207x72x16, .f32⟩
  | 37 => ⟨S16x207x72x5, .f32⟩
  | 38 => ⟨S3312x360, .f32⟩
  | 39 => ⟨S3312x128, .f32⟩
  | 40 => ⟨S1x128, .f32⟩
  | 41 => ⟨S3312x128, .f32⟩
  | 42 => ⟨S3312x128, .f32⟩
  | 43 => ⟨S16x26496, .f32⟩
  | 44 => ⟨S16x26496, .f32⟩
  | 45 => ⟨S16x26496, .f32⟩
  | 46 => ⟨S_, .f32⟩
  | 47 => ⟨S16x26496, .f32⟩
  | 48 => ⟨S16x26496, .f32⟩
  | 49 => ⟨S_, .f32⟩
  | 50 => ⟨S16x26496, .f32⟩
  | 51 => ⟨S16x26496, .f32⟩
  | 52 => ⟨S16x207x128, .f32⟩
  | 53 => ⟨S16x207x64, .f32⟩
  | 54 => ⟨S16x13248, .f32⟩
  | 55 => ⟨S16x207x64, .f32⟩
  | 56 => ⟨S16x13248, .f32⟩
  | 57 => ⟨S16x13248, .f32⟩
  | 58 => ⟨S16x207x64, .f32⟩
  | 59 => ⟨S16x207x72, .f32⟩
  | 60 => ⟨S207x72x16, .f32⟩
  | 61 => ⟨S207x1152, .f32⟩
  | 62 => ⟨S207x1152, .f32⟩
  | 63 => ⟨S207x1152, .f32⟩
  | 64 => ⟨S_, .f32⟩
  | 65 => ⟨S207x1152, .f32⟩
  | 66 => ⟨S207x1152, .f32⟩
  | 67 => ⟨S207x1152, .f32⟩
  | 68 => ⟨S207x1152, .f32⟩
  | 69 => ⟨S207x1152, .f32⟩
  | 70 => ⟨S_, .f32⟩
  | 71 => ⟨S207x1152, .f32⟩
  | 72 => ⟨S207x1152, .f32⟩
  | 73 => ⟨S207x1152, .f32⟩
  | 74 => ⟨S1x207x1152, .f32⟩
  | 75 => ⟨S1x207x1152, .f32⟩
  | 76 => ⟨S1x207x1152, .f32⟩
  | 77 => ⟨S1x207x1152, .f32⟩
  | 78 => ⟨S1x207x1152, .f32⟩
  | 79 => ⟨S5x207x1152, .f32⟩
  | 80 => ⟨S5x207x72x16, .f32⟩
  | 81 => ⟨S16x207x72x5, .f32⟩
  | 82 => ⟨S3312x360, .f32⟩
  | 83 => ⟨S3312x64, .f32⟩
  | 84 => ⟨S1x64, .f32⟩
  | 85 => ⟨S3312x64, .f32⟩
  | 86 => ⟨S3312x64, .f32⟩
  | 87 => ⟨S16x13248, .f32⟩
  | 88 => ⟨S16x13248, .f32⟩
  | 89 => ⟨S16x13248, .f32⟩
  | 90 => ⟨S_, .f32⟩
  | 91 => ⟨S16x13248, .f32⟩
  | 92 => ⟨S16x13248, .f32⟩
  | 93 => ⟨S16x13248, .f32⟩
  | 94 => ⟨S16x13248, .f32⟩
  | 95 => ⟨S1x16x1656, .f32⟩
  | 96 => ⟨S16x1656, .f32⟩
  | 97 => ⟨S16x207x8, .f32⟩
  | 98 => ⟨S16x207x64, .f32⟩
  | 99 => ⟨S16x207x72, .f32⟩
  | 100 => ⟨S207x72x16, .f32⟩
  | 101 => ⟨S207x1152, .f32⟩
  | 102 => ⟨S207x1152, .f32⟩
  | 103 => ⟨S207x1152, .f32⟩
  | 104 => ⟨S_, .f32⟩
  | 105 => ⟨S207x1152, .f32⟩
  | 106 => ⟨S207x1152, .f32⟩
  | 107 => ⟨S207x1152, .f32⟩
  | 108 => ⟨S207x1152, .f32⟩
  | 109 => ⟨S207x1152, .f32⟩
  | 110 => ⟨S_, .f32⟩
  | 111 => ⟨S207x1152, .f32⟩
  | 112 => ⟨S207x1152, .f32⟩
  | 113 => ⟨S207x1152, .f32⟩
  | 114 => ⟨S1x207x1152, .f32⟩
  | 115 => ⟨S1x207x1152, .f32⟩
  | 116 => ⟨S1x207x1152, .f32⟩
  | 117 => ⟨S1x207x1152, .f32⟩
  | 118 => ⟨S1x207x1152, .f32⟩
  | 119 => ⟨S5x207x1152, .f32⟩
  | 120 => ⟨S5x207x72x16, .f32⟩
  | 121 => ⟨S16x207x72x5, .f32⟩
  | 122 => ⟨S3312x360, .f32⟩
  | 123 => ⟨S3312x128, .f32⟩
  | 124 => ⟨S1x128, .f32⟩
  | 125 => ⟨S3312x128, .f32⟩
  | 126 => ⟨S3312x128, .f32⟩
  | 127 => ⟨S16x26496, .f32⟩
  | _ => ⟨S8x16x1656, .f32⟩

abbrev hbmTy0_3 (i : Nat) : BufTy := match i % 128 with
  | 0 => ⟨S16x26496, .f32⟩
  | 1 => ⟨S16x26496, .f32⟩
  | 2 => ⟨S_, .f32⟩
  | 3 => ⟨S16x26496, .f32⟩
  | 4 => ⟨S16x26496, .f32⟩
  | 5 => ⟨S_, .f32⟩
  | 6 => ⟨S16x26496, .f32⟩
  | 7 => ⟨S16x26496, .f32⟩
  | 8 => ⟨S16x207x128, .f32⟩
  | 9 => ⟨S16x207x64, .f32⟩
  | 10 => ⟨S16x13248, .f32⟩
  | 11 => ⟨S16x207x64, .f32⟩
  | 12 => ⟨S16x13248, .f32⟩
  | 13 => ⟨S16x13248, .f32⟩
  | 14 => ⟨S16x207x64, .f32⟩
  | 15 => ⟨S16x207x72, .f32⟩
  | 16 => ⟨S207x72x16, .f32⟩
  | 17 => ⟨S207x1152, .f32⟩
  | 18 => ⟨S207x1152, .f32⟩
  | 19 => ⟨S207x1152, .f32⟩
  | 20 => ⟨S_, .f32⟩
  | 21 => ⟨S207x1152, .f32⟩
  | 22 => ⟨S207x1152, .f32⟩
  | 23 => ⟨S207x1152, .f32⟩
  | 24 => ⟨S207x1152, .f32⟩
  | 25 => ⟨S207x1152, .f32⟩
  | 26 => ⟨S_, .f32⟩
  | 27 => ⟨S207x1152, .f32⟩
  | 28 => ⟨S207x1152, .f32⟩
  | 29 => ⟨S207x1152, .f32⟩
  | 30 => ⟨S1x207x1152, .f32⟩
  | 31 => ⟨S1x207x1152, .f32⟩
  | 32 => ⟨S1x207x1152, .f32⟩
  | 33 => ⟨S1x207x1152, .f32⟩
  | 34 => ⟨S1x207x1152, .f32⟩
  | 35 => ⟨S5x207x1152, .f32⟩
  | 36 => ⟨S5x207x72x16, .f32⟩
  | 37 => ⟨S16x207x72x5, .f32⟩
  | 38 => ⟨S3312x360, .f32⟩
  | 39 => ⟨S3312x64, .f32⟩
  | 40 => ⟨S1x64, .f32⟩
  | 41 => ⟨S3312x64, .f32⟩
  | 42 => ⟨S3312x64, .f32⟩
  | 43 => ⟨S16x13248, .f32⟩
  | 44 => ⟨S16x13248, .f32⟩
  | 45 => ⟨S16x13248, .f32⟩
  | 46 => ⟨S_, .f32⟩
  | 47 => ⟨S16x13248, .f32⟩
  | 48 => ⟨S16x13248, .f32⟩
  | 49 => ⟨S16x13248, .f32⟩
  | 50 => ⟨S16x13248, .f32⟩
  | 51 => ⟨S1x16x1656, .f32⟩
  | 52 => ⟨S16x1656, .f32⟩
  | 53 => ⟨S16x207x8, .f32⟩
  | 54 => ⟨S16x207x64, .f32⟩
  | 55 => ⟨S16x207x72, .f32⟩
  | 56 => ⟨S207x72x16, .f32⟩
  | 57 => ⟨S207x1152, .f32⟩
  | 58 => ⟨S207x1152, .f32⟩
  | 59 => ⟨S207x1152, .f32⟩
  | 60 => ⟨S_, .f32⟩
  | 61 => ⟨S207x1152, .f32⟩
  | 62 => ⟨S207x1152, .f32⟩
  | 63 => ⟨S207x1152, .f32⟩
  | 64 => ⟨S207x1152, .f32⟩
  | 65 => ⟨S207x1152, .f32⟩
  | 66 => ⟨S_, .f32⟩
  | 67 => ⟨S207x1152, .f32⟩
  | 68 => ⟨S207x1152, .f32⟩
  | 69 => ⟨S207x1152, .f32⟩
  | 70 => ⟨S1x207x1152, .f32⟩
  | 71 => ⟨S1x207x1152, .f32⟩
  | 72 => ⟨S1x207x1152, .f32⟩
  | 73 => ⟨S1x207x1152, .f32⟩
  | 74 => ⟨S1x207x1152, .f32⟩
  | 75 => ⟨S5x207x1152, .f32⟩
  | 76 => ⟨S5x207x72x16, .f32⟩
  | 77 => ⟨S16x207x72x5, .f32⟩
  | 78 => ⟨S3312x360, .f32⟩
  | 79 => ⟨S3312x128, .f32⟩
  | 80 => ⟨S1x128, .f32⟩
  | 81 => ⟨S3312x128, .f32⟩
  | 82 => ⟨S3312x128, .f32⟩
  | 83 => ⟨S16x26496, .f32⟩
  | 84 => ⟨S16x26496, .f32⟩
  | 85 => ⟨S16x26496, .f32⟩
  | 86 => ⟨S_, .f32⟩
  | 87 => ⟨S16x26496, .f32⟩
  | 88 => ⟨S16x26496, .f32⟩
  | 89 => ⟨S_, .f32⟩
  | 90 => ⟨S16x26496, .f32⟩
  | 91 => ⟨S16x26496, .f32⟩
  | 92 => ⟨S16x207x128, .f32⟩
  | 93 => ⟨S16x207x64, .f32⟩
  | 94 => ⟨S16x13248, .f32⟩
  | 95 => ⟨S16x207x64, .f32⟩
  | 96 => ⟨S16x13248, .f32⟩
  | 97 => ⟨S16x13248, .f32⟩
  | 98 => ⟨S16x207x64, .f32⟩
  | 99 => ⟨S16x207x72, .f32⟩
  | 100 => ⟨S207x72x16, .f32⟩
  | 101 => ⟨S207x1152, .f32⟩
  | 102 => ⟨S207x1152, .f32⟩
  | 103 => ⟨S207x1152, .f32⟩
  | 104 => ⟨S_, .f32⟩
  | 105 => ⟨S207x1152, .f32⟩
  | 106 => ⟨S207x1152, .f32⟩
  | 107 => ⟨S207x1152, .f32⟩
  | 108 => ⟨S207x1152, .f32⟩
  | 109 => ⟨S207x1152, .f32⟩
  | 110 => ⟨S_, .f32⟩
  | 111 => ⟨S207x1152, .f32⟩
  | 112 => ⟨S207x1152, .f32⟩
  | 113 => ⟨S207x1152, .f32⟩
  | 114 => ⟨S1x207x1152, .f32⟩
  | 115 => ⟨S1x207x1152, .f32⟩
  | 116 => ⟨S1x207x1152, .f32⟩
  | 117 => ⟨S1x207x1152, .f32⟩
  | 118 => ⟨S1x207x1152, .f32⟩
  | 119 => ⟨S5x207x1152, .f32⟩
  | 120 => ⟨S5x207x72x16, .f32⟩
  | 121 => ⟨S16x207x72x5, .f32⟩
  | 122 => ⟨S3312x360, .f32⟩
  | 123 => ⟨S3312x64, .f32⟩
  | 124 => ⟨S1x64, .f32⟩
  | 125 => ⟨S3312x64, .f32⟩
  | 126 => ⟨S3312x64, .f32⟩
  | 127 => ⟨S16x13248, .f32⟩
  | _ => ⟨S8x16x1656, .f32⟩

abbrev hbmTy0_4 (i : Nat) : BufTy := match i % 128 with
  | 0 => ⟨S16x13248, .f32⟩
  | 1 => ⟨S16x13248, .f32⟩
  | 2 => ⟨S_, .f32⟩
  | 3 => ⟨S16x13248, .f32⟩
  | 4 => ⟨S16x13248, .f32⟩
  | 5 => ⟨S16x13248, .f32⟩
  | 6 => ⟨S16x13248, .f32⟩
  | 7 => ⟨S1x16x1656, .f32⟩
  | 8 => ⟨S16x1656, .f32⟩
  | 9 => ⟨S16x207x8, .f32⟩
  | 10 => ⟨S16x207x64, .f32⟩
  | 11 => ⟨S16x207x72, .f32⟩
  | 12 => ⟨S207x72x16, .f32⟩
  | 13 => ⟨S207x1152, .f32⟩
  | 14 => ⟨S207x1152, .f32⟩
  | 15 => ⟨S207x1152, .f32⟩
  | 16 => ⟨S_, .f32⟩
  | 17 => ⟨S207x1152, .f32⟩
  | 18 => ⟨S207x1152, .f32⟩
  | 19 => ⟨S207x1152, .f32⟩
  | 20 => ⟨S207x1152, .f32⟩
  | 21 => ⟨S207x1152, .f32⟩
  | 22 => ⟨S_, .f32⟩
  | 23 => ⟨S207x1152, .f32⟩
  | 24 => ⟨S207x1152, .f32⟩
  | 25 => ⟨S207x1152, .f32⟩
  | 26 => ⟨S1x207x1152, .f32⟩
  | 27 => ⟨S1x207x1152, .f32⟩
  | 28 => ⟨S1x207x1152, .f32⟩
  | 29 => ⟨S1x207x1152, .f32⟩
  | 30 => ⟨S1x207x1152, .f32⟩
  | 31 => ⟨S5x207x1152, .f32⟩
  | 32 => ⟨S5x207x72x16, .f32⟩
  | 33 => ⟨S16x207x72x5, .f32⟩
  | 34 => ⟨S3312x360, .f32⟩
  | 35 => ⟨S3312x128, .f32⟩
  | 36 => ⟨S1x128, .f32⟩
  | 37 => ⟨S3312x128, .f32⟩
  | 38 => ⟨S3312x128, .f32⟩
  | 39 => ⟨S16x26496, .f32⟩
  | 40 => ⟨S16x26496, .f32⟩
  | 41 => ⟨S16x26496, .f32⟩
  | 42 => ⟨S_, .f32⟩
  | 43 => ⟨S16x26496, .f32⟩
  | 44 => ⟨S16x26496, .f32⟩
  | 45 => ⟨S_, .f32⟩
  | 46 => ⟨S16x26496, .f32⟩
  | 47 => ⟨S16x26496, .f32⟩
  | 48 => ⟨S16x207x128, .f32⟩
  | 49 => ⟨S16x207x64, .f32⟩
  | 50 => ⟨S16x13248, .f32⟩
  | 51 => ⟨S16x207x64, .f32⟩
  | 52 => ⟨S16x13248, .f32⟩
  | 53 => ⟨S16x13248, .f32⟩
  | 54 => ⟨S16x207x64, .f32⟩
  | 55 => ⟨S16x207x72, .f32⟩
  | 56 => ⟨S207x72x16, .f32⟩
  | 57 => ⟨S207x1152, .f32⟩
  | 58 => ⟨S207x1152, .f32⟩
  | 59 => ⟨S207x1152, .f32⟩
  | 60 => ⟨S_, .f32⟩
  | 61 => ⟨S207x1152, .f32⟩
  | 62 => ⟨S207x1152, .f32⟩
  | 63 => ⟨S207x1152, .f32⟩
  | 64 => ⟨S207x1152, .f32⟩
  | 65 => ⟨S207x1152, .f32⟩
  | 66 => ⟨S_, .f32⟩
  | 67 => ⟨S207x1152, .f32⟩
  | 68 => ⟨S207x1152, .f32⟩
  | 69 => ⟨S207x1152, .f32⟩
  | 70 => ⟨S1x207x1152, .f32⟩
  | 71 => ⟨S1x207x1152, .f32⟩
  | 72 => ⟨S1x207x1152, .f32⟩
  | 73 => ⟨S1x207x1152, .f32⟩
  | 74 => ⟨S1x207x1152, .f32⟩
  | 75 => ⟨S5x207x1152, .f32⟩
  | 76 => ⟨S5x207x72x16, .f32⟩
  | 77 => ⟨S16x207x72x5, .f32⟩
  | 78 => ⟨S3312x360, .f32⟩
  | 79 => ⟨S3312x64, .f32⟩
  | 80 => ⟨S1x64, .f32⟩
  | 81 => ⟨S3312x64, .f32⟩
  | 82 => ⟨S3312x64, .f32⟩
  | 83 => ⟨S16x13248, .f32⟩
  | 84 => ⟨S16x13248, .f32⟩
  | 85 => ⟨S16x13248, .f32⟩
  | 86 => ⟨S_, .f32⟩
  | 87 => ⟨S16x13248, .f32⟩
  | 88 => ⟨S16x13248, .f32⟩
  | 89 => ⟨S16x13248, .f32⟩
  | 90 => ⟨S16x13248, .f32⟩
  | 91 => ⟨S1x16x1656, .f32⟩
  | 92 => ⟨S16x1656, .f32⟩
  | 93 => ⟨S16x207x8, .f32⟩
  | 94 => ⟨S16x207x64, .f32⟩
  | 95 => ⟨S16x207x72, .f32⟩
  | 96 => ⟨S207x72x16, .f32⟩
  | 97 => ⟨S207x1152, .f32⟩
  | 98 => ⟨S207x1152, .f32⟩
  | 99 => ⟨S207x1152, .f32⟩
  | 100 => ⟨S_, .f32⟩
  | 101 => ⟨S207x1152, .f32⟩
  | 102 => ⟨S207x1152, .f32⟩
  | 103 => ⟨S207x1152, .f32⟩
  | 104 => ⟨S207x1152, .f32⟩
  | 105 => ⟨S207x1152, .f32⟩
  | 106 => ⟨S_, .f32⟩
  | 107 => ⟨S207x1152, .f32⟩
  | 108 => ⟨S207x1152, .f32⟩
  | 109 => ⟨S207x1152, .f32⟩
  | 110 => ⟨S1x207x1152, .f32⟩
  | 111 => ⟨S1x207x1152, .f32⟩
  | 112 => ⟨S1x207x1152, .f32⟩
  | 113 => ⟨S1x207x1152, .f32⟩
  | 114 => ⟨S1x207x1152, .f32⟩
  | 115 => ⟨S5x207x1152, .f32⟩
  | 116 => ⟨S5x207x72x16, .f32⟩
  | 117 => ⟨S16x207x72x5, .f32⟩
  | 118 => ⟨S3312x360, .f32⟩
  | 119 => ⟨S3312x128, .f32⟩
  | 120 => ⟨S1x128, .f32⟩
  | 121 => ⟨S3312x128, .f32⟩
  | 122 => ⟨S3312x128, .f32⟩
  | 123 => ⟨S16x26496, .f32⟩
  | 124 => ⟨S16x26496, .f32⟩
  | 125 => ⟨S16x26496, .f32⟩
  | 126 => ⟨S_, .f32⟩
  | 127 => ⟨S16x26496, .f32⟩
  | _ => ⟨S8x16x1656, .f32⟩

abbrev hbmTy0_5 (i : Nat) : BufTy := match i % 128 with
  | 0 => ⟨S16x26496, .f32⟩
  | 1 => ⟨S_, .f32⟩
  | 2 => ⟨S16x26496, .f32⟩
  | 3 => ⟨S16x26496, .f32⟩
  | 4 => ⟨S16x207x128, .f32⟩
  | 5 => ⟨S16x207x64, .f32⟩
  | 6 => ⟨S16x13248, .f32⟩
  | 7 => ⟨S16x207x64, .f32⟩
  | 8 => ⟨S16x13248, .f32⟩
  | 9 => ⟨S16x13248, .f32⟩
  | 10 => ⟨S16x207x64, .f32⟩
  | 11 => ⟨S16x207x72, .f32⟩
  | 12 => ⟨S207x72x16, .f32⟩
  | 13 => ⟨S207x1152, .f32⟩
  | 14 => ⟨S207x1152, .f32⟩
  | 15 => ⟨S207x1152, .f32⟩
  | 16 => ⟨S_, .f32⟩
  | 17 => ⟨S207x1152, .f32⟩
  | 18 => ⟨S207x1152, .f32⟩
  | 19 => ⟨S207x1152, .f32⟩
  | 20 => ⟨S207x1152, .f32⟩
  | 21 => ⟨S207x1152, .f32⟩
  | 22 => ⟨S_, .f32⟩
  | 23 => ⟨S207x1152, .f32⟩
  | 24 => ⟨S207x1152, .f32⟩
  | 25 => ⟨S207x1152, .f32⟩
  | 26 => ⟨S1x207x1152, .f32⟩
  | 27 => ⟨S1x207x1152, .f32⟩
  | 28 => ⟨S1x207x1152, .f32⟩
  | 29 => ⟨S1x207x1152, .f32⟩
  | 30 => ⟨S1x207x1152, .f32⟩
  | 31 => ⟨S5x207x1152, .f32⟩
  | 32 => ⟨S5x207x72x16, .f32⟩
  | 33 => ⟨S16x207x72x5, .f32⟩
  | 34 => ⟨S3312x360, .f32⟩
  | 35 => ⟨S3312x64, .f32⟩
  | 36 => ⟨S1x64, .f32⟩
  | 37 => ⟨S3312x64, .f32⟩
  | 38 => ⟨S3312x64, .f32⟩
  | 39 => ⟨S16x13248, .f32⟩
  | 40 => ⟨S16x13248, .f32⟩
  | 41 => ⟨S16x13248, .f32⟩
  | 42 => ⟨S_, .f32⟩
  | 43 => ⟨S16x13248, .f32⟩
  | 44 => ⟨S16x13248, .f32⟩
  | 45 => ⟨S16x13248, .f32⟩
  | 46 => ⟨S16x13248, .f32⟩
  | 47 => ⟨S_, .f32⟩
  | 48 => ⟨S16x207, .f32⟩
  | 49 => ⟨S16x207x1, .f32⟩
  | 50 => ⟨S16x207x64, .f32⟩
  | 51 => ⟨S16x207x65, .f32⟩
  | 52 => ⟨S207x65x16, .f32⟩
  | 53 => ⟨S207x1040, .f32⟩
  | 54 => ⟨S207x1040, .f32⟩
  | 55 => ⟨S207x1040, .f32⟩
  | 56 => ⟨S_, .f32⟩
  | 57 => ⟨S207x1040, .f32⟩
  | 58 => ⟨S207x1040, .f32⟩
  | 59 => ⟨S207x1040, .f32⟩
  | 60 => ⟨S207x1040, .f32⟩
  | 61 => ⟨S207x1040, .f32⟩
  | 62 => ⟨S_, .f32⟩
  | 63 => ⟨S207x1040, .f32⟩
  | 64 => ⟨S207x1040, .f32⟩
  | 65 => ⟨S207x1040, .f32⟩
  | 66 => ⟨S1x207x1040, .f32⟩
  | 67 => ⟨S1x207x1040, .f32⟩
  | 68 => ⟨S1x207x1040, .f32⟩
  | 69 => ⟨S1x207x1040, .f32⟩
  | 70 => ⟨S1x207x1040, .f32⟩
  | 71 => ⟨S5x207x1040, .f32⟩
  | 72 => ⟨S5x207x65x16, .f32⟩
  | 73 => ⟨S16x207x65x5, .f32⟩
  | 74 => ⟨S3312x325, .f32⟩
  | 75 => ⟨S3312x128, .f32⟩
  | 76 => ⟨S1x128, .f32⟩
  | 77 => ⟨S3312x128, .f32⟩
  | 78 => ⟨S3312x128, .f32⟩
  | 79 => ⟨S16x26496, .f32⟩
  | 80 => ⟨S16x26496, .f32⟩
  | 81 => ⟨S16x26496, .f32⟩
  | 82 => ⟨S_, .f32⟩
  | 83 => ⟨S16x26496, .f32⟩
  | 84 => ⟨S16x26496, .f32⟩
  | 85 => ⟨S_, .f32⟩
  | 86 => ⟨S16x26496, .f32⟩
  | 87 => ⟨S16x26496, .f32⟩
  | 88 => ⟨S16x207x128, .f32⟩
  | 89 => ⟨S16x207x64, .f32⟩
  | 90 => ⟨S16x13248, .f32⟩
  | 91 => ⟨S16x207x64, .f32⟩
  | 92 => ⟨S16x13248, .f32⟩
  | 93 => ⟨S16x13248, .f32⟩
  | 94 => ⟨S16x207x64, .f32⟩
  | 95 => ⟨S16x207x65, .f32⟩
  | 96 => ⟨S207x65x16, .f32⟩
  | 97 => ⟨S207x1040, .f32⟩
  | 98 => ⟨S207x1040, .f32⟩
  | 99 => ⟨S207x1040, .f32⟩
  | 100 => ⟨S_, .f32⟩
  | 101 => ⟨S207x1040, .f32⟩
  | 102 => ⟨S207x1040, .f32⟩
  | 103 => ⟨S207x1040, .f32⟩
  | 104 => ⟨S207x1040, .f32⟩
  | 105 => ⟨S207x1040, .f32⟩
  | 106 => ⟨S_, .f32⟩
  | 107 => ⟨S207x1040, .f32⟩
  | 108 => ⟨S207x1040, .f32⟩
  | 109 => ⟨S207x1040, .f32⟩
  | 110 => ⟨S1x207x1040, .f32⟩
  | 111 => ⟨S1x207x1040, .f32⟩
  | 112 => ⟨S1x207x1040, .f32⟩
  | 113 => ⟨S1x207x1040, .f32⟩
  | 114 => ⟨S1x207x1040, .f32⟩
  | 115 => ⟨S5x207x1040, .f32⟩
  | 116 => ⟨S5x207x65x16, .f32⟩
  | 117 => ⟨S16x207x65x5, .f32⟩
  | 118 => ⟨S3312x325, .f32⟩
  | 119 => ⟨S3312x64, .f32⟩
  | 120 => ⟨S1x64, .f32⟩
  | 121 => ⟨S3312x64, .f32⟩
  | 122 => ⟨S3312x64, .f32⟩
  | 123 => ⟨S16x13248, .f32⟩
  | 124 => ⟨S16x13248, .f32⟩
  | 125 => ⟨S16x13248, .f32⟩
  | 126 => ⟨S_, .f32⟩
  | 127 => ⟨S16x13248, .f32⟩
  | _ => ⟨S8x16x1656, .f32⟩

abbrev hbmTy0_6 (i : Nat) : BufTy := match i % 128 with
  | 0 => ⟨S16x13248, .f32⟩
  | 1 => ⟨S16x13248, .f32⟩
  | 2 => ⟨S16x13248, .f32⟩
  | 3 => ⟨S3312x64, .f32⟩
  | 4 => ⟨S3312x1, .f32⟩
  | 5 => ⟨S1x1, .f32⟩
  | 6 => ⟨S3312x1, .f32⟩
  | 7 => ⟨S3312x1, .f32⟩
  | 8 => ⟨S16x207, .f32⟩
  | 9 => ⟨S16x207x1, .f32⟩
  | 10 => ⟨S16x207x64, .f32⟩
  | 11 => ⟨S16x207x65, .f32⟩
  | 12 => ⟨S207x65x16, .f32⟩
  | 13 => ⟨S207x1040, .f32⟩
  | 14 => ⟨S207x1040, .f32⟩
  | 15 => ⟨S207x1040, .f32⟩
  | 16 => ⟨S_, .f32⟩
  | 17 => ⟨S207x1040, .f32⟩
  | 18 => ⟨S207x1040, .f32⟩
  | 19 => ⟨S207x1040, .f32⟩
  | 20 => ⟨S207x1040, .f32⟩
  | 21 => ⟨S207x1040, .f32⟩
  | 22 => ⟨S_, .f32⟩
  | 23 => ⟨S207x1040, .f32⟩
  | 24 => ⟨S207x1040, .f32⟩
  | 25 => ⟨S207x1040, .f32⟩
  | 26 => ⟨S1x207x1040, .f32⟩
  | 27 => ⟨S1x207x1040, .f32⟩
  | 28 => ⟨S1x207x1040, .f32⟩
  | 29 => ⟨S1x207x1040, .f32⟩
  | 30 => ⟨S1x207x1040, .f32⟩
  | 31 => ⟨S5x207x1040, .f32⟩
  | 32 => ⟨S5x207x65x16, .f32⟩
  | 33 => ⟨S16x207x65x5, .f32⟩
  | 34 => ⟨S3312x325, .f32⟩
  | 35 => ⟨S3312x128, .f32⟩
  | 36 => ⟨S1x128, .f32⟩
  | 37 => ⟨S3312x128, .f32⟩
  | 38 => ⟨S3312x128, .f32⟩
  | 39 => ⟨S16x26496, .f32⟩
  | 40 => ⟨S16x26496, .f32⟩
  | 41 => ⟨S16x26496, .f32⟩
  | 42 => ⟨S_, .f32⟩
  | 43 => ⟨S16x26496, .f32⟩
  | 44 => ⟨S16x26496, .f32⟩
  | 45 => ⟨S_, .f32⟩
  | 46 => ⟨S16x26496, .f32⟩
  | 47 => ⟨S16x26496, .f32⟩
  | 48 => ⟨S16x207x128, .f32⟩
  | 49 => ⟨S16x207x64, .f32⟩
  | 50 => ⟨S16x13248, .f32⟩
  | 51 => ⟨S16x207x64, .f32⟩
  | 52 => ⟨S16x13248, .f32⟩
  | 53 => ⟨S16x13248, .f32⟩
  | 54 => ⟨S16x207x64, .f32⟩
  | 55 => ⟨S16x207x65, .f32⟩
  | 56 => ⟨S207x65x16, .f32⟩
  | 57 => ⟨S207x1040, .f32⟩
  | 58 => ⟨S207x1040, .f32⟩
  | 59 => ⟨S207x1040, .f32⟩
  | 60 => ⟨S_, .f32⟩
  | 61 => ⟨S207x1040, .f32⟩
  | 62 => ⟨S207x1040, .f32⟩
  | 63 => ⟨S207x1040, .f32⟩
  | 64 => ⟨S207x1040, .f32⟩
  | 65 => ⟨S207x1040, .f32⟩
  | 66 => ⟨S_, .f32⟩
  | 67 => ⟨S207x1040, .f32⟩
  | 68 => ⟨S207x1040, .f32⟩
  | 69 => ⟨S207x1040, .f32⟩
  | 70 => ⟨S1x207x1040, .f32⟩
  | 71 => ⟨S1x207x1040, .f32⟩
  | 72 => ⟨S1x207x1040, .f32⟩
  | 73 => ⟨S1x207x1040, .f32⟩
  | 74 => ⟨S1x207x1040, .f32⟩
  | 75 => ⟨S5x207x1040, .f32⟩
  | 76 => ⟨S5x207x65x16, .f32⟩
  | 77 => ⟨S16x207x65x5, .f32⟩
  | 78 => ⟨S3312x325, .f32⟩
  | 79 => ⟨S3312x64, .f32⟩
  | 80 => ⟨S1x64, .f32⟩
  | 81 => ⟨S3312x64, .f32⟩
  | 82 => ⟨S3312x64, .f32⟩
  | 83 => ⟨S16x13248, .f32⟩
  | 84 => ⟨S16x13248, .f32⟩
  | 85 => ⟨S16x13248, .f32⟩
  | 86 => ⟨S_, .f32⟩
  | 87 => ⟨S16x13248, .f32⟩
  | 88 => ⟨S16x13248, .f32⟩
  | 89 => ⟨S16x13248, .f32⟩
  | 90 => ⟨S16x13248, .f32⟩
  | 91 => ⟨S3312x64, .f32⟩
  | 92 => ⟨S3312x1, .f32⟩
  | 93 => ⟨S1x1, .f32⟩
  | 94 => ⟨S3312x1, .f32⟩
  | 95 => ⟨S3312x1, .f32⟩
  | 96 => ⟨S16x207, .f32⟩
  | 97 => ⟨S16x207x1, .f32⟩
  | 98 => ⟨S16x207x64, .f32⟩
  | 99 => ⟨S16x207x65, .f32⟩
  | 100 => ⟨S207x65x16, .f32⟩
  | 101 => ⟨S207x1040, .f32⟩
  | 102 => ⟨S207x1040, .f32⟩
  | 103 => ⟨S207x1040, .f32⟩
  | 104 => ⟨S_, .f32⟩
  | 105 => ⟨S207x1040, .f32⟩
  | 106 => ⟨S207x1040, .f32⟩
  | 107 => ⟨S207x1040, .f32⟩
  | 108 => ⟨S207x1040, .f32⟩
  | 109 => ⟨S207x1040, .f32⟩
  | 110 => ⟨S_, .f32⟩
  | 111 => ⟨S207x1040, .f32⟩
  | 112 => ⟨S207x1040, .f32⟩
  | 113 => ⟨S207x1040, .f32⟩
  | 114 => ⟨S1x207x1040, .f32⟩
  | 115 => ⟨S1x207x1040, .f32⟩
  | 116 => ⟨S1x207x1040, .f32⟩
  | 117 => ⟨S1x207x1040, .f32⟩
  | 118 => ⟨S1x207x1040, .f32⟩
  | 119 => ⟨S5x207x1040, .f32⟩
  | 120 => ⟨S5x207x65x16, .f32⟩
  | 121 => ⟨S16x207x65x5, .f32⟩
  | 122 => ⟨S3312x325, .f32⟩
  | 123 => ⟨S3312x128, .f32⟩
  | 124 => ⟨S1x128, .f32⟩
  | 125 => ⟨S3312x128, .f32⟩
  | 126 => ⟨S3312x128, .f32⟩
  | 127 => ⟨S16x26496, .f32⟩
  | _ => ⟨S8x16x1656, .f32⟩

abbrev hbmTy0_7 (i : Nat) : BufTy := match i % 128 with
  | 0 => ⟨S16x26496, .f32⟩
  | 1 => ⟨S16x26496, .f32⟩
  | 2 => ⟨S_, .f32⟩
  | 3 => ⟨S16x26496, .f32⟩
  | 4 => ⟨S16x26496, .f32⟩
  | 5 => ⟨S_, .f32⟩
  | 6 => ⟨S16x26496, .f32⟩
  | 7 => ⟨S16x26496, .f32⟩
  | 8 => ⟨S16x207x128, .f32⟩
  | 9 => ⟨S16x207x64, .f32⟩
  | 10 => ⟨S16x13248, .f32⟩
  | 11 => ⟨S16x207x64, .f32⟩
  | 12 => ⟨S16x13248, .f32⟩
  | 13 => ⟨S16x13248, .f32⟩
  | 14 => ⟨S16x207x64, .f32⟩
  | 15 => ⟨S16x207x65, .f32⟩
  | 16 => ⟨S207x65x16, .f32⟩
  | 17 => ⟨S207x1040, .f32⟩
  | 18 => ⟨S207x1040, .f32⟩
  | 19 => ⟨S207x1040, .f32⟩
  | 20 => ⟨S_, .f32⟩
  | 21 => ⟨S207x1040, .f32⟩
  | 22 => ⟨S207x1040, .f32⟩
  | 23 => ⟨S207x1040, .f32⟩
  | 24 => ⟨S207x1040, .f32⟩
  | 25 => ⟨S207x1040, .f32⟩
  | 26 => ⟨S_, .f32⟩
  | 27 => ⟨S207x1040, .f32⟩
  | 28 => ⟨S207x1040, .f32⟩
  | 29 => ⟨S207x1040, .f32⟩
  | 30 => ⟨S1x207x1040, .f32⟩
  | 31 => ⟨S1x207x1040, .f32⟩
  | 32 => ⟨S1x207x1040, .f32⟩
  | 33 => ⟨S1x207x1040, .f32⟩
  | 34 => ⟨S1x207x1040, .f32⟩
  | 35 => ⟨S5x207x1040, .f32⟩
  | 36 => ⟨S5x207x65x16, .f32⟩
  | 37 => ⟨S16x207x65x5, .f32⟩
  | 38 => ⟨S3312x325, .f32⟩
  | 39 => ⟨S3312x64, .f32⟩
  | 40 => ⟨S1x64, .f32⟩
  | 41 => ⟨S3312x64, .f32⟩
  | 42 => ⟨S3312x64, .f32⟩
  | 43 => ⟨S16x13248, .f32⟩
  | 44 => ⟨S16x13248, .f32⟩
  | 45 => ⟨S16x13248, .f32⟩
  | 46 => ⟨S_, .f32⟩
  | 47 => ⟨S16x13248, .f32⟩
  | 48 => ⟨S16x13248, .f32⟩
  | 49 => ⟨S16x13248, .f32⟩
  | 50 => ⟨S16x13248, .f32⟩
  | 51 => ⟨S3312x64, .f32⟩
  | 52 => ⟨S3312x1, .f32⟩
  | 53 => ⟨S1x1, .f32⟩
  | 54 => ⟨S3312x1, .f32⟩
  | 55 => ⟨S3312x1, .f32⟩
  | 56 => ⟨S16x207, .f32⟩
  | 57 => ⟨S16x207x1, .f32⟩
  | 58 => ⟨S16x207x64, .f32⟩
  | 59 => ⟨S16x207x65, .f32⟩
  | 60 => ⟨S207x65x16, .f32⟩
  | 61 => ⟨S207x1040, .f32⟩
  | 62 => ⟨S207x1040, .f32⟩
  | 63 => ⟨S207x1040, .f32⟩
  | 64 => ⟨S_, .f32⟩
  | 65 => ⟨S207x1040, .f32⟩
  | 66 => ⟨S207x1040, .f32⟩
  | 67 => ⟨S207x1040, .f32⟩
  | 68 => ⟨S207x1040, .f32⟩
  | 69 => ⟨S207x1040, .f32⟩
  | 70 => ⟨S_, .f32⟩
  | 71 => ⟨S207x1040, .f32⟩
  | 72 => ⟨S207x1040, .f32⟩
  | 73 => ⟨S207x1040, .f32⟩
  | 74 => ⟨S1x207x1040, .f32⟩
  | 75 => ⟨S1x207x1040, .f32⟩
  | 76 => ⟨S1x207x1040, .f32⟩
  | 77 => ⟨S1x207x1040, .f32⟩
  | 78 => ⟨S1x207x1040, .f32⟩
  | 79 => ⟨S5x207x1040, .f32⟩
  | 80 => ⟨S5x207x65x16, .f32⟩
  | 81 => ⟨S16x207x65x5, .f32⟩
  | 82 => ⟨S3312x325, .f32⟩
  | 83 => ⟨S3312x128, .f32⟩
  | 84 => ⟨S1x128, .f32⟩
  | 85 => ⟨S3312x128, .f32⟩
  | 86 => ⟨S3312x128, .f32⟩
  | 87 => ⟨S16x26496, .f32⟩
  | 88 => ⟨S16x26496, .f32⟩
  | 89 => ⟨S16x26496, .f32⟩
  | 90 => ⟨S_, .f32⟩
  | 91 => ⟨S16x26496, .f32⟩
  | 92 => ⟨S16x26496, .f32⟩
  | 93 => ⟨S_, .f32⟩
  | 94 => ⟨S16x26496, .f32⟩
  | 95 => ⟨S16x26496, .f32⟩
  | 96 => ⟨S16x207x128, .f32⟩
  | 97 => ⟨S16x207x64, .f32⟩
  | 98 => ⟨S16x13248, .f32⟩
  | 99 => ⟨S16x207x64, .f32⟩
  | 100 => ⟨S16x13248, .f32⟩
  | 101 => ⟨S16x13248, .f32⟩
  | 102 => ⟨S16x207x64, .f32⟩
  | 103 => ⟨S16x207x65, .f32⟩
  | 104 => ⟨S207x65x16, .f32⟩
  | 105 => ⟨S207x1040, .f32⟩
  | 106 => ⟨S207x1040, .f32⟩
  | 107 => ⟨S207x1040, .f32⟩
  | 108 => ⟨S_, .f32⟩
  | 109 => ⟨S207x1040, .f32⟩
  | 110 => ⟨S207x1040, .f32⟩
  | 111 => ⟨S207x1040, .f32⟩
  | 112 => ⟨S207x1040, .f32⟩
  | 113 => ⟨S207x1040, .f32⟩
  | 114 => ⟨S_, .f32⟩
  | 115 => ⟨S207x1040, .f32⟩
  | 116 => ⟨S207x1040, .f32⟩
  | 117 => ⟨S207x1040, .f32⟩
  | 118 => ⟨S1x207x1040, .f32⟩
  | 119 => ⟨S1x207x1040, .f32⟩
  | 120 => ⟨S1x207x1040, .f32⟩
  | 121 => ⟨S1x207x1040, .f32⟩
  | 122 => ⟨S1x207x1040, .f32⟩
  | 123 => ⟨S5x207x1040, .f32⟩
  | 124 => ⟨S5x207x65x16, .f32⟩
  | 125 => ⟨S16x207x65x5, .f32⟩
  | 126 => ⟨S3312x325, .f32⟩
  | 127 => ⟨S3312x64, .f32⟩
  | _ => ⟨S8x16x1656, .f32⟩

abbrev hbmTy0_8 (i : Nat) : BufTy := match i % 128 with
  | 0 => ⟨S1x64, .f32⟩
  | 1 => ⟨S3312x64, .f32⟩
  | 2 => ⟨S3312x64, .f32⟩
  | 3 => ⟨S16x13248, .f32⟩
  | 4 => ⟨S16x13248, .f32⟩
  | 5 => ⟨S16x13248, .f32⟩
  | 6 => ⟨S_, .f32⟩
  | 7 => ⟨S16x13248, .f32⟩
  | 8 => ⟨S16x13248, .f32⟩
  | 9 => ⟨S16x13248, .f32⟩
  | 10 => ⟨S16x13248, .f32⟩
  | 11 => ⟨S3312x64, .f32⟩
  | 12 => ⟨S3312x1, .f32⟩
  | 13 => ⟨S1x1, .f32⟩
  | 14 => ⟨S3312x1, .f32⟩
  | 15 => ⟨S3312x1, .f32⟩
  | 16 => ⟨S16x207, .f32⟩
  | 17 => ⟨S16x207x1, .f32⟩
  | 18 => ⟨S16x207x64, .f32⟩
  | 19 => ⟨S16x207x65, .f32⟩
  | 20 => ⟨S207x65x16, .f32⟩
  | 21 => ⟨S207x1040, .f32⟩
  | 22 => ⟨S207x1040, .f32⟩
  | 23 => ⟨S207x1040, .f32⟩
  | 24 => ⟨S_, .f32⟩
  | 25 => ⟨S207x1040, .f32⟩
  | 26 => ⟨S207x1040, .f32⟩
  | 27 => ⟨S207x1040, .f32⟩
  | 28 => ⟨S207x1040, .f32⟩
  | 29 => ⟨S207x1040, .f32⟩
  | 30 => ⟨S_, .f32⟩
  | 31 => ⟨S207x1040, .f32⟩
  | 32 => ⟨S207x1040, .f32⟩
  | 33 => ⟨S207x1040, .f32⟩
  | 34 => ⟨S1x207x1040, .f32⟩
  | 35 => ⟨S1x207x1040, .f32⟩
  | 36 => ⟨S1x207x1040, .f32⟩
  | 37 => ⟨S1x207x1040, .f32⟩
  | 38 => ⟨S1x207x1040, .f32⟩
  | 39 => ⟨S5x207x1040, .f32⟩
  | 40 => ⟨S5x207x65x16, .f32⟩
  | 41 => ⟨S16x207x65x5, .f32⟩
  | 42 => ⟨S3312x325, .f32⟩
  | 43 => ⟨S3312x128, .f32⟩
  | 44 => ⟨S1x128, .f32⟩
  | 45 => ⟨S3312x128, .f32⟩
  | 46 => ⟨S3312x128, .f32⟩
  | 47 => ⟨S16x26496, .f32⟩
  | 48 => ⟨S16x26496, .f32⟩
  | 49 => ⟨S16x26496, .f32⟩
  | 50 => ⟨S_, .f32⟩
  | 51 => ⟨S16x26496, .f32⟩
  | 52 => ⟨S16x26496, .f32⟩
  | 53 => ⟨S_, .f32⟩
  | 54 => ⟨S16x26496, .f32⟩
  | 55 => ⟨S16x26496, .f32⟩
  | 56 => ⟨S16x207x128, .f32⟩
  | 57 => ⟨S16x207x64, .f32⟩
  | 58 => ⟨S16x13248, .f32⟩
  | 59 => ⟨S16x207x64, .f32⟩
  | 60 => ⟨S16x13248, .f32⟩
  | 61 => ⟨S16x13248, .f32⟩
  | 62 => ⟨S16x207x64, .f32⟩
  | 63 => ⟨S16x207x65, .f32⟩
  | 64 => ⟨S207x65x16, .f32⟩
  | 65 => ⟨S207x1040, .f32⟩
  | 66 => ⟨S207x1040, .f32⟩
  | 67 => ⟨S207x1040, .f32⟩
  | 68 => ⟨S_, .f32⟩
  | 69 => ⟨S207x1040, .f32⟩
  | 70 => ⟨S207x1040, .f32⟩
  | 71 => ⟨S207x1040, .f32⟩
  | 72 => ⟨S207x1040, .f32⟩
  | 73 => ⟨S207x1040, .f32⟩
  | 74 => ⟨S_, .f32⟩
  | 75 => ⟨S207x1040, .f32⟩
  | 76 => ⟨S207x1040, .f32⟩
  | 77 => ⟨S207x1040, .f32⟩
  | 78 => ⟨S1x207x1040, .f32⟩
  | 79 => ⟨S1x207x1040, .f32⟩
  | 80 => ⟨S1x207x1040, .f32⟩
  | 81 => ⟨S1x207x1040, .f32⟩
  | 82 => ⟨S1x207x1040, .f32⟩
  | 83 => ⟨S5x207x1040, .f32⟩
  | 84 => ⟨S5x207x65x16, .f32⟩
  | 85 => ⟨S16x207x65x5, .f32⟩
  | 86 => ⟨S3312x325, .f32⟩
  | 87 => ⟨S3312x64, .f32⟩
  | 88 => ⟨S1x64, .f32⟩
  | 89 => ⟨S3312x64, .f32⟩
  | 90 => ⟨S3312x64, .f32⟩
  | 91 => ⟨S16x13248, .f32⟩
  | 92 => ⟨S16x13248, .f32⟩
  | 93 => ⟨S16x13248, .f32⟩
  | 94 => ⟨S_, .f32⟩
  | 95 => ⟨S16x13248, .f32⟩
  | 96 => ⟨S16x13248, .f32⟩
  | 97 => ⟨S16x13248, .f32⟩
  | 98 => ⟨S16x13248, .f32⟩
  | 99 => ⟨S3312x64, .f32⟩
  | 100 => ⟨S3312x1, .f32⟩
  | 101 => ⟨S1x1, .f32⟩
  | 102 => ⟨S3312x1, .f32⟩
  | 103 => ⟨S3312x1, .f32⟩
  | 104 => ⟨S16x207, .f32⟩
  | 105 => ⟨S16x207x1, .f32⟩
  | 106 => ⟨S16x207x64, .f32⟩
  | 107 => ⟨S16x207x65, .f32⟩
  | 108 => ⟨S207x65x16, .f32⟩
  | 109 => ⟨S207x1040, .f32⟩
  | 110 => ⟨S207x1040, .f32⟩
  | 111 => ⟨S207x1040, .f32⟩
  | 112 => ⟨S_, .f32⟩
  | 113 => ⟨S207x1040, .f32⟩
  | 114 => ⟨S207x1040, .f32⟩
  | 115 => ⟨S207x1040, .f32⟩
  | 116 => ⟨S207x1040, .f32⟩
  | 117 => ⟨S207x1040, .f32⟩
  | 118 => ⟨S_, .f32⟩
  | 119 => ⟨S207x1040, .f32⟩
  | 120 => ⟨S207x1040, .f32⟩
  | 121 => ⟨S207x1040, .f32⟩
  | 122 => ⟨S1x207x1040, .f32⟩
  | 123 => ⟨S1x207x1040, .f32⟩
  | 124 => ⟨S1x207x1040, .f32⟩
  | 125 => ⟨S1x207x1040, .f32⟩
  | 126 => ⟨S1x207x1040, .f32⟩
  | 127 => ⟨S5x207x1040, .f32⟩
  | _ => ⟨S8x16x1656, .f32⟩

abbrev hbmTy0_9 (i : Nat) : BufTy := match i % 128 with
  | 0 => ⟨S5x207x65x16, .f32⟩
  | 1 => ⟨S16x207x65x5, .f32⟩
  | 2 => ⟨S3312x325, .f32⟩
  | 3 => ⟨S3312x128, .f32⟩
  | 4 => ⟨S1x128, .f32⟩
  | 5 => ⟨S3312x128, .f32⟩
  | 6 => ⟨S3312x128, .f32⟩
  | 7 => ⟨S16x26496, .f32⟩
  | 8 => ⟨S16x26496, .f32⟩
  | 9 => ⟨S16x26496, .f32⟩
  | 10 => ⟨S_, .f32⟩
  | 11 => ⟨S16x26496, .f32⟩
  | 12 => ⟨S16x26496, .f32⟩
  | 13 => ⟨S_, .f32⟩
  | 14 => ⟨S16x26496, .f32⟩
  | 15 => ⟨S16x26496, .f32⟩
  | 16 => ⟨S16x207x128, .f32⟩
  | 17 => ⟨S16x207x64, .f32⟩
  | 18 => ⟨S16x13248, .f32⟩
  | 19 => ⟨S16x207x64, .f32⟩
  | 20 => ⟨S16x13248, .f32⟩
  | 21 => ⟨S16x13248, .f32⟩
  | 22 => ⟨S16x207x64, .f32⟩
  | 23 => ⟨S16x207x65, .f32⟩
  | 24 => ⟨S207x65x16, .f32⟩
  | 25 => ⟨S207x1040, .f32⟩
  | 26 => ⟨S207x1040, .f32⟩
  | 27 => ⟨S207x1040, .f32⟩
  | 28 => ⟨S_, .f32⟩
  | 29 => ⟨S207x1040, .f32⟩
  | 30 => ⟨S207x1040, .f32⟩
  | 31 => ⟨S207x1040, .f32⟩
  | 32 => ⟨S207x1040, .f32⟩
  | 33 => ⟨S207x1040, .f32⟩
  | 34 => ⟨S_, .f32⟩
  | 35 => ⟨S207x1040, .f32⟩
  | 36 => ⟨S207x1040, .f32⟩
  | 37 => ⟨S207x1040, .f32⟩
  | 38 => ⟨S1x207x1040, .f32⟩
  | 39 => ⟨S1x207x1040, .f32⟩
  | 40 => ⟨S1x207x1040, .f32⟩
  | 41 => ⟨S1x207x1040, .f32⟩
  | 42 => ⟨S1x207x1040, .f32⟩
  | 43 => ⟨S5x207x1040, .f32⟩
  | 44 => ⟨S5x207x65x16, .f32⟩
  | 45 => ⟨S16x207x65x5, .f32⟩
  | 46 => ⟨S3312x325, .f32⟩
  | 47 => ⟨S3312x64, .f32⟩
  | 48 => ⟨S1x64, .f32⟩
  | 49 => ⟨S3312x64, .f32⟩
  | 50 => ⟨S3312x64, .f32⟩
  | 51 => ⟨S16x13248, .f32⟩
  | 52 => ⟨S16x13248, .f32⟩
  | 53 => ⟨S16x13248, .f32⟩
  | 54 => ⟨S_, .f32⟩
  | 55 => ⟨S16x13248, .f32⟩
  | 56 => ⟨S16x13248, .f32⟩
  | 57 => ⟨S16x13248, .f32⟩
  | 58 => ⟨S16x13248, .f32⟩
  | 59 => ⟨S3312x64, .f32⟩
  | 60 => ⟨S3312x1, .f32⟩
  | 61 => ⟨S1x1, .f32⟩
  | 62 => ⟨S3312x1, .f32⟩
  | 63 => ⟨S3312x1, .f32⟩
  | 64 => ⟨S16x207, .f32⟩
  | 65 => ⟨S16x207x1, .f32⟩
  | 66 => ⟨S16x207x64, .f32⟩
  | 67 => ⟨S16x207x65, .f32⟩
  | 68 => ⟨S207x65x16, .f32⟩
  | 69 => ⟨S207x1040, .f32⟩
  | 70 => ⟨S207x1040, .f32⟩
  | 71 => ⟨S207x1040, .f32⟩
  | 72 => ⟨S_, .f32⟩
  | 73 => ⟨S207x1040, .f32⟩
  | 74 => ⟨S207x1040, .f32⟩
  | 75 => ⟨S207x1040, .f32⟩
  | 76 => ⟨S207x1040, .f32⟩
  | 77 => ⟨S207x1040, .f32⟩
  | 78 => ⟨S_, .f32⟩
  | 79 => ⟨S207x1040, .f32⟩
  | 80 => ⟨S207x1040, .f32⟩
  | 81 => ⟨S207x1040, .f32⟩
  | 82 => ⟨S1x207x1040, .f32⟩
  | 83 => ⟨S1x207x1040, .f32⟩
  | 84 => ⟨S1x207x1040, .f32⟩
  | 85 => ⟨S1x207x1040, .f32⟩
  | 86 => ⟨S1x207x1040, .f32⟩
  | 87 => ⟨S5x207x1040, .f32⟩
  | 88 => ⟨S5x207x65x16, .f32⟩
  | 89 => ⟨S16x207x65x5, .f32⟩
  | 90 => ⟨S3312x325, .f32⟩
  | 91 => ⟨S3312x128, .f32⟩
  | 92 => ⟨S1x128, .f32⟩
  | 93 => ⟨S3312x128, .f32⟩
  | 94 => ⟨S3312x128, .f32⟩
  | 95 => ⟨S16x26496, .f32⟩
  | 96 => ⟨S16x26496, .f32⟩
  | 97 => ⟨S16x26496, .f32⟩
  | 98 => ⟨S_, .f32⟩
  | 99 => ⟨S16x26496, .f32⟩
  | 100 => ⟨S16x26496, .f32⟩
  | 101 => ⟨S_, .f32⟩
  | 102 => ⟨S16x26496, .f32⟩
  | 103 => ⟨S16x26496, .f32⟩
  | 104 => ⟨S16x207x128, .f32⟩
  | 105 => ⟨S16x207x64, .f32⟩
  | 106 => ⟨S16x13248, .f32⟩
  | 107 => ⟨S16x207x64, .f32⟩
  | 108 => ⟨S16x13248, .f32⟩
  | 109 => ⟨S16x13248, .f32⟩
  | 110 => ⟨S16x207x64, .f32⟩
  | 111 => ⟨S16x207x65, .f32⟩
  | 112 => ⟨S207x65x16, .f32⟩
  | 113 => ⟨S207x1040, .f32⟩
  | 114 => ⟨S207x1040, .f32⟩
  | 115 => ⟨S207x1040, .f32⟩
  | 116 => ⟨S_, .f32⟩
  | 117 => ⟨S207x1040, .f32⟩
  | 118 => ⟨S207x1040, .f32⟩
  | 119 => ⟨S207x1040, .f32⟩
  | 120 => ⟨S207x1040, .f32⟩
  | 121 => ⟨S207x1040, .f32⟩
  | 122 => ⟨S_, .f32⟩
  | 123 => ⟨S207x1040, .f32⟩
  | 124 => ⟨S207x1040, .f32⟩
  | 125 => ⟨S207x1040, .f32⟩
  | 126 => ⟨S1x207x1040, .f32⟩
  | 127 => ⟨S1x207x1040, .f32⟩
  | _ => ⟨S8x16x1656, .f32⟩

abbrev hbmTy0_10 (i : Nat) : BufTy := match i % 128 with
  | 0 => ⟨S1x207x1040, .f32⟩
  | 1 => ⟨S1x207x1040, .f32⟩
  | 2 => ⟨S1x207x1040, .f32⟩
  | 3 => ⟨S5x207x1040, .f32⟩
  | 4 => ⟨S5x207x65x16, .f32⟩
  | 5 => ⟨S16x207x65x5, .f32⟩
  | 6 => ⟨S3312x325, .f32⟩
  | 7 => ⟨S3312x64, .f32⟩
  | 8 => ⟨S1x64, .f32⟩
  | 9 => ⟨S3312x64, .f32⟩
  | 10 => ⟨S3312x64, .f32⟩
  | 11 => ⟨S16x13248, .f32⟩
  | 12 => ⟨S16x13248, .f32⟩
  | 13 => ⟨S16x13248, .f32⟩
  | 14 => ⟨S_, .f32⟩
  | 15 => ⟨S16x13248, .f32⟩
  | 16 => ⟨S16x13248, .f32⟩
  | 17 => ⟨S16x13248, .f32⟩
  | 18 => ⟨S16x13248, .f32⟩
  | 19 => ⟨S3312x64, .f32⟩
  | 20 => ⟨S3312x1, .f32⟩
  | 21 => ⟨S1x1, .f32⟩
  | 22 => ⟨S3312x1, .f32⟩
  | 23 => ⟨S3312x1, .f32⟩
  | 24 => ⟨S16x207, .f32⟩
  | 25 => ⟨S16x207x1, .f32⟩
  | 26 => ⟨S16x207x64, .f32⟩
  | 27 => ⟨S16x207x65, .f32⟩
  | 28 => ⟨S207x65x16, .f32⟩
  | 29 => ⟨S207x1040, .f32⟩
  | 30 => ⟨S207x1040, .f32⟩
  | 31 => ⟨S207x1040, .f32⟩
  | 32 => ⟨S_, .f32⟩
  | 33 => ⟨S207x1040, .f32⟩
  | 34 => ⟨S207x1040, .f32⟩
  | 35 => ⟨S207x1040, .f32⟩
  | 36 => ⟨S207x1040, .f32⟩
  | 37 => ⟨S207x1040, .f32⟩
  | 38 => ⟨S_, .f32⟩
  | 39 => ⟨S207x1040, .f32⟩
  | 40 => ⟨S207x1040, .f32⟩
  | 41 => ⟨S207x1040, .f32⟩
  | 42 => ⟨S1x207x1040, .f32⟩
  | 43 => ⟨S1x207x1040, .f32⟩
  | 44 => ⟨S1x207x1040, .f32⟩
  | 45 => ⟨S1x207x1040, .f32⟩
  | 46 => ⟨S1x207x1040, .f32⟩
  | 47 => ⟨S5x207x1040, .f32⟩
  | 48 => ⟨S5x207x65x16, .f32⟩
  | 49 => ⟨S16x207x65x5, .f32⟩
  | 50 => ⟨S3312x325, .f32⟩
  | 51 => ⟨S3312x128, .f32⟩
  | 52 => ⟨S1x128, .f32⟩
  | 53 => ⟨S3312x128, .f32⟩
  | 54 => ⟨S3312x128, .f32⟩
  | 55 => ⟨S16x26496, .f32⟩
  | 56 => ⟨S16x26496, .f32⟩
  | 57 => ⟨S16x26496, .f32⟩
  | 58 => ⟨S_, .f32⟩
  | 59 => ⟨S16x26496, .f32⟩
  | 60 => ⟨S16x26496, .f32⟩
  | 61 => ⟨S_, .f32⟩
  | 62 => ⟨S16x26496, .f32⟩
  | 63 => ⟨S16x26496, .f32⟩
  | 64 => ⟨S16x207x128, .f32⟩
  | 65 => ⟨S16x207x64, .f32⟩
  | 66 => ⟨S16x13248, .f32⟩
  | 67 => ⟨S16x207x64, .f32⟩
  | 68 => ⟨S16x13248, .f32⟩
  | 69 => ⟨S16x13248, .f32⟩
  | 70 => ⟨S16x207x64, .f32⟩
  | 71 => ⟨S16x207x65, .f32⟩
  | 72 => ⟨S207x65x16, .f32⟩
  | 73 => ⟨S207x1040, .f32⟩
  | 74 => ⟨S207x1040, .f32⟩
  | 75 => ⟨S207x1040, .f32⟩
  | 76 => ⟨S_, .f32⟩
  | 77 => ⟨S207x1040, .f32⟩
  | 78 => ⟨S207x1040, .f32⟩
  | 79 => ⟨S207x1040, .f32⟩
  | 80 => ⟨S207x1040, .f32⟩
  | 81 => ⟨S207x1040, .f32⟩
  | 82 => ⟨S_, .f32⟩
  | 83 => ⟨S207x1040, .f32⟩
  | 84 => ⟨S207x1040, .f32⟩
  | 85 => ⟨S207x1040, .f32⟩
  | 86 => ⟨S1x207x1040, .f32⟩
  | 87 => ⟨S1x207x1040, .f32⟩
  | 88 => ⟨S1x207x1040, .f32⟩
  | 89 => ⟨S1x207x1040, .f32⟩
  | 90 => ⟨S1x207x1040, .f32⟩
  | 91 => ⟨S5x207x1040, .f32⟩
  | 92 => ⟨S5x207x65x16, .f32⟩
  | 93 => ⟨S16x207x65x5, .f32⟩
  | 94 => ⟨S3312x325, .f32⟩
  | 95 => ⟨S3312x64, .f32⟩
  | 96 => ⟨S1x64, .f32⟩
  | 97 => ⟨S3312x64, .f32⟩
  | 98 => ⟨S3312x64, .f32⟩
  | 99 => ⟨S16x13248, .f32⟩
  | 100 => ⟨S16x13248, .f32⟩
  | 101 => ⟨S16x13248, .f32⟩
  | 102 => ⟨S_, .f32⟩
  | 103 => ⟨S16x13248, .f32⟩
  | 104 => ⟨S16x13248, .f32⟩
  | 105 => ⟨S16x13248, .f32⟩
  | 106 => ⟨S16x13248, .f32⟩
  | 107 => ⟨S3312x64, .f32⟩
  | 108 => ⟨S3312x1, .f32⟩
  | 109 => ⟨S1x1, .f32⟩
  | 110 => ⟨S3312x1, .f32⟩
  | 111 => ⟨S3312x1, .f32⟩
  | 112 => ⟨S16x207, .f32⟩
  | 113 => ⟨S1x16x207, .f32⟩
  | 114 => ⟨S1x16x207, .f32⟩
  | 115 => ⟨S1x16x207, .f32⟩
  | 116 => ⟨S1x16x207, .f32⟩
  | 117 => ⟨S1x16x207, .f32⟩
  | 118 => ⟨S1x16x207, .f32⟩
  | 119 => ⟨S1x16x207, .f32⟩
  | 120 => ⟨S1x16x207, .f32⟩
  | 121 => ⟨S8x16x207, .f32⟩
  | _ => ⟨S8x16x1656, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S8x16x1656, .f32⟩

abbrev bufTy : (tb : Table) → Fin (tcTables nBuf tb) → BufTy
  | .hbm, ⟨i, _⟩ => hbmTy i
  | _, _ => ⟨S8x16x1656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_4 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_6 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_7 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_8 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_9 : Ref sig .tc := ⟨.hbm, 134, rfl⟩
abbrev main_v111 : Ref sig .tc := ⟨.hbm, 135, rfl⟩
abbrev main_v112 : Ref sig .tc := ⟨.hbm, 136, rfl⟩
abbrev main_cst_10 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_11 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_12 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_cst_13 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_cst_14 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_cst_15 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_cst_16 : Ref sig .tc := ⟨.hbm, 218, rfl⟩
abbrev main_v188 : Ref sig .tc := ⟨.hbm, 219, rfl⟩
abbrev main_v189 : Ref sig .tc := ⟨.hbm, 220, rfl⟩
abbrev main_cst_17 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_cst_18 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_cst_19 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_cst_20 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_cst_21 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_cst_22 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_cst_23 : Ref sig .tc := ⟨.hbm, 302, rfl⟩
abbrev main_v265 : Ref sig .tc := ⟨.hbm, 303, rfl⟩
abbrev main_v266 : Ref sig .tc := ⟨.hbm, 304, rfl⟩
abbrev main_cst_24 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_v271 : Ref sig .tc := ⟨.hbm, 310, rfl⟩
abbrev main_v272 : Ref sig .tc := ⟨.hbm, 311, rfl⟩
abbrev main_v273 : Ref sig .tc := ⟨.hbm, 312, rfl⟩
abbrev main_v274 : Ref sig .tc := ⟨.hbm, 313, rfl⟩
abbrev main_v275 : Ref sig .tc := ⟨.hbm, 314, rfl⟩
abbrev main_v276 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_cst_25 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_cst_26 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_cst_27 : Ref sig .tc := ⟨.hbm, 346, rfl⟩
abbrev main_v305 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_v317 : Ref sig .tc := ⟨.hbm, 359, rfl⟩
abbrev main_cst_28 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_cst_29 : Ref sig .tc := ⟨.hbm, 366, rfl⟩
abbrev main_v323 : Ref sig .tc := ⟨.hbm, 367, rfl⟩
abbrev main_v324 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_v331 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_v341 : Ref sig .tc := ⟨.hbm, 385, rfl⟩
abbrev main_cst_30 : Ref sig .tc := ⟨.hbm, 386, rfl⟩
abbrev main_v342 : Ref sig .tc := ⟨.hbm, 387, rfl⟩
abbrev main_v343 : Ref sig .tc := ⟨.hbm, 388, rfl⟩
abbrev main_cst_31 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_cst_32 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_cst_33 : Ref sig .tc := ⟨.hbm, 410, rfl⟩
abbrev main_v363 : Ref sig .tc := ⟨.hbm, 411, rfl⟩
abbrev main_v364 : Ref sig .tc := ⟨.hbm, 412, rfl⟩
abbrev main_v365 : Ref sig .tc := ⟨.hbm, 413, rfl⟩
abbrev main_v366 : Ref sig .tc := ⟨.hbm, 414, rfl⟩
abbrev main_v367 : Ref sig .tc := ⟨.hbm, 415, rfl⟩
abbrev main_v368 : Ref sig .tc := ⟨.hbm, 416, rfl⟩
abbrev main_v369 : Ref sig .tc := ⟨.hbm, 417, rfl⟩
abbrev main_v370 : Ref sig .tc := ⟨.hbm, 418, rfl⟩
abbrev main_v371 : Ref sig .tc := ⟨.hbm, 419, rfl⟩
abbrev main_v372 : Ref sig .tc := ⟨.hbm, 420, rfl⟩
abbrev main_v373 : Ref sig .tc := ⟨.hbm, 421, rfl⟩
abbrev main_v374 : Ref sig .tc := ⟨.hbm, 422, rfl⟩
abbrev main_v375 : Ref sig .tc := ⟨.hbm, 423, rfl⟩
abbrev main_v376 : Ref sig .tc := ⟨.hbm, 424, rfl⟩
abbrev main_v377 : Ref sig .tc := ⟨.hbm, 425, rfl⟩
abbrev main_v378 : Ref sig .tc := ⟨.hbm, 426, rfl⟩
abbrev main_v379 : Ref sig .tc := ⟨.hbm, 427, rfl⟩
abbrev main_v380 : Ref sig .tc := ⟨.hbm, 428, rfl⟩
abbrev main_v381 : Ref sig .tc := ⟨.hbm, 429, rfl⟩
abbrev main_cst_34 : Ref sig .tc := ⟨.hbm, 430, rfl⟩
abbrev main_v382 : Ref sig .tc := ⟨.hbm, 431, rfl⟩
abbrev main_v383 : Ref sig .tc := ⟨.hbm, 432, rfl⟩
abbrev main_v384 : Ref sig .tc := ⟨.hbm, 433, rfl⟩
abbrev main_v385 : Ref sig .tc := ⟨.hbm, 434, rfl⟩
abbrev main_v386 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_v391 : Ref sig .tc := ⟨.hbm, 440, rfl⟩
abbrev main_v392 : Ref sig .tc := ⟨.hbm, 441, rfl⟩
abbrev main_v393 : Ref sig .tc := ⟨.hbm, 442, rfl⟩
abbrev main_v394 : Ref sig .tc := ⟨.hbm, 443, rfl⟩
abbrev main_cst_35 : Ref sig .tc := ⟨.hbm, 444, rfl⟩
abbrev main_v395 : Ref sig .tc := ⟨.hbm, 445, rfl⟩
abbrev main_v396 : Ref sig .tc := ⟨.hbm, 446, rfl⟩
abbrev main_v397 : Ref sig .tc := ⟨.hbm, 447, rfl⟩
abbrev main_v398 : Ref sig .tc := ⟨.hbm, 448, rfl⟩
abbrev main_v399 : Ref sig .tc := ⟨.hbm, 449, rfl⟩
abbrev main_cst_36 : Ref sig .tc := ⟨.hbm, 450, rfl⟩
abbrev main_v400 : Ref sig .tc := ⟨.hbm, 451, rfl⟩
abbrev main_v401 : Ref sig .tc := ⟨.hbm, 452, rfl⟩
abbrev main_v402 : Ref sig .tc := ⟨.hbm, 453, rfl⟩
abbrev main_v403 : Ref sig .tc := ⟨.hbm, 454, rfl⟩
abbrev main_v404 : Ref sig .tc := ⟨.hbm, 455, rfl⟩
abbrev main_v405 : Ref sig .tc := ⟨.hbm, 456, rfl⟩
abbrev main_v406 : Ref sig .tc := ⟨.hbm, 457, rfl⟩
abbrev main_v407 : Ref sig .tc := ⟨.hbm, 458, rfl⟩
abbrev main_v408 : Ref sig .tc := ⟨.hbm, 459, rfl⟩
abbrev main_v409 : Ref sig .tc := ⟨.hbm, 460, rfl⟩
abbrev main_v410 : Ref sig .tc := ⟨.hbm, 461, rfl⟩
abbrev main_v411 : Ref sig .tc := ⟨.hbm, 462, rfl⟩
abbrev main_v412 : Ref sig .tc := ⟨.hbm, 463, rfl⟩
abbrev main_v413 : Ref sig .tc := ⟨.hbm, 464, rfl⟩
abbrev main_v414 : Ref sig .tc := ⟨.hbm, 465, rfl⟩
abbrev main_v415 : Ref sig .tc := ⟨.hbm, 466, rfl⟩
abbrev main_v416 : Ref sig .tc := ⟨.hbm, 467, rfl⟩
abbrev main_v417 : Ref sig .tc := ⟨.hbm, 468, rfl⟩
abbrev main_v418 : Ref sig .tc := ⟨.hbm, 469, rfl⟩
abbrev main_cst_37 : Ref sig .tc := ⟨.hbm, 470, rfl⟩
abbrev main_v419 : Ref sig .tc := ⟨.hbm, 471, rfl⟩
abbrev main_v420 : Ref sig .tc := ⟨.hbm, 472, rfl⟩
abbrev main_cst_38 : Ref sig .tc := ⟨.hbm, 473, rfl⟩
abbrev main_v421 : Ref sig .tc := ⟨.hbm, 474, rfl⟩
abbrev main_v422 : Ref sig .tc := ⟨.hbm, 475, rfl⟩
abbrev main_v423 : Ref sig .tc := ⟨.hbm, 476, rfl⟩
abbrev main_v424 : Ref sig .tc := ⟨.hbm, 477, rfl⟩
abbrev main_v425 : Ref sig .tc := ⟨.hbm, 478, rfl⟩
abbrev main_v426 : Ref sig .tc := ⟨.hbm, 479, rfl⟩
abbrev main_v427 : Ref sig .tc := ⟨.hbm, 480, rfl⟩
abbrev main_v428 : Ref sig .tc := ⟨.hbm, 481, rfl⟩
abbrev main_v429 : Ref sig .tc := ⟨.hbm, 482, rfl⟩
abbrev main_v430 : Ref sig .tc := ⟨.hbm, 483, rfl⟩
abbrev main_v431 : Ref sig .tc := ⟨.hbm, 484, rfl⟩
abbrev main_v432 : Ref sig .tc := ⟨.hbm, 485, rfl⟩
abbrev main_v433 : Ref sig .tc := ⟨.hbm, 486, rfl⟩
abbrev main_v434 : Ref sig .tc := ⟨.hbm, 487, rfl⟩
abbrev main_cst_39 : Ref sig .tc := ⟨.hbm, 488, rfl⟩
abbrev main_v435 : Ref sig .tc := ⟨.hbm, 489, rfl⟩
abbrev main_v436 : Ref sig .tc := ⟨.hbm, 490, rfl⟩
abbrev main_v437 : Ref sig .tc := ⟨.hbm, 491, rfl⟩
abbrev main_v438 : Ref sig .tc := ⟨.hbm, 492, rfl⟩
abbrev main_v439 : Ref sig .tc := ⟨.hbm, 493, rfl⟩
abbrev main_cst_40 : Ref sig .tc := ⟨.hbm, 494, rfl⟩
abbrev main_v440 : Ref sig .tc := ⟨.hbm, 495, rfl⟩
abbrev main_v441 : Ref sig .tc := ⟨.hbm, 496, rfl⟩
abbrev main_v442 : Ref sig .tc := ⟨.hbm, 497, rfl⟩
abbrev main_v443 : Ref sig .tc := ⟨.hbm, 498, rfl⟩
abbrev main_v444 : Ref sig .tc := ⟨.hbm, 499, rfl⟩
abbrev main_v445 : Ref sig .tc := ⟨.hbm, 500, rfl⟩
abbrev main_v446 : Ref sig .tc := ⟨.hbm, 501, rfl⟩
abbrev main_v447 : Ref sig .tc := ⟨.hbm, 502, rfl⟩
abbrev main_v448 : Ref sig .tc := ⟨.hbm, 503, rfl⟩
abbrev main_v449 : Ref sig .tc := ⟨.hbm, 504, rfl⟩
abbrev main_v450 : Ref sig .tc := ⟨.hbm, 505, rfl⟩
abbrev main_v451 : Ref sig .tc := ⟨.hbm, 506, rfl⟩
abbrev main_v452 : Ref sig .tc := ⟨.hbm, 507, rfl⟩
abbrev main_v453 : Ref sig .tc := ⟨.hbm, 508, rfl⟩
abbrev main_v454 : Ref sig .tc := ⟨.hbm, 509, rfl⟩
abbrev main_v455 : Ref sig .tc := ⟨.hbm, 510, rfl⟩
abbrev main_v456 : Ref sig .tc := ⟨.hbm, 511, rfl⟩
abbrev main_v457 : Ref sig .tc := ⟨.hbm, 512, rfl⟩
abbrev main_v458 : Ref sig .tc := ⟨.hbm, 513, rfl⟩
abbrev main_cst_41 : Ref sig .tc := ⟨.hbm, 514, rfl⟩
abbrev main_v459 : Ref sig .tc := ⟨.hbm, 515, rfl⟩
abbrev main_v460 : Ref sig .tc := ⟨.hbm, 516, rfl⟩
abbrev main_v461 : Ref sig .tc := ⟨.hbm, 517, rfl⟩
abbrev main_v462 : Ref sig .tc := ⟨.hbm, 518, rfl⟩
abbrev main_v463 : Ref sig .tc := ⟨.hbm, 519, rfl⟩
abbrev main_v464 : Ref sig .tc := ⟨.hbm, 520, rfl⟩
abbrev main_v465 : Ref sig .tc := ⟨.hbm, 521, rfl⟩
abbrev main_v466 : Ref sig .tc := ⟨.hbm, 522, rfl⟩
abbrev main_v467 : Ref sig .tc := ⟨.hbm, 523, rfl⟩
abbrev main_v468 : Ref sig .tc := ⟨.hbm, 524, rfl⟩
abbrev main_v469 : Ref sig .tc := ⟨.hbm, 525, rfl⟩
abbrev main_v470 : Ref sig .tc := ⟨.hbm, 526, rfl⟩
abbrev main_v471 : Ref sig .tc := ⟨.hbm, 527, rfl⟩
abbrev main_cst_42 : Ref sig .tc := ⟨.hbm, 528, rfl⟩
abbrev main_v472 : Ref sig .tc := ⟨.hbm, 529, rfl⟩
abbrev main_v473 : Ref sig .tc := ⟨.hbm, 530, rfl⟩
abbrev main_v474 : Ref sig .tc := ⟨.hbm, 531, rfl⟩
abbrev main_v475 : Ref sig .tc := ⟨.hbm, 532, rfl⟩
abbrev main_v476 : Ref sig .tc := ⟨.hbm, 533, rfl⟩
abbrev main_cst_43 : Ref sig .tc := ⟨.hbm, 534, rfl⟩
abbrev main_v477 : Ref sig .tc := ⟨.hbm, 535, rfl⟩
abbrev main_v478 : Ref sig .tc := ⟨.hbm, 536, rfl⟩
abbrev main_v479 : Ref sig .tc := ⟨.hbm, 537, rfl⟩
abbrev main_v480 : Ref sig .tc := ⟨.hbm, 538, rfl⟩
abbrev main_v481 : Ref sig .tc := ⟨.hbm, 539, rfl⟩
abbrev main_v482 : Ref sig .tc := ⟨.hbm, 540, rfl⟩
abbrev main_v483 : Ref sig .tc := ⟨.hbm, 541, rfl⟩
abbrev main_v484 : Ref sig .tc := ⟨.hbm, 542, rfl⟩
abbrev main_v485 : Ref sig .tc := ⟨.hbm, 543, rfl⟩
abbrev main_v486 : Ref sig .tc := ⟨.hbm, 544, rfl⟩
abbrev main_v487 : Ref sig .tc := ⟨.hbm, 545, rfl⟩
abbrev main_v488 : Ref sig .tc := ⟨.hbm, 546, rfl⟩
abbrev main_v489 : Ref sig .tc := ⟨.hbm, 547, rfl⟩
abbrev main_v490 : Ref sig .tc := ⟨.hbm, 548, rfl⟩
abbrev main_v491 : Ref sig .tc := ⟨.hbm, 549, rfl⟩
abbrev main_v492 : Ref sig .tc := ⟨.hbm, 550, rfl⟩
abbrev main_v493 : Ref sig .tc := ⟨.hbm, 551, rfl⟩
abbrev main_v494 : Ref sig .tc := ⟨.hbm, 552, rfl⟩
abbrev main_v495 : Ref sig .tc := ⟨.hbm, 553, rfl⟩
abbrev main_cst_44 : Ref sig .tc := ⟨.hbm, 554, rfl⟩
abbrev main_v496 : Ref sig .tc := ⟨.hbm, 555, rfl⟩
abbrev main_v497 : Ref sig .tc := ⟨.hbm, 556, rfl⟩
abbrev main_cst_45 : Ref sig .tc := ⟨.hbm, 557, rfl⟩
abbrev main_v498 : Ref sig .tc := ⟨.hbm, 558, rfl⟩
abbrev main_v499 : Ref sig .tc := ⟨.hbm, 559, rfl⟩
abbrev main_v500 : Ref sig .tc := ⟨.hbm, 560, rfl⟩
abbrev main_v501 : Ref sig .tc := ⟨.hbm, 561, rfl⟩
abbrev main_v502 : Ref sig .tc := ⟨.hbm, 562, rfl⟩
abbrev main_v503 : Ref sig .tc := ⟨.hbm, 563, rfl⟩
abbrev main_v504 : Ref sig .tc := ⟨.hbm, 564, rfl⟩
abbrev main_v505 : Ref sig .tc := ⟨.hbm, 565, rfl⟩
abbrev main_v506 : Ref sig .tc := ⟨.hbm, 566, rfl⟩
abbrev main_v507 : Ref sig .tc := ⟨.hbm, 567, rfl⟩
abbrev main_v508 : Ref sig .tc := ⟨.hbm, 568, rfl⟩
abbrev main_v509 : Ref sig .tc := ⟨.hbm, 569, rfl⟩
abbrev main_v510 : Ref sig .tc := ⟨.hbm, 570, rfl⟩
abbrev main_v511 : Ref sig .tc := ⟨.hbm, 571, rfl⟩
abbrev main_cst_46 : Ref sig .tc := ⟨.hbm, 572, rfl⟩
abbrev main_v512 : Ref sig .tc := ⟨.hbm, 573, rfl⟩
abbrev main_v513 : Ref sig .tc := ⟨.hbm, 574, rfl⟩
abbrev main_v514 : Ref sig .tc := ⟨.hbm, 575, rfl⟩
abbrev main_v515 : Ref sig .tc := ⟨.hbm, 576, rfl⟩
abbrev main_v516 : Ref sig .tc := ⟨.hbm, 577, rfl⟩
abbrev main_cst_47 : Ref sig .tc := ⟨.hbm, 578, rfl⟩
abbrev main_v517 : Ref sig .tc := ⟨.hbm, 579, rfl⟩
abbrev main_v518 : Ref sig .tc := ⟨.hbm, 580, rfl⟩
abbrev main_v519 : Ref sig .tc := ⟨.hbm, 581, rfl⟩
abbrev main_v520 : Ref sig .tc := ⟨.hbm, 582, rfl⟩
abbrev main_v521 : Ref sig .tc := ⟨.hbm, 583, rfl⟩
abbrev main_v522 : Ref sig .tc := ⟨.hbm, 584, rfl⟩
abbrev main_v523 : Ref sig .tc := ⟨.hbm, 585, rfl⟩
abbrev main_v524 : Ref sig .tc := ⟨.hbm, 586, rfl⟩
abbrev main_v525 : Ref sig .tc := ⟨.hbm, 587, rfl⟩
abbrev main_v526 : Ref sig .tc := ⟨.hbm, 588, rfl⟩
abbrev main_v527 : Ref sig .tc := ⟨.hbm, 589, rfl⟩
abbrev main_v528 : Ref sig .tc := ⟨.hbm, 590, rfl⟩
abbrev main_v529 : Ref sig .tc := ⟨.hbm, 591, rfl⟩
abbrev main_v530 : Ref sig .tc := ⟨.hbm, 592, rfl⟩
abbrev main_v531 : Ref sig .tc := ⟨.hbm, 593, rfl⟩
abbrev main_v532 : Ref sig .tc := ⟨.hbm, 594, rfl⟩
abbrev main_v533 : Ref sig .tc := ⟨.hbm, 595, rfl⟩
abbrev main_v534 : Ref sig .tc := ⟨.hbm, 596, rfl⟩
abbrev main_v535 : Ref sig .tc := ⟨.hbm, 597, rfl⟩
abbrev main_cst_48 : Ref sig .tc := ⟨.hbm, 598, rfl⟩
abbrev main_v536 : Ref sig .tc := ⟨.hbm, 599, rfl⟩
abbrev main_v537 : Ref sig .tc := ⟨.hbm, 600, rfl⟩
abbrev main_v538 : Ref sig .tc := ⟨.hbm, 601, rfl⟩
abbrev main_v539 : Ref sig .tc := ⟨.hbm, 602, rfl⟩
abbrev main_v540 : Ref sig .tc := ⟨.hbm, 603, rfl⟩
abbrev main_v541 : Ref sig .tc := ⟨.hbm, 604, rfl⟩
abbrev main_v542 : Ref sig .tc := ⟨.hbm, 605, rfl⟩
abbrev main_v543 : Ref sig .tc := ⟨.hbm, 606, rfl⟩
abbrev main_v544 : Ref sig .tc := ⟨.hbm, 607, rfl⟩
abbrev main_v545 : Ref sig .tc := ⟨.hbm, 608, rfl⟩
abbrev main_v546 : Ref sig .tc := ⟨.hbm, 609, rfl⟩
abbrev main_v547 : Ref sig .tc := ⟨.hbm, 610, rfl⟩
abbrev main_v548 : Ref sig .tc := ⟨.hbm, 611, rfl⟩
abbrev main_cst_49 : Ref sig .tc := ⟨.hbm, 612, rfl⟩
abbrev main_v549 : Ref sig .tc := ⟨.hbm, 613, rfl⟩
abbrev main_v550 : Ref sig .tc := ⟨.hbm, 614, rfl⟩
abbrev main_v551 : Ref sig .tc := ⟨.hbm, 615, rfl⟩
abbrev main_v552 : Ref sig .tc := ⟨.hbm, 616, rfl⟩
abbrev main_v553 : Ref sig .tc := ⟨.hbm, 617, rfl⟩
abbrev main_cst_50 : Ref sig .tc := ⟨.hbm, 618, rfl⟩
abbrev main_v554 : Ref sig .tc := ⟨.hbm, 619, rfl⟩
abbrev main_v555 : Ref sig .tc := ⟨.hbm, 620, rfl⟩
abbrev main_v556 : Ref sig .tc := ⟨.hbm, 621, rfl⟩
abbrev main_v557 : Ref sig .tc := ⟨.hbm, 622, rfl⟩
abbrev main_v558 : Ref sig .tc := ⟨.hbm, 623, rfl⟩
abbrev main_v559 : Ref sig .tc := ⟨.hbm, 624, rfl⟩
abbrev main_v560 : Ref sig .tc := ⟨.hbm, 625, rfl⟩
abbrev main_v561 : Ref sig .tc := ⟨.hbm, 626, rfl⟩
abbrev main_v562 : Ref sig .tc := ⟨.hbm, 627, rfl⟩
abbrev main_v563 : Ref sig .tc := ⟨.hbm, 628, rfl⟩
abbrev main_v564 : Ref sig .tc := ⟨.hbm, 629, rfl⟩
abbrev main_v565 : Ref sig .tc := ⟨.hbm, 630, rfl⟩
abbrev main_v566 : Ref sig .tc := ⟨.hbm, 631, rfl⟩
abbrev main_v567 : Ref sig .tc := ⟨.hbm, 632, rfl⟩
abbrev main_v568 : Ref sig .tc := ⟨.hbm, 633, rfl⟩
abbrev main_v569 : Ref sig .tc := ⟨.hbm, 634, rfl⟩
abbrev main_v570 : Ref sig .tc := ⟨.hbm, 635, rfl⟩
abbrev main_v571 : Ref sig .tc := ⟨.hbm, 636, rfl⟩
abbrev main_v572 : Ref sig .tc := ⟨.hbm, 637, rfl⟩
abbrev main_cst_51 : Ref sig .tc := ⟨.hbm, 638, rfl⟩
abbrev main_v573 : Ref sig .tc := ⟨.hbm, 639, rfl⟩
abbrev main_v574 : Ref sig .tc := ⟨.hbm, 640, rfl⟩
abbrev main_cst_52 : Ref sig .tc := ⟨.hbm, 641, rfl⟩
abbrev main_v575 : Ref sig .tc := ⟨.hbm, 642, rfl⟩
abbrev main_v576 : Ref sig .tc := ⟨.hbm, 643, rfl⟩
abbrev main_v577 : Ref sig .tc := ⟨.hbm, 644, rfl⟩
abbrev main_v578 : Ref sig .tc := ⟨.hbm, 645, rfl⟩
abbrev main_v579 : Ref sig .tc := ⟨.hbm, 646, rfl⟩
abbrev main_v580 : Ref sig .tc := ⟨.hbm, 647, rfl⟩
abbrev main_v581 : Ref sig .tc := ⟨.hbm, 648, rfl⟩
abbrev main_v582 : Ref sig .tc := ⟨.hbm, 649, rfl⟩
abbrev main_v583 : Ref sig .tc := ⟨.hbm, 650, rfl⟩
abbrev main_v584 : Ref sig .tc := ⟨.hbm, 651, rfl⟩
abbrev main_v585 : Ref sig .tc := ⟨.hbm, 652, rfl⟩
abbrev main_v586 : Ref sig .tc := ⟨.hbm, 653, rfl⟩
abbrev main_v587 : Ref sig .tc := ⟨.hbm, 654, rfl⟩
abbrev main_v588 : Ref sig .tc := ⟨.hbm, 655, rfl⟩
abbrev main_cst_53 : Ref sig .tc := ⟨.hbm, 656, rfl⟩
abbrev main_v589 : Ref sig .tc := ⟨.hbm, 657, rfl⟩
abbrev main_v590 : Ref sig .tc := ⟨.hbm, 658, rfl⟩
abbrev main_v591 : Ref sig .tc := ⟨.hbm, 659, rfl⟩
abbrev main_v592 : Ref sig .tc := ⟨.hbm, 660, rfl⟩
abbrev main_v593 : Ref sig .tc := ⟨.hbm, 661, rfl⟩
abbrev main_cst_54 : Ref sig .tc := ⟨.hbm, 662, rfl⟩
abbrev main_v594 : Ref sig .tc := ⟨.hbm, 663, rfl⟩
abbrev main_v595 : Ref sig .tc := ⟨.hbm, 664, rfl⟩
abbrev main_v596 : Ref sig .tc := ⟨.hbm, 665, rfl⟩
abbrev main_v597 : Ref sig .tc := ⟨.hbm, 666, rfl⟩
abbrev main_v598 : Ref sig .tc := ⟨.hbm, 667, rfl⟩
abbrev main_v599 : Ref sig .tc := ⟨.hbm, 668, rfl⟩
abbrev main_v600 : Ref sig .tc := ⟨.hbm, 669, rfl⟩
abbrev main_v601 : Ref sig .tc := ⟨.hbm, 670, rfl⟩
abbrev main_v602 : Ref sig .tc := ⟨.hbm, 671, rfl⟩
abbrev main_v603 : Ref sig .tc := ⟨.hbm, 672, rfl⟩
abbrev main_v604 : Ref sig .tc := ⟨.hbm, 673, rfl⟩
abbrev main_v605 : Ref sig .tc := ⟨.hbm, 674, rfl⟩
abbrev main_v606 : Ref sig .tc := ⟨.hbm, 675, rfl⟩
abbrev main_v607 : Ref sig .tc := ⟨.hbm, 676, rfl⟩
abbrev main_v608 : Ref sig .tc := ⟨.hbm, 677, rfl⟩
abbrev main_v609 : Ref sig .tc := ⟨.hbm, 678, rfl⟩
abbrev main_v610 : Ref sig .tc := ⟨.hbm, 679, rfl⟩
abbrev main_v611 : Ref sig .tc := ⟨.hbm, 680, rfl⟩
abbrev main_v612 : Ref sig .tc := ⟨.hbm, 681, rfl⟩
abbrev main_cst_55 : Ref sig .tc := ⟨.hbm, 682, rfl⟩
abbrev main_v613 : Ref sig .tc := ⟨.hbm, 683, rfl⟩
abbrev main_v614 : Ref sig .tc := ⟨.hbm, 684, rfl⟩
abbrev main_v615 : Ref sig .tc := ⟨.hbm, 685, rfl⟩
abbrev main_v616 : Ref sig .tc := ⟨.hbm, 686, rfl⟩
abbrev main_cst_56 : Ref sig .tc := ⟨.hbm, 687, rfl⟩
abbrev main_v617 : Ref sig .tc := ⟨.hbm, 688, rfl⟩
abbrev main_v618 : Ref sig .tc := ⟨.hbm, 689, rfl⟩
abbrev main_v619 : Ref sig .tc := ⟨.hbm, 690, rfl⟩
abbrev main_v620 : Ref sig .tc := ⟨.hbm, 691, rfl⟩
abbrev main_v621 : Ref sig .tc := ⟨.hbm, 692, rfl⟩
abbrev main_v622 : Ref sig .tc := ⟨.hbm, 693, rfl⟩
abbrev main_v623 : Ref sig .tc := ⟨.hbm, 694, rfl⟩
abbrev main_v624 : Ref sig .tc := ⟨.hbm, 695, rfl⟩
abbrev main_cst_57 : Ref sig .tc := ⟨.hbm, 696, rfl⟩
abbrev main_v625 : Ref sig .tc := ⟨.hbm, 697, rfl⟩
abbrev main_v626 : Ref sig .tc := ⟨.hbm, 698, rfl⟩
abbrev main_v627 : Ref sig .tc := ⟨.hbm, 699, rfl⟩
abbrev main_v628 : Ref sig .tc := ⟨.hbm, 700, rfl⟩
abbrev main_v629 : Ref sig .tc := ⟨.hbm, 701, rfl⟩
abbrev main_cst_58 : Ref sig .tc := ⟨.hbm, 702, rfl⟩
abbrev main_v630 : Ref sig .tc := ⟨.hbm, 703, rfl⟩
abbrev main_v631 : Ref sig .tc := ⟨.hbm, 704, rfl⟩
abbrev main_v632 : Ref sig .tc := ⟨.hbm, 705, rfl⟩
abbrev main_v633 : Ref sig .tc := ⟨.hbm, 706, rfl⟩
abbrev main_v634 : Ref sig .tc := ⟨.hbm, 707, rfl⟩
abbrev main_v635 : Ref sig .tc := ⟨.hbm, 708, rfl⟩
abbrev main_v636 : Ref sig .tc := ⟨.hbm, 709, rfl⟩
abbrev main_v637 : Ref sig .tc := ⟨.hbm, 710, rfl⟩
abbrev main_v638 : Ref sig .tc := ⟨.hbm, 711, rfl⟩
abbrev main_v639 : Ref sig .tc := ⟨.hbm, 712, rfl⟩
abbrev main_v640 : Ref sig .tc := ⟨.hbm, 713, rfl⟩
abbrev main_v641 : Ref sig .tc := ⟨.hbm, 714, rfl⟩
abbrev main_v642 : Ref sig .tc := ⟨.hbm, 715, rfl⟩
abbrev main_v643 : Ref sig .tc := ⟨.hbm, 716, rfl⟩
abbrev main_v644 : Ref sig .tc := ⟨.hbm, 717, rfl⟩
abbrev main_v645 : Ref sig .tc := ⟨.hbm, 718, rfl⟩
abbrev main_v646 : Ref sig .tc := ⟨.hbm, 719, rfl⟩
abbrev main_v647 : Ref sig .tc := ⟨.hbm, 720, rfl⟩
abbrev main_v648 : Ref sig .tc := ⟨.hbm, 721, rfl⟩
abbrev main_cst_59 : Ref sig .tc := ⟨.hbm, 722, rfl⟩
abbrev main_v649 : Ref sig .tc := ⟨.hbm, 723, rfl⟩
abbrev main_v650 : Ref sig .tc := ⟨.hbm, 724, rfl⟩
abbrev main_cst_60 : Ref sig .tc := ⟨.hbm, 725, rfl⟩
abbrev main_v651 : Ref sig .tc := ⟨.hbm, 726, rfl⟩
abbrev main_v652 : Ref sig .tc := ⟨.hbm, 727, rfl⟩
abbrev main_v653 : Ref sig .tc := ⟨.hbm, 728, rfl⟩
abbrev main_v654 : Ref sig .tc := ⟨.hbm, 729, rfl⟩
abbrev main_v655 : Ref sig .tc := ⟨.hbm, 730, rfl⟩
abbrev main_v656 : Ref sig .tc := ⟨.hbm, 731, rfl⟩
abbrev main_v657 : Ref sig .tc := ⟨.hbm, 732, rfl⟩
abbrev main_v658 : Ref sig .tc := ⟨.hbm, 733, rfl⟩
abbrev main_v659 : Ref sig .tc := ⟨.hbm, 734, rfl⟩
abbrev main_v660 : Ref sig .tc := ⟨.hbm, 735, rfl⟩
abbrev main_v661 : Ref sig .tc := ⟨.hbm, 736, rfl⟩
abbrev main_v662 : Ref sig .tc := ⟨.hbm, 737, rfl⟩
abbrev main_v663 : Ref sig .tc := ⟨.hbm, 738, rfl⟩
abbrev main_v664 : Ref sig .tc := ⟨.hbm, 739, rfl⟩
abbrev main_cst_61 : Ref sig .tc := ⟨.hbm, 740, rfl⟩
abbrev main_v665 : Ref sig .tc := ⟨.hbm, 741, rfl⟩
abbrev main_v666 : Ref sig .tc := ⟨.hbm, 742, rfl⟩
abbrev main_v667 : Ref sig .tc := ⟨.hbm, 743, rfl⟩
abbrev main_v668 : Ref sig .tc := ⟨.hbm, 744, rfl⟩
abbrev main_v669 : Ref sig .tc := ⟨.hbm, 745, rfl⟩
abbrev main_cst_62 : Ref sig .tc := ⟨.hbm, 746, rfl⟩
abbrev main_v670 : Ref sig .tc := ⟨.hbm, 747, rfl⟩
abbrev main_v671 : Ref sig .tc := ⟨.hbm, 748, rfl⟩
abbrev main_v672 : Ref sig .tc := ⟨.hbm, 749, rfl⟩
abbrev main_v673 : Ref sig .tc := ⟨.hbm, 750, rfl⟩
abbrev main_v674 : Ref sig .tc := ⟨.hbm, 751, rfl⟩
abbrev main_v675 : Ref sig .tc := ⟨.hbm, 752, rfl⟩
abbrev main_v676 : Ref sig .tc := ⟨.hbm, 753, rfl⟩
abbrev main_v677 : Ref sig .tc := ⟨.hbm, 754, rfl⟩
abbrev main_v678 : Ref sig .tc := ⟨.hbm, 755, rfl⟩
abbrev main_v679 : Ref sig .tc := ⟨.hbm, 756, rfl⟩
abbrev main_v680 : Ref sig .tc := ⟨.hbm, 757, rfl⟩
abbrev main_v681 : Ref sig .tc := ⟨.hbm, 758, rfl⟩
abbrev main_v682 : Ref sig .tc := ⟨.hbm, 759, rfl⟩
abbrev main_v683 : Ref sig .tc := ⟨.hbm, 760, rfl⟩
abbrev main_v684 : Ref sig .tc := ⟨.hbm, 761, rfl⟩
abbrev main_v685 : Ref sig .tc := ⟨.hbm, 762, rfl⟩
abbrev main_v686 : Ref sig .tc := ⟨.hbm, 763, rfl⟩
abbrev main_v687 : Ref sig .tc := ⟨.hbm, 764, rfl⟩
abbrev main_v688 : Ref sig .tc := ⟨.hbm, 765, rfl⟩
abbrev main_cst_63 : Ref sig .tc := ⟨.hbm, 766, rfl⟩
abbrev main_v689 : Ref sig .tc := ⟨.hbm, 767, rfl⟩
abbrev main_v690 : Ref sig .tc := ⟨.hbm, 768, rfl⟩
abbrev main_v691 : Ref sig .tc := ⟨.hbm, 769, rfl⟩
abbrev main_v692 : Ref sig .tc := ⟨.hbm, 770, rfl⟩
abbrev main_v693 : Ref sig .tc := ⟨.hbm, 771, rfl⟩
abbrev main_v694 : Ref sig .tc := ⟨.hbm, 772, rfl⟩
abbrev main_v695 : Ref sig .tc := ⟨.hbm, 773, rfl⟩
abbrev main_v696 : Ref sig .tc := ⟨.hbm, 774, rfl⟩
abbrev main_v697 : Ref sig .tc := ⟨.hbm, 775, rfl⟩
abbrev main_v698 : Ref sig .tc := ⟨.hbm, 776, rfl⟩
abbrev main_v699 : Ref sig .tc := ⟨.hbm, 777, rfl⟩
abbrev main_v700 : Ref sig .tc := ⟨.hbm, 778, rfl⟩
abbrev main_v701 : Ref sig .tc := ⟨.hbm, 779, rfl⟩
abbrev main_v702 : Ref sig .tc := ⟨.hbm, 780, rfl⟩
abbrev main_v703 : Ref sig .tc := ⟨.hbm, 781, rfl⟩
abbrev main_v704 : Ref sig .tc := ⟨.hbm, 782, rfl⟩
abbrev main_v705 : Ref sig .tc := ⟨.hbm, 783, rfl⟩
abbrev main_cst_64 : Ref sig .tc := ⟨.hbm, 784, rfl⟩
abbrev main_v706 : Ref sig .tc := ⟨.hbm, 785, rfl⟩
abbrev main_v707 : Ref sig .tc := ⟨.hbm, 786, rfl⟩
abbrev main_v708 : Ref sig .tc := ⟨.hbm, 787, rfl⟩
abbrev main_v709 : Ref sig .tc := ⟨.hbm, 788, rfl⟩
abbrev main_v710 : Ref sig .tc := ⟨.hbm, 789, rfl⟩
abbrev main_cst_65 : Ref sig .tc := ⟨.hbm, 790, rfl⟩
abbrev main_v711 : Ref sig .tc := ⟨.hbm, 791, rfl⟩
abbrev main_v712 : Ref sig .tc := ⟨.hbm, 792, rfl⟩
abbrev main_v713 : Ref sig .tc := ⟨.hbm, 793, rfl⟩
abbrev main_v714 : Ref sig .tc := ⟨.hbm, 794, rfl⟩
abbrev main_v715 : Ref sig .tc := ⟨.hbm, 795, rfl⟩
abbrev main_v716 : Ref sig .tc := ⟨.hbm, 796, rfl⟩
abbrev main_v717 : Ref sig .tc := ⟨.hbm, 797, rfl⟩
abbrev main_v718 : Ref sig .tc := ⟨.hbm, 798, rfl⟩
abbrev main_v719 : Ref sig .tc := ⟨.hbm, 799, rfl⟩
abbrev main_v720 : Ref sig .tc := ⟨.hbm, 800, rfl⟩
abbrev main_v721 : Ref sig .tc := ⟨.hbm, 801, rfl⟩
abbrev main_v722 : Ref sig .tc := ⟨.hbm, 802, rfl⟩
abbrev main_v723 : Ref sig .tc := ⟨.hbm, 803, rfl⟩
abbrev main_v724 : Ref sig .tc := ⟨.hbm, 804, rfl⟩
abbrev main_v725 : Ref sig .tc := ⟨.hbm, 805, rfl⟩
abbrev main_v726 : Ref sig .tc := ⟨.hbm, 806, rfl⟩
abbrev main_v727 : Ref sig .tc := ⟨.hbm, 807, rfl⟩
abbrev main_v728 : Ref sig .tc := ⟨.hbm, 808, rfl⟩
abbrev main_v729 : Ref sig .tc := ⟨.hbm, 809, rfl⟩
abbrev main_cst_66 : Ref sig .tc := ⟨.hbm, 810, rfl⟩
abbrev main_v730 : Ref sig .tc := ⟨.hbm, 811, rfl⟩
abbrev main_v731 : Ref sig .tc := ⟨.hbm, 812, rfl⟩
abbrev main_cst_67 : Ref sig .tc := ⟨.hbm, 813, rfl⟩
abbrev main_v732 : Ref sig .tc := ⟨.hbm, 814, rfl⟩
abbrev main_v733 : Ref sig .tc := ⟨.hbm, 815, rfl⟩
abbrev main_v734 : Ref sig .tc := ⟨.hbm, 816, rfl⟩
abbrev main_v735 : Ref sig .tc := ⟨.hbm, 817, rfl⟩
abbrev main_v736 : Ref sig .tc := ⟨.hbm, 818, rfl⟩
abbrev main_v737 : Ref sig .tc := ⟨.hbm, 819, rfl⟩
abbrev main_v738 : Ref sig .tc := ⟨.hbm, 820, rfl⟩
abbrev main_v739 : Ref sig .tc := ⟨.hbm, 821, rfl⟩
abbrev main_v740 : Ref sig .tc := ⟨.hbm, 822, rfl⟩
abbrev main_v741 : Ref sig .tc := ⟨.hbm, 823, rfl⟩
abbrev main_v742 : Ref sig .tc := ⟨.hbm, 824, rfl⟩
abbrev main_v743 : Ref sig .tc := ⟨.hbm, 825, rfl⟩
abbrev main_v744 : Ref sig .tc := ⟨.hbm, 826, rfl⟩
abbrev main_v745 : Ref sig .tc := ⟨.hbm, 827, rfl⟩
abbrev main_cst_68 : Ref sig .tc := ⟨.hbm, 828, rfl⟩
abbrev main_v746 : Ref sig .tc := ⟨.hbm, 829, rfl⟩
abbrev main_v747 : Ref sig .tc := ⟨.hbm, 830, rfl⟩
abbrev main_v748 : Ref sig .tc := ⟨.hbm, 831, rfl⟩
abbrev main_v749 : Ref sig .tc := ⟨.hbm, 832, rfl⟩
abbrev main_v750 : Ref sig .tc := ⟨.hbm, 833, rfl⟩
abbrev main_cst_69 : Ref sig .tc := ⟨.hbm, 834, rfl⟩
abbrev main_v751 : Ref sig .tc := ⟨.hbm, 835, rfl⟩
abbrev main_v752 : Ref sig .tc := ⟨.hbm, 836, rfl⟩
abbrev main_v753 : Ref sig .tc := ⟨.hbm, 837, rfl⟩
abbrev main_v754 : Ref sig .tc := ⟨.hbm, 838, rfl⟩
abbrev main_v755 : Ref sig .tc := ⟨.hbm, 839, rfl⟩
abbrev main_v756 : Ref sig .tc := ⟨.hbm, 840, rfl⟩
abbrev main_v757 : Ref sig .tc := ⟨.hbm, 841, rfl⟩
abbrev main_v758 : Ref sig .tc := ⟨.hbm, 842, rfl⟩
abbrev main_v759 : Ref sig .tc := ⟨.hbm, 843, rfl⟩
abbrev main_v760 : Ref sig .tc := ⟨.hbm, 844, rfl⟩
abbrev main_v761 : Ref sig .tc := ⟨.hbm, 845, rfl⟩
abbrev main_v762 : Ref sig .tc := ⟨.hbm, 846, rfl⟩
abbrev main_v763 : Ref sig .tc := ⟨.hbm, 847, rfl⟩
abbrev main_v764 : Ref sig .tc := ⟨.hbm, 848, rfl⟩
abbrev main_v765 : Ref sig .tc := ⟨.hbm, 849, rfl⟩
abbrev main_v766 : Ref sig .tc := ⟨.hbm, 850, rfl⟩
abbrev main_v767 : Ref sig .tc := ⟨.hbm, 851, rfl⟩
abbrev main_v768 : Ref sig .tc := ⟨.hbm, 852, rfl⟩
abbrev main_v769 : Ref sig .tc := ⟨.hbm, 853, rfl⟩
abbrev main_cst_70 : Ref sig .tc := ⟨.hbm, 854, rfl⟩
abbrev main_v770 : Ref sig .tc := ⟨.hbm, 855, rfl⟩
abbrev main_v771 : Ref sig .tc := ⟨.hbm, 856, rfl⟩
abbrev main_v772 : Ref sig .tc := ⟨.hbm, 857, rfl⟩
abbrev main_v773 : Ref sig .tc := ⟨.hbm, 858, rfl⟩
abbrev main_v774 : Ref sig .tc := ⟨.hbm, 859, rfl⟩
abbrev main_v775 : Ref sig .tc := ⟨.hbm, 860, rfl⟩
abbrev main_v776 : Ref sig .tc := ⟨.hbm, 861, rfl⟩
abbrev main_v777 : Ref sig .tc := ⟨.hbm, 862, rfl⟩
abbrev main_v778 : Ref sig .tc := ⟨.hbm, 863, rfl⟩
abbrev main_v779 : Ref sig .tc := ⟨.hbm, 864, rfl⟩
abbrev main_v780 : Ref sig .tc := ⟨.hbm, 865, rfl⟩
abbrev main_v781 : Ref sig .tc := ⟨.hbm, 866, rfl⟩
abbrev main_v782 : Ref sig .tc := ⟨.hbm, 867, rfl⟩
abbrev main_v783 : Ref sig .tc := ⟨.hbm, 868, rfl⟩
abbrev main_v784 : Ref sig .tc := ⟨.hbm, 869, rfl⟩
abbrev main_v785 : Ref sig .tc := ⟨.hbm, 870, rfl⟩
abbrev main_v786 : Ref sig .tc := ⟨.hbm, 871, rfl⟩
abbrev main_cst_71 : Ref sig .tc := ⟨.hbm, 872, rfl⟩
abbrev main_v787 : Ref sig .tc := ⟨.hbm, 873, rfl⟩
abbrev main_v788 : Ref sig .tc := ⟨.hbm, 874, rfl⟩
abbrev main_v789 : Ref sig .tc := ⟨.hbm, 875, rfl⟩
abbrev main_v790 : Ref sig .tc := ⟨.hbm, 876, rfl⟩
abbrev main_v791 : Ref sig .tc := ⟨.hbm, 877, rfl⟩
abbrev main_cst_72 : Ref sig .tc := ⟨.hbm, 878, rfl⟩
abbrev main_v792 : Ref sig .tc := ⟨.hbm, 879, rfl⟩
abbrev main_v793 : Ref sig .tc := ⟨.hbm, 880, rfl⟩
abbrev main_v794 : Ref sig .tc := ⟨.hbm, 881, rfl⟩
abbrev main_v795 : Ref sig .tc := ⟨.hbm, 882, rfl⟩
abbrev main_v796 : Ref sig .tc := ⟨.hbm, 883, rfl⟩
abbrev main_v797 : Ref sig .tc := ⟨.hbm, 884, rfl⟩
abbrev main_v798 : Ref sig .tc := ⟨.hbm, 885, rfl⟩
abbrev main_v799 : Ref sig .tc := ⟨.hbm, 886, rfl⟩
abbrev main_v800 : Ref sig .tc := ⟨.hbm, 887, rfl⟩
abbrev main_v801 : Ref sig .tc := ⟨.hbm, 888, rfl⟩
abbrev main_v802 : Ref sig .tc := ⟨.hbm, 889, rfl⟩
abbrev main_v803 : Ref sig .tc := ⟨.hbm, 890, rfl⟩
abbrev main_v804 : Ref sig .tc := ⟨.hbm, 891, rfl⟩
abbrev main_v805 : Ref sig .tc := ⟨.hbm, 892, rfl⟩
abbrev main_v806 : Ref sig .tc := ⟨.hbm, 893, rfl⟩
abbrev main_v807 : Ref sig .tc := ⟨.hbm, 894, rfl⟩
abbrev main_v808 : Ref sig .tc := ⟨.hbm, 895, rfl⟩
abbrev main_v809 : Ref sig .tc := ⟨.hbm, 896, rfl⟩
abbrev main_v810 : Ref sig .tc := ⟨.hbm, 897, rfl⟩
abbrev main_cst_73 : Ref sig .tc := ⟨.hbm, 898, rfl⟩
abbrev main_v811 : Ref sig .tc := ⟨.hbm, 899, rfl⟩
abbrev main_v812 : Ref sig .tc := ⟨.hbm, 900, rfl⟩
abbrev main_cst_74 : Ref sig .tc := ⟨.hbm, 901, rfl⟩
abbrev main_v813 : Ref sig .tc := ⟨.hbm, 902, rfl⟩
abbrev main_v814 : Ref sig .tc := ⟨.hbm, 903, rfl⟩
abbrev main_v815 : Ref sig .tc := ⟨.hbm, 904, rfl⟩
abbrev main_v816 : Ref sig .tc := ⟨.hbm, 905, rfl⟩
abbrev main_v817 : Ref sig .tc := ⟨.hbm, 906, rfl⟩
abbrev main_v818 : Ref sig .tc := ⟨.hbm, 907, rfl⟩
abbrev main_v819 : Ref sig .tc := ⟨.hbm, 908, rfl⟩
abbrev main_v820 : Ref sig .tc := ⟨.hbm, 909, rfl⟩
abbrev main_v821 : Ref sig .tc := ⟨.hbm, 910, rfl⟩
abbrev main_v822 : Ref sig .tc := ⟨.hbm, 911, rfl⟩
abbrev main_v823 : Ref sig .tc := ⟨.hbm, 912, rfl⟩
abbrev main_v824 : Ref sig .tc := ⟨.hbm, 913, rfl⟩
abbrev main_v825 : Ref sig .tc := ⟨.hbm, 914, rfl⟩
abbrev main_v826 : Ref sig .tc := ⟨.hbm, 915, rfl⟩
abbrev main_cst_75 : Ref sig .tc := ⟨.hbm, 916, rfl⟩
abbrev main_v827 : Ref sig .tc := ⟨.hbm, 917, rfl⟩
abbrev main_v828 : Ref sig .tc := ⟨.hbm, 918, rfl⟩
abbrev main_v829 : Ref sig .tc := ⟨.hbm, 919, rfl⟩
abbrev main_v830 : Ref sig .tc := ⟨.hbm, 920, rfl⟩
abbrev main_v831 : Ref sig .tc := ⟨.hbm, 921, rfl⟩
abbrev main_cst_76 : Ref sig .tc := ⟨.hbm, 922, rfl⟩
abbrev main_v832 : Ref sig .tc := ⟨.hbm, 923, rfl⟩
abbrev main_v833 : Ref sig .tc := ⟨.hbm, 924, rfl⟩
abbrev main_v834 : Ref sig .tc := ⟨.hbm, 925, rfl⟩
abbrev main_v835 : Ref sig .tc := ⟨.hbm, 926, rfl⟩
abbrev main_v836 : Ref sig .tc := ⟨.hbm, 927, rfl⟩
abbrev main_v837 : Ref sig .tc := ⟨.hbm, 928, rfl⟩
abbrev main_v838 : Ref sig .tc := ⟨.hbm, 929, rfl⟩
abbrev main_v839 : Ref sig .tc := ⟨.hbm, 930, rfl⟩
abbrev main_v840 : Ref sig .tc := ⟨.hbm, 931, rfl⟩
abbrev main_v841 : Ref sig .tc := ⟨.hbm, 932, rfl⟩
abbrev main_v842 : Ref sig .tc := ⟨.hbm, 933, rfl⟩
abbrev main_v843 : Ref sig .tc := ⟨.hbm, 934, rfl⟩
abbrev main_v844 : Ref sig .tc := ⟨.hbm, 935, rfl⟩
abbrev main_v845 : Ref sig .tc := ⟨.hbm, 936, rfl⟩
abbrev main_v846 : Ref sig .tc := ⟨.hbm, 937, rfl⟩
abbrev main_v847 : Ref sig .tc := ⟨.hbm, 938, rfl⟩
abbrev main_v848 : Ref sig .tc := ⟨.hbm, 939, rfl⟩
abbrev main_v849 : Ref sig .tc := ⟨.hbm, 940, rfl⟩
abbrev main_v850 : Ref sig .tc := ⟨.hbm, 941, rfl⟩
abbrev main_cst_77 : Ref sig .tc := ⟨.hbm, 942, rfl⟩
abbrev main_v851 : Ref sig .tc := ⟨.hbm, 943, rfl⟩
abbrev main_v852 : Ref sig .tc := ⟨.hbm, 944, rfl⟩
abbrev main_v853 : Ref sig .tc := ⟨.hbm, 945, rfl⟩
abbrev main_v854 : Ref sig .tc := ⟨.hbm, 946, rfl⟩
abbrev main_v855 : Ref sig .tc := ⟨.hbm, 947, rfl⟩
abbrev main_v856 : Ref sig .tc := ⟨.hbm, 948, rfl⟩
abbrev main_v857 : Ref sig .tc := ⟨.hbm, 949, rfl⟩
abbrev main_v858 : Ref sig .tc := ⟨.hbm, 950, rfl⟩
abbrev main_v859 : Ref sig .tc := ⟨.hbm, 951, rfl⟩
abbrev main_v860 : Ref sig .tc := ⟨.hbm, 952, rfl⟩
abbrev main_v861 : Ref sig .tc := ⟨.hbm, 953, rfl⟩
abbrev main_v862 : Ref sig .tc := ⟨.hbm, 954, rfl⟩
abbrev main_v863 : Ref sig .tc := ⟨.hbm, 955, rfl⟩
abbrev main_v864 : Ref sig .tc := ⟨.hbm, 956, rfl⟩
abbrev main_v865 : Ref sig .tc := ⟨.hbm, 957, rfl⟩
abbrev main_v866 : Ref sig .tc := ⟨.hbm, 958, rfl⟩
abbrev main_v867 : Ref sig .tc := ⟨.hbm, 959, rfl⟩
abbrev main_cst_78 : Ref sig .tc := ⟨.hbm, 960, rfl⟩
abbrev main_v868 : Ref sig .tc := ⟨.hbm, 961, rfl⟩
abbrev main_v869 : Ref sig .tc := ⟨.hbm, 962, rfl⟩
abbrev main_v870 : Ref sig .tc := ⟨.hbm, 963, rfl⟩
abbrev main_v871 : Ref sig .tc := ⟨.hbm, 964, rfl⟩
abbrev main_v872 : Ref sig .tc := ⟨.hbm, 965, rfl⟩
abbrev main_cst_79 : Ref sig .tc := ⟨.hbm, 966, rfl⟩
abbrev main_v873 : Ref sig .tc := ⟨.hbm, 967, rfl⟩
abbrev main_v874 : Ref sig .tc := ⟨.hbm, 968, rfl⟩
abbrev main_v875 : Ref sig .tc := ⟨.hbm, 969, rfl⟩
abbrev main_v876 : Ref sig .tc := ⟨.hbm, 970, rfl⟩
abbrev main_v877 : Ref sig .tc := ⟨.hbm, 971, rfl⟩
abbrev main_v878 : Ref sig .tc := ⟨.hbm, 972, rfl⟩
abbrev main_v879 : Ref sig .tc := ⟨.hbm, 973, rfl⟩
abbrev main_v880 : Ref sig .tc := ⟨.hbm, 974, rfl⟩
abbrev main_v881 : Ref sig .tc := ⟨.hbm, 975, rfl⟩
abbrev main_v882 : Ref sig .tc := ⟨.hbm, 976, rfl⟩
abbrev main_v883 : Ref sig .tc := ⟨.hbm, 977, rfl⟩
abbrev main_v884 : Ref sig .tc := ⟨.hbm, 978, rfl⟩
abbrev main_v885 : Ref sig .tc := ⟨.hbm, 979, rfl⟩
abbrev main_v886 : Ref sig .tc := ⟨.hbm, 980, rfl⟩
abbrev main_v887 : Ref sig .tc := ⟨.hbm, 981, rfl⟩
abbrev main_v888 : Ref sig .tc := ⟨.hbm, 982, rfl⟩
abbrev main_v889 : Ref sig .tc := ⟨.hbm, 983, rfl⟩
abbrev main_v890 : Ref sig .tc := ⟨.hbm, 984, rfl⟩
abbrev main_v891 : Ref sig .tc := ⟨.hbm, 985, rfl⟩
abbrev main_cst_80 : Ref sig .tc := ⟨.hbm, 986, rfl⟩
abbrev main_v892 : Ref sig .tc := ⟨.hbm, 987, rfl⟩
abbrev main_v893 : Ref sig .tc := ⟨.hbm, 988, rfl⟩
abbrev main_cst_81 : Ref sig .tc := ⟨.hbm, 989, rfl⟩
abbrev main_v894 : Ref sig .tc := ⟨.hbm, 990, rfl⟩
abbrev main_v895 : Ref sig .tc := ⟨.hbm, 991, rfl⟩
abbrev main_v896 : Ref sig .tc := ⟨.hbm, 992, rfl⟩
abbrev main_v897 : Ref sig .tc := ⟨.hbm, 993, rfl⟩
abbrev main_v898 : Ref sig .tc := ⟨.hbm, 994, rfl⟩
abbrev main_v899 : Ref sig .tc := ⟨.hbm, 995, rfl⟩
abbrev main_v900 : Ref sig .tc := ⟨.hbm, 996, rfl⟩
abbrev main_v901 : Ref sig .tc := ⟨.hbm, 997, rfl⟩
abbrev main_v902 : Ref sig .tc := ⟨.hbm, 998, rfl⟩
abbrev main_v903 : Ref sig .tc := ⟨.hbm, 999, rfl⟩
abbrev main_v904 : Ref sig .tc := ⟨.hbm, 1000, rfl⟩
abbrev main_v905 : Ref sig .tc := ⟨.hbm, 1001, rfl⟩
abbrev main_v906 : Ref sig .tc := ⟨.hbm, 1002, rfl⟩
abbrev main_v907 : Ref sig .tc := ⟨.hbm, 1003, rfl⟩
abbrev main_cst_82 : Ref sig .tc := ⟨.hbm, 1004, rfl⟩
abbrev main_v908 : Ref sig .tc := ⟨.hbm, 1005, rfl⟩
abbrev main_v909 : Ref sig .tc := ⟨.hbm, 1006, rfl⟩
abbrev main_v910 : Ref sig .tc := ⟨.hbm, 1007, rfl⟩
abbrev main_v911 : Ref sig .tc := ⟨.hbm, 1008, rfl⟩
abbrev main_v912 : Ref sig .tc := ⟨.hbm, 1009, rfl⟩
abbrev main_cst_83 : Ref sig .tc := ⟨.hbm, 1010, rfl⟩
abbrev main_v913 : Ref sig .tc := ⟨.hbm, 1011, rfl⟩
abbrev main_v914 : Ref sig .tc := ⟨.hbm, 1012, rfl⟩
abbrev main_v915 : Ref sig .tc := ⟨.hbm, 1013, rfl⟩
abbrev main_v916 : Ref sig .tc := ⟨.hbm, 1014, rfl⟩
abbrev main_v917 : Ref sig .tc := ⟨.hbm, 1015, rfl⟩
abbrev main_v918 : Ref sig .tc := ⟨.hbm, 1016, rfl⟩
abbrev main_v919 : Ref sig .tc := ⟨.hbm, 1017, rfl⟩
abbrev main_v920 : Ref sig .tc := ⟨.hbm, 1018, rfl⟩
abbrev main_v921 : Ref sig .tc := ⟨.hbm, 1019, rfl⟩
abbrev main_v922 : Ref sig .tc := ⟨.hbm, 1020, rfl⟩
abbrev main_v923 : Ref sig .tc := ⟨.hbm, 1021, rfl⟩
abbrev main_v924 : Ref sig .tc := ⟨.hbm, 1022, rfl⟩
abbrev main_v925 : Ref sig .tc := ⟨.hbm, 1023, rfl⟩
abbrev main_v926 : Ref sig .tc := ⟨.hbm, 1024, rfl⟩
abbrev main_v927 : Ref sig .tc := ⟨.hbm, 1025, rfl⟩
abbrev main_v928 : Ref sig .tc := ⟨.hbm, 1026, rfl⟩
abbrev main_v929 : Ref sig .tc := ⟨.hbm, 1027, rfl⟩
abbrev main_v930 : Ref sig .tc := ⟨.hbm, 1028, rfl⟩
abbrev main_v931 : Ref sig .tc := ⟨.hbm, 1029, rfl⟩
abbrev main_cst_84 : Ref sig .tc := ⟨.hbm, 1030, rfl⟩
abbrev main_v932 : Ref sig .tc := ⟨.hbm, 1031, rfl⟩
abbrev main_v933 : Ref sig .tc := ⟨.hbm, 1032, rfl⟩
abbrev main_v934 : Ref sig .tc := ⟨.hbm, 1033, rfl⟩
abbrev main_v935 : Ref sig .tc := ⟨.hbm, 1034, rfl⟩
abbrev main_v936 : Ref sig .tc := ⟨.hbm, 1035, rfl⟩
abbrev main_v937 : Ref sig .tc := ⟨.hbm, 1036, rfl⟩
abbrev main_v938 : Ref sig .tc := ⟨.hbm, 1037, rfl⟩
abbrev main_v939 : Ref sig .tc := ⟨.hbm, 1038, rfl⟩
abbrev main_v940 : Ref sig .tc := ⟨.hbm, 1039, rfl⟩
abbrev main_v941 : Ref sig .tc := ⟨.hbm, 1040, rfl⟩
abbrev main_v942 : Ref sig .tc := ⟨.hbm, 1041, rfl⟩
abbrev main_v943 : Ref sig .tc := ⟨.hbm, 1042, rfl⟩
abbrev main_v944 : Ref sig .tc := ⟨.hbm, 1043, rfl⟩
abbrev main_v945 : Ref sig .tc := ⟨.hbm, 1044, rfl⟩
abbrev main_v946 : Ref sig .tc := ⟨.hbm, 1045, rfl⟩
abbrev main_v947 : Ref sig .tc := ⟨.hbm, 1046, rfl⟩
abbrev main_v948 : Ref sig .tc := ⟨.hbm, 1047, rfl⟩
abbrev main_cst_85 : Ref sig .tc := ⟨.hbm, 1048, rfl⟩
abbrev main_v949 : Ref sig .tc := ⟨.hbm, 1049, rfl⟩
abbrev main_v950 : Ref sig .tc := ⟨.hbm, 1050, rfl⟩
abbrev main_v951 : Ref sig .tc := ⟨.hbm, 1051, rfl⟩
abbrev main_v952 : Ref sig .tc := ⟨.hbm, 1052, rfl⟩
abbrev main_v953 : Ref sig .tc := ⟨.hbm, 1053, rfl⟩
abbrev main_cst_86 : Ref sig .tc := ⟨.hbm, 1054, rfl⟩
abbrev main_v954 : Ref sig .tc := ⟨.hbm, 1055, rfl⟩
abbrev main_v955 : Ref sig .tc := ⟨.hbm, 1056, rfl⟩
abbrev main_v956 : Ref sig .tc := ⟨.hbm, 1057, rfl⟩
abbrev main_v957 : Ref sig .tc := ⟨.hbm, 1058, rfl⟩
abbrev main_v958 : Ref sig .tc := ⟨.hbm, 1059, rfl⟩
abbrev main_v959 : Ref sig .tc := ⟨.hbm, 1060, rfl⟩
abbrev main_v960 : Ref sig .tc := ⟨.hbm, 1061, rfl⟩
abbrev main_v961 : Ref sig .tc := ⟨.hbm, 1062, rfl⟩
abbrev main_v962 : Ref sig .tc := ⟨.hbm, 1063, rfl⟩
abbrev main_v963 : Ref sig .tc := ⟨.hbm, 1064, rfl⟩
abbrev main_v964 : Ref sig .tc := ⟨.hbm, 1065, rfl⟩
abbrev main_v965 : Ref sig .tc := ⟨.hbm, 1066, rfl⟩
abbrev main_v966 : Ref sig .tc := ⟨.hbm, 1067, rfl⟩
abbrev main_v967 : Ref sig .tc := ⟨.hbm, 1068, rfl⟩
abbrev main_v968 : Ref sig .tc := ⟨.hbm, 1069, rfl⟩
abbrev main_v969 : Ref sig .tc := ⟨.hbm, 1070, rfl⟩
abbrev main_v970 : Ref sig .tc := ⟨.hbm, 1071, rfl⟩
abbrev main_v971 : Ref sig .tc := ⟨.hbm, 1072, rfl⟩
abbrev main_v972 : Ref sig .tc := ⟨.hbm, 1073, rfl⟩
abbrev main_cst_87 : Ref sig .tc := ⟨.hbm, 1074, rfl⟩
abbrev main_v973 : Ref sig .tc := ⟨.hbm, 1075, rfl⟩
abbrev main_v974 : Ref sig .tc := ⟨.hbm, 1076, rfl⟩
abbrev main_cst_88 : Ref sig .tc := ⟨.hbm, 1077, rfl⟩
abbrev main_v975 : Ref sig .tc := ⟨.hbm, 1078, rfl⟩
abbrev main_v976 : Ref sig .tc := ⟨.hbm, 1079, rfl⟩
abbrev main_v977 : Ref sig .tc := ⟨.hbm, 1080, rfl⟩
abbrev main_v978 : Ref sig .tc := ⟨.hbm, 1081, rfl⟩
abbrev main_v979 : Ref sig .tc := ⟨.hbm, 1082, rfl⟩
abbrev main_v980 : Ref sig .tc := ⟨.hbm, 1083, rfl⟩
abbrev main_v981 : Ref sig .tc := ⟨.hbm, 1084, rfl⟩
abbrev main_v982 : Ref sig .tc := ⟨.hbm, 1085, rfl⟩
abbrev main_v983 : Ref sig .tc := ⟨.hbm, 1086, rfl⟩
abbrev main_v984 : Ref sig .tc := ⟨.hbm, 1087, rfl⟩
abbrev main_v985 : Ref sig .tc := ⟨.hbm, 1088, rfl⟩
abbrev main_v986 : Ref sig .tc := ⟨.hbm, 1089, rfl⟩
abbrev main_v987 : Ref sig .tc := ⟨.hbm, 1090, rfl⟩
abbrev main_v988 : Ref sig .tc := ⟨.hbm, 1091, rfl⟩
abbrev main_cst_89 : Ref sig .tc := ⟨.hbm, 1092, rfl⟩
abbrev main_v989 : Ref sig .tc := ⟨.hbm, 1093, rfl⟩
abbrev main_v990 : Ref sig .tc := ⟨.hbm, 1094, rfl⟩
abbrev main_v991 : Ref sig .tc := ⟨.hbm, 1095, rfl⟩
abbrev main_v992 : Ref sig .tc := ⟨.hbm, 1096, rfl⟩
abbrev main_v993 : Ref sig .tc := ⟨.hbm, 1097, rfl⟩
abbrev main_cst_90 : Ref sig .tc := ⟨.hbm, 1098, rfl⟩
abbrev main_v994 : Ref sig .tc := ⟨.hbm, 1099, rfl⟩
abbrev main_v995 : Ref sig .tc := ⟨.hbm, 1100, rfl⟩
abbrev main_v996 : Ref sig .tc := ⟨.hbm, 1101, rfl⟩
abbrev main_v997 : Ref sig .tc := ⟨.hbm, 1102, rfl⟩
abbrev main_v998 : Ref sig .tc := ⟨.hbm, 1103, rfl⟩
abbrev main_v999 : Ref sig .tc := ⟨.hbm, 1104, rfl⟩
abbrev main_v1000 : Ref sig .tc := ⟨.hbm, 1105, rfl⟩
abbrev main_v1001 : Ref sig .tc := ⟨.hbm, 1106, rfl⟩
abbrev main_v1002 : Ref sig .tc := ⟨.hbm, 1107, rfl⟩
abbrev main_v1003 : Ref sig .tc := ⟨.hbm, 1108, rfl⟩
abbrev main_v1004 : Ref sig .tc := ⟨.hbm, 1109, rfl⟩
abbrev main_v1005 : Ref sig .tc := ⟨.hbm, 1110, rfl⟩
abbrev main_v1006 : Ref sig .tc := ⟨.hbm, 1111, rfl⟩
abbrev main_v1007 : Ref sig .tc := ⟨.hbm, 1112, rfl⟩
abbrev main_v1008 : Ref sig .tc := ⟨.hbm, 1113, rfl⟩
abbrev main_v1009 : Ref sig .tc := ⟨.hbm, 1114, rfl⟩
abbrev main_v1010 : Ref sig .tc := ⟨.hbm, 1115, rfl⟩
abbrev main_v1011 : Ref sig .tc := ⟨.hbm, 1116, rfl⟩
abbrev main_v1012 : Ref sig .tc := ⟨.hbm, 1117, rfl⟩
abbrev main_cst_91 : Ref sig .tc := ⟨.hbm, 1118, rfl⟩
abbrev main_v1013 : Ref sig .tc := ⟨.hbm, 1119, rfl⟩
abbrev main_v1014 : Ref sig .tc := ⟨.hbm, 1120, rfl⟩
abbrev main_v1015 : Ref sig .tc := ⟨.hbm, 1121, rfl⟩
abbrev main_v1016 : Ref sig .tc := ⟨.hbm, 1122, rfl⟩
abbrev main_v1017 : Ref sig .tc := ⟨.hbm, 1123, rfl⟩
abbrev main_v1018 : Ref sig .tc := ⟨.hbm, 1124, rfl⟩
abbrev main_v1019 : Ref sig .tc := ⟨.hbm, 1125, rfl⟩
abbrev main_v1020 : Ref sig .tc := ⟨.hbm, 1126, rfl⟩
abbrev main_v1021 : Ref sig .tc := ⟨.hbm, 1127, rfl⟩
abbrev main_v1022 : Ref sig .tc := ⟨.hbm, 1128, rfl⟩
abbrev main_v1023 : Ref sig .tc := ⟨.hbm, 1129, rfl⟩
abbrev main_v1024 : Ref sig .tc := ⟨.hbm, 1130, rfl⟩
abbrev main_v1025 : Ref sig .tc := ⟨.hbm, 1131, rfl⟩
abbrev main_v1026 : Ref sig .tc := ⟨.hbm, 1132, rfl⟩
abbrev main_v1027 : Ref sig .tc := ⟨.hbm, 1133, rfl⟩
abbrev main_v1028 : Ref sig .tc := ⟨.hbm, 1134, rfl⟩
abbrev main_v1029 : Ref sig .tc := ⟨.hbm, 1135, rfl⟩
abbrev main_cst_92 : Ref sig .tc := ⟨.hbm, 1136, rfl⟩
abbrev main_v1030 : Ref sig .tc := ⟨.hbm, 1137, rfl⟩
abbrev main_v1031 : Ref sig .tc := ⟨.hbm, 1138, rfl⟩
abbrev main_v1032 : Ref sig .tc := ⟨.hbm, 1139, rfl⟩
abbrev main_v1033 : Ref sig .tc := ⟨.hbm, 1140, rfl⟩
abbrev main_v1034 : Ref sig .tc := ⟨.hbm, 1141, rfl⟩
abbrev main_cst_93 : Ref sig .tc := ⟨.hbm, 1142, rfl⟩
abbrev main_v1035 : Ref sig .tc := ⟨.hbm, 1143, rfl⟩
abbrev main_v1036 : Ref sig .tc := ⟨.hbm, 1144, rfl⟩
abbrev main_v1037 : Ref sig .tc := ⟨.hbm, 1145, rfl⟩
abbrev main_v1038 : Ref sig .tc := ⟨.hbm, 1146, rfl⟩
abbrev main_v1039 : Ref sig .tc := ⟨.hbm, 1147, rfl⟩
abbrev main_v1040 : Ref sig .tc := ⟨.hbm, 1148, rfl⟩
abbrev main_v1041 : Ref sig .tc := ⟨.hbm, 1149, rfl⟩
abbrev main_v1042 : Ref sig .tc := ⟨.hbm, 1150, rfl⟩
abbrev main_v1043 : Ref sig .tc := ⟨.hbm, 1151, rfl⟩
abbrev main_v1044 : Ref sig .tc := ⟨.hbm, 1152, rfl⟩
abbrev main_v1045 : Ref sig .tc := ⟨.hbm, 1153, rfl⟩
abbrev main_v1046 : Ref sig .tc := ⟨.hbm, 1154, rfl⟩
abbrev main_v1047 : Ref sig .tc := ⟨.hbm, 1155, rfl⟩
abbrev main_v1048 : Ref sig .tc := ⟨.hbm, 1156, rfl⟩
abbrev main_v1049 : Ref sig .tc := ⟨.hbm, 1157, rfl⟩
abbrev main_v1050 : Ref sig .tc := ⟨.hbm, 1158, rfl⟩
abbrev main_v1051 : Ref sig .tc := ⟨.hbm, 1159, rfl⟩
abbrev main_v1052 : Ref sig .tc := ⟨.hbm, 1160, rfl⟩
abbrev main_v1053 : Ref sig .tc := ⟨.hbm, 1161, rfl⟩
abbrev main_cst_94 : Ref sig .tc := ⟨.hbm, 1162, rfl⟩
abbrev main_v1054 : Ref sig .tc := ⟨.hbm, 1163, rfl⟩
abbrev main_v1055 : Ref sig .tc := ⟨.hbm, 1164, rfl⟩
abbrev main_cst_95 : Ref sig .tc := ⟨.hbm, 1165, rfl⟩
abbrev main_v1056 : Ref sig .tc := ⟨.hbm, 1166, rfl⟩
abbrev main_v1057 : Ref sig .tc := ⟨.hbm, 1167, rfl⟩
abbrev main_v1058 : Ref sig .tc := ⟨.hbm, 1168, rfl⟩
abbrev main_v1059 : Ref sig .tc := ⟨.hbm, 1169, rfl⟩
abbrev main_v1060 : Ref sig .tc := ⟨.hbm, 1170, rfl⟩
abbrev main_v1061 : Ref sig .tc := ⟨.hbm, 1171, rfl⟩
abbrev main_v1062 : Ref sig .tc := ⟨.hbm, 1172, rfl⟩
abbrev main_v1063 : Ref sig .tc := ⟨.hbm, 1173, rfl⟩
abbrev main_v1064 : Ref sig .tc := ⟨.hbm, 1174, rfl⟩
abbrev main_v1065 : Ref sig .tc := ⟨.hbm, 1175, rfl⟩
abbrev main_v1066 : Ref sig .tc := ⟨.hbm, 1176, rfl⟩
abbrev main_v1067 : Ref sig .tc := ⟨.hbm, 1177, rfl⟩
abbrev main_v1068 : Ref sig .tc := ⟨.hbm, 1178, rfl⟩
abbrev main_v1069 : Ref sig .tc := ⟨.hbm, 1179, rfl⟩
abbrev main_cst_96 : Ref sig .tc := ⟨.hbm, 1180, rfl⟩
abbrev main_v1070 : Ref sig .tc := ⟨.hbm, 1181, rfl⟩
abbrev main_v1071 : Ref sig .tc := ⟨.hbm, 1182, rfl⟩
abbrev main_v1072 : Ref sig .tc := ⟨.hbm, 1183, rfl⟩
abbrev main_v1073 : Ref sig .tc := ⟨.hbm, 1184, rfl⟩
abbrev main_v1074 : Ref sig .tc := ⟨.hbm, 1185, rfl⟩
abbrev main_cst_97 : Ref sig .tc := ⟨.hbm, 1186, rfl⟩
abbrev main_v1075 : Ref sig .tc := ⟨.hbm, 1187, rfl⟩
abbrev main_v1076 : Ref sig .tc := ⟨.hbm, 1188, rfl⟩
abbrev main_v1077 : Ref sig .tc := ⟨.hbm, 1189, rfl⟩
abbrev main_v1078 : Ref sig .tc := ⟨.hbm, 1190, rfl⟩
abbrev main_v1079 : Ref sig .tc := ⟨.hbm, 1191, rfl⟩
abbrev main_v1080 : Ref sig .tc := ⟨.hbm, 1192, rfl⟩
abbrev main_v1081 : Ref sig .tc := ⟨.hbm, 1193, rfl⟩
abbrev main_v1082 : Ref sig .tc := ⟨.hbm, 1194, rfl⟩
abbrev main_v1083 : Ref sig .tc := ⟨.hbm, 1195, rfl⟩
abbrev main_v1084 : Ref sig .tc := ⟨.hbm, 1196, rfl⟩
abbrev main_v1085 : Ref sig .tc := ⟨.hbm, 1197, rfl⟩
abbrev main_v1086 : Ref sig .tc := ⟨.hbm, 1198, rfl⟩
abbrev main_v1087 : Ref sig .tc := ⟨.hbm, 1199, rfl⟩
abbrev main_v1088 : Ref sig .tc := ⟨.hbm, 1200, rfl⟩
abbrev main_v1089 : Ref sig .tc := ⟨.hbm, 1201, rfl⟩
abbrev main_v1090 : Ref sig .tc := ⟨.hbm, 1202, rfl⟩
abbrev main_v1091 : Ref sig .tc := ⟨.hbm, 1203, rfl⟩
abbrev main_v1092 : Ref sig .tc := ⟨.hbm, 1204, rfl⟩
abbrev main_v1093 : Ref sig .tc := ⟨.hbm, 1205, rfl⟩
abbrev main_cst_98 : Ref sig .tc := ⟨.hbm, 1206, rfl⟩
abbrev main_v1094 : Ref sig .tc := ⟨.hbm, 1207, rfl⟩
abbrev main_v1095 : Ref sig .tc := ⟨.hbm, 1208, rfl⟩
abbrev main_v1096 : Ref sig .tc := ⟨.hbm, 1209, rfl⟩
abbrev main_v1097 : Ref sig .tc := ⟨.hbm, 1210, rfl⟩
abbrev main_v1098 : Ref sig .tc := ⟨.hbm, 1211, rfl⟩
abbrev main_v1099 : Ref sig .tc := ⟨.hbm, 1212, rfl⟩
abbrev main_v1100 : Ref sig .tc := ⟨.hbm, 1213, rfl⟩
abbrev main_v1101 : Ref sig .tc := ⟨.hbm, 1214, rfl⟩
abbrev main_v1102 : Ref sig .tc := ⟨.hbm, 1215, rfl⟩
abbrev main_v1103 : Ref sig .tc := ⟨.hbm, 1216, rfl⟩
abbrev main_v1104 : Ref sig .tc := ⟨.hbm, 1217, rfl⟩
abbrev main_v1105 : Ref sig .tc := ⟨.hbm, 1218, rfl⟩
abbrev main_v1106 : Ref sig .tc := ⟨.hbm, 1219, rfl⟩
abbrev main_v1107 : Ref sig .tc := ⟨.hbm, 1220, rfl⟩
abbrev main_v1108 : Ref sig .tc := ⟨.hbm, 1221, rfl⟩
abbrev main_v1109 : Ref sig .tc := ⟨.hbm, 1222, rfl⟩
abbrev main_v1110 : Ref sig .tc := ⟨.hbm, 1223, rfl⟩
abbrev main_cst_99 : Ref sig .tc := ⟨.hbm, 1224, rfl⟩
abbrev main_v1111 : Ref sig .tc := ⟨.hbm, 1225, rfl⟩
abbrev main_v1112 : Ref sig .tc := ⟨.hbm, 1226, rfl⟩
abbrev main_v1113 : Ref sig .tc := ⟨.hbm, 1227, rfl⟩
abbrev main_v1114 : Ref sig .tc := ⟨.hbm, 1228, rfl⟩
abbrev main_v1115 : Ref sig .tc := ⟨.hbm, 1229, rfl⟩
abbrev main_cst_100 : Ref sig .tc := ⟨.hbm, 1230, rfl⟩
abbrev main_v1116 : Ref sig .tc := ⟨.hbm, 1231, rfl⟩
abbrev main_v1117 : Ref sig .tc := ⟨.hbm, 1232, rfl⟩
abbrev main_v1118 : Ref sig .tc := ⟨.hbm, 1233, rfl⟩
abbrev main_v1119 : Ref sig .tc := ⟨.hbm, 1234, rfl⟩
abbrev main_v1120 : Ref sig .tc := ⟨.hbm, 1235, rfl⟩
abbrev main_v1121 : Ref sig .tc := ⟨.hbm, 1236, rfl⟩
abbrev main_v1122 : Ref sig .tc := ⟨.hbm, 1237, rfl⟩
abbrev main_v1123 : Ref sig .tc := ⟨.hbm, 1238, rfl⟩
abbrev main_v1124 : Ref sig .tc := ⟨.hbm, 1239, rfl⟩
abbrev main_v1125 : Ref sig .tc := ⟨.hbm, 1240, rfl⟩
abbrev main_v1126 : Ref sig .tc := ⟨.hbm, 1241, rfl⟩
abbrev main_v1127 : Ref sig .tc := ⟨.hbm, 1242, rfl⟩
abbrev main_v1128 : Ref sig .tc := ⟨.hbm, 1243, rfl⟩
abbrev main_v1129 : Ref sig .tc := ⟨.hbm, 1244, rfl⟩
abbrev main_v1130 : Ref sig .tc := ⟨.hbm, 1245, rfl⟩
abbrev main_v1131 : Ref sig .tc := ⟨.hbm, 1246, rfl⟩
abbrev main_v1132 : Ref sig .tc := ⟨.hbm, 1247, rfl⟩
abbrev main_v1133 : Ref sig .tc := ⟨.hbm, 1248, rfl⟩
abbrev main_v1134 : Ref sig .tc := ⟨.hbm, 1249, rfl⟩
abbrev main_cst_101 : Ref sig .tc := ⟨.hbm, 1250, rfl⟩
abbrev main_v1135 : Ref sig .tc := ⟨.hbm, 1251, rfl⟩
abbrev main_v1136 : Ref sig .tc := ⟨.hbm, 1252, rfl⟩
abbrev main_cst_102 : Ref sig .tc := ⟨.hbm, 1253, rfl⟩
abbrev main_v1137 : Ref sig .tc := ⟨.hbm, 1254, rfl⟩
abbrev main_v1138 : Ref sig .tc := ⟨.hbm, 1255, rfl⟩
abbrev main_v1139 : Ref sig .tc := ⟨.hbm, 1256, rfl⟩
abbrev main_v1140 : Ref sig .tc := ⟨.hbm, 1257, rfl⟩
abbrev main_v1141 : Ref sig .tc := ⟨.hbm, 1258, rfl⟩
abbrev main_v1142 : Ref sig .tc := ⟨.hbm, 1259, rfl⟩
abbrev main_v1143 : Ref sig .tc := ⟨.hbm, 1260, rfl⟩
abbrev main_v1144 : Ref sig .tc := ⟨.hbm, 1261, rfl⟩
abbrev main_v1145 : Ref sig .tc := ⟨.hbm, 1262, rfl⟩
abbrev main_v1146 : Ref sig .tc := ⟨.hbm, 1263, rfl⟩
abbrev main_v1147 : Ref sig .tc := ⟨.hbm, 1264, rfl⟩
abbrev main_v1148 : Ref sig .tc := ⟨.hbm, 1265, rfl⟩
abbrev main_v1149 : Ref sig .tc := ⟨.hbm, 1266, rfl⟩
abbrev main_v1150 : Ref sig .tc := ⟨.hbm, 1267, rfl⟩
abbrev main_cst_103 : Ref sig .tc := ⟨.hbm, 1268, rfl⟩
abbrev main_v1151 : Ref sig .tc := ⟨.hbm, 1269, rfl⟩
abbrev main_v1152 : Ref sig .tc := ⟨.hbm, 1270, rfl⟩
abbrev main_v1153 : Ref sig .tc := ⟨.hbm, 1271, rfl⟩
abbrev main_v1154 : Ref sig .tc := ⟨.hbm, 1272, rfl⟩
abbrev main_v1155 : Ref sig .tc := ⟨.hbm, 1273, rfl⟩
abbrev main_cst_104 : Ref sig .tc := ⟨.hbm, 1274, rfl⟩
abbrev main_v1156 : Ref sig .tc := ⟨.hbm, 1275, rfl⟩
abbrev main_v1157 : Ref sig .tc := ⟨.hbm, 1276, rfl⟩
abbrev main_v1158 : Ref sig .tc := ⟨.hbm, 1277, rfl⟩
abbrev main_v1159 : Ref sig .tc := ⟨.hbm, 1278, rfl⟩
abbrev main_v1160 : Ref sig .tc := ⟨.hbm, 1279, rfl⟩
abbrev main_v1161 : Ref sig .tc := ⟨.hbm, 1280, rfl⟩
abbrev main_v1162 : Ref sig .tc := ⟨.hbm, 1281, rfl⟩
abbrev main_v1163 : Ref sig .tc := ⟨.hbm, 1282, rfl⟩
abbrev main_v1164 : Ref sig .tc := ⟨.hbm, 1283, rfl⟩
abbrev main_v1165 : Ref sig .tc := ⟨.hbm, 1284, rfl⟩
abbrev main_v1166 : Ref sig .tc := ⟨.hbm, 1285, rfl⟩
abbrev main_v1167 : Ref sig .tc := ⟨.hbm, 1286, rfl⟩
abbrev main_v1168 : Ref sig .tc := ⟨.hbm, 1287, rfl⟩
abbrev main_v1169 : Ref sig .tc := ⟨.hbm, 1288, rfl⟩
abbrev main_v1170 : Ref sig .tc := ⟨.hbm, 1289, rfl⟩
abbrev main_v1171 : Ref sig .tc := ⟨.hbm, 1290, rfl⟩
abbrev main_v1172 : Ref sig .tc := ⟨.hbm, 1291, rfl⟩
abbrev main_v1173 : Ref sig .tc := ⟨.hbm, 1292, rfl⟩
abbrev main_v1174 : Ref sig .tc := ⟨.hbm, 1293, rfl⟩
abbrev main_cst_105 : Ref sig .tc := ⟨.hbm, 1294, rfl⟩
abbrev main_v1175 : Ref sig .tc := ⟨.hbm, 1295, rfl⟩
abbrev main_v1176 : Ref sig .tc := ⟨.hbm, 1296, rfl⟩
abbrev main_v1177 : Ref sig .tc := ⟨.hbm, 1297, rfl⟩
abbrev main_v1178 : Ref sig .tc := ⟨.hbm, 1298, rfl⟩
abbrev main_v1179 : Ref sig .tc := ⟨.hbm, 1299, rfl⟩
abbrev main_v1180 : Ref sig .tc := ⟨.hbm, 1300, rfl⟩
abbrev main_v1181 : Ref sig .tc := ⟨.hbm, 1301, rfl⟩
abbrev main_v1182 : Ref sig .tc := ⟨.hbm, 1302, rfl⟩
abbrev main_v1183 : Ref sig .tc := ⟨.hbm, 1303, rfl⟩
abbrev main_v1184 : Ref sig .tc := ⟨.hbm, 1304, rfl⟩
abbrev main_v1185 : Ref sig .tc := ⟨.hbm, 1305, rfl⟩
abbrev main_v1186 : Ref sig .tc := ⟨.hbm, 1306, rfl⟩
abbrev main_v1187 : Ref sig .tc := ⟨.hbm, 1307, rfl⟩
abbrev main_v1188 : Ref sig .tc := ⟨.hbm, 1308, rfl⟩
abbrev main_v1189 : Ref sig .tc := ⟨.hbm, 1309, rfl⟩
abbrev main_v1190 : Ref sig .tc := ⟨.hbm, 1310, rfl⟩
abbrev main_v1191 : Ref sig .tc := ⟨.hbm, 1311, rfl⟩
abbrev main_cst_106 : Ref sig .tc := ⟨.hbm, 1312, rfl⟩
abbrev main_v1192 : Ref sig .tc := ⟨.hbm, 1313, rfl⟩
abbrev main_v1193 : Ref sig .tc := ⟨.hbm, 1314, rfl⟩
abbrev main_v1194 : Ref sig .tc := ⟨.hbm, 1315, rfl⟩
abbrev main_v1195 : Ref sig .tc := ⟨.hbm, 1316, rfl⟩
abbrev main_v1196 : Ref sig .tc := ⟨.hbm, 1317, rfl⟩
abbrev main_cst_107 : Ref sig .tc := ⟨.hbm, 1318, rfl⟩
abbrev main_v1197 : Ref sig .tc := ⟨.hbm, 1319, rfl⟩
abbrev main_v1198 : Ref sig .tc := ⟨.hbm, 1320, rfl⟩
abbrev main_v1199 : Ref sig .tc := ⟨.hbm, 1321, rfl⟩
abbrev main_v1200 : Ref sig .tc := ⟨.hbm, 1322, rfl⟩
abbrev main_v1201 : Ref sig .tc := ⟨.hbm, 1323, rfl⟩
abbrev main_v1202 : Ref sig .tc := ⟨.hbm, 1324, rfl⟩
abbrev main_v1203 : Ref sig .tc := ⟨.hbm, 1325, rfl⟩
abbrev main_v1204 : Ref sig .tc := ⟨.hbm, 1326, rfl⟩
abbrev main_v1205 : Ref sig .tc := ⟨.hbm, 1327, rfl⟩
abbrev main_v1206 : Ref sig .tc := ⟨.hbm, 1328, rfl⟩
abbrev main_v1207 : Ref sig .tc := ⟨.hbm, 1329, rfl⟩
abbrev main_v1208 : Ref sig .tc := ⟨.hbm, 1330, rfl⟩
abbrev main_v1209 : Ref sig .tc := ⟨.hbm, 1331, rfl⟩
abbrev main_v1210 : Ref sig .tc := ⟨.hbm, 1332, rfl⟩
abbrev main_v1211 : Ref sig .tc := ⟨.hbm, 1333, rfl⟩
abbrev main_v1212 : Ref sig .tc := ⟨.hbm, 1334, rfl⟩
abbrev main_v1213 : Ref sig .tc := ⟨.hbm, 1335, rfl⟩
abbrev main_v1214 : Ref sig .tc := ⟨.hbm, 1336, rfl⟩
abbrev main_v1215 : Ref sig .tc := ⟨.hbm, 1337, rfl⟩
abbrev main_cst_108 : Ref sig .tc := ⟨.hbm, 1338, rfl⟩
abbrev main_v1216 : Ref sig .tc := ⟨.hbm, 1339, rfl⟩
abbrev main_v1217 : Ref sig .tc := ⟨.hbm, 1340, rfl⟩
abbrev main_cst_109 : Ref sig .tc := ⟨.hbm, 1341, rfl⟩
abbrev main_v1218 : Ref sig .tc := ⟨.hbm, 1342, rfl⟩
abbrev main_v1219 : Ref sig .tc := ⟨.hbm, 1343, rfl⟩
abbrev main_v1220 : Ref sig .tc := ⟨.hbm, 1344, rfl⟩
abbrev main_v1221 : Ref sig .tc := ⟨.hbm, 1345, rfl⟩
abbrev main_v1222 : Ref sig .tc := ⟨.hbm, 1346, rfl⟩
abbrev main_v1223 : Ref sig .tc := ⟨.hbm, 1347, rfl⟩
abbrev main_v1224 : Ref sig .tc := ⟨.hbm, 1348, rfl⟩
abbrev main_v1225 : Ref sig .tc := ⟨.hbm, 1349, rfl⟩
abbrev main_v1226 : Ref sig .tc := ⟨.hbm, 1350, rfl⟩
abbrev main_v1227 : Ref sig .tc := ⟨.hbm, 1351, rfl⟩
abbrev main_v1228 : Ref sig .tc := ⟨.hbm, 1352, rfl⟩
abbrev main_v1229 : Ref sig .tc := ⟨.hbm, 1353, rfl⟩
abbrev main_v1230 : Ref sig .tc := ⟨.hbm, 1354, rfl⟩
abbrev main_v1231 : Ref sig .tc := ⟨.hbm, 1355, rfl⟩
abbrev main_cst_110 : Ref sig .tc := ⟨.hbm, 1356, rfl⟩
abbrev main_v1232 : Ref sig .tc := ⟨.hbm, 1357, rfl⟩
abbrev main_v1233 : Ref sig .tc := ⟨.hbm, 1358, rfl⟩
abbrev main_v1234 : Ref sig .tc := ⟨.hbm, 1359, rfl⟩
abbrev main_v1235 : Ref sig .tc := ⟨.hbm, 1360, rfl⟩
abbrev main_v1236 : Ref sig .tc := ⟨.hbm, 1361, rfl⟩
abbrev main_cst_111 : Ref sig .tc := ⟨.hbm, 1362, rfl⟩
abbrev main_v1237 : Ref sig .tc := ⟨.hbm, 1363, rfl⟩
abbrev main_v1238 : Ref sig .tc := ⟨.hbm, 1364, rfl⟩
abbrev main_v1239 : Ref sig .tc := ⟨.hbm, 1365, rfl⟩
abbrev main_v1240 : Ref sig .tc := ⟨.hbm, 1366, rfl⟩
abbrev main_v1241 : Ref sig .tc := ⟨.hbm, 1367, rfl⟩
abbrev main_v1242 : Ref sig .tc := ⟨.hbm, 1368, rfl⟩
abbrev main_v1243 : Ref sig .tc := ⟨.hbm, 1369, rfl⟩
abbrev main_v1244 : Ref sig .tc := ⟨.hbm, 1370, rfl⟩
abbrev main_v1245 : Ref sig .tc := ⟨.hbm, 1371, rfl⟩
abbrev main_v1246 : Ref sig .tc := ⟨.hbm, 1372, rfl⟩
abbrev main_v1247 : Ref sig .tc := ⟨.hbm, 1373, rfl⟩
abbrev main_v1248 : Ref sig .tc := ⟨.hbm, 1374, rfl⟩
abbrev main_v1249 : Ref sig .tc := ⟨.hbm, 1375, rfl⟩
abbrev main_v1250 : Ref sig .tc := ⟨.hbm, 1376, rfl⟩
abbrev main_v1251 : Ref sig .tc := ⟨.hbm, 1377, rfl⟩
abbrev main_v1252 : Ref sig .tc := ⟨.hbm, 1378, rfl⟩
abbrev main_v1253 : Ref sig .tc := ⟨.hbm, 1379, rfl⟩
abbrev main_v1254 : Ref sig .tc := ⟨.hbm, 1380, rfl⟩
abbrev main_v1255 : Ref sig .tc := ⟨.hbm, 1381, rfl⟩
abbrev main_cst_112 : Ref sig .tc := ⟨.hbm, 1382, rfl⟩
abbrev main_v1256 : Ref sig .tc := ⟨.hbm, 1383, rfl⟩
abbrev main_v1257 : Ref sig .tc := ⟨.hbm, 1384, rfl⟩
abbrev main_v1258 : Ref sig .tc := ⟨.hbm, 1385, rfl⟩
abbrev main_v1259 : Ref sig .tc := ⟨.hbm, 1386, rfl⟩
abbrev main_v1260 : Ref sig .tc := ⟨.hbm, 1387, rfl⟩
abbrev main_v1261 : Ref sig .tc := ⟨.hbm, 1388, rfl⟩
abbrev main_v1262 : Ref sig .tc := ⟨.hbm, 1389, rfl⟩
abbrev main_v1263 : Ref sig .tc := ⟨.hbm, 1390, rfl⟩
abbrev main_v1264 : Ref sig .tc := ⟨.hbm, 1391, rfl⟩
abbrev main_v1265 : Ref sig .tc := ⟨.hbm, 1392, rfl⟩
abbrev main_v1266 : Ref sig .tc := ⟨.hbm, 1393, rfl⟩
abbrev main_v1267 : Ref sig .tc := ⟨.hbm, 1394, rfl⟩
abbrev main_v1268 : Ref sig .tc := ⟨.hbm, 1395, rfl⟩
abbrev main_v1269 : Ref sig .tc := ⟨.hbm, 1396, rfl⟩
abbrev main_v1270 : Ref sig .tc := ⟨.hbm, 1397, rfl⟩
abbrev main_v1271 : Ref sig .tc := ⟨.hbm, 1398, rfl⟩
abbrev main_v1272 : Ref sig .tc := ⟨.hbm, 1399, rfl⟩
abbrev main_v1273 : Ref sig .tc := ⟨.hbm, 1400, rfl⟩
abbrev main_v1274 : Ref sig .tc := ⟨.hbm, 1401, rfl⟩

abbrev nD : Nat := 1
abbrev τ : Topo := Topo.v7x

variable {F : FTy → Type} [FloatOps F]

class Facts₀ : Prop where
  bcast_S_S16x13248 : S_.BroadcastsInDim S16x13248 (![] : Fin 0 → Fin S16x13248.rank)
  slices_S8x16x1656_S1x16x1656_0_0_0 : S8x16x1656.Slices ![0, 0, 0] S1x16x1656
  shapeCasts_S1x16x1656_S16x1656 : S1x16x1656.ShapeCasts S16x1656
  shapeCasts_S16x1656_S16x207x8 : S16x1656.ShapeCasts S16x207x8
  shapeCasts_S16x13248_S16x207x64 : S16x13248.ShapeCasts S16x207x64
  concatenates_S16x207x8_S16x207x64_S16x207x72_d2 : Shape.Concatenates [S16x207x8, S16x207x64] S16x207x72 2
  transposes_S16x207x72_S207x72x16_1_2_0 : S16x207x72.Transposes [1, 2, 0] S207x72x16
  shapeCasts_S207x72x16_S207x1152 : S207x72x16.ShapeCasts S207x1152
  bcast_S_S207x1152 : S_.BroadcastsInDim S207x1152 (![] : Fin 0 → Fin S207x1152.rank)
  bcast_S207x1152_S1x207x1152_1_2 : S207x1152.BroadcastsInDim S1x207x1152 (![1, 2] : Fin 2 → Fin S1x207x1152.rank)
  concatenates_S1x207x1152_S1x207x1152_S1x207x1152_S1x207x1152_S1x207x1152_S5x207x1152_d0 : Shape.Concatenates [S1x207x1152, S1x207x1152, S1x207x1152, S1x207x1152, S1x207x1152] S5x207x1152 0
  shapeCasts_S5x207x1152_S5x207x72x16 : S5x207x1152.ShapeCasts S5x207x72x16
  transposes_S5x207x72x16_S16x207x72x5_3_1_2_0 : S5x207x72x16.Transposes [3, 1, 2, 0] S16x207x72x5
  shapeCasts_S16x207x72x5_S3312x360 : S16x207x72x5.ShapeCasts S3312x360
  bcast_S128_S1x128_1 : S128.BroadcastsInDim S1x128 (![1] : Fin 1 → Fin S1x128.rank)
  bcast_S1x128_S3312x128_0_1 : S1x128.BroadcastsInDim S3312x128 (![0, 1] : Fin 2 → Fin S3312x128.rank)
  shapeCasts_S3312x128_S16x26496 : S3312x128.ShapeCasts S16x26496
  bcast_S_S16x26496 : S_.BroadcastsInDim S16x26496 (![] : Fin 0 → Fin S16x26496.rank)
  shapeCasts_S16x26496_S16x207x128 : S16x26496.ShapeCasts S16x207x128
  slices_S16x207x128_S16x207x64_0_0_0 : S16x207x128.Slices ![0, 0, 0] S16x207x64
  shapeCasts_S16x207x64_S16x13248 : S16x207x64.ShapeCasts S16x13248
  slices_S16x207x128_S16x207x64_0_0_64 : S16x207x128.Slices ![0, 0, 64] S16x207x64
  bcast_S64_S1x64_1 : S64.BroadcastsInDim S1x64 (![1] : Fin 1 → Fin S1x64.rank)
  bcast_S1x64_S3312x64_0_1 : S1x64.BroadcastsInDim S3312x64 (![0, 1] : Fin 2 → Fin S3312x64.rank)
  shapeCasts_S3312x64_S16x13248 : S3312x64.ShapeCasts S16x13248
  slices_S8x16x1656_S1x16x1656_1_0_0 : S8x16x1656.Slices ![1, 0, 0] S1x16x1656
  slices_S8x16x1656_S1x16x1656_2_0_0 : S8x16x1656.Slices ![2, 0, 0] S1x16x1656
  slices_S8x16x1656_S1x16x1656_3_0_0 : S8x16x1656.Slices ![3, 0, 0] S1x16x1656
  slices_S8x16x1656_S1x16x1656_4_0_0 : S8x16x1656.Slices ![4, 0, 0] S1x16x1656
  slices_S8x16x1656_S1x16x1656_5_0_0 : S8x16x1656.Slices ![5, 0, 0] S1x16x1656
  slices_S8x16x1656_S1x16x1656_6_0_0 : S8x16x1656.Slices ![6, 0, 0] S1x16x1656
  slices_S8x16x1656_S1x16x1656_7_0_0 : S8x16x1656.Slices ![7, 0, 0] S1x16x1656
  bcast_S_S16x207 : S_.BroadcastsInDim S16x207 (![] : Fin 0 → Fin S16x207.rank)
  shapeCasts_S16x207_S16x207x1 : S16x207.ShapeCasts S16x207x1
  concatenates_S16x207x1_S16x207x64_S16x207x65_d2 : Shape.Concatenates [S16x207x1, S16x207x64] S16x207x65 2
  transposes_S16x207x65_S207x65x16_1_2_0 : S16x207x65.Transposes [1, 2, 0] S207x65x16
  shapeCasts_S207x65x16_S207x1040 : S207x65x16.ShapeCasts S207x1040
  bcast_S_S207x1040 : S_.BroadcastsInDim S207x1040 (![] : Fin 0 → Fin S207x1040.rank)
  bcast_S207x1040_S1x207x1040_1_2 : S207x1040.BroadcastsInDim S1x207x1040 (![1, 2] : Fin 2 → Fin S1x207x1040.rank)
  concatenates_S1x207x1040_S1x207x1040_S1x207x1040_S1x207x1040_S1x207x1040_S5x207x1040_d0 : Shape.Concatenates [S1x207x1040, S1x207x1040, S1x207x1040, S1x207x1040, S1x207x1040] S5x207x1040 0
  shapeCasts_S5x207x1040_S5x207x65x16 : S5x207x1040.ShapeCasts S5x207x65x16
  transposes_S5x207x65x16_S16x207x65x5_3_1_2_0 : S5x207x65x16.Transposes [3, 1, 2, 0] S16x207x65x5
  shapeCasts_S16x207x65x5_S3312x325 : S16x207x65x5.ShapeCasts S3312x325
  shapeCasts_S16x13248_S3312x64 : S16x13248.ShapeCasts S3312x64
  bcast_S1_S1x1_1 : S1.BroadcastsInDim S1x1 (![1] : Fin 1 → Fin S1x1.rank)
  bcast_S1x1_S3312x1_0_1 : S1x1.BroadcastsInDim S3312x1 (![0, 1] : Fin 2 → Fin S3312x1.rank)
  shapeCasts_S3312x1_S16x207 : S3312x1.ShapeCasts S16x207
  bcast_S16x207_S1x16x207_1_2 : S16x207.BroadcastsInDim S1x16x207 (![1, 2] : Fin 2 → Fin S1x16x207.rank)
  concatenates_S1x16x207_S1x16x207_S1x16x207_S1x16x207_S1x16x207_S1x16x207_S1x16x207_S1x16x207_S8x16x207_d0 : Shape.Concatenates [S1x16x207, S1x16x207, S1x16x207, S1x16x207, S1x16x207, S1x16x207, S1x16x207, S1x16x207] S8x16x207 0
  dot_S207x207_S207x1152_S207x1152_1_0_0_1_n_n_wf : DotDims.WF S207x207 S207x1152 S207x1152 [1] [0] [0] [1] [] []
  dot_S3312x360_S360x128_S3312x128_1_0_0_1_n_n_wf : DotDims.WF S3312x360 S360x128 S3312x128 [1] [0] [0] [1] [] []
  dot_S3312x360_S360x64_S3312x64_1_0_0_1_n_n_wf : DotDims.WF S3312x360 S360x64 S3312x64 [1] [0] [0] [1] [] []
  dot_S207x207_S207x1040_S207x1040_1_0_0_1_n_n_wf : DotDims.WF S207x207 S207x1040 S207x1040 [1] [0] [0] [1] [] []
  dot_S3312x325_S325x128_S3312x128_1_0_0_1_n_n_wf : DotDims.WF S3312x325 S325x128 S3312x128 [1] [0] [0] [1] [] []
  dot_S3312x325_S325x64_S3312x64_1_0_0_1_n_n_wf : DotDims.WF S3312x325 S325x64 S3312x64 [1] [0] [0] [1] [] []
  dot_S3312x64_S64x1_S3312x1_1_0_0_1_n_n_wf : DotDims.WF S3312x64 S64x1 S3312x1 [1] [0] [0] [1] [] []

variable [Facts₀]

def dot_S207x207_S207x1152_S207x1152_1_0_0_1_n_n : DotDims S207x207 S207x1152 S207x1152 where
  lhsContracting := [1]
  rhsContracting := [0]
  lhsNonContracting := [0]
  rhsNonContracting := [1]
  lhsBatch := []
  rhsBatch := []
  wf := dot_S207x207_S207x1152_S207x1152_1_0_0_1_n_n_wf
def dot_S3312x360_S360x128_S3312x128_1_0_0_1_n_n : DotDims S3312x360 S360x128 S3312x128 where
  lhsContracting := [1]
  rhsContracting := [0]
  lhsNonContracting := [0]
  rhsNonContracting := [1]
  lhsBatch := []
  rhsBatch := []
  wf := dot_S3312x360_S360x128_S3312x128_1_0_0_1_n_n_wf
def dot_S3312x360_S360x64_S3312x64_1_0_0_1_n_n : DotDims S3312x360 S360x64 S3312x64 where
  lhsContracting := [1]
  rhsContracting := [0]
  lhsNonContracting := [0]
  rhsNonContracting := [1]
  lhsBatch := []
  rhsBatch := []
  wf := dot_S3312x360_S360x64_S3312x64_1_0_0_1_n_n_wf
def dot_S207x207_S207x1040_S207x1040_1_0_0_1_n_n : DotDims S207x207 S207x1040 S207x1040 where
  lhsContracting := [1]
  rhsContracting := [0]
  lhsNonContracting := [0]
  rhsNonContracting := [1]
  lhsBatch := []
  rhsBatch := []
  wf := dot_S207x207_S207x1040_S207x1040_1_0_0_1_n_n_wf
def dot_S3312x325_S325x128_S3312x128_1_0_0_1_n_n : DotDims S3312x325 S325x128 S3312x128 where
  lhsContracting := [1]
  rhsContracting := [0]
  lhsNonContracting := [0]
  rhsNonContracting := [1]
  lhsBatch := []
  rhsBatch := []
  wf := dot_S3312x325_S325x128_S3312x128_1_0_0_1_n_n_wf
def dot_S3312x325_S325x64_S3312x64_1_0_0_1_n_n : DotDims S3312x325 S325x64 S3312x64 where
  lhsContracting := [1]
  rhsContracting := [0]
  lhsNonContracting := [0]
  rhsNonContracting := [1]
  lhsBatch := []
  rhsBatch := []
  wf := dot_S3312x325_S325x64_S3312x64_1_0_0_1_n_n_wf
def dot_S3312x64_S64x1_S3312x1_1_0_0_1_n_n : DotDims S3312x64 S64x1 S3312x1 where
  lhsContracting := [1]
  rhsContracting := [0]
  lhsNonContracting := [0]
  rhsNonContracting := [1]
  lhsBatch := []
  rhsBatch := []
  wf := dot_S3312x64_S64x1_S3312x1_1_0_0_1_n_n_wf

class Facts : Prop extends Facts₀ where

variable [Facts]
-- ==== Proof.KFrame.lean ====
/- The program's @main around its one kernel region.
   @main is three stretches of host operations (the inputs re-blocked: the time-major input padded to sixteen
   columns and rounded; each gate's weight matrix split by diffusion term, the second-order Chebyshev terms folded
   into the zeroth-order block and doubled, the feature rows reordered and zero-padded to eighty; the two supports
   transposed and laid side by side), the region, and one reshape of the region's result (8, 3312) to (8, 16, 207).
   Here: what the region finds in every buffer (`V0`: the host operations' results folded over the launch memory),
   the reduction of @main to the region continued by the reshape, the facts the run around the region takes about
   the reshape (it touches unscoped buffers only, allocates nothing, writes no array the region stages), and that no
   host operation writes an argument array, so each is found as launched. -/
import proofs.«113864_g48979807044058_cont_8to1_c_230_28_alg».proof.Proof.Gen.KernelIdeal.Launch
import proofs.«113864_g48979807044058_cont_8to1_c_230_28_alg».proof.Proof.Gen.KernelIdeal.Points
import Idealize.ShloMosaic.Lib.Pipeline.FrameBody
import Idealize.ShloMosaic.Lib.Pipeline.FrameSuffix
import Idealize.ShloMosaic.Lib.Tactic

-- membership of an index in a rectangle of the arrays' extents is looked at structurally, once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations that
    precede the region, in order. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the reshape, the buffers holding `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is no array the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are found as launched -/

/-- No host operation before the region writes an argument array. -/
theorem pre_keeps (b : Ref sig .tc) (hb : b ∈ ([main_arg0, main_arg1, main_arg2, main_arg3, main_arg4, main_arg5, main_arg6, main_arg7, main_arg8, main_arg9, main_arg10, main_arg11, main_arg12] : List (Ref sig .tc))) :
    ∀ op ∈ (List.flatten [hostOps0, hostOps0_1, hostOps0_2] : List (HloOp τ sig (Elt F))), Proc.devRef .tc b ∉ op.writes := by
  refine List.forall_iff_forall_mem.mp ?_
  simp only [hostOps0, hostOps0_1, hostOps0_2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  simp only [List.mem_cons, List.mem_nil_iff, or_false] at hb
  rcases hb with rfl | rfl | rfl | rfl | rfl | rfl | rfl | rfl | rfl | rfl | rfl | rfl | rfl
  all_goals (repeat' apply And.intro) <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (pre_keeps main_arg0 (by simp only [List.mem_cons, true_or, or_true]))
theorem V_main_arg1 (c : Dev nD) : V m c main_arg1 = m ((c : Thread nD τ).loc main_arg1) :=
  StableHlo.after_of_forall_not_mem (b := Proc.devRef .tc main_arg1) _ _ (pre_keeps main_arg1 (by simp only [List.mem_cons, true_or, or_true]))
theorem V_main_arg2 (c : Dev nD) : V m c main_arg2 = m ((c : Thread nD τ).loc main_arg2) :=
  StableHlo.after_of_forall_not_mem (b := Proc.devRef .tc main_arg2) _ _ (pre_keeps main_arg2 (by simp only [List.mem_cons, true_or, or_true]))
theorem V_main_arg3 (c : Dev nD) : V m c main_arg3 = m ((c : Thread nD τ).loc main_arg3) :=
  StableHlo.after_of_forall_not_mem (b := Proc.devRef .tc main_arg3) _ _ (pre_keeps main_arg3 (by simp only [List.mem_cons, true_or, or_true]))
theorem V_main_arg4 (c : Dev nD) : V m c main_arg4 = m ((c : Thread nD τ).loc main_arg4) :=
  StableHlo.after_of_forall_not_mem (b := Proc.devRef .tc main_arg4) _ _ (pre_keeps main_arg4 (by simp only [List.mem_cons, true_or, or_true]))
theorem V_main_arg5 (c : Dev nD) : V m c main_arg5 = m ((c : Thread nD τ).loc main_arg5) :=
  StableHlo.after_of_forall_not_mem (b := Proc.devRef .tc main_arg5) _ _ (pre_keeps main_arg5 (by simp only [List.mem_cons, true_or, or_true]))
theorem V_main_arg6 (c : Dev nD) : V m c main_arg6 = m ((c : Thread nD τ).loc main_arg6) :=
  StableHlo.after_of_forall_not_mem (b := Proc.devRef .tc main_arg6) _ _ (pre_keeps main_arg6 (by simp only [List.mem_cons, true_or, or_true]))
theorem V_main_arg7 (c : Dev nD) : V m c main_arg7 = m ((c : Thread nD τ).loc main_arg7) :=
  StableHlo.after_of_forall_not_mem (b := Proc.devRef .tc main_arg7) _ _ (pre_keeps main_arg7 (by simp only [List.mem_cons, true_or, or_true]))
theorem V_main_arg8 (c : Dev nD) : V m c main_arg8 = m ((c : Thread nD τ).loc main_arg8) :=
  StableHlo.after_of_forall_not_mem (b := Proc.devRef .tc main_arg8) _ _ (pre_keeps main_arg8 (by simp only [List.mem_cons, true_or, or_true]))
theorem V_main_arg9 (c : Dev nD) : V m c main_arg9 = m ((c : Thread nD τ).loc main_arg9) :=
  StableHlo.after_of_forall_not_mem (b := Proc.devRef .tc main_arg9) _ _ (pre_keeps main_arg9 (by simp only [List.mem_cons, true_or, or_true]))
theorem V_main_arg10 (c : Dev nD) : V m c main_arg10 = m ((c : Thread nD τ).loc main_arg10) :=
  StableHlo.after_of_forall_not_mem (b := Proc.devRef .tc main_arg10) _ _ (pre_keeps main_arg10 (by simp only [List.mem_cons, true_or, or_true]))
theorem V_main_arg11 (c : Dev nD) : V m c main_arg11 = m ((c : Thread nD τ).loc main_arg11) :=
  StableHlo.after_of_forall_not_mem (b := Proc.devRef .tc main_arg11) _ _ (pre_keeps main_arg11 (by simp only [List.mem_cons, true_or, or_true]))
theorem V_main_arg12 (c : Dev nD) : V m c main_arg12 = m ((c : Thread nD τ).loc main_arg12) :=
  StableHlo.after_of_forall_not_mem (b := Proc.devRef .tc main_arg12) _ _ (pre_keeps main_arg12 (by simp only [List.mem_cons, true_or, or_true]))

/-! ## The windows' blocks -/

/-- Window `w`'s block at the point, read off its array as the region finds it: the whole array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block, for any proof data whose array is `V`'s and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block, for any proof data whose array is `V`'s and whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block, for any proof data whose array is `V`'s and whose body
    leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block, for any proof data whose array is `V`'s and whose body
    leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block, for any proof data whose array is `V`'s and whose body
    leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block, for any proof data whose array is `V`'s and whose body
    leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block, for any proof data whose array is `V`'s and whose body
    leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block, for any proof data whose array is `V`'s and whose body
    leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block, for any proof data whose array is `V`'s and whose body
    leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block, for any proof data whose array is `V`'s and whose body
    leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block, for any proof data whose array is `V`'s and whose body
    leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's staging buffer holds its block, for any proof data whose array is `V`'s and whose body
    leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's staging buffer holds its block, for any proof data whose array is `V`'s and whose body
    leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's staging buffer holds its block, for any proof data whose array is `V`'s and whose body
    leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's staging buffer holds its block, for any proof data whose array is `V`'s and whose body
    leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's staging buffer holds its block, for any proof data whose array is `V`'s and whose body
    leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16's staging buffer holds its block, for any proof data whose array is `V`'s and whose body
    leaves the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-- Input window 17's staging buffer holds its block, for any proof data whose array is `V`'s and whose body
    leaves the block in place. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KFrameBody.lean ====
/- The kernel body, run once on arbitrary whole staging buffers.
   The body loads its eighteen input blocks whole, runs the encoder loop (eight trips carrying the hidden state,
   each loading one time step of the padded input), loads the decoder's weights, and runs the decoder loop (eight
   trips carrying the hidden state, each storing one row of the (8, 3312) output). Each loop is passed by its
   invariant: before trip `k` the carried state is the `k`-fold iterate of the trip function from the initial
   state, and the output buffer holds the rows of the trips before `k` written over what it held at loop entry.
   The run therefore ends with the inputs as they were and the output buffer holding the eight trips' rows. -/
import Idealize.ShloMosaic.Lib.Pipeline.FrameBody
import proofs.«113864_g48979807044058_cont_8to1_c_230_28_alg».proof.Proof.Gen.KernelIdeal.Skeleton
import proofs.«113864_g48979807044058_cont_8to1_c_230_28_alg».proof.Proof.Gen.KernelIdeal.Loops
import Idealize.ShloMosaic.Lib.Ring
import Idealize.ShloMosaic.Lib.Tactic

-- membership of an index in a rectangle of the arrays' extents is looked at structurally, once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: closing the definition walks it past the default budget
set_option maxHeartbeats 4000000 in
/-- What the body's stores leave in the output's staging buffer, as pieces (last first), with the proof that on
    whole staging buffers — the inputs' at their contents, the output's at anything — the body runs to the
    continuation holding the inputs' as they were and the output's with those pieces written. The pieces are the
    witness the run finds: the decoder loop's rows, one per trip. -/
noncomputable def kernelRun (c : Dev nD) (arg0 : Memref sig .tc .vmem S8x3312x16 .bf16) (harg0 : arg0.IsWhole) (arg1 : Memref sig .tc .vmem S207x512 .bf16) (harg1 : arg1.IsWhole) (arg2 : Memref sig .tc .vmem S207x207 .bf16) (harg2 : arg2.IsWhole) (arg3 : Memref sig .tc .vmem S207x207 .bf16) (harg3 : arg3.IsWhole) (arg4 : Memref sig .tc .vmem S80x128 .bf16) (harg4 : arg4.IsWhole) (arg5 : Memref sig .tc .vmem S320x128 .bf16) (harg5 : arg5.IsWhole) (arg6 : Memref sig .tc .vmem S1x128 .f32) (harg6 : arg6.IsWhole) (arg7 : Memref sig .tc .vmem S80x64 .bf16) (harg7 : arg7.IsWhole) (arg8 : Memref sig .tc .vmem S320x64 .bf16) (harg8 : arg8.IsWhole) (arg9 : Memref sig .tc .vmem S1x64 .f32) (harg9 : arg9.IsWhole) (arg10 : Memref sig .tc .vmem S80x128 .bf16) (harg10 : arg10.IsWhole) (arg11 : Memref sig .tc .vmem S320x128 .bf16) (harg11 : arg11.IsWhole) (arg12 : Memref sig .tc .vmem S1x128 .f32) (harg12 : arg12.IsWhole) (arg13 : Memref sig .tc .vmem S80x64 .bf16) (harg13 : arg13.IsWhole) (arg14 : Memref sig .tc .vmem S320x64 .bf16) (harg14 : arg14.IsWhole) (arg15 : Memref sig .tc .vmem S1x64 .f32) (harg15 : arg15.IsWhole) (arg16 : Memref sig .tc .vmem S1x64 .f32) (harg16 : arg16.IsWhole) (arg17 : Memref sig .tc .vmem S1x1 .f32) (harg17 : arg17.IsWhole) (arg18 : Memref sig .tc .vmem S8x3312 .f32) (harg18 : arg18.IsWhole)
    (x0 : Vec F S8x3312x16 .bf16) (x1 : Vec F S207x512 .bf16) (x2 : Vec F S207x207 .bf16) (x3 : Vec F S207x207 .bf16) (x4 : Vec F S80x128 .bf16) (x5 : Vec F S320x128 .bf16) (x6 : Vec F S1x128 .f32) (x7 : Vec F S80x64 .bf16) (x8 : Vec F S320x64 .bf16) (x9 : Vec F S1x64 .f32) (x10 : Vec F S80x128 .bf16) (x11 : Vec F S320x128 .bf16) (x12 : Vec F S1x128 .f32) (x13 : Vec F S80x64 .bf16) (x14 : Vec F S320x64 .bf16) (x15 : Vec F S1x64 .f32) (x16 : Vec F S1x64 .f32) (x17 : Vec F S1x1 .f32) :
    { L18 : List (View.Piece (Elt F) S8x3312 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ f, arg18.view.loc (c : Thread nD τ) ↦[arg18.view.set]{fullShare} arg18.view.writes (Elt F) f L18)) -∗ K ⟨⟩))
          ⊢ wp frame (wpE (defs₀ (F := F)) Variants.none c none) E (cc0__fwd_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__fwd_kernel_eq_skeleton]; unfold cc0__fwd_kernel_skel
    simp only [k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
    obtain rfl := harg0.eq_unread hf0
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.KernelIdeal.Hand

end
-- ==== Proof.KFrameRun.lean ====
/- The frame run of the program, with the output named.
   The region has one point; each of its eighteen input windows stages its whole array and the output window's
   staging buffer is written back whole. The proof data say so: every input's buffer is left holding its array as
   the region found it, the output's buffer is left holding the body's rows read back. The run around the region
   then gives every staged array and every bypassing buffer after the reshape that follows the region: the result
   (8, 16, 207) is the reshape of the output array, whose contents are the body's rows, and the thirteen argument
   arrays, which nothing writes, end as launched. -/
import proofs.«113864_g48979807044058_cont_8to1_c_230_28_alg».proof.Proof.KFrame
import proofs.«113864_g48979807044058_cont_8to1_c_230_28_alg».proof.Proof.KFrameBody
import Idealize.ShloMosaic.Lib.Pipeline.Value

-- membership of an index in a rectangle of the arrays' extents is looked at structurally, once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at the point -/
abbrev ms0_0 (t : Fin cfg0.N) : Memref sig .tc .vmem S8x3312x16 .bf16 := win0_0.stage (cfg0.slots t 0)
abbrev ms0_1 (t : Fin cfg0.N) : Memref sig .tc .vmem S207x512 .bf16 := win0_1.stage (cfg0.slots t 1)
abbrev ms0_2 (t : Fin cfg0.N) : Memref sig .tc .vmem S207x207 .bf16 := win0_2.stage (cfg0.slots t 2)
abbrev ms0_3 (t : Fin cfg0.N) : Memref sig .tc .vmem S207x207 .bf16 := win0_3.stage (cfg0.slots t 3)
abbrev ms0_4 (t : Fin cfg0.N) : Memref sig .tc .vmem S80x128 .bf16 := win0_4.stage (cfg0.slots t 4)
abbrev ms0_5 (t : Fin cfg0.N) : Memref sig .tc .vmem S320x128 .bf16 := win0_5.stage (cfg0.slots t 5)
abbrev ms0_6 (t : Fin cfg0.N) : Memref sig .tc .vmem S1x128 .f32 := win0_6.stage (cfg0.slots t 6)
abbrev ms0_7 (t : Fin cfg0.N) : Memref sig .tc .vmem S80x64 .bf16 := win0_7.stage (cfg0.slots t 7)
abbrev ms0_8 (t : Fin cfg0.N) : Memref sig .tc .vmem S320x64 .bf16 := win0_8.stage (cfg0.slots t 8)
abbrev ms0_9 (t : Fin cfg0.N) : Memref sig .tc .vmem S1x64 .f32 := win0_9.stage (cfg0.slots t 9)
abbrev ms0_10 (t : Fin cfg0.N) : Memref sig .tc .vmem S80x128 .bf16 := win0_10.stage (cfg0.slots t 10)
abbrev ms0_11 (t : Fin cfg0.N) : Memref sig .tc .vmem S320x128 .bf16 := win0_11.stage (cfg0.slots t 11)
abbrev ms0_12 (t : Fin cfg0.N) : Memref sig .tc .vmem S1x128 .f32 := win0_12.stage (cfg0.slots t 12)
abbrev ms0_13 (t : Fin cfg0.N) : Memref sig .tc .vmem S80x64 .bf16 := win0_13.stage (cfg0.slots t 13)
abbrev ms0_14 (t : Fin cfg0.N) : Memref sig .tc .vmem S320x64 .bf16 := win0_14.stage (cfg0.slots t 14)
abbrev ms0_15 (t : Fin cfg0.N) : Memref sig .tc .vmem S1x64 .f32 := win0_15.stage (cfg0.slots t 15)
abbrev ms0_16 (t : Fin cfg0.N) : Memref sig .tc .vmem S1x64 .f32 := win0_16.stage (cfg0.slots t 16)
abbrev ms0_17 (t : Fin cfg0.N) : Memref sig .tc .vmem S1x1 .f32 := win0_17.stage (cfg0.slots t 17)
abbrev ms0_18 (t : Fin cfg0.N) : Memref sig .tc .vmem S8x3312 .f32 := win0_18.stage (cfg0.slots t 18)

/-- One staging buffer of the output window, through which its contents are stated. -/
abbrev VO18 : View sig .tc .vmem S8x3312 .f32 := (Memref.whole cc0_stg18_0 : Memref sig .tc .vmem S8x3312 .f32).view

/-- The run's pieces for the output tile its block: eight rows of 3312, one per decoder trip. -/
theorem cover18 (c : Dev nD) (arg0 : Memref sig .tc .vmem S8x3312x16 .bf16) (harg0 : arg0.IsWhole) (arg1 : Memref sig .tc .vmem S207x512 .bf16) (harg1 : arg1.IsWhole) (arg2 : Memref sig .tc .vmem S207x207 .bf16) (harg2 : arg2.IsWhole) (arg3 : Memref sig .tc .vmem S207x207 .bf16) (harg3 : arg3.IsWhole) (arg4 : Memref sig .tc .vmem S80x128 .bf16) (harg4 : arg4.IsWhole) (arg5 : Memref sig .tc .vmem S320x128 .bf16) (harg5 : arg5.IsWhole) (arg6 : Memref sig .tc .vmem S1x128 .f32) (harg6 : arg6.IsWhole) (arg7 : Memref sig .tc .vmem S80x64 .bf16) (harg7 : arg7.IsWhole) (arg8 : Memref sig .tc .vmem S320x64 .bf16) (harg8 : arg8.IsWhole) (arg9 : Memref sig .tc .vmem S1x64 .f32) (harg9 : arg9.IsWhole) (arg10 : Memref sig .tc .vmem S80x128 .bf16) (harg10 : arg10.IsWhole) (arg11 : Memref sig .tc .vmem S320x128 .bf16) (harg11 : arg11.IsWhole) (arg12 : Memref sig .tc .vmem S1x128 .f32) (harg12 : arg12.IsWhole) (arg13 : Memref sig .tc .vmem S80x64 .bf16) (harg13 : arg13.IsWhole) (arg14 : Memref sig .tc .vmem S320x64 .bf16) (harg14 : arg14.IsWhole) (arg15 : Memref sig .tc .vmem S1x64 .f32) (harg15 : arg15.IsWhole) (arg16 : Memref sig .tc .vmem S1x64 .f32) (harg16 : arg16.IsWhole) (arg17 : Memref sig .tc .vmem S1x1 .f32) (harg17 : arg17.IsWhole) (arg18 : Memref sig .tc .vmem S8x3312 .f32) (harg18 : arg18.IsWhole)
    (x0 : Vec F S8x3312x16 .bf16) (x1 : Vec F S207x512 .bf16) (x2 : Vec F S207x207 .bf16) (x3 : Vec F S207x207 .bf16) (x4 : Vec F S80x128 .bf16) (x5 : Vec F S320x128 .bf16) (x6 : Vec F S1x128 .f32) (x7 : Vec F S80x64 .bf16) (x8 : Vec F S320x64 .bf16) (x9 : Vec F S1x64 .f32) (x10 : Vec F S80x128 .bf16) (x11 : Vec F S320x128 .bf16) (x12 : Vec F S1x128 .f32) (x13 : Vec F S80x64 .bf16) (x14 : Vec F S320x64 .bf16) (x15 : Vec F S1x64 .f32) (x16 : Vec F S1x64 .f32) (x17 : Vec F S1x1 .f32) (y : S8x3312.Idx) :
    ∃ pc ∈ (kernelRun c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17).1, y ∈ pc.1.set :=
  View.cover_of_tiledL (kernelRun c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17).1 S1x3312.size (by sl_kernel_rfl) y

/-- What the run leaves in the output's staging buffer: its pieces read back over anything. -/
def out18At (c : Dev nD) (arg0 : Memref sig .tc .vmem S8x3312x16 .bf16) (harg0 : arg0.IsWhole) (arg1 : Memref sig .tc .vmem S207x512 .bf16) (harg1 : arg1.IsWhole) (arg2 : Memref sig .tc .vmem S207x207 .bf16) (harg2 : arg2.IsWhole) (arg3 : Memref sig .tc .vmem S207x207 .bf16) (harg3 : arg3.IsWhole) (arg4 : Memref sig .tc .vmem S80x128 .bf16) (harg4 : arg4.IsWhole) (arg5 : Memref sig .tc .vmem S320x128 .bf16) (harg5 : arg5.IsWhole) (arg6 : Memref sig .tc .vmem S1x128 .f32) (harg6 : arg6.IsWhole) (arg7 : Memref sig .tc .vmem S80x64 .bf16) (harg7 : arg7.IsWhole) (arg8 : Memref sig .tc .vmem S320x64 .bf16) (harg8 : arg8.IsWhole) (arg9 : Memref sig .tc .vmem S1x64 .f32) (harg9 : arg9.IsWhole) (arg10 : Memref sig .tc .vmem S80x128 .bf16) (harg10 : arg10.IsWhole) (arg11 : Memref sig .tc .vmem S320x128 .bf16) (harg11 : arg11.IsWhole) (arg12 : Memref sig .tc .vmem S1x128 .f32) (harg12 : arg12.IsWhole) (arg13 : Memref sig .tc .vmem S80x64 .bf16) (harg13 : arg13.IsWhole) (arg14 : Memref sig .tc .vmem S320x64 .bf16) (harg14 : arg14.IsWhole) (arg15 : Memref sig .tc .vmem S1x64 .f32) (harg15 : arg15.IsWhole) (arg16 : Memref sig .tc .vmem S1x64 .f32) (harg16 : arg16.IsWhole) (arg17 : Memref sig .tc .vmem S1x1 .f32) (harg17 : arg17.IsWhole) (arg18 : Memref sig .tc .vmem S8x3312 .f32) (harg18 : arg18.IsWhole)
    (x0 : Vec F S8x3312x16 .bf16) (x1 : Vec F S207x512 .bf16) (x2 : Vec F S207x207 .bf16) (x3 : Vec F S207x207 .bf16) (x4 : Vec F S80x128 .bf16) (x5 : Vec F S320x128 .bf16) (x6 : Vec F S1x128 .f32) (x7 : Vec F S80x64 .bf16) (x8 : Vec F S320x64 .bf16) (x9 : Vec F S1x64 .f32) (x10 : Vec F S80x128 .bf16) (x11 : Vec F S320x128 .bf16) (x12 : Vec F S1x128 .f32) (x13 : Vec F S80x64 .bf16) (x14 : Vec F S320x64 .bf16) (x15 : Vec F S1x64 .f32) (x16 : Vec F S1x64 .f32) (x17 : Vec F S1x1 .f32) : Vec F S8x3312 .f32 :=
  VO18.read (Elt F) (VO18.writes (Elt F) VO18.junk (kernelRun c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17).1)

/-- The same at the point's staging buffers and the input blocks the region finds. -/
def out18 (c : Dev nD) (t : Fin cfg0.N) : Vec F S8x3312 .f32 :=
  out18At c (ms0_0 t) (hstage0_0 0) (ms0_1 t) (hstage0_1 0) (ms0_2 t) (hstage0_2 0) (ms0_3 t) (hstage0_3 0) (ms0_4 t) (hstage0_4 0) (ms0_5 t) (hstage0_5 0) (ms0_6 t) (hstage0_6 0) (ms0_7 t) (hstage0_7 0) (ms0_8 t) (hstage0_8 0) (ms0_9 t) (hstage0_9 0) (ms0_10 t) (hstage0_10 0) (ms0_11 t) (hstage0_11 0) (ms0_12 t) (hstage0_12 0) (ms0_13 t) (hstage0_13 0) (ms0_14 t) (hstage0_14 0) (ms0_15 t) (hstage0_15 0) (ms0_16 t) (hstage0_16 0) (ms0_17 t) (hstage0_17 0) (ms0_18 t) (hstage0_18 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-! ## The proof data -/

/-- The arrays as the region finds them; after the body each input's buffer at its block and the output's at the
    body's rows; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out18 m c t
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out18 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation -/

/-- What the body is called with at the point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 4000000 in
/-- The body at the point: the inputs' buffers hold their blocks, so the run applies; the invariant passes through
    unread; the output's buffer ends with the run's pieces, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  unfold out18
  unfold out18At
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun c _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, ⟨%e18, H18⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  unfold owns; iexists _; isplitr
  swap; · iexact H18
  ipureintro; exact View.read_writes_of_cover _ _ _ _ _ (cover18 c _ _ _ _ _ _ _ _ _ _ _ _ _ _ _ _ _ _ _ _ _ _ _ _ _ _ _ _ _ _ _ _ _ _ _ _ _ _ _ _ _ _ _ _ _ _ _ _ _ _ _ _ _ _ _ _)

/-- The library's body obligation, at the point. -/
theorem body_obligation (c : Dev nD) : BodyObligation (dats (F := F) m 0 c) (defs₀ (F := F)) Variants.none () Set.univ := fun t => by
  rw [bigSep_W0, bigSep_W0]
  exact sound_body m c t

/-! ## The run -/

-- the launch theorem's implicit arguments are found by unifying its conclusion with this one, which takes unfolding
-- plain definitions in a metavariable's type
set_option backward.isDefEq.respectTransparency.types false in
/-- From any memory with zero counters every weakly fair execution of @main terminates, and every final state has
    every staged array at what the proof data give and every other unscoped buffer as the reshape after the region
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The result named -/

/-- The region's output array when @main ends: its contents at entry overwritten by the one write-back. -/
def outArr (c : Dev nD) : Buf (Elt F) ((cfg0.win 18).arr.view.loc (c.tc : Thread nD τ)) := (dats m 0 c).arrAt 18 cfg0.N

/-- It reads back, whole, as the body's rows. -/
theorem outArr_read (c : Dev nD) : ((cfg0.win 18).blk t0_0).view.read (Elt F) (outArr m c) = out18 m c t0_0 :=
  ((dats m 0 c).read_blk_arrAt_eq_flushed 18 (fun t t' _ _ h => absurd ((fin_N0 t).trans (fin_N0 t').symm) h) cfg0.N t0_0 t0_0.isLt
    (flush0_18 t0_0)).trans (after0_18 m c t0_0)

/-- After the reshape that follows the region the result buffer holds the output array recast to (8, 16, 207). -/
theorem W_main_v128 (c : Dev nD) :
    Pipeline.afterTail₀ cfgs (dats m) 0 (V0 m) [hostOps1] c main_v128
      = fun i => shapeCast S8x16x207 (outArr m c) shapeCasts_S8x3312_S8x16x207 i := by
  unfold Pipeline.afterTail₀
  simp only [hostOps1, List.flatten_cons, List.flatten_nil, List.append_nil, StableHlo.after_cons, StableHlo.after_nil]
  rw [StableHlo.reshape_result']
  have h : Pipeline.withArrays (cfgs 0).spec c (V0 m c) (fun w => (dats m 0 c).arrAt w (cfgs 0).N) (Proc.devRef .tc main_v127) = outArr m c :=
    Pipeline.withArrays_arr spec0 launch0.win.arr_inj c (V0 m c) _ 18
  rw [h]
  rfl

/-- Nothing after the region writes argument 0: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nothing after the region writes argument 1: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nothing after the region writes argument 2: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nothing after the region writes argument 3: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nothing after the region writes argument 4: it ends as launched. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nothing after the region writes argument 5: it ends as launched. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nothing after the region writes argument 6: it ends as launched. -/
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nothing after the region writes argument 7: it ends as launched. -/
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nothing after the region writes argument 8: it ends as launched. -/
theorem W_main_arg8 (c : Dev nD) :
    Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nothing after the region writes argument 9: it ends as launched. -/
theorem W_main_arg9 (c : Dev nD) :
    Pipeline.afterTail₀ cfgs (dats m) 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Nothing after the region writes argument 10: it ends as launched. -/
theorem W_main_arg10 (c : Dev nD) :
    Pipeline.afterTail₀ cfgs (dats m) 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- Nothing after the region writes argument 11: it ends as launched. -/
theorem W_main_arg11 (c : Dev nD) :
    Pipeline.afterTail₀ cfgs (dats m) 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- Nothing after the region writes argument 12: it ends as launched. -/
theorem W_main_arg12 (c : Dev nD) :
    Pipeline.afterTail₀ cfgs (dats m) 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- THE RUN WITH THE RESULT NAMED: from any memory with zero counters @main terminates without fault; the result
    holds the region's output array recast to (8, 16, 207) and every argument array is unchanged. -/
theorem run_named : θ_run defs (onTc (τ := τ) (main (F := F))) ⟨m, fun _ => 0, ρ⟩ (fun r => ∀ c : Dev nD,
      r.2.mem ((c.tc : Thread nD τ).loc main_v128) = (fun i => shapeCast S8x16x207 (outArr m c) shapeCasts_S8x3312_S8x16x207 i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v128 (Pipeline.mem_restRefs_of main_v128 (by decide) (by decide))).trans (W_main_v128 m c),
      ((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).2 main_arg8 (Pipeline.mem_restRefs_of main_arg8 (by decide) (by decide))).trans (W_main_arg8 m c),
      ((h c).2 main_arg9 (Pipeline.mem_restRefs_of main_arg9 (by decide) (by decide))).trans (W_main_arg9 m c),
      ((h c).2 main_arg10 (Pipeline.mem_restRefs_of main_arg10 (by decide) (by decide))).trans (W_main_arg10 m c),
      ((h c).2 main_arg11 (Pipeline.mem_restRefs_of main_arg11 (by decide) (by decide))).trans (W_main_arg11 m c),
      ((h c).2 main_arg12 (Pipeline.mem_restRefs_of main_arg12 (by decide) (by decide))).trans (W_main_arg12 m c)⟩) (run_main m ρ)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_named m ρ)

end Cert.KernelIdeal.Hand

end
-- ==== Proof.KFrameBits.lean ====
/- The program's @main around its one kernel region.
   @main is three stretches of host operations (the inputs re-blocked: the time-major input padded to sixteen
   columns and rounded; each gate's weight matrix split by diffusion term, the second-order Chebyshev terms folded
   into the zeroth-order block and doubled, the feature rows reordered and zero-padded to eighty; the two supports
   transposed and laid side by side), the region, and one reshape of the region's result (8, 3312) to (8, 16, 207).
   Here: what the region finds in every buffer (`V0`: the host operations' results folded over the launch memory),
   the reduction of @main to the region continued by the reshape, the facts the run around the region takes about
   the reshape (it touches unscoped buffers only, allocates nothing, writes no array the region stages), and that no
   host operation writes an argument array, so each is found as launched. -/
import proofs.«113864_g48979807044058_cont_8to1_c_230_28_alg».proof.Proof.Gen.Kernel.Launch
import proofs.«113864_g48979807044058_cont_8to1_c_230_28_alg».proof.Proof.Gen.Kernel.Points
import Idealize.ShloMosaic.Lib.Pipeline.FrameBody
import Idealize.ShloMosaic.Lib.Pipeline.FrameSuffix
import Idealize.ShloMosaic.Lib.Tactic

-- membership of an index in a rectangle of the arrays' extents is looked at structurally, once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations that
    precede the region, in order. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the reshape, the buffers holding `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is no array the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are found as launched -/

/-- No host operation before the region writes an argument array. -/
theorem pre_keeps (b : Ref sig .tc) (hb : b ∈ ([main_arg0, main_arg1, main_arg2, main_arg3, main_arg4, main_arg5, main_arg6, main_arg7, main_arg8, main_arg9, main_arg10, main_arg11, main_arg12] : List (Ref sig .tc))) :
    ∀ op ∈ (List.flatten [hostOps0, hostOps0_1, hostOps0_2] : List (HloOp τ sig (Elt F))), Proc.devRef .tc b ∉ op.writes := by
  refine List.forall_iff_forall_mem.mp ?_
  simp only [hostOps0, hostOps0_1, hostOps0_2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  simp only [List.mem_cons, List.mem_nil_iff, or_false] at hb
  rcases hb with rfl | rfl | rfl | rfl | rfl | rfl | rfl | rfl | rfl | rfl | rfl | rfl | rfl
  all_goals (repeat' apply And.intro) <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (pre_keeps main_arg0 (by simp only [List.mem_cons, true_or, or_true]))
theorem V_main_arg1 (c : Dev nD) : V m c main_arg1 = m ((c : Thread nD τ).loc main_arg1) :=
  StableHlo.after_of_forall_not_mem (b := Proc.devRef .tc main_arg1) _ _ (pre_keeps main_arg1 (by simp only [List.mem_cons, true_or, or_true]))
theorem V_main_arg2 (c : Dev nD) : V m c main_arg2 = m ((c : Thread nD τ).loc main_arg2) :=
  StableHlo.after_of_forall_not_mem (b := Proc.devRef .tc main_arg2) _ _ (pre_keeps main_arg2 (by simp only [List.mem_cons, true_or, or_true]))
theorem V_main_arg3 (c : Dev nD) : V m c main_arg3 = m ((c : Thread nD τ).loc main_arg3) :=
  StableHlo.after_of_forall_not_mem (b := Proc.devRef .tc main_arg3) _ _ (pre_keeps main_arg3 (by simp only [List.mem_cons, true_or, or_true]))
theorem V_main_arg4 (c : Dev nD) : V m c main_arg4 = m ((c : Thread nD τ).loc main_arg4) :=
  StableHlo.after_of_forall_not_mem (b := Proc.devRef .tc main_arg4) _ _ (pre_keeps main_arg4 (by simp only [List.mem_cons, true_or, or_true]))
theorem V_main_arg5 (c : Dev nD) : V m c main_arg5 = m ((c : Thread nD τ).loc main_arg5) :=
  StableHlo.after_of_forall_not_mem (b := Proc.devRef .tc main_arg5) _ _ (pre_keeps main_arg5 (by simp only [List.mem_cons, true_or, or_true]))
theorem V_main_arg6 (c : Dev nD) : V m c main_arg6 = m ((c : Thread nD τ).loc main_arg6) :=
  StableHlo.after_of_forall_not_mem (b := Proc.devRef .tc main_arg6) _ _ (pre_keeps main_arg6 (by simp only [List.mem_cons, true_or, or_true]))
theorem V_main_arg7 (c : Dev nD) : V m c main_arg7 = m ((c : Thread nD τ).loc main_arg7) :=
  StableHlo.after_of_forall_not_mem (b := Proc.devRef .tc main_arg7) _ _ (pre_keeps main_arg7 (by simp only [List.mem_cons, true_or, or_true]))
theorem V_main_arg8 (c : Dev nD) : V m c main_arg8 = m ((c : Thread nD τ).loc main_arg8) :=
  StableHlo.after_of_forall_not_mem (b := Proc.devRef .tc main_arg8) _ _ (pre_keeps main_arg8 (by simp only [List.mem_cons, true_or, or_true]))
theorem V_main_arg9 (c : Dev nD) : V m c main_arg9 = m ((c : Thread nD τ).loc main_arg9) :=
  StableHlo.after_of_forall_not_mem (b := Proc.devRef .tc main_arg9) _ _ (pre_keeps main_arg9 (by simp only [List.mem_cons, true_or, or_true]))
theorem V_main_arg10 (c : Dev nD) : V m c main_arg10 = m ((c : Thread nD τ).loc main_arg10) :=
  StableHlo.after_of_forall_not_mem (b := Proc.devRef .tc main_arg10) _ _ (pre_keeps main_arg10 (by simp only [List.mem_cons, true_or, or_true]))
theorem V_main_arg11 (c : Dev nD) : V m c main_arg11 = m ((c : Thread nD τ).loc main_arg11) :=
  StableHlo.after_of_forall_not_mem (b := Proc.devRef .tc main_arg11) _ _ (pre_keeps main_arg11 (by simp only [List.mem_cons, true_or, or_true]))
theorem V_main_arg12 (c : Dev nD) : V m c main_arg12 = m ((c : Thread nD τ).loc main_arg12) :=
  StableHlo.after_of_forall_not_mem (b := Proc.devRef .tc main_arg12) _ _ (pre_keeps main_arg12 (by simp only [List.mem_cons, true_or, or_true]))

/-! ## The windows' blocks -/

/-- Window `w`'s block at the point, read off its array as the region finds it: the whole array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block, for any proof data whose array is `V`'s and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block, for any proof data whose array is `V`'s and whose body
    leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block, for any proof data whose array is `V`'s and whose body
    leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block, for any proof data whose array is `V`'s and whose body
    leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block, for any proof data whose array is `V`'s and whose body
    leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block, for any proof data whose array is `V`'s and whose body
    leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block, for any proof data whose array is `V`'s and whose body
    leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block, for any proof data whose array is `V`'s and whose body
    leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block, for any proof data whose array is `V`'s and whose body
    leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block, for any proof data whose array is `V`'s and whose body
    leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block, for any proof data whose array is `V`'s and whose body
    leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's staging buffer holds its block, for any proof data whose array is `V`'s and whose body
    leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's staging buffer holds its block, for any proof data whose array is `V`'s and whose body
    leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's staging buffer holds its block, for any proof data whose array is `V`'s and whose body
    leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's staging buffer holds its block, for any proof data whose array is `V`'s and whose body
    leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's staging buffer holds its block, for any proof data whose array is `V`'s and whose body
    leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16's staging buffer holds its block, for any proof data whose array is `V`'s and whose body
    leaves the block in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-- Input window 17's staging buffer holds its block, for any proof data whose array is `V`'s and whose body
    leaves the block in place. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.KFrameBitsBody.lean ====
/- The kernel body, run once on arbitrary whole staging buffers.
   The body loads its eighteen input blocks whole, runs the encoder loop (eight trips carrying the hidden state,
   each loading one time step of the padded input), loads the decoder's weights, and runs the decoder loop (eight
   trips carrying the hidden state, each storing one row of the (8, 3312) output). Each loop is passed by its
   invariant: before trip `k` the carried state is the `k`-fold iterate of the trip function from the initial
   state, and the output buffer holds the rows of the trips before `k` written over what it held at loop entry.
   The run therefore ends with the inputs as they were and the output buffer holding the eight trips' rows. -/
import Idealize.ShloMosaic.Lib.Pipeline.FrameBody
import proofs.«113864_g48979807044058_cont_8to1_c_230_28_alg».proof.Proof.Gen.Kernel.Skeleton
import proofs.«113864_g48979807044058_cont_8to1_c_230_28_alg».proof.Proof.Gen.Kernel.Loops
import Idealize.ShloMosaic.Lib.Ring
import Idealize.ShloMosaic.Lib.Tactic

-- membership of an index in a rectangle of the arrays' extents is looked at structurally, once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: closing the definition walks it past the default budget
set_option maxHeartbeats 4000000 in
/-- What the body's stores leave in the output's staging buffer, as pieces (last first), with the proof that on
    whole staging buffers — the inputs' at their contents, the output's at anything — the body runs to the
    continuation holding the inputs' as they were and the output's with those pieces written. The pieces are the
    witness the run finds: the decoder loop's rows, one per trip. -/
noncomputable def kernelRun (c : Dev nD) (arg0 : Memref sig .tc .vmem S8x3312x16 .bf16) (harg0 : arg0.IsWhole) (arg1 : Memref sig .tc .vmem S207x512 .bf16) (harg1 : arg1.IsWhole) (arg2 : Memref sig .tc .vmem S207x207 .bf16) (harg2 : arg2.IsWhole) (arg3 : Memref sig .tc .vmem S207x207 .bf16) (harg3 : arg3.IsWhole) (arg4 : Memref sig .tc .vmem S80x128 .bf16) (harg4 : arg4.IsWhole) (arg5 : Memref sig .tc .vmem S320x128 .bf16) (harg5 : arg5.IsWhole) (arg6 : Memref sig .tc .vmem S1x128 .f32) (harg6 : arg6.IsWhole) (arg7 : Memref sig .tc .vmem S80x64 .bf16) (harg7 : arg7.IsWhole) (arg8 : Memref sig .tc .vmem S320x64 .bf16) (harg8 : arg8.IsWhole) (arg9 : Memref sig .tc .vmem S1x64 .f32) (harg9 : arg9.IsWhole) (arg10 : Memref sig .tc .vmem S80x128 .bf16) (harg10 : arg10.IsWhole) (arg11 : Memref sig .tc .vmem S320x128 .bf16) (harg11 : arg11.IsWhole) (arg12 : Memref sig .tc .vmem S1x128 .f32) (harg12 : arg12.IsWhole) (arg13 : Memref sig .tc .vmem S80x64 .bf16) (harg13 : arg13.IsWhole) (arg14 : Memref sig .tc .vmem S320x64 .bf16) (harg14 : arg14.IsWhole) (arg15 : Memref sig .tc .vmem S1x64 .f32) (harg15 : arg15.IsWhole) (arg16 : Memref sig .tc .vmem S1x64 .f32) (harg16 : arg16.IsWhole) (arg17 : Memref sig .tc .vmem S1x1 .f32) (harg17 : arg17.IsWhole) (arg18 : Memref sig .tc .vmem S8x3312 .f32) (harg18 : arg18.IsWhole)
    (x0 : Vec F S8x3312x16 .bf16) (x1 : Vec F S207x512 .bf16) (x2 : Vec F S207x207 .bf16) (x3 : Vec F S207x207 .bf16) (x4 : Vec F S80x128 .bf16) (x5 : Vec F S320x128 .bf16) (x6 : Vec F S1x128 .f32) (x7 : Vec F S80x64 .bf16) (x8 : Vec F S320x64 .bf16) (x9 : Vec F S1x64 .f32) (x10 : Vec F S80x128 .bf16) (x11 : Vec F S320x128 .bf16) (x12 : Vec F S1x128 .f32) (x13 : Vec F S80x64 .bf16) (x14 : Vec F S320x64 .bf16) (x15 : Vec F S1x64 .f32) (x16 : Vec F S1x64 .f32) (x17 : Vec F S1x1 .f32) :
    { L18 : List (View.Piece (Elt F) S8x3312 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ f, arg18.view.loc (c : Thread nD τ) ↦[arg18.view.set]{fullShare} arg18.view.writes (Elt F) f L18)) -∗ K ⟨⟩))
          ⊢ wp frame (wpE (defs₀ (F := F)) Variants.none c none) E (cc0__fwd_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0__fwd_kernel_eq_skeleton]; unfold cc0__fwd_kernel_skel
    simp only [k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, Hk⟩
    obtain rfl := harg0.eq_unread hf0
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg16.eq_unread hf16
    obtain rfl := harg17.eq_unread hf17
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    iexists _; iexact H18

end Cert.Kernel.Hand

end
-- ==== Proof.KFrameBitsRun.lean ====
/- The frame run of the program, with the output named.
   The region has one point; each of its eighteen input windows stages its whole array and the output window's
   staging buffer is written back whole. The proof data say so: every input's buffer is left holding its array as
   the region found it, the output's buffer is left holding the body's rows read back. The run around the region
   then gives every staged array and every bypassing buffer after the reshape that follows the region: the result
   (8, 16, 207) is the reshape of the output array, whose contents are the body's rows, and the thirteen argument
   arrays, which nothing writes, end as launched. -/
import proofs.«113864_g48979807044058_cont_8to1_c_230_28_alg».proof.Proof.KFrameBits
import proofs.«113864_g48979807044058_cont_8to1_c_230_28_alg».proof.Proof.KFrameBitsBody
import Idealize.ShloMosaic.Lib.Pipeline.Value

-- membership of an index in a rectangle of the arrays' extents is looked at structurally, once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at the point -/
abbrev ms0_0 (t : Fin cfg0.N) : Memref sig .tc .vmem S8x3312x16 .bf16 := win0_0.stage (cfg0.slots t 0)
abbrev ms0_1 (t : Fin cfg0.N) : Memref sig .tc .vmem S207x512 .bf16 := win0_1.stage (cfg0.slots t 1)
abbrev ms0_2 (t : Fin cfg0.N) : Memref sig .tc .vmem S207x207 .bf16 := win0_2.stage (cfg0.slots t 2)
abbrev ms0_3 (t : Fin cfg0.N) : Memref sig .tc .vmem S207x207 .bf16 := win0_3.stage (cfg0.slots t 3)
abbrev ms0_4 (t : Fin cfg0.N) : Memref sig .tc .vmem S80x128 .bf16 := win0_4.stage (cfg0.slots t 4)
abbrev ms0_5 (t : Fin cfg0.N) : Memref sig .tc .vmem S320x128 .bf16 := win0_5.stage (cfg0.slots t 5)
abbrev ms0_6 (t : Fin cfg0.N) : Memref sig .tc .vmem S1x128 .f32 := win0_6.stage (cfg0.slots t 6)
abbrev ms0_7 (t : Fin cfg0.N) : Memref sig .tc .vmem S80x64 .bf16 := win0_7.stage (cfg0.slots t 7)
abbrev ms0_8 (t : Fin cfg0.N) : Memref sig .tc .vmem S320x64 .bf16 := win0_8.stage (cfg0.slots t 8)
abbrev ms0_9 (t : Fin cfg0.N) : Memref sig .tc .vmem S1x64 .f32 := win0_9.stage (cfg0.slots t 9)
abbrev ms0_10 (t : Fin cfg0.N) : Memref sig .tc .vmem S80x128 .bf16 := win0_10.stage (cfg0.slots t 10)
abbrev ms0_11 (t : Fin cfg0.N) : Memref sig .tc .vmem S320x128 .bf16 := win0_11.stage (cfg0.slots t 11)
abbrev ms0_12 (t : Fin cfg0.N) : Memref sig .tc .vmem S1x128 .f32 := win0_12.stage (cfg0.slots t 12)
abbrev ms0_13 (t : Fin cfg0.N) : Memref sig .tc .vmem S80x64 .bf16 := win0_13.stage (cfg0.slots t 13)
abbrev ms0_14 (t : Fin cfg0.N) : Memref sig .tc .vmem S320x64 .bf16 := win0_14.stage (cfg0.slots t 14)
abbrev ms0_15 (t : Fin cfg0.N) : Memref sig .tc .vmem S1x64 .f32 := win0_15.stage (cfg0.slots t 15)
abbrev ms0_16 (t : Fin cfg0.N) : Memref sig .tc .vmem S1x64 .f32 := win0_16.stage (cfg0.slots t 16)
abbrev ms0_17 (t : Fin cfg0.N) : Memref sig .tc .vmem S1x1 .f32 := win0_17.stage (cfg0.slots t 17)
abbrev ms0_18 (t : Fin cfg0.N) : Memref sig .tc .vmem S8x3312 .f32 := win0_18.stage (cfg0.slots t 18)

/-- One staging buffer of the output window, through which its contents are stated. -/
abbrev VO18 : View sig .tc .vmem S8x3312 .f32 := (Memref.whole cc0_stg18_0 : Memref sig .tc .vmem S8x3312 .f32).view

/-- The run's pieces for the output tile its block: eight rows of 3312, one per decoder trip. -/
theorem cover18 (c : Dev nD) (arg0 : Memref sig .tc .vmem S8x3312x16 .bf16) (harg0 : arg0.IsWhole) (arg1 : Memref sig .tc .vmem S207x512 .bf16) (harg1 : arg1.IsWhole) (arg2 : Memref sig .tc .vmem S207x207 .bf16) (harg2 : arg2.IsWhole) (arg3 : Memref sig .tc .vmem S207x207 .bf16) (harg3 : arg3.IsWhole) (arg4 : Memref sig .tc .vmem S80x128 .bf16) (harg4 : arg4.IsWhole) (arg5 : Memref sig .tc .vmem S320x128 .bf16) (harg5 : arg5.IsWhole) (arg6 : Memref sig .tc .vmem S1x128 .f32) (harg6 : arg6.IsWhole) (arg7 : Memref sig .tc .vmem S80x64 .bf16) (harg7 : arg7.IsWhole) (arg8 : Memref sig .tc .vmem S320x64 .bf16) (harg8 : arg8.IsWhole) (arg9 : Memref sig .tc .vmem S1x64 .f32) (harg9 : arg9.IsWhole) (arg10 : Memref sig .tc .vmem S80x128 .bf16) (harg10 : arg10.IsWhole) (arg11 : Memref sig .tc .vmem S320x128 .bf16) (harg11 : arg11.IsWhole) (arg12 : Memref sig .tc .vmem S1x128 .f32) (harg12 : arg12.IsWhole) (arg13 : Memref sig .tc .vmem S80x64 .bf16) (harg13 : arg13.IsWhole) (arg14 : Memref sig .tc .vmem S320x64 .bf16) (harg14 : arg14.IsWhole) (arg15 : Memref sig .tc .vmem S1x64 .f32) (harg15 : arg15.IsWhole) (arg16 : Memref sig .tc .vmem S1x64 .f32) (harg16 : arg16.IsWhole) (arg17 : Memref sig .tc .vmem S1x1 .f32) (harg17 : arg17.IsWhole) (arg18 : Memref sig .tc .vmem S8x3312 .f32) (harg18 : arg18.IsWhole)
    (x0 : Vec F S8x3312x16 .bf16) (x1 : Vec F S207x512 .bf16) (x2 : Vec F S207x207 .bf16) (x3 : Vec F S207x207 .bf16) (x4 : Vec F S80x128 .bf16) (x5 : Vec F S320x128 .bf16) (x6 : Vec F S1x128 .f32) (x7 : Vec F S80x64 .bf16) (x8 : Vec F S320x64 .bf16) (x9 : Vec F S1x64 .f32) (x10 : Vec F S80x128 .bf16) (x11 : Vec F S320x128 .bf16) (x12 : Vec F S1x128 .f32) (x13 : Vec F S80x64 .bf16) (x14 : Vec F S320x64 .bf16) (x15 : Vec F S1x64 .f32) (x16 : Vec F S1x64 .f32) (x17 : Vec F S1x1 .f32) (y : S8x3312.Idx) :
    ∃ pc ∈ (kernelRun c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17).1, y ∈ pc.1.set :=
  View.cover_of_tiledL (kernelRun c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17).1 S1x3312.size (by sl_kernel_rfl) y

/-- What the run leaves in the output's staging buffer: its pieces read back over anything. -/
def out18At (c : Dev nD) (arg0 : Memref sig .tc .vmem S8x3312x16 .bf16) (harg0 : arg0.IsWhole) (arg1 : Memref sig .tc .vmem S207x512 .bf16) (harg1 : arg1.IsWhole) (arg2 : Memref sig .tc .vmem S207x207 .bf16) (harg2 : arg2.IsWhole) (arg3 : Memref sig .tc .vmem S207x207 .bf16) (harg3 : arg3.IsWhole) (arg4 : Memref sig .tc .vmem S80x128 .bf16) (harg4 : arg4.IsWhole) (arg5 : Memref sig .tc .vmem S320x128 .bf16) (harg5 : arg5.IsWhole) (arg6 : Memref sig .tc .vmem S1x128 .f32) (harg6 : arg6.IsWhole) (arg7 : Memref sig .tc .vmem S80x64 .bf16) (harg7 : arg7.IsWhole) (arg8 : Memref sig .tc .vmem S320x64 .bf16) (harg8 : arg8.IsWhole) (arg9 : Memref sig .tc .vmem S1x64 .f32) (harg9 : arg9.IsWhole) (arg10 : Memref sig .tc .vmem S80x128 .bf16) (harg10 : arg10.IsWhole) (arg11 : Memref sig .tc .vmem S320x128 .bf16) (harg11 : arg11.IsWhole) (arg12 : Memref sig .tc .vmem S1x128 .f32) (harg12 : arg12.IsWhole) (arg13 : Memref sig .tc .vmem S80x64 .bf16) (harg13 : arg13.IsWhole) (arg14 : Memref sig .tc .vmem S320x64 .bf16) (harg14 : arg14.IsWhole) (arg15 : Memref sig .tc .vmem S1x64 .f32) (harg15 : arg15.IsWhole) (arg16 : Memref sig .tc .vmem S1x64 .f32) (harg16 : arg16.IsWhole) (arg17 : Memref sig .tc .vmem S1x1 .f32) (harg17 : arg17.IsWhole) (arg18 : Memref sig .tc .vmem S8x3312 .f32) (harg18 : arg18.IsWhole)
    (x0 : Vec F S8x3312x16 .bf16) (x1 : Vec F S207x512 .bf16) (x2 : Vec F S207x207 .bf16) (x3 : Vec F S207x207 .bf16) (x4 : Vec F S80x128 .bf16) (x5 : Vec F S320x128 .bf16) (x6 : Vec F S1x128 .f32) (x7 : Vec F S80x64 .bf16) (x8 : Vec F S320x64 .bf16) (x9 : Vec F S1x64 .f32) (x10 : Vec F S80x128 .bf16) (x11 : Vec F S320x128 .bf16) (x12 : Vec F S1x128 .f32) (x13 : Vec F S80x64 .bf16) (x14 : Vec F S320x64 .bf16) (x15 : Vec F S1x64 .f32) (x16 : Vec F S1x64 .f32) (x17 : Vec F S1x1 .f32) : Vec F S8x3312 .f32 :=
  VO18.read (Elt F) (VO18.writes (Elt F) VO18.junk (kernelRun c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17).1)

/-- The same at the point's staging buffers and the input blocks the region finds. -/
def out18 (c : Dev nD) (t : Fin cfg0.N) : Vec F S8x3312 .f32 :=
  out18At c (ms0_0 t) (hstage0_0 0) (ms0_1 t) (hstage0_1 0) (ms0_2 t) (hstage0_2 0) (ms0_3 t) (hstage0_3 0) (ms0_4 t) (hstage0_4 0) (ms0_5 t) (hstage0_5 0) (ms0_6 t) (hstage0_6 0) (ms0_7 t) (hstage0_7 0) (ms0_8 t) (hstage0_8 0) (ms0_9 t) (hstage0_9 0) (ms0_10 t) (hstage0_10 0) (ms0_11 t) (hstage0_11 0) (ms0_12 t) (hstage0_12 0) (ms0_13 t) (hstage0_13 0) (ms0_14 t) (hstage0_14 0) (ms0_15 t) (hstage0_15 0) (ms0_16 t) (hstage0_16 0) (ms0_17 t) (hstage0_17 0) (ms0_18 t) (hstage0_18 0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-! ## The proof data -/

/-- The arrays as the region finds them; after the body each input's buffer at its block and the output's at the
    body's rows; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out18 m c t
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out18 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation -/

/-- What the body is called with at the point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 4000000 in
/-- The body at the point: the inputs' buffers hold their blocks, so the run applies; the invariant passes through
    unread; the output's buffer ends with the run's pieces, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  unfold out18
  unfold out18At
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun c _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  iintro ⟨H0, H1, H2, H3, H4, H5, H6, H7, H8, H9, H10, H11, H12, H13, H14, H15, H16, H17, ⟨%e18, H18⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  unfold owns; iexists _; isplitr
  swap; · iexact H18
  ipureintro; exact View.read_writes_of_cover _ _ _ _ _ (cover18 c _ _ _ _ _ _ _ _ _ _ _ _ _ _ _ _ _ _ _ _ _ _ _ _ _ _ _ _ _ _ _ _ _ _ _ _ _ _ _ _ _ _ _ _ _ _ _ _ _ _ _ _ _ _ _ _)

/-- The library's body obligation, at the point. -/
theorem body_obligation (c : Dev nD) : BodyObligation (dats (F := F) m 0 c) (defs₀ (F := F)) Variants.none () Set.univ := fun t => by
  rw [bigSep_W0, bigSep_W0]
  exact sound_body m c t

/-! ## The run -/

-- the launch theorem's implicit arguments are found by unifying its conclusion with this one, which takes unfolding
-- plain definitions in a metavariable's type
set_option backward.isDefEq.respectTransparency.types false in
/-- From any memory with zero counters every weakly fair execution of @main terminates, and every final state has
    every staged array at what the proof data give and every other unscoped buffer as the reshape after the region
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The result named -/

/-- The region's output array when @main ends: its contents at entry overwritten by the one write-back. -/
def outArr (c : Dev nD) : Buf (Elt F) ((cfg0.win 18).arr.view.loc (c.tc : Thread nD τ)) := (dats m 0 c).arrAt 18 cfg0.N

/-- It reads back, whole, as the body's rows. -/
theorem outArr_read (c : Dev nD) : ((cfg0.win 18).blk t0_0).view.read (Elt F) (outArr m c) = out18 m c t0_0 :=
  ((dats m 0 c).read_blk_arrAt_eq_flushed 18 (fun t t' _ _ h => absurd ((fin_N0 t).trans (fin_N0 t').symm) h) cfg0.N t0_0 t0_0.isLt
    (flush0_18 t0_0)).trans (after0_18 m c t0_0)

/-- After the reshape that follows the region the result buffer holds the output array recast to (8, 16, 207). -/
theorem W_main_v128 (c : Dev nD) :
    Pipeline.afterTail₀ cfgs (dats m) 0 (V0 m) [hostOps1] c main_v128
      = fun i => shapeCast S8x16x207 (outArr m c) shapeCasts_S8x3312_S8x16x207 i := by
  unfold Pipeline.afterTail₀
  simp only [hostOps1, List.flatten_cons, List.flatten_nil, List.append_nil, StableHlo.after_cons, StableHlo.after_nil]
  rw [StableHlo.reshape_result']
  have h : Pipeline.withArrays (cfgs 0).spec c (V0 m c) (fun w => (dats m 0 c).arrAt w (cfgs 0).N) (Proc.devRef .tc main_v127) = outArr m c :=
    Pipeline.withArrays_arr spec0 launch0.win.arr_inj c (V0 m c) _ 18
  rw [h]
  rfl

/-- Nothing after the region writes argument 0: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Nothing after the region writes argument 1: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Nothing after the region writes argument 2: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Nothing after the region writes argument 3: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- Nothing after the region writes argument 4: it ends as launched. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- Nothing after the region writes argument 5: it ends as launched. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- Nothing after the region writes argument 6: it ends as launched. -/
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- Nothing after the region writes argument 7: it ends as launched. -/
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- Nothing after the region writes argument 8: it ends as launched. -/
theorem W_main_arg8 (c : Dev nD) :
    Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- Nothing after the region writes argument 9: it ends as launched. -/
theorem W_main_arg9 (c : Dev nD) :
    Pipeline.afterTail₀ cfgs (dats m) 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- Nothing after the region writes argument 10: it ends as launched. -/
theorem W_main_arg10 (c : Dev nD) :
    Pipeline.afterTail₀ cfgs (dats m) 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- Nothing after the region writes argument 11: it ends as launched. -/
theorem W_main_arg11 (c : Dev nD) :
    Pipeline.afterTail₀ cfgs (dats m) 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- Nothing after the region writes argument 12: it ends as launched. -/
theorem W_main_arg12 (c : Dev nD) :
    Pipeline.afterTail₀ cfgs (dats m) 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- THE RUN WITH THE RESULT NAMED: from any memory with zero counters @main terminates without fault; the result
    holds the region's output array recast to (8, 16, 207) and every argument array is unchanged. -/
theorem run_named : θ_run defs (onTc (τ := τ) (main (F := F))) ⟨m, fun _ => 0, ρ⟩ (fun r => ∀ c : Dev nD,
      r.2.mem ((c.tc : Thread nD τ).loc main_v128) = (fun i => shapeCast S8x16x207 (outArr m c) shapeCasts_S8x3312_S8x16x207 i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v128 (Pipeline.mem_restRefs_of main_v128 (by decide) (by decide))).trans (W_main_v128 m c),
      ((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c),
      ((h c).2 main_arg4 (Pipeline.mem_restRefs_of main_arg4 (by decide) (by decide))).trans (W_main_arg4 m c),
      ((h c).2 main_arg5 (Pipeline.mem_restRefs_of main_arg5 (by decide) (by decide))).trans (W_main_arg5 m c),
      ((h c).2 main_arg6 (Pipeline.mem_restRefs_of main_arg6 (by decide) (by decide))).trans (W_main_arg6 m c),
      ((h c).2 main_arg7 (Pipeline.mem_restRefs_of main_arg7 (by decide) (by decide))).trans (W_main_arg7 m c),
      ((h c).2 main_arg8 (Pipeline.mem_restRefs_of main_arg8 (by decide) (by decide))).trans (W_main_arg8 m c),
      ((h c).2 main_arg9 (Pipeline.mem_restRefs_of main_arg9 (by decide) (by decide))).trans (W_main_arg9 m c),
      ((h c).2 main_arg10 (Pipeline.mem_restRefs_of main_arg10 (by decide) (by decide))).trans (W_main_arg10 m c),
      ((h c).2 main_arg11 (Pipeline.mem_restRefs_of main_arg11 (by decide) (by decide))).trans (W_main_arg11 m c),
      ((h c).2 main_arg12 (Pipeline.mem_restRefs_of main_arg12 (by decide) (by decide))).trans (W_main_arg12 m c)⟩) (run_main m ρ)

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_named m ρ)

end Cert.Kernel.Hand

end
-- ==== Proof.KFrameNames.lean ====
/- The frame run's names read at an index.
   Every window of the region stages its whole array, so a window's block at the point is the array itself, the
   output array at the end is the body's rows, and the body's loads of whole staging buffers read back the blocks
   they hold: the three readings a value argument starts from. -/
import proofs.«113864_g48979807044058_cont_8to1_c_230_28_alg».proof.Proof.KFrameRun
import Idealize.ShloMosaic.Lib.WholeRead

-- membership of an index in a rectangle of the arrays' extents is looked at structurally, once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of a whole buffer, the buffer held at the contents that read `x`, reads `x`. -/
theorem whole_load {S : Shape} {e : EltTy} (arg : Memref sig .tc .vmem S e) (harg : arg.IsWhole) (x : Vec F S e)
    (off : Fin S.rank → ℕ) (hoff : ∀ a, off a = 0) (inb : ∀ a, off a + S.size a ≤ S.size a) :
    View.readAt (Elt F) arg.view (Rect.unit off S.size inb).toLoadRect (harg.unread x) = x := by
  funext y
  rw [Memref.IsWhole.readAt_unread]
  congr 1
  funext a
  apply Fin.ext
  rw [LoadRect.idx_apply]
  show off a + 1 * (y a : ℕ) = y a
  rw [hoff a]; omega

theorem off00 : ∀ a : Fin 2, (![0, 0] : Fin 2 → ℕ) a = 0 := by decide

/-- THE BODY'S PIECES: the decoder loop's state after its eight trips, from the encoder loop's final hidden state,
    every operand the staged block itself. -/
theorem kernelRun_pieces (c : Dev nD) (arg0 : Memref sig .tc .vmem S8x3312x16 .bf16) (harg0 : arg0.IsWhole) (arg1 : Memref sig .tc .vmem S207x512 .bf16) (harg1 : arg1.IsWhole) (arg2 : Memref sig .tc .vmem S207x207 .bf16) (harg2 : arg2.IsWhole) (arg3 : Memref sig .tc .vmem S207x207 .bf16) (harg3 : arg3.IsWhole) (arg4 : Memref sig .tc .vmem S80x128 .bf16) (harg4 : arg4.IsWhole) (arg5 : Memref sig .tc .vmem S320x128 .bf16) (harg5 : arg5.IsWhole) (arg6 : Memref sig .tc .vmem S1x128 .f32) (harg6 : arg6.IsWhole) (arg7 : Memref sig .tc .vmem S80x64 .bf16) (harg7 : arg7.IsWhole) (arg8 : Memref sig .tc .vmem S320x64 .bf16) (harg8 : arg8.IsWhole) (arg9 : Memref sig .tc .vmem S1x64 .f32) (harg9 : arg9.IsWhole) (arg10 : Memref sig .tc .vmem S80x128 .bf16) (harg10 : arg10.IsWhole) (arg11 : Memref sig .tc .vmem S320x128 .bf16) (harg11 : arg11.IsWhole) (arg12 : Memref sig .tc .vmem S1x128 .f32) (harg12 : arg12.IsWhole) (arg13 : Memref sig .tc .vmem S80x64 .bf16) (harg13 : arg13.IsWhole) (arg14 : Memref sig .tc .vmem S320x64 .bf16) (harg14 : arg14.IsWhole) (arg15 : Memref sig .tc .vmem S1x64 .f32) (harg15 : arg15.IsWhole) (arg16 : Memref sig .tc .vmem S1x64 .f32) (harg16 : arg16.IsWhole) (arg17 : Memref sig .tc .vmem S1x1 .f32) (harg17 : arg17.IsWhole) (arg18 : Memref sig .tc .vmem S8x3312 .f32) (harg18 : arg18.IsWhole)
    (x0 : Vec F S8x3312x16 .bf16) (x1 : Vec F S207x512 .bf16) (x2 : Vec F S207x207 .bf16) (x3 : Vec F S207x207 .bf16) (x4 : Vec F S80x128 .bf16) (x5 : Vec F S320x128 .bf16) (x6 : Vec F S1x128 .f32) (x7 : Vec F S80x64 .bf16) (x8 : Vec F S320x64 .bf16) (x9 : Vec F S1x64 .f32) (x10 : Vec F S80x128 .bf16) (x11 : Vec F S320x128 .bf16) (x12 : Vec F S1x128 .f32) (x13 : Vec F S80x64 .bf16) (x14 : Vec F S320x64 .bf16) (x15 : Vec F S1x64 .f32) (x16 : Vec F S1x64 .f32) (x17 : Vec F S1x1 .f32) :
    (kernelRun c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17).1
      = (st_k0_t2 Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
          (k0_pay155 x1) (k0_pay156 x2) (k0_pay157 x3) (k0_pay165 x10) (k0_pay166 x11) (k0_pay167 x12) (k0_pay168 x13)
          (shapeCast S320x64 x14 shapeCasts_S320x64_S320x64) x15 x16 x17
          (st_k0_t1 Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
            x1 x2 x3 x4 x5 x6 x7 (shapeCast S320x64 x8 shapeCasts_S320x64_S320x64) x9 (harg0.unread x0) k0_pay162
            (Scf.trips k0_t1_loop.lb k0_t1_loop.ub k0_t1_loop.st))
          (Scf.trips (0#32) (Scalar.addi 0#32 8#32) 1#32)).2 := by
  unfold kernelRun
  dsimp only
  sl_unfold_run_names
  rw [whole_load arg1 harg1 x1 ![0, 0] off00]
  rw [whole_load arg2 harg2 x2 ![0, 0] off00]
  rw [whole_load arg3 harg3 x3 ![0, 0] off00]
  rw [whole_load arg4 harg4 x4 ![0, 0] off00]
  rw [whole_load arg5 harg5 x5 ![0, 0] off00]
  rw [whole_load arg6 harg6 x6 ![0, 0] off00]
  rw [whole_load arg7 harg7 x7 ![0, 0] off00]
  rw [whole_load arg8 harg8 x8 ![0, 0] off00]
  rw [whole_load arg9 harg9 x9 ![0, 0] off00]
  rw [whole_load arg10 harg10 x10 ![0, 0] off00]
  rw [whole_load arg11 harg11 x11 ![0, 0] off00]
  rw [whole_load arg12 harg12 x12 ![0, 0] off00]
  rw [whole_load arg13 harg13 x13 ![0, 0] off00]
  rw [whole_load arg14 harg14 x14 ![0, 0] off00]
  rw [whole_load arg15 harg15 x15 ![0, 0] off00]
  rw [whole_load arg16 harg16 x16 ![0, 0] off00]
  rw [whole_load arg17 harg17 x17 ![0, 0] off00]

/-- The output array at the end is the body's rows, element by element. -/
theorem outArr_apply (c : Dev nD) (y : S8x3312.Idx) : outArr m c y = out18 m c t0_0 y := by
  have h := congrFun (outArr_read m c) y
  rw [View.read_apply] at h
  have he : ((cfg0.win 18).blk t0_0).view.emb y = (y : S8x3312.Idx) := by
    funext a
    apply Fin.ext
    exact Pipeline.Window.rect_emb_val_of_index_zero win0_18 t0_0 a rfl y
  rw [he] at h
  exact h

/-- Window 0's block is its array as the region finds it, element by element. -/
theorem iblk_apply_0 (c : Dev nD) (y : S8x3312x16.Idx) : iblk m c 0 t0_0 y = V m c main_v2 y := by
  unfold iblk
  rw [View.read_apply]
  have he : ((cfg0.win 0).blk t0_0).view.emb y = (y : S8x3312x16.Idx) := by
    funext a
    apply Fin.ext
    exact Pipeline.Window.rect_emb_val_of_index_zero win0_0 t0_0 a rfl y
  rw [he]
  rfl

/-- Window 1's block is its array as the region finds it, element by element. -/
theorem iblk_apply_1 (c : Dev nD) (y : S207x512.Idx) : iblk m c 1 t0_0 y = V m c main_v120 y := by
  unfold iblk
  rw [View.read_apply]
  have he : ((cfg0.win 1).blk t0_0).view.emb y = (y : S207x512.Idx) := by
    funext a
    apply Fin.ext
    exact Pipeline.Window.rect_emb_val_of_index_zero win0_1 t0_0 a rfl y
  rw [he]
  rfl

/-- Window 2's block is its array as the region finds it, element by element. -/
theorem iblk_apply_2 (c : Dev nD) (y : S207x207.Idx) : iblk m c 2 t0_0 y = V m c main_v116 y := by
  unfold iblk
  rw [View.read_apply]
  have he : ((cfg0.win 2).blk t0_0).view.emb y = (y : S207x207.Idx) := by
    funext a
    apply Fin.ext
    exact Pipeline.Window.rect_emb_val_of_index_zero win0_2 t0_0 a rfl y
  rw [he]
  rfl

/-- Window 3's block is its array as the region finds it, element by element. -/
theorem iblk_apply_3 (c : Dev nD) (y : S207x207.Idx) : iblk m c 3 t0_0 y = V m c main_v118 y := by
  unfold iblk
  rw [View.read_apply]
  have he : ((cfg0.win 3).blk t0_0).view.emb y = (y : S207x207.Idx) := by
    funext a
    apply Fin.ext
    exact Pipeline.Window.rect_emb_val_of_index_zero win0_3 t0_0 a rfl y
  rw [he]
  rfl

/-- Window 4's block is its array as the region finds it, element by element. -/
theorem iblk_apply_4 (c : Dev nD) (y : S80x128.Idx) : iblk m c 4 t0_0 y = V m c main_v29 y := by
  unfold iblk
  rw [View.read_apply]
  have he : ((cfg0.win 4).blk t0_0).view.emb y = (y : S80x128.Idx) := by
    funext a
    apply Fin.ext
    exact Pipeline.Window.rect_emb_val_of_index_zero win0_4 t0_0 a rfl y
  rw [he]
  rfl

/-- Window 5's block is its array as the region finds it, element by element. -/
theorem iblk_apply_5 (c : Dev nD) (y : S320x128.Idx) : iblk m c 5 t0_0 y = V m c main_v30 y := by
  unfold iblk
  rw [View.read_apply]
  have he : ((cfg0.win 5).blk t0_0).view.emb y = (y : S320x128.Idx) := by
    funext a
    apply Fin.ext
    exact Pipeline.Window.rect_emb_val_of_index_zero win0_5 t0_0 a rfl y
  rw [he]
  rfl

/-- Window 6's block is its array as the region finds it, element by element. -/
theorem iblk_apply_6 (c : Dev nD) (y : S1x128.Idx) : iblk m c 6 t0_0 y = V m c main_v121 y := by
  unfold iblk
  rw [View.read_apply]
  have he : ((cfg0.win 6).blk t0_0).view.emb y = (y : S1x128.Idx) := by
    funext a
    apply Fin.ext
    exact Pipeline.Window.rect_emb_val_of_index_zero win0_6 t0_0 a rfl y
  rw [he]
  rfl

/-- Window 7's block is its array as the region finds it, element by element. -/
theorem iblk_apply_7 (c : Dev nD) (y : S80x64.Idx) : iblk m c 7 t0_0 y = V m c main_v57 y := by
  unfold iblk
  rw [View.read_apply]
  have he : ((cfg0.win 7).blk t0_0).view.emb y = (y : S80x64.Idx) := by
    funext a
    apply Fin.ext
    exact Pipeline.Window.rect_emb_val_of_index_zero win0_7 t0_0 a rfl y
  rw [he]
  rfl

/-- Window 8's block is its array as the region finds it, element by element. -/
theorem iblk_apply_8 (c : Dev nD) (y : S320x64.Idx) : iblk m c 8 t0_0 y = V m c main_v58 y := by
  unfold iblk
  rw [View.read_apply]
  have he : ((cfg0.win 8).blk t0_0).view.emb y = (y : S320x64.Idx) := by
    funext a
    apply Fin.ext
    exact Pipeline.Window.rect_emb_val_of_index_zero win0_8 t0_0 a rfl y
  rw [he]
  rfl

/-- Window 9's block is its array as the region finds it, element by element. -/
theorem iblk_apply_9 (c : Dev nD) (y : S1x64.Idx) : iblk m c 9 t0_0 y = V m c main_v122 y := by
  unfold iblk
  rw [View.read_apply]
  have he : ((cfg0.win 9).blk t0_0).view.emb y = (y : S1x64.Idx) := by
    funext a
    apply Fin.ext
    exact Pipeline.Window.rect_emb_val_of_index_zero win0_9 t0_0 a rfl y
  rw [he]
  rfl

/-- Window 10's block is its array as the region finds it, element by element. -/
theorem iblk_apply_10 (c : Dev nD) (y : S80x128.Idx) : iblk m c 10 t0_0 y = V m c main_v85 y := by
  unfold iblk
  rw [View.read_apply]
  have he : ((cfg0.win 10).blk t0_0).view.emb y = (y : S80x128.Idx) := by
    funext a
    apply Fin.ext
    exact Pipeline.Window.rect_emb_val_of_index_zero win0_10 t0_0 a rfl y
  rw [he]
  rfl

/-- Window 11's block is its array as the region finds it, element by element. -/
theorem iblk_apply_11 (c : Dev nD) (y : S320x128.Idx) : iblk m c 11 t0_0 y = V m c main_v86 y := by
  unfold iblk
  rw [View.read_apply]
  have he : ((cfg0.win 11).blk t0_0).view.emb y = (y : S320x128.Idx) := by
    funext a
    apply Fin.ext
    exact Pipeline.Window.rect_emb_val_of_index_zero win0_11 t0_0 a rfl y
  rw [he]
  rfl

/-- Window 12's block is its array as the region finds it, element by element. -/
theorem iblk_apply_12 (c : Dev nD) (y : S1x128.Idx) : iblk m c 12 t0_0 y = V m c main_v123 y := by
  unfold iblk
  rw [View.read_apply]
  have he : ((cfg0.win 12).blk t0_0).view.emb y = (y : S1x128.Idx) := by
    funext a
    apply Fin.ext
    exact Pipeline.Window.rect_emb_val_of_index_zero win0_12 t0_0 a rfl y
  rw [he]
  rfl

/-- Window 13's block is its array as the region finds it, element by element. -/
theorem iblk_apply_13 (c : Dev nD) (y : S80x64.Idx) : iblk m c 13 t0_0 y = V m c main_v113 y := by
  unfold iblk
  rw [View.read_apply]
  have he : ((cfg0.win 13).blk t0_0).view.emb y = (y : S80x64.Idx) := by
    funext a
    apply Fin.ext
    exact Pipeline.Window.rect_emb_val_of_index_zero win0_13 t0_0 a rfl y
  rw [he]
  rfl

/-- Window 14's block is its array as the region finds it, element by element. -/
theorem iblk_apply_14 (c : Dev nD) (y : S320x64.Idx) : iblk m c 14 t0_0 y = V m c main_v114 y := by
  unfold iblk
  rw [View.read_apply]
  have he : ((cfg0.win 14).blk t0_0).view.emb y = (y : S320x64.Idx) := by
    funext a
    apply Fin.ext
    exact Pipeline.Window.rect_emb_val_of_index_zero win0_14 t0_0 a rfl y
  rw [he]
  rfl

/-- Window 15's block is its array as the region finds it, element by element. -/
theorem iblk_apply_15 (c : Dev nD) (y : S1x64.Idx) : iblk m c 15 t0_0 y = V m c main_v124 y := by
  unfold iblk
  rw [View.read_apply]
  have he : ((cfg0.win 15).blk t0_0).view.emb y = (y : S1x64.Idx) := by
    funext a
    apply Fin.ext
    exact Pipeline.Window.rect_emb_val_of_index_zero win0_15 t0_0 a rfl y
  rw [he]
  rfl

/-- Window 16's block is its array as the region finds it, element by element. -/
theorem iblk_apply_16 (c : Dev nD) (y : S1x64.Idx) : iblk m c 16 t0_0 y = V m c main_v125 y := by
  unfold iblk
  rw [View.read_apply]
  have he : ((cfg0.win 16).blk t0_0).view.emb y = (y : S1x64.Idx) := by
    funext a
    apply Fin.ext
    exact Pipeline.Window.rect_emb_val_of_index_zero win0_16 t0_0 a rfl y
  rw [he]
  rfl

/-- Window 17's block is its array as the region finds it, element by element. -/
theorem iblk_apply_17 (c : Dev nD) (y : S1x1.Idx) : iblk m c 17 t0_0 y = V m c main_v126 y := by
  unfold iblk
  rw [View.read_apply]
  have he : ((cfg0.win 17).blk t0_0).view.emb y = (y : S1x1.Idx) := by
    funext a
    apply Fin.ext
    exact Pipeline.Window.rect_emb_val_of_index_zero win0_17 t0_0 a rfl y
  rw [he]
  rfl

end Cert.KernelIdeal.Hand

end
-- ==== Proof.KGconvOps.lean ====
/-
  The kernel's graph convolution and recurrent step as sequences of vector operations over variable operands:
  the same operations, in the same order, as the loop bodies apply to their loaded values, written once so that
  both loops' trips are instances of them.
-/
import proofs.«113864_g48979807044058_cont_8to1_c_230_28_alg».proof.Proof.Gen.KernelIdeal

noncomputable section

namespace Cert.KernelIdeal.Val

open Idealize.ShloMosaic Cert.KernelIdeal Cert.KernelIdeal.Gen

/-! ## The graph convolution as a sequence of vector operations

Rows of a 3312-row matrix are (batch entry, node) pairs, row `b * 207 + n`; rows of the 1280-row matrices are
(batch entry, feature) pairs, row `b * 80 + f`.  Per batch entry the first diffusion step is the product of the
transposed feature block with the staged supports `[S₀ᵀ | 0 | S₁ᵀ | 0]`; the second step multiplies on by `Sᵀ`;
the gate product contracts the four stacked diffusion blocks of one batch entry with the re-blocked weight. -/

section Ops
variable {F : FTy → Type} [FloatOps F]

/-- First diffusion step of one batch entry, both supports at once: `Xᵀ · [S₀ᵀ | 0 | S₁ᵀ | 0]`. -/
def z1blk (ss : FVec F S207x512 .bf16) (cat3 : FVec F S16x207x80 .bf16) (off : Fin 3 → ℕ)
    (hs : S16x207x80.Slices off S1x207x80) : FVec F S80x512 .bf16 :=
  truncf .bf16 (matmul dot_S207x80_S207x512_S80x512_0_0_1_1_n_n none
    (shapeCast S207x80 (extractStridedSlice S1x207x80 off cat3 hs) shapeCasts_S1x207x80_S207x80) ss
    (constant S80x512 .f32 0x00000000#32)) bitsLt_bf16_f32

/-- The sixteen batch entries' first steps stacked: row `b * 80 + f`. -/
def bigV (ss : FVec F S207x512 .bf16) (cat3 : FVec F S16x207x80 .bf16) : FVec F S1280x512 .bf16 :=
  concatenate S1280x512 0 [⟨S80x512, z1blk ss cat3 ![0, 0, 0] slices_S16x207x80_o0_0_0_S1x207x80⟩, ⟨S80x512, z1blk ss cat3 ![1, 0, 0] slices_S16x207x80_o1_0_0_S1x207x80⟩, ⟨S80x512, z1blk ss cat3 ![2, 0, 0] slices_S16x207x80_o2_0_0_S1x207x80⟩, ⟨S80x512, z1blk ss cat3 ![3, 0, 0] slices_S16x207x80_o3_0_0_S1x207x80⟩, ⟨S80x512, z1blk ss cat3 ![4, 0, 0] slices_S16x207x80_o4_0_0_S1x207x80⟩, ⟨S80x512, z1blk ss cat3 ![5, 0, 0] slices_S16x207x80_o5_0_0_S1x207x80⟩, ⟨S80x512, z1blk ss cat3 ![6, 0, 0] slices_S16x207x80_o6_0_0_S1x207x80⟩, ⟨S80x512, z1blk ss cat3 ![7, 0, 0] slices_S16x207x80_o7_0_0_S1x207x80⟩, ⟨S80x512, z1blk ss cat3 ![8, 0, 0] slices_S16x207x80_o8_0_0_S1x207x80⟩, ⟨S80x512, z1blk ss cat3 ![9, 0, 0] slices_S16x207x80_o9_0_0_S1x207x80⟩, ⟨S80x512, z1blk ss cat3 ![10, 0, 0] slices_S16x207x80_o10_0_0_S1x207x80⟩, ⟨S80x512, z1blk ss cat3 ![11, 0, 0] slices_S16x207x80_o11_0_0_S1x207x80⟩, ⟨S80x512, z1blk ss cat3 ![12, 0, 0] slices_S16x207x80_o12_0_0_S1x207x80⟩, ⟨S80x512, z1blk ss cat3 ![13, 0, 0] slices_S16x207x80_o13_0_0_S1x207x80⟩, ⟨S80x512, z1blk ss cat3 ![14, 0, 0] slices_S16x207x80_o14_0_0_S1x207x80⟩, ⟨S80x512, z1blk ss cat3 ![15, 0, 0] slices_S16x207x80_o15_0_0_S1x207x80⟩] concatenates_S80x512_S80x512_S80x512_S80x512_S80x512_S80x512_S80x512_S80x512_S80x512_S80x512_S80x512_S80x512_S80x512_S80x512_S80x512_S80x512_S1280x512_d0

/-- Second diffusion step: one more product with `Sᵀ`. -/
def z2V (z1 : FVec F S1280x207 .bf16) (st : FVec F S207x207 .bf16) : FVec F S1280x207 .bf16 :=
  truncf .bf16 (matmul dot_S1280x207_S207x207_S1280x207_1_0_0_1_n_n none z1 st
    (constant S1280x207 .f32 0x00000000#32)) bitsLt_bf16_f32

/-- The four diffusion blocks of one batch entry (80 rows from row `off 0` of each), stacked. -/
def zcatV (z1a z2a z1b z2b : FVec F S1280x207 .bf16) (off : Fin 2 → ℕ) (hs : S1280x207.Slices off S80x207) :
    FVec F S320x207 .bf16 :=
  concatenate S320x207 0 [⟨S80x207, extractStridedSlice S80x207 off z1a hs⟩, ⟨S80x207, extractStridedSlice S80x207 off z2a hs⟩, ⟨S80x207, extractStridedSlice S80x207 off z1b hs⟩, ⟨S80x207, extractStridedSlice S80x207 off z2b hs⟩] concatenates_S80x207_S80x207_S80x207_S80x207_S320x207_d0

/-- One batch entry's gate product `zcatᵀ · w4`, 128 outputs. -/
def gate128 (w4 : FVec F S320x128 .bf16) (zc : FVec F S320x207 .bf16) : FVec F S207x128 .f32 :=
  matmul dot_S320x207_S320x128_S207x128_0_0_1_1_n_n none zc w4 (constant S207x128 .f32 0x00000000#32)

/-- One batch entry's gate product, 64 outputs. -/
def gate64 (w4 : FVec F S320x64 .bf16) (zc : FVec F S320x207 .bf16) : FVec F S207x64 .f32 :=
  matmul dot_S320x207_S320x64_S207x64_0_0_1_1_n_n none zc w4 (constant S207x64 .f32 0x00000000#32)

/-- The sixteen gate products stacked back into (batch entry, node) rows, 128 outputs. -/
def gatesV128 (z1a z2a z1b z2b : FVec F S1280x207 .bf16) (w4 : FVec F S320x128 .bf16) : FVec F S3312x128 .f32 :=
  concatenate S3312x128 0 [⟨S207x128, gate128 w4 (zcatV z1a z2a z1b z2b ![0, 0] slices_S1280x207_o0_0_S80x207)⟩, ⟨S207x128, gate128 w4 (zcatV z1a z2a z1b z2b ![80, 0] slices_S1280x207_o80_0_S80x207)⟩, ⟨S207x128, gate128 w4 (zcatV z1a z2a z1b z2b ![160, 0] slices_S1280x207_o160_0_S80x207)⟩, ⟨S207x128, gate128 w4 (zcatV z1a z2a z1b z2b ![240, 0] slices_S1280x207_o240_0_S80x207)⟩, ⟨S207x128, gate128 w4 (zcatV z1a z2a z1b z2b ![320, 0] slices_S1280x207_o320_0_S80x207)⟩, ⟨S207x128, gate128 w4 (zcatV z1a z2a z1b z2b ![400, 0] slices_S1280x207_o400_0_S80x207)⟩, ⟨S207x128, gate128 w4 (zcatV z1a z2a z1b z2b ![480, 0] slices_S1280x207_o480_0_S80x207)⟩, ⟨S207x128, gate128 w4 (zcatV z1a z2a z1b z2b ![560, 0] slices_S1280x207_o560_0_S80x207)⟩, ⟨S207x128, gate128 w4 (zcatV z1a z2a z1b z2b ![640, 0] slices_S1280x207_o640_0_S80x207)⟩, ⟨S207x128, gate128 w4 (zcatV z1a z2a z1b z2b ![720, 0] slices_S1280x207_o720_0_S80x207)⟩, ⟨S207x128, gate128 w4 (zcatV z1a z2a z1b z2b ![800, 0] slices_S1280x207_o800_0_S80x207)⟩, ⟨S207x128, gate128 w4 (zcatV z1a z2a z1b z2b ![880, 0] slices_S1280x207_o880_0_S80x207)⟩, ⟨S207x128, gate128 w4 (zcatV z1a z2a z1b z2b ![960, 0] slices_S1280x207_o960_0_S80x207)⟩, ⟨S207x128, gate128 w4 (zcatV z1a z2a z1b z2b ![1040, 0] slices_S1280x207_o1040_0_S80x207)⟩, ⟨S207x128, gate128 w4 (zcatV z1a z2a z1b z2b ![1120, 0] slices_S1280x207_o1120_0_S80x207)⟩, ⟨S207x128, gate128 w4 (zcatV z1a z2a z1b z2b ![1200, 0] slices_S1280x207_o1200_0_S80x207)⟩] concatenates_S207x128_S207x128_S207x128_S207x128_S207x128_S207x128_S207x128_S207x128_S207x128_S207x128_S207x128_S207x128_S207x128_S207x128_S207x128_S207x128_S3312x128_d0

/-- The sixteen gate products stacked, 64 outputs. -/
def gatesV64 (z1a z2a z1b z2b : FVec F S1280x207 .bf16) (w4 : FVec F S320x64 .bf16) : FVec F S3312x64 .f32 :=
  concatenate S3312x64 0 [⟨S207x64, gate64 w4 (zcatV z1a z2a z1b z2b ![0, 0] slices_S1280x207_o0_0_S80x207)⟩, ⟨S207x64, gate64 w4 (zcatV z1a z2a z1b z2b ![80, 0] slices_S1280x207_o80_0_S80x207)⟩, ⟨S207x64, gate64 w4 (zcatV z1a z2a z1b z2b ![160, 0] slices_S1280x207_o160_0_S80x207)⟩, ⟨S207x64, gate64 w4 (zcatV z1a z2a z1b z2b ![240, 0] slices_S1280x207_o240_0_S80x207)⟩, ⟨S207x64, gate64 w4 (zcatV z1a z2a z1b z2b ![320, 0] slices_S1280x207_o320_0_S80x207)⟩, ⟨S207x64, gate64 w4 (zcatV z1a z2a z1b z2b ![400, 0] slices_S1280x207_o400_0_S80x207)⟩, ⟨S207x64, gate64 w4 (zcatV z1a z2a z1b z2b ![480, 0] slices_S1280x207_o480_0_S80x207)⟩, ⟨S207x64, gate64 w4 (zcatV z1a z2a z1b z2b ![560, 0] slices_S1280x207_o560_0_S80x207)⟩, ⟨S207x64, gate64 w4 (zcatV z1a z2a z1b z2b ![640, 0] slices_S1280x207_o640_0_S80x207)⟩, ⟨S207x64, gate64 w4 (zcatV z1a z2a z1b z2b ![720, 0] slices_S1280x207_o720_0_S80x207)⟩, ⟨S207x64, gate64 w4 (zcatV z1a z2a z1b z2b ![800, 0] slices_S1280x207_o800_0_S80x207)⟩, ⟨S207x64, gate64 w4 (zcatV z1a z2a z1b z2b ![880, 0] slices_S1280x207_o880_0_S80x207)⟩, ⟨S207x64, gate64 w4 (zcatV z1a z2a z1b z2b ![960, 0] slices_S1280x207_o960_0_S80x207)⟩, ⟨S207x64, gate64 w4 (zcatV z1a z2a z1b z2b ![1040, 0] slices_S1280x207_o1040_0_S80x207)⟩, ⟨S207x64, gate64 w4 (zcatV z1a z2a z1b z2b ![1120, 0] slices_S1280x207_o1120_0_S80x207)⟩, ⟨S207x64, gate64 w4 (zcatV z1a z2a z1b z2b ![1200, 0] slices_S1280x207_o1200_0_S80x207)⟩] concatenates_S207x64_S207x64_S207x64_S207x64_S207x64_S207x64_S207x64_S207x64_S207x64_S207x64_S207x64_S207x64_S207x64_S207x64_S207x64_S207x64_S3312x64_d0

/-- The graph convolution, 128 outputs: identity term, diffusion terms, bias. -/
def gconvV128 (ss : FVec F S207x512 .bf16) (s0t s1t : FVec F S207x207 .bf16) (cat : FVec F S3312x80 .bf16)
    (w0 : FVec F S80x128 .bf16) (w4 : FVec F S320x128 .bf16) (b : FVec F S1x128 .f32) : FVec F S3312x128 .f32 :=
  addf (addf (matmul dot_S3312x80_S80x128_S3312x128_1_0_0_1_n_n none cat w0 (constant S3312x128 .f32 0x00000000#32))
      (gatesV128
        (extractStridedSlice S1280x207 ![0, 0] (bigV ss (shapeCast S16x207x80 cat shapeCasts_S3312x80_S16x207x80)) slices_S1280x512_o0_0_S1280x207)
        (z2V (extractStridedSlice S1280x207 ![0, 0] (bigV ss (shapeCast S16x207x80 cat shapeCasts_S3312x80_S16x207x80)) slices_S1280x512_o0_0_S1280x207) s0t)
        (extractStridedSlice S1280x207 ![0, 256] (bigV ss (shapeCast S16x207x80 cat shapeCasts_S3312x80_S16x207x80)) slices_S1280x512_o0_256_S1280x207)
        (z2V (extractStridedSlice S1280x207 ![0, 256] (bigV ss (shapeCast S16x207x80 cat shapeCasts_S3312x80_S16x207x80)) slices_S1280x512_o0_256_S1280x207) s1t)
        w4))
    (broadcastTo S3312x128 b broadcasts_S1x128_S3312x128)

/-- The graph convolution, 64 outputs. -/
def gconvV64 (ss : FVec F S207x512 .bf16) (s0t s1t : FVec F S207x207 .bf16) (cat : FVec F S3312x80 .bf16)
    (w0 : FVec F S80x64 .bf16) (w4 : FVec F S320x64 .bf16) (b : FVec F S1x64 .f32) : FVec F S3312x64 .f32 :=
  addf (addf (matmul dot_S3312x80_S80x64_S3312x64_1_0_0_1_n_n none cat w0 (constant S3312x64 .f32 0x00000000#32))
      (gatesV64
        (extractStridedSlice S1280x207 ![0, 0] (bigV ss (shapeCast S16x207x80 cat shapeCasts_S3312x80_S16x207x80)) slices_S1280x512_o0_0_S1280x207)
        (z2V (extractStridedSlice S1280x207 ![0, 0] (bigV ss (shapeCast S16x207x80 cat shapeCasts_S3312x80_S16x207x80)) slices_S1280x512_o0_0_S1280x207) s0t)
        (extractStridedSlice S1280x207 ![0, 256] (bigV ss (shapeCast S16x207x80 cat shapeCasts_S3312x80_S16x207x80)) slices_S1280x512_o0_256_S1280x207)
        (z2V (extractStridedSlice S1280x207 ![0, 256] (bigV ss (shapeCast S16x207x80 cat shapeCasts_S3312x80_S16x207x80)) slices_S1280x512_o0_256_S1280x207) s1t)
        w4))
    (broadcastTo S3312x64 b broadcasts_S1x64_S3312x64)

/-- One recurrent step: gates from `[h, x]`, candidate from `[r ⊙ h, x]`, then `u ⊙ h + (1 − u) ⊙ c`. -/
def cellV (ss : FVec F S207x512 .bf16) (s0t s1t : FVec F S207x207 .bf16) (x16 : FVec F S3312x16 .bf16)
    (h : FVec F S3312x64 .f32) (w0ru : FVec F S80x128 .bf16) (w4ru : FVec F S320x128 .bf16) (bru : FVec F S1x128 .f32)
    (w0c : FVec F S80x64 .bf16) (w4c : FVec F S320x64 .bf16) (bc : FVec F S1x64 .f32) : FVec F S3312x64 .f32 :=
  let ru : FVec F S3312x128 .f32 := logistic (gconvV128 ss s0t s1t
    (concatenate S3312x80 1 [⟨S3312x64, truncf .bf16 h bitsLt_bf16_f32⟩, ⟨S3312x16, x16⟩] concatenates_S3312x64_S3312x16_S3312x80_d1)
    w0ru w4ru bru)
  let r : FVec F S3312x64 .f32 := extractStridedSlice S3312x64 ![0, 0] ru slices_S3312x128_o0_0_S3312x64
  let u : FVec F S3312x64 .f32 := extractStridedSlice S3312x64 ![0, 64] ru slices_S3312x128_o0_64_S3312x64
  let c : FVec F S3312x64 .f32 := tanh (gconvV64 ss s0t s1t
    (concatenate S3312x80 1 [⟨S3312x64, truncf .bf16 (mulf r h) bitsLt_bf16_f32⟩, ⟨S3312x16, x16⟩] concatenates_S3312x64_S3312x16_S3312x80_d1)
    w0c w4c bc)
  addf (mulf u h) (mulf (subf (broadcast S3312x64 (Scalar.ofBits .f32 0x3F800000#32)) u) c)

end Ops

end Cert.KernelIdeal.Val

end
-- ==== Proof.Spec.lean ====
/-
  The mathematics both programs compute, stated once over plain index types: a diffusion-convolution
  GRU (two supports, Chebyshev order two) run for eight encoder steps from the zero state and eight decoder
  steps that feed each step's projection back as the next step's input.  Every array is a function on
  finite index types with values in the extended reals; sums are sums over `Fin`.

  Per step, with `X = [x, h]` the per-node features (the step's input columns first, then the state's):
    X₀ = X,  X₁ = S₀ X,  X₂ = 2 · S₀ (S₀ X) − X,  X₃ = S₁ X,  X₄ = 2 · S₁ (S₁ X) − X      (S acting on the node axis)
    gconv  = Σ_{f, m} X_m[·, ·, f] · W[5 f + m, ·] + bias
    (r, u) = σ (gconv over [x, h]),   c = tanh (gconv over [x, r ⊙ h]),   h' = u ⊙ h + (1 − u) ⊙ c
  with σ z = 1 / (1 + e^(−z)).
-/
import Idealize.ShloMosaic.PureOps.Ideal
import Idealize.ShloMosaic.Lib.IdealHost

noncomputable section

namespace Cert.Spec

open Idealize.ShloMosaic

/-- Batch × node × feature arrays. -/
abbrev Arr3 (d : ℕ) : Type := Fin 16 → Fin 207 → Fin d → EReal
/-- A matrix. -/
abbrev Mat (a b : ℕ) : Type := Fin a → Fin b → EReal

/-- The constant two, kept as the float word both programs spell it with. -/
def two : EReal := Ideal.ofBits .f32 0x40000000#32

/-- Per-node features of one step: the step's `dx` input columns, then the 64 state columns. -/
def cat {dx : ℕ} (x : Arr3 dx) (h : Arr3 64) : Arr3 (dx + 64) :=
  fun b n f => if hf : f.val < dx then x b n ⟨f.val, hf⟩ else h b n ⟨f.val - dx, by have := f.isLt; omega⟩

/-- One diffusion step: the support matrix applied along the node axis. -/
def diffuse {d : ℕ} (S : Mat 207 207) (X : Arr3 d) : Arr3 d :=
  fun b n f => ∑ m : Fin 207, S n m * X b m f

/-- The order-two Chebyshev term `2 · S (S X) − X`. -/
def cheb2 {d : ℕ} (S : Mat 207 207) (X : Arr3 d) : Arr3 d :=
  fun b n f => two * diffuse S (diffuse S X) b n f - X b n f

/-- The five diffusion terms, in the order the weight rows are interleaved. -/
def stack5 {d : ℕ} (S0 S1 : Mat 207 207) (X : Arr3 d) : Fin 5 → Arr3 d
  | 0 => X
  | 1 => diffuse S0 X
  | 2 => cheb2 S0 X
  | 3 => diffuse S1 X
  | 4 => cheb2 S1 X

/-- The graph convolution: weight row `5 f + m` multiplies feature `f` of diffusion term `m`. -/
def gconv {dx o : ℕ} (x : Arr3 dx) (h : Arr3 64) (S0 S1 : Mat 207 207)
    (W : Mat ((dx + 64) * 5) o) (bias : Fin o → EReal) : Arr3 o :=
  fun b n j =>
    (∑ k : Fin ((dx + 64) * 5),
        stack5 S0 S1 (cat x h) ⟨k.val % 5, Nat.mod_lt _ (by decide)⟩ b n
          ⟨k.val / 5, by have := k.isLt; omega⟩ * W k j)
      + bias j

/-- The logistic function as the quotient `1 / (1 + e^(−z))`. -/
def sigm (z : EReal) : EReal := Ideal.div 1 (1 + Ideal.exp (-z))

/-- One recurrent step. -/
def cell {dx : ℕ} (x : Arr3 dx) (h : Arr3 64) (S0 S1 : Mat 207 207)
    (Wru : Mat ((dx + 64) * 5) 128) (bru : Fin 128 → EReal)
    (Wc : Mat ((dx + 64) * 5) 64) (bc : Fin 64 → EReal) : Arr3 64 :=
  let ru : Arr3 128 := fun b n j => sigm (gconv x h S0 S1 Wru bru b n j)
  let r : Arr3 64 := fun b n j => ru b n ⟨j.val, by have := j.isLt; omega⟩
  let u : Arr3 64 := fun b n j => ru b n ⟨64 + j.val, by have := j.isLt; omega⟩
  let c : Arr3 64 := fun b n j => Ideal.tanh (gconv x (fun b n j => r b n j * h b n j) S0 S1 Wc bc b n j)
  fun b n j => u b n j * h b n j + (1 - u b n j) * c b n j

/-- The parameters of the whole network. -/
structure Params where
  inp : Fin 8 → Arr3 8
  S0 : Mat 207 207
  S1 : Mat 207 207
  WruE : Mat 360 128
  bruE : Fin 128 → EReal
  WcE : Mat 360 64
  bcE : Fin 64 → EReal
  WruD : Mat 325 128
  bruD : Fin 128 → EReal
  WcD : Mat 325 64
  bcD : Fin 64 → EReal
  Wp : Fin 64 → EReal
  bp : EReal

/-- The encoder's state before step `t` (the zero state before step 0). -/
def encState (P : Params) : ℕ → Arr3 64
  | 0 => fun _ _ _ => 0
  | t + 1 => if ht : t < 8 then cell (P.inp ⟨t, ht⟩) (encState P t) P.S0 P.S1 P.WruE P.bruE P.WcE P.bcE else encState P t

/-- The output projection of a state: one number per batch entry and node. -/
def proj (P : Params) (h : Arr3 64) : Fin 16 → Fin 207 → EReal :=
  fun b n => (∑ j : Fin 64, h b n j * P.Wp j) + P.bp

/-- The decoder before step `t`: its state, and the input it is about to be fed (zero before step 0,
    afterwards the previous step's projection). -/
def decState (P : Params) : ℕ → Arr3 64 × (Fin 16 → Fin 207 → EReal)
  | 0 => (encState P 8, fun _ _ => 0)
  | t + 1 =>
    let s := decState P t
    let h' := cell (dx := 1) (fun b n _ => s.2 b n) s.1 P.S0 P.S1 P.WruD P.bruD P.WcD P.bcD
    (h', proj P h')

/-- The network's result: step `t`'s projection, per batch entry and node. -/
def out (P : Params) (t : Fin 8) (b : Fin 16) (n : Fin 207) : EReal := (decState P (t.val + 1)).2 b n

end Cert.Spec

end
-- ==== Proof.KernelForm.lean ====
/-
  The kernel's form of one recurrent step, over the same plain index types as the specification.

  The kernel keeps the per-node features in the order [state (64), input (dx), zero padding] (80 columns), folds
  the order-two Chebyshev combine into the weights (the identity term's weight becomes W₀ − W₂ − W₄, the two
  second-order weights are doubled) and applies only pure powers of the supports, computed in
  (features, nodes) form:
    z1 = Xᵀ Sᵀ per batch entry,  z2 = z1 Sᵀ,
    gconvK = X · w0 + [z1(S₀); z2(S₀); z1(S₁); z2(S₁)]ᵀ · w4 + bias.
-/
import proofs.«113864_g48979807044058_cont_8to1_c_230_28_alg».proof.Proof.Spec

noncomputable section

namespace Cert.KernelForm

open Idealize.ShloMosaic Cert.Spec

/-- Per-node features in the kernel's order: the 64 state columns, then the `dx` input columns, then zeros. -/
def catK {dx : ℕ} (x : Arr3 dx) (h : Arr3 64) : Arr3 80 :=
  fun b n f =>
    if h1 : f.val < 64 then h b n ⟨f.val, h1⟩
    else if h2 : f.val < 64 + dx then x b n ⟨f.val - 64, by omega⟩
    else 0

/-- The weights regrouped as (feature, diffusion term, output), features in the kernel's order, zero rows for
    the padding. -/
def wmK {dx o : ℕ} (W : Mat ((dx + 64) * 5) o) : Fin 80 → Fin 5 → Fin o → EReal :=
  fun f m j =>
    if h1 : f.val < 64 then W ⟨(dx + f.val) * 5 + m.val, by have := m.isLt; omega⟩ j
    else if h2 : f.val < 64 + dx then W ⟨(f.val - 64) * 5 + m.val, by have := m.isLt; omega⟩ j
    else 0

/-- The identity term's weight with both Chebyshev combines folded in. -/
def w0K {dx o : ℕ} (W : Mat ((dx + 64) * 5) o) : Mat 80 o :=
  fun f j => wmK W f 0 j - wmK W f 2 j - wmK W f 4 j

/-- The four diffusion blocks' weights, 80 rows each; the second-order blocks doubled. -/
def w4K {dx o : ℕ} (W : Mat ((dx + 64) * 5) o) : Mat 320 o :=
  fun k j =>
    if h1 : k.val < 80 then wmK W ⟨k.val, h1⟩ 1 j
    else if h2 : k.val < 160 then two * wmK W ⟨k.val - 80, by omega⟩ 2 j
    else if h3 : k.val < 240 then wmK W ⟨k.val - 160, by omega⟩ 3 j
    else two * wmK W ⟨k.val - 240, by have := k.isLt; omega⟩ 4 j

/-- First diffusion step in (features, nodes) form: `Xᵀ Sᵀ` per batch entry. -/
def z1K {d : ℕ} (S : Mat 207 207) (X : Arr3 d) : Fin 16 → Fin d → Fin 207 → EReal :=
  fun b f n => ∑ m : Fin 207, X b m f * S n m

/-- Second diffusion step, staying in (features, nodes) form: `Z Sᵀ`. -/
def z2K {d : ℕ} (S : Mat 207 207) (Z : Fin 16 → Fin d → Fin 207 → EReal) : Fin 16 → Fin d → Fin 207 → EReal :=
  fun b f n => ∑ m : Fin 207, Z b f m * S n m

/-- The 320 diffusion rows of one batch entry: first and second step over `S0`, then over `S1`. -/
def zcatK (X : Arr3 80) (S0 S1 : Mat 207 207) : Fin 16 → Fin 320 → Fin 207 → EReal :=
  fun b k n =>
    if h1 : k.val < 80 then z1K S0 X b ⟨k.val, h1⟩ n
    else if h2 : k.val < 160 then z2K S0 (z1K S0 X) b ⟨k.val - 80, by omega⟩ n
    else if h3 : k.val < 240 then z1K S1 X b ⟨k.val - 160, by omega⟩ n
    else z2K S1 (z1K S1 X) b ⟨k.val - 240, by have := k.isLt; omega⟩ n

/-- The kernel's graph convolution. -/
def gconvK {o : ℕ} (X : Arr3 80) (S0 S1 : Mat 207 207) (w0 : Mat 80 o) (w4 : Mat 320 o)
    (bias : Fin o → EReal) : Arr3 o :=
  fun b n j =>
    ((∑ f : Fin 80, X b n f * w0 f j) + (∑ k : Fin 320, zcatK X S0 S1 b k n * w4 k j)) + bias j

/-- The kernel's recurrent step. -/
def cellK {dx : ℕ} (x : Arr3 dx) (h : Arr3 64) (S0 S1 : Mat 207 207)
    (w0ru : Mat 80 128) (w4ru : Mat 320 128) (bru : Fin 128 → EReal)
    (w0c : Mat 80 64) (w4c : Mat 320 64) (bc : Fin 64 → EReal) : Arr3 64 :=
  let ru : Arr3 128 := fun b n j => Ideal.logistic (gconvK (catK x h) S0 S1 w0ru w4ru bru b n j)
  let r : Arr3 64 := fun b n j => ru b n ⟨j.val, by have := j.isLt; omega⟩
  let u : Arr3 64 := fun b n j => ru b n ⟨64 + j.val, by have := j.isLt; omega⟩
  let c : Arr3 64 := fun b n j =>
    Ideal.tanh (gconvK (catK x (fun b n j => r b n j * h b n j)) S0 S1 w0c w4c bc b n j)
  fun b n j => u b n j * h b n j + (1 - u b n j) * c b n j

end Cert.KernelForm

end
-- ==== Proof.KGconv.lean ====
/-
  The kernel's graph convolution and recurrent step, read at an index at the exact values, are the kernel form's.

  Rows of a 3312-row matrix are (batch entry, node) pairs, row b * 207 + n; rows of the 1280-row matrices of the
  diffusion blocks are (batch entry, feature) pairs, row b * 80 + f.  Every matrix product is a finite sum over its one
  contracted axis; every stacking followed by an aligned cut reads one block back; the staged supports enter only
  through their two transposed blocks.  With these the operation sequence computes, for each (batch entry, node,
  output), the identity term plus the 320 diffusion rows against the re-blocked weight plus the bias.
-/
import proofs.«113864_g48979807044058_cont_8to1_c_230_28_alg».proof.Proof.KGconvOps
import proofs.«113864_g48979807044058_cont_8to1_c_230_28_alg».proof.Proof.KernelForm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert.Spec Cert.KernelForm

/-! ## The matrix products at an index

At the exact values a product into the zero accumulator, read at an output index, is the sum over the one contracted
axis of the operands' products; the two forms below are the plain product (rows × columns) and the product with the
left operand transposed (both operands contracted along their rows). -/

theorem mm_g0_128 (lhs : FVec Ideal S3312x80 .bf16) (rhs : FVec Ideal S80x128 .bf16) (i : Fin 3312) (j : Fin 128) :
    matmul dot_S3312x80_S80x128_S3312x128_1_0_0_1_n_n none lhs rhs (constant S3312x128 .f32 0x00000000#32) (ix2 i j)
      = ∑ k : Fin 80, lhs (ix2 i k) * rhs (ix2 k j) := by
  refine (Ideal.matmul_constant_zero_apply dot_S3312x80_S80x128_S3312x128_1_0_0_1_n_n none lhs rhs (ix2 i j)).trans ?_
  refine (Equiv.sum_comp (contrEquiv1 dot_S3312x80_S80x128_S3312x128_1_0_0_1_n_n 80 rfl rfl).symm _).symm.trans ?_
  refine Finset.sum_congr rfl fun k _ => ?_
  congr 1
  · refine congrArg lhs (funext fun a => Fin.ext ?_)
    match a with
    | ⟨0, _⟩ => rfl
    | ⟨1, _⟩ => rfl
  · refine congrArg rhs (funext fun a => Fin.ext ?_)
    match a with
    | ⟨0, _⟩ => rfl
    | ⟨1, _⟩ => rfl

theorem mm_g0_64 (lhs : FVec Ideal S3312x80 .bf16) (rhs : FVec Ideal S80x64 .bf16) (i : Fin 3312) (j : Fin 64) :
    matmul dot_S3312x80_S80x64_S3312x64_1_0_0_1_n_n none lhs rhs (constant S3312x64 .f32 0x00000000#32) (ix2 i j)
      = ∑ k : Fin 80, lhs (ix2 i k) * rhs (ix2 k j) := by
  refine (Ideal.matmul_constant_zero_apply dot_S3312x80_S80x64_S3312x64_1_0_0_1_n_n none lhs rhs (ix2 i j)).trans ?_
  refine (Equiv.sum_comp (contrEquiv1 dot_S3312x80_S80x64_S3312x64_1_0_0_1_n_n 80 rfl rfl).symm _).symm.trans ?_
  refine Finset.sum_congr rfl fun k _ => ?_
  congr 1
  · refine congrArg lhs (funext fun a => Fin.ext ?_)
    match a with
    | ⟨0, _⟩ => rfl
    | ⟨1, _⟩ => rfl
  · refine congrArg rhs (funext fun a => Fin.ext ?_)
    match a with
    | ⟨0, _⟩ => rfl
    | ⟨1, _⟩ => rfl

theorem mm_z2 (lhs : FVec Ideal S1280x207 .bf16) (rhs : FVec Ideal S207x207 .bf16) (i : Fin 1280) (j : Fin 207) :
    matmul dot_S1280x207_S207x207_S1280x207_1_0_0_1_n_n none lhs rhs (constant S1280x207 .f32 0x00000000#32) (ix2 i j)
      = ∑ k : Fin 207, lhs (ix2 i k) * rhs (ix2 k j) := by
  refine (Ideal.matmul_constant_zero_apply dot_S1280x207_S207x207_S1280x207_1_0_0_1_n_n none lhs rhs (ix2 i j)).trans ?_
  refine (Equiv.sum_comp (contrEquiv1 dot_S1280x207_S207x207_S1280x207_1_0_0_1_n_n 207 rfl rfl).symm _).symm.trans ?_
  refine Finset.sum_congr rfl fun k _ => ?_
  congr 1
  · refine congrArg lhs (funext fun a => Fin.ext ?_)
    match a with
    | ⟨0, _⟩ => rfl
    | ⟨1, _⟩ => rfl
  · refine congrArg rhs (funext fun a => Fin.ext ?_)
    match a with
    | ⟨0, _⟩ => rfl
    | ⟨1, _⟩ => rfl

theorem mm_z1 (lhs : FVec Ideal S207x80 .bf16) (rhs : FVec Ideal S207x512 .bf16) (i : Fin 80) (j : Fin 512) :
    matmul dot_S207x80_S207x512_S80x512_0_0_1_1_n_n none lhs rhs (constant S80x512 .f32 0x00000000#32) (ix2 i j)
      = ∑ k : Fin 207, lhs (ix2 k i) * rhs (ix2 k j) := by
  refine (Ideal.matmul_constant_zero_apply dot_S207x80_S207x512_S80x512_0_0_1_1_n_n none lhs rhs (ix2 i j)).trans ?_
  refine (Equiv.sum_comp (contrEquiv1 dot_S207x80_S207x512_S80x512_0_0_1_1_n_n 207 rfl rfl).symm _).symm.trans ?_
  refine Finset.sum_congr rfl fun k _ => ?_
  congr 1
  · refine congrArg lhs (funext fun a => Fin.ext ?_)
    match a with
    | ⟨0, _⟩ => rfl
    | ⟨1, _⟩ => rfl
  · refine congrArg rhs (funext fun a => Fin.ext ?_)
    match a with
    | ⟨0, _⟩ => rfl
    | ⟨1, _⟩ => rfl

theorem mm_gate128 (lhs : FVec Ideal S320x207 .bf16) (rhs : FVec Ideal S320x128 .bf16) (i : Fin 207) (j : Fin 128) :
    matmul dot_S320x207_S320x128_S207x128_0_0_1_1_n_n none lhs rhs (constant S207x128 .f32 0x00000000#32) (ix2 i j)
      = ∑ k : Fin 320, lhs (ix2 k i) * rhs (ix2 k j) := by
  refine (Ideal.matmul_constant_zero_apply dot_S320x207_S320x128_S207x128_0_0_1_1_n_n none lhs rhs (ix2 i j)).trans ?_
  refine (Equiv.sum_comp (contrEquiv1 dot_S320x207_S320x128_S207x128_0_0_1_1_n_n 320 rfl rfl).symm _).symm.trans ?_
  refine Finset.sum_congr rfl fun k _ => ?_
  congr 1
  · refine congrArg lhs (funext fun a => Fin.ext ?_)
    match a with
    | ⟨0, _⟩ => rfl
    | ⟨1, _⟩ => rfl
  · refine congrArg rhs (funext fun a => Fin.ext ?_)
    match a with
    | ⟨0, _⟩ => rfl
    | ⟨1, _⟩ => rfl

theorem mm_gate64 (lhs : FVec Ideal S320x207 .bf16) (rhs : FVec Ideal S320x64 .bf16) (i : Fin 207) (j : Fin 64) :
    matmul dot_S320x207_S320x64_S207x64_0_0_1_1_n_n none lhs rhs (constant S207x64 .f32 0x00000000#32) (ix2 i j)
      = ∑ k : Fin 320, lhs (ix2 k i) * rhs (ix2 k j) := by
  refine (Ideal.matmul_constant_zero_apply dot_S320x207_S320x64_S207x64_0_0_1_1_n_n none lhs rhs (ix2 i j)).trans ?_
  refine (Equiv.sum_comp (contrEquiv1 dot_S320x207_S320x64_S207x64_0_0_1_1_n_n 320 rfl rfl).symm _).symm.trans ?_
  refine Finset.sum_congr rfl fun k _ => ?_
  congr 1
  · refine congrArg lhs (funext fun a => Fin.ext ?_)
    match a with
    | ⟨0, _⟩ => rfl
    | ⟨1, _⟩ => rfl
  · refine congrArg rhs (funext fun a => Fin.ext ?_)
    match a with
    | ⟨0, _⟩ => rfl
    | ⟨1, _⟩ => rfl

/-! ## The pieces at an index -/

/-- Reading a (batch entry, node) row of a 3312-row matrix. -/
def arr3 {d : ℕ} {φ : FTy} (x : FVec Ideal ⟨2, ![3312, d]⟩ φ) : Arr3 d :=
  fun b n f => x (ix2 (⟨b.val * 207 + n.val, by have := b.isLt; have := n.isLt; omega⟩ : Fin 3312) f)

/-- A matrix by its two coordinates. -/
def mat {a b : ℕ} {φ : FTy} (w : FVec Ideal ⟨2, ![a, b]⟩ φ) : Mat a b := fun i j => w (ix2 i j)

/-- A one-row matrix as a vector. -/
def row {o : ℕ} (v : FVec Ideal ⟨2, ![1, o]⟩ .f32) : Fin o → EReal := fun j => v (ix2 (0 : Fin 1) j)

/-- The staged supports, entry by entry: `ss = [S₀ᵀ | 0 | S₁ᵀ | 0]` (only the two transposed blocks are read),
    `s0t = S₀ᵀ`, `s1t = S₁ᵀ`. -/
structure Supports (ss : FVec Ideal S207x512 .bf16) (s0t s1t : FVec Ideal S207x207 .bf16) (S0 S1 : Mat 207 207) : Prop where
  s0 : ∀ m n : Fin 207, s0t (ix2 m n) = S0 n m
  s1 : ∀ m n : Fin 207, s1t (ix2 m n) = S1 n m
  ssA : ∀ m n : Fin 207, ss (ix2 m (⟨n.val, by have := n.isLt; omega⟩ : Fin 512)) = S0 n m
  ssB : ∀ m n : Fin 207, ss (ix2 m (⟨256 + n.val, by have := n.isLt; omega⟩ : Fin 512)) = S1 n m

/-- One batch entry's first diffusion step at (feature, column): the sum over the nodes. -/
theorem z1blk_apply (ss : FVec Ideal S207x512 .bf16) (cat3 : FVec Ideal S16x207x80 .bf16) (off : Fin 3 → ℕ)
    (hs : S16x207x80.Slices off S1x207x80) (i : Fin 16) (h0 : off 0 = i.val) (h1 : off 1 = 0) (h2 : off 2 = 0)
    (f : Fin 80) (c : Fin 512) :
    z1blk ss cat3 off hs (ix2 f c) = ∑ m : Fin 207, cat3 (ix3 i m f) * ss (ix2 m c) := by
  unfold z1blk
  refine (mm_z1 _ ss f c).trans ?_
  refine Finset.sum_congr rfl fun m _ => ?_
  congr 1
  refine (shapeCast_1ab_ab_apply _ shapeCasts_S1x207x80_S207x80 m f).trans ?_
  refine extractStridedSlice_apply off cat3 hs (ix3 (0 : Fin 1) m f) (ix3 i m f) fun a => ?_
  match a with
  | ⟨0, _⟩ => show i.val = off 0 + 0; omega
  | ⟨1, _⟩ => show m.val = off 1 + m.val; omega
  | ⟨2, _⟩ => show f.val = off 2 + f.val; omega

theorem slRec (n : Fin 16) : S16x207x80.Slices ![n.val, 0, 0] S1x207x80 := by
  revert n; decide

/-- The stacked first steps at row `i * 80 + f`. -/
theorem bigV_apply (ss : FVec Ideal S207x512 .bf16) (cat3 : FVec Ideal S16x207x80 .bf16) (i : Fin 16) (f : Fin 80)
    (c : Fin 512) :
    bigV ss cat3 (ix2 (⟨i.val * 80 + f.val, by have := i.isLt; have := f.isLt; omega⟩ : Fin 1280) c)
      = ∑ m : Fin 207, cat3 (ix3 i m f) * ss (ix2 m c) := by
  have key := concatenate_ofFn_apply (t := S1280x512) (s₁ := S80x512) (0 : Fin 2)
    (fun n : Fin 16 => z1blk ss cat3 ![n.val, 0, 0] (slRec n))
    concatenates_S80x512_S80x512_S80x512_S80x512_S80x512_S80x512_S80x512_S80x512_S80x512_S80x512_S80x512_S80x512_S80x512_S80x512_S80x512_S80x512_S1280x512_d0 rfl 80 rfl
    (ix2 (⟨i.val * 80 + f.val, by have := i.isLt; have := f.isLt; omega⟩ : Fin 1280) c) i
    (by show (i.val * 80 + f.val) / 80 = i.val; have := f.isLt; omega) (ix2 f c)
    (by show f.val = (i.val * 80 + f.val) % 80; have := f.isLt; omega)
    (fun b hb => by
      match b with
      | ⟨0, _⟩ => exact absurd rfl hb
      | ⟨1, _⟩ => rfl)
  exact key.trans (z1blk_apply ss cat3 _ _ i rfl rfl rfl f c)

/-- The two column windows of the stacked first steps. -/
theorem sliceA_apply (big : FVec Ideal S1280x512 .bf16) (r : Fin 1280) (n : Fin 207) :
    extractStridedSlice S1280x207 ![0, 0] big slices_S1280x512_o0_0_S1280x207 (ix2 r n)
      = big (ix2 r (⟨n.val, by have := n.isLt; omega⟩ : Fin 512)) :=
  slice2_axis1_apply 0 big slices_S1280x512_o0_0_S1280x207 r n ⟨n.val, by have := n.isLt; omega⟩ (Nat.zero_add _).symm

theorem sliceB_apply (big : FVec Ideal S1280x512 .bf16) (r : Fin 1280) (n : Fin 207) :
    extractStridedSlice S1280x207 ![0, 256] big slices_S1280x512_o0_256_S1280x207 (ix2 r n)
      = big (ix2 r (⟨256 + n.val, by have := n.isLt; omega⟩ : Fin 512)) :=
  slice2_axis1_apply 256 big slices_S1280x512_o0_256_S1280x207 r n ⟨256 + n.val, by have := n.isLt; omega⟩ rfl

/-- The second step at an index. -/
theorem z2V_apply (z1 : FVec Ideal S1280x207 .bf16) (st : FVec Ideal S207x207 .bf16) (r : Fin 1280) (n : Fin 207) :
    z2V z1 st (ix2 r n) = ∑ m : Fin 207, z1 (ix2 r m) * st (ix2 m n) := by
  unfold z2V
  exact mm_z2 z1 st r n

/-- The reshape of the (batch entry, node) rows into three axes. -/
theorem cat3_apply (cat : FVec Ideal S3312x80 .bf16) (b : Fin 16) (m : Fin 207) (f : Fin 80) :
    shapeCast S16x207x80 cat shapeCasts_S3312x80_S16x207x80 (ix3 b m f) = arr3 cat b m f := by
  refine shapeCast_apply cat shapeCasts_S3312x80_S16x207x80 (ix3 b m f) _ ?_
  rw [Shape.rowMajor_val_two, Shape.rowMajor_val_three]
  rfl

theorem slRec2 (o : ℕ) (ho : o + 80 ≤ 1280) : S1280x207.Slices ![o, 0] S80x207 :=
  ⟨rfl, fun a => by
    match a with
    | ⟨0, _⟩ => exact ho
    | ⟨1, _⟩ => exact Nat.le_refl _⟩

/-- The four stacked blocks of one batch entry at row `q * 80 + f`: block `q` at row `off 0 + f`. -/
theorem zcatV_apply (z1a z2a z1b z2b : FVec Ideal S1280x207 .bf16) (off : Fin 2 → ℕ) (hs : S1280x207.Slices off S80x207)
    (h1 : off 1 = 0) (q : Fin 4) (f : Fin 80) (n : Fin 207) (r : Fin 1280) (hr : r.val = off 0 + f.val) :
    zcatV z1a z2a z1b z2b off hs (ix2 (⟨q.val * 80 + f.val, by have := q.isLt; have := f.isLt; omega⟩ : Fin 320) n)
      = (![z1a, z2a, z1b, z2b] q) (ix2 r n) := by
  have key := concatenate_ofFn_apply (t := S320x207) (s₁ := S80x207) (0 : Fin 2)
    (fun p : Fin 4 => extractStridedSlice S80x207 off (![z1a, z2a, z1b, z2b] p) hs)
    concatenates_S80x207_S80x207_S80x207_S80x207_S320x207_d0 rfl 80 rfl
    (ix2 (⟨q.val * 80 + f.val, by have := q.isLt; have := f.isLt; omega⟩ : Fin 320) n) q
    (by show (q.val * 80 + f.val) / 80 = q.val; have := f.isLt; omega) (ix2 f n)
    (by show f.val = (q.val * 80 + f.val) % 80; have := f.isLt; omega)
    (fun b hb => by
      match b with
      | ⟨0, _⟩ => exact absurd rfl hb
      | ⟨1, _⟩ => rfl)
  refine key.trans ?_
  refine extractStridedSlice_apply off _ hs (ix2 f n) (ix2 r n) fun a => ?_
  match a with
  | ⟨0, _⟩ => exact hr
  | ⟨1, _⟩ => show n.val = off 1 + n.val; omega

/-- One batch entry's stacked blocks are the kernel form's 320 diffusion rows, given the four blocks row by row. -/
theorem zcat_entry (z1a z2a z1b z2b : FVec Ideal S1280x207 .bf16) (X : Arr3 80) (S0 S1 : Mat 207 207)
    (H1a : ∀ (i : Fin 16) (f : Fin 80) (n : Fin 207),
      z1a (ix2 (⟨i.val * 80 + f.val, by have := i.isLt; have := f.isLt; omega⟩ : Fin 1280) n) = z1K S0 X i f n)
    (H2a : ∀ (i : Fin 16) (f : Fin 80) (n : Fin 207),
      z2a (ix2 (⟨i.val * 80 + f.val, by have := i.isLt; have := f.isLt; omega⟩ : Fin 1280) n) = z2K S0 (z1K S0 X) i f n)
    (H1b : ∀ (i : Fin 16) (f : Fin 80) (n : Fin 207),
      z1b (ix2 (⟨i.val * 80 + f.val, by have := i.isLt; have := f.isLt; omega⟩ : Fin 1280) n) = z1K S1 X i f n)
    (H2b : ∀ (i : Fin 16) (f : Fin 80) (n : Fin 207),
      z2b (ix2 (⟨i.val * 80 + f.val, by have := i.isLt; have := f.isLt; omega⟩ : Fin 1280) n) = z2K S1 (z1K S1 X) i f n)
    (bb : Fin 16) (off : Fin 2 → ℕ) (hs : S1280x207.Slices off S80x207) (h0 : off 0 = bb.val * 80) (h1 : off 1 = 0)
    (k : Fin 320) (n : Fin 207) :
    zcatV z1a z2a z1b z2b off hs (ix2 k n) = zcatK X S0 S1 bb k n := by
  obtain ⟨q, f, rfl⟩ : ∃ (q : Fin 4) (f : Fin 80),
      k = (⟨q.val * 80 + f.val, by have := q.isLt; have := f.isLt; omega⟩ : Fin 320) :=
    ⟨⟨k.val / 80, by have := k.isLt; omega⟩, ⟨k.val % 80, Nat.mod_lt _ (by decide)⟩, Fin.ext (by show k.val = k.val / 80 * 80 + k.val % 80; omega)⟩
  rw [zcatV_apply z1a z2a z1b z2b off hs h1 q f n
    (⟨bb.val * 80 + f.val, by have := bb.isLt; have := f.isLt; omega⟩ : Fin 1280) (by show bb.val * 80 + f.val = off 0 + f.val; omega)]
  have hf := f.isLt
  unfold zcatK
  match q with
  | ⟨0, _⟩ =>
    rw [dif_pos (show (0 * 80 + f.val) < 80 by omega)]
    refine (H1a bb f n).trans ?_
    exact congrArg (fun g => z1K S0 X bb g n) (Fin.ext (by show f.val = 0 * 80 + f.val; omega))
  | ⟨1, _⟩ =>
    rw [dif_neg (show ¬ (1 * 80 + f.val) < 80 by omega), dif_pos (show (1 * 80 + f.val) < 160 by omega)]
    refine (H2a bb f n).trans ?_
    exact congrArg (fun g => z2K S0 (z1K S0 X) bb g n) (Fin.ext (by show f.val = 1 * 80 + f.val - 80; omega))
  | ⟨2, _⟩ =>
    rw [dif_neg (show ¬ (2 * 80 + f.val) < 80 by omega), dif_neg (show ¬ (2 * 80 + f.val) < 160 by omega),
      dif_pos (show (2 * 80 + f.val) < 240 by omega)]
    refine (H1b bb f n).trans ?_
    exact congrArg (fun g => z1K S1 X bb g n) (Fin.ext (by show f.val = 2 * 80 + f.val - 160; omega))
  | ⟨3, _⟩ =>
    rw [dif_neg (show ¬ (3 * 80 + f.val) < 80 by omega), dif_neg (show ¬ (3 * 80 + f.val) < 160 by omega),
      dif_neg (show ¬ (3 * 80 + f.val) < 240 by omega)]
    refine (H2b bb f n).trans ?_
    exact congrArg (fun g => z2K S1 (z1K S1 X) bb g n) (Fin.ext (by show f.val = 3 * 80 + f.val - 240; omega))

/-- The two first-step blocks of the convolution as the operations spell them. -/
def z1aV (ss : FVec Ideal S207x512 .bf16) (cat : FVec Ideal S3312x80 .bf16) : FVec Ideal S1280x207 .bf16 :=
  extractStridedSlice S1280x207 ![0, 0] (bigV ss (shapeCast S16x207x80 cat shapeCasts_S3312x80_S16x207x80)) slices_S1280x512_o0_0_S1280x207

def z1bV (ss : FVec Ideal S207x512 .bf16) (cat : FVec Ideal S3312x80 .bf16) : FVec Ideal S1280x207 .bf16 :=
  extractStridedSlice S1280x207 ![0, 256] (bigV ss (shapeCast S16x207x80 cat shapeCasts_S3312x80_S16x207x80)) slices_S1280x512_o0_256_S1280x207

section Blocks
variable (ss : FVec Ideal S207x512 .bf16) (s0t s1t : FVec Ideal S207x207 .bf16) (cat : FVec Ideal S3312x80 .bf16)
  (S0 S1 : Mat 207 207) (hS : Supports ss s0t s1t S0 S1)
include hS

theorem z1aV_apply (i : Fin 16) (f : Fin 80) (n : Fin 207) :
    z1aV ss cat (ix2 (⟨i.val * 80 + f.val, by have := i.isLt; have := f.isLt; omega⟩ : Fin 1280) n) = z1K S0 (arr3 cat) i f n := by
  unfold z1aV
  refine (sliceA_apply _ _ n).trans ?_
  refine (bigV_apply ss _ i f _).trans ?_
  unfold z1K
  refine Finset.sum_congr rfl fun m _ => ?_
  rw [cat3_apply, hS.ssA]

theorem z1bV_apply (i : Fin 16) (f : Fin 80) (n : Fin 207) :
    z1bV ss cat (ix2 (⟨i.val * 80 + f.val, by have := i.isLt; have := f.isLt; omega⟩ : Fin 1280) n) = z1K S1 (arr3 cat) i f n := by
  unfold z1bV
  refine (sliceB_apply _ _ n).trans ?_
  refine (bigV_apply ss _ i f _).trans ?_
  unfold z1K
  refine Finset.sum_congr rfl fun m _ => ?_
  rw [cat3_apply, hS.ssB]

theorem z2aV_apply (i : Fin 16) (f : Fin 80) (n : Fin 207) :
    z2V (z1aV ss cat) s0t (ix2 (⟨i.val * 80 + f.val, by have := i.isLt; have := f.isLt; omega⟩ : Fin 1280) n)
      = z2K S0 (z1K S0 (arr3 cat)) i f n := by
  refine (z2V_apply _ _ _ n).trans ?_
  unfold z2K
  refine Finset.sum_congr rfl fun m _ => ?_
  rw [z1aV_apply ss s0t s1t cat S0 S1 hS i f m, hS.s0]

theorem z2bV_apply (i : Fin 16) (f : Fin 80) (n : Fin 207) :
    z2V (z1bV ss cat) s1t (ix2 (⟨i.val * 80 + f.val, by have := i.isLt; have := f.isLt; omega⟩ : Fin 1280) n)
      = z2K S1 (z1K S1 (arr3 cat)) i f n := by
  refine (z2V_apply _ _ _ n).trans ?_
  unfold z2K
  refine Finset.sum_congr rfl fun m _ => ?_
  rw [z1bV_apply ss s0t s1t cat S0 S1 hS i f m, hS.s1]

end Blocks

/-- The stacked gate products at row `bb * 207 + n`: batch entry `bb`'s product at node `n`. -/
theorem gatesV128_apply (z1a z2a z1b z2b : FVec Ideal S1280x207 .bf16) (w4 : FVec Ideal S320x128 .bf16)
    (bb : Fin 16) (n : Fin 207) (j : Fin 128) :
    gatesV128 z1a z2a z1b z2b w4 (ix2 (⟨bb.val * 207 + n.val, by have := bb.isLt; have := n.isLt; omega⟩ : Fin 3312) j)
      = ∑ k : Fin 320, zcatV z1a z2a z1b z2b ![bb.val * 80, 0] (slRec2 (bb.val * 80) (by have := bb.isLt; omega)) (ix2 k n) * w4 (ix2 k j) := by
  have key := concatenate_ofFn_apply (t := S3312x128) (s₁ := S207x128) (0 : Fin 2)
    (fun b : Fin 16 => gate128 w4 (zcatV z1a z2a z1b z2b ![b.val * 80, 0] (slRec2 (b.val * 80) (by have := b.isLt; omega))))
    concatenates_S207x128_S207x128_S207x128_S207x128_S207x128_S207x128_S207x128_S207x128_S207x128_S207x128_S207x128_S207x128_S207x128_S207x128_S207x128_S207x128_S3312x128_d0 rfl 207 rfl
    (ix2 (⟨bb.val * 207 + n.val, by have := bb.isLt; have := n.isLt; omega⟩ : Fin 3312) j) bb
    (by show (bb.val * 207 + n.val) / 207 = bb.val; have := n.isLt; omega) (ix2 n j)
    (by show n.val = (bb.val * 207 + n.val) % 207; have := n.isLt; omega)
    (fun b hb => by
      match b with
      | ⟨0, _⟩ => exact absurd rfl hb
      | ⟨1, _⟩ => rfl)
  refine key.trans ?_
  unfold gate128
  exact mm_gate128 _ w4 n j

theorem gatesV64_apply (z1a z2a z1b z2b : FVec Ideal S1280x207 .bf16) (w4 : FVec Ideal S320x64 .bf16)
    (bb : Fin 16) (n : Fin 207) (j : Fin 64) :
    gatesV64 z1a z2a z1b z2b w4 (ix2 (⟨bb.val * 207 + n.val, by have := bb.isLt; have := n.isLt; omega⟩ : Fin 3312) j)
      = ∑ k : Fin 320, zcatV z1a z2a z1b z2b ![bb.val * 80, 0] (slRec2 (bb.val * 80) (by have := bb.isLt; omega)) (ix2 k n) * w4 (ix2 k j) := by
  have key := concatenate_ofFn_apply (t := S3312x64) (s₁ := S207x64) (0 : Fin 2)
    (fun b : Fin 16 => gate64 w4 (zcatV z1a z2a z1b z2b ![b.val * 80, 0] (slRec2 (b.val * 80) (by have := b.isLt; omega))))
    concatenates_S207x64_S207x64_S207x64_S207x64_S207x64_S207x64_S207x64_S207x64_S207x64_S207x64_S207x64_S207x64_S207x64_S207x64_S207x64_S207x64_S3312x64_d0 rfl 207 rfl
    (ix2 (⟨bb.val * 207 + n.val, by have := bb.isLt; have := n.isLt; omega⟩ : Fin 3312) j) bb
    (by show (bb.val * 207 + n.val) / 207 = bb.val; have := n.isLt; omega) (ix2 n j)
    (by show n.val = (bb.val * 207 + n.val) % 207; have := n.isLt; omega)
    (fun b hb => by
      match b with
      | ⟨0, _⟩ => exact absurd rfl hb
      | ⟨1, _⟩ => rfl)
  refine key.trans ?_
  unfold gate64
  exact mm_gate64 _ w4 n j

/-- **The graph convolution, 128 outputs, is the kernel form's**, row `bb * 207 + n`. -/
theorem gconvV128_apply (ss : FVec Ideal S207x512 .bf16) (s0t s1t : FVec Ideal S207x207 .bf16)
    (cat : FVec Ideal S3312x80 .bf16) (w0 : FVec Ideal S80x128 .bf16) (w4 : FVec Ideal S320x128 .bf16)
    (b : FVec Ideal S1x128 .f32) (S0 S1 : Mat 207 207) (hS : Supports ss s0t s1t S0 S1)
    (bb : Fin 16) (n : Fin 207) (j : Fin 128) :
    gconvV128 (F := Ideal) ss s0t s1t cat w0 w4 b
        (ix2 (⟨bb.val * 207 + n.val, by have := bb.isLt; have := n.isLt; omega⟩ : Fin 3312) j)
      = gconvK (arr3 cat) S0 S1 (mat w0) (mat w4) (row b) bb n j := by
  unfold gconvV128 gconvK
  rw [addf_apply, addf_apply]
  congr 1
  · congr 1
    · exact mm_g0_128 cat w0 _ j
    · refine (gatesV128_apply (z1aV ss cat) (z2V (z1aV ss cat) s0t) (z1bV ss cat) (z2V (z1bV ss cat) s1t) w4 bb n j).trans ?_
      refine Finset.sum_congr rfl fun k _ => ?_
      congr 1
      exact zcat_entry _ _ _ _ (arr3 cat) S0 S1 (z1aV_apply ss s0t s1t cat S0 S1 hS) (z2aV_apply ss s0t s1t cat S0 S1 hS)
        (z1bV_apply ss s0t s1t cat S0 S1 hS) (z2bV_apply ss s0t s1t cat S0 S1 hS) bb _ _ rfl rfl k n
  · exact broadcastTo_1b_ab_apply b broadcasts_S1x128_S3312x128 _ j

/-- **The graph convolution, 64 outputs, is the kernel form's.** -/
theorem gconvV64_apply (ss : FVec Ideal S207x512 .bf16) (s0t s1t : FVec Ideal S207x207 .bf16)
    (cat : FVec Ideal S3312x80 .bf16) (w0 : FVec Ideal S80x64 .bf16) (w4 : FVec Ideal S320x64 .bf16)
    (b : FVec Ideal S1x64 .f32) (S0 S1 : Mat 207 207) (hS : Supports ss s0t s1t S0 S1)
    (bb : Fin 16) (n : Fin 207) (j : Fin 64) :
    gconvV64 (F := Ideal) ss s0t s1t cat w0 w4 b
        (ix2 (⟨bb.val * 207 + n.val, by have := bb.isLt; have := n.isLt; omega⟩ : Fin 3312) j)
      = gconvK (arr3 cat) S0 S1 (mat w0) (mat w4) (row b) bb n j := by
  unfold gconvV64 gconvK
  rw [addf_apply, addf_apply]
  congr 1
  · congr 1
    · exact mm_g0_64 cat w0 _ j
    · refine (gatesV64_apply (z1aV ss cat) (z2V (z1aV ss cat) s0t) (z1bV ss cat) (z2V (z1bV ss cat) s1t) w4 bb n j).trans ?_
      refine Finset.sum_congr rfl fun k _ => ?_
      congr 1
      exact zcat_entry _ _ _ _ (arr3 cat) S0 S1 (z1aV_apply ss s0t s1t cat S0 S1 hS) (z2aV_apply ss s0t s1t cat S0 S1 hS)
        (z1bV_apply ss s0t s1t cat S0 S1 hS) (z2bV_apply ss s0t s1t cat S0 S1 hS) bb _ _ rfl rfl k n
  · exact broadcastTo_1b_ab_apply b broadcasts_S1x64_S3312x64 _ j

/-! ## The recurrent step at an index -/

/-- The step's feature matrix: the rounded state beside the input slab. -/
def catV (h : FVec Ideal S3312x64 .f32) (x16 : FVec Ideal S3312x16 .bf16) : FVec Ideal S3312x80 .bf16 :=
  concatenate S3312x80 1 [⟨S3312x64, truncf .bf16 h bitsLt_bf16_f32⟩, ⟨S3312x16, x16⟩] concatenates_S3312x64_S3312x16_S3312x80_d1

/-- It is the kernel form's feature order: the 64 state columns, then the slab's 16 columns. -/
theorem catV_apply (h : FVec Ideal S3312x64 .f32) (x16 : FVec Ideal S3312x16 .bf16) :
    arr3 (catV h x16) = catK (dx := 16) (arr3 x16) (arr3 h) := by
  funext b n f
  have hf := f.isLt
  unfold catK
  by_cases h1 : f.val < 64
  · rw [dif_pos h1]
    exact concatenate_pair_apply_left (t := S3312x80) (s₁ := S3312x64) (s₂ := S3312x16) (1 : Fin 2) _ x16
      concatenates_S3312x64_S3312x16_S3312x80_d1 _ rfl
      (ix2 (⟨b.val * 207 + n.val, by have := b.isLt; have := n.isLt; omega⟩ : Fin 3312) (⟨f.val, h1⟩ : Fin 64))
      (fun a => by
        match a with
        | ⟨0, _⟩ => rfl
        | ⟨1, _⟩ => rfl)
  · rw [dif_neg h1, dif_pos (show f.val < 64 + 16 by omega)]
    exact concatenate_pair_apply_right (t := S3312x80) (s₁ := S3312x64) (s₂ := S3312x16) (1 : Fin 2) _ x16
      concatenates_S3312x64_S3312x16_S3312x80_d1 _ rfl rfl
      (ix2 (⟨b.val * 207 + n.val, by have := b.isLt; have := n.isLt; omega⟩ : Fin 3312) (⟨f.val - 64, by omega⟩ : Fin 16))
      (fun a ha => by
        match a with
        | ⟨0, _⟩ => rfl
        | ⟨1, _⟩ => exact absurd rfl ha)
      (by show f.val - 64 + 64 = f.val; omega)

/-- The word of the constant one. -/
theorem ofBits_one_f32 : Ideal.ofBits .f32 0x3F800000#32 = 1 := by
  simp [Ideal.ofBits, Ideal.ieee]
  rw [← EReal.coe_mul, ← EReal.coe_one]
  congr 1
  norm_num

section Cell
variable (ss : FVec Ideal S207x512 .bf16) (s0t s1t : FVec Ideal S207x207 .bf16) (x16 : FVec Ideal S3312x16 .bf16)
  (h : FVec Ideal S3312x64 .f32) (w0ru : FVec Ideal S80x128 .bf16) (w4ru : FVec Ideal S320x128 .bf16)
  (bru : FVec Ideal S1x128 .f32) (w0c : FVec Ideal S80x64 .bf16) (w4c : FVec Ideal S320x64 .bf16) (bc : FVec Ideal S1x64 .f32)

/-- The gates before they are split. -/
def ruV : FVec Ideal S3312x128 .f32 := logistic (gconvV128 ss s0t s1t (catV h x16) w0ru w4ru bru)
/-- The reset gate. -/
def rV : FVec Ideal S3312x64 .f32 := extractStridedSlice S3312x64 ![0, 0] (ruV ss s0t s1t x16 h w0ru w4ru bru) slices_S3312x128_o0_0_S3312x64
/-- The update gate. -/
def uV : FVec Ideal S3312x64 .f32 := extractStridedSlice S3312x64 ![0, 64] (ruV ss s0t s1t x16 h w0ru w4ru bru) slices_S3312x128_o0_64_S3312x64

theorem cellV_eq :
    cellV (F := Ideal) ss s0t s1t x16 h w0ru w4ru bru w0c w4c bc
      = addf (mulf (uV ss s0t s1t x16 h w0ru w4ru bru) h)
          (mulf (subf (broadcast S3312x64 (Scalar.ofBits .f32 0x3F800000#32)) (uV ss s0t s1t x16 h w0ru w4ru bru))
            (tanh (gconvV64 ss s0t s1t (catV (mulf (rV ss s0t s1t x16 h w0ru w4ru bru) h) x16) w0c w4c bc))) := rfl

variable (S0 S1 : Mat 207 207) (hS : Supports ss s0t s1t S0 S1)
include hS

theorem ruV_apply (b : Fin 16) (n : Fin 207) (j : Fin 128) :
    ruV ss s0t s1t x16 h w0ru w4ru bru (ix2 (⟨b.val * 207 + n.val, by have := b.isLt; have := n.isLt; omega⟩ : Fin 3312) j)
      = Ideal.logistic (gconvK (catK (dx := 16) (arr3 x16) (arr3 h)) S0 S1 (mat w0ru) (mat w4ru) (row bru) b n j) := by
  unfold ruV
  show Ideal.logistic (gconvV128 (F := Ideal) ss s0t s1t (catV h x16) w0ru w4ru bru _) = _
  rw [gconvV128_apply ss s0t s1t (catV h x16) w0ru w4ru bru S0 S1 hS b n j, catV_apply]

theorem rV_apply (b : Fin 16) (n : Fin 207) (j : Fin 64) :
    rV ss s0t s1t x16 h w0ru w4ru bru (ix2 (⟨b.val * 207 + n.val, by have := b.isLt; have := n.isLt; omega⟩ : Fin 3312) j)
      = Ideal.logistic (gconvK (catK (dx := 16) (arr3 x16) (arr3 h)) S0 S1 (mat w0ru) (mat w4ru) (row bru) b n
          (⟨j.val, by have := j.isLt; omega⟩ : Fin 128)) := by
  unfold rV
  refine (slice2_axis1_apply 0 _ slices_S3312x128_o0_0_S3312x64 _ j (⟨j.val, by have := j.isLt; omega⟩ : Fin 128)
    (Nat.zero_add _).symm).trans ?_
  exact ruV_apply ss s0t s1t x16 h w0ru w4ru bru S0 S1 hS b n _

theorem uV_apply (b : Fin 16) (n : Fin 207) (j : Fin 64) :
    uV ss s0t s1t x16 h w0ru w4ru bru (ix2 (⟨b.val * 207 + n.val, by have := b.isLt; have := n.isLt; omega⟩ : Fin 3312) j)
      = Ideal.logistic (gconvK (catK (dx := 16) (arr3 x16) (arr3 h)) S0 S1 (mat w0ru) (mat w4ru) (row bru) b n
          (⟨64 + j.val, by have := j.isLt; omega⟩ : Fin 128)) := by
  unfold uV
  refine (slice2_axis1_apply 64 _ slices_S3312x128_o0_64_S3312x64 _ j (⟨64 + j.val, by have := j.isLt; omega⟩ : Fin 128)
    rfl).trans ?_
  exact ruV_apply ss s0t s1t x16 h w0ru w4ru bru S0 S1 hS b n _

/-- **One recurrent step is the kernel form's**, row `bb * 207 + n`; the input slab enters with all its 16 columns. -/
theorem cellV_apply (bb : Fin 16) (n : Fin 207) (j : Fin 64) :
    cellV (F := Ideal) ss s0t s1t x16 h w0ru w4ru bru w0c w4c bc
        (ix2 (⟨bb.val * 207 + n.val, by have := bb.isLt; have := n.isLt; omega⟩ : Fin 3312) j)
      = cellK (dx := 16) (arr3 x16) (arr3 h) S0 S1 (mat w0ru) (mat w4ru) (row bru) (mat w0c) (mat w4c) (row bc) bb n j := by
  rw [cellV_eq]
  have hr : arr3 (mulf (rV ss s0t s1t x16 h w0ru w4ru bru) h)
      = fun b n j => Ideal.logistic (gconvK (catK (dx := 16) (arr3 x16) (arr3 h)) S0 S1 (mat w0ru) (mat w4ru) (row bru) b n
          (⟨j.val, by have := j.isLt; omega⟩ : Fin 128)) * arr3 h b n j := by
    funext b n j
    show rV ss s0t s1t x16 h w0ru w4ru bru _ * h _ = _
    rw [rV_apply ss s0t s1t x16 h w0ru w4ru bru S0 S1 hS b n j]
    rfl
  show uV ss s0t s1t x16 h w0ru w4ru bru _ * h _
      + (Ideal.ofBits .f32 0x3F800000#32 - uV ss s0t s1t x16 h w0ru w4ru bru _)
        * Ideal.tanh (gconvV64 (F := Ideal) ss s0t s1t (catV (mulf (rV ss s0t s1t x16 h w0ru w4ru bru) h) x16) w0c w4c bc _) = _
  rw [uV_apply ss s0t s1t x16 h w0ru w4ru bru S0 S1 hS bb n j,
    gconvV64_apply ss s0t s1t _ w0c w4c bc S0 S1 hS bb n j, catV_apply, hr, ofBits_one_f32]
  rfl

end Cell

end Cert.KernelIdeal.Val

end
-- ==== Proof.LibERealSum.lean ====
/-
  Finite sums of extended reals and of any commutative monoid, in the shapes a blocked matrix product needs.

  `IsReal v` says the extended real `v` is a real number (neither infinity).  Real values are closed under the
  arithmetic operations and finite sums; on them the extended reals obey the ring laws, which
  `fold_identity` uses once, for the identity that folds an order-two Chebyshev combine into the weights.

  The re-indexing lemmas hold in every commutative additive monoid: a sum over `Fin (d * 5)` read as a double sum
  over (row block, position in the block), a sum over `Fin 320` read as four blocks of 80, and a sum over
  `Fin 80` whose tail vanishes read as a sum over `Fin (dx + 64)` along the embedding that swaps the two groups
  of columns.
-/
import Mathlib.Data.EReal.Operations
import Mathlib.Algebra.BigOperators.Fin
import Mathlib.Tactic.Ring
import Mathlib.Tactic.NormNum

namespace Cert.LibERealSum

open Finset

/-- An extended real that is a real number. -/
abbrev IsReal (v : EReal) : Prop := v ≠ ⊤ ∧ v ≠ ⊥

theorem isReal_coe (r : ℝ) : IsReal (r : EReal) := ⟨EReal.coe_ne_top r, EReal.coe_ne_bot r⟩

theorem isReal_zero : IsReal (0 : EReal) := isReal_coe 0

theorem isReal_one : IsReal (1 : EReal) := isReal_coe 1

theorem IsReal.add {a b : EReal} (ha : IsReal a) (hb : IsReal b) : IsReal (a + b) := by
  lift a to ℝ using ha
  lift b to ℝ using hb
  rw [← EReal.coe_add]; exact isReal_coe _

theorem IsReal.mul {a b : EReal} (ha : IsReal a) (hb : IsReal b) : IsReal (a * b) := by
  lift a to ℝ using ha
  lift b to ℝ using hb
  rw [← EReal.coe_mul]; exact isReal_coe _

theorem IsReal.sub {a b : EReal} (ha : IsReal a) (hb : IsReal b) : IsReal (a - b) := by
  lift a to ℝ using ha
  lift b to ℝ using hb
  rw [← EReal.coe_sub]; exact isReal_coe _

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem isReal_sum_univ {ι : Type*} [Fintype ι] (f : ι → EReal) (h : ∀ i, IsReal (f i)) :
    IsReal (∑ i, f i) := isReal_sum _ _ fun i _ => h i

/-- Folding the combine `2 q − a` into the weights: with every value real,
    `a (w₀ − w₂ − w₄) + (p w₁ + q (2 w₂) + r w₃ + s (2 w₄)) = a w₀ + p w₁ + (2 q − a) w₂ + r w₃ + (2 s − a) w₄`. -/
theorem fold_identity {t a p q r s w0 w1 w2 w3 w4 : EReal} (ht : t = ((2 : ℝ) : EReal))
    (ha : IsReal a) (hp : IsReal p) (hq : IsReal q) (hr : IsReal r) (hs : IsReal s)
    (h0 : IsReal w0) (h1 : IsReal w1) (h2 : IsReal w2) (h3 : IsReal w3) (h4 : IsReal w4) :
    a * (w0 - w2 - w4) + (p * w1 + q * (t * w2) + r * w3 + s * (t * w4))
      = a * w0 + p * w1 + (t * q - a) * w2 + r * w3 + (t * s - a) * w4 := by
  subst ht
  lift a to ℝ using ha
  lift p to ℝ using hp
  lift q to ℝ using hq
  lift r to ℝ using hr
  lift s to ℝ using hs
  lift w0 to ℝ using h0
  lift w1 to ℝ using h1
  lift w2 to ℝ using h2
  lift w3 to ℝ using h3
  lift w4 to ℝ using h4
  norm_cast
  ring

section Reindex

variable {M : Type*} [AddCommMonoid M]

/-- A sum over `Fin (d * 5)` as a double sum over (block `f`, position `m`), index `5 f + m`. -/
theorem sum_fin_mul5 (d : ℕ) (g : Fin (d * 5) → M) :
    ∑ k, g k = ∑ f : Fin d, ∑ m : Fin 5,
      g ⟨f.val * 5 + m.val, by have := f.isLt; have := m.isLt; omega⟩ := by
  rw [← Fintype.sum_equiv finProdFinEquiv (fun p => g (finProdFinEquiv p)) g (fun _ => rfl),
    Fintype.sum_prod_type]
  refine Finset.sum_congr rfl fun f _ => Finset.sum_congr rfl fun m _ => ?_
  congr 1
  ext
  simp only [finProdFinEquiv_apply_val]
  omega

/-- A sum over `Fin 320` as four blocks of 80. -/
theorem sum_fin320 (g : Fin 320 → M) :
    ∑ k, g k = ∑ f : Fin 80,
      (g ⟨f.val, by omega⟩ + g ⟨80 + f.val, by omega⟩ + g ⟨160 + f.val, by omega⟩
        + g ⟨240 + f.val, by omega⟩) := by
  rw [← Fintype.sum_equiv (finProdFinEquiv (m := 4) (n := 80)) (fun p => g (finProdFinEquiv p)) g
    (fun _ => rfl), Fintype.sum_prod_type, Fin.sum_univ_four, ← Finset.sum_add_distrib,
    ← Finset.sum_add_distrib, ← Finset.sum_add_distrib]
  refine Finset.sum_congr rfl fun f _ => ?_
  congr 4 <;> (ext; simp only [finProdFinEquiv_apply_val]; simp <;> omega)

/-- The position, among the kernel's 80 columns [state (64), input (dx), padding], of feature `f` of the
    specification's order [input (dx), state (64)]. -/
def sig (dx : ℕ) (hdx : dx ≤ 16) (f : Fin (dx + 64)) : Fin 80 :=
  if h : f.val < dx then ⟨64 + f.val, by omega⟩ else ⟨f.val - dx, by have := f.isLt; omega⟩

/-- A sum over the 80 columns whose padding part vanishes, as a sum over the `dx + 64` features. -/
theorem sum_fin80_sig (dx : ℕ) (hdx : dx ≤ 16) (F : Fin 80 → M)
    (hz : ∀ g : Fin 80, 64 + dx ≤ g.val → F g = 0) :
    ∑ g, F g = ∑ f : Fin (dx + 64), F (sig dx hdx f) := by
  obtain ⟨p, hp⟩ := Nat.exists_eq_add_of_le hdx
  have h80 : 64 + dx + p = 80 := by omega
  rw [← Fin.sum_congr' F h80, Fin.sum_univ_add, Fin.sum_univ_add, Fin.sum_univ_add]
  have hpad : ∑ i : Fin p, F (Fin.cast h80 (Fin.natAdd (64 + dx) i)) = 0 :=
    Finset.sum_eq_zero fun i _ => hz _ (by simp)
  rw [hpad, add_zero, add_comm]
  congr 1
  · refine Finset.sum_congr rfl fun i _ => ?_
    congr 1
    ext
    simp [sig]
  · refine Finset.sum_congr rfl fun i _ => ?_
    congr 1
    ext
    simp [sig]

end Reindex

end Cert.LibERealSum
-- ==== Proof.Algebra.lean ====
/-
  The kernel's form of a recurrent step computes the specification's step.

  With `X = [x, h]` the features in the specification's order and `σ` the embedding that sends feature `f` to its
  position among the kernel's 80 columns, the kernel's columns hold `X` along `σ` and zeros elsewhere, its
  re-blocked weights hold the rows `5 f + m` of the weight matrix along `σ` and zeros elsewhere, and its
  (features, nodes) diffusion blocks are the diffusion steps `S X`, `S (S X)` read along `σ`.  So the kernel's two
  products are one sum over the features `f` of
      X_f (W₀ − W₂ − W₄) + (S₀X)_f W₁ + (S₀S₀X)_f (2 W₂) + (S₁X)_f W₃ + (S₁S₁X)_f (2 W₄),
  which, every value being a real number, is
      X_f W₀ + (S₀X)_f W₁ + (2 S₀S₀X − X)_f W₂ + (S₁X)_f W₃ + (2 S₁S₁X − X)_f W₄,
  the specification's sum over the five diffusion terms.  (At an infinite value the two differ: the
  extended reals are not distributive there; hence the hypotheses.)

  The second part: the logistic function and the hyperbolic tangent take real values everywhere, so a
  recurrent step keeps the state real whatever the weights are, and so are all the states of the specification.
-/
import proofs.«113864_g48979807044058_cont_8to1_c_230_28_alg».proof.Proof.KernelForm
import proofs.«113864_g48979807044058_cont_8to1_c_230_28_alg».proof.Proof.LibERealSum

noncomputable section

namespace Cert.Algebra

open Idealize.ShloMosaic Cert.Spec Cert.KernelForm Cert.LibERealSum

/-- The float word of the constant two is the real number 2. -/
theorem two_eq : two = ((2 : ℝ) : EReal) := by
  simp [two, Ideal.ofBits, Ideal.ieee, -EReal.coe_mul]; norm_num

/-! ### The kernel's columns, weights and diffusion blocks along the embedding -/

theorem catK_sig {dx : ℕ} (hdx : dx ≤ 16) (x : Arr3 dx) (h : Arr3 64) (b : Fin 16) (n : Fin 207)
    (f : Fin (dx + 64)) : catK x h b n (sig dx hdx f) = cat x h b n f := by
  unfold catK cat sig
  by_cases hf : f.val < dx
  · simp [hf]
  · have h1 : f.val - dx < 64 := by have := f.isLt; omega
    simp [hf, h1]

theorem catK_pad_zero {dx : ℕ} (x : Arr3 dx) (h : Arr3 64) (b : Fin 16) (n : Fin 207) (g : Fin 80)
    (hg : 64 + dx ≤ g.val) : catK x h b n g = 0 := by
  unfold catK
  rw [dif_neg (by omega), dif_neg (by omega)]

/-- Row `5 f + m` of the weight matrix. -/
def Wf {dx o : ℕ} (W : Mat ((dx + 64) * 5) o) (f : Fin (dx + 64)) (m : Fin 5) (j : Fin o) : EReal :=
  W ⟨f.val * 5 + m.val, by have := f.isLt; have := m.isLt; omega⟩ j

theorem wmK_sig {dx o : ℕ} (hdx : dx ≤ 16) (W : Mat ((dx + 64) * 5) o) (f : Fin (dx + 64)) (m : Fin 5)
    (j : Fin o) : wmK W (sig dx hdx f) m j = Wf W f m j := by
  unfold wmK Wf sig
  by_cases hf : f.val < dx
  · simp [hf]
  · have h1 : f.val - dx < 64 := by have := f.isLt; omega
    have h2 : dx + (f.val - dx) = f.val := by omega
    simp [hf, h1, h2]

theorem wmK_pad_zero {dx o : ℕ} (W : Mat ((dx + 64) * 5) o) (g : Fin 80) (m : Fin 5) (j : Fin o)
    (hg : 64 + dx ≤ g.val) : wmK W g m j = 0 := by
  unfold wmK
  rw [dif_neg (by omega), dif_neg (by omega)]

theorem z1K_sig {dx : ℕ} (hdx : dx ≤ 16) (x : Arr3 dx) (h : Arr3 64) (S : Mat 207 207) (b : Fin 16)
    (n : Fin 207) (f : Fin (dx + 64)) :
    z1K S (catK x h) b (sig dx hdx f) n = diffuse S (cat x h) b n f := by
  unfold z1K diffuse
  exact Finset.sum_congr rfl fun m _ => by rw [catK_sig, mul_comm]

theorem z2K_sig {dx : ℕ} (hdx : dx ≤ 16) (x : Arr3 dx) (h : Arr3 64) (S : Mat 207 207) (b : Fin 16)
    (n : Fin 207) (f : Fin (dx + 64)) :
    z2K S (z1K S (catK x h)) b (sig dx hdx f) n = diffuse S (diffuse S (cat x h)) b n f := by
  unfold z2K
  rw [show diffuse S (diffuse S (cat x h)) b n f = ∑ m : Fin 207, S n m * diffuse S (cat x h) b m f from rfl]
  exact Finset.sum_congr rfl fun m _ => by rw [z1K_sig, mul_comm]

/-! ### The four diffusion blocks -/

theorem zcatK_w4K_sum {dx o : ℕ} (X : Arr3 80) (S0 S1 : Mat 207 207) (W : Mat ((dx + 64) * 5) o)
    (b : Fin 16) (n : Fin 207) (j : Fin o) :
    ∑ k : Fin 320, zcatK X S0 S1 b k n * w4K W k j
      = ∑ g : Fin 80, (z1K S0 X b g n * wmK W g 1 j + z2K S0 (z1K S0 X) b g n * (two * wmK W g 2 j)
          + z1K S1 X b g n * wmK W g 3 j + z2K S1 (z1K S1 X) b g n * (two * wmK W g 4 j)) := by
  rw [sum_fin320]
  refine Finset.sum_congr rfl fun g _ => ?_
  have hg := g.isLt
  unfold zcatK w4K
  simp only [hg, dif_pos, show ¬ (80 + g.val < 80) by omega, show 80 + g.val < 160 by omega,
    show ¬ (160 + g.val < 80) by omega, show ¬ (160 + g.val < 160) by omega, show 160 + g.val < 240 by omega,
    show ¬ (240 + g.val < 80) by omega, show ¬ (240 + g.val < 160) by omega, show ¬ (240 + g.val < 240) by omega,
    dif_neg, not_false_eq_true, Nat.add_sub_cancel_left, Fin.eta]

/-! ### The law -/

theorem cat_real {dx : ℕ} (x : Arr3 dx) (h : Arr3 64) (hx : ∀ b n f, IsReal (x b n f))
    (hh : ∀ b n f, IsReal (h b n f)) (b : Fin 16) (n : Fin 207) (f : Fin (dx + 64)) :
    IsReal (cat x h b n f) := by
  unfold cat
  split
  · exact hx _ _ _
  · exact hh _ _ _

theorem diffuse_real {d : ℕ} (S : Mat 207 207) (X : Arr3 d) (hS : ∀ n m, IsReal (S n m))
    (hX : ∀ b n f, IsReal (X b n f)) (b : Fin 16) (n : Fin 207) (f : Fin d) : IsReal (diffuse S X b n f) :=
  isReal_sum_univ _ fun m => (hS n m).mul (hX b m f)

/-- The specification's sum over the weight rows, feature by feature. -/
theorem gconv_sum {dx o : ℕ} (x : Arr3 dx) (h : Arr3 64) (S0 S1 : Mat 207 207) (W : Mat ((dx + 64) * 5) o)
    (b : Fin 16) (n : Fin 207) (j : Fin o) :
    (∑ k : Fin ((dx + 64) * 5),
        stack5 S0 S1 (cat x h) ⟨k.val % 5, Nat.mod_lt _ (by decide)⟩ b n
          ⟨k.val / 5, by have := k.isLt; omega⟩ * W k j)
      = ∑ f : Fin (dx + 64),
          (cat x h b n f * Wf W f 0 j + diffuse S0 (cat x h) b n f * Wf W f 1 j
            + cheb2 S0 (cat x h) b n f * Wf W f 2 j + diffuse S1 (cat x h) b n f * Wf W f 3 j
            + cheb2 S1 (cat x h) b n f * Wf W f 4 j) := by
  rw [sum_fin_mul5]
  refine Finset.sum_congr rfl fun f _ => ?_
  have e : ∀ m : Fin 5,
      stack5 S0 S1 (cat x h) ⟨(f.val * 5 + m.val) % 5, Nat.mod_lt _ (by decide)⟩ b n
          ⟨(f.val * 5 + m.val) / 5, by have := f.isLt; have := m.isLt; omega⟩
        * W ⟨f.val * 5 + m.val, by have := f.isLt; have := m.isLt; omega⟩ j
      = stack5 S0 S1 (cat x h) m b n f * Wf W f m j := by
    intro m
    have h1 : (⟨(f.val * 5 + m.val) % 5, Nat.mod_lt _ (by decide)⟩ : Fin 5) = m :=
      Fin.ext (by have := m.isLt; simp only []; omega)
    have h2 : (⟨(f.val * 5 + m.val) / 5, by have := f.isLt; have := m.isLt; omega⟩ : Fin (dx + 64)) = f :=
      Fin.ext (by have := m.isLt; simp only []; omega)
    rw [h1, h2]; rfl
  simp only [e, Fin.sum_univ_five]
  rfl

/-- The kernel's graph convolution, on its own form of the features and the re-blocked weights, is the
    specification's, when every feature, support entry and weight is a real number. -/
theorem gconvK_eq {dx o : ℕ} (hdx : dx ≤ 16) (x : Arr3 dx) (h : Arr3 64) (S0 S1 : Mat 207 207)
    (W : Mat ((dx + 64) * 5) o) (bias : Fin o → EReal)
    (hx : ∀ b n f, IsReal (x b n f)) (hh : ∀ b n f, IsReal (h b n f))
    (hS0 : ∀ n m, IsReal (S0 n m)) (hS1 : ∀ n m, IsReal (S1 n m)) (hW : ∀ k j, IsReal (W k j)) :
    gconvK (catK x h) S0 S1 (w0K W) (w4K W) bias = gconv x h S0 S1 W bias := by
  funext b n j
  unfold gconvK gconv
  congr 1
  rw [gconv_sum, zcatK_w4K_sum, ← Finset.sum_add_distrib, sum_fin80_sig dx hdx]
  · refine Finset.sum_congr rfl fun f _ => ?_
    have hX := cat_real x h hx hh
    simp only [w0K, catK_sig, wmK_sig, z1K_sig, z2K_sig, cheb2]
    exact fold_identity two_eq (hX b n f) (diffuse_real S0 _ hS0 hX b n f)
      (diffuse_real S0 _ hS0 (diffuse_real S0 _ hS0 hX) b n f) (diffuse_real S1 _ hS1 hX b n f)
      (diffuse_real S1 _ hS1 (diffuse_real S1 _ hS1 hX) b n f) (hW _ _) (hW _ _) (hW _ _) (hW _ _) (hW _ _)
  · intro g hg
    simp only [w0K, catK_pad_zero x h b n g hg, wmK_pad_zero W g _ j hg, zero_mul, mul_zero, add_zero]

/-! ### The step -/

/-- A recurrent step as a function of its two graph convolutions. -/
def cellOf (h : Arr3 64) (G1 : Arr3 128) (G2 : Arr3 64 → Arr3 64) : Arr3 64 :=
  let ru : Arr3 128 := fun b n j => sigm (G1 b n j)
  let r : Arr3 64 := fun b n j => ru b n ⟨j.val, by have := j.isLt; omega⟩
  let u : Arr3 64 := fun b n j => ru b n ⟨64 + j.val, by have := j.isLt; omega⟩
  let c : Arr3 64 := fun b n j => Ideal.tanh (G2 (fun b n j => r b n j * h b n j) b n j)
  fun b n j => u b n j * h b n j + (1 - u b n j) * c b n j

theorem cellK_cellOf {dx : ℕ} (x : Arr3 dx) (h : Arr3 64) (S0 S1 : Mat 207 207)
    (w0ru : Mat 80 128) (w4ru : Mat 320 128) (bru : Fin 128 → EReal)
    (w0c : Mat 80 64) (w4c : Mat 320 64) (bc : Fin 64 → EReal) :
    cellK x h S0 S1 w0ru w4ru bru w0c w4c bc
      = cellOf h (gconvK (catK x h) S0 S1 w0ru w4ru bru) (fun rh => gconvK (catK x rh) S0 S1 w0c w4c bc) := rfl

theorem cell_cellOf {dx : ℕ} (x : Arr3 dx) (h : Arr3 64) (S0 S1 : Mat 207 207)
    (Wru : Mat ((dx + 64) * 5) 128) (bru : Fin 128 → EReal) (Wc : Mat ((dx + 64) * 5) 64) (bc : Fin 64 → EReal) :
    cell x h S0 S1 Wru bru Wc bc
      = cellOf h (gconv x h S0 S1 Wru bru) (fun rh => gconv x rh S0 S1 Wc bc) := rfl

/-- The logistic function takes real values everywhere. -/
theorem sigm_real (z : EReal) : IsReal (sigm z) := by
  show IsReal (Ideal.logistic z)
  induction z using EReal.rec with
  | bot => rw [Ideal.logistic_bot]; exact isReal_zero
  | coe r => rw [Ideal.logistic_coe]; exact isReal_coe _
  | top => rw [Ideal.logistic_top]; exact isReal_one

/-- The hyperbolic tangent takes real values everywhere. -/
theorem tanh_real (z : EReal) : IsReal (Ideal.tanh z) := by
  induction z using EReal.rec with
  | bot => rw [Ideal.tanh_bot]; exact isReal_zero.sub isReal_one |> fun h => by simpa using h
  | coe r => rw [Ideal.tanh_coe]; exact isReal_coe _
  | top => rw [Ideal.tanh_top]; exact isReal_one

theorem cellOf_real (h : Arr3 64) (G1 : Arr3 128) (G2 : Arr3 64 → Arr3 64) (hh : ∀ b n j, IsReal (h b n j))
    (b : Fin 16) (n : Fin 207) (j : Fin 64) : IsReal (cellOf h G1 G2 b n j) :=
  ((sigm_real _).mul (hh b n j)).add ((isReal_one.sub (sigm_real _)).mul (tanh_real _))

theorem cellOf_congr (h : Arr3 64) (G1 : Arr3 128) (G2 G2' : Arr3 64 → Arr3 64)
    (hh : ∀ b n j, IsReal (h b n j))
    (hG : ∀ rh : Arr3 64, (∀ b n j, IsReal (rh b n j)) → G2 rh = G2' rh) : cellOf h G1 G2 = cellOf h G1 G2' := by
  unfold cellOf
  simp only []
  rw [hG _ fun b n j => (sigm_real _).mul (hh b n j)]

/-- The kernel's recurrent step, on the re-blocked weights, is the specification's, when the step's input, the
    state, the supports and the weights are real. -/
theorem cellK_eq {dx : ℕ} (hdx : dx ≤ 16) (x : Arr3 dx) (h : Arr3 64) (S0 S1 : Mat 207 207)
    (Wru : Mat ((dx + 64) * 5) 128) (bru : Fin 128 → EReal) (Wc : Mat ((dx + 64) * 5) 64) (bc : Fin 64 → EReal)
    (hx : ∀ b n f, IsReal (x b n f)) (hh : ∀ b n f, IsReal (h b n f))
    (hS0 : ∀ n m, IsReal (S0 n m)) (hS1 : ∀ n m, IsReal (S1 n m))
    (hWru : ∀ k j, IsReal (Wru k j)) (hWc : ∀ k j, IsReal (Wc k j)) :
    cellK x h S0 S1 (w0K Wru) (w4K Wru) bru (w0K Wc) (w4K Wc) bc = cell x h S0 S1 Wru bru Wc bc := by
  rw [cellK_cellOf, cell_cellOf, gconvK_eq hdx x h S0 S1 Wru bru hx hh hS0 hS1 hWru]
  exact cellOf_congr h _ _ _ hh fun rh hrh => gconvK_eq hdx x rh S0 S1 Wc bc hx hrh hS0 hS1 hWc

/-! ### The input slab's zero columns -/

/-- A 16-column input slab whose columns from `dx` on are zero gives the same kernel features as its first
    `dx` columns. -/
theorem catK_pad {dx : ℕ} (hdx : dx ≤ 16) (x : Arr3 dx) (x16 : Arr3 16)
    (hx : ∀ b n (q : Fin 16), x16 b n q = if h : q.val < dx then x b n ⟨q.val, h⟩ else 0) (h : Arr3 64) :
    catK (dx := 16) x16 h = catK x h := by
  funext b n f
  have hf := f.isLt
  unfold catK
  by_cases h1 : f.val < 64
  · rw [dif_pos h1, dif_pos h1]
  · rw [dif_neg h1, dif_neg h1, dif_pos (by omega), hx]
    by_cases h2 : f.val < 64 + dx
    · rw [dif_pos h2, dif_pos (by simp only []; omega)]
    · rw [dif_neg h2, dif_neg (by simp only []; omega)]

theorem cellK_pad {dx : ℕ} (hdx : dx ≤ 16) (x : Arr3 dx) (x16 : Arr3 16)
    (hx : ∀ b n (q : Fin 16), x16 b n q = if h : q.val < dx then x b n ⟨q.val, h⟩ else 0) (h : Arr3 64)
    (S0 S1 : Mat 207 207) (w0ru : Mat 80 128) (w4ru : Mat 320 128) (bru : Fin 128 → EReal)
    (w0c : Mat 80 64) (w4c : Mat 320 64) (bc : Fin 64 → EReal) :
    cellK (dx := 16) x16 h S0 S1 w0ru w4ru bru w0c w4c bc = cellK x h S0 S1 w0ru w4ru bru w0c w4c bc := by
  unfold cellK
  simp only [catK_pad hdx x x16 hx]

/-! ### Every state of the specification is real -/

theorem cell_real {dx : ℕ} (x : Arr3 dx) (h : Arr3 64) (S0 S1 : Mat 207 207)
    (Wru : Mat ((dx + 64) * 5) 128) (bru : Fin 128 → EReal) (Wc : Mat ((dx + 64) * 5) 64) (bc : Fin 64 → EReal)
    (hh : ∀ b n f, IsReal (h b n f)) : ∀ b n j, IsReal (cell x h S0 S1 Wru bru Wc bc b n j) := by
  intro b n j
  rw [cell_cellOf]
  exact cellOf_real h _ _ hh b n j

theorem encState_real (P : Params) (t : ℕ) : ∀ b n j, IsReal (encState P t b n j) := by
  induction t with
  | zero => intro b n j; exact isReal_zero
  | succ t ih =>
    unfold encState
    split
    · exact cell_real _ _ _ _ _ _ _ _ ih
    · exact ih

theorem decState_real (P : Params) (t : ℕ) : ∀ b n j, IsReal ((decState P t).1 b n j) := by
  induction t with
  | zero => exact encState_real P 8
  | succ t ih => exact cell_real _ _ _ _ _ _ _ _ ih

theorem proj_real (P : Params) (hWp : ∀ j, IsReal (P.Wp j)) (hbp : IsReal P.bp) (h : Arr3 64)
    (hh : ∀ b n j, IsReal (h b n j)) (b : Fin 16) (n : Fin 207) : IsReal (proj P h b n) :=
  (isReal_sum_univ _ fun j => (hh b n j).mul (hWp j)).add hbp

theorem decState_in_real (P : Params) (hWp : ∀ j, IsReal (P.Wp j)) (hbp : IsReal P.bp) (t : ℕ) :
    ∀ b n, IsReal ((decState P t).2 b n) := by
  cases t with
  | zero => intro b n; exact isReal_zero
  | succ t => exact proj_real P hWp hbp _ (decState_real P (t + 1))

end Cert.Algebra

end
-- ==== Proof.KDecIn.lean ====
/-
  Two readings at an index on the decoder's side.  The projection row is the product of the 1x64 projection
  weights with the transposed state plus the projection bias: entry p is  Σ_j w_j · h[p, j] + b.  The decoder's
  input slab has that projection in column 0 (zero at the first step) and zeros in the other fifteen columns.
-/
import proofs.«113864_g48979807044058_cont_8to1_c_230_28_alg».proof.Proof.Gen.KernelIdeal.Skeleton
import proofs.«113864_g48979807044058_cont_8to1_c_230_28_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section
namespace Cert.KernelIdeal.Val
open Idealize.ShloMosaic Idealize.ShloMosaic.ValueIdx Cert.KernelIdeal Cert.KernelIdeal.Gen

abbrev DProj : DotDims S1x64 S64x3312 S1x3312 := dot_S1x64_S64x3312_S1x3312_1_0_0_1_n_n

/-- The projection product's contraction index is its one coordinate. -/
def eProj : DProj.contr.Idx ≃ Fin 64 := contrEquiv1 DProj 64 rfl rfl

theorem dProj_lhsIdx (j : S1x3312.Idx) (i : Fin 64) : DProj.lhsIdx j (eProj.symm i) = ix2 (j 0) i := by
  funext a
  fin_cases a <;> rfl

theorem dProj_rhsIdx (j : S1x3312.Idx) (i : Fin 64) : DProj.rhsIdx j (eProj.symm i) = ix2 i (j 1) := by
  funext a
  fin_cases a <;> rfl

/-- The projection row: a 1x64 row times the transposed state. -/
theorem projRow_apply (w : FVec Ideal S1x64 .f32) (h : FVec Ideal S3312x64 .f32) (p : Fin 3312) :
    FloatOps.matmul DProj none w (transpose S64x3312 [1, 0] h transposes_S3312x64_p1_0_S64x3312)
        (constant (F := Ideal) S1x3312 .f32 0x00000000#32) (ix2 (0 : Fin 1) p)
      = ∑ j : Fin 64, w (ix2 0 j) * h (ix2 p j) := by
  rw [Ideal.matmul_constant_zero_apply, ← Equiv.sum_comp eProj.symm]
  refine Finset.sum_congr rfl fun j _ => ?_
  rw [dProj_lhsIdx, dProj_rhsIdx]
  show w (ix2 0 j) * transpose S64x3312 [1, 0] h transposes_S3312x64_p1_0_S64x3312 (ix2 j p) = _
  rw [transpose_ix2_apply]

theorem extractAt00 (v35 : Vec Ideal S1x1 .f32) : extractAt ![0, 0] v35 inpos_S1x1_p0_0 = v35 (ix2 0 0) :=
  congrArg v35 (funext fun a => by fin_cases a <;> rfl)

theorem pay7_apply (v33 : Vec Ideal S1x64 .f32) (v35 : Vec Ideal S1x1 .f32) (h : FVec Ideal S3312x64 .f32) (p : Fin 3312) :
    k0_pay7 (F := Ideal) v33 v35 h (ix2 (0 : Fin 1) p)
      = (∑ j : Fin 64, v33 (ix2 0 j) * h (ix2 p j)) + v35 (ix2 0 0) := by
  unfold k0_pay7 k0_pay1 k0_pay2
  simp only [matmul]
  rw [addf_apply, broadcast_apply, projRow_apply, extractAt00]
  congr 1
  refine Finset.sum_congr rfl fun j _ => ?_
  rw [shapeCast_apply v33 shapeCasts_S1x64_S1x64 (ix2 0 j) (ix2 0 j) rfl]

theorem cmpi_iv (k : Fin k0_t2_loop.trips) :
    Scalar.cmpi .eq (Scf.iv 0#32 1#32 k) 0#32 = if k.val = 0 then 1#1 else 0#1 := by
  have hk : k.val < 8 := Nat.lt_of_lt_of_le k.isLt k0_t2_abs.2.1
  obtain ⟨kv, hkv⟩ := k
  simp only at hk ⊢
  interval_cases kv <;> rfl

/-- The decoder's input slab: column 0 holds zero at the first step and the projection of the carried state
    afterwards; the other fifteen columns are zero. -/
theorem pay85_apply (v34 : FVec Ideal S1x64 .f32) (v36 : Ideal .f32) (k : Fin k0_t2_loop.trips)
    (h : FVec Ideal S3312x64 .f32) (p : Fin 3312) (q : Fin 16) :
    k0_pay85 (F := Ideal) v34 v36 0#32 1#32 k h (ix2 p q)
      = if q.val = 0 then (if k.val = 0 then 0 else (∑ j : Fin 64, v34 (ix2 0 j) * h (ix2 p j)) + v36) else 0 := by
  unfold k0_pay85
  simp only [matmul]
  rw [truncf_apply]
  by_cases hq : q.val = 0
  · rw [if_pos hq]
    rw [concatenate_pair_apply_left (t := S3312x16) (s₁ := S3312x1) (s₂ := S3312x15) (1 : Fin 2) _ _
      concatenates_S3312x1_S3312x15_S3312x16_d1 (ix2 p q) rfl (ix2 p (0 : Fin 1))
      (fun b => by fin_cases b; exacts [rfl, hq.symm])]
    rw [transpose_ix2_apply, cmpi_iv]
    by_cases hk : k.val = 0
    · rw [if_pos hk, if_pos hk, select_one, broadcast_apply]
      exact Ideal.ofBits_zero_f32
    · rw [if_neg hk, if_neg hk, select_zero, addf_apply, broadcast_apply, projRow_apply]
  · rw [if_neg hq]
    rw [concatenate_pair_apply_right (t := S3312x16) (s₁ := S3312x1) (s₂ := S3312x15) (1 : Fin 2) _ _
      concatenates_S3312x1_S3312x15_S3312x16_d1 (ix2 p q) rfl rfl
      (ix2 p (⟨q.val - 1, by have := q.isLt; omega⟩ : Fin 15))
      (fun b hb => by fin_cases b; exacts [rfl, absurd rfl hb])
      (by show q.val - 1 + 1 = q.val; omega)]
    rw [broadcast_apply]
    simp

end Cert.KernelIdeal.Val
end
-- ==== Proof.KDecSpec.lean ====
/-
  The decoder's recurrence in the form the kernel runs it: the kernel carries only the state and recomputes,
  at the start of each step, the input it is about to feed (zero at the first step, the projection of the
  carried state afterwards).  This is the specification's decoder, whose pair (state, next input) carries the
  same projection along.
-/
import proofs.«113864_g48979807044058_cont_8to1_c_230_28_alg».proof.Proof.Spec

noncomputable section

namespace Cert.KernelIdeal.Val

open Cert.Spec

/-- The input fed at decoder step `t` from the carried state `h`. -/
def decIn (P : Params) (t : ℕ) (h : Arr3 64) : Fin 16 → Fin 207 → EReal :=
  if t = 0 then fun _ _ => 0 else proj P h

/-- One decoder step from the carried state. -/
def decStep (P : Params) (t : ℕ) (h : Arr3 64) : Arr3 64 :=
  cell (dx := 1) (fun b n _ => decIn P t h b n) h P.S0 P.S1 P.WruD P.bruD P.WcD P.bcD

/-- The carried state before decoder step `t`. -/
def decIter (P : Params) : ℕ → Arr3 64
  | 0 => encState P 8
  | t + 1 => decStep P t (decIter P t)

theorem decIter_eq (P : Params) (t : ℕ) :
    decIter P t = (decState P t).1 ∧ decIn P t (decIter P t) = (decState P t).2 := by
  induction t with
  | zero => exact ⟨rfl, rfl⟩
  | succ t ih =>
    have h1 : decIter P (t + 1) = (decState P (t + 1)).1 := by
      show decStep P t (decIter P t) = _
      unfold decStep
      rw [ih.2, ih.1]
      rfl
    refine ⟨h1, ?_⟩
    unfold decIn
    rw [if_neg (Nat.succ_ne_zero t), h1]
    rfl

/-- The network's result is the projection of the state after each decoder step. -/
theorem out_eq (P : Params) (t : Fin 8) (b : Fin 16) (n : Fin 207) :
    out P t b n = proj P (decIter P (t.val + 1)) b n := by
  rw [(decIter_eq P (t.val + 1)).1]
  rfl

end Cert.KernelIdeal.Val

end
-- ==== Proof.KDecTrip.lean ====
/-
  The decoder loop's state recursion, read back.  One trip from the carried state `acc` yields the next state
  and stores one row: the projection row of that next state, at row `t` of the 8 x 3312 output block.  Hence
  after the trips before `k` the pieces are the rows `t < k`, each the projection of the state after step
  `t`, and a buffer on which all the pieces were written reads, at row `t` and column `p`, the projection of
  the state after step `t` at `p`, whatever it held before.
-/
import proofs.«113864_g48979807044058_cont_8to1_c_230_28_alg».proof.Proof.Gen.KernelIdeal.Loops
import Idealize.ShloMosaic.Lib.Writes
import Idealize.ShloMosaic.Lib.ValueIdx

noncomputable section

namespace Cert.KernelIdeal.Val

open Idealize.ShloMosaic Idealize.ShloMosaic.ValueIdx Cert.KernelIdeal Cert.KernelIdeal.Gen

variable {F : FTy → Type} [FloatOps F]

section Trip

variable {𝒱 : Variants} {c : Dev nD} {bd : Option 𝒱.V} {arg0 : Memref sig .tc .vmem S8x3312x16 .bf16} {harg0 : arg0.IsWhole} {arg1 : Memref sig .tc .vmem S207x512 .bf16} {harg1 : arg1.IsWhole} {arg2 : Memref sig .tc .vmem S207x207 .bf16} {harg2 : arg2.IsWhole} {arg3 : Memref sig .tc .vmem S207x207 .bf16} {harg3 : arg3.IsWhole} {arg4 : Memref sig .tc .vmem S80x128 .bf16} {harg4 : arg4.IsWhole} {arg5 : Memref sig .tc .vmem S320x128 .bf16} {harg5 : arg5.IsWhole} {arg6 : Memref sig .tc .vmem S1x128 .f32} {harg6 : arg6.IsWhole} {arg7 : Memref sig .tc .vmem S80x64 .bf16} {harg7 : arg7.IsWhole} {arg8 : Memref sig .tc .vmem S320x64 .bf16} {harg8 : arg8.IsWhole} {arg9 : Memref sig .tc .vmem S1x64 .f32} {harg9 : arg9.IsWhole} {arg10 : Memref sig .tc .vmem S80x128 .bf16} {harg10 : arg10.IsWhole} {arg11 : Memref sig .tc .vmem S320x128 .bf16} {harg11 : arg11.IsWhole} {arg12 : Memref sig .tc .vmem S1x128 .f32} {harg12 : arg12.IsWhole} {arg13 : Memref sig .tc .vmem S80x64 .bf16} {harg13 : arg13.IsWhole} {arg14 : Memref sig .tc .vmem S320x64 .bf16} {harg14 : arg14.IsWhole} {arg15 : Memref sig .tc .vmem S1x64 .f32} {harg15 : arg15.IsWhole} {arg16 : Memref sig .tc .vmem S1x64 .f32} {harg16 : arg16.IsWhole} {arg17 : Memref sig .tc .vmem S1x1 .f32} {harg17 : arg17.IsWhole} {arg18 : Memref sig .tc .vmem S8x3312 .f32} {harg18 : arg18.IsWhole} {v1 : FVec F S207x512 .bf16} {v3 : FVec F S207x207 .bf16} {v5 : FVec F S207x207 .bf16} {v22 : FVec F S80x128 .bf16} {v24 : FVec F S320x128 .bf16} {v26 : FVec F S1x128 .f32} {v28 : FVec F S80x64 .bf16} {v30 : FVec F S320x64 .bf16} {v31 : Vec F S1x64 .f32} {v33 : Vec F S1x64 .f32} {v35 : Vec F S1x1 .f32}

local notation "ST2" => st_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v5 v22 v24 v26 v28 v30 v31 v33 v35
local notation "TR2" => tripR_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v5 v22 v24 v26 v28 v30 v31 v33 v35

/-- The row piece of step `t` holding the projection row of the state `h`. -/
abbrev rowPiece (v33 : Vec F S1x64 .f32) (v35 : Vec F S1x1 .f32) (t : Fin k0_t2_loop.trips) (h : FVec F S3312x64 .f32) :
    View.Piece (Elt F) S8x3312 .f32 :=
  ⟨Rect.unit (s := S8x3312) (k0_off2 t) S1x3312.size (k0_off2_inb t), k0_pay7 v33 v35 h⟩

set_option maxRecDepth 65536 in
set_option maxHeartbeats 2000000 in
/-- One trip stores one piece: the projection row of the state it yields. -/
theorem tripL_eq (k : Fin k0_t2_loop.trips) (acc : FVec F S3312x64 .f32) :
    tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v5 v22 v24 v26 v28 v30 v31 v33 v35 k acc = [rowPiece v33 v35 k (TR2 k acc)] := by
  unfold tripL_k0_t2 tripR_k0_t2
  unfold trip_k0_t2
  rfl

/-- The state after one more trip. -/
theorem st2_succ (init : FVec F S3312x64 .f32) (k : ℕ) (hk : k < k0_t2_loop.trips) :
    ST2 init (k + 1)
      = (TR2 ⟨k, hk⟩ (ST2 init k).1, rowPiece v33 v35 ⟨k, hk⟩ (TR2 ⟨k, hk⟩ (ST2 init k).1) :: (ST2 init k).2) := by
  have e := st_k0_t2_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v5 v22 v24 v26 v28 v30 v31 v33 v35 init ⟨k, hk⟩
  rw [tripL_eq] at e
  exact e

theorem st2_fst_succ (init : FVec F S3312x64 .f32) (k : ℕ) (hk : k < k0_t2_loop.trips) :
    (ST2 init (k + 1)).1 = TR2 ⟨k, hk⟩ (ST2 init k).1 := by
  rw [st2_succ init k hk]

/-- Every piece before trip `k` is the row of some step `t < k`. -/
theorem st2_pieces (init : FVec F S3312x64 .f32) : ∀ k, k ≤ k0_t2_loop.trips → ∀ p ∈ (ST2 init k).2,
    ∃ t : Fin k0_t2_loop.trips, t.val < k ∧ p = rowPiece v33 v35 t (ST2 init (t.val + 1)).1
  | 0, _, p, hp => by
    have : (ST2 init 0).2 = [] := rfl
    rw [this] at hp
    exact absurd hp List.not_mem_nil
  | k + 1, hk, p, hp => by
    have hk' : k < k0_t2_loop.trips := Nat.lt_of_succ_le hk
    rw [st2_succ init k hk'] at hp
    rcases List.mem_cons.1 hp with rfl | hp'
    · exact ⟨⟨k, hk'⟩, Nat.lt_succ_self k, by rw [st2_fst_succ init k hk']⟩
    · obtain ⟨t, ht, rfl⟩ := st2_pieces init k (Nat.le_of_lt hk') p hp'
      exact ⟨t, Nat.lt_succ_of_lt ht, rfl⟩

/-- Every step `t < k` has its row among the pieces before trip `k`. -/
theorem st2_mem (init : FVec F S3312x64 .f32) : ∀ k, k ≤ k0_t2_loop.trips → ∀ t : Fin k0_t2_loop.trips, t.val < k →
    rowPiece v33 v35 t (ST2 init (t.val + 1)).1 ∈ (ST2 init k).2
  | 0, _, t, ht => absurd ht (Nat.not_lt_zero _)
  | k + 1, hk, t, ht => by
    have hk' : k < k0_t2_loop.trips := Nat.lt_of_succ_le hk
    rw [st2_succ init k hk']
    by_cases h : t.val = k
    · obtain rfl : t = ⟨k, hk'⟩ := Fin.ext h
      refine List.mem_cons.2 (Or.inl ?_)
      rw [st2_fst_succ init k hk']
    · exact List.mem_cons_of_mem _ (st2_mem init k (Nat.le_of_lt hk') t (by omega))

/-- The output block after all the trips, at row `t` and column `p`. -/
theorem st2_read {sig' : RefSig} {κ : Kind} {sp : Space} (v : View sig' κ sp S8x3312 .f32)
    (f : v.ty.Contents (Elt F)) (init : FVec F S3312x64 .f32) (t : Fin 8) (p : Fin 3312)
    (ht : t.val < k0_t2_loop.trips) :
    v.read (Elt F) (v.writes (Elt F) f (ST2 init k0_t2_loop.trips).2) (ix2 t p)
      = k0_pay7 v33 v35 (ST2 init (t.val + 1)).1 (ix2 (0 : Fin 1) p) := by
  refine (View.read_writes_apply_of_pieces v f
    (fun y => k0_pay7 v33 v35 (ST2 init ((y 0).val + 1)).1 (ix2 (0 : Fin 1) (⟨(y 1).val, idx2_lt1 y⟩ : Fin 3312)))
    _ ?_ (ix2 t p) ?_)
  · intro q hq x
    obtain ⟨s, -, rfl⟩ := st2_pieces init _ (Nat.le_refl _) q hq
    have h0 : ((Rect.unit (s := S8x3312) (k0_off2 s) S1x3312.size (k0_off2_inb s)).emb x 0).val = s.val := by
      have hx : (x 0).val < 1 := (x 0).isLt
      show k0_off2 s 0 + 1 * (x 0).val = s.val
      rw [k0_off2_eq]
      show s.val + 1 * (x 0).val = s.val
      omega
    have h1 : ((Rect.unit (s := S8x3312) (k0_off2 s) S1x3312.size (k0_off2_inb s)).emb x 1).val = (x 1).val := by
      show k0_off2 s 1 + 1 * (x 1).val = (x 1).val
      rw [k0_off2_eq]
      show 0 + 1 * (x 1).val = (x 1).val
      omega
    show k0_pay7 v33 v35 (ST2 init (s.val + 1)).1 x = k0_pay7 v33 v35 (ST2 init (_ + 1)).1 _
    rw [h0]
    refine congrArg (k0_pay7 v33 v35 (ST2 init (s.val + 1)).1) (funext fun a => Fin.ext ?_)
    match a with
    | ⟨0, _⟩ => have hx : (x 0).val < 1 := (x 0).isLt; show (x 0).val = 0; omega
    | ⟨1, _⟩ => exact h1.symm
  · refine ⟨_, st2_mem init _ (Nat.le_refl _) ⟨t.val, ht⟩ ht, ?_⟩
    rw [Rect.mem_set_unit, k0_off2_eq]
    intro a
    match a with
    | ⟨0, _⟩ => exact ⟨Nat.le_refl _, Nat.lt_succ_self _⟩
    | ⟨1, _⟩ => exact ⟨Nat.zero_le _, by show p.val < 0 + 3312; have := p.isLt; omega⟩

end Trip

end Cert.KernelIdeal.Val

end
-- ==== Proof.SpecArgs.lean ====
/-
  The thirteen argument arrays of the two programs packed as the network's parameters, and the network's
  result laid out as the programs' result array f32[8, 16, 207].  Step t's input column i of node n in batch
  entry b is entry (t, b, 8 n + i) of the input array (each batch row holds the nodes' eight readings side by side).
-/
import proofs.«113864_g48979807044058_cont_8to1_c_230_28_alg».proof.Proof.Spec
import Idealize.ShloMosaic.Lib.ValueIdx

noncomputable section

namespace Cert.SpecArgs

open Idealize.ShloMosaic Idealize.ShloMosaic.ValueIdx

/-- The parameters read off the argument arrays. -/
def paramsOf
    (a0 : FVec Ideal ⟨3, ![8, 16, 1656]⟩ .f32) (a1 a2 : FVec Ideal ⟨2, ![207, 207]⟩ .f32)
    (a3 : FVec Ideal ⟨2, ![360, 128]⟩ .f32) (a4 : FVec Ideal ⟨1, ![128]⟩ .f32)
    (a5 : FVec Ideal ⟨2, ![360, 64]⟩ .f32) (a6 : FVec Ideal ⟨1, ![64]⟩ .f32)
    (a7 : FVec Ideal ⟨2, ![325, 128]⟩ .f32) (a8 : FVec Ideal ⟨1, ![128]⟩ .f32)
    (a9 : FVec Ideal ⟨2, ![325, 64]⟩ .f32) (a10 : FVec Ideal ⟨1, ![64]⟩ .f32)
    (a11 : FVec Ideal ⟨2, ![64, 1]⟩ .f32) (a12 : FVec Ideal ⟨1, ![1]⟩ .f32) : Cert.Spec.Params where
  inp t b n i := a0 (ix3 t b (⟨n.val * 8 + i.val, by have := n.isLt; have := i.isLt; omega⟩ : Fin 1656))
  S0 n m := a1 (ix2 n m)
  S1 n m := a2 (ix2 n m)
  WruE k j := a3 (ix2 k j)
  bruE j := a4 (ix1 j)
  WcE k j := a5 (ix2 k j)
  bcE j := a6 (ix1 j)
  WruD k j := a7 (ix2 k j)
  bruD j := a8 (ix1 j)
  WcD k j := a9 (ix2 k j)
  bcD j := a10 (ix1 j)
  Wp j := a11 (ix2 j (0 : Fin 1))
  bp := a12 (ix1 (0 : Fin 1))

/-- The result array: entry (t, b, n) is step t's projection at batch entry b and node n. -/
def outBuf (P : Cert.Spec.Params) : FVec Ideal ⟨3, ![8, 16, 207]⟩ .f32 :=
  fun i => Cert.Spec.out P (⟨(i 0).val, idx_lt i 0⟩) (⟨(i 1).val, idx_lt i 1⟩) (⟨(i 2).val, idx_lt i 2⟩)
where
  idx_lt (i : (⟨3, ![8, 16, 207]⟩ : Shape).Idx) (a : Fin 3) : (i a).val < ![8, 16, 207] a := (i a).isLt

/-- The result array at explicit coordinates. -/
theorem outBuf_ix3 (P : Cert.Spec.Params) (t : Fin 8) (b : Fin 16) (n : Fin 207) :
    outBuf P (ix3 t b n) = Cert.Spec.out P t b n := rfl

end Cert.SpecArgs

end
-- ==== Proof.KFinite.lean ====
/-
  From the precondition to real-valued inputs.  The precondition evaluates, for each of the thirteen
  argument arrays, the conjunction over all its entries of |x| < +∞ and requires the conjunction of the
  thirteen results to be true.  An extended real whose absolute value is below +∞ is neither infinity,
  hence a real number.
-/
import proofs.«113864_g48979807044058_cont_8to1_c_230_28_alg».proof.Pre_finite_inputs
import Idealize.ShloMosaic.PureOps.Ideal
import Idealize.ShloMosaic.Lib.ReduceAll
import Idealize.ShloMosaic.Lib.ValueIdx

noncomputable section

namespace Cert.KernelIdeal.Val

open Idealize.ShloMosaic Cert.Pre_finite_inputs

/-- An extended real that is a real number: neither infinity. -/
abbrev IsReal (x : EReal) : Prop := x ≠ ⊤ ∧ x ≠ ⊥

instance instSubsingletonS_ : Subsingleton S_.Idx := ⟨fun a b => funext fun d => d.elim0⟩

/-- The float word of +∞ denotes +∞. -/
theorem ofBits_inf : Ideal.ofBits .f32 0x7F800000#32 = (⊤ : EReal) := by
  simp [Ideal.ofBits, Ideal.ieee]

/-- An extended real with |x| < +∞ is real. -/
theorem isReal_of_abs_lt (x : EReal) (h : Ideal.cmp .olt (max x (-x)) (Ideal.ofBits .f32 0x7F800000#32) = 1#1) :
    IsReal x := by
  rw [ofBits_inf] at h
  induction x using EReal.rec with
  | bot => simp [Ideal.cmp] at h
  | coe r => exact ⟨EReal.coe_ne_top r, EReal.coe_ne_bot r⟩
  | top => simp [Ideal.cmp] at h

/-- One array's test: if the conjunction over all entries of |x| < +∞ is true, every entry is real. -/
theorem all_real {s : Shape} {axes : List (Fin s.rank)} (a : FVec Ideal s .f32)
    (hb : S_.BroadcastsInDim s (![] : Fin 0 → Fin s.rank)) (hr : s.ReducesTo axes S_) (hS : 0 < S_.numel)
    (j : S_.Idx)
    (e : Host.reduce IntOp.andi
          (cmpf .olt (Host.absf a) (broadcastInDim s ![] hb (constant (F := Ideal) S_ .f32 0x7F800000#32)))
          (constantI S_ 1 1#1) hr hS j = 1#1) :
    ∀ i, IsReal (a i) := by
  intro i
  have h1 := Host.reduce_andi_all _ _ hr hS j e i
  exact isReal_of_abs_lt (a i) h1

theorem andi_apply {s : Shape} {w : Nat} (x y : IVec s w) (i : s.Idx) : andi x y i = IntOp.andi (x i) (y i) := rfl

/-- The precondition's function is all ones only if every entry of every argument array is real. -/
theorem finite_of_fn [Facts] (a0 : FVec Ideal S8x16x1656 .f32) (a1 a2 : FVec Ideal S207x207 .f32)
    (a3 : FVec Ideal S360x128 .f32) (a4 : FVec Ideal S128 .f32) (a5 : FVec Ideal S360x64 .f32)
    (a6 : FVec Ideal S64 .f32) (a7 : FVec Ideal S325x128 .f32) (a8 : FVec Ideal S128 .f32)
    (a9 : FVec Ideal S325x64 .f32) (a10 : FVec Ideal S64 .f32) (a11 : FVec Ideal S64x1 .f32)
    (a12 : FVec Ideal S1 .f32)
    (h : fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧
    (∀ i, IsReal (a4 i)) ∧ (∀ i, IsReal (a5 i)) ∧ (∀ i, IsReal (a6 i)) ∧ (∀ i, IsReal (a7 i)) ∧
    (∀ i, IsReal (a8 i)) ∧ (∀ i, IsReal (a9 i)) ∧ (∀ i, IsReal (a10 i)) ∧ (∀ i, IsReal (a11 i)) ∧
    (∀ i, IsReal (a12 i)) := by
  have h0 := congrFun h ValueIdx.ix0
  dsimp only [fn, fn_part1, fn_part2, fn_part3] at h0
  simp only [andi_apply, IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6, all_real a7 _ _ _ _ e7,
    all_real a8 _ _ _ _ e8, all_real a9 _ _ _ _ e9, all_real a10 _ _ _ _ e10, all_real a11 _ _ _ _ e11,
    all_real a12 _ _ _ _ e12⟩

end Cert.KernelIdeal.Val

end
-- ==== Proof.KDecReal.lean ====
/-
  The parameters the decoder's law needs real, read off the precondition: every entry of the supports, of the
  decoder's two weight matrices, of the projection weights and the projection bias is a real number.
-/
import proofs.«113864_g48979807044058_cont_8to1_c_230_28_alg».proof.Proof.SpecArgs
import proofs.«113864_g48979807044058_cont_8to1_c_230_28_alg».proof.Proof.KFinite

noncomputable section

namespace Cert.KernelIdeal.Val

open Idealize.ShloMosaic Idealize.ShloMosaic.ValueIdx Cert.Spec Cert.Pre_finite_inputs

/-- The parameters the decoder's law needs real. -/
structure DecReal (P : Params) : Prop where
  S0 : ∀ n m, IsReal (P.S0 n m)
  S1 : ∀ n m, IsReal (P.S1 n m)
  WruD : ∀ k j, IsReal (P.WruD k j)
  WcD : ∀ k j, IsReal (P.WcD k j)
  Wp : ∀ j, IsReal (P.Wp j)
  bp : IsReal P.bp

theorem decReal_of_fn [Facts] (a0 : FVec Ideal S8x16x1656 .f32) (a1 a2 : FVec Ideal S207x207 .f32)
    (a3 : FVec Ideal S360x128 .f32) (a4 : FVec Ideal S128 .f32) (a5 : FVec Ideal S360x64 .f32)
    (a6 : FVec Ideal S64 .f32) (a7 : FVec Ideal S325x128 .f32) (a8 : FVec Ideal S128 .f32)
    (a9 : FVec Ideal S325x64 .f32) (a10 : FVec Ideal S64 .f32) (a11 : FVec Ideal S64x1 .f32)
    (a12 : FVec Ideal S1 .f32)
    (h : fn (F := Ideal) a0 a1 a2 a3 a4 a5 a6 a7 a8 a9 a10 a11 a12 = fun _ => 1#1) :
    DecReal (Cert.SpecArgs.paramsOf a0 a1 a2 a3 a4 a5 a6 a7 a8 a9 a10 a11 a12) := by
  obtain ⟨-, h1, h2, -, -, -, -, h7, -, h9, -, h11, h12⟩ := finite_of_fn a0 a1 a2 a3 a4 a5 a6 a7 a8 a9 a10 a11 a12 h
  exact ⟨fun n m => h1 _, fun n m => h2 _, fun k j => h7 _, fun k j => h9 _, fun j => h11 _, h12 _⟩

end Cert.KernelIdeal.Val

end
-- ==== Proof.KDec.lean ====
/-
  One decoder trip and the decoder loop at the exact values.  The trip applies the kernel's recurrent step to the
  carried state and the input slab whose only non-zero column is the step's input (zero at the first step, the
  projection of the carried state afterwards).  With the staged operands being the re-blocked parameters and
  everything real, the kernel's step is the specification's step, so the carried state before trip `k` is the
  specification's decoder state before step `k`, and the row stored by trip `t` is the network's result at step
  `t`.
-/
import proofs.«113864_g48979807044058_cont_8to1_c_230_28_alg».proof.Proof.KGconv
import proofs.«113864_g48979807044058_cont_8to1_c_230_28_alg».proof.Proof.Algebra
import proofs.«113864_g48979807044058_cont_8to1_c_230_28_alg».proof.Proof.KDecIn
import proofs.«113864_g48979807044058_cont_8to1_c_230_28_alg».proof.Proof.KDecSpec
import proofs.«113864_g48979807044058_cont_8to1_c_230_28_alg».proof.Proof.KDecTrip
import proofs.«113864_g48979807044058_cont_8to1_c_230_28_alg».proof.Proof.KDecReal

noncomputable section

namespace Cert.KernelIdeal.Val

open Idealize.ShloMosaic Idealize.ShloMosaic.ValueIdx Cert.KernelIdeal Cert.KernelIdeal.Gen Cert.Spec Cert.KernelForm

section TripV

variable {F : FTy → Type} [FloatOps F]
variable {𝒱 : Variants} {c : Dev nD} {bd : Option 𝒱.V} {arg0 : Memref sig .tc .vmem S8x3312x16 .bf16} {harg0 : arg0.IsWhole} {arg1 : Memref sig .tc .vmem S207x512 .bf16} {harg1 : arg1.IsWhole} {arg2 : Memref sig .tc .vmem S207x207 .bf16} {harg2 : arg2.IsWhole} {arg3 : Memref sig .tc .vmem S207x207 .bf16} {harg3 : arg3.IsWhole} {arg4 : Memref sig .tc .vmem S80x128 .bf16} {harg4 : arg4.IsWhole} {arg5 : Memref sig .tc .vmem S320x128 .bf16} {harg5 : arg5.IsWhole} {arg6 : Memref sig .tc .vmem S1x128 .f32} {harg6 : arg6.IsWhole} {arg7 : Memref sig .tc .vmem S80x64 .bf16} {harg7 : arg7.IsWhole} {arg8 : Memref sig .tc .vmem S320x64 .bf16} {harg8 : arg8.IsWhole} {arg9 : Memref sig .tc .vmem S1x64 .f32} {harg9 : arg9.IsWhole} {arg10 : Memref sig .tc .vmem S80x128 .bf16} {harg10 : arg10.IsWhole} {arg11 : Memref sig .tc .vmem S320x128 .bf16} {harg11 : arg11.IsWhole} {arg12 : Memref sig .tc .vmem S1x128 .f32} {harg12 : arg12.IsWhole} {arg13 : Memref sig .tc .vmem S80x64 .bf16} {harg13 : arg13.IsWhole} {arg14 : Memref sig .tc .vmem S320x64 .bf16} {harg14 : arg14.IsWhole} {arg15 : Memref sig .tc .vmem S1x64 .f32} {harg15 : arg15.IsWhole} {arg16 : Memref sig .tc .vmem S1x64 .f32} {harg16 : arg16.IsWhole} {arg17 : Memref sig .tc .vmem S1x1 .f32} {harg17 : arg17.IsWhole} {arg18 : Memref sig .tc .vmem S8x3312 .f32} {harg18 : arg18.IsWhole} {v1 : FVec F S207x512 .bf16} {v3 : FVec F S207x207 .bf16} {v5 : FVec F S207x207 .bf16} {v22 : FVec F S80x128 .bf16} {v24 : FVec F S320x128 .bf16} {v26 : FVec F S1x128 .f32} {v28 : FVec F S80x64 .bf16} {v30 : FVec F S320x64 .bf16} {v31 : Vec F S1x64 .f32} {v33 : Vec F S1x64 .f32} {v35 : Vec F S1x1 .f32}

set_option maxRecDepth 65536 in
set_option maxHeartbeats 2000000 in
/-- One trip's yield is the recurrent step on the carried state and the decoder's input slab. -/
theorem tripR_eq (k : Fin k0_t2_loop.trips) (acc : FVec F S3312x64 .f32) :
    tripR_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v5 v22 v24 v26 v28 v30 v31 v33 v35 k acc
      = cellV v1 v3 v5 (k0_pay85 (k0_pay1 v33) (k0_pay2 v35) 0#32 1#32 k acc) acc v22 v24 v26 v28 v30
          (shapeCast S1x64 v31 shapeCasts_S1x64_S1x64) := by
  unfold tripR_k0_t2
  unfold trip_k0_t2
  dsimp only
  rfl

end TripV

/-- The projection weights pass through an identity reshape. -/
theorem pay1_apply (v33 : Vec Ideal S1x64 .f32) (j : Fin 64) :
    k0_pay1 (F := Ideal) v33 (ix2 (0 : Fin 1) j) = v33 (ix2 (0 : Fin 1) j) := by
  show shapeCast S1x64 v33 shapeCasts_S1x64_S1x64 (ix2 0 j) = _
  rw [shapeCast_apply v33 shapeCasts_S1x64_S1x64 (ix2 0 j) (ix2 0 j) rfl]

/-- The projection bias is the one entry of its 1x1 block. -/
theorem pay2_eq (v35 : Vec Ideal S1x1 .f32) : k0_pay2 (F := Ideal) v35 = v35 (ix2 (0 : Fin 1) (0 : Fin 1)) :=
  extractAt00 v35

/-- The staged decoder operands are the re-blocked parameters. -/
structure DecOperands (P : Params) (v1 : FVec Ideal S207x512 .bf16) (v3 v5 : FVec Ideal S207x207 .bf16)
    (v22 : FVec Ideal S80x128 .bf16) (v24 : FVec Ideal S320x128 .bf16) (v26 : FVec Ideal S1x128 .f32)
    (v28 : FVec Ideal S80x64 .bf16) (v30 : FVec Ideal S320x64 .bf16) (v31 v33 : Vec Ideal S1x64 .f32)
    (v35 : Vec Ideal S1x1 .f32) : Prop where
  sup : Supports v1 v3 v5 P.S0 P.S1
  w0ru : ∀ f j, v22 (ix2 f j) = w0K (dx := 1) P.WruD f j
  w4ru : ∀ k j, v24 (ix2 k j) = w4K (dx := 1) P.WruD k j
  bru : ∀ j, v26 (ix2 (0 : Fin 1) j) = P.bruD j
  w0c : ∀ f j, v28 (ix2 f j) = w0K (dx := 1) P.WcD f j
  w4c : ∀ k j, v30 (ix2 k j) = w4K (dx := 1) P.WcD k j
  bc : ∀ j, v31 (ix2 (0 : Fin 1) j) = P.bcD j
  wp : ∀ j, v33 (ix2 (0 : Fin 1) j) = P.Wp j
  bp : v35 (ix2 (0 : Fin 1) (0 : Fin 1)) = P.bp

section TripI

variable {𝒱 : Variants} {c : Dev nD} {bd : Option 𝒱.V} {arg0 : Memref sig .tc .vmem S8x3312x16 .bf16} {harg0 : arg0.IsWhole} {arg1 : Memref sig .tc .vmem S207x512 .bf16} {harg1 : arg1.IsWhole} {arg2 : Memref sig .tc .vmem S207x207 .bf16} {harg2 : arg2.IsWhole} {arg3 : Memref sig .tc .vmem S207x207 .bf16} {harg3 : arg3.IsWhole} {arg4 : Memref sig .tc .vmem S80x128 .bf16} {harg4 : arg4.IsWhole} {arg5 : Memref sig .tc .vmem S320x128 .bf16} {harg5 : arg5.IsWhole} {arg6 : Memref sig .tc .vmem S1x128 .f32} {harg6 : arg6.IsWhole} {arg7 : Memref sig .tc .vmem S80x64 .bf16} {harg7 : arg7.IsWhole} {arg8 : Memref sig .tc .vmem S320x64 .bf16} {harg8 : arg8.IsWhole} {arg9 : Memref sig .tc .vmem S1x64 .f32} {harg9 : arg9.IsWhole} {arg10 : Memref sig .tc .vmem S80x128 .bf16} {harg10 : arg10.IsWhole} {arg11 : Memref sig .tc .vmem S320x128 .bf16} {harg11 : arg11.IsWhole} {arg12 : Memref sig .tc .vmem S1x128 .f32} {harg12 : arg12.IsWhole} {arg13 : Memref sig .tc .vmem S80x64 .bf16} {harg13 : arg13.IsWhole} {arg14 : Memref sig .tc .vmem S320x64 .bf16} {harg14 : arg14.IsWhole} {arg15 : Memref sig .tc .vmem S1x64 .f32} {harg15 : arg15.IsWhole} {arg16 : Memref sig .tc .vmem S1x64 .f32} {harg16 : arg16.IsWhole} {arg17 : Memref sig .tc .vmem S1x1 .f32} {harg17 : arg17.IsWhole} {arg18 : Memref sig .tc .vmem S8x3312 .f32} {harg18 : arg18.IsWhole} {v1 : FVec Ideal S207x512 .bf16} {v3 : FVec Ideal S207x207 .bf16} {v5 : FVec Ideal S207x207 .bf16} {v22 : FVec Ideal S80x128 .bf16} {v24 : FVec Ideal S320x128 .bf16} {v26 : FVec Ideal S1x128 .f32} {v28 : FVec Ideal S80x64 .bf16} {v30 : FVec Ideal S320x64 .bf16} {v31 : Vec Ideal S1x64 .f32} {v33 : Vec Ideal S1x64 .f32} {v35 : Vec Ideal S1x1 .f32}

local notation "ST2" => st_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v5 v22 v24 v26 v28 v30 v31 v33 v35
local notation "TR2" => tripR_k0_t2 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 v5 v22 v24 v26 v28 v30 v31 v33 v35

variable (P : Params) (hop : DecOperands P v1 v3 v5 v22 v24 v26 v28 v30 v31 v33 v35)
include hop

/-- The projection row of a state is the specification's projection. -/
theorem projRow_eq (h : FVec Ideal S3312x64 .f32) (b : Fin 16) (n : Fin 207) :
    (∑ j : Fin 64, v33 (ix2 (0 : Fin 1) j)
        * h (ix2 (⟨b.val * 207 + n.val, by have := b.isLt; have := n.isLt; omega⟩ : Fin 3312) j)) + v35 (ix2 0 0)
      = proj P (arr3 h) b n := by
  unfold proj
  rw [hop.bp]
  refine congrArg (· + P.bp) (Finset.sum_congr rfl fun j _ => ?_)
  rw [hop.wp j]
  exact mul_comm _ _

/-- The decoder's input slab: its first column is the step's input, the others are zero. -/
theorem decX_apply (k : Fin k0_t2_loop.trips) (acc : FVec Ideal S3312x64 .f32) (b : Fin 16) (n : Fin 207) (q : Fin 16) :
    arr3 (k0_pay85 (F := Ideal) (k0_pay1 v33) (k0_pay2 v35) 0#32 1#32 k acc) b n q
      = if h : q.val < 1 then (fun (b : Fin 16) (n : Fin 207) (_ : Fin 1) => decIn P k.val (arr3 acc) b n) b n ⟨q.val, h⟩ else 0 := by
  show k0_pay85 (F := Ideal) (k0_pay1 v33) (k0_pay2 v35) 0#32 1#32 k acc (ix2 _ q) = _
  rw [pay85_apply]
  by_cases hq : q.val = 0
  · have hq' : q.val < 1 := by omega
    rw [if_pos hq, dif_pos hq']
    show _ = decIn P k.val (arr3 acc) b n
    unfold decIn
    by_cases hk : k.val = 0
    · rw [if_pos hk, if_pos hk]
    · rw [if_neg hk, if_neg hk, ← projRow_eq P hop acc b n, pay2_eq]
      refine congrArg (· + v35 (ix2 (0 : Fin 1) (0 : Fin 1))) (Finset.sum_congr rfl fun j _ => ?_)
      rw [pay1_apply]
  · have hq' : ¬ q.val < 1 := by omega
    rw [if_neg hq, dif_neg hq']

variable (hP : DecReal P)
include hP

/-- One trip on a real carried state is the specification's decoder step. -/
theorem dec_trip (k : Fin k0_t2_loop.trips) (acc : FVec Ideal S3312x64 .f32)
    (hacc : ∀ b n j, IsReal (arr3 acc b n j)) :
    arr3 (TR2 k acc) = decStep P k.val (arr3 acc) := by
  funext b n j
  rw [tripR_eq]
  show cellV (F := Ideal) _ _ _ _ _ _ _ _ _ _ _ (ix2 _ j) = _
  rw [cellV_apply _ _ _ _ _ _ _ _ _ _ _ P.S0 P.S1 hop.sup b n j]
  have e22 : mat v22 = w0K (dx := 1) P.WruD := funext fun f => funext fun j => hop.w0ru f j
  have e24 : mat v24 = w4K (dx := 1) P.WruD := funext fun f => funext fun j => hop.w4ru f j
  have e26 : row v26 = P.bruD := funext fun j => hop.bru j
  have e28 : mat v28 = w0K (dx := 1) P.WcD := funext fun f => funext fun j => hop.w0c f j
  have e30 : mat v30 = w4K (dx := 1) P.WcD := funext fun f => funext fun j => hop.w4c f j
  have e31 : row (shapeCast S1x64 v31 shapeCasts_S1x64_S1x64) = P.bcD := funext fun j => by
    show shapeCast S1x64 v31 shapeCasts_S1x64_S1x64 (ix2 0 j) = _
    rw [shapeCast_apply v31 shapeCasts_S1x64_S1x64 (ix2 0 j) (ix2 0 j) rfl, hop.bc j]
  rw [e22, e24, e26, e28, e30, e31]
  rw [Cert.Algebra.cellK_pad (dx := 1) (by omega) (fun b n _ => decIn P k.val (arr3 acc) b n)
    (arr3 (k0_pay85 (F := Ideal) (k0_pay1 v33) (k0_pay2 v35) 0#32 1#32 k acc)) (decX_apply P hop k acc)]
  rw [Cert.Algebra.cellK_eq (dx := 1) (by omega) (fun b n _ => decIn P k.val (arr3 acc) b n) (arr3 acc) P.S0 P.S1
    P.WruD P.bruD P.WcD P.bcD (fun b n _ => by
      unfold decIn
      by_cases hk : k.val = 0
      · rw [if_pos hk]; exact Cert.LibERealSum.isReal_zero
      · rw [if_neg hk]; exact Cert.Algebra.proj_real P hP.Wp hP.bp _ hacc b n)
    hacc hP.S0 hP.S1 hP.WruD hP.WcD]
  rfl

/-- The carried state before trip `k` is the specification's decoder state before step `k`. -/
theorem st2_arr3 (init : FVec Ideal S3312x64 .f32) (hinit : arr3 init = encState P 8) :
    ∀ k, k ≤ k0_t2_loop.trips → arr3 (ST2 init k).1 = decIter P k
  | 0, _ => hinit
  | k + 1, hk => by
    have hk' : k < k0_t2_loop.trips := Nat.lt_of_succ_le hk
    have ih := st2_arr3 init hinit k (Nat.le_of_lt hk')
    have hreal : ∀ b n j, IsReal (arr3 (ST2 init k).1 b n j) := by
      rw [ih, (decIter_eq P k).1]; exact Cert.Algebra.decState_real P k
    rw [st2_fst_succ init k hk', dec_trip P hop hP ⟨k, hk'⟩ (ST2 init k).1 hreal, ih]
    rfl

/-- The row stored by trip `t` is the network's result at step `t`. -/
theorem out_row (init : FVec Ideal S3312x64 .f32) (hinit : arr3 init = encState P 8) (t : Fin 8)
    (ht : t.val < k0_t2_loop.trips) (b : Fin 16) (n : Fin 207) :
    k0_pay7 (F := Ideal) v33 v35 (ST2 init (t.val + 1)).1
        (ix2 (0 : Fin 1) (⟨b.val * 207 + n.val, by have := b.isLt; have := n.isLt; omega⟩ : Fin 3312))
      = out P t b n := by
  rw [pay7_apply, projRow_eq P hop (ST2 init (t.val + 1)).1 b n, st2_arr3 P hop hP init hinit (t.val + 1) ht]
  exact (out_eq P t b n).symm

end TripI

end Cert.KernelIdeal.Val

end
-- ==== Proof.KValueBody.lean ====
/-
  The kernel body's output block, read at (step, batch entry, node).  The body's stores are the decoder loop's eight
  rows; written over anything, they read back at row `t`, column `b · 207 + n` as the projection of the decoder
  state after step `t`, which is the network's result there — given that the staged operands are the re-blocked
  parameters, that the parameters are real, and that the encoder loop ends in the specification's encoder state.
-/
import proofs.«113864_g48979807044058_cont_8to1_c_230_28_alg».proof.Proof.KFrameNames
import proofs.«113864_g48979807044058_cont_8to1_c_230_28_alg».proof.Proof.KDec

noncomputable section

namespace Cert.KernelIdeal.Val

open Idealize.ShloMosaic Idealize.ShloMosaic.TcCoe Idealize.ShloMosaic.ValueIdx Cert.KernelIdeal Cert.KernelIdeal.Gen
open Cert.Spec Cert.KernelForm Cert.KernelIdeal.Hand

/-- The decoder loop runs eight trips. -/
theorem k0_t2_trips : k0_t2_loop.trips = 8 := by decide

theorem out18At_value (c : Dev nD) (arg0 : Memref sig .tc .vmem S8x3312x16 .bf16) (harg0 : arg0.IsWhole) (arg1 : Memref sig .tc .vmem S207x512 .bf16) (harg1 : arg1.IsWhole) (arg2 : Memref sig .tc .vmem S207x207 .bf16) (harg2 : arg2.IsWhole) (arg3 : Memref sig .tc .vmem S207x207 .bf16) (harg3 : arg3.IsWhole) (arg4 : Memref sig .tc .vmem S80x128 .bf16) (harg4 : arg4.IsWhole) (arg5 : Memref sig .tc .vmem S320x128 .bf16) (harg5 : arg5.IsWhole) (arg6 : Memref sig .tc .vmem S1x128 .f32) (harg6 : arg6.IsWhole) (arg7 : Memref sig .tc .vmem S80x64 .bf16) (harg7 : arg7.IsWhole) (arg8 : Memref sig .tc .vmem S320x64 .bf16) (harg8 : arg8.IsWhole) (arg9 : Memref sig .tc .vmem S1x64 .f32) (harg9 : arg9.IsWhole) (arg10 : Memref sig .tc .vmem S80x128 .bf16) (harg10 : arg10.IsWhole) (arg11 : Memref sig .tc .vmem S320x128 .bf16) (harg11 : arg11.IsWhole) (arg12 : Memref sig .tc .vmem S1x128 .f32) (harg12 : arg12.IsWhole) (arg13 : Memref sig .tc .vmem S80x64 .bf16) (harg13 : arg13.IsWhole) (arg14 : Memref sig .tc .vmem S320x64 .bf16) (harg14 : arg14.IsWhole) (arg15 : Memref sig .tc .vmem S1x64 .f32) (harg15 : arg15.IsWhole) (arg16 : Memref sig .tc .vmem S1x64 .f32) (harg16 : arg16.IsWhole) (arg17 : Memref sig .tc .vmem S1x1 .f32) (harg17 : arg17.IsWhole) (arg18 : Memref sig .tc .vmem S8x3312 .f32) (harg18 : arg18.IsWhole) (x0 : Vec Ideal S8x3312x16 .bf16) (x1 : Vec Ideal S207x512 .bf16) (x2 : Vec Ideal S207x207 .bf16) (x3 : Vec Ideal S207x207 .bf16) (x4 : Vec Ideal S80x128 .bf16) (x5 : Vec Ideal S320x128 .bf16) (x6 : Vec Ideal S1x128 .f32) (x7 : Vec Ideal S80x64 .bf16) (x8 : Vec Ideal S320x64 .bf16) (x9 : Vec Ideal S1x64 .f32) (x10 : Vec Ideal S80x128 .bf16) (x11 : Vec Ideal S320x128 .bf16) (x12 : Vec Ideal S1x128 .f32) (x13 : Vec Ideal S80x64 .bf16) (x14 : Vec Ideal S320x64 .bf16) (x15 : Vec Ideal S1x64 .f32) (x16 : Vec Ideal S1x64 .f32) (x17 : Vec Ideal S1x1 .f32) (P : Params)
    (hdec : DecOperands P (k0_pay155 x1) (k0_pay156 x2) (k0_pay157 x3) (k0_pay165 x10) (k0_pay166 x11) (k0_pay167 x12) (k0_pay168 x13) (shapeCast S320x64 x14 shapeCasts_S320x64_S320x64) x15 x16 x17)
    (hP : DecReal P)
    (hinit : arr3 (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 (shapeCast S320x64 x8 shapeCasts_S320x64_S320x64) x9 (harg0.unread x0) (k0_pay162 (F := Ideal)) k0_t1_loop.trips) = encState P 8)
    (t : Fin 8) (b : Fin 16) (n : Fin 207) :
    out18At (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17
        (ix2 t (⟨b.val * 207 + n.val, by have := b.isLt; have := n.isLt; omega⟩ : Fin 3312))
      = out P t b n := by
  have ht : t.val < k0_t2_loop.trips := by rw [k0_t2_trips]; exact t.isLt
  unfold out18At
  rw [kernelRun_pieces]
  refine (st2_read VO18 _ _ t _ ht).trans ?_
  exact out_row P hdec hP _ hinit t ht b n

end Cert.KernelIdeal.Val

end
-- ==== Proof.KHostBase.lean ====
/-
  What the host code before the call computes, read index by index: the tools.

  The host re-blocks each weight array W of shape [(dx + 64) · 5, o] (rows ordered feature-major, five diffusion
  terms per feature, input features before state features) as follows: reshape to [dx + 64, 5, o]; move the 64
  state features in front of the dx input features and pad with zero rows to 80 features; the identity term's
  weight is column 0 minus column 2 minus column 4; the four diffusion blocks are columns 1, 2, 3, 4 stacked,
  the second-order columns 2 and 4 multiplied by a broadcast constant two.  This module reads each layout
  operation of that chain (reshape, slice, concatenation, padding) at explicit coordinates and composes them;
  the per-buffer modules apply the results to the program's own operation list.
-/
import proofs.«113864_g48979807044058_cont_8to1_c_230_28_alg».proof.Proof.Gen.KernelIdeal.Launch
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value

noncomputable section

namespace Cert.KernelIdeal.Host

open Idealize.ShloMosaic Idealize.ShloMosaic.TcCoe Idealize.ShloMosaic.ValueIdx

variable {α : Type}

/-! ## Layout operations read at explicit coordinates -/

/-- An `[n, o]` matrix whose rows are grouped by fives, cast to `[a, 5, o]`, reads at `(f, m, j)` row `5 f + m`. -/
theorem shapeCast_rows5_apply {n a o : ℕ} (W : (⟨2, ![n, o]⟩ : Shape).Idx → α)
    (h : (⟨2, ![n, o]⟩ : Shape).ShapeCasts ⟨3, ![a, 5, o]⟩) (f : Fin a) (m : Fin 5) (j : Fin o) (k : Fin n)
    (hk : k.val = f.val * 5 + m.val) :
    shapeCast ⟨3, ![a, 5, o]⟩ W h (ix3 f m j) = W (ix2 k j) :=
  shapeCast_apply W h _ _ (by
    rw [Shape.rowMajor_val_three, Shape.rowMajor_val_two]
    show k.val * o + j.val = (f.val * 5 + m.val) * o + j.val
    rw [hk])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- Column `m` of the middle axis of an `[a, 5, b]` array, as the `[a, b]` matrix a slice and a reshape make of it. -/
theorem col_apply {a b : ℕ} (m : ℕ) (C : (⟨3, ![a, 5, b]⟩ : Shape).Idx → α)
    (hs : (⟨3, ![a, 5, b]⟩ : Shape).Slices ![0, m, 0] ⟨3, ![a, 1, b]⟩)
    (hc : (⟨3, ![a, 1, b]⟩ : Shape).ShapeCasts ⟨2, ![a, b]⟩) (i : Fin a) (j : Fin b) (k : Fin 5) (hk : k.val = m) :
    shapeCast ⟨2, ![a, b]⟩ (extractStridedSlice ⟨3, ![a, 1, b]⟩ ![0, m, 0] C hs) hc (ix2 i j) = C (ix3 i k j) := by
  rw [shapeCast_a1b_ab_apply]
  exact slice3_axis1_apply m C hs i (0 : Fin 1) j k (by rw [hk]; rfl)

/-- A rank-3 array cut along its leading axis from `o` reads, at `(g, m, j)`, the source at `(k, m, j)` with `k = o + g`. -/
theorem slice3_axis0_apply {n0 n1 n2 p : ℕ} (o : ℕ) (X : (⟨3, ![n0, n1, n2]⟩ : Shape).Idx → α)
    (h : (⟨3, ![n0, n1, n2]⟩ : Shape).Slices ![o, 0, 0] ⟨3, ![p, n1, n2]⟩)
    (g : Fin p) (m : Fin n1) (j : Fin n2) (k : Fin n0) (hk : k.val = o + g.val) :
    extractStridedSlice ⟨3, ![p, n1, n2]⟩ ![o, 0, 0] X h (ix3 g m j) = X (ix3 k m j) :=
  extractStridedSlice_apply _ _ _ _ _ (fun ax => by
    match ax with
    | ⟨0, _⟩ => exact hk
    | ⟨1, _⟩ => exact (Nat.zero_add _).symm
    | ⟨2, _⟩ => exact (Nat.zero_add _).symm)

/-- Three blocks laid end to end along the leading axis of a rank-3 array, read at `(f, m, j)`. -/
theorem concat3_axis0_apply {p q z t b c : ℕ} (x₀ : (⟨3, ![p, b, c]⟩ : Shape).Idx → α) (x₁ : (⟨3, ![q, b, c]⟩ : Shape).Idx → α)
    (x₂ : (⟨3, ![z, b, c]⟩ : Shape).Idx → α)
    (h : Shape.Concatenates (([⟨⟨3, ![p, b, c]⟩, x₀⟩, ⟨⟨3, ![q, b, c]⟩, x₁⟩, ⟨⟨3, ![z, b, c]⟩, x₂⟩] :
      List ((s : Shape) × (s.Idx → α))).map (·.1)) ⟨3, ![t, b, c]⟩ 0)
    (f : Fin t) (m : Fin b) (j : Fin c) :
    concatenate ⟨3, ![t, b, c]⟩ 0 [⟨⟨3, ![p, b, c]⟩, x₀⟩, ⟨⟨3, ![q, b, c]⟩, x₁⟩, ⟨⟨3, ![z, b, c]⟩, x₂⟩] h (ix3 f m j)
      = if h0 : f.val < p then x₀ (ix3 ⟨f.val, h0⟩ m j)
        else if h1 : f.val < p + q then x₁ (ix3 ⟨f.val - p, by omega⟩ m j)
        else x₂ (ix3 ⟨f.val - p - q, by
          have ht : p + (q + (z + 0)) = t := h.2.2
          have := f.isLt; omega⟩ m j) := by
  have ht : p + (q + (z + 0)) = t := h.2.2
  have hi : ∀ {r : ℕ} (g : Fin r) (i : (⟨3, ![r, b, c]⟩ : Shape).Idx), i = ix3 g m j →
      ∀ b' : Fin 3, b'.cast rfl ≠ (0 : Fin 3) → (i b').val = ((ix3 f m j : (⟨3, ![t, b, c]⟩ : Shape).Idx) (b'.cast rfl)).val :=
    fun g i hi b' hb => by subst hi; exact match b' with | ⟨0, _⟩ => absurd rfl hb | ⟨1, _⟩ => rfl | ⟨2, _⟩ => rfl
  split
  · next h0 =>
    exact concatenate_apply_piece (0 : Fin 3) [⟨⟨3, ![p, b, c]⟩, x₀⟩, ⟨⟨3, ![q, b, c]⟩, x₁⟩, ⟨⟨3, ![z, b, c]⟩, x₂⟩] h (ix3 f m j)
      0 (by show 0 < 3; omega) ⟨3, ![p, b, c]⟩ x₀ rfl rfl 0 rfl (ix3 ⟨f.val, h0⟩ m j) (hi _ _ rfl) (Nat.zero_add _)
  · next h0 =>
    split
    · next h1 =>
      exact concatenate_apply_piece (0 : Fin 3) [⟨⟨3, ![p, b, c]⟩, x₀⟩, ⟨⟨3, ![q, b, c]⟩, x₁⟩, ⟨⟨3, ![z, b, c]⟩, x₂⟩] h (ix3 f m j)
        1 (by show 1 < 3; omega) ⟨3, ![q, b, c]⟩ x₁ rfl rfl p (by simp) (ix3 ⟨f.val - p, by omega⟩ m j) (hi _ _ rfl)
        (by show p + (f.val - p) = f.val; omega)
    · next h1 =>
      exact concatenate_apply_piece (0 : Fin 3) [⟨⟨3, ![p, b, c]⟩, x₀⟩, ⟨⟨3, ![q, b, c]⟩, x₁⟩, ⟨⟨3, ![z, b, c]⟩, x₂⟩] h (ix3 f m j)
        2 (by show 2 < 3; omega) ⟨3, ![z, b, c]⟩ x₂ rfl rfl (p + q) (by simp) (ix3 ⟨f.val - p - q, by have := f.isLt; omega⟩ m j) (hi _ _ rfl)
        (by show p + q + (f.val - p - q) = f.val; omega)

/-- Four 80-row blocks stacked into a 320-row matrix, read at `(k, j)`. -/
theorem concat4_rows80_apply {c : ℕ} (x₀ x₁ x₂ x₃ : (⟨2, ![80, c]⟩ : Shape).Idx → α)
    (h : Shape.Concatenates (([⟨⟨2, ![80, c]⟩, x₀⟩, ⟨⟨2, ![80, c]⟩, x₁⟩, ⟨⟨2, ![80, c]⟩, x₂⟩, ⟨⟨2, ![80, c]⟩, x₃⟩] :
      List ((s : Shape) × (s.Idx → α))).map (·.1)) ⟨2, ![320, c]⟩ 0)
    (k : Fin 320) (j : Fin c) :
    concatenate ⟨2, ![320, c]⟩ 0 [⟨⟨2, ![80, c]⟩, x₀⟩, ⟨⟨2, ![80, c]⟩, x₁⟩, ⟨⟨2, ![80, c]⟩, x₂⟩, ⟨⟨2, ![80, c]⟩, x₃⟩] h (ix2 k j)
      = if h1 : k.val < 80 then x₀ (ix2 ⟨k.val, h1⟩ j)
        else if h2 : k.val < 160 then x₁ (ix2 ⟨k.val - 80, by omega⟩ j)
        else if h3 : k.val < 240 then x₂ (ix2 ⟨k.val - 160, by omega⟩ j)
        else x₃ (ix2 ⟨k.val - 240, by have := k.isLt; omega⟩ j) := by
  have hi : ∀ (g : Fin 80) (i : (⟨2, ![80, c]⟩ : Shape).Idx), i = ix2 g j →
      ∀ b' : Fin 2, b'.cast rfl ≠ (0 : Fin 2) → (i b').val = ((ix2 k j : (⟨2, ![320, c]⟩ : Shape).Idx) (b'.cast rfl)).val :=
    fun g i hi b' hb => by subst hi; exact match b' with | ⟨0, _⟩ => absurd rfl hb | ⟨1, _⟩ => rfl
  split
  · next h1 =>
    exact concatenate_apply_piece (0 : Fin 2) [⟨⟨2, ![80, c]⟩, x₀⟩, ⟨⟨2, ![80, c]⟩, x₁⟩, ⟨⟨2, ![80, c]⟩, x₂⟩, ⟨⟨2, ![80, c]⟩, x₃⟩] h (ix2 k j)
      0 (by show 0 < 4; omega) ⟨2, ![80, c]⟩ x₀ rfl rfl 0 rfl (ix2 ⟨k.val, h1⟩ j) (hi _ _ rfl) (Nat.zero_add _)
  · next h1 =>
    split
    · next h2 =>
      exact concatenate_apply_piece (0 : Fin 2) [⟨⟨2, ![80, c]⟩, x₀⟩, ⟨⟨2, ![80, c]⟩, x₁⟩, ⟨⟨2, ![80, c]⟩, x₂⟩, ⟨⟨2, ![80, c]⟩, x₃⟩] h (ix2 k j)
        1 (by show 1 < 4; omega) ⟨2, ![80, c]⟩ x₁ rfl rfl 80 (by simp) (ix2 ⟨k.val - 80, by omega⟩ j) (hi _ _ rfl)
        (by show 80 + (k.val - 80) = k.val; omega)
    · next h2 =>
      split
      · next h3 =>
        exact concatenate_apply_piece (0 : Fin 2) [⟨⟨2, ![80, c]⟩, x₀⟩, ⟨⟨2, ![80, c]⟩, x₁⟩, ⟨⟨2, ![80, c]⟩, x₂⟩, ⟨⟨2, ![80, c]⟩, x₃⟩] h (ix2 k j)
          2 (by show 2 < 4; omega) ⟨2, ![80, c]⟩ x₂ rfl rfl 160 (by simp) (ix2 ⟨k.val - 160, by omega⟩ j) (hi _ _ rfl)
          (by show 160 + (k.val - 160) = k.val; omega)
      · next h3 =>
        exact concatenate_apply_piece (0 : Fin 2) [⟨⟨2, ![80, c]⟩, x₀⟩, ⟨⟨2, ![80, c]⟩, x₁⟩, ⟨⟨2, ![80, c]⟩, x₂⟩, ⟨⟨2, ![80, c]⟩, x₃⟩] h (ix2 k j)
          3 (by show 3 < 4; omega) ⟨2, ![80, c]⟩ x₃ rfl rfl 240 (by simp) (ix2 ⟨k.val - 240, by have := k.isLt; omega⟩ j) (hi _ _ rfl)
          (by show 240 + (k.val - 240) = k.val; omega)

/-- A rank-3 array padded behind its last axis reads the operand inside and the padding value behind it. -/
theorem pad_last_apply {a b c c' e : ℕ} (x : (⟨3, ![a, b, c]⟩ : Shape).Idx → α) {u : Shape} (v : u.Idx → α)
    (h : (⟨3, ![a, b, c]⟩ : Shape).Pads ![0, 0, 0] ![0, 0, e] ![0, 0, 0] ⟨3, ![a, b, c']⟩) (hu : 0 < u.numel)
    (t : Fin a) (p : Fin b) (q : Fin c') :
    pad ⟨3, ![a, b, c']⟩ ![0, 0, 0] ![0, 0, e] ![0, 0, 0] x v h hu (ix3 t p q)
      = if hq : q.val < c then x (ix3 t p ⟨q.val, hq⟩) else v (Shape.Idx.first hu) := by
  split
  · next hq =>
    exact pad_apply_of_inside _ _ _ x v h hu _ (ix3 t p ⟨q.val, hq⟩) (fun ax => by
      match ax with
      | ⟨0, _⟩ => show t.val = 0 + t.val * (0 + 1); omega
      | ⟨1, _⟩ => show p.val = 0 + p.val * (0 + 1); omega
      | ⟨2, _⟩ => show q.val = 0 + q.val * (0 + 1); omega)
  · next hq =>
    refine pad_apply_of_not_inside _ _ _ x v h hu _ (2 : Fin 3) (fun hin => hq ?_)
    have h3 : (q.val - 0) / (0 + 1) < c := hin.2.2
    simpa using h3

/-! ## The weights' re-blocking -/

/-- The weights regrouped as (feature, diffusion term, output) off the raw `[(dx + 64) · 5, o]` array: the 64 state
    features first, then the `dx` input features, then zero rows up to 80. -/
def wmR {n o : ℕ} (dx : ℕ) (hn : (dx + 64) * 5 = n) (W : (⟨2, ![n, o]⟩ : Shape).Idx → EReal) :
    Fin 80 → Fin 5 → Fin o → EReal :=
  fun f m j =>
    if h1 : f.val < 64 then W (ix2 ⟨(dx + f.val) * 5 + m.val, by have := m.isLt; omega⟩ j)
    else if h2 : f.val < 64 + dx then W (ix2 ⟨(f.val - 64) * 5 + m.val, by have := m.isLt; omega⟩ j)
    else 0

/-- The regrouping as the host spells it — reshape to `[dx + 64, 5, o]`, cut the state rows and the input rows, lay them
    end to end with a zero block behind — read at `(f, m, j)`. -/
theorem wm_apply {n a dx z o : ℕ} (hn : (dx + 64) * 5 = n) (W : (⟨2, ![n, o]⟩ : Shape).Idx → EReal)
    (hcast : (⟨2, ![n, o]⟩ : Shape).ShapeCasts ⟨3, ![a, 5, o]⟩)
    (h1 : (⟨3, ![a, 5, o]⟩ : Shape).Slices ![dx, 0, 0] ⟨3, ![64, 5, o]⟩)
    (h2 : (⟨3, ![a, 5, o]⟩ : Shape).Slices ![0, 0, 0] ⟨3, ![dx, 5, o]⟩)
    (Z : (⟨3, ![z, 5, o]⟩ : Shape).Idx → EReal) (hZ : ∀ i, Z i = 0)
    (hc : Shape.Concatenates [⟨3, ![64, 5, o]⟩, ⟨3, ![dx, 5, o]⟩, ⟨3, ![z, 5, o]⟩] ⟨3, ![80, 5, o]⟩ 0)
    (f : Fin 80) (m : Fin 5) (j : Fin o) :
    concatenate ⟨3, ![80, 5, o]⟩ 0
        [⟨⟨3, ![64, 5, o]⟩, extractStridedSlice ⟨3, ![64, 5, o]⟩ ![dx, 0, 0] (shapeCast ⟨3, ![a, 5, o]⟩ W hcast) h1⟩,
         ⟨⟨3, ![dx, 5, o]⟩, extractStridedSlice ⟨3, ![dx, 5, o]⟩ ![0, 0, 0] (shapeCast ⟨3, ![a, 5, o]⟩ W hcast) h2⟩,
         ⟨⟨3, ![z, 5, o]⟩, Z⟩] hc (ix3 f m j)
      = wmR dx hn W f m j := by
  have ha : dx + 64 ≤ a := h1.2 0
  refine (concat3_axis0_apply _ _ _ hc f m j).trans ?_
  unfold wmR
  split
  · next h0 =>
    refine (slice3_axis0_apply dx _ h1 ⟨f.val, h0⟩ m j ⟨dx + f.val, by omega⟩ rfl).trans ?_
    exact shapeCast_rows5_apply W hcast _ m j _ rfl
  · next h0 =>
    split
    · next h1' =>
      refine (slice3_axis0_apply 0 _ h2 ⟨f.val - 64, by omega⟩ m j ⟨f.val - 64, by omega⟩ (Nat.zero_add _).symm).trans ?_
      exact shapeCast_rows5_apply W hcast _ m j _ rfl
    · next h1' => exact hZ _

/-- The identity term's weight with both second-order terms subtracted, as the host computes it from the regrouped
    array's columns 0, 2 and 4. -/
theorem w0_apply {o : ℕ} (C : FVec Ideal ⟨3, ![80, 5, o]⟩ .f32)
    (hs0 : (⟨3, ![80, 5, o]⟩ : Shape).Slices ![0, 0, 0] ⟨3, ![80, 1, o]⟩)
    (hs2 : (⟨3, ![80, 5, o]⟩ : Shape).Slices ![0, 2, 0] ⟨3, ![80, 1, o]⟩)
    (hs4 : (⟨3, ![80, 5, o]⟩ : Shape).Slices ![0, 4, 0] ⟨3, ![80, 1, o]⟩)
    (hc : (⟨3, ![80, 1, o]⟩ : Shape).ShapeCasts ⟨2, ![80, o]⟩) (f : Fin 80) (j : Fin o) :
    (subf (subf (shapeCast ⟨2, ![80, o]⟩ (extractStridedSlice ⟨3, ![80, 1, o]⟩ ![0, 0, 0] C hs0) hc : FVec Ideal ⟨2, ![80, o]⟩ .f32)
            (shapeCast ⟨2, ![80, o]⟩ (extractStridedSlice ⟨3, ![80, 1, o]⟩ ![0, 2, 0] C hs2) hc))
          (shapeCast ⟨2, ![80, o]⟩ (extractStridedSlice ⟨3, ![80, 1, o]⟩ ![0, 4, 0] C hs4) hc) : FVec Ideal ⟨2, ![80, o]⟩ .f32) (ix2 f j)
      = C (ix3 f 0 j) - C (ix3 f 2 j) - C (ix3 f 4 j) := by
  rw [subf_apply, subf_apply, col_apply 0 C hs0 hc f j 0 rfl, col_apply 2 C hs2 hc f j 2 rfl, col_apply 4 C hs4 hc f j 4 rfl]

/-- The four diffusion blocks' weights stacked, the second-order blocks doubled by a broadcast two, as the host
    computes them from the regrouped array's columns 1, 2, 3 and 4. -/
theorem w4_apply {o : ℕ} (C : FVec Ideal ⟨3, ![80, 5, o]⟩ .f32)
    (hs1 : (⟨3, ![80, 5, o]⟩ : Shape).Slices ![0, 1, 0] ⟨3, ![80, 1, o]⟩)
    (hs2 : (⟨3, ![80, 5, o]⟩ : Shape).Slices ![0, 2, 0] ⟨3, ![80, 1, o]⟩)
    (hs3 : (⟨3, ![80, 5, o]⟩ : Shape).Slices ![0, 3, 0] ⟨3, ![80, 1, o]⟩)
    (hs4 : (⟨3, ![80, 5, o]⟩ : Shape).Slices ![0, 4, 0] ⟨3, ![80, 1, o]⟩)
    (hc : (⟨3, ![80, 1, o]⟩ : Shape).ShapeCasts ⟨2, ![80, o]⟩)
    (B B' : FVec Ideal ⟨2, ![80, o]⟩ .f32) (t : EReal) (hB : ∀ i, B i = t) (hB' : ∀ i, B' i = t)
    (hcat : Shape.Concatenates [⟨2, ![80, o]⟩, ⟨2, ![80, o]⟩, ⟨2, ![80, o]⟩, ⟨2, ![80, o]⟩] ⟨2, ![320, o]⟩ 0)
    (k : Fin 320) (j : Fin o) :
    concatenate ⟨2, ![320, o]⟩ 0
        [⟨⟨2, ![80, o]⟩, shapeCast ⟨2, ![80, o]⟩ (extractStridedSlice ⟨3, ![80, 1, o]⟩ ![0, 1, 0] C hs1) hc⟩,
         ⟨⟨2, ![80, o]⟩, (mulf B (shapeCast ⟨2, ![80, o]⟩ (extractStridedSlice ⟨3, ![80, 1, o]⟩ ![0, 2, 0] C hs2) hc) : FVec Ideal ⟨2, ![80, o]⟩ .f32)⟩,
         ⟨⟨2, ![80, o]⟩, shapeCast ⟨2, ![80, o]⟩ (extractStridedSlice ⟨3, ![80, 1, o]⟩ ![0, 3, 0] C hs3) hc⟩,
         ⟨⟨2, ![80, o]⟩, (mulf B' (shapeCast ⟨2, ![80, o]⟩ (extractStridedSlice ⟨3, ![80, 1, o]⟩ ![0, 4, 0] C hs4) hc) : FVec Ideal ⟨2, ![80, o]⟩ .f32)⟩]
        hcat (ix2 k j)
      = if h1 : k.val < 80 then C (ix3 ⟨k.val, h1⟩ 1 j)
        else if h2 : k.val < 160 then t * C (ix3 ⟨k.val - 80, by omega⟩ 2 j)
        else if h3 : k.val < 240 then C (ix3 ⟨k.val - 160, by omega⟩ 3 j)
        else t * C (ix3 ⟨k.val - 240, by have := k.isLt; omega⟩ 4 j) := by
  refine (concat4_rows80_apply _ _ _ _ hcat k j).trans ?_
  split
  · next h1 => exact col_apply 1 C hs1 hc _ j 1 rfl
  · next h1 =>
    split
    · next h2 => rw [mulf_apply, hB, col_apply 2 C hs2 hc _ j 2 rfl]
    · next h2 =>
      split
      · next h3 => exact col_apply 3 C hs3 hc _ j 3 rfl
      · next h3 => rw [mulf_apply, hB', col_apply 4 C hs4 hc _ j 4 rfl]

/-- The constant two as the host's float word. -/
def twoR : EReal := Ideal.ofBits .f32 0x40000000#32

/-- The identity term's weight with both second-order terms folded in, from the regrouped weights `G`. -/
def w0R {o : ℕ} (G : Fin 80 → Fin 5 → Fin o → EReal) : Fin 80 → Fin o → EReal :=
  fun f j => G f 0 j - G f 2 j - G f 4 j

/-- The four diffusion blocks' weights, 80 rows each, the second-order blocks doubled, from the regrouped weights `G`. -/
def w4R {o : ℕ} (G : Fin 80 → Fin 5 → Fin o → EReal) : Fin 320 → Fin o → EReal :=
  fun k j =>
    if h1 : k.val < 80 then G ⟨k.val, h1⟩ 1 j
    else if h2 : k.val < 160 then twoR * G ⟨k.val - 80, by omega⟩ 2 j
    else if h3 : k.val < 240 then G ⟨k.val - 160, by omega⟩ 3 j
    else twoR * G ⟨k.val - 240, by have := k.isLt; omega⟩ 4 j

/-- `w0_apply` over a regrouped array known entry by entry. -/
theorem w0_apply_of {o : ℕ} (C : FVec Ideal ⟨3, ![80, 5, o]⟩ .f32)
    (hs0 : (⟨3, ![80, 5, o]⟩ : Shape).Slices ![0, 0, 0] ⟨3, ![80, 1, o]⟩)
    (hs2 : (⟨3, ![80, 5, o]⟩ : Shape).Slices ![0, 2, 0] ⟨3, ![80, 1, o]⟩)
    (hs4 : (⟨3, ![80, 5, o]⟩ : Shape).Slices ![0, 4, 0] ⟨3, ![80, 1, o]⟩)
    (hc : (⟨3, ![80, 1, o]⟩ : Shape).ShapeCasts ⟨2, ![80, o]⟩)
    (G : Fin 80 → Fin 5 → Fin o → EReal) (hG : ∀ f m j, C (ix3 f m j) = G f m j) (f : Fin 80) (j : Fin o) :
    (subf (subf (shapeCast ⟨2, ![80, o]⟩ (extractStridedSlice ⟨3, ![80, 1, o]⟩ ![0, 0, 0] C hs0) hc : FVec Ideal ⟨2, ![80, o]⟩ .f32)
            (shapeCast ⟨2, ![80, o]⟩ (extractStridedSlice ⟨3, ![80, 1, o]⟩ ![0, 2, 0] C hs2) hc))
          (shapeCast ⟨2, ![80, o]⟩ (extractStridedSlice ⟨3, ![80, 1, o]⟩ ![0, 4, 0] C hs4) hc) : FVec Ideal ⟨2, ![80, o]⟩ .f32) (ix2 f j)
      = w0R G f j := by
  rw [w0_apply, hG, hG, hG]; rfl

/-- `w4_apply` over a regrouped array known entry by entry. -/
theorem w4_apply_of {o : ℕ} (C : FVec Ideal ⟨3, ![80, 5, o]⟩ .f32)
    (hs1 : (⟨3, ![80, 5, o]⟩ : Shape).Slices ![0, 1, 0] ⟨3, ![80, 1, o]⟩)
    (hs2 : (⟨3, ![80, 5, o]⟩ : Shape).Slices ![0, 2, 0] ⟨3, ![80, 1, o]⟩)
    (hs3 : (⟨3, ![80, 5, o]⟩ : Shape).Slices ![0, 3, 0] ⟨3, ![80, 1, o]⟩)
    (hs4 : (⟨3, ![80, 5, o]⟩ : Shape).Slices ![0, 4, 0] ⟨3, ![80, 1, o]⟩)
    (hc : (⟨3, ![80, 1, o]⟩ : Shape).ShapeCasts ⟨2, ![80, o]⟩)
    (B B' : FVec Ideal ⟨2, ![80, o]⟩ .f32) (hB : ∀ i, B i = twoR) (hB' : ∀ i, B' i = twoR)
    (hcat : Shape.Concatenates [⟨2, ![80, o]⟩, ⟨2, ![80, o]⟩, ⟨2, ![80, o]⟩, ⟨2, ![80, o]⟩] ⟨2, ![320, o]⟩ 0)
    (G : Fin 80 → Fin 5 → Fin o → EReal) (hG : ∀ f m j, C (ix3 f m j) = G f m j) (k : Fin 320) (j : Fin o) :
    concatenate ⟨2, ![320, o]⟩ 0
        [⟨⟨2, ![80, o]⟩, shapeCast ⟨2, ![80, o]⟩ (extractStridedSlice ⟨3, ![80, 1, o]⟩ ![0, 1, 0] C hs1) hc⟩,
         ⟨⟨2, ![80, o]⟩, (mulf B (shapeCast ⟨2, ![80, o]⟩ (extractStridedSlice ⟨3, ![80, 1, o]⟩ ![0, 2, 0] C hs2) hc) : FVec Ideal ⟨2, ![80, o]⟩ .f32)⟩,
         ⟨⟨2, ![80, o]⟩, shapeCast ⟨2, ![80, o]⟩ (extractStridedSlice ⟨3, ![80, 1, o]⟩ ![0, 3, 0] C hs3) hc⟩,
         ⟨⟨2, ![80, o]⟩, (mulf B' (shapeCast ⟨2, ![80, o]⟩ (extractStridedSlice ⟨3, ![80, 1, o]⟩ ![0, 4, 0] C hs4) hc) : FVec Ideal ⟨2, ![80, o]⟩ .f32)⟩]
        hcat (ix2 k j)
      = w4R G k j := by
  rw [w4_apply C hs1 hs2 hs3 hs4 hc B B' twoR hB hB' hcat k j]
  unfold w4R
  simp only [hG]

/-! ## The host operations before the call -/

/-- The host operations that run before the call, in order. -/
abbrev preOps : List (HloOp τ sig (Elt Ideal)) := List.flatten [Gen.hostOps0, Gen.hostOps0_1, Gen.hostOps0_2]

section Results
variable {Val : EltTy → Type} {x a b y : Ref sig .tc}

/-- An operation over a literal family of three operands leaves in its result buffer its function of the three
    operands' contents, each at its own reference. -/
theorem nary3_result'
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

end Results

/-- Opens the fold of the host operations at one buffer: every operation's result at its own buffer is its function
    of its operands' contents, and any other buffer keeps what it held.  One simplification pass does the bulk; the
    operands of a three-way concatenation, which that pass leaves folded, are opened by rewriting. -/
macro "host_read" : tactic =>
  `(tactic| (simp only [preOps, Gen.hostOps0, Gen.hostOps0_1, Gen.hostOps0_2, List.flatten_cons, List.flatten_nil,
      List.append_nil, List.cons_append, List.nil_append]
             simp (disch := decide) only [StableHlo.after_cons, StableHlo.after_nil,
      StableHlo.nullary_result', StableHlo.unary_result', StableHlo.binary_result', StableHlo.reshape_result',
      StableHlo.nary4_result', nary3_result',
      StableHlo.nullary_result_ne', StableHlo.unary_result_ne', StableHlo.binary_result_ne', StableHlo.reshape_result_ne',
      StableHlo.nary_result_ne']
             repeat (first
               | rw [StableHlo.nullary_result] | rw [StableHlo.unary_result] | rw [StableHlo.binary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide))))

end Cert.KernelIdeal.Host

end
-- ==== Proof.KHostX.lean ====
/-
  The padded inputs the call stages: the input array [8, 16, 1656] regrouped as [8, 3312, 8] (one row per
  batch entry and node, the node's eight readings along the row), eight zero columns appended, and a change of
  format that is the identity on extended reals.
-/
import proofs.«113864_g48979807044058_cont_8to1_c_230_28_alg».proof.Proof.KHostBase

noncomputable section

namespace Cert.KernelIdeal.Host

open Idealize.ShloMosaic Idealize.ShloMosaic.TcCoe Idealize.ShloMosaic.ValueIdx

/-! ## The padded inputs (raw form) -/

/-- The inputs `[8, 16, 1656]` (eight readings per node, nodes side by side in a batch row) regrouped as
    `[8, 3312, 8]`: row `p = 207 b + n`, reading `i`, is entry `(b, 8 n + i)`. -/
theorem reshape_inputs_apply {α : Type} (A : (⟨3, ![8, 16, 1656]⟩ : Shape).Idx → α)
    (h : (⟨3, ![8, 16, 1656]⟩ : Shape).ShapeCasts ⟨3, ![8, 3312, 8]⟩) (t : Fin 8) (p : Fin 3312) (i : Fin 8) :
    shapeCast ⟨3, ![8, 3312, 8]⟩ A h (ix3 t p i)
      = A (ix3 t (⟨p.val / 207, by have := p.isLt; omega⟩ : Fin 16)
            (⟨p.val % 207 * 8 + i.val, by have := Nat.mod_lt p.val (by decide : 0 < 207); have := i.isLt; omega⟩ : Fin 1656)) :=
  shapeCast_apply A h _ _ (by
    rw [Shape.rowMajor_val_three, Shape.rowMajor_val_three]
    show (t.val * 16 + p.val / 207) * 1656 + (p.val % 207 * 8 + i.val) = (t.val * 3312 + p.val) * 8 + i.val
    have := p.isLt
    omega)

theorem win0_raw (V0 : Valuation τ sig (Elt Ideal)) (t : Fin 8) (p : Fin 3312) (q : Fin 16) :
    (StableHlo.after preOps V0 (Proc.devRef .tc main_v2) : FVec Ideal S8x3312x16 .bf16) (ix3 t p q)
      = if h : q.val < 8 then
          ((V0 (Proc.devRef .tc main_arg0) : FVec Ideal S8x16x1656 .f32)
            (ix3 t (⟨p.val / 207, by have := p.isLt; omega⟩ : Fin 16)
              (⟨p.val % 207 * 8 + q.val, by have := Nat.mod_lt p.val (by decide : 0 < 207); omega⟩ : Fin 1656)) : EReal)
        else (0 : EReal) := by
  host_read
  simp only [StableHlo.TRef.toBuf, StableHlo.TRef.ofBuf, cast_eq, id]
  rw [truncf_apply]
  refine (pad_last_apply _ _ _ _ t p q).trans ?_
  split
  · next hq => exact reshape_inputs_apply _ _ t p ⟨q.val, hq⟩
  · next hq =>
    rw [sitofp_apply, constantI_apply]
    show ((((0#32 : BitVec 32).toInt : ℤ) : ℝ) : EReal) = 0
    simp

end Cert.KernelIdeal.Host

end
-- ==== Proof.KHostS.lean ====
/-
  The support matrices the call stages: each support transposed, and the wide matrix [S₀ᵀ | 0 | S₁ᵀ | 0] of
  207 + 49 + 207 + 49 columns that lets one product compute both first diffusion steps.
-/
import proofs.«113864_g48979807044058_cont_8to1_c_230_28_alg».proof.Proof.KHostBase

noncomputable section

namespace Cert.KernelIdeal.Host

open Idealize.ShloMosaic Idealize.ShloMosaic.TcCoe Idealize.ShloMosaic.ValueIdx

/-! ## The supports (raw form) -/

/-- The four column blocks of the wide support matrix — 207, 49, 207 and 49 columns — read at `(n, c)`. -/
theorem concat_ss_apply {α : Type} (x₀ x₂ : (⟨2, ![207, 207]⟩ : Shape).Idx → α) (x₁ x₃ : (⟨2, ![207, 49]⟩ : Shape).Idx → α)
    (h : Shape.Concatenates (([⟨⟨2, ![207, 207]⟩, x₀⟩, ⟨⟨2, ![207, 49]⟩, x₁⟩, ⟨⟨2, ![207, 207]⟩, x₂⟩, ⟨⟨2, ![207, 49]⟩, x₃⟩] :
      List ((s : Shape) × (s.Idx → α))).map (·.1)) ⟨2, ![207, 512]⟩ 1)
    (n : Fin 207) (c : Fin 512) :
    concatenate ⟨2, ![207, 512]⟩ 1 [⟨⟨2, ![207, 207]⟩, x₀⟩, ⟨⟨2, ![207, 49]⟩, x₁⟩, ⟨⟨2, ![207, 207]⟩, x₂⟩, ⟨⟨2, ![207, 49]⟩, x₃⟩] h (ix2 n c)
      = if h1 : c.val < 207 then x₀ (ix2 n ⟨c.val, h1⟩)
        else if h2 : c.val < 256 then x₁ (ix2 n ⟨c.val - 207, by omega⟩)
        else if h3 : c.val < 463 then x₂ (ix2 n ⟨c.val - 256, by omega⟩)
        else x₃ (ix2 n ⟨c.val - 463, by have := c.isLt; omega⟩) := by
  have hi : ∀ {r : ℕ} (g : Fin r) (i : (⟨2, ![207, r]⟩ : Shape).Idx), i = ix2 n g →
      ∀ b' : Fin 2, b'.cast rfl ≠ (1 : Fin 2) → (i b').val = ((ix2 n c : (⟨2, ![207, 512]⟩ : Shape).Idx) (b'.cast rfl)).val :=
    fun g i hi b' hb => by subst hi; exact match b' with | ⟨0, _⟩ => rfl | ⟨1, _⟩ => absurd rfl hb
  split
  · next h1 =>
    exact concatenate_apply_piece (1 : Fin 2) [⟨⟨2, ![207, 207]⟩, x₀⟩, ⟨⟨2, ![207, 49]⟩, x₁⟩, ⟨⟨2, ![207, 207]⟩, x₂⟩, ⟨⟨2, ![207, 49]⟩, x₃⟩] h (ix2 n c)
      0 (by show 0 < 4; omega) ⟨2, ![207, 207]⟩ x₀ rfl rfl 0 rfl (ix2 n ⟨c.val, h1⟩) (hi _ _ rfl) (Nat.zero_add _)
  · next h1 =>
    split
    · next h2 =>
      exact concatenate_apply_piece (1 : Fin 2) [⟨⟨2, ![207, 207]⟩, x₀⟩, ⟨⟨2, ![207, 49]⟩, x₁⟩, ⟨⟨2, ![207, 207]⟩, x₂⟩, ⟨⟨2, ![207, 49]⟩, x₃⟩] h (ix2 n c)
        1 (by show 1 < 4; omega) ⟨2, ![207, 49]⟩ x₁ rfl rfl 207 (by simp) (ix2 n ⟨c.val - 207, by omega⟩) (hi _ _ rfl)
        (by show 207 + (c.val - 207) = c.val; omega)
    · next h2 =>
      split
      · next h3 =>
        exact concatenate_apply_piece (1 : Fin 2) [⟨⟨2, ![207, 207]⟩, x₀⟩, ⟨⟨2, ![207, 49]⟩, x₁⟩, ⟨⟨2, ![207, 207]⟩, x₂⟩, ⟨⟨2, ![207, 49]⟩, x₃⟩] h (ix2 n c)
          2 (by show 2 < 4; omega) ⟨2, ![207, 207]⟩ x₂ rfl rfl 256 (by simp) (ix2 n ⟨c.val - 256, by omega⟩) (hi _ _ rfl)
          (by show 256 + (c.val - 256) = c.val; omega)
      · next h3 =>
        exact concatenate_apply_piece (1 : Fin 2) [⟨⟨2, ![207, 207]⟩, x₀⟩, ⟨⟨2, ![207, 49]⟩, x₁⟩, ⟨⟨2, ![207, 207]⟩, x₂⟩, ⟨⟨2, ![207, 49]⟩, x₃⟩] h (ix2 n c)
          3 (by show 3 < 4; omega) ⟨2, ![207, 49]⟩ x₃ rfl rfl 463 (by simp) (ix2 n ⟨c.val - 463, by have := c.isLt; omega⟩) (hi _ _ rfl)
          (by show 463 + (c.val - 463) = c.val; omega)

theorem win2_raw (V0 : Valuation τ sig (Elt Ideal)) (m n : Fin 207) :
    (StableHlo.after preOps V0 (Proc.devRef .tc main_v116) : FVec Ideal S207x207 .bf16) (ix2 m n)
      = (V0 (Proc.devRef .tc main_arg1) : FVec Ideal S207x207 .f32) (ix2 n m) := by
  host_read
  exact transpose_ix2_apply _ _ m n

theorem win3_raw (V0 : Valuation τ sig (Elt Ideal)) (m n : Fin 207) :
    (StableHlo.after preOps V0 (Proc.devRef .tc main_v118) : FVec Ideal S207x207 .bf16) (ix2 m n)
      = (V0 (Proc.devRef .tc main_arg2) : FVec Ideal S207x207 .f32) (ix2 n m) := by
  host_read
  exact transpose_ix2_apply _ _ m n

theorem win1_raw (V0 : Valuation τ sig (Elt Ideal)) (n : Fin 207) (c : Fin 512) :
    (StableHlo.after preOps V0 (Proc.devRef .tc main_v120) : FVec Ideal S207x512 .bf16) (ix2 n c)
      = if h1 : c.val < 207 then ((V0 (Proc.devRef .tc main_arg1) : FVec Ideal S207x207 .f32) (ix2 ⟨c.val, h1⟩ n) : EReal)
        else if h2 : c.val < 256 then (0 : EReal)
        else if h3 : c.val < 463 then ((V0 (Proc.devRef .tc main_arg2) : FVec Ideal S207x207 .f32) (ix2 ⟨c.val - 256, by omega⟩ n) : EReal)
        else (0 : EReal) := by
  simp only [preOps, Gen.hostOps0, Gen.hostOps0_1, Gen.hostOps0_2, List.flatten_cons, List.flatten_nil,
    List.append_nil, List.cons_append, List.nil_append]
  simp (disch := decide) only [StableHlo.after_cons, StableHlo.after_nil,
    StableHlo.nullary_result', StableHlo.unary_result', StableHlo.binary_result', StableHlo.reshape_result',
    StableHlo.nary4_result',
    StableHlo.nullary_result_ne', StableHlo.unary_result_ne', StableHlo.binary_result_ne', StableHlo.reshape_result_ne',
    StableHlo.nary_result_ne']
  show concatenate S207x512 1
      [⟨S207x207, truncf .bf16 (transpose S207x207 [1, 0] (V0 (Proc.devRef .tc main_arg1) : FVec Ideal S207x207 .f32)
          Gen.transposes_S207x207_S207x207_1_0) Gen.bitsLt_bf16_f32⟩,
       ⟨S207x49, broadcastInDim S207x49 ![] Gen.bcast_S_S207x49 (constant (F := Ideal) S_ .bf16 0x0000#16)⟩,
       ⟨S207x207, truncf .bf16 (transpose S207x207 [1, 0] (V0 (Proc.devRef .tc main_arg2) : FVec Ideal S207x207 .f32)
          Gen.transposes_S207x207_S207x207_1_0) Gen.bitsLt_bf16_f32⟩,
       ⟨S207x49, broadcastInDim S207x49 ![] Gen.bcast_S_S207x49 (constant (F := Ideal) S_ .bf16 0x0000#16)⟩]
      Gen.concatenates_S207x207_S207x49_S207x207_S207x49_S207x512_d1 (ix2 n c) = _
  rw [concat_ss_apply]
  by_cases h1 : c.val < 207
  · simp only [dif_pos h1]
    rw [truncf_apply]
    exact transpose_ix2_apply _ _ n _
  · by_cases h2 : c.val < 256
    · simp only [dif_neg h1, dif_pos h2]
      rw [broadcastInDim_scalar_apply, constant_apply, Ideal.ofBits_zero_bf16]
    · by_cases h3 : c.val < 463
      · simp only [dif_neg h1, dif_neg h2, dif_pos h3]
        rw [truncf_apply]
        exact transpose_ix2_apply _ _ n _
      · simp only [dif_neg h1, dif_neg h2, dif_neg h3]
        rw [broadcastInDim_scalar_apply, constant_apply, Ideal.ofBits_zero_bf16]

end Cert.KernelIdeal.Host

end
-- ==== Proof.KHostB.lean ====
/-
  The six small arrays the call stages unchanged: the four bias vectors as one-row matrices, the projection
  weights transposed to one row, the projection bias as a 1 × 1 matrix.  Each is one reshape or one transpose of
  an argument array, read here entry by entry.
-/
import proofs.«113864_g48979807044058_cont_8to1_c_230_28_alg».proof.Proof.KHostBase

noncomputable section

namespace Cert.KernelIdeal.Host

open Idealize.ShloMosaic Idealize.ShloMosaic.TcCoe Idealize.ShloMosaic.ValueIdx

/-! ## The biases and the projection, as the arrays hold them (raw form) -/

theorem win6_raw (V0 : Valuation τ sig (Elt Ideal)) (j : Fin 128) :
    (StableHlo.after preOps V0 (Proc.devRef .tc main_v121) : FVec Ideal S1x128 .f32) (ix2 (0 : Fin 1) j)
      = (V0 (Proc.devRef .tc main_arg4) : FVec Ideal S128 .f32) (ix1 j) := by
  host_read
  exact shapeCast_a_1a_apply _ _ _ _

theorem win9_raw (V0 : Valuation τ sig (Elt Ideal)) (j : Fin 64) :
    (StableHlo.after preOps V0 (Proc.devRef .tc main_v122) : FVec Ideal S1x64 .f32) (ix2 (0 : Fin 1) j)
      = (V0 (Proc.devRef .tc main_arg6) : FVec Ideal S64 .f32) (ix1 j) := by
  host_read
  exact shapeCast_a_1a_apply _ _ _ _

theorem win12_raw (V0 : Valuation τ sig (Elt Ideal)) (j : Fin 128) :
    (StableHlo.after preOps V0 (Proc.devRef .tc main_v123) : FVec Ideal S1x128 .f32) (ix2 (0 : Fin 1) j)
      = (V0 (Proc.devRef .tc main_arg8) : FVec Ideal S128 .f32) (ix1 j) := by
  host_read
  exact shapeCast_a_1a_apply _ _ _ _

theorem win15_raw (V0 : Valuation τ sig (Elt Ideal)) (j : Fin 64) :
    (StableHlo.after preOps V0 (Proc.devRef .tc main_v124) : FVec Ideal S1x64 .f32) (ix2 (0 : Fin 1) j)
      = (V0 (Proc.devRef .tc main_arg10) : FVec Ideal S64 .f32) (ix1 j) := by
  host_read
  exact shapeCast_a_1a_apply _ _ _ _

theorem win16_raw (V0 : Valuation τ sig (Elt Ideal)) (j : Fin 64) :
    (StableHlo.after preOps V0 (Proc.devRef .tc main_v125) : FVec Ideal S1x64 .f32) (ix2 (0 : Fin 1) j)
      = (V0 (Proc.devRef .tc main_arg11) : FVec Ideal S64x1 .f32) (ix2 j (0 : Fin 1)) := by
  host_read
  exact transpose_ix2_apply _ _ _ _

theorem win17_raw (V0 : Valuation τ sig (Elt Ideal)) :
    (StableHlo.after preOps V0 (Proc.devRef .tc main_v126) : FVec Ideal S1x1 .f32) (ix2 (0 : Fin 1) (0 : Fin 1))
      = (V0 (Proc.devRef .tc main_arg12) : FVec Ideal S1 .f32) (ix1 (0 : Fin 1)) := by
  host_read
  exact shapeCast_a_1a_apply _ _ _ _

end Cert.KernelIdeal.Host

end
-- ==== Proof.KHostCut.lean ====
/-
  Reading a buffer through a long list of host operations stretch by stretch: the fold of the whole list is the
  fold of its tail from the valuation its head leaves.  A weight array is read in three stretches, cut so that each
  concatenation opens its stretch: its operands are then entries of a valuation that is a variable, and each stretch
  is read on its own.
-/
import proofs.«113864_g48979807044058_cont_8to1_c_230_28_alg».proof.Proof.KHostBase

noncomputable section

namespace Cert.KernelIdeal.Host

open Idealize.ShloMosaic Idealize.ShloMosaic.TcCoe Idealize.ShloMosaic.ValueIdx

/-- The fold of a list of operations is the fold of what is left after the first `k`, from where those lead. -/
theorem after_take_drop {Val : EltTy → Type} (k : ℕ) :
    ∀ (L : List (HloOp τ sig Val)) (V : Valuation τ sig Val),
      StableHlo.after L V = StableHlo.after (L.drop k) (StableHlo.after (L.take k) V) := by
  induction k with
  | zero => intro L V; rfl
  | succ k ih =>
    intro L V
    cases L with
    | nil => rfl
    | cons op L =>
      rw [List.take_succ_cons, List.drop_succ_cons, StableHlo.after_cons, StableHlo.after_cons]
      exact ih L (op.result V)

/-- Opens the fold of a stretch cut out of the operation list by `List.take` / `List.drop` at literal positions, at one
    buffer: every operation's result at its own buffer is its function of its operands' contents, and any other
    buffer keeps what it held. -/
macro "host_read_tail" : tactic =>
  `(tactic| (simp only [preOps, Gen.hostOps0, Gen.hostOps0_1, Gen.hostOps0_2, List.flatten_cons, List.flatten_nil,
      List.append_nil, List.cons_append, List.nil_append, List.take_succ_cons, List.take_zero, List.drop_succ_cons,
      List.drop_zero]
             simp (disch := decide) only [StableHlo.after_cons, StableHlo.after_nil,
      StableHlo.nullary_result', StableHlo.unary_result', StableHlo.binary_result', StableHlo.reshape_result',
      StableHlo.nary4_result', nary3_result',
      StableHlo.nullary_result_ne', StableHlo.unary_result_ne', StableHlo.binary_result_ne', StableHlo.reshape_result_ne',
      StableHlo.nary_result_ne']))

end Cert.KernelIdeal.Host

end
-- ==== Proof.KHostWruE.lean ====
/-
  The encoder's gate weights as the call stages them: the array [360, 128] regrouped to (feature, diffusion
  term, output), the 64 state features moved in front of the 8 input features, 8 zero rows appended; then the identity
  term's weight column 0 − column 2 − column 4, and the four diffusion blocks (columns 1, 2, 3, 4, the second-order
  columns 2 and 4 doubled) stacked.
-/
import proofs.«113864_g48979807044058_cont_8to1_c_230_28_alg».proof.Proof.KHostCut

noncomputable section

namespace Cert.KernelIdeal.Host

open Idealize.ShloMosaic Idealize.ShloMosaic.TcCoe Idealize.ShloMosaic.ValueIdx

/-! ## The encoder's gate weights, re-blocked (raw form)

The operation list is read in three stretches, each from a valuation that is a variable: the first 10 operations
leave the reshaped array's state rows, its input rows and a zero block; the next 23 begin with the concatenation of
those three and compute from it the identity term's weight and the four diffusion blocks; the rest begin with the
concatenation of the four blocks and change the two results' format. -/

/-- The regrouped array the host builds from the encoder's gate weights: the reshape's state rows, its input rows, zero rows. -/
abbrev wmC_WruE (V0 : Valuation τ sig (Elt Ideal)) : FVec Ideal S80x5x128 .f32 :=
  concatenate S80x5x128 0
    [⟨S64x5x128, extractStridedSlice S64x5x128 ![8, 0, 0] (shapeCast S72x5x128 (V0 (Proc.devRef .tc main_arg3) : FVec Ideal S360x128 .f32) Gen.shapeCasts_S360x128_S72x5x128) Gen.slices_S72x5x128_S64x5x128_8_0_0⟩,
     ⟨S8x5x128, extractStridedSlice S8x5x128 ![0, 0, 0] (shapeCast S72x5x128 (V0 (Proc.devRef .tc main_arg3) : FVec Ideal S360x128 .f32) Gen.shapeCasts_S360x128_S72x5x128) Gen.slices_S72x5x128_S8x5x128_0_0_0⟩,
     ⟨S8x5x128, broadcastInDim S8x5x128 ![] Gen.bcast_S_S8x5x128 (constant (F := Ideal) S_ .f32 0x00000000#32)⟩]
    Gen.concatenates_S64x5x128_S8x5x128_S8x5x128_S80x5x128_d0

/-- The regrouped array, entry by entry. -/
theorem wm_WruE (V0 : Valuation τ sig (Elt Ideal)) (f : Fin 80) (m : Fin 5) (j : Fin 128) :
    wmC_WruE V0 (ix3 f m j) = wmR 8 rfl (V0 (Proc.devRef .tc main_arg3) : FVec Ideal S360x128 .f32) f m j :=
  wm_apply (n := 360) (a := 72) (dx := 8) (z := 8) (o := 128) rfl (V0 (Proc.devRef .tc main_arg3) : FVec Ideal S360x128 .f32)
    Gen.shapeCasts_S360x128_S72x5x128 Gen.slices_S72x5x128_S64x5x128_8_0_0 Gen.slices_S72x5x128_S8x5x128_0_0_0
    (broadcastInDim S8x5x128 ![] Gen.bcast_S_S8x5x128 (constant (F := Ideal) S_ .f32 0x00000000#32))
    (fun i => by rw [broadcastInDim_scalar_apply, constant_apply, Ideal.ofBits_zero_f32])
    Gen.concatenates_S64x5x128_S8x5x128_S8x5x128_S80x5x128_d0 f m j

/-! ### The first stretch: the three blocks -/

theorem headA_WruE (V0 : Valuation τ sig (Elt Ideal)) :
    ((StableHlo.after (List.take 10 preOps) V0) (Proc.devRef .tc main_v4) : FVec Ideal S64x5x128 .f32) = extractStridedSlice S64x5x128 ![8, 0, 0] (shapeCast S72x5x128 (V0 (Proc.devRef .tc main_arg3) : FVec Ideal S360x128 .f32) Gen.shapeCasts_S360x128_S72x5x128) Gen.slices_S72x5x128_S64x5x128_8_0_0 := by
  host_read_tail
  all_goals rfl

theorem headB_WruE (V0 : Valuation τ sig (Elt Ideal)) :
    ((StableHlo.after (List.take 10 preOps) V0) (Proc.devRef .tc main_v5) : FVec Ideal S8x5x128 .f32) = extractStridedSlice S8x5x128 ![0, 0, 0] (shapeCast S72x5x128 (V0 (Proc.devRef .tc main_arg3) : FVec Ideal S360x128 .f32) Gen.shapeCasts_S360x128_S72x5x128) Gen.slices_S72x5x128_S8x5x128_0_0_0 := by
  host_read_tail
  all_goals rfl

theorem headC_WruE (V0 : Valuation τ sig (Elt Ideal)) :
    ((StableHlo.after (List.take 10 preOps) V0) (Proc.devRef .tc main_v6) : FVec Ideal S8x5x128 .f32) = broadcastInDim S8x5x128 ![] Gen.bcast_S_S8x5x128 (constant (F := Ideal) S_ .f32 0x00000000#32) := by
  host_read_tail
  all_goals rfl

/-! ### The second stretch: from the three blocks to the weights' pieces -/

/-- The three blocks of a valuation laid end to end. -/
abbrev catC_WruE (V1 : Valuation τ sig (Elt Ideal)) : FVec Ideal S80x5x128 .f32 :=
  concatenate S80x5x128 0
    [⟨S64x5x128, V1 (Proc.devRef .tc main_v4)⟩, ⟨S8x5x128, V1 (Proc.devRef .tc main_v5)⟩, ⟨S8x5x128, V1 (Proc.devRef .tc main_v6)⟩]
    Gen.concatenates_S64x5x128_S8x5x128_S8x5x128_S80x5x128_d0

theorem cat_WruE (V0 : Valuation τ sig (Elt Ideal)) : catC_WruE (StableHlo.after (List.take 10 preOps) V0) = wmC_WruE V0 := by
  show concatenate S80x5x128 0
      [⟨S64x5x128, (StableHlo.after (List.take 10 preOps) V0) (Proc.devRef .tc main_v4)⟩, ⟨S8x5x128, (StableHlo.after (List.take 10 preOps) V0) (Proc.devRef .tc main_v5)⟩,
       ⟨S8x5x128, (StableHlo.after (List.take 10 preOps) V0) (Proc.devRef .tc main_v6)⟩]
      Gen.concatenates_S64x5x128_S8x5x128_S8x5x128_S80x5x128_d0 = _
  rw [headA_WruE V0, headB_WruE V0, headC_WruE V0]

/-- The identity term's weight as the host computes it from a regrouped array. -/
abbrev w0C_WruE (C : FVec Ideal S80x5x128 .f32) : FVec Ideal S80x128 .f32 :=
  subf (subf (shapeCast S80x128 (extractStridedSlice S80x1x128 ![0, 0, 0] C Gen.slices_S80x5x128_S80x1x128_0_0_0) Gen.shapeCasts_S80x1x128_S80x128)
      (shapeCast S80x128 (extractStridedSlice S80x1x128 ![0, 2, 0] C Gen.slices_S80x5x128_S80x1x128_0_2_0) Gen.shapeCasts_S80x1x128_S80x128))
    (shapeCast S80x128 (extractStridedSlice S80x1x128 ![0, 4, 0] C Gen.slices_S80x5x128_S80x1x128_0_4_0) Gen.shapeCasts_S80x1x128_S80x128)

theorem mid15_WruE (V1 : Valuation τ sig (Elt Ideal)) :
    (StableHlo.after (List.take 23 (List.drop 10 preOps)) V1 (Proc.devRef .tc main_v15) : FVec Ideal S80x128 .f32) = w0C_WruE (catC_WruE V1) := by
  host_read_tail
  all_goals rfl

theorem mid17_WruE (V1 : Valuation τ sig (Elt Ideal)) :
    (StableHlo.after (List.take 23 (List.drop 10 preOps)) V1 (Proc.devRef .tc main_v17) : FVec Ideal S80x128 .f32)
      = (shapeCast S80x128 (extractStridedSlice S80x1x128 ![0, 1, 0] (catC_WruE V1) Gen.slices_S80x5x128_S80x1x128_0_1_0) Gen.shapeCasts_S80x1x128_S80x128) := by
  host_read_tail
  all_goals rfl

theorem mid21_WruE (V1 : Valuation τ sig (Elt Ideal)) :
    (StableHlo.after (List.take 23 (List.drop 10 preOps)) V1 (Proc.devRef .tc main_v21) : FVec Ideal S80x128 .f32)
      = mulf (broadcastInDim S80x128 ![] Gen.bcast_S_S80x128 (constant (F := Ideal) S_ .f32 0x40000000#32))
          (shapeCast S80x128 (extractStridedSlice S80x1x128 ![0, 2, 0] (catC_WruE V1) Gen.slices_S80x5x128_S80x1x128_0_2_0) Gen.shapeCasts_S80x1x128_S80x128) := by
  host_read_tail
  all_goals rfl

theorem mid23_WruE (V1 : Valuation τ sig (Elt Ideal)) :
    (StableHlo.after (List.take 23 (List.drop 10 preOps)) V1 (Proc.devRef .tc main_v23) : FVec Ideal S80x128 .f32)
      = (shapeCast S80x128 (extractStridedSlice S80x1x128 ![0, 3, 0] (catC_WruE V1) Gen.slices_S80x5x128_S80x1x128_0_3_0) Gen.shapeCasts_S80x1x128_S80x128) := by
  host_read_tail
  all_goals rfl

theorem mid27_WruE (V1 : Valuation τ sig (Elt Ideal)) :
    (StableHlo.after (List.take 23 (List.drop 10 preOps)) V1 (Proc.devRef .tc main_v27) : FVec Ideal S80x128 .f32)
      = mulf (broadcastInDim S80x128 ![] Gen.bcast_S_S80x128 (constant (F := Ideal) S_ .f32 0x40000000#32))
          (shapeCast S80x128 (extractStridedSlice S80x1x128 ![0, 4, 0] (catC_WruE V1) Gen.slices_S80x5x128_S80x1x128_0_4_0) Gen.shapeCasts_S80x1x128_S80x128) := by
  host_read_tail
  all_goals rfl

/-! ### The last stretch: the four blocks stacked, and the change of format -/

theorem tail29_WruE (V2 : Valuation τ sig (Elt Ideal)) :
    (StableHlo.after (List.drop 23 (List.drop 10 preOps)) V2 (Proc.devRef .tc main_v29) : FVec Ideal S80x128 .bf16)
      = (truncf .bf16 (V2 (Proc.devRef .tc main_v15) : FVec Ideal S80x128 .f32) Gen.bitsLt_bf16_f32 : FVec Ideal S80x128 .bf16) := by
  host_read_tail
  all_goals rfl

theorem tail30_WruE (V2 : Valuation τ sig (Elt Ideal)) :
    (StableHlo.after (List.drop 23 (List.drop 10 preOps)) V2 (Proc.devRef .tc main_v30) : FVec Ideal S320x128 .bf16)
      = (truncf .bf16 (concatenate S320x128 0
          [⟨S80x128, V2 (Proc.devRef .tc main_v17)⟩, ⟨S80x128, V2 (Proc.devRef .tc main_v21)⟩,
           ⟨S80x128, V2 (Proc.devRef .tc main_v23)⟩, ⟨S80x128, V2 (Proc.devRef .tc main_v27)⟩]
          Gen.concatenates_S80x128_S80x128_S80x128_S80x128_S320x128_d0 : FVec Ideal S320x128 .f32) Gen.bitsLt_bf16_f32 : FVec Ideal S320x128 .bf16) := by
  host_read_tail
  all_goals rfl

/-! ### The two staged arrays -/

theorem win4_raw (V0 : Valuation τ sig (Elt Ideal)) (f : Fin 80) (j : Fin 128) :
    (StableHlo.after preOps V0 (Proc.devRef .tc main_v29) : FVec Ideal S80x128 .bf16) (ix2 f j)
      = w0R (wmR 8 rfl (V0 (Proc.devRef .tc main_arg3) : FVec Ideal S360x128 .f32)) f j := by
  rw [after_take_drop 10 preOps V0, after_take_drop 23 (List.drop 10 preOps)]
  rw [tail29_WruE, truncf_apply, mid15_WruE, cat_WruE V0]
  exact w0_apply_of (wmC_WruE V0) _ _ _ _ _ (wm_WruE V0) f j

theorem win5_raw (V0 : Valuation τ sig (Elt Ideal)) (k : Fin 320) (j : Fin 128) :
    (StableHlo.after preOps V0 (Proc.devRef .tc main_v30) : FVec Ideal S320x128 .bf16) (ix2 k j)
      = w4R (wmR 8 rfl (V0 (Proc.devRef .tc main_arg3) : FVec Ideal S360x128 .f32)) k j := by
  rw [after_take_drop 10 preOps V0, after_take_drop 23 (List.drop 10 preOps)]
  rw [tail30_WruE, truncf_apply, mid17_WruE, mid21_WruE, mid23_WruE, mid27_WruE, cat_WruE V0]
  exact w4_apply_of (wmC_WruE V0) _ _ _ _ _ _ _
    (fun i => by rw [broadcastInDim_scalar_apply, constant_apply]; rfl)
    (fun i => by rw [broadcastInDim_scalar_apply, constant_apply]; rfl)
    _ _ (wm_WruE V0) k j

end Cert.KernelIdeal.Host

end
-- ==== Proof.KHostWcE.lean ====
/-
  The encoder's candidate weights as the call stages them: the array [360, 64] regrouped to (feature, diffusion
  term, output), the 64 state features moved in front of the 8 input features, 8 zero rows appended; then the identity
  term's weight column 0 − column 2 − column 4, and the four diffusion blocks (columns 1, 2, 3, 4, the second-order
  columns 2 and 4 doubled) stacked.
-/
import proofs.«113864_g48979807044058_cont_8to1_c_230_28_alg».proof.Proof.KHostCut

noncomputable section

namespace Cert.KernelIdeal.Host

open Idealize.ShloMosaic Idealize.ShloMosaic.TcCoe Idealize.ShloMosaic.ValueIdx

/-! ## The encoder's candidate weights, re-blocked (raw form)

The operation list is read in three stretches, each from a valuation that is a variable: the first 41 operations
leave the reshaped array's state rows, its input rows and a zero block; the next 23 begin with the concatenation of
those three and compute from it the identity term's weight and the four diffusion blocks; the rest begin with the
concatenation of the four blocks and change the two results' format. -/

/-- The regrouped array the host builds from the encoder's candidate weights: the reshape's state rows, its input rows, zero rows. -/
abbrev wmC_WcE (V0 : Valuation τ sig (Elt Ideal)) : FVec Ideal S80x5x64 .f32 :=
  concatenate S80x5x64 0
    [⟨S64x5x64, extractStridedSlice S64x5x64 ![8, 0, 0] (shapeCast S72x5x64 (V0 (Proc.devRef .tc main_arg5) : FVec Ideal S360x64 .f32) Gen.shapeCasts_S360x64_S72x5x64) Gen.slices_S72x5x64_S64x5x64_8_0_0⟩,
     ⟨S8x5x64, extractStridedSlice S8x5x64 ![0, 0, 0] (shapeCast S72x5x64 (V0 (Proc.devRef .tc main_arg5) : FVec Ideal S360x64 .f32) Gen.shapeCasts_S360x64_S72x5x64) Gen.slices_S72x5x64_S8x5x64_0_0_0⟩,
     ⟨S8x5x64, broadcastInDim S8x5x64 ![] Gen.bcast_S_S8x5x64 (constant (F := Ideal) S_ .f32 0x00000000#32)⟩]
    Gen.concatenates_S64x5x64_S8x5x64_S8x5x64_S80x5x64_d0

/-- The regrouped array, entry by entry. -/
theorem wm_WcE (V0 : Valuation τ sig (Elt Ideal)) (f : Fin 80) (m : Fin 5) (j : Fin 64) :
    wmC_WcE V0 (ix3 f m j) = wmR 8 rfl (V0 (Proc.devRef .tc main_arg5) : FVec Ideal S360x64 .f32) f m j :=
  wm_apply (n := 360) (a := 72) (dx := 8) (z := 8) (o := 64) rfl (V0 (Proc.devRef .tc main_arg5) : FVec Ideal S360x64 .f32)
    Gen.shapeCasts_S360x64_S72x5x64 Gen.slices_S72x5x64_S64x5x64_8_0_0 Gen.slices_S72x5x64_S8x5x64_0_0_0
    (broadcastInDim S8x5x64 ![] Gen.bcast_S_S8x5x64 (constant (F := Ideal) S_ .f32 0x00000000#32))
    (fun i => by rw [broadcastInDim_scalar_apply, constant_apply, Ideal.ofBits_zero_f32])
    Gen.concatenates_S64x5x64_S8x5x64_S8x5x64_S80x5x64_d0 f m j

/-! ### The first stretch: the three blocks -/

theorem headA_WcE (V0 : Valuation τ sig (Elt Ideal)) :
    ((StableHlo.after (List.take 41 preOps) V0) (Proc.devRef .tc main_v32) : FVec Ideal S64x5x64 .f32) = extractStridedSlice S64x5x64 ![8, 0, 0] (shapeCast S72x5x64 (V0 (Proc.devRef .tc main_arg5) : FVec Ideal S360x64 .f32) Gen.shapeCasts_S360x64_S72x5x64) Gen.slices_S72x5x64_S64x5x64_8_0_0 := by
  host_read_tail
  all_goals rfl

theorem headB_WcE (V0 : Valuation τ sig (Elt Ideal)) :
    ((StableHlo.after (List.take 41 preOps) V0) (Proc.devRef .tc main_v33) : FVec Ideal S8x5x64 .f32) = extractStridedSlice S8x5x64 ![0, 0, 0] (shapeCast S72x5x64 (V0 (Proc.devRef .tc main_arg5) : FVec Ideal S360x64 .f32) Gen.shapeCasts_S360x64_S72x5x64) Gen.slices_S72x5x64_S8x5x64_0_0_0 := by
  host_read_tail
  all_goals rfl

theorem headC_WcE (V0 : Valuation τ sig (Elt Ideal)) :
    ((StableHlo.after (List.take 41 preOps) V0) (Proc.devRef .tc main_v34) : FVec Ideal S8x5x64 .f32) = broadcastInDim S8x5x64 ![] Gen.bcast_S_S8x5x64 (constant (F := Ideal) S_ .f32 0x00000000#32) := by
  host_read_tail
  all_goals rfl

/-! ### The second stretch: from the three blocks to the weights' pieces -/

/-- The three blocks of a valuation laid end to end. -/
abbrev catC_WcE (V1 : Valuation τ sig (Elt Ideal)) : FVec Ideal S80x5x64 .f32 :=
  concatenate S80x5x64 0
    [⟨S64x5x64, V1 (Proc.devRef .tc main_v32)⟩, ⟨S8x5x64, V1 (Proc.devRef .tc main_v33)⟩, ⟨S8x5x64, V1 (Proc.devRef .tc main_v34)⟩]
    Gen.concatenates_S64x5x64_S8x5x64_S8x5x64_S80x5x64_d0

theorem cat_WcE (V0 : Valuation τ sig (Elt Ideal)) : catC_WcE (StableHlo.after (List.take 41 preOps) V0) = wmC_WcE V0 := by
  show concatenate S80x5x64 0
      [⟨S64x5x64, (StableHlo.after (List.take 41 preOps) V0) (Proc.devRef .tc main_v32)⟩, ⟨S8x5x64, (StableHlo.after (List.take 41 preOps) V0) (Proc.devRef .tc main_v33)⟩,
       ⟨S8x5x64, (StableHlo.after (List.take 41 preOps) V0) (Proc.devRef .tc main_v34)⟩]
      Gen.concatenates_S64x5x64_S8x5x64_S8x5x64_S80x5x64_d0 = _
  rw [headA_WcE V0, headB_WcE V0, headC_WcE V0]

/-- The identity term's weight as the host computes it from a regrouped array. -/
abbrev w0C_WcE (C : FVec Ideal S80x5x64 .f32) : FVec Ideal S80x64 .f32 :=
  subf (subf (shapeCast S80x64 (extractStridedSlice S80x1x64 ![0, 0, 0] C Gen.slices_S80x5x64_S80x1x64_0_0_0) Gen.shapeCasts_S80x1x64_S80x64)
      (shapeCast S80x64 (extractStridedSlice S80x1x64 ![0, 2, 0] C Gen.slices_S80x5x64_S80x1x64_0_2_0) Gen.shapeCasts_S80x1x64_S80x64))
    (shapeCast S80x64 (extractStridedSlice S80x1x64 ![0, 4, 0] C Gen.slices_S80x5x64_S80x1x64_0_4_0) Gen.shapeCasts_S80x1x64_S80x64)

theorem mid15_WcE (V1 : Valuation τ sig (Elt Ideal)) :
    (StableHlo.after (List.take 23 (List.drop 41 preOps)) V1 (Proc.devRef .tc main_v43) : FVec Ideal S80x64 .f32) = w0C_WcE (catC_WcE V1) := by
  host_read_tail
  all_goals rfl

theorem mid17_WcE (V1 : Valuation τ sig (Elt Ideal)) :
    (StableHlo.after (List.take 23 (List.drop 41 preOps)) V1 (Proc.devRef .tc main_v45) : FVec Ideal S80x64 .f32)
      = (shapeCast S80x64 (extractStridedSlice S80x1x64 ![0, 1, 0] (catC_WcE V1) Gen.slices_S80x5x64_S80x1x64_0_1_0) Gen.shapeCasts_S80x1x64_S80x64) := by
  host_read_tail
  all_goals rfl

theorem mid21_WcE (V1 : Valuation τ sig (Elt Ideal)) :
    (StableHlo.after (List.take 23 (List.drop 41 preOps)) V1 (Proc.devRef .tc main_v49) : FVec Ideal S80x64 .f32)
      = mulf (broadcastInDim S80x64 ![] Gen.bcast_S_S80x64 (constant (F := Ideal) S_ .f32 0x40000000#32))
          (shapeCast S80x64 (extractStridedSlice S80x1x64 ![0, 2, 0] (catC_WcE V1) Gen.slices_S80x5x64_S80x1x64_0_2_0) Gen.shapeCasts_S80x1x64_S80x64) := by
  host_read_tail
  all_goals rfl

theorem mid23_WcE (V1 : Valuation τ sig (Elt Ideal)) :
    (StableHlo.after (List.take 23 (List.drop 41 preOps)) V1 (Proc.devRef .tc main_v51) : FVec Ideal S80x64 .f32)
      = (shapeCast S80x64 (extractStridedSlice S80x1x64 ![0, 3, 0] (catC_WcE V1) Gen.slices_S80x5x64_S80x1x64_0_3_0) Gen.shapeCasts_S80x1x64_S80x64) := by
  host_read_tail
  all_goals rfl

theorem mid27_WcE (V1 : Valuation τ sig (Elt Ideal)) :
    (StableHlo.after (List.take 23 (List.drop 41 preOps)) V1 (Proc.devRef .tc main_v55) : FVec Ideal S80x64 .f32)
      = mulf (broadcastInDim S80x64 ![] Gen.bcast_S_S80x64 (constant (F := Ideal) S_ .f32 0x40000000#32))
          (shapeCast S80x64 (extractStridedSlice S80x1x64 ![0, 4, 0] (catC_WcE V1) Gen.slices_S80x5x64_S80x1x64_0_4_0) Gen.shapeCasts_S80x1x64_S80x64) := by
  host_read_tail
  all_goals rfl

/-! ### The last stretch: the four blocks stacked, and the change of format -/

theorem tail29_WcE (V2 : Valuation τ sig (Elt Ideal)) :
    (StableHlo.after (List.drop 23 (List.drop 41 preOps)) V2 (Proc.devRef .tc main_v57) : FVec Ideal S80x64 .bf16)
      = (truncf .bf16 (V2 (Proc.devRef .tc main_v43) : FVec Ideal S80x64 .f32) Gen.bitsLt_bf16_f32 : FVec Ideal S80x64 .bf16) := by
  host_read_tail
  all_goals rfl

theorem tail30_WcE (V2 : Valuation τ sig (Elt Ideal)) :
    (StableHlo.after (List.drop 23 (List.drop 41 preOps)) V2 (Proc.devRef .tc main_v58) : FVec Ideal S320x64 .bf16)
      = (truncf .bf16 (concatenate S320x64 0
          [⟨S80x64, V2 (Proc.devRef .tc main_v45)⟩, ⟨S80x64, V2 (Proc.devRef .tc main_v49)⟩,
           ⟨S80x64, V2 (Proc.devRef .tc main_v51)⟩, ⟨S80x64, V2 (Proc.devRef .tc main_v55)⟩]
          Gen.concatenates_S80x64_S80x64_S80x64_S80x64_S320x64_d0 : FVec Ideal S320x64 .f32) Gen.bitsLt_bf16_f32 : FVec Ideal S320x64 .bf16) := by
  host_read_tail
  all_goals rfl

/-! ### The two staged arrays -/

theorem win7_raw (V0 : Valuation τ sig (Elt Ideal)) (f : Fin 80) (j : Fin 64) :
    (StableHlo.after preOps V0 (Proc.devRef .tc main_v57) : FVec Ideal S80x64 .bf16) (ix2 f j)
      = w0R (wmR 8 rfl (V0 (Proc.devRef .tc main_arg5) : FVec Ideal S360x64 .f32)) f j := by
  rw [after_take_drop 41 preOps V0, after_take_drop 23 (List.drop 41 preOps)]
  rw [tail29_WcE, truncf_apply, mid15_WcE, cat_WcE V0]
  exact w0_apply_of (wmC_WcE V0) _ _ _ _ _ (wm_WcE V0) f j

theorem win8_raw (V0 : Valuation τ sig (Elt Ideal)) (k : Fin 320) (j : Fin 64) :
    (StableHlo.after preOps V0 (Proc.devRef .tc main_v58) : FVec Ideal S320x64 .bf16) (ix2 k j)
      = w4R (wmR 8 rfl (V0 (Proc.devRef .tc main_arg5) : FVec Ideal S360x64 .f32)) k j := by
  rw [after_take_drop 41 preOps V0, after_take_drop 23 (List.drop 41 preOps)]
  rw [tail30_WcE, truncf_apply, mid17_WcE, mid21_WcE, mid23_WcE, mid27_WcE, cat_WcE V0]
  exact w4_apply_of (wmC_WcE V0) _ _ _ _ _ _ _
    (fun i => by rw [broadcastInDim_scalar_apply, constant_apply]; rfl)
    (fun i => by rw [broadcastInDim_scalar_apply, constant_apply]; rfl)
    _ _ (wm_WcE V0) k j

end Cert.KernelIdeal.Host

end
-- ==== Proof.KHostWruD.lean ====
/-
  The decoder's gate weights as the call stages them: the array [325, 128] regrouped to (feature, diffusion
  term, output), the 64 state features moved in front of the 1 input feature, 15 zero rows appended; then the identity
  term's weight column 0 − column 2 − column 4, and the four diffusion blocks (columns 1, 2, 3, 4, the second-order
  columns 2 and 4 doubled) stacked.
-/
import proofs.«113864_g48979807044058_cont_8to1_c_230_28_alg».proof.Proof.KHostCut

noncomputable section

namespace Cert.KernelIdeal.Host

open Idealize.ShloMosaic Idealize.ShloMosaic.TcCoe Idealize.ShloMosaic.ValueIdx

/-! ## The decoder's gate weights, re-blocked (raw form)

The operation list is read in three stretches, each from a valuation that is a variable: the first 72 operations
leave the reshaped array's state rows, its input rows and a zero block; the next 23 begin with the concatenation of
those three and compute from it the identity term's weight and the four diffusion blocks; the rest begin with the
concatenation of the four blocks and change the two results' format. -/

/-- The regrouped array the host builds from the decoder's gate weights: the reshape's state rows, its input rows, zero rows. -/
abbrev wmC_WruD (V0 : Valuation τ sig (Elt Ideal)) : FVec Ideal S80x5x128 .f32 :=
  concatenate S80x5x128 0
    [⟨S64x5x128, extractStridedSlice S64x5x128 ![1, 0, 0] (shapeCast S65x5x128 (V0 (Proc.devRef .tc main_arg7) : FVec Ideal S325x128 .f32) Gen.shapeCasts_S325x128_S65x5x128) Gen.slices_S65x5x128_S64x5x128_1_0_0⟩,
     ⟨S1x5x128, extractStridedSlice S1x5x128 ![0, 0, 0] (shapeCast S65x5x128 (V0 (Proc.devRef .tc main_arg7) : FVec Ideal S325x128 .f32) Gen.shapeCasts_S325x128_S65x5x128) Gen.slices_S65x5x128_S1x5x128_0_0_0⟩,
     ⟨S15x5x128, broadcastInDim S15x5x128 ![] Gen.bcast_S_S15x5x128 (constant (F := Ideal) S_ .f32 0x00000000#32)⟩]
    Gen.concatenates_S64x5x128_S1x5x128_S15x5x128_S80x5x128_d0

/-- The regrouped array, entry by entry. -/
theorem wm_WruD (V0 : Valuation τ sig (Elt Ideal)) (f : Fin 80) (m : Fin 5) (j : Fin 128) :
    wmC_WruD V0 (ix3 f m j) = wmR 1 rfl (V0 (Proc.devRef .tc main_arg7) : FVec Ideal S325x128 .f32) f m j :=
  wm_apply (n := 325) (a := 65) (dx := 1) (z := 15) (o := 128) rfl (V0 (Proc.devRef .tc main_arg7) : FVec Ideal S325x128 .f32)
    Gen.shapeCasts_S325x128_S65x5x128 Gen.slices_S65x5x128_S64x5x128_1_0_0 Gen.slices_S65x5x128_S1x5x128_0_0_0
    (broadcastInDim S15x5x128 ![] Gen.bcast_S_S15x5x128 (constant (F := Ideal) S_ .f32 0x00000000#32))
    (fun i => by rw [broadcastInDim_scalar_apply, constant_apply, Ideal.ofBits_zero_f32])
    Gen.concatenates_S64x5x128_S1x5x128_S15x5x128_S80x5x128_d0 f m j

/-! ### The first stretch: the three blocks -/

theorem headA_WruD (V0 : Valuation τ sig (Elt Ideal)) :
    ((StableHlo.after (List.take 72 preOps) V0) (Proc.devRef .tc main_v60) : FVec Ideal S64x5x128 .f32) = extractStridedSlice S64x5x128 ![1, 0, 0] (shapeCast S65x5x128 (V0 (Proc.devRef .tc main_arg7) : FVec Ideal S325x128 .f32) Gen.shapeCasts_S325x128_S65x5x128) Gen.slices_S65x5x128_S64x5x128_1_0_0 := by
  host_read_tail
  all_goals rfl

theorem headB_WruD (V0 : Valuation τ sig (Elt Ideal)) :
    ((StableHlo.after (List.take 72 preOps) V0) (Proc.devRef .tc main_v61) : FVec Ideal S1x5x128 .f32) = extractStridedSlice S1x5x128 ![0, 0, 0] (shapeCast S65x5x128 (V0 (Proc.devRef .tc main_arg7) : FVec Ideal S325x128 .f32) Gen.shapeCasts_S325x128_S65x5x128) Gen.slices_S65x5x128_S1x5x128_0_0_0 := by
  host_read_tail
  all_goals rfl

theorem headC_WruD (V0 : Valuation τ sig (Elt Ideal)) :
    ((StableHlo.after (List.take 72 preOps) V0) (Proc.devRef .tc main_v62) : FVec Ideal S15x5x128 .f32) = broadcastInDim S15x5x128 ![] Gen.bcast_S_S15x5x128 (constant (F := Ideal) S_ .f32 0x00000000#32) := by
  host_read_tail
  all_goals rfl

/-! ### The second stretch: from the three blocks to the weights' pieces -/

/-- The three blocks of a valuation laid end to end. -/
abbrev catC_WruD (V1 : Valuation τ sig (Elt Ideal)) : FVec Ideal S80x5x128 .f32 :=
  concatenate S80x5x128 0
    [⟨S64x5x128, V1 (Proc.devRef .tc main_v60)⟩, ⟨S1x5x128, V1 (Proc.devRef .tc main_v61)⟩, ⟨S15x5x128, V1 (Proc.devRef .tc main_v62)⟩]
    Gen.concatenates_S64x5x128_S1x5x128_S15x5x128_S80x5x128_d0

theorem cat_WruD (V0 : Valuation τ sig (Elt Ideal)) : catC_WruD (StableHlo.after (List.take 72 preOps) V0) = wmC_WruD V0 := by
  show concatenate S80x5x128 0
      [⟨S64x5x128, (StableHlo.after (List.take 72 preOps) V0) (Proc.devRef .tc main_v60)⟩, ⟨S1x5x128, (StableHlo.after (List.take 72 preOps) V0) (Proc.devRef .tc main_v61)⟩,
       ⟨S15x5x128, (StableHlo.after (List.take 72 preOps) V0) (Proc.devRef .tc main_v62)⟩]
      Gen.concatenates_S64x5x128_S1x5x128_S15x5x128_S80x5x128_d0 = _
  rw [headA_WruD V0, headB_WruD V0, headC_WruD V0]

/-- The identity term's weight as the host computes it from a regrouped array. -/
abbrev w0C_WruD (C : FVec Ideal S80x5x128 .f32) : FVec Ideal S80x128 .f32 :=
  subf (subf (shapeCast S80x128 (extractStridedSlice S80x1x128 ![0, 0, 0] C Gen.slices_S80x5x128_S80x1x128_0_0_0) Gen.shapeCasts_S80x1x128_S80x128)
      (shapeCast S80x128 (extractStridedSlice S80x1x128 ![0, 2, 0] C Gen.slices_S80x5x128_S80x1x128_0_2_0) Gen.shapeCasts_S80x1x128_S80x128))
    (shapeCast S80x128 (extractStridedSlice S80x1x128 ![0, 4, 0] C Gen.slices_S80x5x128_S80x1x128_0_4_0) Gen.shapeCasts_S80x1x128_S80x128)

theorem mid15_WruD (V1 : Valuation τ sig (Elt Ideal)) :
    (StableHlo.after (List.take 23 (List.drop 72 preOps)) V1 (Proc.devRef .tc main_v71) : FVec Ideal S80x128 .f32) = w0C_WruD (catC_WruD V1) := by
  host_read_tail
  all_goals rfl

theorem mid17_WruD (V1 : Valuation τ sig (Elt Ideal)) :
    (StableHlo.after (List.take 23 (List.drop 72 preOps)) V1 (Proc.devRef .tc main_v73) : FVec Ideal S80x128 .f32)
      = (shapeCast S80x128 (extractStridedSlice S80x1x128 ![0, 1, 0] (catC_WruD V1) Gen.slices_S80x5x128_S80x1x128_0_1_0) Gen.shapeCasts_S80x1x128_S80x128) := by
  host_read_tail
  all_goals rfl

theorem mid21_WruD (V1 : Valuation τ sig (Elt Ideal)) :
    (StableHlo.after (List.take 23 (List.drop 72 preOps)) V1 (Proc.devRef .tc main_v77) : FVec Ideal S80x128 .f32)
      = mulf (broadcastInDim S80x128 ![] Gen.bcast_S_S80x128 (constant (F := Ideal) S_ .f32 0x40000000#32))
          (shapeCast S80x128 (extractStridedSlice S80x1x128 ![0, 2, 0] (catC_WruD V1) Gen.slices_S80x5x128_S80x1x128_0_2_0) Gen.shapeCasts_S80x1x128_S80x128) := by
  host_read_tail
  all_goals rfl

theorem mid23_WruD (V1 : Valuation τ sig (Elt Ideal)) :
    (StableHlo.after (List.take 23 (List.drop 72 preOps)) V1 (Proc.devRef .tc main_v79) : FVec Ideal S80x128 .f32)
      = (shapeCast S80x128 (extractStridedSlice S80x1x128 ![0, 3, 0] (catC_WruD V1) Gen.slices_S80x5x128_S80x1x128_0_3_0) Gen.shapeCasts_S80x1x128_S80x128) := by
  host_read_tail
  all_goals rfl

theorem mid27_WruD (V1 : Valuation τ sig (Elt Ideal)) :
    (StableHlo.after (List.take 23 (List.drop 72 preOps)) V1 (Proc.devRef .tc main_v83) : FVec Ideal S80x128 .f32)
      = mulf (broadcastInDim S80x128 ![] Gen.bcast_S_S80x128 (constant (F := Ideal) S_ .f32 0x40000000#32))
          (shapeCast S80x128 (extractStridedSlice S80x1x128 ![0, 4, 0] (catC_WruD V1) Gen.slices_S80x5x128_S80x1x128_0_4_0) Gen.shapeCasts_S80x1x128_S80x128) := by
  host_read_tail
  all_goals rfl

/-! ### The last stretch: the four blocks stacked, and the change of format -/

theorem tail29_WruD (V2 : Valuation τ sig (Elt Ideal)) :
    (StableHlo.after (List.drop 23 (List.drop 72 preOps)) V2 (Proc.devRef .tc main_v85) : FVec Ideal S80x128 .bf16)
      = (truncf .bf16 (V2 (Proc.devRef .tc main_v71) : FVec Ideal S80x128 .f32) Gen.bitsLt_bf16_f32 : FVec Ideal S80x128 .bf16) := by
  host_read_tail
  all_goals rfl

theorem tail30_WruD (V2 : Valuation τ sig (Elt Ideal)) :
    (StableHlo.after (List.drop 23 (List.drop 72 preOps)) V2 (Proc.devRef .tc main_v86) : FVec Ideal S320x128 .bf16)
      = (truncf .bf16 (concatenate S320x128 0
          [⟨S80x128, V2 (Proc.devRef .tc main_v73)⟩, ⟨S80x128, V2 (Proc.devRef .tc main_v77)⟩,
           ⟨S80x128, V2 (Proc.devRef .tc main_v79)⟩, ⟨S80x128, V2 (Proc.devRef .tc main_v83)⟩]
          Gen.concatenates_S80x128_S80x128_S80x128_S80x128_S320x128_d0 : FVec Ideal S320x128 .f32) Gen.bitsLt_bf16_f32 : FVec Ideal S320x128 .bf16) := by
  host_read_tail
  all_goals rfl

/-! ### The two staged arrays -/

theorem win10_raw (V0 : Valuation τ sig (Elt Ideal)) (f : Fin 80) (j : Fin 128) :
    (StableHlo.after preOps V0 (Proc.devRef .tc main_v85) : FVec Ideal S80x128 .bf16) (ix2 f j)
      = w0R (wmR 1 rfl (V0 (Proc.devRef .tc main_arg7) : FVec Ideal S325x128 .f32)) f j := by
  rw [after_take_drop 72 preOps V0, after_take_drop 23 (List.drop 72 preOps)]
  rw [tail29_WruD, truncf_apply, mid15_WruD, cat_WruD V0]
  exact w0_apply_of (wmC_WruD V0) _ _ _ _ _ (wm_WruD V0) f j

theorem win11_raw (V0 : Valuation τ sig (Elt Ideal)) (k : Fin 320) (j : Fin 128) :
    (StableHlo.after preOps V0 (Proc.devRef .tc main_v86) : FVec Ideal S320x128 .bf16) (ix2 k j)
      = w4R (wmR 1 rfl (V0 (Proc.devRef .tc main_arg7) : FVec Ideal S325x128 .f32)) k j := by
  rw [after_take_drop 72 preOps V0, after_take_drop 23 (List.drop 72 preOps)]
  rw [tail30_WruD, truncf_apply, mid17_WruD, mid21_WruD, mid23_WruD, mid27_WruD, cat_WruD V0]
  exact w4_apply_of (wmC_WruD V0) _ _ _ _ _ _ _
    (fun i => by rw [broadcastInDim_scalar_apply, constant_apply]; rfl)
    (fun i => by rw [broadcastInDim_scalar_apply, constant_apply]; rfl)
    _ _ (wm_WruD V0) k j

end Cert.KernelIdeal.Host

end
-- ==== Proof.KHostWcD.lean ====
/-
  The decoder's candidate weights as the call stages them: the array [325, 64] regrouped to (feature, diffusion
  term, output), the 64 state features moved in front of the 1 input feature, 15 zero rows appended; then the identity
  term's weight column 0 − column 2 − column 4, and the four diffusion blocks (columns 1, 2, 3, 4, the second-order
  columns 2 and 4 doubled) stacked.
-/
import proofs.«113864_g48979807044058_cont_8to1_c_230_28_alg».proof.Proof.KHostCut

noncomputable section

namespace Cert.KernelIdeal.Host

open Idealize.ShloMosaic Idealize.ShloMosaic.TcCoe Idealize.ShloMosaic.ValueIdx

/-! ## The decoder's candidate weights, re-blocked (raw form)

The operation list is read in three stretches, each from a valuation that is a variable: the first 103 operations
leave the reshaped array's state rows, its input rows and a zero block; the next 23 begin with the concatenation of
those three and compute from it the identity term's weight and the four diffusion blocks; the rest begin with the
concatenation of the four blocks and change the two results' format. -/

/-- The regrouped array the host builds from the decoder's candidate weights: the reshape's state rows, its input rows, zero rows. -/
abbrev wmC_WcD (V0 : Valuation τ sig (Elt Ideal)) : FVec Ideal S80x5x64 .f32 :=
  concatenate S80x5x64 0
    [⟨S64x5x64, extractStridedSlice S64x5x64 ![1, 0, 0] (shapeCast S65x5x64 (V0 (Proc.devRef .tc main_arg9) : FVec Ideal S325x64 .f32) Gen.shapeCasts_S325x64_S65x5x64) Gen.slices_S65x5x64_S64x5x64_1_0_0⟩,
     ⟨S1x5x64, extractStridedSlice S1x5x64 ![0, 0, 0] (shapeCast S65x5x64 (V0 (Proc.devRef .tc main_arg9) : FVec Ideal S325x64 .f32) Gen.shapeCasts_S325x64_S65x5x64) Gen.slices_S65x5x64_S1x5x64_0_0_0⟩,
     ⟨S15x5x64, broadcastInDim S15x5x64 ![] Gen.bcast_S_S15x5x64 (constant (F := Ideal) S_ .f32 0x00000000#32)⟩]
    Gen.concatenates_S64x5x64_S1x5x64_S15x5x64_S80x5x64_d0

/-- The regrouped array, entry by entry. -/
theorem wm_WcD (V0 : Valuation τ sig (Elt Ideal)) (f : Fin 80) (m : Fin 5) (j : Fin 64) :
    wmC_WcD V0 (ix3 f m j) = wmR 1 rfl (V0 (Proc.devRef .tc main_arg9) : FVec Ideal S325x64 .f32) f m j :=
  wm_apply (n := 325) (a := 65) (dx := 1) (z := 15) (o := 64) rfl (V0 (Proc.devRef .tc main_arg9) : FVec Ideal S325x64 .f32)
    Gen.shapeCasts_S325x64_S65x5x64 Gen.slices_S65x5x64_S64x5x64_1_0_0 Gen.slices_S65x5x64_S1x5x64_0_0_0
    (broadcastInDim S15x5x64 ![] Gen.bcast_S_S15x5x64 (constant (F := Ideal) S_ .f32 0x00000000#32))
    (fun i => by rw [broadcastInDim_scalar_apply, constant_apply, Ideal.ofBits_zero_f32])
    Gen.concatenates_S64x5x64_S1x5x64_S15x5x64_S80x5x64_d0 f m j

/-! ### The first stretch: the three blocks -/

theorem headA_WcD (V0 : Valuation τ sig (Elt Ideal)) :
    ((StableHlo.after (List.take 103 preOps) V0) (Proc.devRef .tc main_v88) : FVec Ideal S64x5x64 .f32) = extractStridedSlice S64x5x64 ![1, 0, 0] (shapeCast S65x5x64 (V0 (Proc.devRef .tc main_arg9) : FVec Ideal S325x64 .f32) Gen.shapeCasts_S325x64_S65x5x64) Gen.slices_S65x5x64_S64x5x64_1_0_0 := by
  host_read_tail
  all_goals rfl

theorem headB_WcD (V0 : Valuation τ sig (Elt Ideal)) :
    ((StableHlo.after (List.take 103 preOps) V0) (Proc.devRef .tc main_v89) : FVec Ideal S1x5x64 .f32) = extractStridedSlice S1x5x64 ![0, 0, 0] (shapeCast S65x5x64 (V0 (Proc.devRef .tc main_arg9) : FVec Ideal S325x64 .f32) Gen.shapeCasts_S325x64_S65x5x64) Gen.slices_S65x5x64_S1x5x64_0_0_0 := by
  host_read_tail
  all_goals rfl

theorem headC_WcD (V0 : Valuation τ sig (Elt Ideal)) :
    ((StableHlo.after (List.take 103 preOps) V0) (Proc.devRef .tc main_v90) : FVec Ideal S15x5x64 .f32) = broadcastInDim S15x5x64 ![] Gen.bcast_S_S15x5x64 (constant (F := Ideal) S_ .f32 0x00000000#32) := by
  host_read_tail
  all_goals rfl

/-! ### The second stretch: from the three blocks to the weights' pieces -/

/-- The three blocks of a valuation laid end to end. -/
abbrev catC_WcD (V1 : Valuation τ sig (Elt Ideal)) : FVec Ideal S80x5x64 .f32 :=
  concatenate S80x5x64 0
    [⟨S64x5x64, V1 (Proc.devRef .tc main_v88)⟩, ⟨S1x5x64, V1 (Proc.devRef .tc main_v89)⟩, ⟨S15x5x64, V1 (Proc.devRef .tc main_v90)⟩]
    Gen.concatenates_S64x5x64_S1x5x64_S15x5x64_S80x5x64_d0

theorem cat_WcD (V0 : Valuation τ sig (Elt Ideal)) : catC_WcD (StableHlo.after (List.take 103 preOps) V0) = wmC_WcD V0 := by
  show concatenate S80x5x64 0
      [⟨S64x5x64, (StableHlo.after (List.take 103 preOps) V0) (Proc.devRef .tc main_v88)⟩, ⟨S1x5x64, (StableHlo.after (List.take 103 preOps) V0) (Proc.devRef .tc main_v89)⟩,
       ⟨S15x5x64, (StableHlo.after (List.take 103 preOps) V0) (Proc.devRef .tc main_v90)⟩]
      Gen.concatenates_S64x5x64_S1x5x64_S15x5x64_S80x5x64_d0 = _
  rw [headA_WcD V0, headB_WcD V0, headC_WcD V0]

/-- The identity term's weight as the host computes it from a regrouped array. -/
abbrev w0C_WcD (C : FVec Ideal S80x5x64 .f32) : FVec Ideal S80x64 .f32 :=
  subf (subf (shapeCast S80x64 (extractStridedSlice S80x1x64 ![0, 0, 0] C Gen.slices_S80x5x64_S80x1x64_0_0_0) Gen.shapeCasts_S80x1x64_S80x64)
      (shapeCast S80x64 (extractStridedSlice S80x1x64 ![0, 2, 0] C Gen.slices_S80x5x64_S80x1x64_0_2_0) Gen.shapeCasts_S80x1x64_S80x64))
    (shapeCast S80x64 (extractStridedSlice S80x1x64 ![0, 4, 0] C Gen.slices_S80x5x64_S80x1x64_0_4_0) Gen.shapeCasts_S80x1x64_S80x64)

theorem mid15_WcD (V1 : Valuation τ sig (Elt Ideal)) :
    (StableHlo.after (List.take 23 (List.drop 103 preOps)) V1 (Proc.devRef .tc main_v99) : FVec Ideal S80x64 .f32) = w0C_WcD (catC_WcD V1) := by
  host_read_tail
  all_goals rfl

theorem mid17_WcD (V1 : Valuation τ sig (Elt Ideal)) :
    (StableHlo.after (List.take 23 (List.drop 103 preOps)) V1 (Proc.devRef .tc main_v101) : FVec Ideal S80x64 .f32)
      = (shapeCast S80x64 (extractStridedSlice S80x1x64 ![0, 1, 0] (catC_WcD V1) Gen.slices_S80x5x64_S80x1x64_0_1_0) Gen.shapeCasts_S80x1x64_S80x64) := by
  host_read_tail
  all_goals rfl

theorem mid21_WcD (V1 : Valuation τ sig (Elt Ideal)) :
    (StableHlo.after (List.take 23 (List.drop 103 preOps)) V1 (Proc.devRef .tc main_v105) : FVec Ideal S80x64 .f32)
      = mulf (broadcastInDim S80x64 ![] Gen.bcast_S_S80x64 (constant (F := Ideal) S_ .f32 0x40000000#32))
          (shapeCast S80x64 (extractStridedSlice S80x1x64 ![0, 2, 0] (catC_WcD V1) Gen.slices_S80x5x64_S80x1x64_0_2_0) Gen.shapeCasts_S80x1x64_S80x64) := by
  host_read_tail
  all_goals rfl

theorem mid23_WcD (V1 : Valuation τ sig (Elt Ideal)) :
    (StableHlo.after (List.take 23 (List.drop 103 preOps)) V1 (Proc.devRef .tc main_v107) : FVec Ideal S80x64 .f32)
      = (shapeCast S80x64 (extractStridedSlice S80x1x64 ![0, 3, 0] (catC_WcD V1) Gen.slices_S80x5x64_S80x1x64_0_3_0) Gen.shapeCasts_S80x1x64_S80x64) := by
  host_read_tail
  all_goals rfl

theorem mid27_WcD (V1 : Valuation τ sig (Elt Ideal)) :
    (StableHlo.after (List.take 23 (List.drop 103 preOps)) V1 (Proc.devRef .tc main_v111) : FVec Ideal S80x64 .f32)
      = mulf (broadcastInDim S80x64 ![] Gen.bcast_S_S80x64 (constant (F := Ideal) S_ .f32 0x40000000#32))
          (shapeCast S80x64 (extractStridedSlice S80x1x64 ![0, 4, 0] (catC_WcD V1) Gen.slices_S80x5x64_S80x1x64_0_4_0) Gen.shapeCasts_S80x1x64_S80x64) := by
  host_read_tail
  all_goals rfl

/-! ### The last stretch: the four blocks stacked, and the change of format -/

theorem tail29_WcD (V2 : Valuation τ sig (Elt Ideal)) :
    (StableHlo.after (List.drop 23 (List.drop 103 preOps)) V2 (Proc.devRef .tc main_v113) : FVec Ideal S80x64 .bf16)
      = (truncf .bf16 (V2 (Proc.devRef .tc main_v99) : FVec Ideal S80x64 .f32) Gen.bitsLt_bf16_f32 : FVec Ideal S80x64 .bf16) := by
  host_read_tail
  all_goals rfl

theorem tail30_WcD (V2 : Valuation τ sig (Elt Ideal)) :
    (StableHlo.after (List.drop 23 (List.drop 103 preOps)) V2 (Proc.devRef .tc main_v114) : FVec Ideal S320x64 .bf16)
      = (truncf .bf16 (concatenate S320x64 0
          [⟨S80x64, V2 (Proc.devRef .tc main_v101)⟩, ⟨S80x64, V2 (Proc.devRef .tc main_v105)⟩,
           ⟨S80x64, V2 (Proc.devRef .tc main_v107)⟩, ⟨S80x64, V2 (Proc.devRef .tc main_v111)⟩]
          Gen.concatenates_S80x64_S80x64_S80x64_S80x64_S320x64_d0 : FVec Ideal S320x64 .f32) Gen.bitsLt_bf16_f32 : FVec Ideal S320x64 .bf16) := by
  host_read_tail
  all_goals rfl

/-! ### The two staged arrays -/

theorem win13_raw (V0 : Valuation τ sig (Elt Ideal)) (f : Fin 80) (j : Fin 64) :
    (StableHlo.after preOps V0 (Proc.devRef .tc main_v113) : FVec Ideal S80x64 .bf16) (ix2 f j)
      = w0R (wmR 1 rfl (V0 (Proc.devRef .tc main_arg9) : FVec Ideal S325x64 .f32)) f j := by
  rw [after_take_drop 103 preOps V0, after_take_drop 23 (List.drop 103 preOps)]
  rw [tail29_WcD, truncf_apply, mid15_WcD, cat_WcD V0]
  exact w0_apply_of (wmC_WcD V0) _ _ _ _ _ (wm_WcD V0) f j

theorem win14_raw (V0 : Valuation τ sig (Elt Ideal)) (k : Fin 320) (j : Fin 64) :
    (StableHlo.after preOps V0 (Proc.devRef .tc main_v114) : FVec Ideal S320x64 .bf16) (ix2 k j)
      = w4R (wmR 1 rfl (V0 (Proc.devRef .tc main_arg9) : FVec Ideal S325x64 .f32)) k j := by
  rw [after_take_drop 103 preOps V0, after_take_drop 23 (List.drop 103 preOps)]
  rw [tail30_WcD, truncf_apply, mid17_WcD, mid21_WcD, mid23_WcD, mid27_WcD, cat_WcD V0]
  exact w4_apply_of (wmC_WcD V0) _ _ _ _ _ _ _
    (fun i => by rw [broadcastInDim_scalar_apply, constant_apply]; rfl)
    (fun i => by rw [broadcastInDim_scalar_apply, constant_apply]; rfl)
    _ _ (wm_WcD V0) k j

end Cert.KernelIdeal.Host

end
-- ==== Proof.KHost.lean ====
/-
  What the host code before the call computes: the eighteen arrays the call stages, each read entry by entry as
  a function of the thirteen argument arrays, in the kernel's own forms — the padded inputs, the supports transposed
  and laid side by side, every weight array re-blocked (the 64 state features in front of the input features, zero
  rows up to 80; the identity term's weight with both second-order terms subtracted; the four diffusion blocks
  stacked, the second-order ones doubled), the biases and the projection.  No hypothesis on the arguments is needed:
  every step is a re-indexing, a subtraction or a product of extended reals, taken in the host's order.
-/
import proofs.«113864_g48979807044058_cont_8to1_c_230_28_alg».proof.Proof.KHostX
import proofs.«113864_g48979807044058_cont_8to1_c_230_28_alg».proof.Proof.KHostS
import proofs.«113864_g48979807044058_cont_8to1_c_230_28_alg».proof.Proof.KHostB
import proofs.«113864_g48979807044058_cont_8to1_c_230_28_alg».proof.Proof.KHostWruE
import proofs.«113864_g48979807044058_cont_8to1_c_230_28_alg».proof.Proof.KHostWcE
import proofs.«113864_g48979807044058_cont_8to1_c_230_28_alg».proof.Proof.KHostWruD
import proofs.«113864_g48979807044058_cont_8to1_c_230_28_alg».proof.Proof.KHostWcD
import proofs.«113864_g48979807044058_cont_8to1_c_230_28_alg».proof.Proof.KernelForm
import proofs.«113864_g48979807044058_cont_8to1_c_230_28_alg».proof.Proof.SpecArgs

noncomputable section

namespace Cert.KernelIdeal.Host

open Idealize.ShloMosaic Idealize.ShloMosaic.TcCoe Idealize.ShloMosaic.ValueIdx Cert.KernelForm

/-- The network's parameters as a valuation's thirteen argument arrays hold them. -/
def P (V0 : Valuation τ sig (Elt Ideal)) : Cert.Spec.Params :=
  Cert.SpecArgs.paramsOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12))

variable (V0 : Valuation τ sig (Elt Ideal))

/-- The padded inputs: step `t`, row `p = 207 b + n`, column `q` is input column `q` of node `n` in batch entry `b`, and
    zero from column 8 on. -/
theorem win0 (t : Fin 8) (p : Fin 3312) (q : Fin 16) :
    (StableHlo.after preOps V0 (Proc.devRef .tc main_v2) : FVec Ideal S8x3312x16 .bf16) (ix3 t p q)
      = if h : q.val < 8 then
          (P V0).inp t ⟨p.val / 207, by have := p.isLt; omega⟩ ⟨p.val % 207, Nat.mod_lt _ (by decide)⟩ ⟨q.val, h⟩
        else 0 :=
  win0_raw V0 t p q

/-- The wide support matrix: columns 0 … 206 hold S₀ transposed, 256 … 462 hold S₁ transposed, the rest zero. -/
theorem win1 (n : Fin 207) (c : Fin 512) :
    (StableHlo.after preOps V0 (Proc.devRef .tc main_v120) : FVec Ideal S207x512 .bf16) (ix2 n c)
      = if h1 : c.val < 207 then (P V0).S0 ⟨c.val, h1⟩ n
        else if h2 : c.val < 256 then 0
        else if h3 : c.val < 463 then (P V0).S1 ⟨c.val - 256, by omega⟩ n
        else 0 :=
  win1_raw V0 n c

theorem win1_S0 (m n : Fin 207) :
    (StableHlo.after preOps V0 (Proc.devRef .tc main_v120) : FVec Ideal S207x512 .bf16) (ix2 m (⟨n.val, by have := n.isLt; omega⟩ : Fin 512))
      = (P V0).S0 n m := by
  rw [win1, dif_pos (show (⟨n.val, _⟩ : Fin 512).val < 207 from n.isLt)]

theorem win1_S1 (m n : Fin 207) :
    (StableHlo.after preOps V0 (Proc.devRef .tc main_v120) : FVec Ideal S207x512 .bf16) (ix2 m (⟨256 + n.val, by have := n.isLt; omega⟩ : Fin 512))
      = (P V0).S1 n m := by
  have hn := n.isLt
  rw [win1, dif_neg (show ¬ (⟨256 + n.val, _⟩ : Fin 512).val < 207 by show ¬ 256 + n.val < 207; omega),
    dif_neg (show ¬ (⟨256 + n.val, _⟩ : Fin 512).val < 256 by show ¬ 256 + n.val < 256; omega),
    dif_pos (show (⟨256 + n.val, _⟩ : Fin 512).val < 463 by show 256 + n.val < 463; omega)]
  exact congrArg (fun x => (P V0).S1 x m) (Fin.ext (by show 256 + n.val - 256 = n.val; omega))

theorem win2 (m n : Fin 207) :
    (StableHlo.after preOps V0 (Proc.devRef .tc main_v116) : FVec Ideal S207x207 .bf16) (ix2 m n) = (P V0).S0 n m :=
  win2_raw V0 m n

theorem win3 (m n : Fin 207) :
    (StableHlo.after preOps V0 (Proc.devRef .tc main_v118) : FVec Ideal S207x207 .bf16) (ix2 m n) = (P V0).S1 n m :=
  win3_raw V0 m n

theorem win4 (f : Fin 80) (j : Fin 128) :
    (StableHlo.after preOps V0 (Proc.devRef .tc main_v29) : FVec Ideal S80x128 .bf16) (ix2 f j) = w0K (dx := 8) (P V0).WruE f j :=
  win4_raw V0 f j

theorem win5 (k : Fin 320) (j : Fin 128) :
    (StableHlo.after preOps V0 (Proc.devRef .tc main_v30) : FVec Ideal S320x128 .bf16) (ix2 k j) = w4K (dx := 8) (P V0).WruE k j :=
  win5_raw V0 k j

theorem win6 (j : Fin 128) :
    (StableHlo.after preOps V0 (Proc.devRef .tc main_v121) : FVec Ideal S1x128 .f32) (ix2 (0 : Fin 1) j) = (P V0).bruE j :=
  win6_raw V0 j

theorem win7 (f : Fin 80) (j : Fin 64) :
    (StableHlo.after preOps V0 (Proc.devRef .tc main_v57) : FVec Ideal S80x64 .bf16) (ix2 f j) = w0K (dx := 8) (P V0).WcE f j :=
  win7_raw V0 f j

theorem win8 (k : Fin 320) (j : Fin 64) :
    (StableHlo.after preOps V0 (Proc.devRef .tc main_v58) : FVec Ideal S320x64 .bf16) (ix2 k j) = w4K (dx := 8) (P V0).WcE k j :=
  win8_raw V0 k j

theorem win9 (j : Fin 64) :
    (StableHlo.after preOps V0 (Proc.devRef .tc main_v122) : FVec Ideal S1x64 .f32) (ix2 (0 : Fin 1) j) = (P V0).bcE j :=
  win9_raw V0 j

theorem win10 (f : Fin 80) (j : Fin 128) :
    (StableHlo.after preOps V0 (Proc.devRef .tc main_v85) : FVec Ideal S80x128 .bf16) (ix2 f j) = w0K (dx := 1) (P V0).WruD f j :=
  win10_raw V0 f j

theorem win11 (k : Fin 320) (j : Fin 128) :
    (StableHlo.after preOps V0 (Proc.devRef .tc main_v86) : FVec Ideal S320x128 .bf16) (ix2 k j) = w4K (dx := 1) (P V0).WruD k j :=
  win11_raw V0 k j

theorem win12 (j : Fin 128) :
    (StableHlo.after preOps V0 (Proc.devRef .tc main_v123) : FVec Ideal S1x128 .f32) (ix2 (0 : Fin 1) j) = (P V0).bruD j :=
  win12_raw V0 j

theorem win13 (f : Fin 80) (j : Fin 64) :
    (StableHlo.after preOps V0 (Proc.devRef .tc main_v113) : FVec Ideal S80x64 .bf16) (ix2 f j) = w0K (dx := 1) (P V0).WcD f j :=
  win13_raw V0 f j

theorem win14 (k : Fin 320) (j : Fin 64) :
    (StableHlo.after preOps V0 (Proc.devRef .tc main_v114) : FVec Ideal S320x64 .bf16) (ix2 k j) = w4K (dx := 1) (P V0).WcD k j :=
  win14_raw V0 k j

theorem win15 (j : Fin 64) :
    (StableHlo.after preOps V0 (Proc.devRef .tc main_v124) : FVec Ideal S1x64 .f32) (ix2 (0 : Fin 1) j) = (P V0).bcD j :=
  win15_raw V0 j

theorem win16 (j : Fin 64) :
    (StableHlo.after preOps V0 (Proc.devRef .tc main_v125) : FVec Ideal S1x64 .f32) (ix2 (0 : Fin 1) j) = (P V0).Wp j :=
  win16_raw V0 j

theorem win17 :
    (StableHlo.after preOps V0 (Proc.devRef .tc main_v126) : FVec Ideal S1x1 .f32) (ix2 (0 : Fin 1) (0 : Fin 1)) = (P V0).bp :=
  win17_raw V0

end Cert.KernelIdeal.Host

end
-- ==== Proof.KEncIter.lean ====
/-
  The encoder's recurrence in the kernel's form, over plain index types: step k takes the whole 16-column slab of
  row block k of the input buffer (rows are (batch entry, node) pairs, row b * 207 + n) and the state before it.
-/
import proofs.«113864_g48979807044058_cont_8to1_c_230_28_alg».proof.Proof.KernelForm
import Idealize.ShloMosaic.Lib.ValueIdx

noncomputable section

namespace Cert.KernelIdeal.Val

open Idealize.ShloMosaic Idealize.ShloMosaic.ValueIdx Cert.Spec Cert.KernelForm

/-- The input slab of step `k`: all 16 columns of row block `k`, by (batch entry, node). -/
def encX (X : (⟨3, ![8, 3312, 16]⟩ : Shape).Idx → EReal) (k : Fin 8) : Arr3 16 :=
  fun b n i => X (ix3 k (⟨b.val * 207 + n.val, by have := b.isLt; have := n.isLt; omega⟩ : Fin 3312) i)

/-- The encoder's state after `k` steps in the kernel's form: each step takes the whole 16-column slab. -/
def encIterK (X : (⟨3, ![8, 3312, 16]⟩ : Shape).Idx → EReal) (S0 S1 : Mat 207 207) (w0ru : Mat 80 128) (w4ru : Mat 320 128)
    (bru : Fin 128 → EReal) (w0c : Mat 80 64) (w4c : Mat 320 64) (bc : Fin 64 → EReal) (h0 : Arr3 64) : ℕ → Arr3 64
  | 0 => h0
  | k + 1 =>
    if hk : k < 8 then
      cellK (dx := 16) (encX X ⟨k, hk⟩) (encIterK X S0 S1 w0ru w4ru bru w0c w4c bc h0 k) S0 S1 w0ru w4ru bru w0c w4c bc
    else encIterK X S0 S1 w0ru w4ru bru w0c w4c bc h0 k

end Cert.KernelIdeal.Val

end
-- ==== Proof.KEnc.lean ====
/-
  The encoder loop at the exact values: one trip is one recurrent step of the kernel's form on the carried state,
  with the input slab loaded at the trip's row block; the carried state before trip k is the k-fold iterate.
-/
import proofs.«113864_g48979807044058_cont_8to1_c_230_28_alg».proof.Proof.Gen.KernelIdeal.Loops
import proofs.«113864_g48979807044058_cont_8to1_c_230_28_alg».proof.Proof.KGconv
import proofs.«113864_g48979807044058_cont_8to1_c_230_28_alg».proof.Proof.KEncIter

noncomputable section

namespace Cert.KernelIdeal.Val

open Idealize.ShloMosaic Idealize.ShloMosaic.ValueIdx Cert.KernelIdeal Cert.KernelIdeal.Gen Cert.Spec Cert.KernelForm
open Idealize.SL Idealize.SL.Sem

/-! ## One trip of the encoder loop is one recurrent step -/

section Trip
variable {F : FTy → Type} [FloatOps F]

set_option maxRecDepth 65536 in
set_option maxHeartbeats 2000000 in
/-- What one trip yields, read off the trip once: the step's operation sequence applied to the carried state, the
    input slab loaded at row block `k`, and the staged weights. -/
theorem tripR_k0_t1_eq (𝒱 : Variants) (c : Dev nD) (bd : Option 𝒱.V) (arg0 : Memref sig .tc .vmem S8x3312x16 .bf16) (harg0 : arg0.IsWhole) (arg1 : Memref sig .tc .vmem S207x512 .bf16) (harg1 : arg1.IsWhole) (arg2 : Memref sig .tc .vmem S207x207 .bf16) (harg2 : arg2.IsWhole) (arg3 : Memref sig .tc .vmem S207x207 .bf16) (harg3 : arg3.IsWhole) (arg4 : Memref sig .tc .vmem S80x128 .bf16) (harg4 : arg4.IsWhole) (arg5 : Memref sig .tc .vmem S320x128 .bf16) (harg5 : arg5.IsWhole) (arg6 : Memref sig .tc .vmem S1x128 .f32) (harg6 : arg6.IsWhole) (arg7 : Memref sig .tc .vmem S80x64 .bf16) (harg7 : arg7.IsWhole) (arg8 : Memref sig .tc .vmem S320x64 .bf16) (harg8 : arg8.IsWhole) (arg9 : Memref sig .tc .vmem S1x64 .f32) (harg9 : arg9.IsWhole) (arg10 : Memref sig .tc .vmem S80x128 .bf16) (harg10 : arg10.IsWhole) (arg11 : Memref sig .tc .vmem S320x128 .bf16) (harg11 : arg11.IsWhole) (arg12 : Memref sig .tc .vmem S1x128 .f32) (harg12 : arg12.IsWhole) (arg13 : Memref sig .tc .vmem S80x64 .bf16) (harg13 : arg13.IsWhole) (arg14 : Memref sig .tc .vmem S320x64 .bf16) (harg14 : arg14.IsWhole) (arg15 : Memref sig .tc .vmem S1x64 .f32) (harg15 : arg15.IsWhole) (arg16 : Memref sig .tc .vmem S1x64 .f32) (harg16 : arg16.IsWhole) (arg17 : Memref sig .tc .vmem S1x1 .f32) (harg17 : arg17.IsWhole) (arg18 : Memref sig .tc .vmem S8x3312 .f32) (harg18 : arg18.IsWhole) (v0 : Vec F S207x512 .bf16) (v2 : Vec F S207x207 .bf16) (v4 : Vec F S207x207 .bf16) (v6 : Vec F S80x128 .bf16) (v8 : Vec F S320x128 .bf16) (v10 : Vec F S1x128 .f32) (v12 : Vec F S80x64 .bf16) (v15 : FVec F S320x64 .bf16) (v16 : Vec F S1x64 .f32) (X_arg0 : BufTy.Contents (Elt F) arg0.view.ty) (k : Fin k0_t1_loop.trips) (acc : FVec F S3312x64 .f32) :
    tripR_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v2 v4 v6 v8 v10 v12 v15 v16 X_arg0 k acc
      = cellV (k0_pay155 v0) (k0_pay156 v2) (k0_pay157 v4) (k0_pay8 (F := F) (View.readAt (Elt F) arg0.view (Rect.unit (s := S8x3312x16) (k0_off1 k) S1x3312x16.size (k0_off1_inb k)).toLoadRect X_arg0)) acc
          (k0_pay158 v6) (k0_pay159 v8) (k0_pay160 v10) (k0_pay161 v12) v15 (shapeCast S1x64 v16 shapeCasts_S1x64_S1x64) := by
  unfold tripR_k0_t1
  unfold trip_k0_t1
  dsimp only
  rfl

end Trip

/-- The loaded slab is row block `k` of the buffer's contents. -/
theorem x16_apply (arg0 : Memref sig .tc .vmem S8x3312x16 .bf16) (X_arg0 : BufTy.Contents (Elt Ideal) arg0.view.ty)
    (k : Fin k0_t1_loop.trips) (hk : k.val < 8) :
    arr3 (k0_pay8 (F := Ideal) (View.readAt (Elt Ideal) arg0.view (Rect.unit (s := S8x3312x16) (k0_off1 k) S1x3312x16.size (k0_off1_inb k)).toLoadRect X_arg0)) = encX (arg0.view.read (Elt Ideal) X_arg0) ⟨k.val, hk⟩ := by
  funext b n i
  unfold arr3 encX k0_pay8
  refine (shapeCast_1ab_ab_apply _ shapeCasts_S1x3312x16_S3312x16 _ i).trans ?_
  rw [shapeCast_self]
  refine (View.readAt_apply _ _ _).trans ?_
  refine congrArg (arg0.view.read (Elt Ideal) X_arg0) (funext fun a => Fin.ext ?_)
  have hoff := k0_off1_eq k
  match a with
  | ⟨0, _⟩ => show k0_off1 k 0 + 1 * 0 = k.val; rw [hoff]; rfl
  | ⟨1, _⟩ => show k0_off1 k 1 + 1 * (b.val * 207 + n.val) = b.val * 207 + n.val; rw [hoff]; show 0 + 1 * (b.val * 207 + n.val) = _; omega
  | ⟨2, _⟩ => show k0_off1 k 2 + 1 * i.val = i.val; rw [hoff]; show 0 + 1 * i.val = _; omega

section AtIdeal
variable (𝒱 : Variants) (c : Dev nD) (bd : Option 𝒱.V) (arg0 : Memref sig .tc .vmem S8x3312x16 .bf16) (harg0 : arg0.IsWhole) (arg1 : Memref sig .tc .vmem S207x512 .bf16) (harg1 : arg1.IsWhole) (arg2 : Memref sig .tc .vmem S207x207 .bf16) (harg2 : arg2.IsWhole) (arg3 : Memref sig .tc .vmem S207x207 .bf16) (harg3 : arg3.IsWhole) (arg4 : Memref sig .tc .vmem S80x128 .bf16) (harg4 : arg4.IsWhole) (arg5 : Memref sig .tc .vmem S320x128 .bf16) (harg5 : arg5.IsWhole) (arg6 : Memref sig .tc .vmem S1x128 .f32) (harg6 : arg6.IsWhole) (arg7 : Memref sig .tc .vmem S80x64 .bf16) (harg7 : arg7.IsWhole) (arg8 : Memref sig .tc .vmem S320x64 .bf16) (harg8 : arg8.IsWhole) (arg9 : Memref sig .tc .vmem S1x64 .f32) (harg9 : arg9.IsWhole) (arg10 : Memref sig .tc .vmem S80x128 .bf16) (harg10 : arg10.IsWhole) (arg11 : Memref sig .tc .vmem S320x128 .bf16) (harg11 : arg11.IsWhole) (arg12 : Memref sig .tc .vmem S1x128 .f32) (harg12 : arg12.IsWhole) (arg13 : Memref sig .tc .vmem S80x64 .bf16) (harg13 : arg13.IsWhole) (arg14 : Memref sig .tc .vmem S320x64 .bf16) (harg14 : arg14.IsWhole) (arg15 : Memref sig .tc .vmem S1x64 .f32) (harg15 : arg15.IsWhole) (arg16 : Memref sig .tc .vmem S1x64 .f32) (harg16 : arg16.IsWhole) (arg17 : Memref sig .tc .vmem S1x1 .f32) (harg17 : arg17.IsWhole) (arg18 : Memref sig .tc .vmem S8x3312 .f32) (harg18 : arg18.IsWhole) (v0 : Vec Ideal S207x512 .bf16) (v2 : Vec Ideal S207x207 .bf16) (v4 : Vec Ideal S207x207 .bf16) (v6 : Vec Ideal S80x128 .bf16) (v8 : Vec Ideal S320x128 .bf16) (v10 : Vec Ideal S1x128 .f32) (v12 : Vec Ideal S80x64 .bf16) (v15 : FVec Ideal S320x64 .bf16) (v16 : Vec Ideal S1x64 .f32) (X_arg0 : BufTy.Contents (Elt Ideal) arg0.view.ty)
  (S0 S1 : Mat 207 207) (hS : Supports (k0_pay155 v0) (k0_pay156 v2) (k0_pay157 v4) S0 S1)
include hS

/-- One trip, by (batch entry, node): the kernel form's step on the carried state. -/
theorem tripR_k0_t1_arr3 (k : Fin k0_t1_loop.trips) (hk : k.val < 8) (acc : FVec Ideal S3312x64 .f32) :
    arr3 (tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v2 v4 v6 v8 v10 v12 v15 v16 X_arg0 k acc)
      = cellK (dx := 16) (encX (arg0.view.read (Elt Ideal) X_arg0) ⟨k.val, hk⟩) (arr3 acc) S0 S1
          (mat (k0_pay158 v6)) (mat (k0_pay159 v8)) (row (k0_pay160 v10)) (mat (k0_pay161 v12)) (mat v15)
          (row (shapeCast S1x64 v16 shapeCasts_S1x64_S1x64)) := by
  rw [tripR_k0_t1_eq, ← x16_apply arg0 X_arg0 k hk]
  funext b n j
  exact cellV_apply _ _ _ _ _ _ _ _ _ _ _ S0 S1 hS b n j

/-- **The encoder loop's carried state before trip `k`** is the `k`-fold iterate of the kernel form's step from the
    initial state. -/
theorem st_k0_t1_eq (init : FVec Ideal S3312x64 .f32) (k : ℕ) (hk : k ≤ k0_t1_loop.trips) :
    arr3 (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v2 v4 v6 v8 v10 v12 v15 v16 X_arg0 init k)
      = encIterK (arg0.view.read (Elt Ideal) X_arg0) S0 S1 (mat (k0_pay158 v6)) (mat (k0_pay159 v8)) (row (k0_pay160 v10))
          (mat (k0_pay161 v12)) (mat v15) (row (shapeCast S1x64 v16 shapeCasts_S1x64_S1x64)) (arr3 init) k := by
  induction k with
  | zero => rfl
  | succ k ih =>
    have hlt : k < k0_t1_loop.trips := hk
    have h8 : k < 8 := Nat.lt_of_lt_of_le hlt k0_t1_abs.2.1
    have hs := st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v2 v4 v6 v8 v10 v12 v15 v16 X_arg0 init ⟨k, hlt⟩
    rw [show k + 1 = (⟨k, hlt⟩ : Fin k0_t1_loop.trips).val + 1 from rfl, hs,
      tripR_k0_t1_arr3 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v2 v4 v6 v8 v10 v12 v15 v16 X_arg0 S0 S1 hS ⟨k, hlt⟩ h8, ih (Nat.le_of_lt hlt)]
    show _ = encIterK _ _ _ _ _ _ _ _ _ _ (k + 1)
    rw [encIterK, dif_pos h8]

end AtIdeal

/-- The loop's initial state is the zero state. -/
theorem init_zero : arr3 (k0_pay162 (F := Ideal)) = fun _ _ _ => 0 := by
  funext b n j
  exact Ideal.ofBits_zero_f32

/-- The loop runs eight trips. -/
theorem k0_t1_trips : k0_t1_loop.trips = 8 := by decide

end Cert.KernelIdeal.Val

end
-- ==== Proof.KEncValue.lean ====
/-
  The encoder's recurrence in the kernel's form computes the specification's encoder states.

  The kernel's step takes the whole 16-column input slab, whose columns from 8 on are zero; such a slab gives the
  same features as its first 8 columns.  On the re-blocked weights the kernel's step is then the specification's
  step, every state of the specification being real, and the two recurrences agree step by step from the zero
  state.
-/
import proofs.«113864_g48979807044058_cont_8to1_c_230_28_alg».proof.Proof.KEncIter
import proofs.«113864_g48979807044058_cont_8to1_c_230_28_alg».proof.Proof.Algebra

noncomputable section

namespace Cert.KernelIdeal.Val

open Idealize.ShloMosaic Idealize.ShloMosaic.ValueIdx Cert.Spec Cert.KernelForm

/-- The staged input buffer read by (batch entry, node): row `b * 207 + n` of row block `t` holds the eight
    readings of node `n` in batch entry `b` at step `t`, then zeros. -/
theorem encX_of_window (P : Params) (X : (⟨3, ![8, 3312, 16]⟩ : Shape).Idx → EReal)
    (hx : ∀ (t : Fin 8) (p : Fin 3312) (q : Fin 16), X (ix3 t p q)
      = if h : q.val < 8 then P.inp t ⟨p.val / 207, by have := p.isLt; omega⟩ ⟨p.val % 207, Nat.mod_lt _ (by decide)⟩
          ⟨q.val, h⟩ else 0)
    (t : Fin 8) (b : Fin 16) (n : Fin 207) (q : Fin 16) :
    encX X t b n q = if h : q.val < 8 then P.inp t b n ⟨q.val, h⟩ else 0 := by
  have hn := n.isLt
  unfold encX
  rw [hx]
  split
  · congr 3 <;> (first | (simp only [Fin.val_mk]; omega) | (dsimp only; omega))
  · rfl

/-- **The encoder in the kernel's form is the specification's**: from the zero state, on the re-blocked encoder
    weights, with the input slabs holding the inputs and zeros, when the inputs, the supports and the encoder's
    weights are real. -/
theorem encIterK_eq (P : Params) (X : (⟨3, ![8, 3312, 16]⟩ : Shape).Idx → EReal)
    (hX : ∀ (t : Fin 8) (b : Fin 16) (n : Fin 207) (q : Fin 16),
      encX X t b n q = if h : q.val < 8 then P.inp t b n ⟨q.val, h⟩ else 0)
    (hinp : ∀ t b n f, Cert.LibERealSum.IsReal (P.inp t b n f))
    (hS0 : ∀ n m, Cert.LibERealSum.IsReal (P.S0 n m)) (hS1 : ∀ n m, Cert.LibERealSum.IsReal (P.S1 n m))
    (hWru : ∀ k j, Cert.LibERealSum.IsReal (P.WruE k j)) (hWc : ∀ k j, Cert.LibERealSum.IsReal (P.WcE k j))
    (k : ℕ) :
    encIterK X P.S0 P.S1 (w0K (dx := 8) P.WruE) (w4K (dx := 8) P.WruE) P.bruE (w0K (dx := 8) P.WcE)
        (w4K (dx := 8) P.WcE) P.bcE (fun _ _ _ => 0) k
      = encState P k := by
  induction k with
  | zero => rfl
  | succ k ih =>
    by_cases hk : k < 8
    · rw [encIterK, encState, dif_pos hk, dif_pos hk, ih,
        Cert.Algebra.cellK_pad (dx := 8) (by decide) (P.inp ⟨k, hk⟩) (encX X ⟨k, hk⟩) (hX ⟨k, hk⟩),
        Cert.Algebra.cellK_eq (dx := 8) (by decide) (P.inp ⟨k, hk⟩) (encState P k) P.S0 P.S1 P.WruE P.bruE P.WcE P.bcE
          (hinp _) (Cert.Algebra.encState_real P k) hS0 hS1 hWru hWc]
    · rw [encIterK, encState, dif_neg hk, dif_neg hk, ih]

/-- The same with the staged arrays as variables: the weights, biases and the initial state given entry by entry,
    the input buffer by its rows. -/
theorem encIterK_eq_of_windows (P : Params) (X : (⟨3, ![8, 3312, 16]⟩ : Shape).Idx → EReal)
    (w0ru : Mat 80 128) (w4ru : Mat 320 128) (bru : Fin 128 → EReal) (w0c : Mat 80 64) (w4c : Mat 320 64)
    (bc : Fin 64 → EReal) (h0 : Arr3 64)
    (hx : ∀ (t : Fin 8) (p : Fin 3312) (q : Fin 16), X (ix3 t p q)
      = if h : q.val < 8 then P.inp t ⟨p.val / 207, by have := p.isLt; omega⟩ ⟨p.val % 207, Nat.mod_lt _ (by decide)⟩
          ⟨q.val, h⟩ else 0)
    (hw0ru : ∀ f j, w0ru f j = w0K (dx := 8) P.WruE f j) (hw4ru : ∀ k j, w4ru k j = w4K (dx := 8) P.WruE k j)
    (hbru : ∀ j, bru j = P.bruE j)
    (hw0c : ∀ f j, w0c f j = w0K (dx := 8) P.WcE f j) (hw4c : ∀ k j, w4c k j = w4K (dx := 8) P.WcE k j)
    (hbc : ∀ j, bc j = P.bcE j) (hh0 : ∀ b n j, h0 b n j = 0)
    (hinp : ∀ t b n f, Cert.LibERealSum.IsReal (P.inp t b n f))
    (hS0 : ∀ n m, Cert.LibERealSum.IsReal (P.S0 n m)) (hS1 : ∀ n m, Cert.LibERealSum.IsReal (P.S1 n m))
    (hWru : ∀ k j, Cert.LibERealSum.IsReal (P.WruE k j)) (hWc : ∀ k j, Cert.LibERealSum.IsReal (P.WcE k j))
    (k : ℕ) :
    encIterK X P.S0 P.S1 w0ru w4ru bru w0c w4c bc h0 k = encState P k := by
  obtain rfl : w0ru = w0K (dx := 8) P.WruE := funext fun f => funext fun j => hw0ru f j
  obtain rfl : w4ru = w4K (dx := 8) P.WruE := funext fun f => funext fun j => hw4ru f j
  obtain rfl : bru = P.bruE := funext hbru
  obtain rfl : w0c = w0K (dx := 8) P.WcE := funext fun f => funext fun j => hw0c f j
  obtain rfl : w4c = w4K (dx := 8) P.WcE := funext fun f => funext fun j => hw4c f j
  obtain rfl : bc = P.bcE := funext hbc
  obtain rfl : h0 = fun _ _ _ => 0 := funext fun b => funext fun n => funext fun j => hh0 b n j
  exact encIterK_eq P X (encX_of_window P X hx) hinp hS0 hS1 hWru hWc k

end Cert.KernelIdeal.Val

end
-- ==== Proof.KEncFinal.lean ====
/-
  The encoder loop from end to end at the exact values: with the staged buffers holding the inputs padded with zero
  columns, the transposed supports and the re-blocked encoder weights, and every input, support entry and encoder
  weight real, the state the loop carries out after its eight trips is the specification's encoder state after
  eight steps.
-/
import proofs.«113864_g48979807044058_cont_8to1_c_230_28_alg».proof.Proof.KEnc
import proofs.«113864_g48979807044058_cont_8to1_c_230_28_alg».proof.Proof.KEncValue
import Idealize.ShloMosaic.Lib.WholeRead

noncomputable section

namespace Cert.KernelIdeal.Val

open Idealize.ShloMosaic Idealize.ShloMosaic.ValueIdx Cert.KernelIdeal Cert.KernelIdeal.Gen Cert.Spec Cert.KernelForm
open Idealize.SL Idealize.SL.Sem

/-- **The encoder loop's final state is the specification's encoder state after eight steps.** -/
theorem enc_final (c : Dev nD) (arg0 : Memref sig .tc .vmem S8x3312x16 .bf16) (harg0 : arg0.IsWhole) (arg1 : Memref sig .tc .vmem S207x512 .bf16) (harg1 : arg1.IsWhole) (arg2 : Memref sig .tc .vmem S207x207 .bf16) (harg2 : arg2.IsWhole) (arg3 : Memref sig .tc .vmem S207x207 .bf16) (harg3 : arg3.IsWhole) (arg4 : Memref sig .tc .vmem S80x128 .bf16) (harg4 : arg4.IsWhole) (arg5 : Memref sig .tc .vmem S320x128 .bf16) (harg5 : arg5.IsWhole) (arg6 : Memref sig .tc .vmem S1x128 .f32) (harg6 : arg6.IsWhole) (arg7 : Memref sig .tc .vmem S80x64 .bf16) (harg7 : arg7.IsWhole) (arg8 : Memref sig .tc .vmem S320x64 .bf16) (harg8 : arg8.IsWhole) (arg9 : Memref sig .tc .vmem S1x64 .f32) (harg9 : arg9.IsWhole) (arg10 : Memref sig .tc .vmem S80x128 .bf16) (harg10 : arg10.IsWhole) (arg11 : Memref sig .tc .vmem S320x128 .bf16) (harg11 : arg11.IsWhole) (arg12 : Memref sig .tc .vmem S1x128 .f32) (harg12 : arg12.IsWhole) (arg13 : Memref sig .tc .vmem S80x64 .bf16) (harg13 : arg13.IsWhole) (arg14 : Memref sig .tc .vmem S320x64 .bf16) (harg14 : arg14.IsWhole) (arg15 : Memref sig .tc .vmem S1x64 .f32) (harg15 : arg15.IsWhole) (arg16 : Memref sig .tc .vmem S1x64 .f32) (harg16 : arg16.IsWhole) (arg17 : Memref sig .tc .vmem S1x1 .f32) (harg17 : arg17.IsWhole) (arg18 : Memref sig .tc .vmem S8x3312 .f32) (harg18 : arg18.IsWhole)
    (x0 : Vec Ideal S8x3312x16 .bf16) (x1 : Vec Ideal S207x512 .bf16) (x2 x3 : Vec Ideal S207x207 .bf16)
    (x4 : Vec Ideal S80x128 .bf16) (x5 : Vec Ideal S320x128 .bf16) (x6 : Vec Ideal S1x128 .f32)
    (x7 : Vec Ideal S80x64 .bf16) (x8 : Vec Ideal S320x64 .bf16) (x9 : Vec Ideal S1x64 .f32) (P : Params)
    (hS : Supports (k0_pay155 x1) (k0_pay156 x2) (k0_pay157 x3) P.S0 P.S1)
    (h0 : ∀ (t : Fin 8) (p : Fin 3312) (q : Fin 16), x0 (ix3 t p q)
      = if h : q.val < 8 then P.inp t ⟨p.val / 207, by have := p.isLt; omega⟩ ⟨p.val % 207, Nat.mod_lt _ (by decide)⟩
          ⟨q.val, h⟩ else 0)
    (h4 : ∀ (f : Fin 80) (j : Fin 128), x4 (ix2 f j) = w0K (dx := 8) P.WruE f j)
    (h5 : ∀ (k : Fin 320) (j : Fin 128), x5 (ix2 k j) = w4K (dx := 8) P.WruE k j)
    (h6 : ∀ j : Fin 128, x6 (ix2 (0 : Fin 1) j) = P.bruE j)
    (h7 : ∀ (f : Fin 80) (j : Fin 64), x7 (ix2 f j) = w0K (dx := 8) P.WcE f j)
    (h8 : ∀ (k : Fin 320) (j : Fin 64), x8 (ix2 k j) = w4K (dx := 8) P.WcE k j)
    (h9 : ∀ j : Fin 64, x9 (ix2 (0 : Fin 1) j) = P.bcE j)
    (hinp : ∀ t b n f, Cert.LibERealSum.IsReal (P.inp t b n f))
    (hS0 : ∀ n m, Cert.LibERealSum.IsReal (P.S0 n m)) (hS1 : ∀ n m, Cert.LibERealSum.IsReal (P.S1 n m))
    (hWru : ∀ k j, Cert.LibERealSum.IsReal (P.WruE k j)) (hWc : ∀ k j, Cert.LibERealSum.IsReal (P.WcE k j)) :
    arr3 (Gen.st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7
        (shapeCast S320x64 x8 shapeCasts_S320x64_S320x64) x9 (harg0.unread x0) (k0_pay162 (F := Ideal)) k0_t1_loop.trips)
      = encState P 8 := by
  rw [st_k0_t1_eq Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7
      (shapeCast S320x64 x8 shapeCasts_S320x64_S320x64) x9 (harg0.unread x0) P.S0 P.S1 hS (k0_pay162 (F := Ideal))
      k0_t1_loop.trips le_rfl, init_zero, harg0.read_unread, k0_t1_trips]
  refine encIterK_eq_of_windows P x0 _ _ _ _ _ _ _ h0 ?_ ?_ ?_ ?_ ?_ ?_ (fun _ _ _ => rfl) hinp hS0 hS1 hWru hWc 8
  · intro f j
    show shapeCast S80x128 x4 shapeCasts_S80x128_S80x128 (ix2 f j) = _
    rw [shapeCast_self]; exact h4 f j
  · intro k j
    show shapeCast S320x128 x5 shapeCasts_S320x128_S320x128 (ix2 k j) = _
    rw [shapeCast_self]; exact h5 k j
  · intro j
    show shapeCast S1x128 x6 shapeCasts_S1x128_S1x128 (ix2 (0 : Fin 1) j) = _
    rw [shapeCast_self]; exact h6 j
  · intro f j
    show shapeCast S80x64 x7 shapeCasts_S80x64_S80x64 (ix2 f j) = _
    rw [shapeCast_self]; exact h7 f j
  · intro k j
    show shapeCast S320x64 x8 shapeCasts_S320x64_S320x64 (ix2 k j) = _
    rw [shapeCast_self]; exact h8 k j
  · intro j
    show shapeCast S1x64 x9 shapeCasts_S1x64_S1x64 (ix2 (0 : Fin 1) j) = _
    rw [shapeCast_self]; exact h9 j

end Cert.KernelIdeal.Val

end
-- ==== Proof.KValue.lean ====
/-
  The kernel's value.  From inputs that are all real, the kernel program ends with its result array holding the
  network's result: entry (t, b, n) is the projection of the decoder state after step t at batch entry b and node
  n.  The run ends with the body's output block recast from (8, 3312) to (8, 16, 207); the block's rows are the
  decoder loop's stores; the staged operands are the host's re-blocking of the arguments; the encoder loop ends in
  the specification's encoder state; and the precondition makes every argument entry real.
-/
import proofs.«113864_g48979807044058_cont_8to1_c_230_28_alg».proof.Proof.KValueBody
import proofs.«113864_g48979807044058_cont_8to1_c_230_28_alg».proof.Proof.KHost
import proofs.«113864_g48979807044058_cont_8to1_c_230_28_alg».proof.Proof.KEncFinal
import proofs.«113864_g48979807044058_cont_8to1_c_230_28_alg».proof.Proof.SpecArgs
import proofs.«113864_g48979807044058_cont_8to1_c_230_28_alg».proof.Defs

noncomputable section

namespace Cert.KernelIdeal.Val

open Idealize.ShloMosaic Idealize.ShloMosaic.TcCoe Idealize.ShloMosaic.ValueIdx Idealize.SL.Sem
open Cert.KernelIdeal Cert.KernelIdeal.Gen Cert.Spec Cert.KernelForm Cert.KernelIdeal.Hand

variable (m : (ℓ : Loc nD τ sig) → Buf (Elt Ideal) ℓ)

/-- The network's parameters, read off core `c`'s argument arrays. -/
abbrev PP (c : Dev nD) : Params := Cert.KernelIdeal.Host.P (fun b => m (c, b))

/-- An identity reshape reads its operand. -/
theorem shapeCast_id_apply {α : Type} {s : Shape} (x : s.Idx → α) (h : s.ShapeCasts s) (j : s.Idx) :
    shapeCast s x h j = x j :=
  shapeCast_apply x h j j rfl

/-- The result block recast to (8, 16, 207) reads row `t`, column `b · 207 + n`. -/
theorem outCast_apply {α : Type} (X : S8x3312.Idx → α) (t : Fin 8) (b : Fin 16) (n : Fin 207) :
    shapeCast S8x16x207 X shapeCasts_S8x3312_S8x16x207 (ix3 t b n)
      = X (ix2 t (⟨b.val * 207 + n.val, by have := b.isLt; have := n.isLt; omega⟩ : Fin 3312)) := by
  refine shapeCast_apply X _ _ _ ?_
  rw [Shape.rowMajor_val_two, Shape.rowMajor_val_three]
  show t.val * 3312 + (b.val * 207 + n.val) = (t.val * 16 + b.val) * 207 + n.val
  ring

section Pre

variable [hPre : Cert.Pre_finite_inputs.Facts] (hpre : Cert.Pre_KernelIdeal m) (c : Dev nD)
include hpre

/-- The staged decoder operands are the re-blocked parameters. -/
theorem decOperands :
    DecOperands (PP m c) (k0_pay155 (iblk m c 1 t0_0)) (k0_pay156 (iblk m c 2 t0_0)) (k0_pay157 (iblk m c 3 t0_0)) (k0_pay165 (iblk m c 10 t0_0))
      (k0_pay166 (iblk m c 11 t0_0)) (k0_pay167 (iblk m c 12 t0_0)) (k0_pay168 (iblk m c 13 t0_0))
      (shapeCast S320x64 (iblk m c 14 t0_0) shapeCasts_S320x64_S320x64) (iblk m c 15 t0_0) (iblk m c 16 t0_0) (iblk m c 17 t0_0) where
  sup := ⟨fun a b => (shapeCast_id_apply _ _ _).trans ((iblk_apply_2 m c _).trans (Cert.KernelIdeal.Host.win2 _ a b)),
    fun a b => (shapeCast_id_apply _ _ _).trans ((iblk_apply_3 m c _).trans (Cert.KernelIdeal.Host.win3 _ a b)),
    fun a b => (shapeCast_id_apply _ _ _).trans ((iblk_apply_1 m c _).trans (Cert.KernelIdeal.Host.win1_S0 _ a b)),
    fun a b => (shapeCast_id_apply _ _ _).trans ((iblk_apply_1 m c _).trans (Cert.KernelIdeal.Host.win1_S1 _ a b))⟩
  w0ru f j := (shapeCast_id_apply _ _ _).trans ((iblk_apply_10 m c _).trans (Cert.KernelIdeal.Host.win10 _ f j))
  w4ru k j := (shapeCast_id_apply _ _ _).trans ((iblk_apply_11 m c _).trans (Cert.KernelIdeal.Host.win11 _ k j))
  bru j := (shapeCast_id_apply _ _ _).trans ((iblk_apply_12 m c _).trans (Cert.KernelIdeal.Host.win12 _ j))
  w0c f j := (shapeCast_id_apply _ _ _).trans ((iblk_apply_13 m c _).trans (Cert.KernelIdeal.Host.win13 _ f j))
  w4c k j := (shapeCast_id_apply _ _ _).trans ((iblk_apply_14 m c _).trans (Cert.KernelIdeal.Host.win14 _ k j))
  bc j := (iblk_apply_15 m c _).trans (Cert.KernelIdeal.Host.win15 _ j)
  wp j := (iblk_apply_16 m c _).trans (Cert.KernelIdeal.Host.win16 _ j)
  bp := (iblk_apply_17 m c _).trans (Cert.KernelIdeal.Host.win17 _)

/-- The precondition makes the parameters real. -/
theorem decReal : DecReal (PP m c) :=
  decReal_of_fn _ _ _ _ _ _ _ _ _ _ _ _ _ (hpre c)

/-- The body's output block at (step, batch entry, node). -/
theorem out18_value (t : Fin 8) (b : Fin 16) (n : Fin 207) :
    out18 m c t0_0 (ix2 t (⟨b.val * 207 + n.val, by have := b.isLt; have := n.isLt; omega⟩ : Fin 3312))
      = out (PP m c) t b n := by
  obtain ⟨h0, h1, h2, h3, -, h5, -, -, -, -, -, -, -⟩ := finite_of_fn _ _ _ _ _ _ _ _ _ _ _ _ _ (hpre c)
  unfold out18
  refine out18At_value c (ms0_0 t0_0) (hstage0_0 0) (ms0_1 t0_0) (hstage0_1 0) (ms0_2 t0_0) (hstage0_2 0) (ms0_3 t0_0) (hstage0_3 0) (ms0_4 t0_0) (hstage0_4 0) (ms0_5 t0_0) (hstage0_5 0) (ms0_6 t0_0) (hstage0_6 0) (ms0_7 t0_0) (hstage0_7 0) (ms0_8 t0_0) (hstage0_8 0) (ms0_9 t0_0) (hstage0_9 0) (ms0_10 t0_0) (hstage0_10 0) (ms0_11 t0_0) (hstage0_11 0) (ms0_12 t0_0) (hstage0_12 0) (ms0_13 t0_0) (hstage0_13 0) (ms0_14 t0_0) (hstage0_14 0) (ms0_15 t0_0) (hstage0_15 0) (ms0_16 t0_0) (hstage0_16 0) (ms0_17 t0_0) (hstage0_17 0) (ms0_18 t0_0) (hstage0_18 0) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (PP m c) (decOperands m hpre c) (decReal m hpre c) ?_ t b n
  exact enc_final c (ms0_0 t0_0) (hstage0_0 0) (ms0_1 t0_0) (hstage0_1 0) (ms0_2 t0_0) (hstage0_2 0) (ms0_3 t0_0) (hstage0_3 0) (ms0_4 t0_0) (hstage0_4 0) (ms0_5 t0_0) (hstage0_5 0) (ms0_6 t0_0) (hstage0_6 0) (ms0_7 t0_0) (hstage0_7 0) (ms0_8 t0_0) (hstage0_8 0) (ms0_9 t0_0) (hstage0_9 0) (ms0_10 t0_0) (hstage0_10 0) (ms0_11 t0_0) (hstage0_11 0) (ms0_12 t0_0) (hstage0_12 0) (ms0_13 t0_0) (hstage0_13 0) (ms0_14 t0_0) (hstage0_14 0) (ms0_15 t0_0) (hstage0_15 0) (ms0_16 t0_0) (hstage0_16 0) (ms0_17 t0_0) (hstage0_17 0) (ms0_18 t0_0) (hstage0_18 0) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (PP m c)
    (decOperands m hpre c).sup
    (fun t p q => (iblk_apply_0 m c _).trans (Cert.KernelIdeal.Host.win0 _ t p q))
    (fun f j => (iblk_apply_4 m c _).trans (Cert.KernelIdeal.Host.win4 _ f j))
    (fun k j => (iblk_apply_5 m c _).trans (Cert.KernelIdeal.Host.win5 _ k j))
    (fun j => (iblk_apply_6 m c _).trans (Cert.KernelIdeal.Host.win6 _ j))
    (fun f j => (iblk_apply_7 m c _).trans (Cert.KernelIdeal.Host.win7 _ f j))
    (fun k j => (iblk_apply_8 m c _).trans (Cert.KernelIdeal.Host.win8 _ k j))
    (fun j => (iblk_apply_9 m c _).trans (Cert.KernelIdeal.Host.win9 _ j))
    (fun t b n f => h0 _) (fun n m' => h1 _) (fun n m' => h2 _) (fun k j => h3 _) (fun k j => h5 _)

/-- The result array is the network's result. -/
theorem value_eq :
    (fun i => shapeCast S8x16x207 (outArr m c) shapeCasts_S8x3312_S8x16x207 i)
      = Cert.SpecArgs.outBuf (Cert.SpecArgs.paramsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  funext i
  obtain ⟨t, b, n, rfl⟩ : ∃ (t : Fin 8) (b : Fin 16) (n : Fin 207), i = ix3 t b n := ⟨i 0, i 1, i 2, eq_ix3 i⟩
  show shapeCast S8x16x207 (outArr m c) shapeCasts_S8x3312_S8x16x207 (ix3 t b n) = _
  rw [outCast_apply, outArr_apply, out18_value m hpre c t b n]
  rfl

end Pre

/-- **The kernel's value**: from real inputs the kernel program runs to the end, its result array holding the
    network's result and its argument arrays unchanged. -/
theorem run_value [hPre : Cert.Pre_finite_inputs.Facts] (g : Dev nD → PrngReg) (hpre : Cert.Pre_KernelIdeal m) :
    θ_run (defs (F := Ideal)) (onTc (τ := τ) (main (F := Ideal))) ⟨m, fun _ => 0, g⟩ (fun r => ∀ c : Dev nD,
      r.2.mem ((c.tc : Thread nD τ).loc main_v128)
        = Cert.SpecArgs.outBuf (Cert.SpecArgs.paramsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c => ⟨(h c).1.trans (value_eq m hpre c), (h c).2⟩) (run_named m g)

end Cert.KernelIdeal.Val

end
-- ==== Proof.RefHandBase.lean ====
/-
  The specification's two recurrences unfolded one step at a time, and the network's parameters as read off a
  valuation's thirteen argument arrays.
-/
import proofs.«113864_g48979807044058_cont_8to1_c_230_28_alg».proof.ReferenceIdeal
import proofs.«113864_g48979807044058_cont_8to1_c_230_28_alg».proof.Proof.SpecArgs

noncomputable section

namespace Cert.RefHand

open Cert.ReferenceIdeal Idealize.ShloMosaic Idealize.ShloMosaic.TcCoe Idealize.SL.Sem

/-- The encoder's state after step t is the step applied to input t and the state before it. -/
theorem encState_succ (P : Cert.Spec.Params) (t : ℕ) (ht : t < 8) :
    Cert.Spec.encState P (t + 1)
      = Cert.Spec.cell (P.inp ⟨t, ht⟩) (Cert.Spec.encState P t) P.S0 P.S1 P.WruE P.bruE P.WcE P.bcE := by
  rw [Cert.Spec.encState, dif_pos ht]

/-- The decoder's state after a step is the step applied to the previous projection and state. -/
theorem decState_succ_fst (P : Cert.Spec.Params) (t : ℕ) :
    (Cert.Spec.decState P (t + 1)).1
      = Cert.Spec.cell (dx := 1) (fun b n _ => (Cert.Spec.decState P t).2 b n) (Cert.Spec.decState P t).1 P.S0 P.S1 P.WruD P.bruD P.WcD P.bcD := rfl

/-- The decoder's next input is the projection of its new state. -/
theorem decState_succ_snd (P : Cert.Spec.Params) (t : ℕ) (b : Fin 16) (n : Fin 207) :
    (Cert.Spec.decState P (t + 1)).2 b n
      = (∑ j : Fin 64, (Cert.Spec.decState P (t + 1)).1 b n j * P.Wp j) + P.bp := rfl

/-- The network's parameters read off a valuation's thirteen argument arrays. -/
abbrev PV (V0 : Valuation τ sig (Elt Ideal)) : Cert.Spec.Params :=
  Cert.SpecArgs.paramsOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))

end Cert.RefHand

end
-- ==== Proof.RefHandSSA.lean ====
/-
  A straight line of host operations in single-assignment form, read as a system of equations.  Number the device's
  buffers; if operation number i writes only buffer number c + i and touches nothing numbered above it, then no later
  operation disturbs what it wrote or what it read, so the contents W the whole line leaves satisfy every operation's
  own equation at once: W y = f (W x) for y = f x.  A value deep in the program is then read by rewriting along the
  operations that produce it, with no pass over the line.
-/
import Idealize.ShloMosaic.Lib.StableHlo.Run

noncomputable section

namespace Cert.RefHand

open Idealize.ShloMosaic Idealize.ShloMosaic.StableHlo Idealize.ShloMosaic.TcCoe

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operation number `i` writes only buffers numbered `c + i` and touches none numbered above. -/
def OpRanked (c i : ℕ) (op : HloOp τ sig Val) : Prop :=
  (∀ b ∈ op.writes, b.idx.val = c + i) ∧ (∀ b ∈ op.bufs, b.idx.val ≤ c + i)

/-- A line whose operations are numbered from `i` on, each as `OpRanked` says. -/
inductive Ranked (c : ℕ) : ℕ → List (HloOp τ sig Val) → Prop
  | nil (i : ℕ) : Ranked c i []
  | cons {i : ℕ} {op : HloOp τ sig Val} {L : List (HloOp τ sig Val)} :
      OpRanked c i op → Ranked c (i + 1) L → Ranked c i (op :: L)

/-- A buffer numbered below the line's first operation keeps its contents. -/
theorem Ranked.keep {c i : ℕ} {L : List (HloOp τ sig Val)} (h : Ranked c i L) :
    ∀ (V : Valuation τ sig Val) (b : DevRef τ sig), b.idx.val < c + i → after L V b = V b := by
  induction h with
  | nil i => intro V b _; rfl
  | cons hop _ ih =>
    intro V b hb
    rw [after_cons, ih _ b (by omega)]
    exact HloOp.result_of_not_mem _ V fun hw => by have := hop.1 b hw; omega

/-- Two numbered lines, the second numbered on from the first's end, make one. -/
theorem Ranked.append {c i : ℕ} {L₁ L₂ : List (HloOp τ sig Val)} (h₁ : Ranked c i L₁) :
    Ranked c (i + L₁.length) L₂ → Ranked c i (L₁ ++ L₂) := by
  induction h₁ with
  | nil i => intro h₂; simpa using h₂
  | @cons i op L hop _ ih =>
    intro h₂
    refine Ranked.cons hop (ih ?_)
    have e : i + (op :: L).length = i + 1 + L.length := by simp only [List.length_cons]; omega
    exact e ▸ h₂

/-- What the first operation of a numbered line touches is, at the end, what that operation left. -/
theorem Ranked.head_result {c i : ℕ} {op : HloOp τ sig Val} {R : List (HloOp τ sig Val)} (h : Ranked c i (op :: R))
    (V : Valuation τ sig Val) (b : DevRef τ sig) (hb : b ∈ op.bufs) : after (op :: R) V b = op.result V b := by
  cases h with
  | cons hop hR =>
    rw [after_cons]
    exact hR.keep _ b (by have := hop.2 b hb; omega)

/-- What operation `k` of a numbered line touches is, at the end, what that operation left, from the contents `Vk`
    it started from (the same for every buffer it touches). -/
theorem Ranked.at_result {c : ℕ} {T : List (HloOp τ sig Val)} :
    ∀ {i : ℕ} {P : List (HloOp τ sig Val)}, Ranked c i P → Ranked c (i + P.length) T →
      ∀ (V : Valuation τ sig Val) (k : ℕ) (hk : k < P.length),
        ∃ Vk : Valuation τ sig Val, ∀ b ∈ (P[k]).bufs, after (P ++ T) V b = (P[k]).result Vk b := by
  intro i P hP
  induction hP with
  | nil i => intro _ _ k hk; exact absurd hk (by simp)
  | @cons i op L hop hL ih =>
    intro hT V k hk
    have hT' : Ranked c (i + 1 + L.length) T := by
      have e : i + (op :: L).length = i + 1 + L.length := by simp only [List.length_cons]; omega
      exact e ▸ hT
    cases k with
    | zero =>
      refine ⟨V, fun b hb => ?_⟩
      exact (Ranked.cons hop (hL.append hT')).head_result V b hb
    | succ k =>
      have hk' : k < L.length := by simpa using hk
      obtain ⟨Vk, hVk⟩ := ih hT' (op.result V) k hk'
      exact ⟨Vk, fun b hb => hVk b hb⟩

section Builders
variable {c i : ℕ} {P T : List (HloOp τ sig Val)}

/-- A constant's buffer holds the constant. -/
theorem ssa_nullary (hP : Ranked c i P) (hT : Ranked c (i + P.length) T) (V : Valuation τ sig Val) (k : ℕ) (hk : k < P.length)
    {y : Ref sig .tc} {v : y.ty.Contents Val} {hy} (e : P[k] = nullary y v hy) :
    after (P ++ T) V (Proc.devRef .tc y) = v := by
  obtain ⟨Vk, h⟩ := hP.at_result hT V k hk
  rw [e] at h
  rw [h _ (Finset.mem_singleton_self _), nullary_result]

/-- A one-operand operation's result is its function of the operand's final contents. -/
theorem ssa_unary (hP : Ranked c i P) (hT : Ranked c (i + P.length) T) (V : Valuation τ sig Val) (k : ℕ) (hk : k < P.length)
    {x y : Ref sig .tc} {f : x.ty.Contents Val → y.ty.Contents Val} {hx hy} (e : P[k] = unary x y f hx hy) (hxy : x ≠ y) :
    after (P ++ T) V (Proc.devRef .tc y) = f (after (P ++ T) V (Proc.devRef .tc x)) := by
  obtain ⟨Vk, h⟩ := hP.at_result hT V k hk
  rw [e] at h
  have hy' := h (Proc.devRef .tc y) (Finset.mem_insert_of_mem (Finset.mem_singleton_self _))
  have hx' := h (Proc.devRef .tc x) (Finset.mem_insert_self _ _)
  rw [unary_result] at hy'
  rw [unary_result_ne x y f hx hy Vk hxy] at hx'
  rw [hy', hx']

/-- A two-operand operation's result is its function of the operands' final contents. -/
theorem ssa_binary (hP : Ranked c i P) (hT : Ranked c (i + P.length) T) (V : Valuation τ sig Val) (k : ℕ) (hk : k < P.length)
    {a b y : Ref sig .tc} {f : a.ty.Contents Val → b.ty.Contents Val → y.ty.Contents Val} {ha hb hy}
    (e : P[k] = binary a b y f ha hb hy) (hay : a ≠ y) (hby : b ≠ y) :
    after (P ++ T) V (Proc.devRef .tc y) = f (after (P ++ T) V (Proc.devRef .tc a)) (after (P ++ T) V (Proc.devRef .tc b)) := by
  obtain ⟨Vk, h⟩ := hP.at_result hT V k hk
  rw [e] at h
  have hy' := h (Proc.devRef .tc y) (Finset.mem_insert_of_mem (Finset.mem_insert_of_mem (Finset.mem_singleton_self _)))
  have ha' := h (Proc.devRef .tc a) (Finset.mem_insert_self _ _)
  have hb' := h (Proc.devRef .tc b) (Finset.mem_insert_of_mem (Finset.mem_insert_self _ _))
  rw [binary_result] at hy'
  rw [binary_result_ne a b y f ha hb hy Vk hay] at ha'
  rw [binary_result_ne a b y f ha hb hy Vk hby] at hb'
  rw [hy', ha', hb']

/-- A reshape's result is the operand's final contents at the new shape. -/
theorem ssa_reshape (hP : Ranked c i P) (hT : Ranked c (i + P.length) T) (V : Valuation τ sig Val) (k : ℕ) (hk : k < P.length)
    {x y : Ref sig .tc} {he : x.ty.elt = y.ty.elt} {hn : x.ty.shape.ShapeCasts y.ty.shape} {hx hy}
    (e : P[k] = reshape x y he hn hx hy) (hxy : x ≠ y) :
    after (P ++ T) V (Proc.devRef .tc y)
      = fun j => he ▸ shapeCast y.ty.shape (after (P ++ T) V (Proc.devRef .tc x)) hn j := by
  obtain ⟨Vk, h⟩ := hP.at_result hT V k hk
  rw [e] at h
  have hy' := h (Proc.devRef .tc y) (Finset.mem_insert_of_mem (Finset.mem_singleton_self _))
  have hx' := h (Proc.devRef .tc x) (Finset.mem_insert_self _ _)
  rw [reshape_result] at hy'
  rw [reshape_result_ne x y he hn hx hy Vk hxy] at hx'
  rw [hy', hx']

/-- A many-operand operation's result is its function of the operands' final contents. -/
theorem ssa_nary (hP : Ranked c i P) (hT : Ranked c (i + P.length) T) (V : Valuation τ sig Val) (k : ℕ) (hk : k < P.length)
    {n : ℕ} {xs : Fin n → Ref sig .tc} {y : Ref sig .tc} {f : ((j : Fin n) → (xs j).ty.Contents Val) → y.ty.Contents Val} {hxs hy}
    (e : P[k] = nary xs y f hxs hy) (hne : ∀ j, xs j ≠ y) :
    after (P ++ T) V (Proc.devRef .tc y) = f (fun j => after (P ++ T) V (Proc.devRef .tc (xs j))) := by
  obtain ⟨Vk, h⟩ := hP.at_result hT V k hk
  rw [e] at h
  rw [h _ (Finset.mem_insert_self _ _), nary_result]
  congr 1
  funext j
  have hj := h (Proc.devRef .tc (xs j)) (Finset.mem_insert_of_mem (Finset.mem_image_of_mem _ (Finset.mem_univ j)))
  rw [nary_result_ne y xs f hxs hy Vk (hne j)] at hj
  exact hj.symm

end Builders

/-! ## Numbering one operation -/

section Number
variable {c i : ℕ}

theorem nullary_ranked {y : Ref sig .tc} (v : y.ty.Contents Val) (hy)
    (h : (Proc.devRef (τ := τ) .tc y).idx.val = c + i) : OpRanked c i (nullary (τ := τ) y v hy) :=
  ⟨fun b hb => by rw [Finset.mem_singleton.mp hb]; exact h, fun b hb => by rw [Finset.mem_singleton.mp hb]; omega⟩

theorem unary_ranked {x y : Ref sig .tc} (f : x.ty.Contents Val → y.ty.Contents Val) (hx hy)
    (h : (Proc.devRef (τ := τ) .tc y).idx.val = c + i) (h1 : (Proc.devRef (τ := τ) .tc x).idx.val ≤ c + i) :
    OpRanked c i (unary (τ := τ) x y f hx hy) :=
  ⟨fun b hb => by rw [Finset.mem_singleton.mp hb]; exact h, fun b hb => by
    rcases Finset.mem_insert.mp hb with rfl | hb
    · exact h1
    · rw [Finset.mem_singleton.mp hb]; omega⟩

theorem reshape_ranked {x y : Ref sig .tc} (he : x.ty.elt = y.ty.elt) (hn : x.ty.shape.ShapeCasts y.ty.shape) (hx hy)
    (h : (Proc.devRef (τ := τ) .tc y).idx.val = c + i) (h1 : (Proc.devRef (τ := τ) .tc x).idx.val ≤ c + i) :
    OpRanked c i (reshape (τ := τ) (Val := Val) x y he hn hx hy) :=
  ⟨fun b hb => by rw [Finset.mem_singleton.mp hb]; exact h, fun b hb => by
    rcases Finset.mem_insert.mp hb with rfl | hb
    · exact h1
    · rw [Finset.mem_singleton.mp hb]; omega⟩

theorem binary_ranked {a b y : Ref sig .tc} (f : a.ty.Contents Val → b.ty.Contents Val → y.ty.Contents Val) (ha hb hy)
    (h : (Proc.devRef (τ := τ) .tc y).idx.val = c + i) (h1 : (Proc.devRef (τ := τ) .tc a).idx.val ≤ c + i)
    (h2 : (Proc.devRef (τ := τ) .tc b).idx.val ≤ c + i) : OpRanked c i (binary (τ := τ) a b y f ha hb hy) :=
  ⟨fun d hd => by rw [Finset.mem_singleton.mp hd]; exact h, fun d hd => by
    rcases Finset.mem_insert.mp hd with rfl | hd
    · exact h1
    rcases Finset.mem_insert.mp hd with rfl | hd
    · exact h2
    · rw [Finset.mem_singleton.mp hd]; omega⟩

theorem nary_ranked {n : ℕ} {xs : Fin n → Ref sig .tc} {y : Ref sig .tc}
    (f : ((j : Fin n) → (xs j).ty.Contents Val) → y.ty.Contents Val) (hxs hy)
    (h : (Proc.devRef (τ := τ) .tc y).idx.val = c + i) (h1 : ∀ j, (Proc.devRef (τ := τ) .tc (xs j)).idx.val ≤ c + i) :
    OpRanked c i (nary (τ := τ) xs y f hxs hy) :=
  ⟨fun d hd => by rw [Finset.mem_singleton.mp hd]; exact h, fun d hd => by
    rcases Finset.mem_insert.mp hd with rfl | hd
    · omega
    · obtain ⟨j, -, rfl⟩ := Finset.mem_image.mp hd
      exact h1 j⟩

end Number

/-! ## A many-operand operation over a literal family of five or of eight references

The operands' contents each at its own reference (a `Fin.cons` chain in place of `fun j => W ↑(![…] j)`), so that a
later rewrite of one operand's contents finds it. -/

section Literal
variable {c i : ℕ} {P T : List (HloOp τ sig Val)}

theorem ssa_nary5 (hP : Ranked c i P) (hT : Ranked c (i + P.length) T) (V : Valuation τ sig Val) (k : ℕ) (hk : k < P.length)
    {x0 x1 x2 x3 x4 y : Ref sig .tc}
    {f : ((j : Fin 5) → ((![x0, x1, x2, x3, x4] : Fin 5 → Ref sig .tc) j).ty.Contents Val) → y.ty.Contents Val} {hxs hy}
    (e : P[k] = nary ![x0, x1, x2, x3, x4] y f hxs hy) (hne : ∀ j, (![x0, x1, x2, x3, x4] : Fin 5 → Ref sig .tc) j ≠ y) :
    after (P ++ T) V (Proc.devRef .tc y)
      = f (Fin.cons (after (P ++ T) V (Proc.devRef .tc x0)) (Fin.cons (after (P ++ T) V (Proc.devRef .tc x1))
          (Fin.cons (after (P ++ T) V (Proc.devRef .tc x2)) (Fin.cons (after (P ++ T) V (Proc.devRef .tc x3))
          (Fin.cons (after (P ++ T) V (Proc.devRef .tc x4)) (fun j => j.elim0)))))) := by
  rw [ssa_nary hP hT V k hk e hne]; congr 1; funext j; fin_cases j <;> rfl

theorem ssa_nary8 (hP : Ranked c i P) (hT : Ranked c (i + P.length) T) (V : Valuation τ sig Val) (k : ℕ) (hk : k < P.length)
    {x0 x1 x2 x3 x4 x5 x6 x7 y : Ref sig .tc}
    {f : ((j : Fin 8) → ((![x0, x1, x2, x3, x4, x5, x6, x7] : Fin 8 → Ref sig .tc) j).ty.Contents Val) → y.ty.Contents Val} {hxs hy}
    (e : P[k] = nary ![x0, x1, x2, x3, x4, x5, x6, x7] y f hxs hy)
    (hne : ∀ j, (![x0, x1, x2, x3, x4, x5, x6, x7] : Fin 8 → Ref sig .tc) j ≠ y) :
    after (P ++ T) V (Proc.devRef .tc y)
      = f (Fin.cons (after (P ++ T) V (Proc.devRef .tc x0)) (Fin.cons (after (P ++ T) V (Proc.devRef .tc x1))
          (Fin.cons (after (P ++ T) V (Proc.devRef .tc x2)) (Fin.cons (after (P ++ T) V (Proc.devRef .tc x3))
          (Fin.cons (after (P ++ T) V (Proc.devRef .tc x4)) (Fin.cons (after (P ++ T) V (Proc.devRef .tc x5))
          (Fin.cons (after (P ++ T) V (Proc.devRef .tc x6)) (Fin.cons (after (P ++ T) V (Proc.devRef .tc x7))
          (fun j => j.elim0))))))))) := by
  rw [ssa_nary hP hT V k hk e hne]; congr 1; funext j; fin_cases j <;> rfl

end Literal

/-! ## A window of a longer line

The whole line `L` from contents `V0`, seen from one of its consecutive pieces `P`: what came before has run (`Vw`), what
comes after (`T`) is numbered on from `P`'s end.  Each operation of `P` then gives its equation about the WHOLE line's
final contents. -/

structure Window (L : List (HloOp τ sig Val)) (V0 : Valuation τ sig Val) (P : List (HloOp τ sig Val)) : Prop where
  ex : ∃ (c i : ℕ) (T : List (HloOp τ sig Val)) (Vw : Valuation τ sig Val),
    after L V0 = after (P ++ T) Vw ∧ Ranked c i P ∧ Ranked c (i + P.length) T

namespace Window
variable {L P : List (HloOp τ sig Val)} {V0 : Valuation τ sig Val}

/-! The references are given (a table names them); the side conditions that they are device tensors, and that an
    operand is not the result, are computed. -/

theorem nullary (h : Window L V0 P) (k : ℕ) (y : Ref sig .tc) (hk : k < P.length := by decide) {v : y.ty.Contents Val}
    (hy : y.space ≠ .host ∧ (Proc.devRef (τ := τ) .tc y).isScoped = false := by exact ⟨by decide, rfl⟩) (e : P[k] = StableHlo.nullary y v hy) : after L V0 (Proc.devRef .tc y) = v := by
  obtain ⟨c, i, T, Vw, hW, hP, hT⟩ := h.ex
  rw [hW]; exact ssa_nullary hP hT Vw k hk e

theorem unary (h : Window L V0 P) (k : ℕ) (x y : Ref sig .tc) (hk : k < P.length := by decide)
    {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (e : P[k] = StableHlo.unary x y f hx hy) (hxy : x ≠ y := by decide) :
    after L V0 (Proc.devRef .tc y) = f (after L V0 (Proc.devRef .tc x)) := by
  obtain ⟨c, i, T, Vw, hW, hP, hT⟩ := h.ex
  rw [hW]; exact ssa_unary hP hT Vw k hk e hxy

theorem binary (h : Window L V0 P) (k : ℕ) (a b y : Ref sig .tc) (hk : k < P.length := by decide)
    {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (e : P[k] = StableHlo.binary a b y f ha hb hy) (hay : a ≠ y := by decide) (hby : b ≠ y := by decide) :
    after L V0 (Proc.devRef .tc y) = f (after L V0 (Proc.devRef .tc a)) (after L V0 (Proc.devRef .tc b)) := by
  obtain ⟨c, i, T, Vw, hW, hP, hT⟩ := h.ex
  rw [hW]; exact ssa_binary hP hT Vw k hk e hay hby

theorem reshape (h : Window L V0 P) (k : ℕ) (x y : Ref sig .tc) (hk : k < P.length := by decide)
    (he : x.ty.elt = y.ty.elt := by rfl) {hn : x.ty.shape.ShapeCasts y.ty.shape}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (e : P[k] = StableHlo.reshape x y he hn hx hy) (hxy : x ≠ y := by decide) :
    after L V0 (Proc.devRef .tc y) = fun j => he ▸ shapeCast y.ty.shape (after L V0 (Proc.devRef .tc x)) hn j := by
  obtain ⟨c, i, T, Vw, hW, hP, hT⟩ := h.ex
  rw [hW]; exact ssa_reshape hP hT Vw k hk e hxy

theorem nary5 (h : Window L V0 P) (k : ℕ) (x0 x1 x2 x3 x4 y : Ref sig .tc) (hk : k < P.length := by decide)
    {f : ((j : Fin 5) → ((![x0, x1, x2, x3, x4] : Fin 5 → Ref sig .tc) j).ty.Contents Val) → y.ty.Contents Val}
    (hxs : ∀ j, ((![x0, x1, x2, x3, x4] : Fin 5 → Ref sig .tc) j).space ≠ .host ∧ (Proc.devRef (τ := τ) .tc ((![x0, x1, x2, x3, x4] : Fin 5 → Ref sig .tc) j)).isScoped = false := by decide)
    (hy : y.space ≠ .host ∧ (Proc.devRef (τ := τ) .tc y).isScoped = false := by exact ⟨by decide, rfl⟩)
    (e : P[k] = StableHlo.nary ![x0, x1, x2, x3, x4] y f hxs hy) (hne : ∀ j, (![x0, x1, x2, x3, x4] : Fin 5 → Ref sig .tc) j ≠ y := by decide) :
    after L V0 (Proc.devRef .tc y)
      = f (Fin.cons (after L V0 (Proc.devRef .tc x0)) (Fin.cons (after L V0 (Proc.devRef .tc x1)) (Fin.cons (after L V0 (Proc.devRef .tc x2)) (Fin.cons (after L V0 (Proc.devRef .tc x3)) (Fin.cons (after L V0 (Proc.devRef .tc x4)) (fun j => j.elim0)))))) := by
  obtain ⟨c, i, T, Vw, hW, hP, hT⟩ := h.ex
  rw [hW]; exact ssa_nary5 hP hT Vw k hk e hne

theorem nary8 (h : Window L V0 P) (k : ℕ) (x0 x1 x2 x3 x4 x5 x6 x7 y : Ref sig .tc) (hk : k < P.length := by decide)
    {f : ((j : Fin 8) → ((![x0, x1, x2, x3, x4, x5, x6, x7] : Fin 8 → Ref sig .tc) j).ty.Contents Val) → y.ty.Contents Val}
    (hxs : ∀ j, ((![x0, x1, x2, x3, x4, x5, x6, x7] : Fin 8 → Ref sig .tc) j).space ≠ .host ∧ (Proc.devRef (τ := τ) .tc ((![x0, x1, x2, x3, x4, x5, x6, x7] : Fin 8 → Ref sig .tc) j)).isScoped = false := by decide)
    (hy : y.space ≠ .host ∧ (Proc.devRef (τ := τ) .tc y).isScoped = false := by exact ⟨by decide, rfl⟩)
    (e : P[k] = StableHlo.nary ![x0, x1, x2, x3, x4, x5, x6, x7] y f hxs hy) (hne : ∀ j, (![x0, x1, x2, x3, x4, x5, x6, x7] : Fin 8 → Ref sig .tc) j ≠ y := by decide) :
    after L V0 (Proc.devRef .tc y)
      = f (Fin.cons (after L V0 (Proc.devRef .tc x0)) (Fin.cons (after L V0 (Proc.devRef .tc x1)) (Fin.cons (after L V0 (Proc.devRef .tc x2)) (Fin.cons (after L V0 (Proc.devRef .tc x3)) (Fin.cons (after L V0 (Proc.devRef .tc x4)) (Fin.cons (after L V0 (Proc.devRef .tc x5)) (Fin.cons (after L V0 (Proc.devRef .tc x6)) (Fin.cons (after L V0 (Proc.devRef .tc x7)) (fun j => j.elim0))))))))) := by
  obtain ⟨c, i, T, Vw, hW, hP, hT⟩ := h.ex
  rw [hW]; exact ssa_nary8 hP hT Vw k hk e hne

end Window

end Cert.RefHand

end
-- ==== Proof.RefHandRank.lean ====
/- The numbering of the reference's 1389 host operations, part by part: operation number i of the line writes buffer
   number 13 + i and reads lower-numbered buffers only (the thirteen arguments are buffers 0 … 12), each case closed by
   computing the references' indices; then the line's tails, the contents before each part, and each part as a window
   of the whole line (RefHandSSA.lean). -/
import proofs.«113864_g48979807044058_cont_8to1_c_230_28_alg».proof.Proof.RefOps
import proofs.«113864_g48979807044058_cont_8to1_c_230_28_alg».proof.Proof.RefHandSSA

set_option Elab.async false

noncomputable section

namespace Cert.RefHand

open Cert.ReferenceIdeal Cert.ReferenceIdeal.Gen Cert.ReferenceIdeal.HandRun Idealize.ShloMosaic Idealize.ShloMosaic.TcCoe Idealize.ShloMosaic.StableHlo

variable {F : FTy → Type} [FloatOps F]

set_option maxRecDepth 8192 in
theorem rk_part0 : Ranked 13 0 (ops_part0 : List (HloOp τ sig (Elt F))) := by
  refine .cons (nullary_ranked _ _ (by decide)) ?_
  refine .cons (unary_ranked _ _ _ (by decide) (by decide)) ?_
  refine .cons (unary_ranked _ _ _ (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  exact .nil _

set_option maxRecDepth 8192 in
theorem rk_part1 : Ranked 13 60 (ops_part1 : List (HloOp τ sig (Elt F))) := by
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  exact .nil _

set_option maxRecDepth 8192 in
theorem rk_part2 : Ranked 13 120 (ops_part2 : List (HloOp τ sig (Elt F))) := by
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  exact .nil _

set_option maxRecDepth 8192 in
theorem rk_part3 : Ranked 13 180 (ops_part3 : List (HloOp τ sig (Elt F))) := by
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  exact .nil _

set_option maxRecDepth 8192 in
theorem rk_part4 : Ranked 13 240 (ops_part4 : List (HloOp τ sig (Elt F))) := by
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  exact .nil _

set_option maxRecDepth 8192 in
theorem rk_part5 : Ranked 13 300 (ops_part5 : List (HloOp τ sig (Elt F))) := by
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  exact .nil _

set_option maxRecDepth 8192 in
theorem rk_part6 : Ranked 13 360 (ops_part6 : List (HloOp τ sig (Elt F))) := by
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  exact .nil _

set_option maxRecDepth 8192 in
theorem rk_part7 : Ranked 13 420 (ops_part7 : List (HloOp τ sig (Elt F))) := by
  refine .cons (binary_ranked _ _ _ _ (by decide) (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  exact .nil _

set_option maxRecDepth 8192 in
theorem rk_part8 : Ranked 13 480 (ops_part8 : List (HloOp τ sig (Elt F))) := by
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  exact .nil _

set_option maxRecDepth 8192 in
theorem rk_part9 : Ranked 13 540 (ops_part9 : List (HloOp τ sig (Elt F))) := by
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  exact .nil _

set_option maxRecDepth 8192 in
theorem rk_part10 : Ranked 13 600 (ops_part10 : List (HloOp τ sig (Elt F))) := by
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  exact .nil _

set_option maxRecDepth 8192 in
theorem rk_part11 : Ranked 13 660 (ops_part11 : List (HloOp τ sig (Elt F))) := by
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  exact .nil _

set_option maxRecDepth 8192 in
theorem rk_part12 : Ranked 13 720 (ops_part12 : List (HloOp τ sig (Elt F))) := by
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  exact .nil _

set_option maxRecDepth 8192 in
theorem rk_part13 : Ranked 13 780 (ops_part13 : List (HloOp τ sig (Elt F))) := by
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  exact .nil _

set_option maxRecDepth 8192 in
theorem rk_part14 : Ranked 13 840 (ops_part14 : List (HloOp τ sig (Elt F))) := by
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  exact .nil _

set_option maxRecDepth 8192 in
theorem rk_part15 : Ranked 13 900 (ops_part15 : List (HloOp τ sig (Elt F))) := by
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  exact .nil _

set_option maxRecDepth 8192 in
theorem rk_part16 : Ranked 13 960 (ops_part16 : List (HloOp τ sig (Elt F))) := by
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  exact .nil _

set_option maxRecDepth 8192 in
theorem rk_part17 : Ranked 13 1020 (ops_part17 : List (HloOp τ sig (Elt F))) := by
  refine .cons (binary_ranked _ _ _ _ (by decide) (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  exact .nil _

set_option maxRecDepth 8192 in
theorem rk_part18 : Ranked 13 1080 (ops_part18 : List (HloOp τ sig (Elt F))) := by
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  exact .nil _

set_option maxRecDepth 8192 in
theorem rk_part19 : Ranked 13 1140 (ops_part19 : List (HloOp τ sig (Elt F))) := by
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  exact .nil _

set_option maxRecDepth 8192 in
theorem rk_part20 : Ranked 13 1200 (ops_part20 : List (HloOp τ sig (Elt F))) := by
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  exact .nil _

set_option maxRecDepth 8192 in
theorem rk_part21 : Ranked 13 1260 (ops_part21 : List (HloOp τ sig (Elt F))) := by
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (reshape_ranked _ _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  exact .nil _

set_option maxRecDepth 8192 in
theorem rk_part22 : Ranked 13 1320 (ops_part22 : List (HloOp τ sig (Elt F))) := by
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (unary_ranked _ _ _ (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  refine .cons (reshape_ranked _ _ _ _ (by decide) (by decide)) ?_
  refine .cons (unary_ranked _ _ _ (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  refine .cons (unary_ranked _ _ _ (by decide) (by decide)) ?_
  refine .cons (binary_ranked _ _ _ _ (by decide) (by decide) (by decide)) ?_
  refine .cons (nullary_ranked _ _ (by decide)) ?_
  refine .cons (unary_ranked _ _ _ (by decide) (by decide)) ?_
  refine .cons (binary_ranked _ _ _ _ (by decide) (by decide) (by decide)) ?_
  refine .cons (binary_ranked _ _ _ _ (by decide) (by decide) (by decide)) ?_
  refine .cons (binary_ranked _ _ _ _ (by decide) (by decide) (by decide)) ?_
  refine .cons (reshape_ranked _ _ _ _ (by decide) (by decide)) ?_
  refine .cons (binary_ranked _ _ _ _ (by decide) (by decide) (by decide)) ?_
  refine .cons (unary_ranked _ _ _ (by decide) (by decide)) ?_
  refine .cons (unary_ranked _ _ _ (by decide) (by decide)) ?_
  refine .cons (binary_ranked _ _ _ _ (by decide) (by decide) (by decide)) ?_
  refine .cons (reshape_ranked _ _ _ _ (by decide) (by decide)) ?_
  exact .nil _

set_option maxRecDepth 8192 in
theorem rk_part23 : Ranked 13 1380 (ops_part23 : List (HloOp τ sig (Elt F))) := by
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (unary_ranked _ _ _ (by decide) (by decide)) ?_
  refine .cons (nary_ranked _ _ _ (by decide) (by decide)) ?_
  exact .nil _

abbrev tail24 : List (HloOp τ sig (Elt F)) := []
abbrev tail23 : List (HloOp τ sig (Elt F)) := ops_part23 ++ tail24
abbrev tail22 : List (HloOp τ sig (Elt F)) := ops_part22 ++ tail23
abbrev tail21 : List (HloOp τ sig (Elt F)) := ops_part21 ++ tail22
abbrev tail20 : List (HloOp τ sig (Elt F)) := ops_part20 ++ tail21
abbrev tail19 : List (HloOp τ sig (Elt F)) := ops_part19 ++ tail20
abbrev tail18 : List (HloOp τ sig (Elt F)) := ops_part18 ++ tail19
abbrev tail17 : List (HloOp τ sig (Elt F)) := ops_part17 ++ tail18
abbrev tail16 : List (HloOp τ sig (Elt F)) := ops_part16 ++ tail17
abbrev tail15 : List (HloOp τ sig (Elt F)) := ops_part15 ++ tail16
abbrev tail14 : List (HloOp τ sig (Elt F)) := ops_part14 ++ tail15
abbrev tail13 : List (HloOp τ sig (Elt F)) := ops_part13 ++ tail14
abbrev tail12 : List (HloOp τ sig (Elt F)) := ops_part12 ++ tail13
abbrev tail11 : List (HloOp τ sig (Elt F)) := ops_part11 ++ tail12
abbrev tail10 : List (HloOp τ sig (Elt F)) := ops_part10 ++ tail11
abbrev tail9 : List (HloOp τ sig (Elt F)) := ops_part9 ++ tail10
abbrev tail8 : List (HloOp τ sig (Elt F)) := ops_part8 ++ tail9
abbrev tail7 : List (HloOp τ sig (Elt F)) := ops_part7 ++ tail8
abbrev tail6 : List (HloOp τ sig (Elt F)) := ops_part6 ++ tail7
abbrev tail5 : List (HloOp τ sig (Elt F)) := ops_part5 ++ tail6
abbrev tail4 : List (HloOp τ sig (Elt F)) := ops_part4 ++ tail5
abbrev tail3 : List (HloOp τ sig (Elt F)) := ops_part3 ++ tail4
abbrev tail2 : List (HloOp τ sig (Elt F)) := ops_part2 ++ tail3
abbrev tail1 : List (HloOp τ sig (Elt F)) := ops_part1 ++ tail2
abbrev tail0 : List (HloOp τ sig (Elt F)) := ops_part0 ++ tail1

set_option maxRecDepth 8192 in
theorem ops_eq_tail0 : (ops : List (HloOp τ sig (Elt F))) = tail0 := rfl

theorem rk_tail24 : Ranked 13 1389 (tail24 : List (HloOp τ sig (Elt F))) := .nil _
theorem rk_tail23 : Ranked 13 1380 (tail23 : List (HloOp τ sig (Elt F))) := rk_part23.append rk_tail24
theorem rk_tail22 : Ranked 13 1320 (tail22 : List (HloOp τ sig (Elt F))) := rk_part22.append rk_tail23
theorem rk_tail21 : Ranked 13 1260 (tail21 : List (HloOp τ sig (Elt F))) := rk_part21.append rk_tail22
theorem rk_tail20 : Ranked 13 1200 (tail20 : List (HloOp τ sig (Elt F))) := rk_part20.append rk_tail21
theorem rk_tail19 : Ranked 13 1140 (tail19 : List (HloOp τ sig (Elt F))) := rk_part19.append rk_tail20
theorem rk_tail18 : Ranked 13 1080 (tail18 : List (HloOp τ sig (Elt F))) := rk_part18.append rk_tail19
theorem rk_tail17 : Ranked 13 1020 (tail17 : List (HloOp τ sig (Elt F))) := rk_part17.append rk_tail18
theorem rk_tail16 : Ranked 13 960 (tail16 : List (HloOp τ sig (Elt F))) := rk_part16.append rk_tail17
theorem rk_tail15 : Ranked 13 900 (tail15 : List (HloOp τ sig (Elt F))) := rk_part15.append rk_tail16
theorem rk_tail14 : Ranked 13 840 (tail14 : List (HloOp τ sig (Elt F))) := rk_part14.append rk_tail15
theorem rk_tail13 : Ranked 13 780 (tail13 : List (HloOp τ sig (Elt F))) := rk_part13.append rk_tail14
theorem rk_tail12 : Ranked 13 720 (tail12 : List (HloOp τ sig (Elt F))) := rk_part12.append rk_tail13
theorem rk_tail11 : Ranked 13 660 (tail11 : List (HloOp τ sig (Elt F))) := rk_part11.append rk_tail12
theorem rk_tail10 : Ranked 13 600 (tail10 : List (HloOp τ sig (Elt F))) := rk_part10.append rk_tail11
theorem rk_tail9 : Ranked 13 540 (tail9 : List (HloOp τ sig (Elt F))) := rk_part9.append rk_tail10
theorem rk_tail8 : Ranked 13 480 (tail8 : List (HloOp τ sig (Elt F))) := rk_part8.append rk_tail9
theorem rk_tail7 : Ranked 13 420 (tail7 : List (HloOp τ sig (Elt F))) := rk_part7.append rk_tail8
theorem rk_tail6 : Ranked 13 360 (tail6 : List (HloOp τ sig (Elt F))) := rk_part6.append rk_tail7
theorem rk_tail5 : Ranked 13 300 (tail5 : List (HloOp τ sig (Elt F))) := rk_part5.append rk_tail6
theorem rk_tail4 : Ranked 13 240 (tail4 : List (HloOp τ sig (Elt F))) := rk_part4.append rk_tail5
theorem rk_tail3 : Ranked 13 180 (tail3 : List (HloOp τ sig (Elt F))) := rk_part3.append rk_tail4
theorem rk_tail2 : Ranked 13 120 (tail2 : List (HloOp τ sig (Elt F))) := rk_part2.append rk_tail3
theorem rk_tail1 : Ranked 13 60 (tail1 : List (HloOp τ sig (Elt F))) := rk_part1.append rk_tail2
theorem rk_tail0 : Ranked 13 0 (tail0 : List (HloOp τ sig (Elt F))) := rk_part0.append rk_tail1

def Vp0 (V0 : Valuation τ sig (Elt F)) : Valuation τ sig (Elt F) := V0
def Vp1 (V0 : Valuation τ sig (Elt F)) : Valuation τ sig (Elt F) := after ops_part0 (Vp0 V0)
def Vp2 (V0 : Valuation τ sig (Elt F)) : Valuation τ sig (Elt F) := after ops_part1 (Vp1 V0)
def Vp3 (V0 : Valuation τ sig (Elt F)) : Valuation τ sig (Elt F) := after ops_part2 (Vp2 V0)
def Vp4 (V0 : Valuation τ sig (Elt F)) : Valuation τ sig (Elt F) := after ops_part3 (Vp3 V0)
def Vp5 (V0 : Valuation τ sig (Elt F)) : Valuation τ sig (Elt F) := after ops_part4 (Vp4 V0)
def Vp6 (V0 : Valuation τ sig (Elt F)) : Valuation τ sig (Elt F) := after ops_part5 (Vp5 V0)
def Vp7 (V0 : Valuation τ sig (Elt F)) : Valuation τ sig (Elt F) := after ops_part6 (Vp6 V0)
def Vp8 (V0 : Valuation τ sig (Elt F)) : Valuation τ sig (Elt F) := after ops_part7 (Vp7 V0)
def Vp9 (V0 : Valuation τ sig (Elt F)) : Valuation τ sig (Elt F) := after ops_part8 (Vp8 V0)
def Vp10 (V0 : Valuation τ sig (Elt F)) : Valuation τ sig (Elt F) := after ops_part9 (Vp9 V0)
def Vp11 (V0 : Valuation τ sig (Elt F)) : Valuation τ sig (Elt F) := after ops_part10 (Vp10 V0)
def Vp12 (V0 : Valuation τ sig (Elt F)) : Valuation τ sig (Elt F) := after ops_part11 (Vp11 V0)
def Vp13 (V0 : Valuation τ sig (Elt F)) : Valuation τ sig (Elt F) := after ops_part12 (Vp12 V0)
def Vp14 (V0 : Valuation τ sig (Elt F)) : Valuation τ sig (Elt F) := after ops_part13 (Vp13 V0)
def Vp15 (V0 : Valuation τ sig (Elt F)) : Valuation τ sig (Elt F) := after ops_part14 (Vp14 V0)
def Vp16 (V0 : Valuation τ sig (Elt F)) : Valuation τ sig (Elt F) := after ops_part15 (Vp15 V0)
def Vp17 (V0 : Valuation τ sig (Elt F)) : Valuation τ sig (Elt F) := after ops_part16 (Vp16 V0)
def Vp18 (V0 : Valuation τ sig (Elt F)) : Valuation τ sig (Elt F) := after ops_part17 (Vp17 V0)
def Vp19 (V0 : Valuation τ sig (Elt F)) : Valuation τ sig (Elt F) := after ops_part18 (Vp18 V0)
def Vp20 (V0 : Valuation τ sig (Elt F)) : Valuation τ sig (Elt F) := after ops_part19 (Vp19 V0)
def Vp21 (V0 : Valuation τ sig (Elt F)) : Valuation τ sig (Elt F) := after ops_part20 (Vp20 V0)
def Vp22 (V0 : Valuation τ sig (Elt F)) : Valuation τ sig (Elt F) := after ops_part21 (Vp21 V0)
def Vp23 (V0 : Valuation τ sig (Elt F)) : Valuation τ sig (Elt F) := after ops_part22 (Vp22 V0)

theorem hW0 (V0 : Valuation τ sig (Elt F)) : after ops V0 = after (ops_part0 ++ tail1) (Vp0 V0) := congrArg (after · V0) ops_eq_tail0
theorem hW1 (V0 : Valuation τ sig (Elt F)) : after ops V0 = after (ops_part1 ++ tail2) (Vp1 V0) := (hW0 V0).trans (after_append _ _ _)
theorem hW2 (V0 : Valuation τ sig (Elt F)) : after ops V0 = after (ops_part2 ++ tail3) (Vp2 V0) := (hW1 V0).trans (after_append _ _ _)
theorem hW3 (V0 : Valuation τ sig (Elt F)) : after ops V0 = after (ops_part3 ++ tail4) (Vp3 V0) := (hW2 V0).trans (after_append _ _ _)
theorem hW4 (V0 : Valuation τ sig (Elt F)) : after ops V0 = after (ops_part4 ++ tail5) (Vp4 V0) := (hW3 V0).trans (after_append _ _ _)
theorem hW5 (V0 : Valuation τ sig (Elt F)) : after ops V0 = after (ops_part5 ++ tail6) (Vp5 V0) := (hW4 V0).trans (after_append _ _ _)
theorem hW6 (V0 : Valuation τ sig (Elt F)) : after ops V0 = after (ops_part6 ++ tail7) (Vp6 V0) := (hW5 V0).trans (after_append _ _ _)
theorem hW7 (V0 : Valuation τ sig (Elt F)) : after ops V0 = after (ops_part7 ++ tail8) (Vp7 V0) := (hW6 V0).trans (after_append _ _ _)
theorem hW8 (V0 : Valuation τ sig (Elt F)) : after ops V0 = after (ops_part8 ++ tail9) (Vp8 V0) := (hW7 V0).trans (after_append _ _ _)
theorem hW9 (V0 : Valuation τ sig (Elt F)) : after ops V0 = after (ops_part9 ++ tail10) (Vp9 V0) := (hW8 V0).trans (after_append _ _ _)
theorem hW10 (V0 : Valuation τ sig (Elt F)) : after ops V0 = after (ops_part10 ++ tail11) (Vp10 V0) := (hW9 V0).trans (after_append _ _ _)
theorem hW11 (V0 : Valuation τ sig (Elt F)) : after ops V0 = after (ops_part11 ++ tail12) (Vp11 V0) := (hW10 V0).trans (after_append _ _ _)
theorem hW12 (V0 : Valuation τ sig (Elt F)) : after ops V0 = after (ops_part12 ++ tail13) (Vp12 V0) := (hW11 V0).trans (after_append _ _ _)
theorem hW13 (V0 : Valuation τ sig (Elt F)) : after ops V0 = after (ops_part13 ++ tail14) (Vp13 V0) := (hW12 V0).trans (after_append _ _ _)
theorem hW14 (V0 : Valuation τ sig (Elt F)) : after ops V0 = after (ops_part14 ++ tail15) (Vp14 V0) := (hW13 V0).trans (after_append _ _ _)
theorem hW15 (V0 : Valuation τ sig (Elt F)) : after ops V0 = after (ops_part15 ++ tail16) (Vp15 V0) := (hW14 V0).trans (after_append _ _ _)
theorem hW16 (V0 : Valuation τ sig (Elt F)) : after ops V0 = after (ops_part16 ++ tail17) (Vp16 V0) := (hW15 V0).trans (after_append _ _ _)
theorem hW17 (V0 : Valuation τ sig (Elt F)) : after ops V0 = after (ops_part17 ++ tail18) (Vp17 V0) := (hW16 V0).trans (after_append _ _ _)
theorem hW18 (V0 : Valuation τ sig (Elt F)) : after ops V0 = after (ops_part18 ++ tail19) (Vp18 V0) := (hW17 V0).trans (after_append _ _ _)
theorem hW19 (V0 : Valuation τ sig (Elt F)) : after ops V0 = after (ops_part19 ++ tail20) (Vp19 V0) := (hW18 V0).trans (after_append _ _ _)
theorem hW20 (V0 : Valuation τ sig (Elt F)) : after ops V0 = after (ops_part20 ++ tail21) (Vp20 V0) := (hW19 V0).trans (after_append _ _ _)
theorem hW21 (V0 : Valuation τ sig (Elt F)) : after ops V0 = after (ops_part21 ++ tail22) (Vp21 V0) := (hW20 V0).trans (after_append _ _ _)
theorem hW22 (V0 : Valuation τ sig (Elt F)) : after ops V0 = after (ops_part22 ++ tail23) (Vp22 V0) := (hW21 V0).trans (after_append _ _ _)
theorem hW23 (V0 : Valuation τ sig (Elt F)) : after ops V0 = after (ops_part23 ++ tail24) (Vp23 V0) := (hW22 V0).trans (after_append _ _ _)

theorem win0 (V0 : Valuation τ sig (Elt F)) : Window (ops : List (HloOp τ sig (Elt F))) V0 ops_part0 := ⟨⟨13, 0, tail1, Vp0 V0, hW0 V0, rk_part0, rk_tail1⟩⟩
theorem win1 (V0 : Valuation τ sig (Elt F)) : Window (ops : List (HloOp τ sig (Elt F))) V0 ops_part1 := ⟨⟨13, 60, tail2, Vp1 V0, hW1 V0, rk_part1, rk_tail2⟩⟩
theorem win2 (V0 : Valuation τ sig (Elt F)) : Window (ops : List (HloOp τ sig (Elt F))) V0 ops_part2 := ⟨⟨13, 120, tail3, Vp2 V0, hW2 V0, rk_part2, rk_tail3⟩⟩
theorem win3 (V0 : Valuation τ sig (Elt F)) : Window (ops : List (HloOp τ sig (Elt F))) V0 ops_part3 := ⟨⟨13, 180, tail4, Vp3 V0, hW3 V0, rk_part3, rk_tail4⟩⟩
theorem win4 (V0 : Valuation τ sig (Elt F)) : Window (ops : List (HloOp τ sig (Elt F))) V0 ops_part4 := ⟨⟨13, 240, tail5, Vp4 V0, hW4 V0, rk_part4, rk_tail5⟩⟩
theorem win5 (V0 : Valuation τ sig (Elt F)) : Window (ops : List (HloOp τ sig (Elt F))) V0 ops_part5 := ⟨⟨13, 300, tail6, Vp5 V0, hW5 V0, rk_part5, rk_tail6⟩⟩
theorem win6 (V0 : Valuation τ sig (Elt F)) : Window (ops : List (HloOp τ sig (Elt F))) V0 ops_part6 := ⟨⟨13, 360, tail7, Vp6 V0, hW6 V0, rk_part6, rk_tail7⟩⟩
theorem win7 (V0 : Valuation τ sig (Elt F)) : Window (ops : List (HloOp τ sig (Elt F))) V0 ops_part7 := ⟨⟨13, 420, tail8, Vp7 V0, hW7 V0, rk_part7, rk_tail8⟩⟩
theorem win8 (V0 : Valuation τ sig (Elt F)) : Window (ops : List (HloOp τ sig (Elt F))) V0 ops_part8 := ⟨⟨13, 480, tail9, Vp8 V0, hW8 V0, rk_part8, rk_tail9⟩⟩
theorem win9 (V0 : Valuation τ sig (Elt F)) : Window (ops : List (HloOp τ sig (Elt F))) V0 ops_part9 := ⟨⟨13, 540, tail10, Vp9 V0, hW9 V0, rk_part9, rk_tail10⟩⟩
theorem win10 (V0 : Valuation τ sig (Elt F)) : Window (ops : List (HloOp τ sig (Elt F))) V0 ops_part10 := ⟨⟨13, 600, tail11, Vp10 V0, hW10 V0, rk_part10, rk_tail11⟩⟩
theorem win11 (V0 : Valuation τ sig (Elt F)) : Window (ops : List (HloOp τ sig (Elt F))) V0 ops_part11 := ⟨⟨13, 660, tail12, Vp11 V0, hW11 V0, rk_part11, rk_tail12⟩⟩
theorem win12 (V0 : Valuation τ sig (Elt F)) : Window (ops : List (HloOp τ sig (Elt F))) V0 ops_part12 := ⟨⟨13, 720, tail13, Vp12 V0, hW12 V0, rk_part12, rk_tail13⟩⟩
theorem win13 (V0 : Valuation τ sig (Elt F)) : Window (ops : List (HloOp τ sig (Elt F))) V0 ops_part13 := ⟨⟨13, 780, tail14, Vp13 V0, hW13 V0, rk_part13, rk_tail14⟩⟩
theorem win14 (V0 : Valuation τ sig (Elt F)) : Window (ops : List (HloOp τ sig (Elt F))) V0 ops_part14 := ⟨⟨13, 840, tail15, Vp14 V0, hW14 V0, rk_part14, rk_tail15⟩⟩
theorem win15 (V0 : Valuation τ sig (Elt F)) : Window (ops : List (HloOp τ sig (Elt F))) V0 ops_part15 := ⟨⟨13, 900, tail16, Vp15 V0, hW15 V0, rk_part15, rk_tail16⟩⟩
theorem win16 (V0 : Valuation τ sig (Elt F)) : Window (ops : List (HloOp τ sig (Elt F))) V0 ops_part16 := ⟨⟨13, 960, tail17, Vp16 V0, hW16 V0, rk_part16, rk_tail17⟩⟩
theorem win17 (V0 : Valuation τ sig (Elt F)) : Window (ops : List (HloOp τ sig (Elt F))) V0 ops_part17 := ⟨⟨13, 1020, tail18, Vp17 V0, hW17 V0, rk_part17, rk_tail18⟩⟩
theorem win18 (V0 : Valuation τ sig (Elt F)) : Window (ops : List (HloOp τ sig (Elt F))) V0 ops_part18 := ⟨⟨13, 1080, tail19, Vp18 V0, hW18 V0, rk_part18, rk_tail19⟩⟩
theorem win19 (V0 : Valuation τ sig (Elt F)) : Window (ops : List (HloOp τ sig (Elt F))) V0 ops_part19 := ⟨⟨13, 1140, tail20, Vp19 V0, hW19 V0, rk_part19, rk_tail20⟩⟩
theorem win20 (V0 : Valuation τ sig (Elt F)) : Window (ops : List (HloOp τ sig (Elt F))) V0 ops_part20 := ⟨⟨13, 1200, tail21, Vp20 V0, hW20 V0, rk_part20, rk_tail21⟩⟩
theorem win21 (V0 : Valuation τ sig (Elt F)) : Window (ops : List (HloOp τ sig (Elt F))) V0 ops_part21 := ⟨⟨13, 1260, tail22, Vp21 V0, hW21 V0, rk_part21, rk_tail22⟩⟩
theorem win22 (V0 : Valuation τ sig (Elt F)) : Window (ops : List (HloOp τ sig (Elt F))) V0 ops_part22 := ⟨⟨13, 1320, tail23, Vp22 V0, hW22 V0, rk_part22, rk_tail23⟩⟩
theorem win23 (V0 : Valuation τ sig (Elt F)) : Window (ops : List (HloOp τ sig (Elt F))) V0 ops_part23 := ⟨⟨13, 1380, tail24, Vp23 V0, hW23 V0, rk_part23, rk_tail24⟩⟩

/-- An argument's buffer (numbered below 13) is as launched. -/
theorem arg_keep (V0 : Valuation τ sig (Elt F)) (r : Ref sig .tc) (h : (Proc.devRef (τ := τ) .tc r).idx.val < 13) :
    after (ops : List (HloOp τ sig (Elt F))) V0 (Proc.devRef .tc r) = V0 (Proc.devRef .tc r) := by
  rw [ops_eq_tail0]; exact rk_tail0.keep V0 _ (by omega)

end Cert.RefHand

end
-- ==== Proof.RefCellBase.lean ====
/-
  One recurrent step of the reference, read at an index: the pieces that do not depend on the number of input
  columns.  A flattened state row holds node n's 64 units at positions 64 n … 64 n + 63; the gate pre-activations
  are computed on the 3312 = 16 · 207 rows (batch-major) and regrouped per batch entry.
-/
import proofs.«113864_g48979807044058_cont_8to1_c_230_28_alg».proof.ReferenceIdeal
import proofs.«113864_g48979807044058_cont_8to1_c_230_28_alg».proof.Proof.Spec
import Idealize.ShloMosaic.Lib.Pipeline.Value
import Idealize.ShloMosaic.Lib.IdealHost

noncomputable section

namespace Cert.RefCell

open Cert.ReferenceIdeal Idealize.ShloMosaic Idealize.ShloMosaic.ValueIdx
open Facts₀ Facts
open scoped BigOperators

variable [Facts]

/-! ## Arrays read by coordinates -/

/-- A batch × node × feature array read by its three coordinates. -/
@[reducible] def toArr3 {d : ℕ} (v : FVec Ideal ⟨3, ![16, 207, d]⟩ .f32) : Cert.Spec.Arr3 d :=
  fun b n f => v (ix3 b n f)

/-- A flattened state (one row of 207 · 64 numbers per batch entry) read per node and unit. -/
@[reducible] def hFlat (h : FVec Ideal S16x13248 .f32) : Cert.Spec.Arr3 64 :=
  fun b n j => h (ix2 b ⟨n.val * 64 + j.val, by have := n.isLt; have := j.isLt; omega⟩)

/-- A matrix read by row and column. -/
@[reducible] def toMat {a b : ℕ} (W : FVec Ideal ⟨2, ![a, b]⟩ .f32) : Cert.Spec.Mat a b := fun k j => W (ix2 k j)

/-- A vector read by position. -/
@[reducible] def toVec {a : ℕ} (v : FVec Ideal ⟨1, ![a]⟩ .f32) : Fin a → EReal := fun j => v (ix1 j)

/-! ## A plain matrix product read at an index -/

/-- The product of an M × K by a K × N matrix at (r, c) is the sum over the K inner positions. -/
theorem dotPlain_apply (M K N : ℕ) (A : FVec Ideal ⟨2, ![M, K]⟩ .f32) (B : FVec Ideal ⟨2, ![K, N]⟩ .f32)
    (r : Fin M) (c : Fin N) :
    Host.dotGeneral (F := Ideal) (DotDims.plain M K N) none A B (ix2 r c) = ∑ k : Fin K, A (ix2 r k) * B (ix2 k c) := by
  show FloatOps.dotGeneral (DotDims.plain M K N) none .single A B (ix2 r c) = _
  rw [Ideal.dotGeneral_apply]
  rw [← Equiv.sum_comp (contrEquiv1 (DotDims.plain M K N) K rfl rfl).symm]
  refine Finset.sum_congr rfl fun k _ => ?_
  have hl : (DotDims.plain M K N).lhsIdx (ix2 r c) ((contrEquiv1 (DotDims.plain M K N) K rfl rfl).symm k) = ix2 r k := by
    funext a
    match a with
    | ⟨0, _⟩ => rfl
    | ⟨1, _⟩ => exact Fin.ext (contrEquiv1_symm_val (DotDims.plain M K N) K rfl rfl k)
  have hr : (DotDims.plain M K N).rhsIdx (ix2 r c) ((contrEquiv1 (DotDims.plain M K N) K rfl rfl).symm k) = ix2 k c := by
    funext a
    match a with
    | ⟨0, _⟩ => exact Fin.ext (contrEquiv1_symm_val (DotDims.plain M K N) K rfl rfl k)
    | ⟨1, _⟩ => rfl
  rw [hl, hr]

/-! ## Rows and flattened positions -/

/-- Row of the 3312-row arrays holding batch entry b, node n (batch-major). -/
@[reducible] def row (b : Fin 16) (n : Fin 207) : Fin 3312 :=
  ⟨b.val * 207 + n.val, by have := b.isLt; have := n.isLt; omega⟩

/-- Position of node n's unit j in a flattened row of 207 · w numbers. -/
@[reducible] def pos (w : ℕ) (n : Fin 207) (j : Fin w) : Fin (207 * w) :=
  ⟨n.val * w + j.val, by
    have := n.isLt; have := j.isLt
    calc n.val * w + j.val < n.val * w + w := by omega
      _ = (n.val + 1) * w := by ring
      _ ≤ 207 * w := Nat.mul_le_mul_right _ (by omega)⟩

section Layout
variable {α : Type}

/-- A per-node array flattened per batch entry: position 64 n + j holds (n, j). -/
theorem flat_of_three (v : S16x207x64.Idx → α) (b : Fin 16) (n : Fin 207) (j : Fin 64) :
    shapeCast S16x13248 v shapeCasts_S16x207x64_S16x13248 (ix2 b ⟨n.val * 64 + j.val, by have := n.isLt; have := j.isLt; omega⟩)
      = v (ix3 b n j) := by
  refine shapeCast_apply _ _ _ (ix3 b n j) ?_
  rw [Shape.rowMajor_val_three, Shape.rowMajor_val_two]
  show (b.val * 207 + n.val) * 64 + j.val = b.val * 13248 + (n.val * 64 + j.val)
  omega

/-- A flattened state regrouped per node: (n, j) holds position 64 n + j. -/
theorem three_of_flat (h : S16x13248.Idx → α) (b : Fin 16) (n : Fin 207) (j : Fin 64) :
    shapeCast S16x207x64 h shapeCasts_S16x13248_S16x207x64 (ix3 b n j)
      = h (ix2 b ⟨n.val * 64 + j.val, by have := n.isLt; have := j.isLt; omega⟩) := by
  refine shapeCast_apply _ _ _ (ix2 b ⟨n.val * 64 + j.val, by have := n.isLt; have := j.isLt; omega⟩) ?_
  rw [Shape.rowMajor_val_three, Shape.rowMajor_val_two]
  show b.val * 13248 + (n.val * 64 + j.val) = (b.val * 207 + n.val) * 64 + j.val
  omega

/-- A flattened state regrouped by rows: row (b, n) holds positions 64 n … 64 n + 63 of batch entry b. -/
theorem rows_of_flat (h : S16x13248.Idx → α) (b : Fin 16) (n : Fin 207) (j : Fin 64) :
    shapeCast S3312x64 h shapeCasts_S16x13248_S3312x64 (ix2 (row b n) j)
      = h (ix2 b ⟨n.val * 64 + j.val, by have := n.isLt; have := j.isLt; omega⟩) := by
  refine shapeCast_apply _ _ _ (ix2 b ⟨n.val * 64 + j.val, by have := n.isLt; have := j.isLt; omega⟩) ?_
  rw [Shape.rowMajor_val_two, Shape.rowMajor_val_two]
  show b.val * 13248 + (n.val * 64 + j.val) = (b.val * 207 + n.val) * 64 + j.val
  omega

/-- 64-column rows flattened per batch entry. -/
theorem flat_of_rows64 (g : S3312x64.Idx → α) (b : Fin 16) (n : Fin 207) (j : Fin 64) :
    shapeCast S16x13248 g shapeCasts_S3312x64_S16x13248 (ix2 b ⟨n.val * 64 + j.val, by have := n.isLt; have := j.isLt; omega⟩)
      = g (ix2 (row b n) j) := by
  refine shapeCast_apply _ _ _ (ix2 (row b n) j) ?_
  rw [Shape.rowMajor_val_two, Shape.rowMajor_val_two]
  show (b.val * 207 + n.val) * 64 + j.val = b.val * 13248 + (n.val * 64 + j.val)
  omega

/-- 128-column rows flattened per batch entry. -/
theorem flat_of_rows128 (g : S3312x128.Idx → α) (b : Fin 16) (n : Fin 207) (j : Fin 128) :
    shapeCast S16x26496 g shapeCasts_S3312x128_S16x26496 (ix2 b ⟨n.val * 128 + j.val, by have := n.isLt; have := j.isLt; omega⟩)
      = g (ix2 (row b n) j) := by
  refine shapeCast_apply _ _ _ (ix2 (row b n) j) ?_
  rw [Shape.rowMajor_val_two, Shape.rowMajor_val_two]
  show (b.val * 207 + n.val) * 128 + j.val = b.val * 26496 + (n.val * 128 + j.val)
  omega

/-- A flattened row of 207 · 128 numbers regrouped per node. -/
theorem three_of_flat128 (v : S16x26496.Idx → α) (b : Fin 16) (n : Fin 207) (j : Fin 128) :
    shapeCast S16x207x128 v shapeCasts_S16x26496_S16x207x128 (ix3 b n j)
      = v (ix2 b ⟨n.val * 128 + j.val, by have := n.isLt; have := j.isLt; omega⟩) := by
  refine shapeCast_apply _ _ _ (ix2 b ⟨n.val * 128 + j.val, by have := n.isLt; have := j.isLt; omega⟩) ?_
  rw [Shape.rowMajor_val_three, Shape.rowMajor_val_two]
  show b.val * 26496 + (n.val * 128 + j.val) = (b.val * 207 + n.val) * 128 + j.val
  omega

/-- The upper half of the gate columns. -/
theorem slice_hi (ru : S16x207x128.Idx → α) (b : Fin 16) (n : Fin 207) (j : Fin 64) :
    extractStridedSlice S16x207x64 ![0, 0, 64] ru slices_S16x207x128_S16x207x64_0_0_64 (ix3 b n j)
      = ru (ix3 b n ⟨64 + j.val, by have := j.isLt; omega⟩) := by
  refine extractStridedSlice_apply _ _ _ _ (ix3 b n ⟨64 + j.val, by have := j.isLt; omega⟩) fun a => ?_
  match a with
  | ⟨0, _⟩ => show b.val = 0 + b.val; omega
  | ⟨1, _⟩ => show n.val = 0 + n.val; omega
  | ⟨2, _⟩ => show 64 + j.val = 64 + j.val; rfl

/-- The lower half of the gate columns. -/
theorem slice_lo (ru : S16x207x128.Idx → α) (b : Fin 16) (n : Fin 207) (j : Fin 64) :
    extractStridedSlice S16x207x64 ![0, 0, 0] ru slices_S16x207x128_S16x207x64_0_0_0 (ix3 b n j)
      = ru (ix3 b n ⟨j.val, by have := j.isLt; omega⟩) := by
  refine extractStridedSlice_apply _ _ _ _ (ix3 b n ⟨j.val, by have := j.isLt; omega⟩) fun a => ?_
  match a with
  | ⟨0, _⟩ => show b.val = 0 + b.val; omega
  | ⟨1, _⟩ => show n.val = 0 + n.val; omega
  | ⟨2, _⟩ => show j.val = 0 + j.val; omega

end Layout

/-! ## The gates -/

/-- The update gate: columns 64 … 127 of every node, flattened per batch entry. -/
def uOf (ru : FVec Ideal S16x207x128 .f32) : FVec Ideal S16x13248 .f32 :=
  shapeCast _ (extractStridedSlice S16x207x64 ![0, 0, 64] ru slices_S16x207x128_S16x207x64_0_0_64) shapeCasts_S16x207x64_S16x13248

theorem uOf_apply (ru : FVec Ideal S16x207x128 .f32) (b : Fin 16) (n : Fin 207) (j : Fin 64) :
    hFlat (uOf ru) b n j = ru (ix3 b n ⟨64 + j.val, by have := j.isLt; omega⟩) :=
  (flat_of_three _ b n j).trans (slice_hi ru b n j)

/-- The reset gate times the state, regrouped per node: the state the candidate's convolution reads. -/
def rhOf (ru : FVec Ideal S16x207x128 .f32) (h : FVec Ideal S16x13248 .f32) : FVec Ideal S16x207x64 .f32 :=
  shapeCast _ (mulf (F := Ideal) (shapeCast _ (extractStridedSlice S16x207x64 ![0, 0, 0] ru slices_S16x207x128_S16x207x64_0_0_0) shapeCasts_S16x207x64_S16x13248) h) shapeCasts_S16x13248_S16x207x64

theorem rhOf_apply (ru : FVec Ideal S16x207x128 .f32) (h : FVec Ideal S16x13248 .f32) (b : Fin 16) (n : Fin 207) (j : Fin 64) :
    rhOf ru h (ix3 b n j) = ru (ix3 b n ⟨j.val, by have := j.isLt; omega⟩) * hFlat h b n j := by
  unfold rhOf
  rw [three_of_flat, mulf_apply, flat_of_three, slice_lo]

/-- The logistic function of 128-column rows, regrouped per batch entry and node. -/
def sigT (g : FVec Ideal S3312x128 .f32) : FVec Ideal S16x207x128 .f32 :=
  shapeCast _ (Host.divf (F := Ideal) (broadcastInDim S16x26496 ![] bcast_S_S16x26496 (constant (F := Ideal) S_ .f32 0x3F800000#32)) (addf (F := Ideal) (broadcastInDim S16x26496 ![] bcast_S_S16x26496 (constant (F := Ideal) S_ .f32 0x3F800000#32)) (Host.exp (F := Ideal) (Host.negf (F := Ideal) (shapeCast _ g shapeCasts_S3312x128_S16x26496))))) shapeCasts_S16x26496_S16x207x128

theorem sigT_apply (g : FVec Ideal S3312x128 .f32) (b : Fin 16) (n : Fin 207) (j : Fin 128) :
    sigT g (ix3 b n j) = Cert.Spec.sigm (g (ix2 (row b n) j)) := by
  unfold sigT
  rw [three_of_flat128]
  show Ideal.div (broadcastInDim S16x26496 ![] bcast_S_S16x26496 (constant (F := Ideal) S_ .f32 0x3F800000#32) _)
      (broadcastInDim S16x26496 ![] bcast_S_S16x26496 (constant (F := Ideal) S_ .f32 0x3F800000#32) _
        + Ideal.exp (-(shapeCast S16x26496 g shapeCasts_S3312x128_S16x26496 _))) = _
  rw [broadcastInDim_scalar_apply, constant_apply, Ideal.ofBits_one_f32, flat_of_rows128]
  rfl

/-! ## Bias rows -/

theorem bias128_apply (D : FVec Ideal S3312x128 .f32) (bias : FVec Ideal S128 .f32) (p : Fin 3312) (j : Fin 128) :
    addf (F := Ideal) D (broadcastInDim S3312x128 ![0, 1] bcast_S1x128_S3312x128_0_1 (broadcastInDim S1x128 ![1] bcast_S128_S1x128_1 bias)) (ix2 p j)
      = D (ix2 p j) + bias (ix1 j) := by
  rw [addf_apply]
  congr 1
  refine (broadcastInDim_apply _ _ _ (ix2 p j) (ix2 (0 : Fin 1) j) (fun a => ?_)).trans
    (broadcastInDim_apply _ _ _ (ix2 (0 : Fin 1) j) (ix1 j) (fun a => ?_))
  · match a with
    | ⟨0, _⟩ => rfl
    | ⟨1, _⟩ => rfl
  · match a with
    | ⟨0, _⟩ => rfl

theorem bias64_apply (D : FVec Ideal S3312x64 .f32) (bias : FVec Ideal S64 .f32) (p : Fin 3312) (j : Fin 64) :
    addf (F := Ideal) D (broadcastInDim S3312x64 ![0, 1] bcast_S1x64_S3312x64_0_1 (broadcastInDim S1x64 ![1] bcast_S64_S1x64_1 bias)) (ix2 p j)
      = D (ix2 p j) + bias (ix1 j) := by
  rw [addf_apply]
  congr 1
  refine (broadcastInDim_apply _ _ _ (ix2 p j) (ix2 (0 : Fin 1) j) (fun a => ?_)).trans
    (broadcastInDim_apply _ _ _ (ix2 (0 : Fin 1) j) (ix1 j) (fun a => ?_))
  · match a with
    | ⟨0, _⟩ => rfl
    | ⟨1, _⟩ => rfl
  · match a with
    | ⟨0, _⟩ => rfl

/-! ## The new state -/

/-- u ⊙ h + (1 − u) ⊙ tanh of the candidate's pre-activation rows. -/
def outT (u h : FVec Ideal S16x13248 .f32) (G : FVec Ideal S3312x64 .f32) : FVec Ideal S16x13248 .f32 :=
  addf (F := Ideal) (mulf (F := Ideal) u h) (mulf (F := Ideal) (subf (F := Ideal) (broadcastInDim S16x13248 ![] bcast_S_S16x13248 (constant (F := Ideal) S_ .f32 0x3F800000#32)) u) (Host.tanh (F := Ideal) (shapeCast _ G shapeCasts_S3312x64_S16x13248)))

theorem outT_apply (u h : FVec Ideal S16x13248 .f32) (G : FVec Ideal S3312x64 .f32) (b : Fin 16) (n : Fin 207) (j : Fin 64) :
    hFlat (outT u h G) b n j
      = hFlat u b n j * hFlat h b n j + (1 - hFlat u b n j) * Ideal.tanh (G (ix2 (row b n) j)) := by
  show u _ * h _ + (broadcastInDim S16x13248 ![] bcast_S_S16x13248 (constant (F := Ideal) S_ .f32 0x3F800000#32) _ - u _)
      * Ideal.tanh (shapeCast S16x13248 G shapeCasts_S3312x64_S16x13248 _) = _
  rw [broadcastInDim_scalar_apply, constant_apply, Ideal.ofBits_one_f32, flat_of_rows64]

/-! ## The output projection and the decoder's input -/

/-- Each node's 64 state units against the projection column, plus the projection bias. -/
def projT (h : FVec Ideal S16x13248 .f32) (Wp : FVec Ideal S64x1 .f32) (bp : FVec Ideal S1 .f32) : FVec Ideal S16x207 .f32 :=
  shapeCast _ (addf (F := Ideal) (Host.dotGeneral (F := Ideal) dot_S3312x64_S64x1_S3312x1_1_0_0_1_n_n none (shapeCast _ h shapeCasts_S16x13248_S3312x64) Wp) (broadcastInDim S3312x1 ![0, 1] bcast_S1x1_S3312x1_0_1 (broadcastInDim S1x1 ![1] bcast_S1_S1x1_1 bp))) shapeCasts_S3312x1_S16x207

theorem proj_apply (h : FVec Ideal S16x13248 .f32) (Wp : FVec Ideal S64x1 .f32) (bp : FVec Ideal S1 .f32) (b : Fin 16) (n : Fin 207) :
    projT h Wp bp (ix2 b n) = (∑ j : Fin 64, hFlat h b n j * Wp (ix2 j 0)) + bp (ix1 0) := by
  unfold projT
  refine (shapeCast_apply _ _ _ (ix2 (row b n) (0 : Fin 1)) (by
    rw [Shape.rowMajor_val_two, Shape.rowMajor_val_two]
    show (b.val * 207 + n.val) * 1 + 0 = b.val * 207 + n.val
    omega)).trans ?_
  rw [addf_apply]
  congr 1
  · refine (dotPlain_apply 3312 64 1 _ Wp (row b n) 0).trans ?_
    refine Finset.sum_congr rfl fun j _ => ?_
    rw [rows_of_flat]
  · refine (broadcastInDim_apply _ _ _ (ix2 (row b n) (0 : Fin 1)) (ix2 (0 : Fin 1) (0 : Fin 1)) (fun a => ?_)).trans
      (broadcastInDim_apply _ _ _ (ix2 (0 : Fin 1) (0 : Fin 1)) (ix1 (0 : Fin 1)) (fun a => ?_))
    · match a with
      | ⟨0, _⟩ => rfl
      | ⟨1, _⟩ => rfl
    · match a with
      | ⟨0, _⟩ => rfl

/-- The projection as the specification's, once the weights are the parameters'. -/
theorem proj_eq (h : FVec Ideal S16x13248 .f32) (Wp : FVec Ideal S64x1 .f32) (bp : FVec Ideal S1 .f32)
    (P : Cert.Spec.Params) (hW : ∀ j : Fin 64, Wp (ix2 j 0) = P.Wp j) (hb : bp (ix1 0) = P.bp)
    (H : Cert.Spec.Arr3 64) (hH : hFlat h = H) :
    (fun b n => projT h Wp bp (ix2 b n)) = Cert.Spec.proj P H := by
  funext b n
  rw [proj_apply, ← hH, hb]
  unfold Cert.Spec.proj
  congr 1
  exact Finset.sum_congr rfl fun j _ => by rw [hW j]

/-- A projection fed back as the next step's single input column. -/
def decIn (p : FVec Ideal S16x207 .f32) : FVec Ideal S16x207x1 .f32 := shapeCast _ p shapeCasts_S16x207_S16x207x1

theorem decIn_apply (p : FVec Ideal S16x207 .f32) : toArr3 (decIn p) = fun b n _ => p (ix2 b n) := by
  funext b n f
  have hf : f.val = 0 := by have := f.isLt; omega
  refine shapeCast_apply _ _ _ (ix2 b n) ?_
  rw [Shape.rowMajor_val_two, Shape.rowMajor_val_three]
  show b.val * 207 + n.val = (b.val * 207 + n.val) * 1 + f.val
  omega

end Cert.RefCell

end
-- ==== Proof.RefCellEnc.lean ====
/-
  One recurrent step of the reference with eight input columns (an encoder step), read at an index and identified with the
  specification's step.  The per-node features are laid out node-major, column 16 f + b holding feature f of batch
  entry b; the five diffusion terms are interleaved so that column 5 f + m of a row pairs feature f with term m.
-/
import proofs.«113864_g48979807044058_cont_8to1_c_230_28_alg».proof.Proof.RefCellBase

noncomputable section

namespace Cert.RefCell

open Cert.ReferenceIdeal Idealize.ShloMosaic Idealize.ShloMosaic.ValueIdx
open Facts₀ Facts
open scoped BigOperators

variable [Facts]

/-- Column of the node-major feature matrix holding feature f of batch entry b. -/
@[reducible] def colE (f : Fin 72) (b : Fin 16) : Fin 1152 :=
  ⟨f.val * 16 + b.val, by have := f.isLt; have := b.isLt; omega⟩

/-- Weight row pairing feature f with diffusion term m. -/
@[reducible] def wrowE (f : Fin 72) (m : Fin 5) : Fin 360 :=
  ⟨f.val * 5 + m.val, by have := f.isLt; have := m.isLt; omega⟩

/-- One of five, by position. -/
def pick5E {β : Type} (a0 a1 a2 a3 a4 : β) : Fin 5 → β
  | 0 => a0
  | 1 => a1
  | 2 => a2
  | 3 => a3
  | 4 => a4

section Layout
variable {α : Type}

/-- The feature matrix of an input and a state: input columns first, then the state's. -/
theorem x0_readE (x : S16x207x8.Idx → α) (h3 : S16x207x64.Idx → α) (n : Fin 207) (f : Fin 72) (b : Fin 16) :
    shapeCast _ (transpose S207x72x16 [1, 2, 0] (concatenate S16x207x72 2 [⟨S16x207x8, x⟩, ⟨S16x207x64, h3⟩] concatenates_S16x207x8_S16x207x64_S16x207x72_d2) transposes_S16x207x72_S207x72x16_1_2_0) shapeCasts_S207x72x16_S207x1152 (ix2 n (colE f b))
      = if hf : f.val < 8 then x (ix3 b n ⟨f.val, hf⟩) else h3 (ix3 b n ⟨f.val - 8, by have := f.isLt; omega⟩) := by
  have hn := n.isLt; have hf' := f.isLt; have hb := b.isLt
  refine (shapeCast_apply _ _ _ (ix3 n f b) (by
    rw [Shape.rowMajor_val_three, Shape.rowMajor_val_two]
    show (n.val * 72 + f.val) * 16 + b.val = n.val * 1152 + (f.val * 16 + b.val)
    omega)).trans ?_
  refine (transpose_apply _ _ _ _ (ix3 b n f) (fun c => match c with
    | ⟨0, _⟩ => rfl
    | ⟨1, _⟩ => rfl
    | ⟨2, _⟩ => rfl)).trans ?_
  by_cases hf : f.val < 8
  · rw [dif_pos hf]
    exact concatenate_pair_apply_left _ x h3 _ (ix3 b n f) rfl (ix3 b n ⟨f.val, hf⟩) (fun c => match c with
      | ⟨0, _⟩ => rfl
      | ⟨1, _⟩ => rfl
      | ⟨2, _⟩ => rfl)
  · rw [dif_neg hf]
    refine concatenate_pair_apply_right _ x h3 _ (ix3 b n f) rfl rfl (ix3 b n ⟨f.val - 8, by omega⟩) (fun c hc => ?_)
      (by show f.val - 8 + 8 = f.val; omega)
    match c, hc with
    | ⟨0, _⟩, _ => rfl
    | ⟨1, _⟩, _ => rfl
    | ⟨2, _⟩, hc => exact absurd (Fin.ext rfl) hc

/-- The interleaved diffusion terms: row (b, n), column 5 f + m holds term m at node n, column 16 f + b. -/
theorem xcat_readE (X0 X1 X2 X3 X4 : S207x1152.Idx → α) (b : Fin 16) (n : Fin 207) (f : Fin 72) (m : Fin 5) :
    shapeCast _ (transpose S16x207x72x5 [3, 1, 2, 0] (shapeCast _ (concatenate S5x207x1152 0 [⟨S1x207x1152, (broadcastInDim S1x207x1152 ![1, 2] bcast_S207x1152_S1x207x1152_1_2 X0)⟩, ⟨S1x207x1152, (broadcastInDim S1x207x1152 ![1, 2] bcast_S207x1152_S1x207x1152_1_2 X1)⟩, ⟨S1x207x1152, (broadcastInDim S1x207x1152 ![1, 2] bcast_S207x1152_S1x207x1152_1_2 X2)⟩, ⟨S1x207x1152, (broadcastInDim S1x207x1152 ![1, 2] bcast_S207x1152_S1x207x1152_1_2 X3)⟩, ⟨S1x207x1152, (broadcastInDim S1x207x1152 ![1, 2] bcast_S207x1152_S1x207x1152_1_2 X4)⟩] concatenates_S1x207x1152_S1x207x1152_S1x207x1152_S1x207x1152_S1x207x1152_S5x207x1152_d0) shapeCasts_S5x207x1152_S5x207x72x16) transposes_S5x207x72x16_S16x207x72x5_3_1_2_0) shapeCasts_S16x207x72x5_S3312x360 (ix2 (row b n) (wrowE f m))
      = pick5E X0 X1 X2 X3 X4 m (ix2 n (colE f b)) := by
  have hb := b.isLt; have hn := n.isLt; have hf := f.isLt
  refine (shapeCast_apply _ _ _ (ix4 b n f m) (by
    have hm := m.isLt
    rw [Shape.rowMajor_val_four, Shape.rowMajor_val_two]
    show ((b.val * 207 + n.val) * 72 + f.val) * 5 + m.val = (b.val * 207 + n.val) * 360 + (f.val * 5 + m.val)
    omega)).trans ?_
  refine (transpose_apply _ _ _ _ (ix4 m n f b) (fun c => match c with
    | ⟨0, _⟩ => rfl
    | ⟨1, _⟩ => rfl
    | ⟨2, _⟩ => rfl
    | ⟨3, _⟩ => rfl)).trans ?_
  refine (shapeCast_apply _ _ _ (ix3 m n (colE f b)) (by
    have hm := m.isLt
    rw [Shape.rowMajor_val_three, Shape.rowMajor_val_four]
    show (m.val * 207 + n.val) * 1152 + (f.val * 16 + b.val) = ((m.val * 207 + n.val) * 72 + f.val) * 16 + b.val
    omega)).trans ?_
  have hbc : ∀ Y : S207x1152.Idx → α,
      broadcastInDim S1x207x1152 ![1, 2] bcast_S207x1152_S1x207x1152_1_2 Y (ix3 (0 : Fin 1) n (colE f b)) = Y (ix2 n (colE f b)) :=
    fun Y => broadcastInDim_apply _ _ _ _ (ix2 n (colE f b)) (fun a => match a with
      | ⟨0, _⟩ => rfl
      | ⟨1, _⟩ => rfl)
  match m with
  | ⟨0, _⟩ =>
    refine Eq.trans (concatenate_apply_piece _ _ _ _ 0 ?_ S1x207x1152
      (broadcastInDim S1x207x1152 ![1, 2] bcast_S207x1152_S1x207x1152_1_2 X0) ?_ ?_ 0 ?_ (ix3 (0 : Fin 1) n (colE f b))
      ?_ ?_) (hbc X0)
    · show 0 < 5
      omega
    · rfl
    · rfl
    · rfl
    · intro c hc
      match c, hc with
      | ⟨0, _⟩, hc => exact absurd (Fin.ext rfl) hc
      | ⟨1, _⟩, _ => rfl
      | ⟨2, _⟩, _ => rfl
    · rfl
  | ⟨1, _⟩ =>
    refine Eq.trans (concatenate_apply_piece _ _ _ _ 1 ?_ S1x207x1152
      (broadcastInDim S1x207x1152 ![1, 2] bcast_S207x1152_S1x207x1152_1_2 X1) ?_ ?_ 1 ?_ (ix3 (0 : Fin 1) n (colE f b))
      ?_ ?_) (hbc X1)
    · show 1 < 5
      omega
    · rfl
    · rfl
    · rfl
    · intro c hc
      match c, hc with
      | ⟨0, _⟩, hc => exact absurd (Fin.ext rfl) hc
      | ⟨1, _⟩, _ => rfl
      | ⟨2, _⟩, _ => rfl
    · rfl
  | ⟨2, _⟩ =>
    refine Eq.trans (concatenate_apply_piece _ _ _ _ 2 ?_ S1x207x1152
      (broadcastInDim S1x207x1152 ![1, 2] bcast_S207x1152_S1x207x1152_1_2 X2) ?_ ?_ 2 ?_ (ix3 (0 : Fin 1) n (colE f b))
      ?_ ?_) (hbc X2)
    · show 2 < 5
      omega
    · rfl
    · rfl
    · rfl
    · intro c hc
      match c, hc with
      | ⟨0, _⟩, hc => exact absurd (Fin.ext rfl) hc
      | ⟨1, _⟩, _ => rfl
      | ⟨2, _⟩, _ => rfl
    · rfl
  | ⟨3, _⟩ =>
    refine Eq.trans (concatenate_apply_piece _ _ _ _ 3 ?_ S1x207x1152
      (broadcastInDim S1x207x1152 ![1, 2] bcast_S207x1152_S1x207x1152_1_2 X3) ?_ ?_ 3 ?_ (ix3 (0 : Fin 1) n (colE f b))
      ?_ ?_) (hbc X3)
    · show 3 < 5
      omega
    · rfl
    · rfl
    · rfl
    · intro c hc
      match c, hc with
      | ⟨0, _⟩, hc => exact absurd (Fin.ext rfl) hc
      | ⟨1, _⟩, _ => rfl
      | ⟨2, _⟩, _ => rfl
    · rfl
  | ⟨4, _⟩ =>
    refine Eq.trans (concatenate_apply_piece _ _ _ _ 4 ?_ S1x207x1152
      (broadcastInDim S1x207x1152 ![1, 2] bcast_S207x1152_S1x207x1152_1_2 X4) ?_ ?_ 4 ?_ (ix3 (0 : Fin 1) n (colE f b))
      ?_ ?_) (hbc X4)
    · show 4 < 5
      omega
    · rfl
    · rfl
    · rfl
    · intro c hc
      match c, hc with
      | ⟨0, _⟩, hc => exact absurd (Fin.ext rfl) hc
      | ⟨1, _⟩, _ => rfl
      | ⟨2, _⟩, _ => rfl
    · rfl

end Layout

/-! ## The step's values -/

/-- The feature matrix of (input, state). -/
def x0E (x : FVec Ideal S16x207x8 .f32) (h : FVec Ideal S16x13248 .f32) : FVec Ideal S207x1152 .f32 :=
  shapeCast _ (transpose S207x72x16 [1, 2, 0] (concatenate S16x207x72 2 [⟨S16x207x8, x⟩, ⟨S16x207x64, (shapeCast _ h shapeCasts_S16x13248_S16x207x64)⟩] concatenates_S16x207x8_S16x207x64_S16x207x72_d2) transposes_S16x207x72_S207x72x16_1_2_0) shapeCasts_S207x72x16_S207x1152

/-- A support applied along the node axis. -/
def dotE (S : FVec Ideal S207x207 .f32) (X : FVec Ideal S207x1152 .f32) : FVec Ideal S207x1152 .f32 :=
  Host.dotGeneral (F := Ideal) dot_S207x207_S207x1152_S207x1152_1_0_0_1_n_n none S X

/-- The order-two term 2 · S (S X) − X, given A = S X. -/
def chebE (S : FVec Ideal S207x207 .f32) (X0 A : FVec Ideal S207x1152 .f32) : FVec Ideal S207x1152 .f32 :=
  subf (F := Ideal) (mulf (F := Ideal) (broadcastInDim S207x1152 ![] bcast_S_S207x1152 (constant (F := Ideal) S_ .f32 0x40000000#32)) (Host.dotGeneral (F := Ideal) dot_S207x207_S207x1152_S207x1152_1_0_0_1_n_n none S A)) X0

/-- The five diffusion terms interleaved per row. -/
def xcatE (X0 X1 X2 X3 X4 : FVec Ideal S207x1152 .f32) : FVec Ideal S3312x360 .f32 :=
  shapeCast _ (transpose S16x207x72x5 [3, 1, 2, 0] (shapeCast _ (concatenate S5x207x1152 0 [⟨S1x207x1152, (broadcastInDim S1x207x1152 ![1, 2] bcast_S207x1152_S1x207x1152_1_2 X0)⟩, ⟨S1x207x1152, (broadcastInDim S1x207x1152 ![1, 2] bcast_S207x1152_S1x207x1152_1_2 X1)⟩, ⟨S1x207x1152, (broadcastInDim S1x207x1152 ![1, 2] bcast_S207x1152_S1x207x1152_1_2 X2)⟩, ⟨S1x207x1152, (broadcastInDim S1x207x1152 ![1, 2] bcast_S207x1152_S1x207x1152_1_2 X3)⟩, ⟨S1x207x1152, (broadcastInDim S1x207x1152 ![1, 2] bcast_S207x1152_S1x207x1152_1_2 X4)⟩] concatenates_S1x207x1152_S1x207x1152_S1x207x1152_S1x207x1152_S1x207x1152_S5x207x1152_d0) shapeCasts_S5x207x1152_S5x207x72x16) transposes_S5x207x72x16_S16x207x72x5_3_1_2_0) shapeCasts_S16x207x72x5_S3312x360

theorem dotE_read (S : FVec Ideal S207x207 .f32) (Y : FVec Ideal S207x1152 .f32) (Z : Cert.Spec.Arr3 72)
    (hY : ∀ (n : Fin 207) (f : Fin 72) (b : Fin 16), Y (ix2 n (colE f b)) = Z b n f)
    (n : Fin 207) (f : Fin 72) (b : Fin 16) :
    dotE S Y (ix2 n (colE f b)) = Cert.Spec.diffuse (toMat S) Z b n f := by
  unfold dotE Cert.Spec.diffuse
  refine (dotPlain_apply 207 207 1152 S Y n (colE f b)).trans ?_
  exact Finset.sum_congr rfl fun m _ => by rw [hY m f b]

theorem chebE_read (S : FVec Ideal S207x207 .f32) (X0 A : FVec Ideal S207x1152 .f32) (Z : Cert.Spec.Arr3 72)
    (hX0 : ∀ (n : Fin 207) (f : Fin 72) (b : Fin 16), X0 (ix2 n (colE f b)) = Z b n f) (hA : A = dotE S X0)
    (n : Fin 207) (f : Fin 72) (b : Fin 16) :
    chebE S X0 A (ix2 n (colE f b)) = Cert.Spec.cheb2 (toMat S) Z b n f := by
  subst hA
  show broadcastInDim S207x1152 ![] bcast_S_S207x1152 (constant (F := Ideal) S_ .f32 0x40000000#32) _
      * dotE S (dotE S X0) (ix2 n (colE f b)) - X0 (ix2 n (colE f b)) = _
  rw [broadcastInDim_scalar_apply, constant_apply,
    dotE_read S (dotE S X0) (Cert.Spec.diffuse (toMat S) Z) (dotE_read S X0 Z hX0), hX0]
  rfl

theorem stackE_read (S0 S1 : FVec Ideal S207x207 .f32) (X0 A B : FVec Ideal S207x1152 .f32) (Z : Cert.Spec.Arr3 72)
    (hX0 : ∀ (n : Fin 207) (f : Fin 72) (b : Fin 16), X0 (ix2 n (colE f b)) = Z b n f)
    (hA : A = dotE S0 X0) (hB : B = dotE S1 X0) (m : Fin 5) (n : Fin 207) (f : Fin 72) (b : Fin 16) :
    pick5E X0 A (chebE S0 X0 A) B (chebE S1 X0 B) m (ix2 n (colE f b))
      = Cert.Spec.stack5 (toMat S0) (toMat S1) Z m b n f := by
  match m with
  | ⟨0, _⟩ => exact hX0 n f b
  | ⟨1, _⟩ => exact hA ▸ dotE_read S0 X0 Z hX0 n f b
  | ⟨2, _⟩ => exact chebE_read S0 X0 A Z hX0 hA n f b
  | ⟨3, _⟩ => exact hB ▸ dotE_read S1 X0 Z hX0 n f b
  | ⟨4, _⟩ => exact chebE_read S1 X0 B Z hX0 hB n f b

/-- The graph convolution's pre-activation rows with 128 output columns. -/
def pre128E (S0 S1 : FVec Ideal S207x207 .f32) (X0 A B : FVec Ideal S207x1152 .f32) (W : FVec Ideal S360x128 .f32)
    (bias : FVec Ideal S128 .f32) : FVec Ideal S3312x128 .f32 :=
  addf (F := Ideal) (Host.dotGeneral (F := Ideal) dot_S3312x360_S360x128_S3312x128_1_0_0_1_n_n none (xcatE X0 A (chebE S0 X0 A) B (chebE S1 X0 B)) W) (broadcastInDim S3312x128 ![0, 1] bcast_S1x128_S3312x128_0_1 (broadcastInDim S1x128 ![1] bcast_S128_S1x128_1 bias))

theorem pre128E_read (S0 S1 : FVec Ideal S207x207 .f32) (X0 A B : FVec Ideal S207x1152 .f32) (W : FVec Ideal S360x128 .f32)
    (bias : FVec Ideal S128 .f32) (X : Cert.Spec.Arr3 8) (H : Cert.Spec.Arr3 64)
    (hX0 : ∀ (n : Fin 207) (f : Fin 72) (b : Fin 16), X0 (ix2 n (colE f b)) = Cert.Spec.cat X H b n f)
    (hA : A = dotE S0 X0) (hB : B = dotE S1 X0) (b : Fin 16) (n : Fin 207) (j : Fin 128) :
    pre128E S0 S1 X0 A B W bias (ix2 (row b n) j)
      = Cert.Spec.gconv X H (toMat S0) (toMat S1) (toMat W) (toVec bias) b n j := by
  unfold pre128E
  rw [bias128_apply]
  unfold Cert.Spec.gconv
  congr 1
  refine (dotPlain_apply 3312 360 128 _ W (row b n) j).trans ?_
  refine Finset.sum_congr rfl fun k _ => ?_
  congr 1
  have hk5 : k.val / 5 < 72 := by have := k.isLt; omega
  have e : ix2 (row b n) k = ix2 (row b n) (wrowE ⟨k.val / 5, hk5⟩ ⟨k.val % 5, Nat.mod_lt _ (by decide)⟩) :=
    congrArg (ix2 (row b n)) (Fin.ext (by show k.val = k.val / 5 * 5 + k.val % 5; omega))
  rw [e]
  unfold xcatE
  rw [xcat_readE]
  exact stackE_read S0 S1 X0 A B (Cert.Spec.cat X H) hX0 hA hB _ n _ b

/-- The graph convolution's pre-activation rows with 64 output columns. -/
def pre64E (S0 S1 : FVec Ideal S207x207 .f32) (X0 A B : FVec Ideal S207x1152 .f32) (W : FVec Ideal S360x64 .f32)
    (bias : FVec Ideal S64 .f32) : FVec Ideal S3312x64 .f32 :=
  addf (F := Ideal) (Host.dotGeneral (F := Ideal) dot_S3312x360_S360x64_S3312x64_1_0_0_1_n_n none (xcatE X0 A (chebE S0 X0 A) B (chebE S1 X0 B)) W) (broadcastInDim S3312x64 ![0, 1] bcast_S1x64_S3312x64_0_1 (broadcastInDim S1x64 ![1] bcast_S64_S1x64_1 bias))

theorem pre64E_read (S0 S1 : FVec Ideal S207x207 .f32) (X0 A B : FVec Ideal S207x1152 .f32) (W : FVec Ideal S360x64 .f32)
    (bias : FVec Ideal S64 .f32) (X : Cert.Spec.Arr3 8) (H : Cert.Spec.Arr3 64)
    (hX0 : ∀ (n : Fin 207) (f : Fin 72) (b : Fin 16), X0 (ix2 n (colE f b)) = Cert.Spec.cat X H b n f)
    (hA : A = dotE S0 X0) (hB : B = dotE S1 X0) (b : Fin 16) (n : Fin 207) (j : Fin 64) :
    pre64E S0 S1 X0 A B W bias (ix2 (row b n) j)
      = Cert.Spec.gconv X H (toMat S0) (toMat S1) (toMat W) (toVec bias) b n j := by
  unfold pre64E
  rw [bias64_apply]
  unfold Cert.Spec.gconv
  congr 1
  refine (dotPlain_apply 3312 360 64 _ W (row b n) j).trans ?_
  refine Finset.sum_congr rfl fun k _ => ?_
  congr 1
  have hk5 : k.val / 5 < 72 := by have := k.isLt; omega
  have e : ix2 (row b n) k = ix2 (row b n) (wrowE ⟨k.val / 5, hk5⟩ ⟨k.val % 5, Nat.mod_lt _ (by decide)⟩) :=
    congrArg (ix2 (row b n)) (Fin.ext (by show k.val = k.val / 5 * 5 + k.val % 5; omega))
  rw [e]
  unfold xcatE
  rw [xcat_readE]
  exact stackE_read S0 S1 X0 A B (Cert.Spec.cat X H) hX0 hA hB _ n _ b

/-- The two gates, per batch entry, node and gate column. -/
def ruE (S0 S1 : FVec Ideal S207x207 .f32) (X0 A B : FVec Ideal S207x1152 .f32) (Wru : FVec Ideal S360x128 .f32)
    (bru : FVec Ideal S128 .f32) : FVec Ideal S16x207x128 .f32 :=
  shapeCast _ (Host.divf (F := Ideal) (broadcastInDim S16x26496 ![] bcast_S_S16x26496 (constant (F := Ideal) S_ .f32 0x3F800000#32)) (addf (F := Ideal) (broadcastInDim S16x26496 ![] bcast_S_S16x26496 (constant (F := Ideal) S_ .f32 0x3F800000#32)) (Host.exp (F := Ideal) (Host.negf (F := Ideal) (shapeCast _ (addf (F := Ideal) (Host.dotGeneral (F := Ideal) dot_S3312x360_S360x128_S3312x128_1_0_0_1_n_n none (shapeCast _ (transpose S16x207x72x5 [3, 1, 2, 0] (shapeCast _ (concatenate S5x207x1152 0 [⟨S1x207x1152, (broadcastInDim S1x207x1152 ![1, 2] bcast_S207x1152_S1x207x1152_1_2 X0)⟩, ⟨S1x207x1152, (broadcastInDim S1x207x1152 ![1, 2] bcast_S207x1152_S1x207x1152_1_2 A)⟩, ⟨S1x207x1152, (broadcastInDim S1x207x1152 ![1, 2] bcast_S207x1152_S1x207x1152_1_2 (subf (F := Ideal) (mulf (F := Ideal) (broadcastInDim S207x1152 ![] bcast_S_S207x1152 (constant (F := Ideal) S_ .f32 0x40000000#32)) (Host.dotGeneral (F := Ideal) dot_S207x207_S207x1152_S207x1152_1_0_0_1_n_n none S0 A)) X0))⟩, ⟨S1x207x1152, (broadcastInDim S1x207x1152 ![1, 2] bcast_S207x1152_S1x207x1152_1_2 B)⟩, ⟨S1x207x1152, (broadcastInDim S1x207x1152 ![1, 2] bcast_S207x1152_S1x207x1152_1_2 (subf (F := Ideal) (mulf (F := Ideal) (broadcastInDim S207x1152 ![] bcast_S_S207x1152 (constant (F := Ideal) S_ .f32 0x40000000#32)) (Host.dotGeneral (F := Ideal) dot_S207x207_S207x1152_S207x1152_1_0_0_1_n_n none S1 B)) X0))⟩] concatenates_S1x207x1152_S1x207x1152_S1x207x1152_S1x207x1152_S1x207x1152_S5x207x1152_d0) shapeCasts_S5x207x1152_S5x207x72x16) transposes_S5x207x72x16_S16x207x72x5_3_1_2_0) shapeCasts_S16x207x72x5_S3312x360) Wru) (broadcastInDim S3312x128 ![0, 1] bcast_S1x128_S3312x128_0_1 (broadcastInDim S1x128 ![1] bcast_S128_S1x128_1 bru))) shapeCasts_S3312x128_S16x26496))))) shapeCasts_S16x26496_S16x207x128

theorem ruE_eq (S0 S1 : FVec Ideal S207x207 .f32) (X0 A B : FVec Ideal S207x1152 .f32) (Wru : FVec Ideal S360x128 .f32)
    (bru : FVec Ideal S128 .f32) : ruE S0 S1 X0 A B Wru bru = sigT (pre128E S0 S1 X0 A B Wru bru) := rfl

/-- The feature matrix of (input, reset gate ⊙ state). -/
def x0rE (x : FVec Ideal S16x207x8 .f32) (ru : FVec Ideal S16x207x128 .f32) (h : FVec Ideal S16x13248 .f32) :
    FVec Ideal S207x1152 .f32 :=
  shapeCast _ (transpose S207x72x16 [1, 2, 0] (concatenate S16x207x72 2 [⟨S16x207x8, x⟩, ⟨S16x207x64, (shapeCast _ (mulf (F := Ideal) (shapeCast _ (extractStridedSlice S16x207x64 ![0, 0, 0] ru slices_S16x207x128_S16x207x64_0_0_0) shapeCasts_S16x207x64_S16x13248) h) shapeCasts_S16x13248_S16x207x64)⟩] concatenates_S16x207x8_S16x207x64_S16x207x72_d2) transposes_S16x207x72_S207x72x16_1_2_0) shapeCasts_S207x72x16_S207x1152

theorem x0rE_eq (x : FVec Ideal S16x207x8 .f32) (ru : FVec Ideal S16x207x128 .f32) (h : FVec Ideal S16x13248 .f32) :
    x0rE x ru h = shapeCast _ (transpose S207x72x16 [1, 2, 0] (concatenate S16x207x72 2 [⟨S16x207x8, x⟩, ⟨S16x207x64, (rhOf ru h)⟩] concatenates_S16x207x8_S16x207x64_S16x207x72_d2) transposes_S16x207x72_S207x72x16_1_2_0) shapeCasts_S207x72x16_S207x1152 := rfl

/-- The new state. -/
def hE (u h : FVec Ideal S16x13248 .f32) (S0 S1 : FVec Ideal S207x207 .f32) (X0' A' B' : FVec Ideal S207x1152 .f32)
    (Wc : FVec Ideal S360x64 .f32) (bc : FVec Ideal S64 .f32) : FVec Ideal S16x13248 .f32 :=
  addf (F := Ideal) (mulf (F := Ideal) u h) (mulf (F := Ideal) (subf (F := Ideal) (broadcastInDim S16x13248 ![] bcast_S_S16x13248 (constant (F := Ideal) S_ .f32 0x3F800000#32)) u) (Host.tanh (F := Ideal) (shapeCast _ (addf (F := Ideal) (Host.dotGeneral (F := Ideal) dot_S3312x360_S360x64_S3312x64_1_0_0_1_n_n none (shapeCast _ (transpose S16x207x72x5 [3, 1, 2, 0] (shapeCast _ (concatenate S5x207x1152 0 [⟨S1x207x1152, (broadcastInDim S1x207x1152 ![1, 2] bcast_S207x1152_S1x207x1152_1_2 X0')⟩, ⟨S1x207x1152, (broadcastInDim S1x207x1152 ![1, 2] bcast_S207x1152_S1x207x1152_1_2 A')⟩, ⟨S1x207x1152, (broadcastInDim S1x207x1152 ![1, 2] bcast_S207x1152_S1x207x1152_1_2 (subf (F := Ideal) (mulf (F := Ideal) (broadcastInDim S207x1152 ![] bcast_S_S207x1152 (constant (F := Ideal) S_ .f32 0x40000000#32)) (Host.dotGeneral (F := Ideal) dot_S207x207_S207x1152_S207x1152_1_0_0_1_n_n none S0 A')) X0'))⟩, ⟨S1x207x1152, (broadcastInDim S1x207x1152 ![1, 2] bcast_S207x1152_S1x207x1152_1_2 B')⟩, ⟨S1x207x1152, (broadcastInDim S1x207x1152 ![1, 2] bcast_S207x1152_S1x207x1152_1_2 (subf (F := Ideal) (mulf (F := Ideal) (broadcastInDim S207x1152 ![] bcast_S_S207x1152 (constant (F := Ideal) S_ .f32 0x40000000#32)) (Host.dotGeneral (F := Ideal) dot_S207x207_S207x1152_S207x1152_1_0_0_1_n_n none S1 B')) X0'))⟩] concatenates_S1x207x1152_S1x207x1152_S1x207x1152_S1x207x1152_S1x207x1152_S5x207x1152_d0) shapeCasts_S5x207x1152_S5x207x72x16) transposes_S5x207x72x16_S16x207x72x5_3_1_2_0) shapeCasts_S16x207x72x5_S3312x360) Wc) (broadcastInDim S3312x64 ![0, 1] bcast_S1x64_S3312x64_0_1 (broadcastInDim S1x64 ![1] bcast_S64_S1x64_1 bc))) shapeCasts_S3312x64_S16x13248)))

theorem hE_eq (u h : FVec Ideal S16x13248 .f32) (S0 S1 : FVec Ideal S207x207 .f32) (X0' A' B' : FVec Ideal S207x1152 .f32)
    (Wc : FVec Ideal S360x64 .f32) (bc : FVec Ideal S64 .f32) :
    hE u h S0 S1 X0' A' B' Wc bc = outT u h (pre64E S0 S1 X0' A' B' Wc bc) := rfl

/-- **One step of the reference is the specification's step.** -/
theorem encCell (x : FVec Ideal S16x207x8 .f32) (h : FVec Ideal S16x13248 .f32) (S0 S1 : FVec Ideal S207x207 .f32)
    (Wru : FVec Ideal S360x128 .f32) (bru : FVec Ideal S128 .f32) (Wc : FVec Ideal S360x64 .f32) (bc : FVec Ideal S64 .f32)
    (X0 A B X0' A' B' : FVec Ideal S207x1152 .f32) (ru : FVec Ideal S16x207x128 .f32) (u h' : FVec Ideal S16x13248 .f32)
    (hX0 : X0 = x0E x h) (hA : A = dotE S0 X0) (hB : B = dotE S1 X0) (hru : ru = ruE S0 S1 X0 A B Wru bru)
    (hu : u = uOf ru) (hX0' : X0' = x0rE x ru h) (hA' : A' = dotE S0 X0') (hB' : B' = dotE S1 X0')
    (hh' : h' = hE u h S0 S1 X0' A' B' Wc bc)
    (X : Cert.Spec.Arr3 8) (H : Cert.Spec.Arr3 64) (hx : toArr3 x = X) (hH : hFlat h = H) :
    hFlat h' = Cert.Spec.cell X H (toMat S0) (toMat S1) (toMat Wru) (toVec bru) (toMat Wc) (toVec bc) := by
  -- the feature matrix of (x, h)
  have hC : ∀ (n : Fin 207) (f : Fin 72) (b : Fin 16), X0 (ix2 n (colE f b)) = Cert.Spec.cat X H b n f := by
    intro n f b
    rw [hX0]
    unfold x0E
    rw [x0_readE]
    unfold Cert.Spec.cat
    by_cases hf : f.val < 8
    · rw [dif_pos hf, dif_pos hf]
      exact congrFun (congrFun (congrFun hx b) n) _
    · rw [dif_neg hf, dif_neg hf, three_of_flat]
      exact congrFun (congrFun (congrFun hH b) n) _
  -- the gates
  have hru' : ∀ (b : Fin 16) (n : Fin 207) (j : Fin 128),
      ru (ix3 b n j) = Cert.Spec.sigm (Cert.Spec.gconv X H (toMat S0) (toMat S1) (toMat Wru) (toVec bru) b n j) := by
    intro b n j
    rw [hru, ruE_eq, sigT_apply, pre128E_read S0 S1 X0 A B Wru bru X H hC hA hB]
  -- the feature matrix of (x, r ⊙ h)
  have hC' : ∀ (n : Fin 207) (f : Fin 72) (b : Fin 16), X0' (ix2 n (colE f b))
      = Cert.Spec.cat X (fun b n j => Cert.Spec.sigm (Cert.Spec.gconv X H (toMat S0) (toMat S1) (toMat Wru) (toVec bru) b n
          ⟨j.val, by have := j.isLt; omega⟩) * H b n j) b n f := by
    intro n f b
    rw [hX0', x0rE_eq, x0_readE]
    unfold Cert.Spec.cat
    by_cases hf : f.val < 8
    · rw [dif_pos hf, dif_pos hf]
      exact congrFun (congrFun (congrFun hx b) n) _
    · rw [dif_neg hf, dif_neg hf, rhOf_apply, hru']
      exact congrArg (_ * ·) (congrFun (congrFun (congrFun hH b) n) _)
  funext b n j
  rw [hh', hE_eq, outT_apply, pre64E_read S0 S1 X0' A' B' Wc bc X _ hC' hA' hB', hu, uOf_apply, hru']
  rw [show hFlat h b n j = H b n j from congrFun (congrFun (congrFun hH b) n) j]
  rfl

end Cert.RefCell

end
-- ==== Proof.RefCellDec.lean ====
/-
  One recurrent step of the reference with one input column (a decoder step), read at an index and identified with the
  specification's step.  The per-node features are laid out node-major, column 16 f + b holding feature f of batch
  entry b; the five diffusion terms are interleaved so that column 5 f + m of a row pairs feature f with term m.
-/
import proofs.«113864_g48979807044058_cont_8to1_c_230_28_alg».proof.Proof.RefCellBase

noncomputable section

namespace Cert.RefCell

open Cert.ReferenceIdeal Idealize.ShloMosaic Idealize.ShloMosaic.ValueIdx
open Facts₀ Facts
open scoped BigOperators

variable [Facts]

/-- Column of the node-major feature matrix holding feature f of batch entry b. -/
@[reducible] def colD (f : Fin 65) (b : Fin 16) : Fin 1040 :=
  ⟨f.val * 16 + b.val, by have := f.isLt; have := b.isLt; omega⟩

/-- Weight row pairing feature f with diffusion term m. -/
@[reducible] def wrowD (f : Fin 65) (m : Fin 5) : Fin 325 :=
  ⟨f.val * 5 + m.val, by have := f.isLt; have := m.isLt; omega⟩

/-- One of five, by position. -/
def pick5D {β : Type} (a0 a1 a2 a3 a4 : β) : Fin 5 → β
  | 0 => a0
  | 1 => a1
  | 2 => a2
  | 3 => a3
  | 4 => a4

section Layout
variable {α : Type}

/-- The feature matrix of an input and a state: input columns first, then the state's. -/
theorem x0_readD (x : S16x207x1.Idx → α) (h3 : S16x207x64.Idx → α) (n : Fin 207) (f : Fin 65) (b : Fin 16) :
    shapeCast _ (transpose S207x65x16 [1, 2, 0] (concatenate S16x207x65 2 [⟨S16x207x1, x⟩, ⟨S16x207x64, h3⟩] concatenates_S16x207x1_S16x207x64_S16x207x65_d2) transposes_S16x207x65_S207x65x16_1_2_0) shapeCasts_S207x65x16_S207x1040 (ix2 n (colD f b))
      = if hf : f.val < 1 then x (ix3 b n ⟨f.val, hf⟩) else h3 (ix3 b n ⟨f.val - 1, by have := f.isLt; omega⟩) := by
  have hn := n.isLt; have hf' := f.isLt; have hb := b.isLt
  refine (shapeCast_apply _ _ _ (ix3 n f b) (by
    rw [Shape.rowMajor_val_three, Shape.rowMajor_val_two]
    show (n.val * 65 + f.val) * 16 + b.val = n.val * 1040 + (f.val * 16 + b.val)
    omega)).trans ?_
  refine (transpose_apply _ _ _ _ (ix3 b n f) (fun c => match c with
    | ⟨0, _⟩ => rfl
    | ⟨1, _⟩ => rfl
    | ⟨2, _⟩ => rfl)).trans ?_
  by_cases hf : f.val < 1
  · rw [dif_pos hf]
    exact concatenate_pair_apply_left _ x h3 _ (ix3 b n f) rfl (ix3 b n ⟨f.val, hf⟩) (fun c => match c with
      | ⟨0, _⟩ => rfl
      | ⟨1, _⟩ => rfl
      | ⟨2, _⟩ => rfl)
  · rw [dif_neg hf]
    refine concatenate_pair_apply_right _ x h3 _ (ix3 b n f) rfl rfl (ix3 b n ⟨f.val - 1, by omega⟩) (fun c hc => ?_)
      (by show f.val - 1 + 1 = f.val; omega)
    match c, hc with
    | ⟨0, _⟩, _ => rfl
    | ⟨1, _⟩, _ => rfl
    | ⟨2, _⟩, hc => exact absurd (Fin.ext rfl) hc

/-- The interleaved diffusion terms: row (b, n), column 5 f + m holds term m at node n, column 16 f + b. -/
theorem xcat_readD (X0 X1 X2 X3 X4 : S207x1040.Idx → α) (b : Fin 16) (n : Fin 207) (f : Fin 65) (m : Fin 5) :
    shapeCast _ (transpose S16x207x65x5 [3, 1, 2, 0] (shapeCast _ (concatenate S5x207x1040 0 [⟨S1x207x1040, (broadcastInDim S1x207x1040 ![1, 2] bcast_S207x1040_S1x207x1040_1_2 X0)⟩, ⟨S1x207x1040, (broadcastInDim S1x207x1040 ![1, 2] bcast_S207x1040_S1x207x1040_1_2 X1)⟩, ⟨S1x207x1040, (broadcastInDim S1x207x1040 ![1, 2] bcast_S207x1040_S1x207x1040_1_2 X2)⟩, ⟨S1x207x1040, (broadcastInDim S1x207x1040 ![1, 2] bcast_S207x1040_S1x207x1040_1_2 X3)⟩, ⟨S1x207x1040, (broadcastInDim S1x207x1040 ![1, 2] bcast_S207x1040_S1x207x1040_1_2 X4)⟩] concatenates_S1x207x1040_S1x207x1040_S1x207x1040_S1x207x1040_S1x207x1040_S5x207x1040_d0) shapeCasts_S5x207x1040_S5x207x65x16) transposes_S5x207x65x16_S16x207x65x5_3_1_2_0) shapeCasts_S16x207x65x5_S3312x325 (ix2 (row b n) (wrowD f m))
      = pick5D X0 X1 X2 X3 X4 m (ix2 n (colD f b)) := by
  have hb := b.isLt; have hn := n.isLt; have hf := f.isLt
  refine (shapeCast_apply _ _ _ (ix4 b n f m) (by
    have hm := m.isLt
    rw [Shape.rowMajor_val_four, Shape.rowMajor_val_two]
    show ((b.val * 207 + n.val) * 65 + f.val) * 5 + m.val = (b.val * 207 + n.val) * 325 + (f.val * 5 + m.val)
    omega)).trans ?_
  refine (transpose_apply _ _ _ _ (ix4 m n f b) (fun c => match c with
    | ⟨0, _⟩ => rfl
    | ⟨1, _⟩ => rfl
    | ⟨2, _⟩ => rfl
    | ⟨3, _⟩ => rfl)).trans ?_
  refine (shapeCast_apply _ _ _ (ix3 m n (colD f b)) (by
    have hm := m.isLt
    rw [Shape.rowMajor_val_three, Shape.rowMajor_val_four]
    show (m.val * 207 + n.val) * 1040 + (f.val * 16 + b.val) = ((m.val * 207 + n.val) * 65 + f.val) * 16 + b.val
    omega)).trans ?_
  have hbc : ∀ Y : S207x1040.Idx → α,
      broadcastInDim S1x207x1040 ![1, 2] bcast_S207x1040_S1x207x1040_1_2 Y (ix3 (0 : Fin 1) n (colD f b)) = Y (ix2 n (colD f b)) :=
    fun Y => broadcastInDim_apply _ _ _ _ (ix2 n (colD f b)) (fun a => match a with
      | ⟨0, _⟩ => rfl
      | ⟨1, _⟩ => rfl)
  match m with
  | ⟨0, _⟩ =>
    refine Eq.trans (concatenate_apply_piece _ _ _ _ 0 ?_ S1x207x1040
      (broadcastInDim S1x207x1040 ![1, 2] bcast_S207x1040_S1x207x1040_1_2 X0) ?_ ?_ 0 ?_ (ix3 (0 : Fin 1) n (colD f b))
      ?_ ?_) (hbc X0)
    · show 0 < 5
      omega
    · rfl
    · rfl
    · rfl
    · intro c hc
      match c, hc with
      | ⟨0, _⟩, hc => exact absurd (Fin.ext rfl) hc
      | ⟨1, _⟩, _ => rfl
      | ⟨2, _⟩, _ => rfl
    · rfl
  | ⟨1, _⟩ =>
    refine Eq.trans (concatenate_apply_piece _ _ _ _ 1 ?_ S1x207x1040
      (broadcastInDim S1x207x1040 ![1, 2] bcast_S207x1040_S1x207x1040_1_2 X1) ?_ ?_ 1 ?_ (ix3 (0 : Fin 1) n (colD f b))
      ?_ ?_) (hbc X1)
    · show 1 < 5
      omega
    · rfl
    · rfl
    · rfl
    · intro c hc
      match c, hc with
      | ⟨0, _⟩, hc => exact absurd (Fin.ext rfl) hc
      | ⟨1, _⟩, _ => rfl
      | ⟨2, _⟩, _ => rfl
    · rfl
  | ⟨2, _⟩ =>
    refine Eq.trans (concatenate_apply_piece _ _ _ _ 2 ?_ S1x207x1040
      (broadcastInDim S1x207x1040 ![1, 2] bcast_S207x1040_S1x207x1040_1_2 X2) ?_ ?_ 2 ?_ (ix3 (0 : Fin 1) n (colD f b))
      ?_ ?_) (hbc X2)
    · show 2 < 5
      omega
    · rfl
    · rfl
    · rfl
    · intro c hc
      match c, hc with
      | ⟨0, _⟩, hc => exact absurd (Fin.ext rfl) hc
      | ⟨1, _⟩, _ => rfl
      | ⟨2, _⟩, _ => rfl
    · rfl
  | ⟨3, _⟩ =>
    refine Eq.trans (concatenate_apply_piece _ _ _ _ 3 ?_ S1x207x1040
      (broadcastInDim S1x207x1040 ![1, 2] bcast_S207x1040_S1x207x1040_1_2 X3) ?_ ?_ 3 ?_ (ix3 (0 : Fin 1) n (colD f b))
      ?_ ?_) (hbc X3)
    · show 3 < 5
      omega
    · rfl
    · rfl
    · rfl
    · intro c hc
      match c, hc with
      | ⟨0, _⟩, hc => exact absurd (Fin.ext rfl) hc
      | ⟨1, _⟩, _ => rfl
      | ⟨2, _⟩, _ => rfl
    · rfl
  | ⟨4, _⟩ =>
    refine Eq.trans (concatenate_apply_piece _ _ _ _ 4 ?_ S1x207x1040
      (broadcastInDim S1x207x1040 ![1, 2] bcast_S207x1040_S1x207x1040_1_2 X4) ?_ ?_ 4 ?_ (ix3 (0 : Fin 1) n (colD f b))
      ?_ ?_) (hbc X4)
    · show 4 < 5
      omega
    · rfl
    · rfl
    · rfl
    · intro c hc
      match c, hc with
      | ⟨0, _⟩, hc => exact absurd (Fin.ext rfl) hc
      | ⟨1, _⟩, _ => rfl
      | ⟨2, _⟩, _ => rfl
    · rfl

end Layout

/-! ## The step's values -/

/-- The feature matrix of (input, state). -/
def x0D (x : FVec Ideal S16x207x1 .f32) (h : FVec Ideal S16x13248 .f32) : FVec Ideal S207x1040 .f32 :=
  shapeCast _ (transpose S207x65x16 [1, 2, 0] (concatenate S16x207x65 2 [⟨S16x207x1, x⟩, ⟨S16x207x64, (shapeCast _ h shapeCasts_S16x13248_S16x207x64)⟩] concatenates_S16x207x1_S16x207x64_S16x207x65_d2) transposes_S16x207x65_S207x65x16_1_2_0) shapeCasts_S207x65x16_S207x1040

/-- A support applied along the node axis. -/
def dotD (S : FVec Ideal S207x207 .f32) (X : FVec Ideal S207x1040 .f32) : FVec Ideal S207x1040 .f32 :=
  Host.dotGeneral (F := Ideal) dot_S207x207_S207x1040_S207x1040_1_0_0_1_n_n none S X

/-- The order-two term 2 · S (S X) − X, given A = S X. -/
def chebD (S : FVec Ideal S207x207 .f32) (X0 A : FVec Ideal S207x1040 .f32) : FVec Ideal S207x1040 .f32 :=
  subf (F := Ideal) (mulf (F := Ideal) (broadcastInDim S207x1040 ![] bcast_S_S207x1040 (constant (F := Ideal) S_ .f32 0x40000000#32)) (Host.dotGeneral (F := Ideal) dot_S207x207_S207x1040_S207x1040_1_0_0_1_n_n none S A)) X0

/-- The five diffusion terms interleaved per row. -/
def xcatD (X0 X1 X2 X3 X4 : FVec Ideal S207x1040 .f32) : FVec Ideal S3312x325 .f32 :=
  shapeCast _ (transpose S16x207x65x5 [3, 1, 2, 0] (shapeCast _ (concatenate S5x207x1040 0 [⟨S1x207x1040, (broadcastInDim S1x207x1040 ![1, 2] bcast_S207x1040_S1x207x1040_1_2 X0)⟩, ⟨S1x207x1040, (broadcastInDim S1x207x1040 ![1, 2] bcast_S207x1040_S1x207x1040_1_2 X1)⟩, ⟨S1x207x1040, (broadcastInDim S1x207x1040 ![1, 2] bcast_S207x1040_S1x207x1040_1_2 X2)⟩, ⟨S1x207x1040, (broadcastInDim S1x207x1040 ![1, 2] bcast_S207x1040_S1x207x1040_1_2 X3)⟩, ⟨S1x207x1040, (broadcastInDim S1x207x1040 ![1, 2] bcast_S207x1040_S1x207x1040_1_2 X4)⟩] concatenates_S1x207x1040_S1x207x1040_S1x207x1040_S1x207x1040_S1x207x1040_S5x207x1040_d0) shapeCasts_S5x207x1040_S5x207x65x16) transposes_S5x207x65x16_S16x207x65x5_3_1_2_0) shapeCasts_S16x207x65x5_S3312x325

theorem dotD_read (S : FVec Ideal S207x207 .f32) (Y : FVec Ideal S207x1040 .f32) (Z : Cert.Spec.Arr3 65)
    (hY : ∀ (n : Fin 207) (f : Fin 65) (b : Fin 16), Y (ix2 n (colD f b)) = Z b n f)
    (n : Fin 207) (f : Fin 65) (b : Fin 16) :
    dotD S Y (ix2 n (colD f b)) = Cert.Spec.diffuse (toMat S) Z b n f := by
  unfold dotD Cert.Spec.diffuse
  refine (dotPlain_apply 207 207 1040 S Y n (colD f b)).trans ?_
  exact Finset.sum_congr rfl fun m _ => by rw [hY m f b]

theorem chebD_read (S : FVec Ideal S207x207 .f32) (X0 A : FVec Ideal S207x1040 .f32) (Z : Cert.Spec.Arr3 65)
    (hX0 : ∀ (n : Fin 207) (f : Fin 65) (b : Fin 16), X0 (ix2 n (colD f b)) = Z b n f) (hA : A = dotD S X0)
    (n : Fin 207) (f : Fin 65) (b : Fin 16) :
    chebD S X0 A (ix2 n (colD f b)) = Cert.Spec.cheb2 (toMat S) Z b n f := by
  subst hA
  show broadcastInDim S207x1040 ![] bcast_S_S207x1040 (constant (F := Ideal) S_ .f32 0x40000000#32) _
      * dotD S (dotD S X0) (ix2 n (colD f b)) - X0 (ix2 n (colD f b)) = _
  rw [broadcastInDim_scalar_apply, constant_apply,
    dotD_read S (dotD S X0) (Cert.Spec.diffuse (toMat S) Z) (dotD_read S X0 Z hX0), hX0]
  rfl

theorem stackD_read (S0 S1 : FVec Ideal S207x207 .f32) (X0 A B : FVec Ideal S207x1040 .f32) (Z : Cert.Spec.Arr3 65)
    (hX0 : ∀ (n : Fin 207) (f : Fin 65) (b : Fin 16), X0 (ix2 n (colD f b)) = Z b n f)
    (hA : A = dotD S0 X0) (hB : B = dotD S1 X0) (m : Fin 5) (n : Fin 207) (f : Fin 65) (b : Fin 16) :
    pick5D X0 A (chebD S0 X0 A) B (chebD S1 X0 B) m (ix2 n (colD f b))
      = Cert.Spec.stack5 (toMat S0) (toMat S1) Z m b n f := by
  match m with
  | ⟨0, _⟩ => exact hX0 n f b
  | ⟨1, _⟩ => exact hA ▸ dotD_read S0 X0 Z hX0 n f b
  | ⟨2, _⟩ => exact chebD_read S0 X0 A Z hX0 hA n f b
  | ⟨3, _⟩ => exact hB ▸ dotD_read S1 X0 Z hX0 n f b
  | ⟨4, _⟩ => exact chebD_read S1 X0 B Z hX0 hB n f b

/-- The graph convolution's pre-activation rows with 128 output columns. -/
def pre128D (S0 S1 : FVec Ideal S207x207 .f32) (X0 A B : FVec Ideal S207x1040 .f32) (W : FVec Ideal S325x128 .f32)
    (bias : FVec Ideal S128 .f32) : FVec Ideal S3312x128 .f32 :=
  addf (F := Ideal) (Host.dotGeneral (F := Ideal) dot_S3312x325_S325x128_S3312x128_1_0_0_1_n_n none (xcatD X0 A (chebD S0 X0 A) B (chebD S1 X0 B)) W) (broadcastInDim S3312x128 ![0, 1] bcast_S1x128_S3312x128_0_1 (broadcastInDim S1x128 ![1] bcast_S128_S1x128_1 bias))

theorem pre128D_read (S0 S1 : FVec Ideal S207x207 .f32) (X0 A B : FVec Ideal S207x1040 .f32) (W : FVec Ideal S325x128 .f32)
    (bias : FVec Ideal S128 .f32) (X : Cert.Spec.Arr3 1) (H : Cert.Spec.Arr3 64)
    (hX0 : ∀ (n : Fin 207) (f : Fin 65) (b : Fin 16), X0 (ix2 n (colD f b)) = Cert.Spec.cat X H b n f)
    (hA : A = dotD S0 X0) (hB : B = dotD S1 X0) (b : Fin 16) (n : Fin 207) (j : Fin 128) :
    pre128D S0 S1 X0 A B W bias (ix2 (row b n) j)
      = Cert.Spec.gconv X H (toMat S0) (toMat S1) (toMat W) (toVec bias) b n j := by
  unfold pre128D
  rw [bias128_apply]
  unfold Cert.Spec.gconv
  congr 1
  refine (dotPlain_apply 3312 325 128 _ W (row b n) j).trans ?_
  refine Finset.sum_congr rfl fun k _ => ?_
  congr 1
  have hk5 : k.val / 5 < 65 := by have := k.isLt; omega
  have e : ix2 (row b n) k = ix2 (row b n) (wrowD ⟨k.val / 5, hk5⟩ ⟨k.val % 5, Nat.mod_lt _ (by decide)⟩) :=
    congrArg (ix2 (row b n)) (Fin.ext (by show k.val = k.val / 5 * 5 + k.val % 5; omega))
  rw [e]
  unfold xcatD
  rw [xcat_readD]
  exact stackD_read S0 S1 X0 A B (Cert.Spec.cat X H) hX0 hA hB _ n _ b

/-- The graph convolution's pre-activation rows with 64 output columns. -/
def pre64D (S0 S1 : FVec Ideal S207x207 .f32) (X0 A B : FVec Ideal S207x1040 .f32) (W : FVec Ideal S325x64 .f32)
    (bias : FVec Ideal S64 .f32) : FVec Ideal S3312x64 .f32 :=
  addf (F := Ideal) (Host.dotGeneral (F := Ideal) dot_S3312x325_S325x64_S3312x64_1_0_0_1_n_n none (xcatD X0 A (chebD S0 X0 A) B (chebD S1 X0 B)) W) (broadcastInDim S3312x64 ![0, 1] bcast_S1x64_S3312x64_0_1 (broadcastInDim S1x64 ![1] bcast_S64_S1x64_1 bias))

theorem pre64D_read (S0 S1 : FVec Ideal S207x207 .f32) (X0 A B : FVec Ideal S207x1040 .f32) (W : FVec Ideal S325x64 .f32)
    (bias : FVec Ideal S64 .f32) (X : Cert.Spec.Arr3 1) (H : Cert.Spec.Arr3 64)
    (hX0 : ∀ (n : Fin 207) (f : Fin 65) (b : Fin 16), X0 (ix2 n (colD f b)) = Cert.Spec.cat X H b n f)
    (hA : A = dotD S0 X0) (hB : B = dotD S1 X0) (b : Fin 16) (n : Fin 207) (j : Fin 64) :
    pre64D S0 S1 X0 A B W bias (ix2 (row b n) j)
      = Cert.Spec.gconv X H (toMat S0) (toMat S1) (toMat W) (toVec bias) b n j := by
  unfold pre64D
  rw [bias64_apply]
  unfold Cert.Spec.gconv
  congr 1
  refine (dotPlain_apply 3312 325 64 _ W (row b n) j).trans ?_
  refine Finset.sum_congr rfl fun k _ => ?_
  congr 1
  have hk5 : k.val / 5 < 65 := by have := k.isLt; omega
  have e : ix2 (row b n) k = ix2 (row b n) (wrowD ⟨k.val / 5, hk5⟩ ⟨k.val % 5, Nat.mod_lt _ (by decide)⟩) :=
    congrArg (ix2 (row b n)) (Fin.ext (by show k.val = k.val / 5 * 5 + k.val % 5; omega))
  rw [e]
  unfold xcatD
  rw [xcat_readD]
  exact stackD_read S0 S1 X0 A B (Cert.Spec.cat X H) hX0 hA hB _ n _ b

/-- The two gates, per batch entry, node and gate column. -/
def ruD (S0 S1 : FVec Ideal S207x207 .f32) (X0 A B : FVec Ideal S207x1040 .f32) (Wru : FVec Ideal S325x128 .f32)
    (bru : FVec Ideal S128 .f32) : FVec Ideal S16x207x128 .f32 :=
  shapeCast _ (Host.divf (F := Ideal) (broadcastInDim S16x26496 ![] bcast_S_S16x26496 (constant (F := Ideal) S_ .f32 0x3F800000#32)) (addf (F := Ideal) (broadcastInDim S16x26496 ![] bcast_S_S16x26496 (constant (F := Ideal) S_ .f32 0x3F800000#32)) (Host.exp (F := Ideal) (Host.negf (F := Ideal) (shapeCast _ (addf (F := Ideal) (Host.dotGeneral (F := Ideal) dot_S3312x325_S325x128_S3312x128_1_0_0_1_n_n none (shapeCast _ (transpose S16x207x65x5 [3, 1, 2, 0] (shapeCast _ (concatenate S5x207x1040 0 [⟨S1x207x1040, (broadcastInDim S1x207x1040 ![1, 2] bcast_S207x1040_S1x207x1040_1_2 X0)⟩, ⟨S1x207x1040, (broadcastInDim S1x207x1040 ![1, 2] bcast_S207x1040_S1x207x1040_1_2 A)⟩, ⟨S1x207x1040, (broadcastInDim S1x207x1040 ![1, 2] bcast_S207x1040_S1x207x1040_1_2 (subf (F := Ideal) (mulf (F := Ideal) (broadcastInDim S207x1040 ![] bcast_S_S207x1040 (constant (F := Ideal) S_ .f32 0x40000000#32)) (Host.dotGeneral (F := Ideal) dot_S207x207_S207x1040_S207x1040_1_0_0_1_n_n none S0 A)) X0))⟩, ⟨S1x207x1040, (broadcastInDim S1x207x1040 ![1, 2] bcast_S207x1040_S1x207x1040_1_2 B)⟩, ⟨S1x207x1040, (broadcastInDim S1x207x1040 ![1, 2] bcast_S207x1040_S1x207x1040_1_2 (subf (F := Ideal) (mulf (F := Ideal) (broadcastInDim S207x1040 ![] bcast_S_S207x1040 (constant (F := Ideal) S_ .f32 0x40000000#32)) (Host.dotGeneral (F := Ideal) dot_S207x207_S207x1040_S207x1040_1_0_0_1_n_n none S1 B)) X0))⟩] concatenates_S1x207x1040_S1x207x1040_S1x207x1040_S1x207x1040_S1x207x1040_S5x207x1040_d0) shapeCasts_S5x207x1040_S5x207x65x16) transposes_S5x207x65x16_S16x207x65x5_3_1_2_0) shapeCasts_S16x207x65x5_S3312x325) Wru) (broadcastInDim S3312x128 ![0, 1] bcast_S1x128_S3312x128_0_1 (broadcastInDim S1x128 ![1] bcast_S128_S1x128_1 bru))) shapeCasts_S3312x128_S16x26496))))) shapeCasts_S16x26496_S16x207x128

theorem ruD_eq (S0 S1 : FVec Ideal S207x207 .f32) (X0 A B : FVec Ideal S207x1040 .f32) (Wru : FVec Ideal S325x128 .f32)
    (bru : FVec Ideal S128 .f32) : ruD S0 S1 X0 A B Wru bru = sigT (pre128D S0 S1 X0 A B Wru bru) := rfl

/-- The feature matrix of (input, reset gate ⊙ state). -/
def x0rD (x : FVec Ideal S16x207x1 .f32) (ru : FVec Ideal S16x207x128 .f32) (h : FVec Ideal S16x13248 .f32) :
    FVec Ideal S207x1040 .f32 :=
  shapeCast _ (transpose S207x65x16 [1, 2, 0] (concatenate S16x207x65 2 [⟨S16x207x1, x⟩, ⟨S16x207x64, (shapeCast _ (mulf (F := Ideal) (shapeCast _ (extractStridedSlice S16x207x64 ![0, 0, 0] ru slices_S16x207x128_S16x207x64_0_0_0) shapeCasts_S16x207x64_S16x13248) h) shapeCasts_S16x13248_S16x207x64)⟩] concatenates_S16x207x1_S16x207x64_S16x207x65_d2) transposes_S16x207x65_S207x65x16_1_2_0) shapeCasts_S207x65x16_S207x1040

theorem x0rD_eq (x : FVec Ideal S16x207x1 .f32) (ru : FVec Ideal S16x207x128 .f32) (h : FVec Ideal S16x13248 .f32) :
    x0rD x ru h = shapeCast _ (transpose S207x65x16 [1, 2, 0] (concatenate S16x207x65 2 [⟨S16x207x1, x⟩, ⟨S16x207x64, (rhOf ru h)⟩] concatenates_S16x207x1_S16x207x64_S16x207x65_d2) transposes_S16x207x65_S207x65x16_1_2_0) shapeCasts_S207x65x16_S207x1040 := rfl

/-- The new state. -/
def hD (u h : FVec Ideal S16x13248 .f32) (S0 S1 : FVec Ideal S207x207 .f32) (X0' A' B' : FVec Ideal S207x1040 .f32)
    (Wc : FVec Ideal S325x64 .f32) (bc : FVec Ideal S64 .f32) : FVec Ideal S16x13248 .f32 :=
  addf (F := Ideal) (mulf (F := Ideal) u h) (mulf (F := Ideal) (subf (F := Ideal) (broadcastInDim S16x13248 ![] bcast_S_S16x13248 (constant (F := Ideal) S_ .f32 0x3F800000#32)) u) (Host.tanh (F := Ideal) (shapeCast _ (addf (F := Ideal) (Host.dotGeneral (F := Ideal) dot_S3312x325_S325x64_S3312x64_1_0_0_1_n_n none (shapeCast _ (transpose S16x207x65x5 [3, 1, 2, 0] (shapeCast _ (concatenate S5x207x1040 0 [⟨S1x207x1040, (broadcastInDim S1x207x1040 ![1, 2] bcast_S207x1040_S1x207x1040_1_2 X0')⟩, ⟨S1x207x1040, (broadcastInDim S1x207x1040 ![1, 2] bcast_S207x1040_S1x207x1040_1_2 A')⟩, ⟨S1x207x1040, (broadcastInDim S1x207x1040 ![1, 2] bcast_S207x1040_S1x207x1040_1_2 (subf (F := Ideal) (mulf (F := Ideal) (broadcastInDim S207x1040 ![] bcast_S_S207x1040 (constant (F := Ideal) S_ .f32 0x40000000#32)) (Host.dotGeneral (F := Ideal) dot_S207x207_S207x1040_S207x1040_1_0_0_1_n_n none S0 A')) X0'))⟩, ⟨S1x207x1040, (broadcastInDim S1x207x1040 ![1, 2] bcast_S207x1040_S1x207x1040_1_2 B')⟩, ⟨S1x207x1040, (broadcastInDim S1x207x1040 ![1, 2] bcast_S207x1040_S1x207x1040_1_2 (subf (F := Ideal) (mulf (F := Ideal) (broadcastInDim S207x1040 ![] bcast_S_S207x1040 (constant (F := Ideal) S_ .f32 0x40000000#32)) (Host.dotGeneral (F := Ideal) dot_S207x207_S207x1040_S207x1040_1_0_0_1_n_n none S1 B')) X0'))⟩] concatenates_S1x207x1040_S1x207x1040_S1x207x1040_S1x207x1040_S1x207x1040_S5x207x1040_d0) shapeCasts_S5x207x1040_S5x207x65x16) transposes_S5x207x65x16_S16x207x65x5_3_1_2_0) shapeCasts_S16x207x65x5_S3312x325) Wc) (broadcastInDim S3312x64 ![0, 1] bcast_S1x64_S3312x64_0_1 (broadcastInDim S1x64 ![1] bcast_S64_S1x64_1 bc))) shapeCasts_S3312x64_S16x13248)))

theorem hD_eq (u h : FVec Ideal S16x13248 .f32) (S0 S1 : FVec Ideal S207x207 .f32) (X0' A' B' : FVec Ideal S207x1040 .f32)
    (Wc : FVec Ideal S325x64 .f32) (bc : FVec Ideal S64 .f32) :
    hD u h S0 S1 X0' A' B' Wc bc = outT u h (pre64D S0 S1 X0' A' B' Wc bc) := rfl

/-- **One step of the reference is the specification's step.** -/
theorem decCell (x : FVec Ideal S16x207x1 .f32) (h : FVec Ideal S16x13248 .f32) (S0 S1 : FVec Ideal S207x207 .f32)
    (Wru : FVec Ideal S325x128 .f32) (bru : FVec Ideal S128 .f32) (Wc : FVec Ideal S325x64 .f32) (bc : FVec Ideal S64 .f32)
    (X0 A B X0' A' B' : FVec Ideal S207x1040 .f32) (ru : FVec Ideal S16x207x128 .f32) (u h' : FVec Ideal S16x13248 .f32)
    (hX0 : X0 = x0D x h) (hA : A = dotD S0 X0) (hB : B = dotD S1 X0) (hru : ru = ruD S0 S1 X0 A B Wru bru)
    (hu : u = uOf ru) (hX0' : X0' = x0rD x ru h) (hA' : A' = dotD S0 X0') (hB' : B' = dotD S1 X0')
    (hh' : h' = hD u h S0 S1 X0' A' B' Wc bc)
    (X : Cert.Spec.Arr3 1) (H : Cert.Spec.Arr3 64) (hx : toArr3 x = X) (hH : hFlat h = H) :
    hFlat h' = Cert.Spec.cell X H (toMat S0) (toMat S1) (toMat Wru) (toVec bru) (toMat Wc) (toVec bc) := by
  -- the feature matrix of (x, h)
  have hC : ∀ (n : Fin 207) (f : Fin 65) (b : Fin 16), X0 (ix2 n (colD f b)) = Cert.Spec.cat X H b n f := by
    intro n f b
    rw [hX0]
    unfold x0D
    rw [x0_readD]
    unfold Cert.Spec.cat
    by_cases hf : f.val < 1
    · rw [dif_pos hf, dif_pos hf]
      exact congrFun (congrFun (congrFun hx b) n) _
    · rw [dif_neg hf, dif_neg hf, three_of_flat]
      exact congrFun (congrFun (congrFun hH b) n) _
  -- the gates
  have hru' : ∀ (b : Fin 16) (n : Fin 207) (j : Fin 128),
      ru (ix3 b n j) = Cert.Spec.sigm (Cert.Spec.gconv X H (toMat S0) (toMat S1) (toMat Wru) (toVec bru) b n j) := by
    intro b n j
    rw [hru, ruD_eq, sigT_apply, pre128D_read S0 S1 X0 A B Wru bru X H hC hA hB]
  -- the feature matrix of (x, r ⊙ h)
  have hC' : ∀ (n : Fin 207) (f : Fin 65) (b : Fin 16), X0' (ix2 n (colD f b))
      = Cert.Spec.cat X (fun b n j => Cert.Spec.sigm (Cert.Spec.gconv X H (toMat S0) (toMat S1) (toMat Wru) (toVec bru) b n
          ⟨j.val, by have := j.isLt; omega⟩) * H b n j) b n f := by
    intro n f b
    rw [hX0', x0rD_eq, x0_readD]
    unfold Cert.Spec.cat
    by_cases hf : f.val < 1
    · rw [dif_pos hf, dif_pos hf]
      exact congrFun (congrFun (congrFun hx b) n) _
    · rw [dif_neg hf, dif_neg hf, rhOf_apply, hru']
      exact congrArg (_ * ·) (congrFun (congrFun (congrFun hH b) n) _)
  funext b n j
  rw [hh', hD_eq, outT_apply, pre64D_read S0 S1 X0' A' B' Wc bc X _ hC' hA' hB', hu, uOf_apply, hru']
  rw [show hFlat h b n j = H b n j from congrFun (congrFun (congrFun hH b) n) j]
  rfl

end Cert.RefCell

end
-- ==== Proof.RefCell.lean ====
/-
  One recurrent step of the reference, for eight input columns and for one, and the output projection, each read
  at an index and identified with the specification's.
-/
import proofs.«113864_g48979807044058_cont_8to1_c_230_28_alg».proof.Proof.RefCellEnc
import proofs.«113864_g48979807044058_cont_8to1_c_230_28_alg».proof.Proof.RefCellDec
-- ==== Proof.RefRunOps.lean ====
/-
  Index-level readings of the few reference operations that sit between the recurrent steps: the two zero arrays
  (the initial state and the decoder's first input), the slice of the input array a step reads, and the stacking of
  the eight projections into the result array.  Everything is stated over variable operands.
-/
import proofs.«113864_g48979807044058_cont_8to1_c_230_28_alg».proof.ReferenceIdeal
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.RefRunOps

open Cert.ReferenceIdeal Idealize.ShloMosaic Idealize.ShloMosaic.ValueIdx

/-- A broadcast of the zero word is zero everywhere. -/
theorem zeros_apply {s : Shape} (h : S_.BroadcastsInDim s (![] : Fin 0 → Fin s.rank)) (j : s.Idx) :
    broadcastInDim s ![] h (constant (F := Ideal) S_ .f32 0x00000000#32) j = 0 := by
  rw [broadcastInDim_scalar_apply, constant_apply, Ideal.ofBits_zero_f32]

/-- The decoder's first input, the zero array with a unit feature axis added, is zero everywhere. -/
theorem zerosX_apply (h : S_.BroadcastsInDim S16x207 (![] : Fin 0 → Fin S16x207.rank)) (hc : S16x207.ShapeCasts S16x207x1)
    (b : Fin 16) (n : Fin 207) (i : Fin 1) :
    shapeCast S16x207x1 (broadcastInDim S16x207 ![] h (constant (F := Ideal) S_ .f32 0x00000000#32)) hc (ix3 b n i) = 0 := by
  rw [shapeCast_apply _ hc (ix3 b n i) (ix2 b n) (by
    rw [Shape.rowMajor_val_two, Shape.rowMajor_val_three]
    show b.val * 207 + n.val = (b.val * 207 + n.val) * 1 + i.val
    have := i.isLt; omega)]
  exact zeros_apply h _

/-- Step `o`'s input: row `o` of the input array, its 1656 columns read as 207 nodes of 8 readings each. -/
theorem xslice_apply (a : FVec Ideal S8x16x1656 .f32) (o : ℕ) (ho : o < 8)
    (hs : S8x16x1656.Slices ![o, 0, 0] S1x16x1656) (h1 : S1x16x1656.ShapeCasts S16x1656) (h2 : S16x1656.ShapeCasts S16x207x8)
    (b : Fin 16) (n : Fin 207) (i : Fin 8) :
    shapeCast S16x207x8 (shapeCast S16x1656 (extractStridedSlice S1x16x1656 ![o, 0, 0] a hs) h1) h2 (ix3 b n i)
      = a (ix3 (⟨o, ho⟩ : Fin 8) b (⟨n.val * 8 + i.val, by have := n.isLt; have := i.isLt; omega⟩ : Fin 1656)) := by
  have hn := n.isLt; have hi := i.isLt; have hb := b.isLt
  rw [shapeCast_apply _ h2 (ix3 b n i) (ix2 b (⟨n.val * 8 + i.val, by omega⟩ : Fin 1656)) (by
    rw [Shape.rowMajor_val_two, Shape.rowMajor_val_three]
    show b.val * 1656 + (n.val * 8 + i.val) = (b.val * 207 + n.val) * 8 + i.val
    omega)]
  rw [shapeCast_apply _ h1 (ix2 b (⟨n.val * 8 + i.val, by omega⟩ : Fin 1656)) (ix3 (0 : Fin 1) b (⟨n.val * 8 + i.val, by omega⟩ : Fin 1656)) (by
    rw [Shape.rowMajor_val_two, Shape.rowMajor_val_three]
    show (0 * 16 + b.val) * 1656 + (n.val * 8 + i.val) = b.val * 1656 + (n.val * 8 + i.val)
    omega)]
  refine extractStridedSlice_apply _ a hs _ _ fun ax => ?_
  match ax with
  | ⟨0, _⟩ => show o = o + 0; omega
  | ⟨1, _⟩ => show b.val = 0 + b.val; omega
  | ⟨2, _⟩ => show n.val * 8 + i.val = 0 + (n.val * 8 + i.val); omega

/-- The result array: eight arrays of shape 16 × 207, each given a leading unit axis, laid one after another along
    that axis; entry (t, b, n) is entry (b, n) of the t-th. -/
theorem stack8_apply (p0 p1 p2 p3 p4 p5 p6 p7 : FVec Ideal S16x207 .f32)
    (hb : S16x207.BroadcastsInDim S1x16x207 (![1, 2] : Fin 2 → Fin S1x16x207.rank))
    (hc : Shape.Concatenates [S1x16x207, S1x16x207, S1x16x207, S1x16x207, S1x16x207, S1x16x207, S1x16x207, S1x16x207] S8x16x207 0)
    (t : Fin 8) (b : Fin 16) (n : Fin 207) :
    concatenate S8x16x207 0 [⟨S1x16x207, broadcastInDim S1x16x207 ![1, 2] hb p0⟩, ⟨S1x16x207, broadcastInDim S1x16x207 ![1, 2] hb p1⟩,
        ⟨S1x16x207, broadcastInDim S1x16x207 ![1, 2] hb p2⟩, ⟨S1x16x207, broadcastInDim S1x16x207 ![1, 2] hb p3⟩,
        ⟨S1x16x207, broadcastInDim S1x16x207 ![1, 2] hb p4⟩, ⟨S1x16x207, broadcastInDim S1x16x207 ![1, 2] hb p5⟩,
        ⟨S1x16x207, broadcastInDim S1x16x207 ![1, 2] hb p6⟩, ⟨S1x16x207, broadcastInDim S1x16x207 ![1, 2] hb p7⟩] hc (ix3 t b n)
      = (![p0, p1, p2, p3, p4, p5, p6, p7] t) (ix2 b n) := by
  have key : ∀ (xs : List ((s : Shape) × (s.Idx → Ideal .f32))) (h : Shape.Concatenates (xs.map (·.1)) S8x16x207 0),
      xs = List.ofFn (fun k : Fin 8 => (⟨S1x16x207, broadcastInDim S1x16x207 ![1, 2] hb (![p0, p1, p2, p3, p4, p5, p6, p7] k)⟩ : (s : Shape) × (s.Idx → Ideal .f32))) →
      concatenate S8x16x207 0 xs h (ix3 t b n) = broadcastInDim S1x16x207 ![1, 2] hb (![p0, p1, p2, p3, p4, p5, p6, p7] t) (ix3 (0 : Fin 1) b n) := by
    intro xs h e
    subst e
    exact concatenate_ofFn_unit_apply (t := S8x16x207) (s₁ := S1x16x207) (0 : Fin 3) (fun k : Fin 8 => broadcastInDim S1x16x207 ![1, 2] hb (![p0, p1, p2, p3, p4, p5, p6, p7] k)) h rfl rfl
      (ix3 t b n) t rfl (ix3 (0 : Fin 1) b n) (fun ax hax => by
        match ax with
        | ⟨0, _⟩ => exact absurd rfl hax
        | ⟨1, _⟩ => rfl
        | ⟨2, _⟩ => rfl)
  refine (key _ _ ?_).trans ?_
  · simp [List.ofFn_succ]
  · exact broadcastInDim_apply _ hb _ _ (ix2 b n) fun ax => by
      match ax with
      | ⟨0, _⟩ => rfl
      | ⟨1, _⟩ => rfl

end Cert.RefRunOps

end
-- ==== Proof.RefHandEnc.lean ====
/- The eight encoder steps of the reference, each as the specification's step of the final contents of the step's input and
   previous state (the operations between the step's named values, by part and position, and the order their equations are
   rewritten in), and each step's input and the initial state as explicit terms of the arguments. -/
import proofs.«113864_g48979807044058_cont_8to1_c_230_28_alg».proof.Proof.RefHandRank
import proofs.«113864_g48979807044058_cont_8to1_c_230_28_alg».proof.Proof.RefCell
import proofs.«113864_g48979807044058_cont_8to1_c_230_28_alg».proof.Proof.RefRunOps

set_option Elab.async false

noncomputable section

namespace Cert.RefHand

open Cert.ReferenceIdeal Cert.ReferenceIdeal.Gen Cert.ReferenceIdeal.HandRun Idealize.ShloMosaic Idealize.ShloMosaic.TcCoe Idealize.ShloMosaic.StableHlo Idealize.ShloMosaic.ValueIdx
open Cert.RefCell

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem enc_step_0 (V0 : Valuation τ sig (Elt Ideal)) (X : Cert.Spec.Arr3 8) (H : Cert.Spec.Arr3 64)
    (hx : toArr3 (d := 8) (after (ops (F := Ideal)) V0 (Proc.devRef .tc main_v3)) = X) (hH : hFlat (after (ops (F := Ideal)) V0 (Proc.devRef .tc main_v0)) = H) :
    hFlat (after (ops (F := Ideal)) V0 (Proc.devRef .tc main_v77)) = Cert.Spec.cell X H (toMat (V0 (Proc.devRef .tc main_arg1))) (toMat (V0 (Proc.devRef .tc main_arg2))) (toMat (V0 (Proc.devRef .tc main_arg3))) (toVec (V0 (Proc.devRef .tc main_arg4))) (toMat (V0 (Proc.devRef .tc main_arg5))) (toVec (V0 (Proc.devRef .tc main_arg6))) := by
  have k_arg1 := arg_keep (F := Ideal) V0 main_arg1 (by decide)
  have k_arg2 := arg_keep (F := Ideal) V0 main_arg2 (by decide)
  have k_arg3 := arg_keep (F := Ideal) V0 main_arg3 (by decide)
  have k_arg4 := arg_keep (F := Ideal) V0 main_arg4 (by decide)
  have k_arg5 := arg_keep (F := Ideal) V0 main_arg5 (by decide)
  have k_arg6 := arg_keep (F := Ideal) V0 main_arg6 (by decide)
  have e_v4 := (win0 (F := Ideal) V0).reshape 5 main_v0 main_v4 (hn := shapeCasts_S16x13248_S16x207x64) (e := rfl)
  have e_v5 := (win0 (F := Ideal) V0).binary 6 main_v3 main_v4 main_v5 (f := (fn_main_v5 (F := Ideal))) (e := rfl)
  have e_v6 := (win0 (F := Ideal) V0).unary 7 main_v5 main_v6 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v7 := (win0 (F := Ideal) V0).reshape 8 main_v6 main_v7 (hn := shapeCasts_S207x72x16_S207x1152) (e := rfl)
  have e_v8 := (win0 (F := Ideal) V0).binary 9 main_arg1 main_v7 main_v8 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v9 := (win0 (F := Ideal) V0).binary 10 main_arg1 main_v8 main_v9 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_0 := (win0 (F := Ideal) V0).nullary 11 main_cst_0 (v := (constant (F := Ideal) S_ .f32 0x40000000#32)) (e := rfl)
  have e_v10 := (win0 (F := Ideal) V0).unary 12 main_cst_0 main_v10 (f := (broadcastInDim S207x1152 ![] bcast_S_S207x1152 : (⟨S_, .f32⟩ : BufTy).Contents (Elt Ideal) → (⟨S207x1152, .f32⟩ : BufTy).Contents (Elt Ideal))) (e := rfl)
  have e_v11 := (win0 (F := Ideal) V0).binary 13 main_v10 main_v9 main_v11 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v12 := (win0 (F := Ideal) V0).binary 14 main_v11 main_v7 main_v12 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v13 := (win0 (F := Ideal) V0).binary 15 main_arg2 main_v7 main_v13 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v14 := (win0 (F := Ideal) V0).binary 16 main_arg2 main_v13 main_v14 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_1 := (win0 (F := Ideal) V0).nullary 17 main_cst_1 (v := (constant (F := Ideal) S_ .f32 0x40000000#32)) (e := rfl)
  have e_v15 := (win0 (F := Ideal) V0).unary 18 main_cst_1 main_v15 (f := (broadcastInDim S207x1152 ![] bcast_S_S207x1152 : (⟨S_, .f32⟩ : BufTy).Contents (Elt Ideal) → (⟨S207x1152, .f32⟩ : BufTy).Contents (Elt Ideal))) (e := rfl)
  have e_v16 := (win0 (F := Ideal) V0).binary 19 main_v15 main_v14 main_v16 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v17 := (win0 (F := Ideal) V0).binary 20 main_v16 main_v7 main_v17 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v18 := (win0 (F := Ideal) V0).unary 21 main_v7 main_v18 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v19 := (win0 (F := Ideal) V0).unary 22 main_v8 main_v19 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v20 := (win0 (F := Ideal) V0).unary 23 main_v12 main_v20 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v21 := (win0 (F := Ideal) V0).unary 24 main_v13 main_v21 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v22 := (win0 (F := Ideal) V0).unary 25 main_v17 main_v22 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v23 := (win0 (F := Ideal) V0).nary5 26 main_v18 main_v19 main_v20 main_v21 main_v22 main_v23 (f := (fun u => fn_main_v23 (F := Ideal) (u 0) (u 1) (u 2) (u 3) (u 4))) (e := rfl)
  have e_v24 := (win0 (F := Ideal) V0).reshape 27 main_v23 main_v24 (hn := shapeCasts_S5x207x1152_S5x207x72x16) (e := rfl)
  have e_v25 := (win0 (F := Ideal) V0).unary 28 main_v24 main_v25 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v26 := (win0 (F := Ideal) V0).reshape 29 main_v25 main_v26 (hn := shapeCasts_S16x207x72x5_S3312x360) (e := rfl)
  have e_v27 := (win0 (F := Ideal) V0).binary 30 main_v26 main_arg3 main_v27 (f := ((fun l r => Host.dotGeneral (F := Ideal) dot_S3312x360_S360x128_S3312x128_1_0_0_1_n_n none l r) : (⟨S3312x360, .f32⟩ : BufTy).Contents (Elt Ideal) → (⟨S360x128, .f32⟩ : BufTy).Contents (Elt Ideal) → (⟨S3312x128, .f32⟩ : BufTy).Contents (Elt Ideal))) (e := rfl)
  have e_v28 := (win0 (F := Ideal) V0).unary 31 main_arg4 main_v28 (f := (broadcastInDim S1x128 ![1] bcast_S128_S1x128_1 : (⟨S128, .f32⟩ : BufTy).Contents (Elt Ideal) → (⟨S1x128, .f32⟩ : BufTy).Contents (Elt Ideal))) (e := rfl)
  have e_v29 := (win0 (F := Ideal) V0).unary 32 main_v28 main_v29 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v30 := (win0 (F := Ideal) V0).binary 33 main_v27 main_v29 main_v30 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v31 := (win0 (F := Ideal) V0).reshape 34 main_v30 main_v31 (hn := shapeCasts_S3312x128_S16x26496) (e := rfl)
  have e_v32 := (win0 (F := Ideal) V0).unary 35 main_v31 main_v32 (f := (Host.negf (F := Ideal) : (⟨S16x26496, .f32⟩ : BufTy).Contents (Elt Ideal) → (⟨S16x26496, .f32⟩ : BufTy).Contents (Elt Ideal))) (e := rfl)
  have e_v33 := (win0 (F := Ideal) V0).unary 36 main_v32 main_v33 (f := (Host.exp (F := Ideal) : (⟨S16x26496, .f32⟩ : BufTy).Contents (Elt Ideal) → (⟨S16x26496, .f32⟩ : BufTy).Contents (Elt Ideal))) (e := rfl)
  have e_cst_2 := (win0 (F := Ideal) V0).nullary 37 main_cst_2 (v := (constant (F := Ideal) S_ .f32 0x3F800000#32)) (e := rfl)
  have e_v34 := (win0 (F := Ideal) V0).unary 38 main_cst_2 main_v34 (f := (broadcastInDim S16x26496 ![] bcast_S_S16x26496 : (⟨S_, .f32⟩ : BufTy).Contents (Elt Ideal) → (⟨S16x26496, .f32⟩ : BufTy).Contents (Elt Ideal))) (e := rfl)
  have e_v35 := (win0 (F := Ideal) V0).binary 39 main_v34 main_v33 main_v35 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_3 := (win0 (F := Ideal) V0).nullary 40 main_cst_3 (v := (constant (F := Ideal) S_ .f32 0x3F800000#32)) (e := rfl)
  have e_v36 := (win0 (F := Ideal) V0).unary 41 main_cst_3 main_v36 (f := (broadcastInDim S16x26496 ![] bcast_S_S16x26496 : (⟨S_, .f32⟩ : BufTy).Contents (Elt Ideal) → (⟨S16x26496, .f32⟩ : BufTy).Contents (Elt Ideal))) (e := rfl)
  have e_v37 := (win0 (F := Ideal) V0).binary 42 main_v36 main_v35 main_v37 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v38 := (win0 (F := Ideal) V0).reshape 43 main_v37 main_v38 (hn := shapeCasts_S16x26496_S16x207x128) (e := rfl)
  have e_v39 := (win0 (F := Ideal) V0).unary 44 main_v38 main_v39 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v40 := (win0 (F := Ideal) V0).reshape 45 main_v39 main_v40 (hn := shapeCasts_S16x207x64_S16x13248) (e := rfl)
  have e_v41 := (win0 (F := Ideal) V0).unary 46 main_v38 main_v41 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v42 := (win0 (F := Ideal) V0).reshape 47 main_v41 main_v42 (hn := shapeCasts_S16x207x64_S16x13248) (e := rfl)
  have e_v43 := (win0 (F := Ideal) V0).binary 48 main_v40 main_v0 main_v43 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v44 := (win0 (F := Ideal) V0).reshape 49 main_v43 main_v44 (hn := shapeCasts_S16x13248_S16x207x64) (e := rfl)
  have e_v45 := (win0 (F := Ideal) V0).binary 50 main_v3 main_v44 main_v45 (f := (fn_main_v45 (F := Ideal))) (e := rfl)
  have e_v46 := (win0 (F := Ideal) V0).unary 51 main_v45 main_v46 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v47 := (win0 (F := Ideal) V0).reshape 52 main_v46 main_v47 (hn := shapeCasts_S207x72x16_S207x1152) (e := rfl)
  have e_v48 := (win0 (F := Ideal) V0).binary 53 main_arg1 main_v47 main_v48 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v49 := (win0 (F := Ideal) V0).binary 54 main_arg1 main_v48 main_v49 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_4 := (win0 (F := Ideal) V0).nullary 55 main_cst_4 (v := (constant (F := Ideal) S_ .f32 0x40000000#32)) (e := rfl)
  have e_v50 := (win0 (F := Ideal) V0).unary 56 main_cst_4 main_v50 (f := (broadcastInDim S207x1152 ![] bcast_S_S207x1152 : (⟨S_, .f32⟩ : BufTy).Contents (Elt Ideal) → (⟨S207x1152, .f32⟩ : BufTy).Contents (Elt Ideal))) (e := rfl)
  have e_v51 := (win0 (F := Ideal) V0).binary 57 main_v50 main_v49 main_v51 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v52 := (win0 (F := Ideal) V0).binary 58 main_v51 main_v47 main_v52 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v53 := (win0 (F := Ideal) V0).binary 59 main_arg2 main_v47 main_v53 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v54 := (win1 (F := Ideal) V0).binary 0 main_arg2 main_v53 main_v54 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_5 := (win1 (F := Ideal) V0).nullary 1 main_cst_5 (v := (constant (F := Ideal) S_ .f32 0x40000000#32)) (e := rfl)
  have e_v55 := (win1 (F := Ideal) V0).unary 2 main_cst_5 main_v55 (f := (broadcastInDim S207x1152 ![] bcast_S_S207x1152 : (⟨S_, .f32⟩ : BufTy).Contents (Elt Ideal) → (⟨S207x1152, .f32⟩ : BufTy).Contents (Elt Ideal))) (e := rfl)
  have e_v56 := (win1 (F := Ideal) V0).binary 3 main_v55 main_v54 main_v56 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v57 := (win1 (F := Ideal) V0).binary 4 main_v56 main_v47 main_v57 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v58 := (win1 (F := Ideal) V0).unary 5 main_v47 main_v58 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v59 := (win1 (F := Ideal) V0).unary 6 main_v48 main_v59 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v60 := (win1 (F := Ideal) V0).unary 7 main_v52 main_v60 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v61 := (win1 (F := Ideal) V0).unary 8 main_v53 main_v61 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v62 := (win1 (F := Ideal) V0).unary 9 main_v57 main_v62 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v63 := (win1 (F := Ideal) V0).nary5 10 main_v58 main_v59 main_v60 main_v61 main_v62 main_v63 (f := (fun u => fn_main_v63 (F := Ideal) (u 0) (u 1) (u 2) (u 3) (u 4))) (e := rfl)
  have e_v64 := (win1 (F := Ideal) V0).reshape 11 main_v63 main_v64 (hn := shapeCasts_S5x207x1152_S5x207x72x16) (e := rfl)
  have e_v65 := (win1 (F := Ideal) V0).unary 12 main_v64 main_v65 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v66 := (win1 (F := Ideal) V0).reshape 13 main_v65 main_v66 (hn := shapeCasts_S16x207x72x5_S3312x360) (e := rfl)
  have e_v67 := (win1 (F := Ideal) V0).binary 14 main_v66 main_arg5 main_v67 (f := ((fun l r => Host.dotGeneral (F := Ideal) dot_S3312x360_S360x64_S3312x64_1_0_0_1_n_n none l r) : (⟨S3312x360, .f32⟩ : BufTy).Contents (Elt Ideal) → (⟨S360x64, .f32⟩ : BufTy).Contents (Elt Ideal) → (⟨S3312x64, .f32⟩ : BufTy).Contents (Elt Ideal))) (e := rfl)
  have e_v68 := (win1 (F := Ideal) V0).unary 15 main_arg6 main_v68 (f := (broadcastInDim S1x64 ![1] bcast_S64_S1x64_1 : (⟨S64, .f32⟩ : BufTy).Contents (Elt Ideal) → (⟨S1x64, .f32⟩ : BufTy).Contents (Elt Ideal))) (e := rfl)
  have e_v69 := (win1 (F := Ideal) V0).unary 16 main_v68 main_v69 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v70 := (win1 (F := Ideal) V0).binary 17 main_v67 main_v69 main_v70 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v71 := (win1 (F := Ideal) V0).reshape 18 main_v70 main_v71 (hn := shapeCasts_S3312x64_S16x13248) (e := rfl)
  have e_v72 := (win1 (F := Ideal) V0).unary 19 main_v71 main_v72 (f := (Host.tanh (F := Ideal) : (⟨S16x13248, .f32⟩ : BufTy).Contents (Elt Ideal) → (⟨S16x13248, .f32⟩ : BufTy).Contents (Elt Ideal))) (e := rfl)
  have e_v73 := (win1 (F := Ideal) V0).binary 20 main_v42 main_v0 main_v73 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_6 := (win1 (F := Ideal) V0).nullary 21 main_cst_6 (v := (constant (F := Ideal) S_ .f32 0x3F800000#32)) (e := rfl)
  have e_v74 := (win1 (F := Ideal) V0).unary 22 main_cst_6 main_v74 (f := (broadcastInDim S16x13248 ![] bcast_S_S16x13248 : (⟨S_, .f32⟩ : BufTy).Contents (Elt Ideal) → (⟨S16x13248, .f32⟩ : BufTy).Contents (Elt Ideal))) (e := rfl)
  have e_v75 := (win1 (F := Ideal) V0).binary 23 main_v74 main_v42 main_v75 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v76 := (win1 (F := Ideal) V0).binary 24 main_v75 main_v72 main_v76 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v77 := (win1 (F := Ideal) V0).binary 25 main_v73 main_v76 main_v77 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact encCell (W (Proc.devRef .tc main_v3)) (W (Proc.devRef .tc main_v0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (W (Proc.devRef .tc main_v7)) (W (Proc.devRef .tc main_v8)) (W (Proc.devRef .tc main_v13)) (W (Proc.devRef .tc main_v47)) (W (Proc.devRef .tc main_v48)) (W (Proc.devRef .tc main_v53)) (W (Proc.devRef .tc main_v38)) (W (Proc.devRef .tc main_v42)) (W (Proc.devRef .tc main_v77))
    (by rw [e_v7, e_v6, e_v5, e_v4] <;> rfl)
    (by rw [e_v8, k_arg1] <;> rfl)
    (by rw [e_v13, k_arg2] <;> rfl)
    (by rw [e_v38, e_v37, e_v36, e_cst_3, e_v35, e_v34, e_cst_2, e_v33, e_v32, e_v31, e_v30, e_v29, e_v28, e_v27, e_v26, e_v25, e_v24, e_v23, e_v22, e_v21, e_v20, e_v19, e_v18, e_v17, e_v16, e_v15, e_cst_1, e_v14, e_v12, e_v11, e_v10, e_cst_0, e_v9, k_arg1, k_arg2, k_arg3, k_arg4] <;> rfl)
    (by rw [e_v42, e_v41] <;> rfl)
    (by rw [e_v47, e_v46, e_v45, e_v44, e_v43, e_v40, e_v39] <;> rfl)
    (by rw [e_v48, k_arg1] <;> rfl)
    (by rw [e_v53, k_arg2] <;> rfl)
    (by rw [e_v77, e_v76, e_v75, e_v74, e_cst_6, e_v73, e_v72, e_v71, e_v70, e_v69, e_v68, e_v67, e_v66, e_v65, e_v64, e_v63, e_v62, e_v61, e_v60, e_v59, e_v58, e_v57, e_v56, e_v55, e_cst_5, e_v54, e_v52, e_v51, e_v50, e_cst_4, e_v49, k_arg1, k_arg2, k_arg5, k_arg6] <;> rfl)
    X H hx hH

set_option maxRecDepth 8192 in
set_option maxHeartbeats 2000000 in
/-- A buffer's final contents as an explicit term of other buffers' (and of the arguments as launched): the equations of
    the operations that produce it, rewritten latest first. -/
theorem enc_x_0 (V0 : Valuation τ sig (Elt Ideal)) :
    (after (ops (F := Ideal)) V0 (Proc.devRef .tc main_v3)) = shapeCast S16x207x8 (shapeCast S16x1656 (extractStridedSlice S1x16x1656 ![0, 0, 0] (V0 (Proc.devRef .tc main_arg0)) slices_S8x16x1656_S1x16x1656_0_0_0) shapeCasts_S1x16x1656_S16x1656) shapeCasts_S16x1656_S16x207x8 := by
  have k_arg0 := arg_keep (F := Ideal) V0 main_arg0 (by decide)
  have e_v1 := (win0 (F := Ideal) V0).unary 2 main_arg0 main_v1 (f := ((extractStridedSlice S1x16x1656 ![0, 0, 0] · slices_S8x16x1656_S1x16x1656_0_0_0) : (⟨S8x16x1656, .f32⟩ : BufTy).Contents (Elt Ideal) → (⟨S1x16x1656, .f32⟩ : BufTy).Contents (Elt Ideal))) (e := rfl)
  have e_v2 := (win0 (F := Ideal) V0).reshape 3 main_v1 main_v2 (hn := shapeCasts_S1x16x1656_S16x1656) (e := rfl)
  have e_v3 := (win0 (F := Ideal) V0).reshape 4 main_v2 main_v3 (hn := shapeCasts_S16x1656_S16x207x8) (e := rfl)
  generalize after (ops (F := Ideal)) V0 = W at *
  rw [e_v3, e_v2, e_v1, k_arg0] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem enc_step_1 (V0 : Valuation τ sig (Elt Ideal)) (X : Cert.Spec.Arr3 8) (H : Cert.Spec.Arr3 64)
    (hx : toArr3 (d := 8) (after (ops (F := Ideal)) V0 (Proc.devRef .tc main_v80)) = X) (hH : hFlat (after (ops (F := Ideal)) V0 (Proc.devRef .tc main_v77)) = H) :
    hFlat (after (ops (F := Ideal)) V0 (Proc.devRef .tc main_v154)) = Cert.Spec.cell X H (toMat (V0 (Proc.devRef .tc main_arg1))) (toMat (V0 (Proc.devRef .tc main_arg2))) (toMat (V0 (Proc.devRef .tc main_arg3))) (toVec (V0 (Proc.devRef .tc main_arg4))) (toMat (V0 (Proc.devRef .tc main_arg5))) (toVec (V0 (Proc.devRef .tc main_arg6))) := by
  have k_arg1 := arg_keep (F := Ideal) V0 main_arg1 (by decide)
  have k_arg2 := arg_keep (F := Ideal) V0 main_arg2 (by decide)
  have k_arg3 := arg_keep (F := Ideal) V0 main_arg3 (by decide)
  have k_arg4 := arg_keep (F := Ideal) V0 main_arg4 (by decide)
  have k_arg5 := arg_keep (F := Ideal) V0 main_arg5 (by decide)
  have k_arg6 := arg_keep (F := Ideal) V0 main_arg6 (by decide)
  have e_v81 := (win1 (F := Ideal) V0).reshape 29 main_v77 main_v81 (hn := shapeCasts_S16x13248_S16x207x64) (e := rfl)
  have e_v82 := (win1 (F := Ideal) V0).binary 30 main_v80 main_v81 main_v82 (f := (fn_main_v82 (F := Ideal))) (e := rfl)
  have e_v83 := (win1 (F := Ideal) V0).unary 31 main_v82 main_v83 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v84 := (win1 (F := Ideal) V0).reshape 32 main_v83 main_v84 (hn := shapeCasts_S207x72x16_S207x1152) (e := rfl)
  have e_v85 := (win1 (F := Ideal) V0).binary 33 main_arg1 main_v84 main_v85 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v86 := (win1 (F := Ideal) V0).binary 34 main_arg1 main_v85 main_v86 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_7 := (win1 (F := Ideal) V0).nullary 35 main_cst_7 (v := (constant (F := Ideal) S_ .f32 0x40000000#32)) (e := rfl)
  have e_v87 := (win1 (F := Ideal) V0).unary 36 main_cst_7 main_v87 (f := (broadcastInDim S207x1152 ![] bcast_S_S207x1152 : (⟨S_, .f32⟩ : BufTy).Contents (Elt Ideal) → (⟨S207x1152, .f32⟩ : BufTy).Contents (Elt Ideal))) (e := rfl)
  have e_v88 := (win1 (F := Ideal) V0).binary 37 main_v87 main_v86 main_v88 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v89 := (win1 (F := Ideal) V0).binary 38 main_v88 main_v84 main_v89 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v90 := (win1 (F := Ideal) V0).binary 39 main_arg2 main_v84 main_v90 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v91 := (win1 (F := Ideal) V0).binary 40 main_arg2 main_v90 main_v91 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_8 := (win1 (F := Ideal) V0).nullary 41 main_cst_8 (v := (constant (F := Ideal) S_ .f32 0x40000000#32)) (e := rfl)
  have e_v92 := (win1 (F := Ideal) V0).unary 42 main_cst_8 main_v92 (f := (broadcastInDim S207x1152 ![] bcast_S_S207x1152 : (⟨S_, .f32⟩ : BufTy).Contents (Elt Ideal) → (⟨S207x1152, .f32⟩ : BufTy).Contents (Elt Ideal))) (e := rfl)
  have e_v93 := (win1 (F := Ideal) V0).binary 43 main_v92 main_v91 main_v93 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v94 := (win1 (F := Ideal) V0).binary 44 main_v93 main_v84 main_v94 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v95 := (win1 (F := Ideal) V0).unary 45 main_v84 main_v95 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v96 := (win1 (F := Ideal) V0).unary 46 main_v85 main_v96 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v97 := (win1 (F := Ideal) V0).unary 47 main_v89 main_v97 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v98 := (win1 (F := Ideal) V0).unary 48 main_v90 main_v98 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v99 := (win1 (F := Ideal) V0).unary 49 main_v94 main_v99 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v100 := (win1 (F := Ideal) V0).nary5 50 main_v95 main_v96 main_v97 main_v98 main_v99 main_v100 (f := (fun u => fn_main_v100 (F := Ideal) (u 0) (u 1) (u 2) (u 3) (u 4))) (e := rfl)
  have e_v101 := (win1 (F := Ideal) V0).reshape 51 main_v100 main_v101 (hn := shapeCasts_S5x207x1152_S5x207x72x16) (e := rfl)
  have e_v102 := (win1 (F := Ideal) V0).unary 52 main_v101 main_v102 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v103 := (win1 (F := Ideal) V0).reshape 53 main_v102 main_v103 (hn := shapeCasts_S16x207x72x5_S3312x360) (e := rfl)
  have e_v104 := (win1 (F := Ideal) V0).binary 54 main_v103 main_arg3 main_v104 (f := ((fun l r => Host.dotGeneral (F := Ideal) dot_S3312x360_S360x128_S3312x128_1_0_0_1_n_n none l r) : (⟨S3312x360, .f32⟩ : BufTy).Contents (Elt Ideal) → (⟨S360x128, .f32⟩ : BufTy).Contents (Elt Ideal) → (⟨S3312x128, .f32⟩ : BufTy).Contents (Elt Ideal))) (e := rfl)
  have e_v105 := (win1 (F := Ideal) V0).unary 55 main_arg4 main_v105 (f := (broadcastInDim S1x128 ![1] bcast_S128_S1x128_1 : (⟨S128, .f32⟩ : BufTy).Contents (Elt Ideal) → (⟨S1x128, .f32⟩ : BufTy).Contents (Elt Ideal))) (e := rfl)
  have e_v106 := (win1 (F := Ideal) V0).unary 56 main_v105 main_v106 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v107 := (win1 (F := Ideal) V0).binary 57 main_v104 main_v106 main_v107 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v108 := (win1 (F := Ideal) V0).reshape 58 main_v107 main_v108 (hn := shapeCasts_S3312x128_S16x26496) (e := rfl)
  have e_v109 := (win1 (F := Ideal) V0).unary 59 main_v108 main_v109 (f := (Host.negf (F := Ideal) : (⟨S16x26496, .f32⟩ : BufTy).Contents (Elt Ideal) → (⟨S16x26496, .f32⟩ : BufTy).Contents (Elt Ideal))) (e := rfl)
  have e_v110 := (win2 (F := Ideal) V0).unary 0 main_v109 main_v110 (f := (Host.exp (F := Ideal) : (⟨S16x26496, .f32⟩ : BufTy).Contents (Elt Ideal) → (⟨S16x26496, .f32⟩ : BufTy).Contents (Elt Ideal))) (e := rfl)
  have e_cst_9 := (win2 (F := Ideal) V0).nullary 1 main_cst_9 (v := (constant (F := Ideal) S_ .f32 0x3F800000#32)) (e := rfl)
  have e_v111 := (win2 (F := Ideal) V0).unary 2 main_cst_9 main_v111 (f := (broadcastInDim S16x26496 ![] bcast_S_S16x26496 : (⟨S_, .f32⟩ : BufTy).Contents (Elt Ideal) → (⟨S16x26496, .f32⟩ : BufTy).Contents (Elt Ideal))) (e := rfl)
  have e_v112 := (win2 (F := Ideal) V0).binary 3 main_v111 main_v110 main_v112 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_10 := (win2 (F := Ideal) V0).nullary 4 main_cst_10 (v := (constant (F := Ideal) S_ .f32 0x3F800000#32)) (e := rfl)
  have e_v113 := (win2 (F := Ideal) V0).unary 5 main_cst_10 main_v113 (f := (broadcastInDim S16x26496 ![] bcast_S_S16x26496 : (⟨S_, .f32⟩ : BufTy).Contents (Elt Ideal) → (⟨S16x26496, .f32⟩ : BufTy).Contents (Elt Ideal))) (e := rfl)
  have e_v114 := (win2 (F := Ideal) V0).binary 6 main_v113 main_v112 main_v114 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v115 := (win2 (F := Ideal) V0).reshape 7 main_v114 main_v115 (hn := shapeCasts_S16x26496_S16x207x128) (e := rfl)
  have e_v116 := (win2 (F := Ideal) V0).unary 8 main_v115 main_v116 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v117 := (win2 (F := Ideal) V0).reshape 9 main_v116 main_v117 (hn := shapeCasts_S16x207x64_S16x13248) (e := rfl)
  have e_v118 := (win2 (F := Ideal) V0).unary 10 main_v115 main_v118 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v119 := (win2 (F := Ideal) V0).reshape 11 main_v118 main_v119 (hn := shapeCasts_S16x207x64_S16x13248) (e := rfl)
  have e_v120 := (win2 (F := Ideal) V0).binary 12 main_v117 main_v77 main_v120 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v121 := (win2 (F := Ideal) V0).reshape 13 main_v120 main_v121 (hn := shapeCasts_S16x13248_S16x207x64) (e := rfl)
  have e_v122 := (win2 (F := Ideal) V0).binary 14 main_v80 main_v121 main_v122 (f := (fn_main_v122 (F := Ideal))) (e := rfl)
  have e_v123 := (win2 (F := Ideal) V0).unary 15 main_v122 main_v123 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v124 := (win2 (F := Ideal) V0).reshape 16 main_v123 main_v124 (hn := shapeCasts_S207x72x16_S207x1152) (e := rfl)
  have e_v125 := (win2 (F := Ideal) V0).binary 17 main_arg1 main_v124 main_v125 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v126 := (win2 (F := Ideal) V0).binary 18 main_arg1 main_v125 main_v126 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_11 := (win2 (F := Ideal) V0).nullary 19 main_cst_11 (v := (constant (F := Ideal) S_ .f32 0x40000000#32)) (e := rfl)
  have e_v127 := (win2 (F := Ideal) V0).unary 20 main_cst_11 main_v127 (f := (broadcastInDim S207x1152 ![] bcast_S_S207x1152 : (⟨S_, .f32⟩ : BufTy).Contents (Elt Ideal) → (⟨S207x1152, .f32⟩ : BufTy).Contents (Elt Ideal))) (e := rfl)
  have e_v128 := (win2 (F := Ideal) V0).binary 21 main_v127 main_v126 main_v128 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v129 := (win2 (F := Ideal) V0).binary 22 main_v128 main_v124 main_v129 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v130 := (win2 (F := Ideal) V0).binary 23 main_arg2 main_v124 main_v130 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v131 := (win2 (F := Ideal) V0).binary 24 main_arg2 main_v130 main_v131 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_12 := (win2 (F := Ideal) V0).nullary 25 main_cst_12 (v := (constant (F := Ideal) S_ .f32 0x40000000#32)) (e := rfl)
  have e_v132 := (win2 (F := Ideal) V0).unary 26 main_cst_12 main_v132 (f := (broadcastInDim S207x1152 ![] bcast_S_S207x1152 : (⟨S_, .f32⟩ : BufTy).Contents (Elt Ideal) → (⟨S207x1152, .f32⟩ : BufTy).Contents (Elt Ideal))) (e := rfl)
  have e_v133 := (win2 (F := Ideal) V0).binary 27 main_v132 main_v131 main_v133 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v134 := (win2 (F := Ideal) V0).binary 28 main_v133 main_v124 main_v134 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v135 := (win2 (F := Ideal) V0).unary 29 main_v124 main_v135 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v136 := (win2 (F := Ideal) V0).unary 30 main_v125 main_v136 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v137 := (win2 (F := Ideal) V0).unary 31 main_v129 main_v137 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v138 := (win2 (F := Ideal) V0).unary 32 main_v130 main_v138 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v139 := (win2 (F := Ideal) V0).unary 33 main_v134 main_v139 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v140 := (win2 (F := Ideal) V0).nary5 34 main_v135 main_v136 main_v137 main_v138 main_v139 main_v140 (f := (fun u => fn_main_v140 (F := Ideal) (u 0) (u 1) (u 2) (u 3) (u 4))) (e := rfl)
  have e_v141 := (win2 (F := Ideal) V0).reshape 35 main_v140 main_v141 (hn := shapeCasts_S5x207x1152_S5x207x72x16) (e := rfl)
  have e_v142 := (win2 (F := Ideal) V0).unary 36 main_v141 main_v142 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v143 := (win2 (F := Ideal) V0).reshape 37 main_v142 main_v143 (hn := shapeCasts_S16x207x72x5_S3312x360) (e := rfl)
  have e_v144 := (win2 (F := Ideal) V0).binary 38 main_v143 main_arg5 main_v144 (f := ((fun l r => Host.dotGeneral (F := Ideal) dot_S3312x360_S360x64_S3312x64_1_0_0_1_n_n none l r) : (⟨S3312x360, .f32⟩ : BufTy).Contents (Elt Ideal) → (⟨S360x64, .f32⟩ : BufTy).Contents (Elt Ideal) → (⟨S3312x64, .f32⟩ : BufTy).Contents (Elt Ideal))) (e := rfl)
  have e_v145 := (win2 (F := Ideal) V0).unary 39 main_arg6 main_v145 (f := (broadcastInDim S1x64 ![1] bcast_S64_S1x64_1 : (⟨S64, .f32⟩ : BufTy).Contents (Elt Ideal) → (⟨S1x64, .f32⟩ : BufTy).Contents (Elt Ideal))) (e := rfl)
  have e_v146 := (win2 (F := Ideal) V0).unary 40 main_v145 main_v146 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v147 := (win2 (F := Ideal) V0).binary 41 main_v144 main_v146 main_v147 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v148 := (win2 (F := Ideal) V0).reshape 42 main_v147 main_v148 (hn := shapeCasts_S3312x64_S16x13248) (e := rfl)
  have e_v149 := (win2 (F := Ideal) V0).unary 43 main_v148 main_v149 (f := (Host.tanh (F := Ideal) : (⟨S16x13248, .f32⟩ : BufTy).Contents (Elt Ideal) → (⟨S16x13248, .f32⟩ : BufTy).Contents (Elt Ideal))) (e := rfl)
  have e_v150 := (win2 (F := Ideal) V0).binary 44 main_v119 main_v77 main_v150 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_13 := (win2 (F := Ideal) V0).nullary 45 main_cst_13 (v := (constant (F := Ideal) S_ .f32 0x3F800000#32)) (e := rfl)
  have e_v151 := (win2 (F := Ideal) V0).unary 46 main_cst_13 main_v151 (f := (broadcastInDim S16x13248 ![] bcast_S_S16x13248 : (⟨S_, .f32⟩ : BufTy).Contents (Elt Ideal) → (⟨S16x13248, .f32⟩ : BufTy).Contents (Elt Ideal))) (e := rfl)
  have e_v152 := (win2 (F := Ideal) V0).binary 47 main_v151 main_v119 main_v152 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v153 := (win2 (F := Ideal) V0).binary 48 main_v152 main_v149 main_v153 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v154 := (win2 (F := Ideal) V0).binary 49 main_v150 main_v153 main_v154 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact encCell (W (Proc.devRef .tc main_v80)) (W (Proc.devRef .tc main_v77)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (W (Proc.devRef .tc main_v84)) (W (Proc.devRef .tc main_v85)) (W (Proc.devRef .tc main_v90)) (W (Proc.devRef .tc main_v124)) (W (Proc.devRef .tc main_v125)) (W (Proc.devRef .tc main_v130)) (W (Proc.devRef .tc main_v115)) (W (Proc.devRef .tc main_v119)) (W (Proc.devRef .tc main_v154))
    (by rw [e_v84, e_v83, e_v82, e_v81] <;> rfl)
    (by rw [e_v85, k_arg1] <;> rfl)
    (by rw [e_v90, k_arg2] <;> rfl)
    (by rw [e_v115, e_v114, e_v113, e_cst_10, e_v112, e_v111, e_cst_9, e_v110, e_v109, e_v108, e_v107, e_v106, e_v105, e_v104, e_v103, e_v102, e_v101, e_v100, e_v99, e_v98, e_v97, e_v96, e_v95, e_v94, e_v93, e_v92, e_cst_8, e_v91, e_v89, e_v88, e_v87, e_cst_7, e_v86, k_arg1, k_arg2, k_arg3, k_arg4] <;> rfl)
    (by rw [e_v119, e_v118] <;> rfl)
    (by rw [e_v124, e_v123, e_v122, e_v121, e_v120, e_v117, e_v116] <;> rfl)
    (by rw [e_v125, k_arg1] <;> rfl)
    (by rw [e_v130, k_arg2] <;> rfl)
    (by rw [e_v154, e_v153, e_v152, e_v151, e_cst_13, e_v150, e_v149, e_v148, e_v147, e_v146, e_v145, e_v144, e_v143, e_v142, e_v141, e_v140, e_v139, e_v138, e_v137, e_v136, e_v135, e_v134, e_v133, e_v132, e_cst_12, e_v131, e_v129, e_v128, e_v127, e_cst_11, e_v126, k_arg1, k_arg2, k_arg5, k_arg6] <;> rfl)
    X H hx hH

set_option maxRecDepth 8192 in
set_option maxHeartbeats 2000000 in
/-- A buffer's final contents as an explicit term of other buffers' (and of the arguments as launched): the equations of
    the operations that produce it, rewritten latest first. -/
theorem enc_x_1 (V0 : Valuation τ sig (Elt Ideal)) :
    (after (ops (F := Ideal)) V0 (Proc.devRef .tc main_v80)) = shapeCast S16x207x8 (shapeCast S16x1656 (extractStridedSlice S1x16x1656 ![1, 0, 0] (V0 (Proc.devRef .tc main_arg0)) slices_S8x16x1656_S1x16x1656_1_0_0) shapeCasts_S1x16x1656_S16x1656) shapeCasts_S16x1656_S16x207x8 := by
  have k_arg0 := arg_keep (F := Ideal) V0 main_arg0 (by decide)
  have e_v78 := (win1 (F := Ideal) V0).unary 26 main_arg0 main_v78 (f := ((extractStridedSlice S1x16x1656 ![1, 0, 0] · slices_S8x16x1656_S1x16x1656_1_0_0) : (⟨S8x16x1656, .f32⟩ : BufTy).Contents (Elt Ideal) → (⟨S1x16x1656, .f32⟩ : BufTy).Contents (Elt Ideal))) (e := rfl)
  have e_v79 := (win1 (F := Ideal) V0).reshape 27 main_v78 main_v79 (hn := shapeCasts_S1x16x1656_S16x1656) (e := rfl)
  have e_v80 := (win1 (F := Ideal) V0).reshape 28 main_v79 main_v80 (hn := shapeCasts_S16x1656_S16x207x8) (e := rfl)
  generalize after (ops (F := Ideal)) V0 = W at *
  rw [e_v80, e_v79, e_v78, k_arg0] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem enc_step_2 (V0 : Valuation τ sig (Elt Ideal)) (X : Cert.Spec.Arr3 8) (H : Cert.Spec.Arr3 64)
    (hx : toArr3 (d := 8) (after (ops (F := Ideal)) V0 (Proc.devRef .tc main_v157)) = X) (hH : hFlat (after (ops (F := Ideal)) V0 (Proc.devRef .tc main_v154)) = H) :
    hFlat (after (ops (F := Ideal)) V0 (Proc.devRef .tc main_v231)) = Cert.Spec.cell X H (toMat (V0 (Proc.devRef .tc main_arg1))) (toMat (V0 (Proc.devRef .tc main_arg2))) (toMat (V0 (Proc.devRef .tc main_arg3))) (toVec (V0 (Proc.devRef .tc main_arg4))) (toMat (V0 (Proc.devRef .tc main_arg5))) (toVec (V0 (Proc.devRef .tc main_arg6))) := by
  have k_arg1 := arg_keep (F := Ideal) V0 main_arg1 (by decide)
  have k_arg2 := arg_keep (F := Ideal) V0 main_arg2 (by decide)
  have k_arg3 := arg_keep (F := Ideal) V0 main_arg3 (by decide)
  have k_arg4 := arg_keep (F := Ideal) V0 main_arg4 (by decide)
  have k_arg5 := arg_keep (F := Ideal) V0 main_arg5 (by decide)
  have k_arg6 := arg_keep (F := Ideal) V0 main_arg6 (by decide)
  have e_v158 := (win2 (F := Ideal) V0).reshape 53 main_v154 main_v158 (hn := shapeCasts_S16x13248_S16x207x64) (e := rfl)
  have e_v159 := (win2 (F := Ideal) V0).binary 54 main_v157 main_v158 main_v159 (f := (fn_main_v159 (F := Ideal))) (e := rfl)
  have e_v160 := (win2 (F := Ideal) V0).unary 55 main_v159 main_v160 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v161 := (win2 (F := Ideal) V0).reshape 56 main_v160 main_v161 (hn := shapeCasts_S207x72x16_S207x1152) (e := rfl)
  have e_v162 := (win2 (F := Ideal) V0).binary 57 main_arg1 main_v161 main_v162 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v163 := (win2 (F := Ideal) V0).binary 58 main_arg1 main_v162 main_v163 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_14 := (win2 (F := Ideal) V0).nullary 59 main_cst_14 (v := (constant (F := Ideal) S_ .f32 0x40000000#32)) (e := rfl)
  have e_v164 := (win3 (F := Ideal) V0).unary 0 main_cst_14 main_v164 (f := (broadcastInDim S207x1152 ![] bcast_S_S207x1152 : (⟨S_, .f32⟩ : BufTy).Contents (Elt Ideal) → (⟨S207x1152, .f32⟩ : BufTy).Contents (Elt Ideal))) (e := rfl)
  have e_v165 := (win3 (F := Ideal) V0).binary 1 main_v164 main_v163 main_v165 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v166 := (win3 (F := Ideal) V0).binary 2 main_v165 main_v161 main_v166 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v167 := (win3 (F := Ideal) V0).binary 3 main_arg2 main_v161 main_v167 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v168 := (win3 (F := Ideal) V0).binary 4 main_arg2 main_v167 main_v168 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_15 := (win3 (F := Ideal) V0).nullary 5 main_cst_15 (v := (constant (F := Ideal) S_ .f32 0x40000000#32)) (e := rfl)
  have e_v169 := (win3 (F := Ideal) V0).unary 6 main_cst_15 main_v169 (f := (broadcastInDim S207x1152 ![] bcast_S_S207x1152 : (⟨S_, .f32⟩ : BufTy).Contents (Elt Ideal) → (⟨S207x1152, .f32⟩ : BufTy).Contents (Elt Ideal))) (e := rfl)
  have e_v170 := (win3 (F := Ideal) V0).binary 7 main_v169 main_v168 main_v170 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v171 := (win3 (F := Ideal) V0).binary 8 main_v170 main_v161 main_v171 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v172 := (win3 (F := Ideal) V0).unary 9 main_v161 main_v172 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v173 := (win3 (F := Ideal) V0).unary 10 main_v162 main_v173 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v174 := (win3 (F := Ideal) V0).unary 11 main_v166 main_v174 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v175 := (win3 (F := Ideal) V0).unary 12 main_v167 main_v175 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v176 := (win3 (F := Ideal) V0).unary 13 main_v171 main_v176 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v177 := (win3 (F := Ideal) V0).nary5 14 main_v172 main_v173 main_v174 main_v175 main_v176 main_v177 (f := (fun u => fn_main_v177 (F := Ideal) (u 0) (u 1) (u 2) (u 3) (u 4))) (e := rfl)
  have e_v178 := (win3 (F := Ideal) V0).reshape 15 main_v177 main_v178 (hn := shapeCasts_S5x207x1152_S5x207x72x16) (e := rfl)
  have e_v179 := (win3 (F := Ideal) V0).unary 16 main_v178 main_v179 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v180 := (win3 (F := Ideal) V0).reshape 17 main_v179 main_v180 (hn := shapeCasts_S16x207x72x5_S3312x360) (e := rfl)
  have e_v181 := (win3 (F := Ideal) V0).binary 18 main_v180 main_arg3 main_v181 (f := ((fun l r => Host.dotGeneral (F := Ideal) dot_S3312x360_S360x128_S3312x128_1_0_0_1_n_n none l r) : (⟨S3312x360, .f32⟩ : BufTy).Contents (Elt Ideal) → (⟨S360x128, .f32⟩ : BufTy).Contents (Elt Ideal) → (⟨S3312x128, .f32⟩ : BufTy).Contents (Elt Ideal))) (e := rfl)
  have e_v182 := (win3 (F := Ideal) V0).unary 19 main_arg4 main_v182 (f := (broadcastInDim S1x128 ![1] bcast_S128_S1x128_1 : (⟨S128, .f32⟩ : BufTy).Contents (Elt Ideal) → (⟨S1x128, .f32⟩ : BufTy).Contents (Elt Ideal))) (e := rfl)
  have e_v183 := (win3 (F := Ideal) V0).unary 20 main_v182 main_v183 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v184 := (win3 (F := Ideal) V0).binary 21 main_v181 main_v183 main_v184 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v185 := (win3 (F := Ideal) V0).reshape 22 main_v184 main_v185 (hn := shapeCasts_S3312x128_S16x26496) (e := rfl)
  have e_v186 := (win3 (F := Ideal) V0).unary 23 main_v185 main_v186 (f := (Host.negf (F := Ideal) : (⟨S16x26496, .f32⟩ : BufTy).Contents (Elt Ideal) → (⟨S16x26496, .f32⟩ : BufTy).Contents (Elt Ideal))) (e := rfl)
  have e_v187 := (win3 (F := Ideal) V0).unary 24 main_v186 main_v187 (f := (Host.exp (F := Ideal) : (⟨S16x26496, .f32⟩ : BufTy).Contents (Elt Ideal) → (⟨S16x26496, .f32⟩ : BufTy).Contents (Elt Ideal))) (e := rfl)
  have e_cst_16 := (win3 (F := Ideal) V0).nullary 25 main_cst_16 (v := (constant (F := Ideal) S_ .f32 0x3F800000#32)) (e := rfl)
  have e_v188 := (win3 (F := Ideal) V0).unary 26 main_cst_16 main_v188 (f := (broadcastInDim S16x26496 ![] bcast_S_S16x26496 : (⟨S_, .f32⟩ : BufTy).Contents (Elt Ideal) → (⟨S16x26496, .f32⟩ : BufTy).Contents (Elt Ideal))) (e := rfl)
  have e_v189 := (win3 (F := Ideal) V0).binary 27 main_v188 main_v187 main_v189 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_17 := (win3 (F := Ideal) V0).nullary 28 main_cst_17 (v := (constant (F := Ideal) S_ .f32 0x3F800000#32)) (e := rfl)
  have e_v190 := (win3 (F := Ideal) V0).unary 29 main_cst_17 main_v190 (f := (broadcastInDim S16x26496 ![] bcast_S_S16x26496 : (⟨S_, .f32⟩ : BufTy).Contents (Elt Ideal) → (⟨S16x26496, .f32⟩ : BufTy).Contents (Elt Ideal))) (e := rfl)
  have e_v191 := (win3 (F := Ideal) V0).binary 30 main_v190 main_v189 main_v191 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v192 := (win3 (F := Ideal) V0).reshape 31 main_v191 main_v192 (hn := shapeCasts_S16x26496_S16x207x128) (e := rfl)
  have e_v193 := (win3 (F := Ideal) V0).unary 32 main_v192 main_v193 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v194 := (win3 (F := Ideal) V0).reshape 33 main_v193 main_v194 (hn := shapeCasts_S16x207x64_S16x13248) (e := rfl)
  have e_v195 := (win3 (F := Ideal) V0).unary 34 main_v192 main_v195 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v196 := (win3 (F := Ideal) V0).reshape 35 main_v195 main_v196 (hn := shapeCasts_S16x207x64_S16x13248) (e := rfl)
  have e_v197 := (win3 (F := Ideal) V0).binary 36 main_v194 main_v154 main_v197 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v198 := (win3 (F := Ideal) V0).reshape 37 main_v197 main_v198 (hn := shapeCasts_S16x13248_S16x207x64) (e := rfl)
  have e_v199 := (win3 (F := Ideal) V0).binary 38 main_v157 main_v198 main_v199 (f := (fn_main_v199 (F := Ideal))) (e := rfl)
  have e_v200 := (win3 (F := Ideal) V0).unary 39 main_v199 main_v200 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v201 := (win3 (F := Ideal) V0).reshape 40 main_v200 main_v201 (hn := shapeCasts_S207x72x16_S207x1152) (e := rfl)
  have e_v202 := (win3 (F := Ideal) V0).binary 41 main_arg1 main_v201 main_v202 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v203 := (win3 (F := Ideal) V0).binary 42 main_arg1 main_v202 main_v203 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_18 := (win3 (F := Ideal) V0).nullary 43 main_cst_18 (v := (constant (F := Ideal) S_ .f32 0x40000000#32)) (e := rfl)
  have e_v204 := (win3 (F := Ideal) V0).unary 44 main_cst_18 main_v204 (f := (broadcastInDim S207x1152 ![] bcast_S_S207x1152 : (⟨S_, .f32⟩ : BufTy).Contents (Elt Ideal) → (⟨S207x1152, .f32⟩ : BufTy).Contents (Elt Ideal))) (e := rfl)
  have e_v205 := (win3 (F := Ideal) V0).binary 45 main_v204 main_v203 main_v205 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v206 := (win3 (F := Ideal) V0).binary 46 main_v205 main_v201 main_v206 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v207 := (win3 (F := Ideal) V0).binary 47 main_arg2 main_v201 main_v207 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v208 := (win3 (F := Ideal) V0).binary 48 main_arg2 main_v207 main_v208 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_19 := (win3 (F := Ideal) V0).nullary 49 main_cst_19 (v := (constant (F := Ideal) S_ .f32 0x40000000#32)) (e := rfl)
  have e_v209 := (win3 (F := Ideal) V0).unary 50 main_cst_19 main_v209 (f := (broadcastInDim S207x1152 ![] bcast_S_S207x1152 : (⟨S_, .f32⟩ : BufTy).Contents (Elt Ideal) → (⟨S207x1152, .f32⟩ : BufTy).Contents (Elt Ideal))) (e := rfl)
  have e_v210 := (win3 (F := Ideal) V0).binary 51 main_v209 main_v208 main_v210 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v211 := (win3 (F := Ideal) V0).binary 52 main_v210 main_v201 main_v211 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v212 := (win3 (F := Ideal) V0).unary 53 main_v201 main_v212 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v213 := (win3 (F := Ideal) V0).unary 54 main_v202 main_v213 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v214 := (win3 (F := Ideal) V0).unary 55 main_v206 main_v214 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v215 := (win3 (F := Ideal) V0).unary 56 main_v207 main_v215 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v216 := (win3 (F := Ideal) V0).unary 57 main_v211 main_v216 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v217 := (win3 (F := Ideal) V0).nary5 58 main_v212 main_v213 main_v214 main_v215 main_v216 main_v217 (f := (fun u => fn_main_v217 (F := Ideal) (u 0) (u 1) (u 2) (u 3) (u 4))) (e := rfl)
  have e_v218 := (win3 (F := Ideal) V0).reshape 59 main_v217 main_v218 (hn := shapeCasts_S5x207x1152_S5x207x72x16) (e := rfl)
  have e_v219 := (win4 (F := Ideal) V0).unary 0 main_v218 main_v219 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v220 := (win4 (F := Ideal) V0).reshape 1 main_v219 main_v220 (hn := shapeCasts_S16x207x72x5_S3312x360) (e := rfl)
  have e_v221 := (win4 (F := Ideal) V0).binary 2 main_v220 main_arg5 main_v221 (f := ((fun l r => Host.dotGeneral (F := Ideal) dot_S3312x360_S360x64_S3312x64_1_0_0_1_n_n none l r) : (⟨S3312x360, .f32⟩ : BufTy).Contents (Elt Ideal) → (⟨S360x64, .f32⟩ : BufTy).Contents (Elt Ideal) → (⟨S3312x64, .f32⟩ : BufTy).Contents (Elt Ideal))) (e := rfl)
  have e_v222 := (win4 (F := Ideal) V0).unary 3 main_arg6 main_v222 (f := (broadcastInDim S1x64 ![1] bcast_S64_S1x64_1 : (⟨S64, .f32⟩ : BufTy).Contents (Elt Ideal) → (⟨S1x64, .f32⟩ : BufTy).Contents (Elt Ideal))) (e := rfl)
  have e_v223 := (win4 (F := Ideal) V0).unary 4 main_v222 main_v223 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v224 := (win4 (F := Ideal) V0).binary 5 main_v221 main_v223 main_v224 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v225 := (win4 (F := Ideal) V0).reshape 6 main_v224 main_v225 (hn := shapeCasts_S3312x64_S16x13248) (e := rfl)
  have e_v226 := (win4 (F := Ideal) V0).unary 7 main_v225 main_v226 (f := (Host.tanh (F := Ideal) : (⟨S16x13248, .f32⟩ : BufTy).Contents (Elt Ideal) → (⟨S16x13248, .f32⟩ : BufTy).Contents (Elt Ideal))) (e := rfl)
  have e_v227 := (win4 (F := Ideal) V0).binary 8 main_v196 main_v154 main_v227 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_20 := (win4 (F := Ideal) V0).nullary 9 main_cst_20 (v := (constant (F := Ideal) S_ .f32 0x3F800000#32)) (e := rfl)
  have e_v228 := (win4 (F := Ideal) V0).unary 10 main_cst_20 main_v228 (f := (broadcastInDim S16x13248 ![] bcast_S_S16x13248 : (⟨S_, .f32⟩ : BufTy).Contents (Elt Ideal) → (⟨S16x13248, .f32⟩ : BufTy).Contents (Elt Ideal))) (e := rfl)
  have e_v229 := (win4 (F := Ideal) V0).binary 11 main_v228 main_v196 main_v229 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v230 := (win4 (F := Ideal) V0).binary 12 main_v229 main_v226 main_v230 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v231 := (win4 (F := Ideal) V0).binary 13 main_v227 main_v230 main_v231 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact encCell (W (Proc.devRef .tc main_v157)) (W (Proc.devRef .tc main_v154)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (W (Proc.devRef .tc main_v161)) (W (Proc.devRef .tc main_v162)) (W (Proc.devRef .tc main_v167)) (W (Proc.devRef .tc main_v201)) (W (Proc.devRef .tc main_v202)) (W (Proc.devRef .tc main_v207)) (W (Proc.devRef .tc main_v192)) (W (Proc.devRef .tc main_v196)) (W (Proc.devRef .tc main_v231))
    (by rw [e_v161, e_v160, e_v159, e_v158] <;> rfl)
    (by rw [e_v162, k_arg1] <;> rfl)
    (by rw [e_v167, k_arg2] <;> rfl)
    (by rw [e_v192, e_v191, e_v190, e_cst_17, e_v189, e_v188, e_cst_16, e_v187, e_v186, e_v185, e_v184, e_v183, e_v182, e_v181, e_v180, e_v179, e_v178, e_v177, e_v176, e_v175, e_v174, e_v173, e_v172, e_v171, e_v170, e_v169, e_cst_15, e_v168, e_v166, e_v165, e_v164, e_cst_14, e_v163, k_arg1, k_arg2, k_arg3, k_arg4] <;> rfl)
    (by rw [e_v196, e_v195] <;> rfl)
    (by rw [e_v201, e_v200, e_v199, e_v198, e_v197, e_v194, e_v193] <;> rfl)
    (by rw [e_v202, k_arg1] <;> rfl)
    (by rw [e_v207, k_arg2] <;> rfl)
    (by rw [e_v231, e_v230, e_v229, e_v228, e_cst_20, e_v227, e_v226, e_v225, e_v224, e_v223, e_v222, e_v221, e_v220, e_v219, e_v218, e_v217, e_v216, e_v215, e_v214, e_v213, e_v212, e_v211, e_v210, e_v209, e_cst_19, e_v208, e_v206, e_v205, e_v204, e_cst_18, e_v203, k_arg1, k_arg2, k_arg5, k_arg6] <;> rfl)
    X H hx hH

set_option maxRecDepth 8192 in
set_option maxHeartbeats 2000000 in
/-- A buffer's final contents as an explicit term of other buffers' (and of the arguments as launched): the equations of
    the operations that produce it, rewritten latest first. -/
theorem enc_x_2 (V0 : Valuation τ sig (Elt Ideal)) :
    (after (ops (F := Ideal)) V0 (Proc.devRef .tc main_v157)) = shapeCast S16x207x8 (shapeCast S16x1656 (extractStridedSlice S1x16x1656 ![2, 0, 0] (V0 (Proc.devRef .tc main_arg0)) slices_S8x16x1656_S1x16x1656_2_0_0) shapeCasts_S1x16x1656_S16x1656) shapeCasts_S16x1656_S16x207x8 := by
  have k_arg0 := arg_keep (F := Ideal) V0 main_arg0 (by decide)
  have e_v155 := (win2 (F := Ideal) V0).unary 50 main_arg0 main_v155 (f := ((extractStridedSlice S1x16x1656 ![2, 0, 0] · slices_S8x16x1656_S1x16x1656_2_0_0) : (⟨S8x16x1656, .f32⟩ : BufTy).Contents (Elt Ideal) → (⟨S1x16x1656, .f32⟩ : BufTy).Contents (Elt Ideal))) (e := rfl)
  have e_v156 := (win2 (F := Ideal) V0).reshape 51 main_v155 main_v156 (hn := shapeCasts_S1x16x1656_S16x1656) (e := rfl)
  have e_v157 := (win2 (F := Ideal) V0).reshape 52 main_v156 main_v157 (hn := shapeCasts_S16x1656_S16x207x8) (e := rfl)
  generalize after (ops (F := Ideal)) V0 = W at *
  rw [e_v157, e_v156, e_v155, k_arg0] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem enc_step_3 (V0 : Valuation τ sig (Elt Ideal)) (X : Cert.Spec.Arr3 8) (H : Cert.Spec.Arr3 64)
    (hx : toArr3 (d := 8) (after (ops (F := Ideal)) V0 (Proc.devRef .tc main_v234)) = X) (hH : hFlat (after (ops (F := Ideal)) V0 (Proc.devRef .tc main_v231)) = H) :
    hFlat (after (ops (F := Ideal)) V0 (Proc.devRef .tc main_v308)) = Cert.Spec.cell X H (toMat (V0 (Proc.devRef .tc main_arg1))) (toMat (V0 (Proc.devRef .tc main_arg2))) (toMat (V0 (Proc.devRef .tc main_arg3))) (toVec (V0 (Proc.devRef .tc main_arg4))) (toMat (V0 (Proc.devRef .tc main_arg5))) (toVec (V0 (Proc.devRef .tc main_arg6))) := by
  have k_arg1 := arg_keep (F := Ideal) V0 main_arg1 (by decide)
  have k_arg2 := arg_keep (F := Ideal) V0 main_arg2 (by decide)
  have k_arg3 := arg_keep (F := Ideal) V0 main_arg3 (by decide)
  have k_arg4 := arg_keep (F := Ideal) V0 main_arg4 (by decide)
  have k_arg5 := arg_keep (F := Ideal) V0 main_arg5 (by decide)
  have k_arg6 := arg_keep (F := Ideal) V0 main_arg6 (by decide)
  have e_v235 := (win4 (F := Ideal) V0).reshape 17 main_v231 main_v235 (hn := shapeCasts_S16x13248_S16x207x64) (e := rfl)
  have e_v236 := (win4 (F := Ideal) V0).binary 18 main_v234 main_v235 main_v236 (f := (fn_main_v236 (F := Ideal))) (e := rfl)
  have e_v237 := (win4 (F := Ideal) V0).unary 19 main_v236 main_v237 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v238 := (win4 (F := Ideal) V0).reshape 20 main_v237 main_v238 (hn := shapeCasts_S207x72x16_S207x1152) (e := rfl)
  have e_v239 := (win4 (F := Ideal) V0).binary 21 main_arg1 main_v238 main_v239 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v240 := (win4 (F := Ideal) V0).binary 22 main_arg1 main_v239 main_v240 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_21 := (win4 (F := Ideal) V0).nullary 23 main_cst_21 (v := (constant (F := Ideal) S_ .f32 0x40000000#32)) (e := rfl)
  have e_v241 := (win4 (F := Ideal) V0).unary 24 main_cst_21 main_v241 (f := (broadcastInDim S207x1152 ![] bcast_S_S207x1152 : (⟨S_, .f32⟩ : BufTy).Contents (Elt Ideal) → (⟨S207x1152, .f32⟩ : BufTy).Contents (Elt Ideal))) (e := rfl)
  have e_v242 := (win4 (F := Ideal) V0).binary 25 main_v241 main_v240 main_v242 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v243 := (win4 (F := Ideal) V0).binary 26 main_v242 main_v238 main_v243 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v244 := (win4 (F := Ideal) V0).binary 27 main_arg2 main_v238 main_v244 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v245 := (win4 (F := Ideal) V0).binary 28 main_arg2 main_v244 main_v245 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_22 := (win4 (F := Ideal) V0).nullary 29 main_cst_22 (v := (constant (F := Ideal) S_ .f32 0x40000000#32)) (e := rfl)
  have e_v246 := (win4 (F := Ideal) V0).unary 30 main_cst_22 main_v246 (f := (broadcastInDim S207x1152 ![] bcast_S_S207x1152 : (⟨S_, .f32⟩ : BufTy).Contents (Elt Ideal) → (⟨S207x1152, .f32⟩ : BufTy).Contents (Elt Ideal))) (e := rfl)
  have e_v247 := (win4 (F := Ideal) V0).binary 31 main_v246 main_v245 main_v247 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v248 := (win4 (F := Ideal) V0).binary 32 main_v247 main_v238 main_v248 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v249 := (win4 (F := Ideal) V0).unary 33 main_v238 main_v249 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v250 := (win4 (F := Ideal) V0).unary 34 main_v239 main_v250 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v251 := (win4 (F := Ideal) V0).unary 35 main_v243 main_v251 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v252 := (win4 (F := Ideal) V0).unary 36 main_v244 main_v252 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v253 := (win4 (F := Ideal) V0).unary 37 main_v248 main_v253 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v254 := (win4 (F := Ideal) V0).nary5 38 main_v249 main_v250 main_v251 main_v252 main_v253 main_v254 (f := (fun u => fn_main_v254 (F := Ideal) (u 0) (u 1) (u 2) (u 3) (u 4))) (e := rfl)
  have e_v255 := (win4 (F := Ideal) V0).reshape 39 main_v254 main_v255 (hn := shapeCasts_S5x207x1152_S5x207x72x16) (e := rfl)
  have e_v256 := (win4 (F := Ideal) V0).unary 40 main_v255 main_v256 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v257 := (win4 (F := Ideal) V0).reshape 41 main_v256 main_v257 (hn := shapeCasts_S16x207x72x5_S3312x360) (e := rfl)
  have e_v258 := (win4 (F := Ideal) V0).binary 42 main_v257 main_arg3 main_v258 (f := ((fun l r => Host.dotGeneral (F := Ideal) dot_S3312x360_S360x128_S3312x128_1_0_0_1_n_n none l r) : (⟨S3312x360, .f32⟩ : BufTy).Contents (Elt Ideal) → (⟨S360x128, .f32⟩ : BufTy).Contents (Elt Ideal) → (⟨S3312x128, .f32⟩ : BufTy).Contents (Elt Ideal))) (e := rfl)
  have e_v259 := (win4 (F := Ideal) V0).unary 43 main_arg4 main_v259 (f := (broadcastInDim S1x128 ![1] bcast_S128_S1x128_1 : (⟨S128, .f32⟩ : BufTy).Contents (Elt Ideal) → (⟨S1x128, .f32⟩ : BufTy).Contents (Elt Ideal))) (e := rfl)
  have e_v260 := (win4 (F := Ideal) V0).unary 44 main_v259 main_v260 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v261 := (win4 (F := Ideal) V0).binary 45 main_v258 main_v260 main_v261 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v262 := (win4 (F := Ideal) V0).reshape 46 main_v261 main_v262 (hn := shapeCasts_S3312x128_S16x26496) (e := rfl)
  have e_v263 := (win4 (F := Ideal) V0).unary 47 main_v262 main_v263 (f := (Host.negf (F := Ideal) : (⟨S16x26496, .f32⟩ : BufTy).Contents (Elt Ideal) → (⟨S16x26496, .f32⟩ : BufTy).Contents (Elt Ideal))) (e := rfl)
  have e_v264 := (win4 (F := Ideal) V0).unary 48 main_v263 main_v264 (f := (Host.exp (F := Ideal) : (⟨S16x26496, .f32⟩ : BufTy).Contents (Elt Ideal) → (⟨S16x26496, .f32⟩ : BufTy).Contents (Elt Ideal))) (e := rfl)
  have e_cst_23 := (win4 (F := Ideal) V0).nullary 49 main_cst_23 (v := (constant (F := Ideal) S_ .f32 0x3F800000#32)) (e := rfl)
  have e_v265 := (win4 (F := Ideal) V0).unary 50 main_cst_23 main_v265 (f := (broadcastInDim S16x26496 ![] bcast_S_S16x26496 : (⟨S_, .f32⟩ : BufTy).Contents (Elt Ideal) → (⟨S16x26496, .f32⟩ : BufTy).Contents (Elt Ideal))) (e := rfl)
  have e_v266 := (win4 (F := Ideal) V0).binary 51 main_v265 main_v264 main_v266 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_24 := (win4 (F := Ideal) V0).nullary 52 main_cst_24 (v := (constant (F := Ideal) S_ .f32 0x3F800000#32)) (e := rfl)
  have e_v267 := (win4 (F := Ideal) V0).unary 53 main_cst_24 main_v267 (f := (broadcastInDim S16x26496 ![] bcast_S_S16x26496 : (⟨S_, .f32⟩ : BufTy).Contents (Elt Ideal) → (⟨S16x26496, .f32⟩ : BufTy).Contents (Elt Ideal))) (e := rfl)
  have e_v268 := (win4 (F := Ideal) V0).binary 54 main_v267 main_v266 main_v268 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v269 := (win4 (F := Ideal) V0).reshape 55 main_v268 main_v269 (hn := shapeCasts_S16x26496_S16x207x128) (e := rfl)
  have e_v270 := (win4 (F := Ideal) V0).unary 56 main_v269 main_v270 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v271 := (win4 (F := Ideal) V0).reshape 57 main_v270 main_v271 (hn := shapeCasts_S16x207x64_S16x13248) (e := rfl)
  have e_v272 := (win4 (F := Ideal) V0).unary 58 main_v269 main_v272 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v273 := (win4 (F := Ideal) V0).reshape 59 main_v272 main_v273 (hn := shapeCasts_S16x207x64_S16x13248) (e := rfl)
  have e_v274 := (win5 (F := Ideal) V0).binary 0 main_v271 main_v231 main_v274 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v275 := (win5 (F := Ideal) V0).reshape 1 main_v274 main_v275 (hn := shapeCasts_S16x13248_S16x207x64) (e := rfl)
  have e_v276 := (win5 (F := Ideal) V0).binary 2 main_v234 main_v275 main_v276 (f := (fn_main_v276 (F := Ideal))) (e := rfl)
  have e_v277 := (win5 (F := Ideal) V0).unary 3 main_v276 main_v277 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v278 := (win5 (F := Ideal) V0).reshape 4 main_v277 main_v278 (hn := shapeCasts_S207x72x16_S207x1152) (e := rfl)
  have e_v279 := (win5 (F := Ideal) V0).binary 5 main_arg1 main_v278 main_v279 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v280 := (win5 (F := Ideal) V0).binary 6 main_arg1 main_v279 main_v280 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_25 := (win5 (F := Ideal) V0).nullary 7 main_cst_25 (v := (constant (F := Ideal) S_ .f32 0x40000000#32)) (e := rfl)
  have e_v281 := (win5 (F := Ideal) V0).unary 8 main_cst_25 main_v281 (f := (broadcastInDim S207x1152 ![] bcast_S_S207x1152 : (⟨S_, .f32⟩ : BufTy).Contents (Elt Ideal) → (⟨S207x1152, .f32⟩ : BufTy).Contents (Elt Ideal))) (e := rfl)
  have e_v282 := (win5 (F := Ideal) V0).binary 9 main_v281 main_v280 main_v282 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v283 := (win5 (F := Ideal) V0).binary 10 main_v282 main_v278 main_v283 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v284 := (win5 (F := Ideal) V0).binary 11 main_arg2 main_v278 main_v284 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v285 := (win5 (F := Ideal) V0).binary 12 main_arg2 main_v284 main_v285 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_26 := (win5 (F := Ideal) V0).nullary 13 main_cst_26 (v := (constant (F := Ideal) S_ .f32 0x40000000#32)) (e := rfl)
  have e_v286 := (win5 (F := Ideal) V0).unary 14 main_cst_26 main_v286 (f := (broadcastInDim S207x1152 ![] bcast_S_S207x1152 : (⟨S_, .f32⟩ : BufTy).Contents (Elt Ideal) → (⟨S207x1152, .f32⟩ : BufTy).Contents (Elt Ideal))) (e := rfl)
  have e_v287 := (win5 (F := Ideal) V0).binary 15 main_v286 main_v285 main_v287 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v288 := (win5 (F := Ideal) V0).binary 16 main_v287 main_v278 main_v288 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v289 := (win5 (F := Ideal) V0).unary 17 main_v278 main_v289 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v290 := (win5 (F := Ideal) V0).unary 18 main_v279 main_v290 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v291 := (win5 (F := Ideal) V0).unary 19 main_v283 main_v291 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v292 := (win5 (F := Ideal) V0).unary 20 main_v284 main_v292 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v293 := (win5 (F := Ideal) V0).unary 21 main_v288 main_v293 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v294 := (win5 (F := Ideal) V0).nary5 22 main_v289 main_v290 main_v291 main_v292 main_v293 main_v294 (f := (fun u => fn_main_v294 (F := Ideal) (u 0) (u 1) (u 2) (u 3) (u 4))) (e := rfl)
  have e_v295 := (win5 (F := Ideal) V0).reshape 23 main_v294 main_v295 (hn := shapeCasts_S5x207x1152_S5x207x72x16) (e := rfl)
  have e_v296 := (win5 (F := Ideal) V0).unary 24 main_v295 main_v296 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v297 := (win5 (F := Ideal) V0).reshape 25 main_v296 main_v297 (hn := shapeCasts_S16x207x72x5_S3312x360) (e := rfl)
  have e_v298 := (win5 (F := Ideal) V0).binary 26 main_v297 main_arg5 main_v298 (f := ((fun l r => Host.dotGeneral (F := Ideal) dot_S3312x360_S360x64_S3312x64_1_0_0_1_n_n none l r) : (⟨S3312x360, .f32⟩ : BufTy).Contents (Elt Ideal) → (⟨S360x64, .f32⟩ : BufTy).Contents (Elt Ideal) → (⟨S3312x64, .f32⟩ : BufTy).Contents (Elt Ideal))) (e := rfl)
  have e_v299 := (win5 (F := Ideal) V0).unary 27 main_arg6 main_v299 (f := (broadcastInDim S1x64 ![1] bcast_S64_S1x64_1 : (⟨S64, .f32⟩ : BufTy).Contents (Elt Ideal) → (⟨S1x64, .f32⟩ : BufTy).Contents (Elt Ideal))) (e := rfl)
  have e_v300 := (win5 (F := Ideal) V0).unary 28 main_v299 main_v300 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v301 := (win5 (F := Ideal) V0).binary 29 main_v298 main_v300 main_v301 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v302 := (win5 (F := Ideal) V0).reshape 30 main_v301 main_v302 (hn := shapeCasts_S3312x64_S16x13248) (e := rfl)
  have e_v303 := (win5 (F := Ideal) V0).unary 31 main_v302 main_v303 (f := (Host.tanh (F := Ideal) : (⟨S16x13248, .f32⟩ : BufTy).Contents (Elt Ideal) → (⟨S16x13248, .f32⟩ : BufTy).Contents (Elt Ideal))) (e := rfl)
  have e_v304 := (win5 (F := Ideal) V0).binary 32 main_v273 main_v231 main_v304 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_27 := (win5 (F := Ideal) V0).nullary 33 main_cst_27 (v := (constant (F := Ideal) S_ .f32 0x3F800000#32)) (e := rfl)
  have e_v305 := (win5 (F := Ideal) V0).unary 34 main_cst_27 main_v305 (f := (broadcastInDim S16x13248 ![] bcast_S_S16x13248 : (⟨S_, .f32⟩ : BufTy).Contents (Elt Ideal) → (⟨S16x13248, .f32⟩ : BufTy).Contents (Elt Ideal))) (e := rfl)
  have e_v306 := (win5 (F := Ideal) V0).binary 35 main_v305 main_v273 main_v306 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v307 := (win5 (F := Ideal) V0).binary 36 main_v306 main_v303 main_v307 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v308 := (win5 (F := Ideal) V0).binary 37 main_v304 main_v307 main_v308 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact encCell (W (Proc.devRef .tc main_v234)) (W (Proc.devRef .tc main_v231)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (W (Proc.devRef .tc main_v238)) (W (Proc.devRef .tc main_v239)) (W (Proc.devRef .tc main_v244)) (W (Proc.devRef .tc main_v278)) (W (Proc.devRef .tc main_v279)) (W (Proc.devRef .tc main_v284)) (W (Proc.devRef .tc main_v269)) (W (Proc.devRef .tc main_v273)) (W (Proc.devRef .tc main_v308))
    (by rw [e_v238, e_v237, e_v236, e_v235] <;> rfl)
    (by rw [e_v239, k_arg1] <;> rfl)
    (by rw [e_v244, k_arg2] <;> rfl)
    (by rw [e_v269, e_v268, e_v267, e_cst_24, e_v266, e_v265, e_cst_23, e_v264, e_v263, e_v262, e_v261, e_v260, e_v259, e_v258, e_v257, e_v256, e_v255, e_v254, e_v253, e_v252, e_v251, e_v250, e_v249, e_v248, e_v247, e_v246, e_cst_22, e_v245, e_v243, e_v242, e_v241, e_cst_21, e_v240, k_arg1, k_arg2, k_arg3, k_arg4] <;> rfl)
    (by rw [e_v273, e_v272] <;> rfl)
    (by rw [e_v278, e_v277, e_v276, e_v275, e_v274, e_v271, e_v270] <;> rfl)
    (by rw [e_v279, k_arg1] <;> rfl)
    (by rw [e_v284, k_arg2] <;> rfl)
    (by rw [e_v308, e_v307, e_v306, e_v305, e_cst_27, e_v304, e_v303, e_v302, e_v301, e_v300, e_v299, e_v298, e_v297, e_v296, e_v295, e_v294, e_v293, e_v292, e_v291, e_v290, e_v289, e_v288, e_v287, e_v286, e_cst_26, e_v285, e_v283, e_v282, e_v281, e_cst_25, e_v280, k_arg1, k_arg2, k_arg5, k_arg6] <;> rfl)
    X H hx hH

set_option maxRecDepth 8192 in
set_option maxHeartbeats 2000000 in
/-- A buffer's final contents as an explicit term of other buffers' (and of the arguments as launched): the equations of
    the operations that produce it, rewritten latest first. -/
theorem enc_x_3 (V0 : Valuation τ sig (Elt Ideal)) :
    (after (ops (F := Ideal)) V0 (Proc.devRef .tc main_v234)) = shapeCast S16x207x8 (shapeCast S16x1656 (extractStridedSlice S1x16x1656 ![3, 0, 0] (V0 (Proc.devRef .tc main_arg0)) slices_S8x16x1656_S1x16x1656_3_0_0) shapeCasts_S1x16x1656_S16x1656) shapeCasts_S16x1656_S16x207x8 := by
  have k_arg0 := arg_keep (F := Ideal) V0 main_arg0 (by decide)
  have e_v232 := (win4 (F := Ideal) V0).unary 14 main_arg0 main_v232 (f := ((extractStridedSlice S1x16x1656 ![3, 0, 0] · slices_S8x16x1656_S1x16x1656_3_0_0) : (⟨S8x16x1656, .f32⟩ : BufTy).Contents (Elt Ideal) → (⟨S1x16x1656, .f32⟩ : BufTy).Contents (Elt Ideal))) (e := rfl)
  have e_v233 := (win4 (F := Ideal) V0).reshape 15 main_v232 main_v233 (hn := shapeCasts_S1x16x1656_S16x1656) (e := rfl)
  have e_v234 := (win4 (F := Ideal) V0).reshape 16 main_v233 main_v234 (hn := shapeCasts_S16x1656_S16x207x8) (e := rfl)
  generalize after (ops (F := Ideal)) V0 = W at *
  rw [e_v234, e_v233, e_v232, k_arg0] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem enc_step_4 (V0 : Valuation τ sig (Elt Ideal)) (X : Cert.Spec.Arr3 8) (H : Cert.Spec.Arr3 64)
    (hx : toArr3 (d := 8) (after (ops (F := Ideal)) V0 (Proc.devRef .tc main_v311)) = X) (hH : hFlat (after (ops (F := Ideal)) V0 (Proc.devRef .tc main_v308)) = H) :
    hFlat (after (ops (F := Ideal)) V0 (Proc.devRef .tc main_v385)) = Cert.Spec.cell X H (toMat (V0 (Proc.devRef .tc main_arg1))) (toMat (V0 (Proc.devRef .tc main_arg2))) (toMat (V0 (Proc.devRef .tc main_arg3))) (toVec (V0 (Proc.devRef .tc main_arg4))) (toMat (V0 (Proc.devRef .tc main_arg5))) (toVec (V0 (Proc.devRef .tc main_arg6))) := by
  have k_arg1 := arg_keep (F := Ideal) V0 main_arg1 (by decide)
  have k_arg2 := arg_keep (F := Ideal) V0 main_arg2 (by decide)
  have k_arg3 := arg_keep (F := Ideal) V0 main_arg3 (by decide)
  have k_arg4 := arg_keep (F := Ideal) V0 main_arg4 (by decide)
  have k_arg5 := arg_keep (F := Ideal) V0 main_arg5 (by decide)
  have k_arg6 := arg_keep (F := Ideal) V0 main_arg6 (by decide)
  have e_v312 := (win5 (F := Ideal) V0).reshape 41 main_v308 main_v312 (hn := shapeCasts_S16x13248_S16x207x64) (e := rfl)
  have e_v313 := (win5 (F := Ideal) V0).binary 42 main_v311 main_v312 main_v313 (f := (fn_main_v313 (F := Ideal))) (e := rfl)
  have e_v314 := (win5 (F := Ideal) V0).unary 43 main_v313 main_v314 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v315 := (win5 (F := Ideal) V0).reshape 44 main_v314 main_v315 (hn := shapeCasts_S207x72x16_S207x1152) (e := rfl)
  have e_v316 := (win5 (F := Ideal) V0).binary 45 main_arg1 main_v315 main_v316 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v317 := (win5 (F := Ideal) V0).binary 46 main_arg1 main_v316 main_v317 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_28 := (win5 (F := Ideal) V0).nullary 47 main_cst_28 (v := (constant (F := Ideal) S_ .f32 0x40000000#32)) (e := rfl)
  have e_v318 := (win5 (F := Ideal) V0).unary 48 main_cst_28 main_v318 (f := (broadcastInDim S207x1152 ![] bcast_S_S207x1152 : (⟨S_, .f32⟩ : BufTy).Contents (Elt Ideal) → (⟨S207x1152, .f32⟩ : BufTy).Contents (Elt Ideal))) (e := rfl)
  have e_v319 := (win5 (F := Ideal) V0).binary 49 main_v318 main_v317 main_v319 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v320 := (win5 (F := Ideal) V0).binary 50 main_v319 main_v315 main_v320 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v321 := (win5 (F := Ideal) V0).binary 51 main_arg2 main_v315 main_v321 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v322 := (win5 (F := Ideal) V0).binary 52 main_arg2 main_v321 main_v322 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_29 := (win5 (F := Ideal) V0).nullary 53 main_cst_29 (v := (constant (F := Ideal) S_ .f32 0x40000000#32)) (e := rfl)
  have e_v323 := (win5 (F := Ideal) V0).unary 54 main_cst_29 main_v323 (f := (broadcastInDim S207x1152 ![] bcast_S_S207x1152 : (⟨S_, .f32⟩ : BufTy).Contents (Elt Ideal) → (⟨S207x1152, .f32⟩ : BufTy).Contents (Elt Ideal))) (e := rfl)
  have e_v324 := (win5 (F := Ideal) V0).binary 55 main_v323 main_v322 main_v324 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v325 := (win5 (F := Ideal) V0).binary 56 main_v324 main_v315 main_v325 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v326 := (win5 (F := Ideal) V0).unary 57 main_v315 main_v326 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v327 := (win5 (F := Ideal) V0).unary 58 main_v316 main_v327 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v328 := (win5 (F := Ideal) V0).unary 59 main_v320 main_v328 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v329 := (win6 (F := Ideal) V0).unary 0 main_v321 main_v329 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v330 := (win6 (F := Ideal) V0).unary 1 main_v325 main_v330 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v331 := (win6 (F := Ideal) V0).nary5 2 main_v326 main_v327 main_v328 main_v329 main_v330 main_v331 (f := (fun u => fn_main_v331 (F := Ideal) (u 0) (u 1) (u 2) (u 3) (u 4))) (e := rfl)
  have e_v332 := (win6 (F := Ideal) V0).reshape 3 main_v331 main_v332 (hn := shapeCasts_S5x207x1152_S5x207x72x16) (e := rfl)
  have e_v333 := (win6 (F := Ideal) V0).unary 4 main_v332 main_v333 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v334 := (win6 (F := Ideal) V0).reshape 5 main_v333 main_v334 (hn := shapeCasts_S16x207x72x5_S3312x360) (e := rfl)
  have e_v335 := (win6 (F := Ideal) V0).binary 6 main_v334 main_arg3 main_v335 (f := ((fun l r => Host.dotGeneral (F := Ideal) dot_S3312x360_S360x128_S3312x128_1_0_0_1_n_n none l r) : (⟨S3312x360, .f32⟩ : BufTy).Contents (Elt Ideal) → (⟨S360x128, .f32⟩ : BufTy).Contents (Elt Ideal) → (⟨S3312x128, .f32⟩ : BufTy).Contents (Elt Ideal))) (e := rfl)
  have e_v336 := (win6 (F := Ideal) V0).unary 7 main_arg4 main_v336 (f := (broadcastInDim S1x128 ![1] bcast_S128_S1x128_1 : (⟨S128, .f32⟩ : BufTy).Contents (Elt Ideal) → (⟨S1x128, .f32⟩ : BufTy).Contents (Elt Ideal))) (e := rfl)
  have e_v337 := (win6 (F := Ideal) V0).unary 8 main_v336 main_v337 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v338 := (win6 (F := Ideal) V0).binary 9 main_v335 main_v337 main_v338 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v339 := (win6 (F := Ideal) V0).reshape 10 main_v338 main_v339 (hn := shapeCasts_S3312x128_S16x26496) (e := rfl)
  have e_v340 := (win6 (F := Ideal) V0).unary 11 main_v339 main_v340 (f := (Host.negf (F := Ideal) : (⟨S16x26496, .f32⟩ : BufTy).Contents (Elt Ideal) → (⟨S16x26496, .f32⟩ : BufTy).Contents (Elt Ideal))) (e := rfl)
  have e_v341 := (win6 (F := Ideal) V0).unary 12 main_v340 main_v341 (f := (Host.exp (F := Ideal) : (⟨S16x26496, .f32⟩ : BufTy).Contents (Elt Ideal) → (⟨S16x26496, .f32⟩ : BufTy).Contents (Elt Ideal))) (e := rfl)
  have e_cst_30 := (win6 (F := Ideal) V0).nullary 13 main_cst_30 (v := (constant (F := Ideal) S_ .f32 0x3F800000#32)) (e := rfl)
  have e_v342 := (win6 (F := Ideal) V0).unary 14 main_cst_30 main_v342 (f := (broadcastInDim S16x26496 ![] bcast_S_S16x26496 : (⟨S_, .f32⟩ : BufTy).Contents (Elt Ideal) → (⟨S16x26496, .f32⟩ : BufTy).Contents (Elt Ideal))) (e := rfl)
  have e_v343 := (win6 (F := Ideal) V0).binary 15 main_v342 main_v341 main_v343 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_31 := (win6 (F := Ideal) V0).nullary 16 main_cst_31 (v := (constant (F := Ideal) S_ .f32 0x3F800000#32)) (e := rfl)
  have e_v344 := (win6 (F := Ideal) V0).unary 17 main_cst_31 main_v344 (f := (broadcastInDim S16x26496 ![] bcast_S_S16x26496 : (⟨S_, .f32⟩ : BufTy).Contents (Elt Ideal) → (⟨S16x26496, .f32⟩ : BufTy).Contents (Elt Ideal))) (e := rfl)
  have e_v345 := (win6 (F := Ideal) V0).binary 18 main_v344 main_v343 main_v345 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v346 := (win6 (F := Ideal) V0).reshape 19 main_v345 main_v346 (hn := shapeCasts_S16x26496_S16x207x128) (e := rfl)
  have e_v347 := (win6 (F := Ideal) V0).unary 20 main_v346 main_v347 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v348 := (win6 (F := Ideal) V0).reshape 21 main_v347 main_v348 (hn := shapeCasts_S16x207x64_S16x13248) (e := rfl)
  have e_v349 := (win6 (F := Ideal) V0).unary 22 main_v346 main_v349 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v350 := (win6 (F := Ideal) V0).reshape 23 main_v349 main_v350 (hn := shapeCasts_S16x207x64_S16x13248) (e := rfl)
  have e_v351 := (win6 (F := Ideal) V0).binary 24 main_v348 main_v308 main_v351 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v352 := (win6 (F := Ideal) V0).reshape 25 main_v351 main_v352 (hn := shapeCasts_S16x13248_S16x207x64) (e := rfl)
  have e_v353 := (win6 (F := Ideal) V0).binary 26 main_v311 main_v352 main_v353 (f := (fn_main_v353 (F := Ideal))) (e := rfl)
  have e_v354 := (win6 (F := Ideal) V0).unary 27 main_v353 main_v354 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v355 := (win6 (F := Ideal) V0).reshape 28 main_v354 main_v355 (hn := shapeCasts_S207x72x16_S207x1152) (e := rfl)
  have e_v356 := (win6 (F := Ideal) V0).binary 29 main_arg1 main_v355 main_v356 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v357 := (win6 (F := Ideal) V0).binary 30 main_arg1 main_v356 main_v357 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_32 := (win6 (F := Ideal) V0).nullary 31 main_cst_32 (v := (constant (F := Ideal) S_ .f32 0x40000000#32)) (e := rfl)
  have e_v358 := (win6 (F := Ideal) V0).unary 32 main_cst_32 main_v358 (f := (broadcastInDim S207x1152 ![] bcast_S_S207x1152 : (⟨S_, .f32⟩ : BufTy).Contents (Elt Ideal) → (⟨S207x1152, .f32⟩ : BufTy).Contents (Elt Ideal))) (e := rfl)
  have e_v359 := (win6 (F := Ideal) V0).binary 33 main_v358 main_v357 main_v359 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v360 := (win6 (F := Ideal) V0).binary 34 main_v359 main_v355 main_v360 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v361 := (win6 (F := Ideal) V0).binary 35 main_arg2 main_v355 main_v361 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v362 := (win6 (F := Ideal) V0).binary 36 main_arg2 main_v361 main_v362 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_33 := (win6 (F := Ideal) V0).nullary 37 main_cst_33 (v := (constant (F := Ideal) S_ .f32 0x40000000#32)) (e := rfl)
  have e_v363 := (win6 (F := Ideal) V0).unary 38 main_cst_33 main_v363 (f := (broadcastInDim S207x1152 ![] bcast_S_S207x1152 : (⟨S_, .f32⟩ : BufTy).Contents (Elt Ideal) → (⟨S207x1152, .f32⟩ : BufTy).Contents (Elt Ideal))) (e := rfl)
  have e_v364 := (win6 (F := Ideal) V0).binary 39 main_v363 main_v362 main_v364 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v365 := (win6 (F := Ideal) V0).binary 40 main_v364 main_v355 main_v365 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v366 := (win6 (F := Ideal) V0).unary 41 main_v355 main_v366 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v367 := (win6 (F := Ideal) V0).unary 42 main_v356 main_v367 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v368 := (win6 (F := Ideal) V0).unary 43 main_v360 main_v368 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v369 := (win6 (F := Ideal) V0).unary 44 main_v361 main_v369 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v370 := (win6 (F := Ideal) V0).unary 45 main_v365 main_v370 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v371 := (win6 (F := Ideal) V0).nary5 46 main_v366 main_v367 main_v368 main_v369 main_v370 main_v371 (f := (fun u => fn_main_v371 (F := Ideal) (u 0) (u 1) (u 2) (u 3) (u 4))) (e := rfl)
  have e_v372 := (win6 (F := Ideal) V0).reshape 47 main_v371 main_v372 (hn := shapeCasts_S5x207x1152_S5x207x72x16) (e := rfl)
  have e_v373 := (win6 (F := Ideal) V0).unary 48 main_v372 main_v373 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v374 := (win6 (F := Ideal) V0).reshape 49 main_v373 main_v374 (hn := shapeCasts_S16x207x72x5_S3312x360) (e := rfl)
  have e_v375 := (win6 (F := Ideal) V0).binary 50 main_v374 main_arg5 main_v375 (f := ((fun l r => Host.dotGeneral (F := Ideal) dot_S3312x360_S360x64_S3312x64_1_0_0_1_n_n none l r) : (⟨S3312x360, .f32⟩ : BufTy).Contents (Elt Ideal) → (⟨S360x64, .f32⟩ : BufTy).Contents (Elt Ideal) → (⟨S3312x64, .f32⟩ : BufTy).Contents (Elt Ideal))) (e := rfl)
  have e_v376 := (win6 (F := Ideal) V0).unary 51 main_arg6 main_v376 (f := (broadcastInDim S1x64 ![1] bcast_S64_S1x64_1 : (⟨S64, .f32⟩ : BufTy).Contents (Elt Ideal) → (⟨S1x64, .f32⟩ : BufTy).Contents (Elt Ideal))) (e := rfl)
  have e_v377 := (win6 (F := Ideal) V0).unary 52 main_v376 main_v377 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v378 := (win6 (F := Ideal) V0).binary 53 main_v375 main_v377 main_v378 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v379 := (win6 (F := Ideal) V0).reshape 54 main_v378 main_v379 (hn := shapeCasts_S3312x64_S16x13248) (e := rfl)
  have e_v380 := (win6 (F := Ideal) V0).unary 55 main_v379 main_v380 (f := (Host.tanh (F := Ideal) : (⟨S16x13248, .f32⟩ : BufTy).Contents (Elt Ideal) → (⟨S16x13248, .f32⟩ : BufTy).Contents (Elt Ideal))) (e := rfl)
  have e_v381 := (win6 (F := Ideal) V0).binary 56 main_v350 main_v308 main_v381 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_34 := (win6 (F := Ideal) V0).nullary 57 main_cst_34 (v := (constant (F := Ideal) S_ .f32 0x3F800000#32)) (e := rfl)
  have e_v382 := (win6 (F := Ideal) V0).unary 58 main_cst_34 main_v382 (f := (broadcastInDim S16x13248 ![] bcast_S_S16x13248 : (⟨S_, .f32⟩ : BufTy).Contents (Elt Ideal) → (⟨S16x13248, .f32⟩ : BufTy).Contents (Elt Ideal))) (e := rfl)
  have e_v383 := (win6 (F := Ideal) V0).binary 59 main_v382 main_v350 main_v383 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v384 := (win7 (F := Ideal) V0).binary 0 main_v383 main_v380 main_v384 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v385 := (win7 (F := Ideal) V0).binary 1 main_v381 main_v384 main_v385 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact encCell (W (Proc.devRef .tc main_v311)) (W (Proc.devRef .tc main_v308)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (W (Proc.devRef .tc main_v315)) (W (Proc.devRef .tc main_v316)) (W (Proc.devRef .tc main_v321)) (W (Proc.devRef .tc main_v355)) (W (Proc.devRef .tc main_v356)) (W (Proc.devRef .tc main_v361)) (W (Proc.devRef .tc main_v346)) (W (Proc.devRef .tc main_v350)) (W (Proc.devRef .tc main_v385))
    (by rw [e_v315, e_v314, e_v313, e_v312] <;> rfl)
    (by rw [e_v316, k_arg1] <;> rfl)
    (by rw [e_v321, k_arg2] <;> rfl)
    (by rw [e_v346, e_v345, e_v344, e_cst_31, e_v343, e_v342, e_cst_30, e_v341, e_v340, e_v339, e_v338, e_v337, e_v336, e_v335, e_v334, e_v333, e_v332, e_v331, e_v330, e_v329, e_v328, e_v327, e_v326, e_v325, e_v324, e_v323, e_cst_29, e_v322, e_v320, e_v319, e_v318, e_cst_28, e_v317, k_arg1, k_arg2, k_arg3, k_arg4] <;> rfl)
    (by rw [e_v350, e_v349] <;> rfl)
    (by rw [e_v355, e_v354, e_v353, e_v352, e_v351, e_v348, e_v347] <;> rfl)
    (by rw [e_v356, k_arg1] <;> rfl)
    (by rw [e_v361, k_arg2] <;> rfl)
    (by rw [e_v385, e_v384, e_v383, e_v382, e_cst_34, e_v381, e_v380, e_v379, e_v378, e_v377, e_v376, e_v375, e_v374, e_v373, e_v372, e_v371, e_v370, e_v369, e_v368, e_v367, e_v366, e_v365, e_v364, e_v363, e_cst_33, e_v362, e_v360, e_v359, e_v358, e_cst_32, e_v357, k_arg1, k_arg2, k_arg5, k_arg6] <;> rfl)
    X H hx hH

set_option maxRecDepth 8192 in
set_option maxHeartbeats 2000000 in
/-- A buffer's final contents as an explicit term of other buffers' (and of the arguments as launched): the equations of
    the operations that produce it, rewritten latest first. -/
theorem enc_x_4 (V0 : Valuation τ sig (Elt Ideal)) :
    (after (ops (F := Ideal)) V0 (Proc.devRef .tc main_v311)) = shapeCast S16x207x8 (shapeCast S16x1656 (extractStridedSlice S1x16x1656 ![4, 0, 0] (V0 (Proc.devRef .tc main_arg0)) slices_S8x16x1656_S1x16x1656_4_0_0) shapeCasts_S1x16x1656_S16x1656) shapeCasts_S16x1656_S16x207x8 := by
  have k_arg0 := arg_keep (F := Ideal) V0 main_arg0 (by decide)
  have e_v309 := (win5 (F := Ideal) V0).unary 38 main_arg0 main_v309 (f := ((extractStridedSlice S1x16x1656 ![4, 0, 0] · slices_S8x16x1656_S1x16x1656_4_0_0) : (⟨S8x16x1656, .f32⟩ : BufTy).Contents (Elt Ideal) → (⟨S1x16x1656, .f32⟩ : BufTy).Contents (Elt Ideal))) (e := rfl)
  have e_v310 := (win5 (F := Ideal) V0).reshape 39 main_v309 main_v310 (hn := shapeCasts_S1x16x1656_S16x1656) (e := rfl)
  have e_v311 := (win5 (F := Ideal) V0).reshape 40 main_v310 main_v311 (hn := shapeCasts_S16x1656_S16x207x8) (e := rfl)
  generalize after (ops (F := Ideal)) V0 = W at *
  rw [e_v311, e_v310, e_v309, k_arg0] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem enc_step_5 (V0 : Valuation τ sig (Elt Ideal)) (X : Cert.Spec.Arr3 8) (H : Cert.Spec.Arr3 64)
    (hx : toArr3 (d := 8) (after (ops (F := Ideal)) V0 (Proc.devRef .tc main_v388)) = X) (hH : hFlat (after (ops (F := Ideal)) V0 (Proc.devRef .tc main_v385)) = H) :
    hFlat (after (ops (F := Ideal)) V0 (Proc.devRef .tc main_v462)) = Cert.Spec.cell X H (toMat (V0 (Proc.devRef .tc main_arg1))) (toMat (V0 (Proc.devRef .tc main_arg2))) (toMat (V0 (Proc.devRef .tc main_arg3))) (toVec (V0 (Proc.devRef .tc main_arg4))) (toMat (V0 (Proc.devRef .tc main_arg5))) (toVec (V0 (Proc.devRef .tc main_arg6))) := by
  have k_arg1 := arg_keep (F := Ideal) V0 main_arg1 (by decide)
  have k_arg2 := arg_keep (F := Ideal) V0 main_arg2 (by decide)
  have k_arg3 := arg_keep (F := Ideal) V0 main_arg3 (by decide)
  have k_arg4 := arg_keep (F := Ideal) V0 main_arg4 (by decide)
  have k_arg5 := arg_keep (F := Ideal) V0 main_arg5 (by decide)
  have k_arg6 := arg_keep (F := Ideal) V0 main_arg6 (by decide)
  have e_v389 := (win7 (F := Ideal) V0).reshape 5 main_v385 main_v389 (hn := shapeCasts_S16x13248_S16x207x64) (e := rfl)
  have e_v390 := (win7 (F := Ideal) V0).binary 6 main_v388 main_v389 main_v390 (f := (fn_main_v390 (F := Ideal))) (e := rfl)
  have e_v391 := (win7 (F := Ideal) V0).unary 7 main_v390 main_v391 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v392 := (win7 (F := Ideal) V0).reshape 8 main_v391 main_v392 (hn := shapeCasts_S207x72x16_S207x1152) (e := rfl)
  have e_v393 := (win7 (F := Ideal) V0).binary 9 main_arg1 main_v392 main_v393 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v394 := (win7 (F := Ideal) V0).binary 10 main_arg1 main_v393 main_v394 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_35 := (win7 (F := Ideal) V0).nullary 11 main_cst_35 (v := (constant (F := Ideal) S_ .f32 0x40000000#32)) (e := rfl)
  have e_v395 := (win7 (F := Ideal) V0).unary 12 main_cst_35 main_v395 (f := (broadcastInDim S207x1152 ![] bcast_S_S207x1152 : (⟨S_, .f32⟩ : BufTy).Contents (Elt Ideal) → (⟨S207x1152, .f32⟩ : BufTy).Contents (Elt Ideal))) (e := rfl)
  have e_v396 := (win7 (F := Ideal) V0).binary 13 main_v395 main_v394 main_v396 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v397 := (win7 (F := Ideal) V0).binary 14 main_v396 main_v392 main_v397 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v398 := (win7 (F := Ideal) V0).binary 15 main_arg2 main_v392 main_v398 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v399 := (win7 (F := Ideal) V0).binary 16 main_arg2 main_v398 main_v399 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_36 := (win7 (F := Ideal) V0).nullary 17 main_cst_36 (v := (constant (F := Ideal) S_ .f32 0x40000000#32)) (e := rfl)
  have e_v400 := (win7 (F := Ideal) V0).unary 18 main_cst_36 main_v400 (f := (broadcastInDim S207x1152 ![] bcast_S_S207x1152 : (⟨S_, .f32⟩ : BufTy).Contents (Elt Ideal) → (⟨S207x1152, .f32⟩ : BufTy).Contents (Elt Ideal))) (e := rfl)
  have e_v401 := (win7 (F := Ideal) V0).binary 19 main_v400 main_v399 main_v401 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v402 := (win7 (F := Ideal) V0).binary 20 main_v401 main_v392 main_v402 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v403 := (win7 (F := Ideal) V0).unary 21 main_v392 main_v403 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v404 := (win7 (F := Ideal) V0).unary 22 main_v393 main_v404 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v405 := (win7 (F := Ideal) V0).unary 23 main_v397 main_v405 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v406 := (win7 (F := Ideal) V0).unary 24 main_v398 main_v406 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v407 := (win7 (F := Ideal) V0).unary 25 main_v402 main_v407 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v408 := (win7 (F := Ideal) V0).nary5 26 main_v403 main_v404 main_v405 main_v406 main_v407 main_v408 (f := (fun u => fn_main_v408 (F := Ideal) (u 0) (u 1) (u 2) (u 3) (u 4))) (e := rfl)
  have e_v409 := (win7 (F := Ideal) V0).reshape 27 main_v408 main_v409 (hn := shapeCasts_S5x207x1152_S5x207x72x16) (e := rfl)
  have e_v410 := (win7 (F := Ideal) V0).unary 28 main_v409 main_v410 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v411 := (win7 (F := Ideal) V0).reshape 29 main_v410 main_v411 (hn := shapeCasts_S16x207x72x5_S3312x360) (e := rfl)
  have e_v412 := (win7 (F := Ideal) V0).binary 30 main_v411 main_arg3 main_v412 (f := ((fun l r => Host.dotGeneral (F := Ideal) dot_S3312x360_S360x128_S3312x128_1_0_0_1_n_n none l r) : (⟨S3312x360, .f32⟩ : BufTy).Contents (Elt Ideal) → (⟨S360x128, .f32⟩ : BufTy).Contents (Elt Ideal) → (⟨S3312x128, .f32⟩ : BufTy).Contents (Elt Ideal))) (e := rfl)
  have e_v413 := (win7 (F := Ideal) V0).unary 31 main_arg4 main_v413 (f := (broadcastInDim S1x128 ![1] bcast_S128_S1x128_1 : (⟨S128, .f32⟩ : BufTy).Contents (Elt Ideal) → (⟨S1x128, .f32⟩ : BufTy).Contents (Elt Ideal))) (e := rfl)
  have e_v414 := (win7 (F := Ideal) V0).unary 32 main_v413 main_v414 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v415 := (win7 (F := Ideal) V0).binary 33 main_v412 main_v414 main_v415 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v416 := (win7 (F := Ideal) V0).reshape 34 main_v415 main_v416 (hn := shapeCasts_S3312x128_S16x26496) (e := rfl)
  have e_v417 := (win7 (F := Ideal) V0).unary 35 main_v416 main_v417 (f := (Host.negf (F := Ideal) : (⟨S16x26496, .f32⟩ : BufTy).Contents (Elt Ideal) → (⟨S16x26496, .f32⟩ : BufTy).Contents (Elt Ideal))) (e := rfl)
  have e_v418 := (win7 (F := Ideal) V0).unary 36 main_v417 main_v418 (f := (Host.exp (F := Ideal) : (⟨S16x26496, .f32⟩ : BufTy).Contents (Elt Ideal) → (⟨S16x26496, .f32⟩ : BufTy).Contents (Elt Ideal))) (e := rfl)
  have e_cst_37 := (win7 (F := Ideal) V0).nullary 37 main_cst_37 (v := (constant (F := Ideal) S_ .f32 0x3F800000#32)) (e := rfl)
  have e_v419 := (win7 (F := Ideal) V0).unary 38 main_cst_37 main_v419 (f := (broadcastInDim S16x26496 ![] bcast_S_S16x26496 : (⟨S_, .f32⟩ : BufTy).Contents (Elt Ideal) → (⟨S16x26496, .f32⟩ : BufTy).Contents (Elt Ideal))) (e := rfl)
  have e_v420 := (win7 (F := Ideal) V0).binary 39 main_v419 main_v418 main_v420 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_38 := (win7 (F := Ideal) V0).nullary 40 main_cst_38 (v := (constant (F := Ideal) S_ .f32 0x3F800000#32)) (e := rfl)
  have e_v421 := (win7 (F := Ideal) V0).unary 41 main_cst_38 main_v421 (f := (broadcastInDim S16x26496 ![] bcast_S_S16x26496 : (⟨S_, .f32⟩ : BufTy).Contents (Elt Ideal) → (⟨S16x26496, .f32⟩ : BufTy).Contents (Elt Ideal))) (e := rfl)
  have e_v422 := (win7 (F := Ideal) V0).binary 42 main_v421 main_v420 main_v422 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v423 := (win7 (F := Ideal) V0).reshape 43 main_v422 main_v423 (hn := shapeCasts_S16x26496_S16x207x128) (e := rfl)
  have e_v424 := (win7 (F := Ideal) V0).unary 44 main_v423 main_v424 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v425 := (win7 (F := Ideal) V0).reshape 45 main_v424 main_v425 (hn := shapeCasts_S16x207x64_S16x13248) (e := rfl)
  have e_v426 := (win7 (F := Ideal) V0).unary 46 main_v423 main_v426 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v427 := (win7 (F := Ideal) V0).reshape 47 main_v426 main_v427 (hn := shapeCasts_S16x207x64_S16x13248) (e := rfl)
  have e_v428 := (win7 (F := Ideal) V0).binary 48 main_v425 main_v385 main_v428 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v429 := (win7 (F := Ideal) V0).reshape 49 main_v428 main_v429 (hn := shapeCasts_S16x13248_S16x207x64) (e := rfl)
  have e_v430 := (win7 (F := Ideal) V0).binary 50 main_v388 main_v429 main_v430 (f := (fn_main_v430 (F := Ideal))) (e := rfl)
  have e_v431 := (win7 (F := Ideal) V0).unary 51 main_v430 main_v431 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v432 := (win7 (F := Ideal) V0).reshape 52 main_v431 main_v432 (hn := shapeCasts_S207x72x16_S207x1152) (e := rfl)
  have e_v433 := (win7 (F := Ideal) V0).binary 53 main_arg1 main_v432 main_v433 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v434 := (win7 (F := Ideal) V0).binary 54 main_arg1 main_v433 main_v434 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_39 := (win7 (F := Ideal) V0).nullary 55 main_cst_39 (v := (constant (F := Ideal) S_ .f32 0x40000000#32)) (e := rfl)
  have e_v435 := (win7 (F := Ideal) V0).unary 56 main_cst_39 main_v435 (f := (broadcastInDim S207x1152 ![] bcast_S_S207x1152 : (⟨S_, .f32⟩ : BufTy).Contents (Elt Ideal) → (⟨S207x1152, .f32⟩ : BufTy).Contents (Elt Ideal))) (e := rfl)
  have e_v436 := (win7 (F := Ideal) V0).binary 57 main_v435 main_v434 main_v436 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v437 := (win7 (F := Ideal) V0).binary 58 main_v436 main_v432 main_v437 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v438 := (win7 (F := Ideal) V0).binary 59 main_arg2 main_v432 main_v438 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v439 := (win8 (F := Ideal) V0).binary 0 main_arg2 main_v438 main_v439 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_40 := (win8 (F := Ideal) V0).nullary 1 main_cst_40 (v := (constant (F := Ideal) S_ .f32 0x40000000#32)) (e := rfl)
  have e_v440 := (win8 (F := Ideal) V0).unary 2 main_cst_40 main_v440 (f := (broadcastInDim S207x1152 ![] bcast_S_S207x1152 : (⟨S_, .f32⟩ : BufTy).Contents (Elt Ideal) → (⟨S207x1152, .f32⟩ : BufTy).Contents (Elt Ideal))) (e := rfl)
  have e_v441 := (win8 (F := Ideal) V0).binary 3 main_v440 main_v439 main_v441 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v442 := (win8 (F := Ideal) V0).binary 4 main_v441 main_v432 main_v442 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v443 := (win8 (F := Ideal) V0).unary 5 main_v432 main_v443 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v444 := (win8 (F := Ideal) V0).unary 6 main_v433 main_v444 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v445 := (win8 (F := Ideal) V0).unary 7 main_v437 main_v445 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v446 := (win8 (F := Ideal) V0).unary 8 main_v438 main_v446 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v447 := (win8 (F := Ideal) V0).unary 9 main_v442 main_v447 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v448 := (win8 (F := Ideal) V0).nary5 10 main_v443 main_v444 main_v445 main_v446 main_v447 main_v448 (f := (fun u => fn_main_v448 (F := Ideal) (u 0) (u 1) (u 2) (u 3) (u 4))) (e := rfl)
  have e_v449 := (win8 (F := Ideal) V0).reshape 11 main_v448 main_v449 (hn := shapeCasts_S5x207x1152_S5x207x72x16) (e := rfl)
  have e_v450 := (win8 (F := Ideal) V0).unary 12 main_v449 main_v450 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v451 := (win8 (F := Ideal) V0).reshape 13 main_v450 main_v451 (hn := shapeCasts_S16x207x72x5_S3312x360) (e := rfl)
  have e_v452 := (win8 (F := Ideal) V0).binary 14 main_v451 main_arg5 main_v452 (f := ((fun l r => Host.dotGeneral (F := Ideal) dot_S3312x360_S360x64_S3312x64_1_0_0_1_n_n none l r) : (⟨S3312x360, .f32⟩ : BufTy).Contents (Elt Ideal) → (⟨S360x64, .f32⟩ : BufTy).Contents (Elt Ideal) → (⟨S3312x64, .f32⟩ : BufTy).Contents (Elt Ideal))) (e := rfl)
  have e_v453 := (win8 (F := Ideal) V0).unary 15 main_arg6 main_v453 (f := (broadcastInDim S1x64 ![1] bcast_S64_S1x64_1 : (⟨S64, .f32⟩ : BufTy).Contents (Elt Ideal) → (⟨S1x64, .f32⟩ : BufTy).Contents (Elt Ideal))) (e := rfl)
  have e_v454 := (win8 (F := Ideal) V0).unary 16 main_v453 main_v454 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v455 := (win8 (F := Ideal) V0).binary 17 main_v452 main_v454 main_v455 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v456 := (win8 (F := Ideal) V0).reshape 18 main_v455 main_v456 (hn := shapeCasts_S3312x64_S16x13248) (e := rfl)
  have e_v457 := (win8 (F := Ideal) V0).unary 19 main_v456 main_v457 (f := (Host.tanh (F := Ideal) : (⟨S16x13248, .f32⟩ : BufTy).Contents (Elt Ideal) → (⟨S16x13248, .f32⟩ : BufTy).Contents (Elt Ideal))) (e := rfl)
  have e_v458 := (win8 (F := Ideal) V0).binary 20 main_v427 main_v385 main_v458 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_41 := (win8 (F := Ideal) V0).nullary 21 main_cst_41 (v := (constant (F := Ideal) S_ .f32 0x3F800000#32)) (e := rfl)
  have e_v459 := (win8 (F := Ideal) V0).unary 22 main_cst_41 main_v459 (f := (broadcastInDim S16x13248 ![] bcast_S_S16x13248 : (⟨S_, .f32⟩ : BufTy).Contents (Elt Ideal) → (⟨S16x13248, .f32⟩ : BufTy).Contents (Elt Ideal))) (e := rfl)
  have e_v460 := (win8 (F := Ideal) V0).binary 23 main_v459 main_v427 main_v460 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v461 := (win8 (F := Ideal) V0).binary 24 main_v460 main_v457 main_v461 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v462 := (win8 (F := Ideal) V0).binary 25 main_v458 main_v461 main_v462 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact encCell (W (Proc.devRef .tc main_v388)) (W (Proc.devRef .tc main_v385)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (W (Proc.devRef .tc main_v392)) (W (Proc.devRef .tc main_v393)) (W (Proc.devRef .tc main_v398)) (W (Proc.devRef .tc main_v432)) (W (Proc.devRef .tc main_v433)) (W (Proc.devRef .tc main_v438)) (W (Proc.devRef .tc main_v423)) (W (Proc.devRef .tc main_v427)) (W (Proc.devRef .tc main_v462))
    (by rw [e_v392, e_v391, e_v390, e_v389] <;> rfl)
    (by rw [e_v393, k_arg1] <;> rfl)
    (by rw [e_v398, k_arg2] <;> rfl)
    (by rw [e_v423, e_v422, e_v421, e_cst_38, e_v420, e_v419, e_cst_37, e_v418, e_v417, e_v416, e_v415, e_v414, e_v413, e_v412, e_v411, e_v410, e_v409, e_v408, e_v407, e_v406, e_v405, e_v404, e_v403, e_v402, e_v401, e_v400, e_cst_36, e_v399, e_v397, e_v396, e_v395, e_cst_35, e_v394, k_arg1, k_arg2, k_arg3, k_arg4] <;> rfl)
    (by rw [e_v427, e_v426] <;> rfl)
    (by rw [e_v432, e_v431, e_v430, e_v429, e_v428, e_v425, e_v424] <;> rfl)
    (by rw [e_v433, k_arg1] <;> rfl)
    (by rw [e_v438, k_arg2] <;> rfl)
    (by rw [e_v462, e_v461, e_v460, e_v459, e_cst_41, e_v458, e_v457, e_v456, e_v455, e_v454, e_v453, e_v452, e_v451, e_v450, e_v449, e_v448, e_v447, e_v446, e_v445, e_v444, e_v443, e_v442, e_v441, e_v440, e_cst_40, e_v439, e_v437, e_v436, e_v435, e_cst_39, e_v434, k_arg1, k_arg2, k_arg5, k_arg6] <;> rfl)
    X H hx hH

set_option maxRecDepth 8192 in
set_option maxHeartbeats 2000000 in
/-- A buffer's final contents as an explicit term of other buffers' (and of the arguments as launched): the equations of
    the operations that produce it, rewritten latest first. -/
theorem enc_x_5 (V0 : Valuation τ sig (Elt Ideal)) :
    (after (ops (F := Ideal)) V0 (Proc.devRef .tc main_v388)) = shapeCast S16x207x8 (shapeCast S16x1656 (extractStridedSlice S1x16x1656 ![5, 0, 0] (V0 (Proc.devRef .tc main_arg0)) slices_S8x16x1656_S1x16x1656_5_0_0) shapeCasts_S1x16x1656_S16x1656) shapeCasts_S16x1656_S16x207x8 := by
  have k_arg0 := arg_keep (F := Ideal) V0 main_arg0 (by decide)
  have e_v386 := (win7 (F := Ideal) V0).unary 2 main_arg0 main_v386 (f := ((extractStridedSlice S1x16x1656 ![5, 0, 0] · slices_S8x16x1656_S1x16x1656_5_0_0) : (⟨S8x16x1656, .f32⟩ : BufTy).Contents (Elt Ideal) → (⟨S1x16x1656, .f32⟩ : BufTy).Contents (Elt Ideal))) (e := rfl)
  have e_v387 := (win7 (F := Ideal) V0).reshape 3 main_v386 main_v387 (hn := shapeCasts_S1x16x1656_S16x1656) (e := rfl)
  have e_v388 := (win7 (F := Ideal) V0).reshape 4 main_v387 main_v388 (hn := shapeCasts_S16x1656_S16x207x8) (e := rfl)
  generalize after (ops (F := Ideal)) V0 = W at *
  rw [e_v388, e_v387, e_v386, k_arg0] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem enc_step_6 (V0 : Valuation τ sig (Elt Ideal)) (X : Cert.Spec.Arr3 8) (H : Cert.Spec.Arr3 64)
    (hx : toArr3 (d := 8) (after (ops (F := Ideal)) V0 (Proc.devRef .tc main_v465)) = X) (hH : hFlat (after (ops (F := Ideal)) V0 (Proc.devRef .tc main_v462)) = H) :
    hFlat (after (ops (F := Ideal)) V0 (Proc.devRef .tc main_v539)) = Cert.Spec.cell X H (toMat (V0 (Proc.devRef .tc main_arg1))) (toMat (V0 (Proc.devRef .tc main_arg2))) (toMat (V0 (Proc.devRef .tc main_arg3))) (toVec (V0 (Proc.devRef .tc main_arg4))) (toMat (V0 (Proc.devRef .tc main_arg5))) (toVec (V0 (Proc.devRef .tc main_arg6))) := by
  have k_arg1 := arg_keep (F := Ideal) V0 main_arg1 (by decide)
  have k_arg2 := arg_keep (F := Ideal) V0 main_arg2 (by decide)
  have k_arg3 := arg_keep (F := Ideal) V0 main_arg3 (by decide)
  have k_arg4 := arg_keep (F := Ideal) V0 main_arg4 (by decide)
  have k_arg5 := arg_keep (F := Ideal) V0 main_arg5 (by decide)
  have k_arg6 := arg_keep (F := Ideal) V0 main_arg6 (by decide)
  have e_v466 := (win8 (F := Ideal) V0).reshape 29 main_v462 main_v466 (hn := shapeCasts_S16x13248_S16x207x64) (e := rfl)
  have e_v467 := (win8 (F := Ideal) V0).binary 30 main_v465 main_v466 main_v467 (f := (fn_main_v467 (F := Ideal))) (e := rfl)
  have e_v468 := (win8 (F := Ideal) V0).unary 31 main_v467 main_v468 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v469 := (win8 (F := Ideal) V0).reshape 32 main_v468 main_v469 (hn := shapeCasts_S207x72x16_S207x1152) (e := rfl)
  have e_v470 := (win8 (F := Ideal) V0).binary 33 main_arg1 main_v469 main_v470 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v471 := (win8 (F := Ideal) V0).binary 34 main_arg1 main_v470 main_v471 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_42 := (win8 (F := Ideal) V0).nullary 35 main_cst_42 (v := (constant (F := Ideal) S_ .f32 0x40000000#32)) (e := rfl)
  have e_v472 := (win8 (F := Ideal) V0).unary 36 main_cst_42 main_v472 (f := (broadcastInDim S207x1152 ![] bcast_S_S207x1152 : (⟨S_, .f32⟩ : BufTy).Contents (Elt Ideal) → (⟨S207x1152, .f32⟩ : BufTy).Contents (Elt Ideal))) (e := rfl)
  have e_v473 := (win8 (F := Ideal) V0).binary 37 main_v472 main_v471 main_v473 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v474 := (win8 (F := Ideal) V0).binary 38 main_v473 main_v469 main_v474 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v475 := (win8 (F := Ideal) V0).binary 39 main_arg2 main_v469 main_v475 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v476 := (win8 (F := Ideal) V0).binary 40 main_arg2 main_v475 main_v476 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_43 := (win8 (F := Ideal) V0).nullary 41 main_cst_43 (v := (constant (F := Ideal) S_ .f32 0x40000000#32)) (e := rfl)
  have e_v477 := (win8 (F := Ideal) V0).unary 42 main_cst_43 main_v477 (f := (broadcastInDim S207x1152 ![] bcast_S_S207x1152 : (⟨S_, .f32⟩ : BufTy).Contents (Elt Ideal) → (⟨S207x1152, .f32⟩ : BufTy).Contents (Elt Ideal))) (e := rfl)
  have e_v478 := (win8 (F := Ideal) V0).binary 43 main_v477 main_v476 main_v478 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v479 := (win8 (F := Ideal) V0).binary 44 main_v478 main_v469 main_v479 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v480 := (win8 (F := Ideal) V0).unary 45 main_v469 main_v480 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v481 := (win8 (F := Ideal) V0).unary 46 main_v470 main_v481 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v482 := (win8 (F := Ideal) V0).unary 47 main_v474 main_v482 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v483 := (win8 (F := Ideal) V0).unary 48 main_v475 main_v483 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v484 := (win8 (F := Ideal) V0).unary 49 main_v479 main_v484 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v485 := (win8 (F := Ideal) V0).nary5 50 main_v480 main_v481 main_v482 main_v483 main_v484 main_v485 (f := (fun u => fn_main_v485 (F := Ideal) (u 0) (u 1) (u 2) (u 3) (u 4))) (e := rfl)
  have e_v486 := (win8 (F := Ideal) V0).reshape 51 main_v485 main_v486 (hn := shapeCasts_S5x207x1152_S5x207x72x16) (e := rfl)
  have e_v487 := (win8 (F := Ideal) V0).unary 52 main_v486 main_v487 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v488 := (win8 (F := Ideal) V0).reshape 53 main_v487 main_v488 (hn := shapeCasts_S16x207x72x5_S3312x360) (e := rfl)
  have e_v489 := (win8 (F := Ideal) V0).binary 54 main_v488 main_arg3 main_v489 (f := ((fun l r => Host.dotGeneral (F := Ideal) dot_S3312x360_S360x128_S3312x128_1_0_0_1_n_n none l r) : (⟨S3312x360, .f32⟩ : BufTy).Contents (Elt Ideal) → (⟨S360x128, .f32⟩ : BufTy).Contents (Elt Ideal) → (⟨S3312x128, .f32⟩ : BufTy).Contents (Elt Ideal))) (e := rfl)
  have e_v490 := (win8 (F := Ideal) V0).unary 55 main_arg4 main_v490 (f := (broadcastInDim S1x128 ![1] bcast_S128_S1x128_1 : (⟨S128, .f32⟩ : BufTy).Contents (Elt Ideal) → (⟨S1x128, .f32⟩ : BufTy).Contents (Elt Ideal))) (e := rfl)
  have e_v491 := (win8 (F := Ideal) V0).unary 56 main_v490 main_v491 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v492 := (win8 (F := Ideal) V0).binary 57 main_v489 main_v491 main_v492 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v493 := (win8 (F := Ideal) V0).reshape 58 main_v492 main_v493 (hn := shapeCasts_S3312x128_S16x26496) (e := rfl)
  have e_v494 := (win8 (F := Ideal) V0).unary 59 main_v493 main_v494 (f := (Host.negf (F := Ideal) : (⟨S16x26496, .f32⟩ : BufTy).Contents (Elt Ideal) → (⟨S16x26496, .f32⟩ : BufTy).Contents (Elt Ideal))) (e := rfl)
  have e_v495 := (win9 (F := Ideal) V0).unary 0 main_v494 main_v495 (f := (Host.exp (F := Ideal) : (⟨S16x26496, .f32⟩ : BufTy).Contents (Elt Ideal) → (⟨S16x26496, .f32⟩ : BufTy).Contents (Elt Ideal))) (e := rfl)
  have e_cst_44 := (win9 (F := Ideal) V0).nullary 1 main_cst_44 (v := (constant (F := Ideal) S_ .f32 0x3F800000#32)) (e := rfl)
  have e_v496 := (win9 (F := Ideal) V0).unary 2 main_cst_44 main_v496 (f := (broadcastInDim S16x26496 ![] bcast_S_S16x26496 : (⟨S_, .f32⟩ : BufTy).Contents (Elt Ideal) → (⟨S16x26496, .f32⟩ : BufTy).Contents (Elt Ideal))) (e := rfl)
  have e_v497 := (win9 (F := Ideal) V0).binary 3 main_v496 main_v495 main_v497 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_45 := (win9 (F := Ideal) V0).nullary 4 main_cst_45 (v := (constant (F := Ideal) S_ .f32 0x3F800000#32)) (e := rfl)
  have e_v498 := (win9 (F := Ideal) V0).unary 5 main_cst_45 main_v498 (f := (broadcastInDim S16x26496 ![] bcast_S_S16x26496 : (⟨S_, .f32⟩ : BufTy).Contents (Elt Ideal) → (⟨S16x26496, .f32⟩ : BufTy).Contents (Elt Ideal))) (e := rfl)
  have e_v499 := (win9 (F := Ideal) V0).binary 6 main_v498 main_v497 main_v499 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v500 := (win9 (F := Ideal) V0).reshape 7 main_v499 main_v500 (hn := shapeCasts_S16x26496_S16x207x128) (e := rfl)
  have e_v501 := (win9 (F := Ideal) V0).unary 8 main_v500 main_v501 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v502 := (win9 (F := Ideal) V0).reshape 9 main_v501 main_v502 (hn := shapeCasts_S16x207x64_S16x13248) (e := rfl)
  have e_v503 := (win9 (F := Ideal) V0).unary 10 main_v500 main_v503 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v504 := (win9 (F := Ideal) V0).reshape 11 main_v503 main_v504 (hn := shapeCasts_S16x207x64_S16x13248) (e := rfl)
  have e_v505 := (win9 (F := Ideal) V0).binary 12 main_v502 main_v462 main_v505 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v506 := (win9 (F := Ideal) V0).reshape 13 main_v505 main_v506 (hn := shapeCasts_S16x13248_S16x207x64) (e := rfl)
  have e_v507 := (win9 (F := Ideal) V0).binary 14 main_v465 main_v506 main_v507 (f := (fn_main_v507 (F := Ideal))) (e := rfl)
  have e_v508 := (win9 (F := Ideal) V0).unary 15 main_v507 main_v508 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v509 := (win9 (F := Ideal) V0).reshape 16 main_v508 main_v509 (hn := shapeCasts_S207x72x16_S207x1152) (e := rfl)
  have e_v510 := (win9 (F := Ideal) V0).binary 17 main_arg1 main_v509 main_v510 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v511 := (win9 (F := Ideal) V0).binary 18 main_arg1 main_v510 main_v511 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_46 := (win9 (F := Ideal) V0).nullary 19 main_cst_46 (v := (constant (F := Ideal) S_ .f32 0x40000000#32)) (e := rfl)
  have e_v512 := (win9 (F := Ideal) V0).unary 20 main_cst_46 main_v512 (f := (broadcastInDim S207x1152 ![] bcast_S_S207x1152 : (⟨S_, .f32⟩ : BufTy).Contents (Elt Ideal) → (⟨S207x1152, .f32⟩ : BufTy).Contents (Elt Ideal))) (e := rfl)
  have e_v513 := (win9 (F := Ideal) V0).binary 21 main_v512 main_v511 main_v513 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v514 := (win9 (F := Ideal) V0).binary 22 main_v513 main_v509 main_v514 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v515 := (win9 (F := Ideal) V0).binary 23 main_arg2 main_v509 main_v515 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v516 := (win9 (F := Ideal) V0).binary 24 main_arg2 main_v515 main_v516 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_47 := (win9 (F := Ideal) V0).nullary 25 main_cst_47 (v := (constant (F := Ideal) S_ .f32 0x40000000#32)) (e := rfl)
  have e_v517 := (win9 (F := Ideal) V0).unary 26 main_cst_47 main_v517 (f := (broadcastInDim S207x1152 ![] bcast_S_S207x1152 : (⟨S_, .f32⟩ : BufTy).Contents (Elt Ideal) → (⟨S207x1152, .f32⟩ : BufTy).Contents (Elt Ideal))) (e := rfl)
  have e_v518 := (win9 (F := Ideal) V0).binary 27 main_v517 main_v516 main_v518 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v519 := (win9 (F := Ideal) V0).binary 28 main_v518 main_v509 main_v519 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v520 := (win9 (F := Ideal) V0).unary 29 main_v509 main_v520 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v521 := (win9 (F := Ideal) V0).unary 30 main_v510 main_v521 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v522 := (win9 (F := Ideal) V0).unary 31 main_v514 main_v522 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v523 := (win9 (F := Ideal) V0).unary 32 main_v515 main_v523 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v524 := (win9 (F := Ideal) V0).unary 33 main_v519 main_v524 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v525 := (win9 (F := Ideal) V0).nary5 34 main_v520 main_v521 main_v522 main_v523 main_v524 main_v525 (f := (fun u => fn_main_v525 (F := Ideal) (u 0) (u 1) (u 2) (u 3) (u 4))) (e := rfl)
  have e_v526 := (win9 (F := Ideal) V0).reshape 35 main_v525 main_v526 (hn := shapeCasts_S5x207x1152_S5x207x72x16) (e := rfl)
  have e_v527 := (win9 (F := Ideal) V0).unary 36 main_v526 main_v527 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v528 := (win9 (F := Ideal) V0).reshape 37 main_v527 main_v528 (hn := shapeCasts_S16x207x72x5_S3312x360) (e := rfl)
  have e_v529 := (win9 (F := Ideal) V0).binary 38 main_v528 main_arg5 main_v529 (f := ((fun l r => Host.dotGeneral (F := Ideal) dot_S3312x360_S360x64_S3312x64_1_0_0_1_n_n none l r) : (⟨S3312x360, .f32⟩ : BufTy).Contents (Elt Ideal) → (⟨S360x64, .f32⟩ : BufTy).Contents (Elt Ideal) → (⟨S3312x64, .f32⟩ : BufTy).Contents (Elt Ideal))) (e := rfl)
  have e_v530 := (win9 (F := Ideal) V0).unary 39 main_arg6 main_v530 (f := (broadcastInDim S1x64 ![1] bcast_S64_S1x64_1 : (⟨S64, .f32⟩ : BufTy).Contents (Elt Ideal) → (⟨S1x64, .f32⟩ : BufTy).Contents (Elt Ideal))) (e := rfl)
  have e_v531 := (win9 (F := Ideal) V0).unary 40 main_v530 main_v531 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v532 := (win9 (F := Ideal) V0).binary 41 main_v529 main_v531 main_v532 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v533 := (win9 (F := Ideal) V0).reshape 42 main_v532 main_v533 (hn := shapeCasts_S3312x64_S16x13248) (e := rfl)
  have e_v534 := (win9 (F := Ideal) V0).unary 43 main_v533 main_v534 (f := (Host.tanh (F := Ideal) : (⟨S16x13248, .f32⟩ : BufTy).Contents (Elt Ideal) → (⟨S16x13248, .f32⟩ : BufTy).Contents (Elt Ideal))) (e := rfl)
  have e_v535 := (win9 (F := Ideal) V0).binary 44 main_v504 main_v462 main_v535 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_48 := (win9 (F := Ideal) V0).nullary 45 main_cst_48 (v := (constant (F := Ideal) S_ .f32 0x3F800000#32)) (e := rfl)
  have e_v536 := (win9 (F := Ideal) V0).unary 46 main_cst_48 main_v536 (f := (broadcastInDim S16x13248 ![] bcast_S_S16x13248 : (⟨S_, .f32⟩ : BufTy).Contents (Elt Ideal) → (⟨S16x13248, .f32⟩ : BufTy).Contents (Elt Ideal))) (e := rfl)
  have e_v537 := (win9 (F := Ideal) V0).binary 47 main_v536 main_v504 main_v537 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v538 := (win9 (F := Ideal) V0).binary 48 main_v537 main_v534 main_v538 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v539 := (win9 (F := Ideal) V0).binary 49 main_v535 main_v538 main_v539 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact encCell (W (Proc.devRef .tc main_v465)) (W (Proc.devRef .tc main_v462)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (W (Proc.devRef .tc main_v469)) (W (Proc.devRef .tc main_v470)) (W (Proc.devRef .tc main_v475)) (W (Proc.devRef .tc main_v509)) (W (Proc.devRef .tc main_v510)) (W (Proc.devRef .tc main_v515)) (W (Proc.devRef .tc main_v500)) (W (Proc.devRef .tc main_v504)) (W (Proc.devRef .tc main_v539))
    (by rw [e_v469, e_v468, e_v467, e_v466] <;> rfl)
    (by rw [e_v470, k_arg1] <;> rfl)
    (by rw [e_v475, k_arg2] <;> rfl)
    (by rw [e_v500, e_v499, e_v498, e_cst_45, e_v497, e_v496, e_cst_44, e_v495, e_v494, e_v493, e_v492, e_v491, e_v490, e_v489, e_v488, e_v487, e_v486, e_v485, e_v484, e_v483, e_v482, e_v481, e_v480, e_v479, e_v478, e_v477, e_cst_43, e_v476, e_v474, e_v473, e_v472, e_cst_42, e_v471, k_arg1, k_arg2, k_arg3, k_arg4] <;> rfl)
    (by rw [e_v504, e_v503] <;> rfl)
    (by rw [e_v509, e_v508, e_v507, e_v506, e_v505, e_v502, e_v501] <;> rfl)
    (by rw [e_v510, k_arg1] <;> rfl)
    (by rw [e_v515, k_arg2] <;> rfl)
    (by rw [e_v539, e_v538, e_v537, e_v536, e_cst_48, e_v535, e_v534, e_v533, e_v532, e_v531, e_v530, e_v529, e_v528, e_v527, e_v526, e_v525, e_v524, e_v523, e_v522, e_v521, e_v520, e_v519, e_v518, e_v517, e_cst_47, e_v516, e_v514, e_v513, e_v512, e_cst_46, e_v511, k_arg1, k_arg2, k_arg5, k_arg6] <;> rfl)
    X H hx hH

set_option maxRecDepth 8192 in
set_option maxHeartbeats 2000000 in
/-- A buffer's final contents as an explicit term of other buffers' (and of the arguments as launched): the equations of
    the operations that produce it, rewritten latest first. -/
theorem enc_x_6 (V0 : Valuation τ sig (Elt Ideal)) :
    (after (ops (F := Ideal)) V0 (Proc.devRef .tc main_v465)) = shapeCast S16x207x8 (shapeCast S16x1656 (extractStridedSlice S1x16x1656 ![6, 0, 0] (V0 (Proc.devRef .tc main_arg0)) slices_S8x16x1656_S1x16x1656_6_0_0) shapeCasts_S1x16x1656_S16x1656) shapeCasts_S16x1656_S16x207x8 := by
  have k_arg0 := arg_keep (F := Ideal) V0 main_arg0 (by decide)
  have e_v463 := (win8 (F := Ideal) V0).unary 26 main_arg0 main_v463 (f := ((extractStridedSlice S1x16x1656 ![6, 0, 0] · slices_S8x16x1656_S1x16x1656_6_0_0) : (⟨S8x16x1656, .f32⟩ : BufTy).Contents (Elt Ideal) → (⟨S1x16x1656, .f32⟩ : BufTy).Contents (Elt Ideal))) (e := rfl)
  have e_v464 := (win8 (F := Ideal) V0).reshape 27 main_v463 main_v464 (hn := shapeCasts_S1x16x1656_S16x1656) (e := rfl)
  have e_v465 := (win8 (F := Ideal) V0).reshape 28 main_v464 main_v465 (hn := shapeCasts_S16x1656_S16x207x8) (e := rfl)
  generalize after (ops (F := Ideal)) V0 = W at *
  rw [e_v465, e_v464, e_v463, k_arg0] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem enc_step_7 (V0 : Valuation τ sig (Elt Ideal)) (X : Cert.Spec.Arr3 8) (H : Cert.Spec.Arr3 64)
    (hx : toArr3 (d := 8) (after (ops (F := Ideal)) V0 (Proc.devRef .tc main_v542)) = X) (hH : hFlat (after (ops (F := Ideal)) V0 (Proc.devRef .tc main_v539)) = H) :
    hFlat (after (ops (F := Ideal)) V0 (Proc.devRef .tc main_v616)) = Cert.Spec.cell X H (toMat (V0 (Proc.devRef .tc main_arg1))) (toMat (V0 (Proc.devRef .tc main_arg2))) (toMat (V0 (Proc.devRef .tc main_arg3))) (toVec (V0 (Proc.devRef .tc main_arg4))) (toMat (V0 (Proc.devRef .tc main_arg5))) (toVec (V0 (Proc.devRef .tc main_arg6))) := by
  have k_arg1 := arg_keep (F := Ideal) V0 main_arg1 (by decide)
  have k_arg2 := arg_keep (F := Ideal) V0 main_arg2 (by decide)
  have k_arg3 := arg_keep (F := Ideal) V0 main_arg3 (by decide)
  have k_arg4 := arg_keep (F := Ideal) V0 main_arg4 (by decide)
  have k_arg5 := arg_keep (F := Ideal) V0 main_arg5 (by decide)
  have k_arg6 := arg_keep (F := Ideal) V0 main_arg6 (by decide)
  have e_v543 := (win9 (F := Ideal) V0).reshape 53 main_v539 main_v543 (hn := shapeCasts_S16x13248_S16x207x64) (e := rfl)
  have e_v544 := (win9 (F := Ideal) V0).binary 54 main_v542 main_v543 main_v544 (f := (fn_main_v544 (F := Ideal))) (e := rfl)
  have e_v545 := (win9 (F := Ideal) V0).unary 55 main_v544 main_v545 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v546 := (win9 (F := Ideal) V0).reshape 56 main_v545 main_v546 (hn := shapeCasts_S207x72x16_S207x1152) (e := rfl)
  have e_v547 := (win9 (F := Ideal) V0).binary 57 main_arg1 main_v546 main_v547 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v548 := (win9 (F := Ideal) V0).binary 58 main_arg1 main_v547 main_v548 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_49 := (win9 (F := Ideal) V0).nullary 59 main_cst_49 (v := (constant (F := Ideal) S_ .f32 0x40000000#32)) (e := rfl)
  have e_v549 := (win10 (F := Ideal) V0).unary 0 main_cst_49 main_v549 (f := (broadcastInDim S207x1152 ![] bcast_S_S207x1152 : (⟨S_, .f32⟩ : BufTy).Contents (Elt Ideal) → (⟨S207x1152, .f32⟩ : BufTy).Contents (Elt Ideal))) (e := rfl)
  have e_v550 := (win10 (F := Ideal) V0).binary 1 main_v549 main_v548 main_v550 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v551 := (win10 (F := Ideal) V0).binary 2 main_v550 main_v546 main_v551 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v552 := (win10 (F := Ideal) V0).binary 3 main_arg2 main_v546 main_v552 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v553 := (win10 (F := Ideal) V0).binary 4 main_arg2 main_v552 main_v553 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_50 := (win10 (F := Ideal) V0).nullary 5 main_cst_50 (v := (constant (F := Ideal) S_ .f32 0x40000000#32)) (e := rfl)
  have e_v554 := (win10 (F := Ideal) V0).unary 6 main_cst_50 main_v554 (f := (broadcastInDim S207x1152 ![] bcast_S_S207x1152 : (⟨S_, .f32⟩ : BufTy).Contents (Elt Ideal) → (⟨S207x1152, .f32⟩ : BufTy).Contents (Elt Ideal))) (e := rfl)
  have e_v555 := (win10 (F := Ideal) V0).binary 7 main_v554 main_v553 main_v555 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v556 := (win10 (F := Ideal) V0).binary 8 main_v555 main_v546 main_v556 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v557 := (win10 (F := Ideal) V0).unary 9 main_v546 main_v557 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v558 := (win10 (F := Ideal) V0).unary 10 main_v547 main_v558 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v559 := (win10 (F := Ideal) V0).unary 11 main_v551 main_v559 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v560 := (win10 (F := Ideal) V0).unary 12 main_v552 main_v560 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v561 := (win10 (F := Ideal) V0).unary 13 main_v556 main_v561 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v562 := (win10 (F := Ideal) V0).nary5 14 main_v557 main_v558 main_v559 main_v560 main_v561 main_v562 (f := (fun u => fn_main_v562 (F := Ideal) (u 0) (u 1) (u 2) (u 3) (u 4))) (e := rfl)
  have e_v563 := (win10 (F := Ideal) V0).reshape 15 main_v562 main_v563 (hn := shapeCasts_S5x207x1152_S5x207x72x16) (e := rfl)
  have e_v564 := (win10 (F := Ideal) V0).unary 16 main_v563 main_v564 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v565 := (win10 (F := Ideal) V0).reshape 17 main_v564 main_v565 (hn := shapeCasts_S16x207x72x5_S3312x360) (e := rfl)
  have e_v566 := (win10 (F := Ideal) V0).binary 18 main_v565 main_arg3 main_v566 (f := ((fun l r => Host.dotGeneral (F := Ideal) dot_S3312x360_S360x128_S3312x128_1_0_0_1_n_n none l r) : (⟨S3312x360, .f32⟩ : BufTy).Contents (Elt Ideal) → (⟨S360x128, .f32⟩ : BufTy).Contents (Elt Ideal) → (⟨S3312x128, .f32⟩ : BufTy).Contents (Elt Ideal))) (e := rfl)
  have e_v567 := (win10 (F := Ideal) V0).unary 19 main_arg4 main_v567 (f := (broadcastInDim S1x128 ![1] bcast_S128_S1x128_1 : (⟨S128, .f32⟩ : BufTy).Contents (Elt Ideal) → (⟨S1x128, .f32⟩ : BufTy).Contents (Elt Ideal))) (e := rfl)
  have e_v568 := (win10 (F := Ideal) V0).unary 20 main_v567 main_v568 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v569 := (win10 (F := Ideal) V0).binary 21 main_v566 main_v568 main_v569 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v570 := (win10 (F := Ideal) V0).reshape 22 main_v569 main_v570 (hn := shapeCasts_S3312x128_S16x26496) (e := rfl)
  have e_v571 := (win10 (F := Ideal) V0).unary 23 main_v570 main_v571 (f := (Host.negf (F := Ideal) : (⟨S16x26496, .f32⟩ : BufTy).Contents (Elt Ideal) → (⟨S16x26496, .f32⟩ : BufTy).Contents (Elt Ideal))) (e := rfl)
  have e_v572 := (win10 (F := Ideal) V0).unary 24 main_v571 main_v572 (f := (Host.exp (F := Ideal) : (⟨S16x26496, .f32⟩ : BufTy).Contents (Elt Ideal) → (⟨S16x26496, .f32⟩ : BufTy).Contents (Elt Ideal))) (e := rfl)
  have e_cst_51 := (win10 (F := Ideal) V0).nullary 25 main_cst_51 (v := (constant (F := Ideal) S_ .f32 0x3F800000#32)) (e := rfl)
  have e_v573 := (win10 (F := Ideal) V0).unary 26 main_cst_51 main_v573 (f := (broadcastInDim S16x26496 ![] bcast_S_S16x26496 : (⟨S_, .f32⟩ : BufTy).Contents (Elt Ideal) → (⟨S16x26496, .f32⟩ : BufTy).Contents (Elt Ideal))) (e := rfl)
  have e_v574 := (win10 (F := Ideal) V0).binary 27 main_v573 main_v572 main_v574 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_52 := (win10 (F := Ideal) V0).nullary 28 main_cst_52 (v := (constant (F := Ideal) S_ .f32 0x3F800000#32)) (e := rfl)
  have e_v575 := (win10 (F := Ideal) V0).unary 29 main_cst_52 main_v575 (f := (broadcastInDim S16x26496 ![] bcast_S_S16x26496 : (⟨S_, .f32⟩ : BufTy).Contents (Elt Ideal) → (⟨S16x26496, .f32⟩ : BufTy).Contents (Elt Ideal))) (e := rfl)
  have e_v576 := (win10 (F := Ideal) V0).binary 30 main_v575 main_v574 main_v576 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v577 := (win10 (F := Ideal) V0).reshape 31 main_v576 main_v577 (hn := shapeCasts_S16x26496_S16x207x128) (e := rfl)
  have e_v578 := (win10 (F := Ideal) V0).unary 32 main_v577 main_v578 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v579 := (win10 (F := Ideal) V0).reshape 33 main_v578 main_v579 (hn := shapeCasts_S16x207x64_S16x13248) (e := rfl)
  have e_v580 := (win10 (F := Ideal) V0).unary 34 main_v577 main_v580 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v581 := (win10 (F := Ideal) V0).reshape 35 main_v580 main_v581 (hn := shapeCasts_S16x207x64_S16x13248) (e := rfl)
  have e_v582 := (win10 (F := Ideal) V0).binary 36 main_v579 main_v539 main_v582 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v583 := (win10 (F := Ideal) V0).reshape 37 main_v582 main_v583 (hn := shapeCasts_S16x13248_S16x207x64) (e := rfl)
  have e_v584 := (win10 (F := Ideal) V0).binary 38 main_v542 main_v583 main_v584 (f := (fn_main_v584 (F := Ideal))) (e := rfl)
  have e_v585 := (win10 (F := Ideal) V0).unary 39 main_v584 main_v585 (f := ((transpose S207x72x16 [1, 2, 0] · transposes_S16x207x72_S207x72x16_1_2_0) : (⟨S16x207x72, .f32⟩ : BufTy).Contents (Elt Ideal) → (⟨S207x72x16, .f32⟩ : BufTy).Contents (Elt Ideal))) (e := rfl)
  have e_v586 := (win10 (F := Ideal) V0).reshape 40 main_v585 main_v586 (hn := shapeCasts_S207x72x16_S207x1152) (e := rfl)
  have e_v587 := (win10 (F := Ideal) V0).binary 41 main_arg1 main_v586 main_v587 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v588 := (win10 (F := Ideal) V0).binary 42 main_arg1 main_v587 main_v588 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_53 := (win10 (F := Ideal) V0).nullary 43 main_cst_53 (v := (constant (F := Ideal) S_ .f32 0x40000000#32)) (e := rfl)
  have e_v589 := (win10 (F := Ideal) V0).unary 44 main_cst_53 main_v589 (f := (broadcastInDim S207x1152 ![] bcast_S_S207x1152 : (⟨S_, .f32⟩ : BufTy).Contents (Elt Ideal) → (⟨S207x1152, .f32⟩ : BufTy).Contents (Elt Ideal))) (e := rfl)
  have e_v590 := (win10 (F := Ideal) V0).binary 45 main_v589 main_v588 main_v590 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v591 := (win10 (F := Ideal) V0).binary 46 main_v590 main_v586 main_v591 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v592 := (win10 (F := Ideal) V0).binary 47 main_arg2 main_v586 main_v592 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_v593 := (win10 (F := Ideal) V0).binary 48 main_arg2 main_v592 main_v593 (f := ((fun l r => Host.dotGeneral (F := Ideal) dot_S207x207_S207x1152_S207x1152_1_0_0_1_n_n none l r) : (⟨S207x207, .f32⟩ : BufTy).Contents (Elt Ideal) → (⟨S207x1152, .f32⟩ : BufTy).Contents (Elt Ideal) → (⟨S207x1152, .f32⟩ : BufTy).Contents (Elt Ideal))) (e := rfl)
  have e_cst_54 := (win10 (F := Ideal) V0).nullary 49 main_cst_54 (v := (constant (F := Ideal) S_ .f32 0x40000000#32)) (e := rfl)
  have e_v594 := (win10 (F := Ideal) V0).unary 50 main_cst_54 main_v594 (f := (broadcastInDim S207x1152 ![] bcast_S_S207x1152 : (⟨S_, .f32⟩ : BufTy).Contents (Elt Ideal) → (⟨S207x1152, .f32⟩ : BufTy).Contents (Elt Ideal))) (e := rfl)
  have e_v595 := (win10 (F := Ideal) V0).binary 51 main_v594 main_v593 main_v595 (f := (mulf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v596 := (win10 (F := Ideal) V0).binary 52 main_v595 main_v586 main_v596 (f := (subf (F := Ideal) : (⟨S207x1152, .f32⟩ : BufTy).Contents (Elt Ideal) → (⟨S207x1152, .f32⟩ : BufTy).Contents (Elt Ideal) → (⟨S207x1152, .f32⟩ : BufTy).Contents (Elt Ideal))) (e := rfl)
  have e_v597 := (win10 (F := Ideal) V0).unary 53 main_v586 main_v597 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v598 := (win10 (F := Ideal) V0).unary 54 main_v587 main_v598 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v599 := (win10 (F := Ideal) V0).unary 55 main_v591 main_v599 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v600 := (win10 (F := Ideal) V0).unary 56 main_v592 main_v600 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v601 := (win10 (F := Ideal) V0).unary 57 main_v596 main_v601 (f := (broadcastInDim S1x207x1152 ![1, 2] bcast_S207x1152_S1x207x1152_1_2 : (⟨S207x1152, .f32⟩ : BufTy).Contents (Elt Ideal) → (⟨S1x207x1152, .f32⟩ : BufTy).Contents (Elt Ideal))) (e := rfl)
  have e_v602 := (win10 (F := Ideal) V0).nary5 58 main_v597 main_v598 main_v599 main_v600 main_v601 main_v602 (f := (fun u => fn_main_v602 (F := Ideal) (u 0) (u 1) (u 2) (u 3) (u 4))) (e := rfl)
  have e_v603 := (win10 (F := Ideal) V0).reshape 59 main_v602 main_v603 (hn := shapeCasts_S5x207x1152_S5x207x72x16) (e := rfl)
  have e_v604 := (win11 (F := Ideal) V0).unary 0 main_v603 main_v604 (f := ((transpose S16x207x72x5 [3, 1, 2, 0] · transposes_S5x207x72x16_S16x207x72x5_3_1_2_0) : (⟨S5x207x72x16, .f32⟩ : BufTy).Contents (Elt Ideal) → (⟨S16x207x72x5, .f32⟩ : BufTy).Contents (Elt Ideal))) (e := rfl)
  have e_v605 := (win11 (F := Ideal) V0).reshape 1 main_v604 main_v605 (hn := shapeCasts_S16x207x72x5_S3312x360) (e := rfl)
  have e_v606 := (win11 (F := Ideal) V0).binary 2 main_v605 main_arg5 main_v606 (f := ((fun l r => Host.dotGeneral (F := Ideal) dot_S3312x360_S360x64_S3312x64_1_0_0_1_n_n none l r) : (⟨S3312x360, .f32⟩ : BufTy).Contents (Elt Ideal) → (⟨S360x64, .f32⟩ : BufTy).Contents (Elt Ideal) → (⟨S3312x64, .f32⟩ : BufTy).Contents (Elt Ideal))) (e := rfl)
  have e_v607 := (win11 (F := Ideal) V0).unary 3 main_arg6 main_v607 (f := (broadcastInDim S1x64 ![1] bcast_S64_S1x64_1 : (⟨S64, .f32⟩ : BufTy).Contents (Elt Ideal) → (⟨S1x64, .f32⟩ : BufTy).Contents (Elt Ideal))) (e := rfl)
  have e_v608 := (win11 (F := Ideal) V0).unary 4 main_v607 main_v608 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v609 := (win11 (F := Ideal) V0).binary 5 main_v606 main_v608 main_v609 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v610 := (win11 (F := Ideal) V0).reshape 6 main_v609 main_v610 (hn := shapeCasts_S3312x64_S16x13248) (e := rfl)
  have e_v611 := (win11 (F := Ideal) V0).unary 7 main_v610 main_v611 (f := (Host.tanh (F := Ideal) : (⟨S16x13248, .f32⟩ : BufTy).Contents (Elt Ideal) → (⟨S16x13248, .f32⟩ : BufTy).Contents (Elt Ideal))) (e := rfl)
  have e_v612 := (win11 (F := Ideal) V0).binary 8 main_v581 main_v539 main_v612 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_55 := (win11 (F := Ideal) V0).nullary 9 main_cst_55 (v := (constant (F := Ideal) S_ .f32 0x3F800000#32)) (e := rfl)
  have e_v613 := (win11 (F := Ideal) V0).unary 10 main_cst_55 main_v613 (f := (broadcastInDim S16x13248 ![] bcast_S_S16x13248 : (⟨S_, .f32⟩ : BufTy).Contents (Elt Ideal) → (⟨S16x13248, .f32⟩ : BufTy).Contents (Elt Ideal))) (e := rfl)
  have e_v614 := (win11 (F := Ideal) V0).binary 11 main_v613 main_v581 main_v614 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v615 := (win11 (F := Ideal) V0).binary 12 main_v614 main_v611 main_v615 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v616 := (win11 (F := Ideal) V0).binary 13 main_v612 main_v615 main_v616 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact encCell (W (Proc.devRef .tc main_v542)) (W (Proc.devRef .tc main_v539)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (W (Proc.devRef .tc main_v546)) (W (Proc.devRef .tc main_v547)) (W (Proc.devRef .tc main_v552)) (W (Proc.devRef .tc main_v586)) (W (Proc.devRef .tc main_v587)) (W (Proc.devRef .tc main_v592)) (W (Proc.devRef .tc main_v577)) (W (Proc.devRef .tc main_v581)) (W (Proc.devRef .tc main_v616))
    (by rw [e_v546, e_v545, e_v544, e_v543] <;> rfl)
    (by rw [e_v547, k_arg1] <;> rfl)
    (by rw [e_v552, k_arg2] <;> rfl)
    (by rw [e_v577, e_v576, e_v575, e_cst_52, e_v574, e_v573, e_cst_51, e_v572, e_v571, e_v570, e_v569, e_v568, e_v567, e_v566, e_v565, e_v564, e_v563, e_v562, e_v561, e_v560, e_v559, e_v558, e_v557, e_v556, e_v555, e_v554, e_cst_50, e_v553, e_v551, e_v550, e_v549, e_cst_49, e_v548, k_arg1, k_arg2, k_arg3, k_arg4] <;> rfl)
    (by rw [e_v581, e_v580] <;> rfl)
    (by rw [e_v586, e_v585, e_v584, e_v583, e_v582, e_v579, e_v578] <;> rfl)
    (by rw [e_v587, k_arg1] <;> rfl)
    (by rw [e_v592, k_arg2] <;> rfl)
    (by rw [e_v616, e_v615, e_v614, e_v613, e_cst_55, e_v612, e_v611, e_v610, e_v609, e_v608, e_v607, e_v606, e_v605, e_v604, e_v603, e_v602, e_v601, e_v600, e_v599, e_v598, e_v597, e_v596, e_v595, e_v594, e_cst_54, e_v593, e_v591, e_v590, e_v589, e_cst_53, e_v588, k_arg1, k_arg2, k_arg5, k_arg6] <;> rfl)
    X H hx hH

set_option maxRecDepth 8192 in
set_option maxHeartbeats 2000000 in
/-- A buffer's final contents as an explicit term of other buffers' (and of the arguments as launched): the equations of
    the operations that produce it, rewritten latest first. -/
theorem enc_x_7 (V0 : Valuation τ sig (Elt Ideal)) :
    (after (ops (F := Ideal)) V0 (Proc.devRef .tc main_v542)) = shapeCast S16x207x8 (shapeCast S16x1656 (extractStridedSlice S1x16x1656 ![7, 0, 0] (V0 (Proc.devRef .tc main_arg0)) slices_S8x16x1656_S1x16x1656_7_0_0) shapeCasts_S1x16x1656_S16x1656) shapeCasts_S16x1656_S16x207x8 := by
  have k_arg0 := arg_keep (F := Ideal) V0 main_arg0 (by decide)
  have e_v540 := (win9 (F := Ideal) V0).unary 50 main_arg0 main_v540 (f := ((extractStridedSlice S1x16x1656 ![7, 0, 0] · slices_S8x16x1656_S1x16x1656_7_0_0) : (⟨S8x16x1656, .f32⟩ : BufTy).Contents (Elt Ideal) → (⟨S1x16x1656, .f32⟩ : BufTy).Contents (Elt Ideal))) (e := rfl)
  have e_v541 := (win9 (F := Ideal) V0).reshape 51 main_v540 main_v541 (hn := shapeCasts_S1x16x1656_S16x1656) (e := rfl)
  have e_v542 := (win9 (F := Ideal) V0).reshape 52 main_v541 main_v542 (hn := shapeCasts_S16x1656_S16x207x8) (e := rfl)
  generalize after (ops (F := Ideal)) V0 = W at *
  rw [e_v542, e_v541, e_v540, k_arg0] <;> rfl

set_option maxRecDepth 8192 in
set_option maxHeartbeats 2000000 in
/-- A buffer's final contents as an explicit term of other buffers' (and of the arguments as launched): the equations of
    the operations that produce it, rewritten latest first. -/
theorem enc_h_0 (V0 : Valuation τ sig (Elt Ideal)) :
    (after (ops (F := Ideal)) V0 (Proc.devRef .tc main_v0)) = broadcastInDim S16x13248 ![] bcast_S_S16x13248 (constant (F := Ideal) S_ .f32 0x00000000#32) := by
  have e_cst := (win0 (F := Ideal) V0).nullary 0 main_cst (v := (constant (F := Ideal) S_ .f32 0x00000000#32)) (e := rfl)
  have e_v0 := (win0 (F := Ideal) V0).unary 1 main_cst main_v0 (f := (broadcastInDim S16x13248 ![] bcast_S_S16x13248 : (⟨S_, .f32⟩ : BufTy).Contents (Elt Ideal) → (⟨S16x13248, .f32⟩ : BufTy).Contents (Elt Ideal))) (e := rfl)
  generalize after (ops (F := Ideal)) V0 = W at *
  rw [e_v0, e_cst] <;> rfl

end Cert.RefHand

end
-- ==== Proof.RefHandDec.lean ====
/- The eight decoder steps of the reference, each as the specification's step, each step's projection and next input, the
   first input, and the result array as the stack of the eight projections. -/
import proofs.«113864_g48979807044058_cont_8to1_c_230_28_alg».proof.Proof.RefHandRank
import proofs.«113864_g48979807044058_cont_8to1_c_230_28_alg».proof.Proof.RefCell
import proofs.«113864_g48979807044058_cont_8to1_c_230_28_alg».proof.Proof.RefRunOps

set_option Elab.async false

noncomputable section

namespace Cert.RefHand

open Cert.ReferenceIdeal Cert.ReferenceIdeal.Gen Cert.ReferenceIdeal.HandRun Idealize.ShloMosaic Idealize.ShloMosaic.TcCoe Idealize.ShloMosaic.StableHlo Idealize.ShloMosaic.ValueIdx
open Cert.RefCell

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem dec_step_0 (V0 : Valuation τ sig (Elt Ideal)) (X : Cert.Spec.Arr3 1) (H : Cert.Spec.Arr3 64)
    (hx : toArr3 (d := 1) (after (ops (F := Ideal)) V0 (Proc.devRef .tc main_v618)) = X) (hH : hFlat (after (ops (F := Ideal)) V0 (Proc.devRef .tc main_v616)) = H) :
    hFlat (after (ops (F := Ideal)) V0 (Proc.devRef .tc main_v692)) = Cert.Spec.cell X H (toMat (V0 (Proc.devRef .tc main_arg1))) (toMat (V0 (Proc.devRef .tc main_arg2))) (toMat (V0 (Proc.devRef .tc main_arg7))) (toVec (V0 (Proc.devRef .tc main_arg8))) (toMat (V0 (Proc.devRef .tc main_arg9))) (toVec (V0 (Proc.devRef .tc main_arg10))) := by
  have k_arg1 := arg_keep (F := Ideal) V0 main_arg1 (by decide)
  have k_arg10 := arg_keep (F := Ideal) V0 main_arg10 (by decide)
  have k_arg2 := arg_keep (F := Ideal) V0 main_arg2 (by decide)
  have k_arg7 := arg_keep (F := Ideal) V0 main_arg7 (by decide)
  have k_arg8 := arg_keep (F := Ideal) V0 main_arg8 (by decide)
  have k_arg9 := arg_keep (F := Ideal) V0 main_arg9 (by decide)
  have e_v619 := (win11 (F := Ideal) V0).reshape 17 main_v616 main_v619 (hn := shapeCasts_S16x13248_S16x207x64) (e := rfl)
  have e_v620 := (win11 (F := Ideal) V0).binary 18 main_v618 main_v619 main_v620 (f := (fn_main_v620 (F := Ideal))) (e := rfl)
  have e_v621 := (win11 (F := Ideal) V0).unary 19 main_v620 main_v621 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v622 := (win11 (F := Ideal) V0).reshape 20 main_v621 main_v622 (hn := shapeCasts_S207x65x16_S207x1040) (e := rfl)
  have e_v623 := (win11 (F := Ideal) V0).binary 21 main_arg1 main_v622 main_v623 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v624 := (win11 (F := Ideal) V0).binary 22 main_arg1 main_v623 main_v624 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_57 := (win11 (F := Ideal) V0).nullary 23 main_cst_57 (v := (constant (F := Ideal) S_ .f32 0x40000000#32)) (e := rfl)
  have e_v625 := (win11 (F := Ideal) V0).unary 24 main_cst_57 main_v625 (f := (broadcastInDim S207x1040 ![] bcast_S_S207x1040 : (⟨S_, .f32⟩ : BufTy).Contents (Elt Ideal) → (⟨S207x1040, .f32⟩ : BufTy).Contents (Elt Ideal))) (e := rfl)
  have e_v626 := (win11 (F := Ideal) V0).binary 25 main_v625 main_v624 main_v626 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v627 := (win11 (F := Ideal) V0).binary 26 main_v626 main_v622 main_v627 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v628 := (win11 (F := Ideal) V0).binary 27 main_arg2 main_v622 main_v628 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v629 := (win11 (F := Ideal) V0).binary 28 main_arg2 main_v628 main_v629 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_58 := (win11 (F := Ideal) V0).nullary 29 main_cst_58 (v := (constant (F := Ideal) S_ .f32 0x40000000#32)) (e := rfl)
  have e_v630 := (win11 (F := Ideal) V0).unary 30 main_cst_58 main_v630 (f := (broadcastInDim S207x1040 ![] bcast_S_S207x1040 : (⟨S_, .f32⟩ : BufTy).Contents (Elt Ideal) → (⟨S207x1040, .f32⟩ : BufTy).Contents (Elt Ideal))) (e := rfl)
  have e_v631 := (win11 (F := Ideal) V0).binary 31 main_v630 main_v629 main_v631 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v632 := (win11 (F := Ideal) V0).binary 32 main_v631 main_v622 main_v632 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v633 := (win11 (F := Ideal) V0).unary 33 main_v622 main_v633 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v634 := (win11 (F := Ideal) V0).unary 34 main_v623 main_v634 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v635 := (win11 (F := Ideal) V0).unary 35 main_v627 main_v635 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v636 := (win11 (F := Ideal) V0).unary 36 main_v628 main_v636 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v637 := (win11 (F := Ideal) V0).unary 37 main_v632 main_v637 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v638 := (win11 (F := Ideal) V0).nary5 38 main_v633 main_v634 main_v635 main_v636 main_v637 main_v638 (f := (fun u => fn_main_v638 (F := Ideal) (u 0) (u 1) (u 2) (u 3) (u 4))) (e := rfl)
  have e_v639 := (win11 (F := Ideal) V0).reshape 39 main_v638 main_v639 (hn := shapeCasts_S5x207x1040_S5x207x65x16) (e := rfl)
  have e_v640 := (win11 (F := Ideal) V0).unary 40 main_v639 main_v640 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v641 := (win11 (F := Ideal) V0).reshape 41 main_v640 main_v641 (hn := shapeCasts_S16x207x65x5_S3312x325) (e := rfl)
  have e_v642 := (win11 (F := Ideal) V0).binary 42 main_v641 main_arg7 main_v642 (f := ((fun l r => Host.dotGeneral (F := Ideal) dot_S3312x325_S325x128_S3312x128_1_0_0_1_n_n none l r) : (⟨S3312x325, .f32⟩ : BufTy).Contents (Elt Ideal) → (⟨S325x128, .f32⟩ : BufTy).Contents (Elt Ideal) → (⟨S3312x128, .f32⟩ : BufTy).Contents (Elt Ideal))) (e := rfl)
  have e_v643 := (win11 (F := Ideal) V0).unary 43 main_arg8 main_v643 (f := (broadcastInDim S1x128 ![1] bcast_S128_S1x128_1 : (⟨S128, .f32⟩ : BufTy).Contents (Elt Ideal) → (⟨S1x128, .f32⟩ : BufTy).Contents (Elt Ideal))) (e := rfl)
  have e_v644 := (win11 (F := Ideal) V0).unary 44 main_v643 main_v644 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v645 := (win11 (F := Ideal) V0).binary 45 main_v642 main_v644 main_v645 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v646 := (win11 (F := Ideal) V0).reshape 46 main_v645 main_v646 (hn := shapeCasts_S3312x128_S16x26496) (e := rfl)
  have e_v647 := (win11 (F := Ideal) V0).unary 47 main_v646 main_v647 (f := (Host.negf (F := Ideal) : (⟨S16x26496, .f32⟩ : BufTy).Contents (Elt Ideal) → (⟨S16x26496, .f32⟩ : BufTy).Contents (Elt Ideal))) (e := rfl)
  have e_v648 := (win11 (F := Ideal) V0).unary 48 main_v647 main_v648 (f := (Host.exp (F := Ideal) : (⟨S16x26496, .f32⟩ : BufTy).Contents (Elt Ideal) → (⟨S16x26496, .f32⟩ : BufTy).Contents (Elt Ideal))) (e := rfl)
  have e_cst_59 := (win11 (F := Ideal) V0).nullary 49 main_cst_59 (v := (constant (F := Ideal) S_ .f32 0x3F800000#32)) (e := rfl)
  have e_v649 := (win11 (F := Ideal) V0).unary 50 main_cst_59 main_v649 (f := (broadcastInDim S16x26496 ![] bcast_S_S16x26496 : (⟨S_, .f32⟩ : BufTy).Contents (Elt Ideal) → (⟨S16x26496, .f32⟩ : BufTy).Contents (Elt Ideal))) (e := rfl)
  have e_v650 := (win11 (F := Ideal) V0).binary 51 main_v649 main_v648 main_v650 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_60 := (win11 (F := Ideal) V0).nullary 52 main_cst_60 (v := (constant (F := Ideal) S_ .f32 0x3F800000#32)) (e := rfl)
  have e_v651 := (win11 (F := Ideal) V0).unary 53 main_cst_60 main_v651 (f := (broadcastInDim S16x26496 ![] bcast_S_S16x26496 : (⟨S_, .f32⟩ : BufTy).Contents (Elt Ideal) → (⟨S16x26496, .f32⟩ : BufTy).Contents (Elt Ideal))) (e := rfl)
  have e_v652 := (win11 (F := Ideal) V0).binary 54 main_v651 main_v650 main_v652 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v653 := (win11 (F := Ideal) V0).reshape 55 main_v652 main_v653 (hn := shapeCasts_S16x26496_S16x207x128) (e := rfl)
  have e_v654 := (win11 (F := Ideal) V0).unary 56 main_v653 main_v654 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v655 := (win11 (F := Ideal) V0).reshape 57 main_v654 main_v655 (hn := shapeCasts_S16x207x64_S16x13248) (e := rfl)
  have e_v656 := (win11 (F := Ideal) V0).unary 58 main_v653 main_v656 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v657 := (win11 (F := Ideal) V0).reshape 59 main_v656 main_v657 (hn := shapeCasts_S16x207x64_S16x13248) (e := rfl)
  have e_v658 := (win12 (F := Ideal) V0).binary 0 main_v655 main_v616 main_v658 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v659 := (win12 (F := Ideal) V0).reshape 1 main_v658 main_v659 (hn := shapeCasts_S16x13248_S16x207x64) (e := rfl)
  have e_v660 := (win12 (F := Ideal) V0).binary 2 main_v618 main_v659 main_v660 (f := (fn_main_v660 (F := Ideal))) (e := rfl)
  have e_v661 := (win12 (F := Ideal) V0).unary 3 main_v660 main_v661 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v662 := (win12 (F := Ideal) V0).reshape 4 main_v661 main_v662 (hn := shapeCasts_S207x65x16_S207x1040) (e := rfl)
  have e_v663 := (win12 (F := Ideal) V0).binary 5 main_arg1 main_v662 main_v663 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v664 := (win12 (F := Ideal) V0).binary 6 main_arg1 main_v663 main_v664 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_61 := (win12 (F := Ideal) V0).nullary 7 main_cst_61 (v := (constant (F := Ideal) S_ .f32 0x40000000#32)) (e := rfl)
  have e_v665 := (win12 (F := Ideal) V0).unary 8 main_cst_61 main_v665 (f := (broadcastInDim S207x1040 ![] bcast_S_S207x1040 : (⟨S_, .f32⟩ : BufTy).Contents (Elt Ideal) → (⟨S207x1040, .f32⟩ : BufTy).Contents (Elt Ideal))) (e := rfl)
  have e_v666 := (win12 (F := Ideal) V0).binary 9 main_v665 main_v664 main_v666 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v667 := (win12 (F := Ideal) V0).binary 10 main_v666 main_v662 main_v667 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v668 := (win12 (F := Ideal) V0).binary 11 main_arg2 main_v662 main_v668 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v669 := (win12 (F := Ideal) V0).binary 12 main_arg2 main_v668 main_v669 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_62 := (win12 (F := Ideal) V0).nullary 13 main_cst_62 (v := (constant (F := Ideal) S_ .f32 0x40000000#32)) (e := rfl)
  have e_v670 := (win12 (F := Ideal) V0).unary 14 main_cst_62 main_v670 (f := (broadcastInDim S207x1040 ![] bcast_S_S207x1040 : (⟨S_, .f32⟩ : BufTy).Contents (Elt Ideal) → (⟨S207x1040, .f32⟩ : BufTy).Contents (Elt Ideal))) (e := rfl)
  have e_v671 := (win12 (F := Ideal) V0).binary 15 main_v670 main_v669 main_v671 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v672 := (win12 (F := Ideal) V0).binary 16 main_v671 main_v662 main_v672 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v673 := (win12 (F := Ideal) V0).unary 17 main_v662 main_v673 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v674 := (win12 (F := Ideal) V0).unary 18 main_v663 main_v674 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v675 := (win12 (F := Ideal) V0).unary 19 main_v667 main_v675 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v676 := (win12 (F := Ideal) V0).unary 20 main_v668 main_v676 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v677 := (win12 (F := Ideal) V0).unary 21 main_v672 main_v677 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v678 := (win12 (F := Ideal) V0).nary5 22 main_v673 main_v674 main_v675 main_v676 main_v677 main_v678 (f := (fun u => fn_main_v678 (F := Ideal) (u 0) (u 1) (u 2) (u 3) (u 4))) (e := rfl)
  have e_v679 := (win12 (F := Ideal) V0).reshape 23 main_v678 main_v679 (hn := shapeCasts_S5x207x1040_S5x207x65x16) (e := rfl)
  have e_v680 := (win12 (F := Ideal) V0).unary 24 main_v679 main_v680 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v681 := (win12 (F := Ideal) V0).reshape 25 main_v680 main_v681 (hn := shapeCasts_S16x207x65x5_S3312x325) (e := rfl)
  have e_v682 := (win12 (F := Ideal) V0).binary 26 main_v681 main_arg9 main_v682 (f := ((fun l r => Host.dotGeneral (F := Ideal) dot_S3312x325_S325x64_S3312x64_1_0_0_1_n_n none l r) : (⟨S3312x325, .f32⟩ : BufTy).Contents (Elt Ideal) → (⟨S325x64, .f32⟩ : BufTy).Contents (Elt Ideal) → (⟨S3312x64, .f32⟩ : BufTy).Contents (Elt Ideal))) (e := rfl)
  have e_v683 := (win12 (F := Ideal) V0).unary 27 main_arg10 main_v683 (f := (broadcastInDim S1x64 ![1] bcast_S64_S1x64_1 : (⟨S64, .f32⟩ : BufTy).Contents (Elt Ideal) → (⟨S1x64, .f32⟩ : BufTy).Contents (Elt Ideal))) (e := rfl)
  have e_v684 := (win12 (F := Ideal) V0).unary 28 main_v683 main_v684 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v685 := (win12 (F := Ideal) V0).binary 29 main_v682 main_v684 main_v685 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v686 := (win12 (F := Ideal) V0).reshape 30 main_v685 main_v686 (hn := shapeCasts_S3312x64_S16x13248) (e := rfl)
  have e_v687 := (win12 (F := Ideal) V0).unary 31 main_v686 main_v687 (f := (Host.tanh (F := Ideal) : (⟨S16x13248, .f32⟩ : BufTy).Contents (Elt Ideal) → (⟨S16x13248, .f32⟩ : BufTy).Contents (Elt Ideal))) (e := rfl)
  have e_v688 := (win12 (F := Ideal) V0).binary 32 main_v657 main_v616 main_v688 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_63 := (win12 (F := Ideal) V0).nullary 33 main_cst_63 (v := (constant (F := Ideal) S_ .f32 0x3F800000#32)) (e := rfl)
  have e_v689 := (win12 (F := Ideal) V0).unary 34 main_cst_63 main_v689 (f := (broadcastInDim S16x13248 ![] bcast_S_S16x13248 : (⟨S_, .f32⟩ : BufTy).Contents (Elt Ideal) → (⟨S16x13248, .f32⟩ : BufTy).Contents (Elt Ideal))) (e := rfl)
  have e_v690 := (win12 (F := Ideal) V0).binary 35 main_v689 main_v657 main_v690 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v691 := (win12 (F := Ideal) V0).binary 36 main_v690 main_v687 main_v691 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v692 := (win12 (F := Ideal) V0).binary 37 main_v688 main_v691 main_v692 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact decCell (W (Proc.devRef .tc main_v618)) (W (Proc.devRef .tc main_v616)) (V0 (Proc.devRef .tc main_arg1)) (V0 (Proc.devRef .tc main_arg2)) (V0 (Proc.devRef .tc main_arg7)) (V0 (Proc.devRef .tc main_arg8)) (V0 (Proc.devRef .tc main_arg9)) (V0 (Proc.devRef .tc main_arg10)) (W (Proc.devRef .tc main_v622)) (W (Proc.devRef .tc main_v623)) (W (Proc.devRef .tc main_v628)) (W (Proc.devRef .tc main_v662)) (W (Proc.devRef .tc main_v663)) (W (Proc.devRef .tc main_v668)) (W (Proc.devRef .tc main_v653)) (W (Proc.devRef .tc main_v657)) (W (Proc.devRef .tc main_v692))
    (by rw [e_v622, e_v621, e_v620, e_v619] <;> rfl)
    (by rw [e_v623, k_arg1] <;> rfl)
    (by rw [e_v628, k_arg2] <;> rfl)
    (by rw [e_v653, e_v652, e_v651, e_cst_60, e_v650, e_v649, e_cst_59, e_v648, e_v647, e_v646, e_v645, e_v644, e_v643, e_v642, e_v641, e_v640, e_v639, e_v638, e_v637, e_v636, e_v635, e_v634, e_v633, e_v632, e_v631, e_v630, e_cst_58, e_v629, e_v627, e_v626, e_v625, e_cst_57, e_v624, k_arg1, k_arg2, k_arg7, k_arg8] <;> rfl)
    (by rw [e_v657, e_v656] <;> rfl)
    (by rw [e_v662, e_v661, e_v660, e_v659, e_v658, e_v655, e_v654] <;> rfl)
    (by rw [e_v663, k_arg1] <;> rfl)
    (by rw [e_v668, k_arg2] <;> rfl)
    (by rw [e_v692, e_v691, e_v690, e_v689, e_cst_63, e_v688, e_v687, e_v686, e_v685, e_v684, e_v683, e_v682, e_v681, e_v680, e_v679, e_v678, e_v677, e_v676, e_v675, e_v674, e_v673, e_v672, e_v671, e_v670, e_cst_62, e_v669, e_v667, e_v666, e_v665, e_cst_61, e_v664, k_arg1, k_arg10, k_arg2, k_arg9] <;> rfl)
    X H hx hH

set_option maxRecDepth 8192 in
set_option maxHeartbeats 2000000 in
/-- A buffer's final contents as an explicit term of other buffers' (and of the arguments as launched): the equations of
    the operations that produce it, rewritten latest first. -/
theorem dec_p_0 (V0 : Valuation τ sig (Elt Ideal)) :
    (after (ops (F := Ideal)) V0 (Proc.devRef .tc main_v698)) = projT (after (ops (F := Ideal)) V0 (Proc.devRef .tc main_v692)) (V0 (Proc.devRef .tc main_arg11)) (V0 (Proc.devRef .tc main_arg12)) := by
  have k_arg11 := arg_keep (F := Ideal) V0 main_arg11 (by decide)
  have k_arg12 := arg_keep (F := Ideal) V0 main_arg12 (by decide)
  have e_v693 := (win12 (F := Ideal) V0).reshape 38 main_v692 main_v693 (hn := shapeCasts_S16x13248_S3312x64) (e := rfl)
  have e_v694 := (win12 (F := Ideal) V0).binary 39 main_v693 main_arg11 main_v694 (f := ((fun l r => Host.dotGeneral (F := Ideal) dot_S3312x64_S64x1_S3312x1_1_0_0_1_n_n none l r) : (⟨S3312x64, .f32⟩ : BufTy).Contents (Elt Ideal) → (⟨S64x1, .f32⟩ : BufTy).Contents (Elt Ideal) → (⟨S3312x1, .f32⟩ : BufTy).Contents (Elt Ideal))) (e := rfl)
  have e_v695 := (win12 (F := Ideal) V0).unary 40 main_arg12 main_v695 (f := (broadcastInDim S1x1 ![1] bcast_S1_S1x1_1 : (⟨S1, .f32⟩ : BufTy).Contents (Elt Ideal) → (⟨S1x1, .f32⟩ : BufTy).Contents (Elt Ideal))) (e := rfl)
  have e_v696 := (win12 (F := Ideal) V0).unary 41 main_v695 main_v696 (f := (broadcastInDim S3312x1 ![0, 1] bcast_S1x1_S3312x1_0_1 : (⟨S1x1, .f32⟩ : BufTy).Contents (Elt Ideal) → (⟨S3312x1, .f32⟩ : BufTy).Contents (Elt Ideal))) (e := rfl)
  have e_v697 := (win12 (F := Ideal) V0).binary 42 main_v694 main_v696 main_v697 (f := (addf (F := Ideal) : (⟨S3312x1, .f32⟩ : BufTy).Contents (Elt Ideal) → (⟨S3312x1, .f32⟩ : BufTy).Contents (Elt Ideal) → (⟨S3312x1, .f32⟩ : BufTy).Contents (Elt Ideal))) (e := rfl)
  have e_v698 := (win12 (F := Ideal) V0).reshape 43 main_v697 main_v698 (hn := shapeCasts_S3312x1_S16x207) (e := rfl)
  generalize after (ops (F := Ideal)) V0 = W at *
  rw [e_v698, e_v697, e_v696, e_v695, e_v694, e_v693, k_arg11, k_arg12] <;> rfl

set_option maxRecDepth 8192 in
set_option maxHeartbeats 2000000 in
/-- A buffer's final contents as an explicit term of other buffers' (and of the arguments as launched): the equations of
    the operations that produce it, rewritten latest first. -/
theorem dec_x_1 (V0 : Valuation τ sig (Elt Ideal)) :
    (after (ops (F := Ideal)) V0 (Proc.devRef .tc main_v699)) = decIn (after (ops (F := Ideal)) V0 (Proc.devRef .tc main_v698)) := by
  have e_v699 := (win12 (F := Ideal) V0).reshape 44 main_v698 main_v699 (hn := shapeCasts_S16x207_S16x207x1) (e := rfl)
  generalize after (ops (F := Ideal)) V0 = W at *
  rw [e_v699] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem dec_step_1 (V0 : Valuation τ sig (Elt Ideal)) (X : Cert.Spec.Arr3 1) (H : Cert.Spec.Arr3 64)
    (hx : toArr3 (d := 1) (after (ops (F := Ideal)) V0 (Proc.devRef .tc main_v699)) = X) (hH : hFlat (after (ops (F := Ideal)) V0 (Proc.devRef .tc main_v692)) = H) :
    hFlat (after (ops (F := Ideal)) V0 (Proc.devRef .tc main_v773)) = Cert.Spec.cell X H (toMat (V0 (Proc.devRef .tc main_arg1))) (toMat (V0 (Proc.devRef .tc main_arg2))) (toMat (V0 (Proc.devRef .tc main_arg7))) (toVec (V0 (Proc.devRef .tc main_arg8))) (toMat (V0 (Proc.devRef .tc main_arg9))) (toVec (V0 (Proc.devRef .tc main_arg10))) := by
  have k_arg1 := arg_keep (F := Ideal) V0 main_arg1 (by decide)
  have k_arg10 := arg_keep (F := Ideal) V0 main_arg10 (by decide)
  have k_arg2 := arg_keep (F := Ideal) V0 main_arg2 (by decide)
  have k_arg7 := arg_keep (F := Ideal) V0 main_arg7 (by decide)
  have k_arg8 := arg_keep (F := Ideal) V0 main_arg8 (by decide)
  have k_arg9 := arg_keep (F := Ideal) V0 main_arg9 (by decide)
  have e_v700 := (win12 (F := Ideal) V0).reshape 45 main_v692 main_v700 (hn := shapeCasts_S16x13248_S16x207x64) (e := rfl)
  have e_v701 := (win12 (F := Ideal) V0).binary 46 main_v699 main_v700 main_v701 (f := (fn_main_v701 (F := Ideal))) (e := rfl)
  have e_v702 := (win12 (F := Ideal) V0).unary 47 main_v701 main_v702 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v703 := (win12 (F := Ideal) V0).reshape 48 main_v702 main_v703 (hn := shapeCasts_S207x65x16_S207x1040) (e := rfl)
  have e_v704 := (win12 (F := Ideal) V0).binary 49 main_arg1 main_v703 main_v704 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v705 := (win12 (F := Ideal) V0).binary 50 main_arg1 main_v704 main_v705 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_64 := (win12 (F := Ideal) V0).nullary 51 main_cst_64 (v := (constant (F := Ideal) S_ .f32 0x40000000#32)) (e := rfl)
  have e_v706 := (win12 (F := Ideal) V0).unary 52 main_cst_64 main_v706 (f := (broadcastInDim S207x1040 ![] bcast_S_S207x1040 : (⟨S_, .f32⟩ : BufTy).Contents (Elt Ideal) → (⟨S207x1040, .f32⟩ : BufTy).Contents (Elt Ideal))) (e := rfl)
  have e_v707 := (win12 (F := Ideal) V0).binary 53 main_v706 main_v705 main_v707 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v708 := (win12 (F := Ideal) V0).binary 54 main_v707 main_v703 main_v708 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v709 := (win12 (F := Ideal) V0).binary 55 main_arg2 main_v703 main_v709 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v710 := (win12 (F := Ideal) V0).binary 56 main_arg2 main_v709 main_v710 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_65 := (win12 (F := Ideal) V0).nullary 57 main_cst_65 (v := (constant (F := Ideal) S_ .f32 0x40000000#32)) (e := rfl)
  have e_v711 := (win12 (F := Ideal) V0).unary 58 main_cst_65 main_v711 (f := (broadcastInDim S207x1040 ![] bcast_S_S207x1040 : (⟨S_, .f32⟩ : BufTy).Contents (Elt Ideal) → (⟨S207x1040, .f32⟩ : BufTy).Contents (Elt Ideal))) (e := rfl)
  have e_v712 := (win12 (F := Ideal) V0).binary 59 main_v711 main_v710 main_v712 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v713 := (win13 (F := Ideal) V0).binary 0 main_v712 main_v703 main_v713 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v714 := (win13 (F := Ideal) V0).unary 1 main_v703 main_v714 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v715 := (win13 (F := Ideal) V0).unary 2 main_v704 main_v715 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v716 := (win13 (F := Ideal) V0).unary 3 main_v708 main_v716 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v717 := (win13 (F := Ideal) V0).unary 4 main_v709 main_v717 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v718 := (win13 (F := Ideal) V0).unary 5 main_v713 main_v718 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v719 := (win13 (F := Ideal) V0).nary5 6 main_v714 main_v715 main_v716 main_v717 main_v718 main_v719 (f := (fun u => fn_main_v719 (F := Ideal) (u 0) (u 1) (u 2) (u 3) (u 4))) (e := rfl)
  have e_v720 := (win13 (F := Ideal) V0).reshape 7 main_v719 main_v720 (hn := shapeCasts_S5x207x1040_S5x207x65x16) (e := rfl)
  have e_v721 := (win13 (F := Ideal) V0).unary 8 main_v720 main_v721 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v722 := (win13 (F := Ideal) V0).reshape 9 main_v721 main_v722 (hn := shapeCasts_S16x207x65x5_S3312x325) (e := rfl)
  have e_v723 := (win13 (F := Ideal) V0).binary 10 main_v722 main_arg7 main_v723 (f := ((fun l r => Host.dotGeneral (F := Ideal) dot_S3312x325_S325x128_S3312x128_1_0_0_1_n_n none l r) : (⟨S3312x325, .f32⟩ : BufTy).Contents (Elt Ideal) → (⟨S325x128, .f32⟩ : BufTy).Contents (Elt Ideal) → (⟨S3312x128, .f32⟩ : BufTy).Contents (Elt Ideal))) (e := rfl)
  have e_v724 := (win13 (F := Ideal) V0).unary 11 main_arg8 main_v724 (f := (broadcastInDim S1x128 ![1] bcast_S128_S1x128_1 : (⟨S128, .f32⟩ : BufTy).Contents (Elt Ideal) → (⟨S1x128, .f32⟩ : BufTy).Contents (Elt Ideal))) (e := rfl)
  have e_v725 := (win13 (F := Ideal) V0).unary 12 main_v724 main_v725 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v726 := (win13 (F := Ideal) V0).binary 13 main_v723 main_v725 main_v726 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v727 := (win13 (F := Ideal) V0).reshape 14 main_v726 main_v727 (hn := shapeCasts_S3312x128_S16x26496) (e := rfl)
  have e_v728 := (win13 (F := Ideal) V0).unary 15 main_v727 main_v728 (f := (Host.negf (F := Ideal) : (⟨S16x26496, .f32⟩ : BufTy).Contents (Elt Ideal) → (⟨S16x26496, .f32⟩ : BufTy).Contents (Elt Ideal))) (e := rfl)
  have e_v729 := (win13 (F := Ideal) V0).unary 16 main_v728 main_v729 (f := (Host.exp (F := Ideal) : (⟨S16x26496, .f32⟩ : BufTy).Contents (Elt Ideal) → (⟨S16x26496, .f32⟩ : BufTy).Contents (Elt Ideal))) (e := rfl)
  have e_cst_66 := (win13 (F := Ideal) V0).nullary 17 main_cst_66 (v := (constant (F := Ideal) S_ .f32 0x3F800000#32)) (e := rfl)
  have e_v730 := (win13 (F := Ideal) V0).unary 18 main_cst_66 main_v730 (f := (broadcastInDim S16x26496 ![] bcast_S_S16x26496 : (⟨S_, .f32⟩ : BufTy).Contents (Elt Ideal) → (⟨S16x26496, .f32⟩ : BufTy).Contents (Elt Ideal))) (e := rfl)
  have e_v731 := (win13 (F := Ideal) V0).binary 19 main_v730 main_v729 main_v731 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_67 := (win13 (F := Ideal) V0).nullary 20 main_cst_67 (v := (constant (F := Ideal) S_ .f32 0x3F800000#32)) (e := rfl)
  have e_v732 := (win13 (F := Ideal) V0).unary 21 main_cst_67 main_v732 (f := (broadcastInDim S16x26496 ![] bcast_S_S16x26496 : (⟨S_, .f32⟩ : BufTy).Contents (Elt Ideal) → (⟨S16x26496, .f32⟩ : BufTy).Contents (Elt Ideal))) (e := rfl)
  have e_v733 := (win13 (F := Ideal) V0).binary 22 main_v732 main_v731 main_v733 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v734 := (win13 (F := Ideal) V0).reshape 23 main_v733 main_v734 (hn := shapeCasts_S16x26496_S16x207x128) (e := rfl)
  have e_v735 := (win13 (F := Ideal) V0).unary 24 main_v734 main_v735 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v736 := (win13 (F := Ideal) V0).reshape 25 main_v735 main_v736 (hn := shapeCasts_S16x207x64_S16x13248) (e := rfl)
  have e_v737 := (win13 (F := Ideal) V0).unary 26 main_v734 main_v737 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v738 := (win13 (F := Ideal) V0).reshape 27 main_v737 main_v738 (hn := shapeCasts_S16x207x64_S16x13248) (e := rfl)
  have e_v739 := (win13 (F := Ideal) V0).binary 28 main_v736 main_v692 main_v739 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v740 := (win13 (F := Ideal) V0).reshape 29 main_v739 main_v740 (hn := shapeCasts_S16x13248_S16x207x64) (e := rfl)
  have e_v741 := (win13 (F := Ideal) V0).binary 30 main_v699 main_v740 main_v741 (f := (fn_main_v741 (F := Ideal))) (e := rfl)
  have e_v742 := (win13 (F := Ideal) V0).unary 31 main_v741 main_v742 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v743 := (win13 (F := Ideal) V0).reshape 32 main_v742 main_v743 (hn := shapeCasts_S207x65x16_S207x1040) (e := rfl)
  have e_v744 := (win13 (F := Ideal) V0).binary 33 main_arg1 main_v743 main_v744 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v745 := (win13 (F := Ideal) V0).binary 34 main_arg1 main_v744 main_v745 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_68 := (win13 (F := Ideal) V0).nullary 35 main_cst_68 (v := (constant (F := Ideal) S_ .f32 0x40000000#32)) (e := rfl)
  have e_v746 := (win13 (F := Ideal) V0).unary 36 main_cst_68 main_v746 (f := (broadcastInDim S207x1040 ![] bcast_S_S207x1040 : (⟨S_, .f32⟩ : BufTy).Contents (Elt Ideal) → (⟨S207x1040, .f32⟩ : BufTy).Contents (Elt Ideal))) (e := rfl)
  have e_v747 := (win13 (F := Ideal) V0).binary 37 main_v746 main_v745 main_v747 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v748 := (win13 (F := Ideal) V0).binary 38 main_v747 main_v743 main_v748 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v749 := (win13 (F := Ideal) V0).binary 39 main_arg2 main_v743 main_v749 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v750 := (win13 (F := Ideal) V0).binary 40 main_arg2 main_v749 main_v750 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_69 := (win13 (F := Ideal) V0).nullary 41 main_cst_69 (v := (constant (F := Ideal) S_ .f32 0x40000000#32)) (e := rfl)
  have e_v751 := (win13 (F := Ideal) V0).unary 42 main_cst_69 main_v751 (f := (broadcastInDim S207x1040 ![] bcast_S_S207x1040 : (⟨S_, .f32⟩ : BufTy).Contents (Elt Ideal) → (⟨S207x1040, .f32⟩ : BufTy).Contents (Elt Ideal))) (e := rfl)
  have e_v752 := (win13 (F := Ideal) V0).binary 43 main_v751 main_v750 main_v752 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v753 := (win13 (F := Ideal) V0).binary 44 main_v752 main_v743 main_v753 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v754 := (win13 (F := Ideal) V0).unary 45 main_v743 main_v754 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v755 := (win13 (F := Ideal) V0).unary 46 main_v744 main_v755 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v756 := (win13 (F := Ideal) V0).unary 47 main_v748 main_v756 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v757 := (win13 (F := Ideal) V0).unary 48 main_v749 main_v757 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v758 := (win13 (F := Ideal) V0).unary 49 main_v753 main_v758 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v759 := (win13 (F := Ideal) V0).nary5 50 main_v754 main_v755 main_v756 main_v757 main_v758 main_v759 (f := (fun u => fn_main_v759 (F := Ideal) (u 0) (u 1) (u 2) (u 3) (u 4))) (e := rfl)
  have e_v760 := (win13 (F := Ideal) V0).reshape 51 main_v759 main_v760 (hn := shapeCasts_S5x207x1040_S5x207x65x16) (e := rfl)
  have e_v761 := (win13 (F := Ideal) V0).unary 52 main_v760 main_v761 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v762 := (win13 (F := Ideal) V0).reshape 53 main_v761 main_v762 (hn := shapeCasts_S16x207x65x5_S3312x325) (e := rfl)
  have e_v763 := (win13 (F := Ideal) V0).binary 54 main_v762 main_arg9 main_v763 (f := ((fun l r => Host.dotGeneral (F := Ideal) dot_S3312x325_S325x64_S3312x64_1_0_0_1_n_n none l r) : (⟨S3312x325, .f32⟩ : BufTy).Contents (Elt Ideal) → (⟨S325x64, .f32⟩ : BufTy).Contents (Elt Ideal) → (⟨S3312x64, .f32⟩ : BufTy).Contents (Elt Ideal))) (e := rfl)
  have e_v764 := (win13 (F := Ideal) V0).unary 55 main_arg10 main_v764 (f := (broadcastInDim S1x64 ![1] bcast_S64_S1x64_1 : (⟨S64, .f32⟩ : BufTy).Contents (Elt Ideal) → (⟨S1x64, .f32⟩ : BufTy).Contents (Elt Ideal))) (e := rfl)
  have e_v765 := (win13 (F := Ideal) V0).unary 56 main_v764 main_v765 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v766 := (win13 (F := Ideal) V0).binary 57 main_v763 main_v765 main_v766 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v767 := (win13 (F := Ideal) V0).reshape 58 main_v766 main_v767 (hn := shapeCasts_S3312x64_S16x13248) (e := rfl)
  have e_v768 := (win13 (F := Ideal) V0).unary 59 main_v767 main_v768 (f := (Host.tanh (F := Ideal) : (⟨S16x13248, .f32⟩ : BufTy).Contents (Elt Ideal) → (⟨S16x13248, .f32⟩ : BufTy).Contents (Elt Ideal))) (e := rfl)
  have e_v769 := (win14 (F := Ideal) V0).binary 0 main_v738 main_v692 main_v769 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_70 := (win14 (F := Ideal) V0).nullary 1 main_cst_70 (v := (constant (F := Ideal) S_ .f32 0x3F800000#32)) (e := rfl)
  have e_v770 := (win14 (F := Ideal) V0).unary 2 main_cst_70 main_v770 (f := (broadcastInDim S16x13248 ![] bcast_S_S16x13248 : (⟨S_, .f32⟩ : BufTy).Contents (Elt Ideal) → (⟨S16x13248, .f32⟩ : BufTy).Contents (Elt Ideal))) (e := rfl)
  have e_v771 := (win14 (F := Ideal) V0).binary 3 main_v770 main_v738 main_v771 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v772 := (win14 (F := Ideal) V0).binary 4 main_v771 main_v768 main_v772 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v773 := (win14 (F := Ideal) V0).binary 5 main_v769 main_v772 main_v773 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact decCell (W (Proc.devRef .tc main_v699)) (W (Proc.devRef .tc main_v692)) (V0 (Proc.devRef .tc main_arg1)) (V0 (Proc.devRef .tc main_arg2)) (V0 (Proc.devRef .tc main_arg7)) (V0 (Proc.devRef .tc main_arg8)) (V0 (Proc.devRef .tc main_arg9)) (V0 (Proc.devRef .tc main_arg10)) (W (Proc.devRef .tc main_v703)) (W (Proc.devRef .tc main_v704)) (W (Proc.devRef .tc main_v709)) (W (Proc.devRef .tc main_v743)) (W (Proc.devRef .tc main_v744)) (W (Proc.devRef .tc main_v749)) (W (Proc.devRef .tc main_v734)) (W (Proc.devRef .tc main_v738)) (W (Proc.devRef .tc main_v773))
    (by rw [e_v703, e_v702, e_v701, e_v700] <;> rfl)
    (by rw [e_v704, k_arg1] <;> rfl)
    (by rw [e_v709, k_arg2] <;> rfl)
    (by rw [e_v734, e_v733, e_v732, e_cst_67, e_v731, e_v730, e_cst_66, e_v729, e_v728, e_v727, e_v726, e_v725, e_v724, e_v723, e_v722, e_v721, e_v720, e_v719, e_v718, e_v717, e_v716, e_v715, e_v714, e_v713, e_v712, e_v711, e_cst_65, e_v710, e_v708, e_v707, e_v706, e_cst_64, e_v705, k_arg1, k_arg2, k_arg7, k_arg8] <;> rfl)
    (by rw [e_v738, e_v737] <;> rfl)
    (by rw [e_v743, e_v742, e_v741, e_v740, e_v739, e_v736, e_v735] <;> rfl)
    (by rw [e_v744, k_arg1] <;> rfl)
    (by rw [e_v749, k_arg2] <;> rfl)
    (by rw [e_v773, e_v772, e_v771, e_v770, e_cst_70, e_v769, e_v768, e_v767, e_v766, e_v765, e_v764, e_v763, e_v762, e_v761, e_v760, e_v759, e_v758, e_v757, e_v756, e_v755, e_v754, e_v753, e_v752, e_v751, e_cst_69, e_v750, e_v748, e_v747, e_v746, e_cst_68, e_v745, k_arg1, k_arg10, k_arg2, k_arg9] <;> rfl)
    X H hx hH

set_option maxRecDepth 8192 in
set_option maxHeartbeats 2000000 in
/-- A buffer's final contents as an explicit term of other buffers' (and of the arguments as launched): the equations of
    the operations that produce it, rewritten latest first. -/
theorem dec_p_1 (V0 : Valuation τ sig (Elt Ideal)) :
    (after (ops (F := Ideal)) V0 (Proc.devRef .tc main_v779)) = projT (after (ops (F := Ideal)) V0 (Proc.devRef .tc main_v773)) (V0 (Proc.devRef .tc main_arg11)) (V0 (Proc.devRef .tc main_arg12)) := by
  have k_arg11 := arg_keep (F := Ideal) V0 main_arg11 (by decide)
  have k_arg12 := arg_keep (F := Ideal) V0 main_arg12 (by decide)
  have e_v774 := (win14 (F := Ideal) V0).reshape 6 main_v773 main_v774 (hn := shapeCasts_S16x13248_S3312x64) (e := rfl)
  have e_v775 := (win14 (F := Ideal) V0).binary 7 main_v774 main_arg11 main_v775 (f := ((fun l r => Host.dotGeneral (F := Ideal) dot_S3312x64_S64x1_S3312x1_1_0_0_1_n_n none l r) : (⟨S3312x64, .f32⟩ : BufTy).Contents (Elt Ideal) → (⟨S64x1, .f32⟩ : BufTy).Contents (Elt Ideal) → (⟨S3312x1, .f32⟩ : BufTy).Contents (Elt Ideal))) (e := rfl)
  have e_v776 := (win14 (F := Ideal) V0).unary 8 main_arg12 main_v776 (f := (broadcastInDim S1x1 ![1] bcast_S1_S1x1_1 : (⟨S1, .f32⟩ : BufTy).Contents (Elt Ideal) → (⟨S1x1, .f32⟩ : BufTy).Contents (Elt Ideal))) (e := rfl)
  have e_v777 := (win14 (F := Ideal) V0).unary 9 main_v776 main_v777 (f := (broadcastInDim S3312x1 ![0, 1] bcast_S1x1_S3312x1_0_1 : (⟨S1x1, .f32⟩ : BufTy).Contents (Elt Ideal) → (⟨S3312x1, .f32⟩ : BufTy).Contents (Elt Ideal))) (e := rfl)
  have e_v778 := (win14 (F := Ideal) V0).binary 10 main_v775 main_v777 main_v778 (f := (addf (F := Ideal) : (⟨S3312x1, .f32⟩ : BufTy).Contents (Elt Ideal) → (⟨S3312x1, .f32⟩ : BufTy).Contents (Elt Ideal) → (⟨S3312x1, .f32⟩ : BufTy).Contents (Elt Ideal))) (e := rfl)
  have e_v779 := (win14 (F := Ideal) V0).reshape 11 main_v778 main_v779 (hn := shapeCasts_S3312x1_S16x207) (e := rfl)
  generalize after (ops (F := Ideal)) V0 = W at *
  rw [e_v779, e_v778, e_v777, e_v776, e_v775, e_v774, k_arg11, k_arg12] <;> rfl

set_option maxRecDepth 8192 in
set_option maxHeartbeats 2000000 in
/-- A buffer's final contents as an explicit term of other buffers' (and of the arguments as launched): the equations of
    the operations that produce it, rewritten latest first. -/
theorem dec_x_2 (V0 : Valuation τ sig (Elt Ideal)) :
    (after (ops (F := Ideal)) V0 (Proc.devRef .tc main_v780)) = decIn (after (ops (F := Ideal)) V0 (Proc.devRef .tc main_v779)) := by
  have e_v780 := (win14 (F := Ideal) V0).reshape 12 main_v779 main_v780 (hn := shapeCasts_S16x207_S16x207x1) (e := rfl)
  generalize after (ops (F := Ideal)) V0 = W at *
  rw [e_v780] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem dec_step_2 (V0 : Valuation τ sig (Elt Ideal)) (X : Cert.Spec.Arr3 1) (H : Cert.Spec.Arr3 64)
    (hx : toArr3 (d := 1) (after (ops (F := Ideal)) V0 (Proc.devRef .tc main_v780)) = X) (hH : hFlat (after (ops (F := Ideal)) V0 (Proc.devRef .tc main_v773)) = H) :
    hFlat (after (ops (F := Ideal)) V0 (Proc.devRef .tc main_v854)) = Cert.Spec.cell X H (toMat (V0 (Proc.devRef .tc main_arg1))) (toMat (V0 (Proc.devRef .tc main_arg2))) (toMat (V0 (Proc.devRef .tc main_arg7))) (toVec (V0 (Proc.devRef .tc main_arg8))) (toMat (V0 (Proc.devRef .tc main_arg9))) (toVec (V0 (Proc.devRef .tc main_arg10))) := by
  have k_arg1 := arg_keep (F := Ideal) V0 main_arg1 (by decide)
  have k_arg10 := arg_keep (F := Ideal) V0 main_arg10 (by decide)
  have k_arg2 := arg_keep (F := Ideal) V0 main_arg2 (by decide)
  have k_arg7 := arg_keep (F := Ideal) V0 main_arg7 (by decide)
  have k_arg8 := arg_keep (F := Ideal) V0 main_arg8 (by decide)
  have k_arg9 := arg_keep (F := Ideal) V0 main_arg9 (by decide)
  have e_v781 := (win14 (F := Ideal) V0).reshape 13 main_v773 main_v781 (hn := shapeCasts_S16x13248_S16x207x64) (e := rfl)
  have e_v782 := (win14 (F := Ideal) V0).binary 14 main_v780 main_v781 main_v782 (f := (fn_main_v782 (F := Ideal))) (e := rfl)
  have e_v783 := (win14 (F := Ideal) V0).unary 15 main_v782 main_v783 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v784 := (win14 (F := Ideal) V0).reshape 16 main_v783 main_v784 (hn := shapeCasts_S207x65x16_S207x1040) (e := rfl)
  have e_v785 := (win14 (F := Ideal) V0).binary 17 main_arg1 main_v784 main_v785 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v786 := (win14 (F := Ideal) V0).binary 18 main_arg1 main_v785 main_v786 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_71 := (win14 (F := Ideal) V0).nullary 19 main_cst_71 (v := (constant (F := Ideal) S_ .f32 0x40000000#32)) (e := rfl)
  have e_v787 := (win14 (F := Ideal) V0).unary 20 main_cst_71 main_v787 (f := (broadcastInDim S207x1040 ![] bcast_S_S207x1040 : (⟨S_, .f32⟩ : BufTy).Contents (Elt Ideal) → (⟨S207x1040, .f32⟩ : BufTy).Contents (Elt Ideal))) (e := rfl)
  have e_v788 := (win14 (F := Ideal) V0).binary 21 main_v787 main_v786 main_v788 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v789 := (win14 (F := Ideal) V0).binary 22 main_v788 main_v784 main_v789 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v790 := (win14 (F := Ideal) V0).binary 23 main_arg2 main_v784 main_v790 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v791 := (win14 (F := Ideal) V0).binary 24 main_arg2 main_v790 main_v791 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_72 := (win14 (F := Ideal) V0).nullary 25 main_cst_72 (v := (constant (F := Ideal) S_ .f32 0x40000000#32)) (e := rfl)
  have e_v792 := (win14 (F := Ideal) V0).unary 26 main_cst_72 main_v792 (f := (broadcastInDim S207x1040 ![] bcast_S_S207x1040 : (⟨S_, .f32⟩ : BufTy).Contents (Elt Ideal) → (⟨S207x1040, .f32⟩ : BufTy).Contents (Elt Ideal))) (e := rfl)
  have e_v793 := (win14 (F := Ideal) V0).binary 27 main_v792 main_v791 main_v793 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v794 := (win14 (F := Ideal) V0).binary 28 main_v793 main_v784 main_v794 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v795 := (win14 (F := Ideal) V0).unary 29 main_v784 main_v795 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v796 := (win14 (F := Ideal) V0).unary 30 main_v785 main_v796 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v797 := (win14 (F := Ideal) V0).unary 31 main_v789 main_v797 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v798 := (win14 (F := Ideal) V0).unary 32 main_v790 main_v798 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v799 := (win14 (F := Ideal) V0).unary 33 main_v794 main_v799 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v800 := (win14 (F := Ideal) V0).nary5 34 main_v795 main_v796 main_v797 main_v798 main_v799 main_v800 (f := (fun u => fn_main_v800 (F := Ideal) (u 0) (u 1) (u 2) (u 3) (u 4))) (e := rfl)
  have e_v801 := (win14 (F := Ideal) V0).reshape 35 main_v800 main_v801 (hn := shapeCasts_S5x207x1040_S5x207x65x16) (e := rfl)
  have e_v802 := (win14 (F := Ideal) V0).unary 36 main_v801 main_v802 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v803 := (win14 (F := Ideal) V0).reshape 37 main_v802 main_v803 (hn := shapeCasts_S16x207x65x5_S3312x325) (e := rfl)
  have e_v804 := (win14 (F := Ideal) V0).binary 38 main_v803 main_arg7 main_v804 (f := ((fun l r => Host.dotGeneral (F := Ideal) dot_S3312x325_S325x128_S3312x128_1_0_0_1_n_n none l r) : (⟨S3312x325, .f32⟩ : BufTy).Contents (Elt Ideal) → (⟨S325x128, .f32⟩ : BufTy).Contents (Elt Ideal) → (⟨S3312x128, .f32⟩ : BufTy).Contents (Elt Ideal))) (e := rfl)
  have e_v805 := (win14 (F := Ideal) V0).unary 39 main_arg8 main_v805 (f := (broadcastInDim S1x128 ![1] bcast_S128_S1x128_1 : (⟨S128, .f32⟩ : BufTy).Contents (Elt Ideal) → (⟨S1x128, .f32⟩ : BufTy).Contents (Elt Ideal))) (e := rfl)
  have e_v806 := (win14 (F := Ideal) V0).unary 40 main_v805 main_v806 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v807 := (win14 (F := Ideal) V0).binary 41 main_v804 main_v806 main_v807 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v808 := (win14 (F := Ideal) V0).reshape 42 main_v807 main_v808 (hn := shapeCasts_S3312x128_S16x26496) (e := rfl)
  have e_v809 := (win14 (F := Ideal) V0).unary 43 main_v808 main_v809 (f := (Host.negf (F := Ideal) : (⟨S16x26496, .f32⟩ : BufTy).Contents (Elt Ideal) → (⟨S16x26496, .f32⟩ : BufTy).Contents (Elt Ideal))) (e := rfl)
  have e_v810 := (win14 (F := Ideal) V0).unary 44 main_v809 main_v810 (f := (Host.exp (F := Ideal) : (⟨S16x26496, .f32⟩ : BufTy).Contents (Elt Ideal) → (⟨S16x26496, .f32⟩ : BufTy).Contents (Elt Ideal))) (e := rfl)
  have e_cst_73 := (win14 (F := Ideal) V0).nullary 45 main_cst_73 (v := (constant (F := Ideal) S_ .f32 0x3F800000#32)) (e := rfl)
  have e_v811 := (win14 (F := Ideal) V0).unary 46 main_cst_73 main_v811 (f := (broadcastInDim S16x26496 ![] bcast_S_S16x26496 : (⟨S_, .f32⟩ : BufTy).Contents (Elt Ideal) → (⟨S16x26496, .f32⟩ : BufTy).Contents (Elt Ideal))) (e := rfl)
  have e_v812 := (win14 (F := Ideal) V0).binary 47 main_v811 main_v810 main_v812 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_74 := (win14 (F := Ideal) V0).nullary 48 main_cst_74 (v := (constant (F := Ideal) S_ .f32 0x3F800000#32)) (e := rfl)
  have e_v813 := (win14 (F := Ideal) V0).unary 49 main_cst_74 main_v813 (f := (broadcastInDim S16x26496 ![] bcast_S_S16x26496 : (⟨S_, .f32⟩ : BufTy).Contents (Elt Ideal) → (⟨S16x26496, .f32⟩ : BufTy).Contents (Elt Ideal))) (e := rfl)
  have e_v814 := (win14 (F := Ideal) V0).binary 50 main_v813 main_v812 main_v814 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v815 := (win14 (F := Ideal) V0).reshape 51 main_v814 main_v815 (hn := shapeCasts_S16x26496_S16x207x128) (e := rfl)
  have e_v816 := (win14 (F := Ideal) V0).unary 52 main_v815 main_v816 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v817 := (win14 (F := Ideal) V0).reshape 53 main_v816 main_v817 (hn := shapeCasts_S16x207x64_S16x13248) (e := rfl)
  have e_v818 := (win14 (F := Ideal) V0).unary 54 main_v815 main_v818 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v819 := (win14 (F := Ideal) V0).reshape 55 main_v818 main_v819 (hn := shapeCasts_S16x207x64_S16x13248) (e := rfl)
  have e_v820 := (win14 (F := Ideal) V0).binary 56 main_v817 main_v773 main_v820 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v821 := (win14 (F := Ideal) V0).reshape 57 main_v820 main_v821 (hn := shapeCasts_S16x13248_S16x207x64) (e := rfl)
  have e_v822 := (win14 (F := Ideal) V0).binary 58 main_v780 main_v821 main_v822 (f := (fn_main_v822 (F := Ideal))) (e := rfl)
  have e_v823 := (win14 (F := Ideal) V0).unary 59 main_v822 main_v823 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v824 := (win15 (F := Ideal) V0).reshape 0 main_v823 main_v824 (hn := shapeCasts_S207x65x16_S207x1040) (e := rfl)
  have e_v825 := (win15 (F := Ideal) V0).binary 1 main_arg1 main_v824 main_v825 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v826 := (win15 (F := Ideal) V0).binary 2 main_arg1 main_v825 main_v826 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_75 := (win15 (F := Ideal) V0).nullary 3 main_cst_75 (v := (constant (F := Ideal) S_ .f32 0x40000000#32)) (e := rfl)
  have e_v827 := (win15 (F := Ideal) V0).unary 4 main_cst_75 main_v827 (f := (broadcastInDim S207x1040 ![] bcast_S_S207x1040 : (⟨S_, .f32⟩ : BufTy).Contents (Elt Ideal) → (⟨S207x1040, .f32⟩ : BufTy).Contents (Elt Ideal))) (e := rfl)
  have e_v828 := (win15 (F := Ideal) V0).binary 5 main_v827 main_v826 main_v828 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v829 := (win15 (F := Ideal) V0).binary 6 main_v828 main_v824 main_v829 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v830 := (win15 (F := Ideal) V0).binary 7 main_arg2 main_v824 main_v830 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v831 := (win15 (F := Ideal) V0).binary 8 main_arg2 main_v830 main_v831 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_76 := (win15 (F := Ideal) V0).nullary 9 main_cst_76 (v := (constant (F := Ideal) S_ .f32 0x40000000#32)) (e := rfl)
  have e_v832 := (win15 (F := Ideal) V0).unary 10 main_cst_76 main_v832 (f := (broadcastInDim S207x1040 ![] bcast_S_S207x1040 : (⟨S_, .f32⟩ : BufTy).Contents (Elt Ideal) → (⟨S207x1040, .f32⟩ : BufTy).Contents (Elt Ideal))) (e := rfl)
  have e_v833 := (win15 (F := Ideal) V0).binary 11 main_v832 main_v831 main_v833 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v834 := (win15 (F := Ideal) V0).binary 12 main_v833 main_v824 main_v834 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v835 := (win15 (F := Ideal) V0).unary 13 main_v824 main_v835 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v836 := (win15 (F := Ideal) V0).unary 14 main_v825 main_v836 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v837 := (win15 (F := Ideal) V0).unary 15 main_v829 main_v837 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v838 := (win15 (F := Ideal) V0).unary 16 main_v830 main_v838 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v839 := (win15 (F := Ideal) V0).unary 17 main_v834 main_v839 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v840 := (win15 (F := Ideal) V0).nary5 18 main_v835 main_v836 main_v837 main_v838 main_v839 main_v840 (f := (fun u => fn_main_v840 (F := Ideal) (u 0) (u 1) (u 2) (u 3) (u 4))) (e := rfl)
  have e_v841 := (win15 (F := Ideal) V0).reshape 19 main_v840 main_v841 (hn := shapeCasts_S5x207x1040_S5x207x65x16) (e := rfl)
  have e_v842 := (win15 (F := Ideal) V0).unary 20 main_v841 main_v842 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v843 := (win15 (F := Ideal) V0).reshape 21 main_v842 main_v843 (hn := shapeCasts_S16x207x65x5_S3312x325) (e := rfl)
  have e_v844 := (win15 (F := Ideal) V0).binary 22 main_v843 main_arg9 main_v844 (f := ((fun l r => Host.dotGeneral (F := Ideal) dot_S3312x325_S325x64_S3312x64_1_0_0_1_n_n none l r) : (⟨S3312x325, .f32⟩ : BufTy).Contents (Elt Ideal) → (⟨S325x64, .f32⟩ : BufTy).Contents (Elt Ideal) → (⟨S3312x64, .f32⟩ : BufTy).Contents (Elt Ideal))) (e := rfl)
  have e_v845 := (win15 (F := Ideal) V0).unary 23 main_arg10 main_v845 (f := (broadcastInDim S1x64 ![1] bcast_S64_S1x64_1 : (⟨S64, .f32⟩ : BufTy).Contents (Elt Ideal) → (⟨S1x64, .f32⟩ : BufTy).Contents (Elt Ideal))) (e := rfl)
  have e_v846 := (win15 (F := Ideal) V0).unary 24 main_v845 main_v846 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v847 := (win15 (F := Ideal) V0).binary 25 main_v844 main_v846 main_v847 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v848 := (win15 (F := Ideal) V0).reshape 26 main_v847 main_v848 (hn := shapeCasts_S3312x64_S16x13248) (e := rfl)
  have e_v849 := (win15 (F := Ideal) V0).unary 27 main_v848 main_v849 (f := (Host.tanh (F := Ideal) : (⟨S16x13248, .f32⟩ : BufTy).Contents (Elt Ideal) → (⟨S16x13248, .f32⟩ : BufTy).Contents (Elt Ideal))) (e := rfl)
  have e_v850 := (win15 (F := Ideal) V0).binary 28 main_v819 main_v773 main_v850 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_77 := (win15 (F := Ideal) V0).nullary 29 main_cst_77 (v := (constant (F := Ideal) S_ .f32 0x3F800000#32)) (e := rfl)
  have e_v851 := (win15 (F := Ideal) V0).unary 30 main_cst_77 main_v851 (f := (broadcastInDim S16x13248 ![] bcast_S_S16x13248 : (⟨S_, .f32⟩ : BufTy).Contents (Elt Ideal) → (⟨S16x13248, .f32⟩ : BufTy).Contents (Elt Ideal))) (e := rfl)
  have e_v852 := (win15 (F := Ideal) V0).binary 31 main_v851 main_v819 main_v852 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v853 := (win15 (F := Ideal) V0).binary 32 main_v852 main_v849 main_v853 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v854 := (win15 (F := Ideal) V0).binary 33 main_v850 main_v853 main_v854 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact decCell (W (Proc.devRef .tc main_v780)) (W (Proc.devRef .tc main_v773)) (V0 (Proc.devRef .tc main_arg1)) (V0 (Proc.devRef .tc main_arg2)) (V0 (Proc.devRef .tc main_arg7)) (V0 (Proc.devRef .tc main_arg8)) (V0 (Proc.devRef .tc main_arg9)) (V0 (Proc.devRef .tc main_arg10)) (W (Proc.devRef .tc main_v784)) (W (Proc.devRef .tc main_v785)) (W (Proc.devRef .tc main_v790)) (W (Proc.devRef .tc main_v824)) (W (Proc.devRef .tc main_v825)) (W (Proc.devRef .tc main_v830)) (W (Proc.devRef .tc main_v815)) (W (Proc.devRef .tc main_v819)) (W (Proc.devRef .tc main_v854))
    (by rw [e_v784, e_v783, e_v782, e_v781] <;> rfl)
    (by rw [e_v785, k_arg1] <;> rfl)
    (by rw [e_v790, k_arg2] <;> rfl)
    (by rw [e_v815, e_v814, e_v813, e_cst_74, e_v812, e_v811, e_cst_73, e_v810, e_v809, e_v808, e_v807, e_v806, e_v805, e_v804, e_v803, e_v802, e_v801, e_v800, e_v799, e_v798, e_v797, e_v796, e_v795, e_v794, e_v793, e_v792, e_cst_72, e_v791, e_v789, e_v788, e_v787, e_cst_71, e_v786, k_arg1, k_arg2, k_arg7, k_arg8] <;> rfl)
    (by rw [e_v819, e_v818] <;> rfl)
    (by rw [e_v824, e_v823, e_v822, e_v821, e_v820, e_v817, e_v816] <;> rfl)
    (by rw [e_v825, k_arg1] <;> rfl)
    (by rw [e_v830, k_arg2] <;> rfl)
    (by rw [e_v854, e_v853, e_v852, e_v851, e_cst_77, e_v850, e_v849, e_v848, e_v847, e_v846, e_v845, e_v844, e_v843, e_v842, e_v841, e_v840, e_v839, e_v838, e_v837, e_v836, e_v835, e_v834, e_v833, e_v832, e_cst_76, e_v831, e_v829, e_v828, e_v827, e_cst_75, e_v826, k_arg1, k_arg10, k_arg2, k_arg9] <;> rfl)
    X H hx hH

set_option maxRecDepth 8192 in
set_option maxHeartbeats 2000000 in
/-- A buffer's final contents as an explicit term of other buffers' (and of the arguments as launched): the equations of
    the operations that produce it, rewritten latest first. -/
theorem dec_p_2 (V0 : Valuation τ sig (Elt Ideal)) :
    (after (ops (F := Ideal)) V0 (Proc.devRef .tc main_v860)) = projT (after (ops (F := Ideal)) V0 (Proc.devRef .tc main_v854)) (V0 (Proc.devRef .tc main_arg11)) (V0 (Proc.devRef .tc main_arg12)) := by
  have k_arg11 := arg_keep (F := Ideal) V0 main_arg11 (by decide)
  have k_arg12 := arg_keep (F := Ideal) V0 main_arg12 (by decide)
  have e_v855 := (win15 (F := Ideal) V0).reshape 34 main_v854 main_v855 (hn := shapeCasts_S16x13248_S3312x64) (e := rfl)
  have e_v856 := (win15 (F := Ideal) V0).binary 35 main_v855 main_arg11 main_v856 (f := ((fun l r => Host.dotGeneral (F := Ideal) dot_S3312x64_S64x1_S3312x1_1_0_0_1_n_n none l r) : (⟨S3312x64, .f32⟩ : BufTy).Contents (Elt Ideal) → (⟨S64x1, .f32⟩ : BufTy).Contents (Elt Ideal) → (⟨S3312x1, .f32⟩ : BufTy).Contents (Elt Ideal))) (e := rfl)
  have e_v857 := (win15 (F := Ideal) V0).unary 36 main_arg12 main_v857 (f := (broadcastInDim S1x1 ![1] bcast_S1_S1x1_1 : (⟨S1, .f32⟩ : BufTy).Contents (Elt Ideal) → (⟨S1x1, .f32⟩ : BufTy).Contents (Elt Ideal))) (e := rfl)
  have e_v858 := (win15 (F := Ideal) V0).unary 37 main_v857 main_v858 (f := (broadcastInDim S3312x1 ![0, 1] bcast_S1x1_S3312x1_0_1 : (⟨S1x1, .f32⟩ : BufTy).Contents (Elt Ideal) → (⟨S3312x1, .f32⟩ : BufTy).Contents (Elt Ideal))) (e := rfl)
  have e_v859 := (win15 (F := Ideal) V0).binary 38 main_v856 main_v858 main_v859 (f := (addf (F := Ideal) : (⟨S3312x1, .f32⟩ : BufTy).Contents (Elt Ideal) → (⟨S3312x1, .f32⟩ : BufTy).Contents (Elt Ideal) → (⟨S3312x1, .f32⟩ : BufTy).Contents (Elt Ideal))) (e := rfl)
  have e_v860 := (win15 (F := Ideal) V0).reshape 39 main_v859 main_v860 (hn := shapeCasts_S3312x1_S16x207) (e := rfl)
  generalize after (ops (F := Ideal)) V0 = W at *
  rw [e_v860, e_v859, e_v858, e_v857, e_v856, e_v855, k_arg11, k_arg12] <;> rfl

set_option maxRecDepth 8192 in
set_option maxHeartbeats 2000000 in
/-- A buffer's final contents as an explicit term of other buffers' (and of the arguments as launched): the equations of
    the operations that produce it, rewritten latest first. -/
theorem dec_x_3 (V0 : Valuation τ sig (Elt Ideal)) :
    (after (ops (F := Ideal)) V0 (Proc.devRef .tc main_v861)) = decIn (after (ops (F := Ideal)) V0 (Proc.devRef .tc main_v860)) := by
  have e_v861 := (win15 (F := Ideal) V0).reshape 40 main_v860 main_v861 (hn := shapeCasts_S16x207_S16x207x1) (e := rfl)
  generalize after (ops (F := Ideal)) V0 = W at *
  rw [e_v861] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem dec_step_3 (V0 : Valuation τ sig (Elt Ideal)) (X : Cert.Spec.Arr3 1) (H : Cert.Spec.Arr3 64)
    (hx : toArr3 (d := 1) (after (ops (F := Ideal)) V0 (Proc.devRef .tc main_v861)) = X) (hH : hFlat (after (ops (F := Ideal)) V0 (Proc.devRef .tc main_v854)) = H) :
    hFlat (after (ops (F := Ideal)) V0 (Proc.devRef .tc main_v935)) = Cert.Spec.cell X H (toMat (V0 (Proc.devRef .tc main_arg1))) (toMat (V0 (Proc.devRef .tc main_arg2))) (toMat (V0 (Proc.devRef .tc main_arg7))) (toVec (V0 (Proc.devRef .tc main_arg8))) (toMat (V0 (Proc.devRef .tc main_arg9))) (toVec (V0 (Proc.devRef .tc main_arg10))) := by
  have k_arg1 := arg_keep (F := Ideal) V0 main_arg1 (by decide)
  have k_arg10 := arg_keep (F := Ideal) V0 main_arg10 (by decide)
  have k_arg2 := arg_keep (F := Ideal) V0 main_arg2 (by decide)
  have k_arg7 := arg_keep (F := Ideal) V0 main_arg7 (by decide)
  have k_arg8 := arg_keep (F := Ideal) V0 main_arg8 (by decide)
  have k_arg9 := arg_keep (F := Ideal) V0 main_arg9 (by decide)
  have e_v862 := (win15 (F := Ideal) V0).reshape 41 main_v854 main_v862 (hn := shapeCasts_S16x13248_S16x207x64) (e := rfl)
  have e_v863 := (win15 (F := Ideal) V0).binary 42 main_v861 main_v862 main_v863 (f := (fn_main_v863 (F := Ideal))) (e := rfl)
  have e_v864 := (win15 (F := Ideal) V0).unary 43 main_v863 main_v864 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v865 := (win15 (F := Ideal) V0).reshape 44 main_v864 main_v865 (hn := shapeCasts_S207x65x16_S207x1040) (e := rfl)
  have e_v866 := (win15 (F := Ideal) V0).binary 45 main_arg1 main_v865 main_v866 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v867 := (win15 (F := Ideal) V0).binary 46 main_arg1 main_v866 main_v867 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_78 := (win15 (F := Ideal) V0).nullary 47 main_cst_78 (v := (constant (F := Ideal) S_ .f32 0x40000000#32)) (e := rfl)
  have e_v868 := (win15 (F := Ideal) V0).unary 48 main_cst_78 main_v868 (f := (broadcastInDim S207x1040 ![] bcast_S_S207x1040 : (⟨S_, .f32⟩ : BufTy).Contents (Elt Ideal) → (⟨S207x1040, .f32⟩ : BufTy).Contents (Elt Ideal))) (e := rfl)
  have e_v869 := (win15 (F := Ideal) V0).binary 49 main_v868 main_v867 main_v869 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v870 := (win15 (F := Ideal) V0).binary 50 main_v869 main_v865 main_v870 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v871 := (win15 (F := Ideal) V0).binary 51 main_arg2 main_v865 main_v871 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v872 := (win15 (F := Ideal) V0).binary 52 main_arg2 main_v871 main_v872 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_79 := (win15 (F := Ideal) V0).nullary 53 main_cst_79 (v := (constant (F := Ideal) S_ .f32 0x40000000#32)) (e := rfl)
  have e_v873 := (win15 (F := Ideal) V0).unary 54 main_cst_79 main_v873 (f := (broadcastInDim S207x1040 ![] bcast_S_S207x1040 : (⟨S_, .f32⟩ : BufTy).Contents (Elt Ideal) → (⟨S207x1040, .f32⟩ : BufTy).Contents (Elt Ideal))) (e := rfl)
  have e_v874 := (win15 (F := Ideal) V0).binary 55 main_v873 main_v872 main_v874 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v875 := (win15 (F := Ideal) V0).binary 56 main_v874 main_v865 main_v875 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v876 := (win15 (F := Ideal) V0).unary 57 main_v865 main_v876 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v877 := (win15 (F := Ideal) V0).unary 58 main_v866 main_v877 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v878 := (win15 (F := Ideal) V0).unary 59 main_v870 main_v878 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v879 := (win16 (F := Ideal) V0).unary 0 main_v871 main_v879 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v880 := (win16 (F := Ideal) V0).unary 1 main_v875 main_v880 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v881 := (win16 (F := Ideal) V0).nary5 2 main_v876 main_v877 main_v878 main_v879 main_v880 main_v881 (f := (fun u => fn_main_v881 (F := Ideal) (u 0) (u 1) (u 2) (u 3) (u 4))) (e := rfl)
  have e_v882 := (win16 (F := Ideal) V0).reshape 3 main_v881 main_v882 (hn := shapeCasts_S5x207x1040_S5x207x65x16) (e := rfl)
  have e_v883 := (win16 (F := Ideal) V0).unary 4 main_v882 main_v883 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v884 := (win16 (F := Ideal) V0).reshape 5 main_v883 main_v884 (hn := shapeCasts_S16x207x65x5_S3312x325) (e := rfl)
  have e_v885 := (win16 (F := Ideal) V0).binary 6 main_v884 main_arg7 main_v885 (f := ((fun l r => Host.dotGeneral (F := Ideal) dot_S3312x325_S325x128_S3312x128_1_0_0_1_n_n none l r) : (⟨S3312x325, .f32⟩ : BufTy).Contents (Elt Ideal) → (⟨S325x128, .f32⟩ : BufTy).Contents (Elt Ideal) → (⟨S3312x128, .f32⟩ : BufTy).Contents (Elt Ideal))) (e := rfl)
  have e_v886 := (win16 (F := Ideal) V0).unary 7 main_arg8 main_v886 (f := (broadcastInDim S1x128 ![1] bcast_S128_S1x128_1 : (⟨S128, .f32⟩ : BufTy).Contents (Elt Ideal) → (⟨S1x128, .f32⟩ : BufTy).Contents (Elt Ideal))) (e := rfl)
  have e_v887 := (win16 (F := Ideal) V0).unary 8 main_v886 main_v887 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v888 := (win16 (F := Ideal) V0).binary 9 main_v885 main_v887 main_v888 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v889 := (win16 (F := Ideal) V0).reshape 10 main_v888 main_v889 (hn := shapeCasts_S3312x128_S16x26496) (e := rfl)
  have e_v890 := (win16 (F := Ideal) V0).unary 11 main_v889 main_v890 (f := (Host.negf (F := Ideal) : (⟨S16x26496, .f32⟩ : BufTy).Contents (Elt Ideal) → (⟨S16x26496, .f32⟩ : BufTy).Contents (Elt Ideal))) (e := rfl)
  have e_v891 := (win16 (F := Ideal) V0).unary 12 main_v890 main_v891 (f := (Host.exp (F := Ideal) : (⟨S16x26496, .f32⟩ : BufTy).Contents (Elt Ideal) → (⟨S16x26496, .f32⟩ : BufTy).Contents (Elt Ideal))) (e := rfl)
  have e_cst_80 := (win16 (F := Ideal) V0).nullary 13 main_cst_80 (v := (constant (F := Ideal) S_ .f32 0x3F800000#32)) (e := rfl)
  have e_v892 := (win16 (F := Ideal) V0).unary 14 main_cst_80 main_v892 (f := (broadcastInDim S16x26496 ![] bcast_S_S16x26496 : (⟨S_, .f32⟩ : BufTy).Contents (Elt Ideal) → (⟨S16x26496, .f32⟩ : BufTy).Contents (Elt Ideal))) (e := rfl)
  have e_v893 := (win16 (F := Ideal) V0).binary 15 main_v892 main_v891 main_v893 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_81 := (win16 (F := Ideal) V0).nullary 16 main_cst_81 (v := (constant (F := Ideal) S_ .f32 0x3F800000#32)) (e := rfl)
  have e_v894 := (win16 (F := Ideal) V0).unary 17 main_cst_81 main_v894 (f := (broadcastInDim S16x26496 ![] bcast_S_S16x26496 : (⟨S_, .f32⟩ : BufTy).Contents (Elt Ideal) → (⟨S16x26496, .f32⟩ : BufTy).Contents (Elt Ideal))) (e := rfl)
  have e_v895 := (win16 (F := Ideal) V0).binary 18 main_v894 main_v893 main_v895 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v896 := (win16 (F := Ideal) V0).reshape 19 main_v895 main_v896 (hn := shapeCasts_S16x26496_S16x207x128) (e := rfl)
  have e_v897 := (win16 (F := Ideal) V0).unary 20 main_v896 main_v897 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v898 := (win16 (F := Ideal) V0).reshape 21 main_v897 main_v898 (hn := shapeCasts_S16x207x64_S16x13248) (e := rfl)
  have e_v899 := (win16 (F := Ideal) V0).unary 22 main_v896 main_v899 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v900 := (win16 (F := Ideal) V0).reshape 23 main_v899 main_v900 (hn := shapeCasts_S16x207x64_S16x13248) (e := rfl)
  have e_v901 := (win16 (F := Ideal) V0).binary 24 main_v898 main_v854 main_v901 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v902 := (win16 (F := Ideal) V0).reshape 25 main_v901 main_v902 (hn := shapeCasts_S16x13248_S16x207x64) (e := rfl)
  have e_v903 := (win16 (F := Ideal) V0).binary 26 main_v861 main_v902 main_v903 (f := (fn_main_v903 (F := Ideal))) (e := rfl)
  have e_v904 := (win16 (F := Ideal) V0).unary 27 main_v903 main_v904 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v905 := (win16 (F := Ideal) V0).reshape 28 main_v904 main_v905 (hn := shapeCasts_S207x65x16_S207x1040) (e := rfl)
  have e_v906 := (win16 (F := Ideal) V0).binary 29 main_arg1 main_v905 main_v906 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v907 := (win16 (F := Ideal) V0).binary 30 main_arg1 main_v906 main_v907 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_82 := (win16 (F := Ideal) V0).nullary 31 main_cst_82 (v := (constant (F := Ideal) S_ .f32 0x40000000#32)) (e := rfl)
  have e_v908 := (win16 (F := Ideal) V0).unary 32 main_cst_82 main_v908 (f := (broadcastInDim S207x1040 ![] bcast_S_S207x1040 : (⟨S_, .f32⟩ : BufTy).Contents (Elt Ideal) → (⟨S207x1040, .f32⟩ : BufTy).Contents (Elt Ideal))) (e := rfl)
  have e_v909 := (win16 (F := Ideal) V0).binary 33 main_v908 main_v907 main_v909 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v910 := (win16 (F := Ideal) V0).binary 34 main_v909 main_v905 main_v910 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v911 := (win16 (F := Ideal) V0).binary 35 main_arg2 main_v905 main_v911 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v912 := (win16 (F := Ideal) V0).binary 36 main_arg2 main_v911 main_v912 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_83 := (win16 (F := Ideal) V0).nullary 37 main_cst_83 (v := (constant (F := Ideal) S_ .f32 0x40000000#32)) (e := rfl)
  have e_v913 := (win16 (F := Ideal) V0).unary 38 main_cst_83 main_v913 (f := (broadcastInDim S207x1040 ![] bcast_S_S207x1040 : (⟨S_, .f32⟩ : BufTy).Contents (Elt Ideal) → (⟨S207x1040, .f32⟩ : BufTy).Contents (Elt Ideal))) (e := rfl)
  have e_v914 := (win16 (F := Ideal) V0).binary 39 main_v913 main_v912 main_v914 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v915 := (win16 (F := Ideal) V0).binary 40 main_v914 main_v905 main_v915 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v916 := (win16 (F := Ideal) V0).unary 41 main_v905 main_v916 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v917 := (win16 (F := Ideal) V0).unary 42 main_v906 main_v917 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v918 := (win16 (F := Ideal) V0).unary 43 main_v910 main_v918 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v919 := (win16 (F := Ideal) V0).unary 44 main_v911 main_v919 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v920 := (win16 (F := Ideal) V0).unary 45 main_v915 main_v920 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v921 := (win16 (F := Ideal) V0).nary5 46 main_v916 main_v917 main_v918 main_v919 main_v920 main_v921 (f := (fun u => fn_main_v921 (F := Ideal) (u 0) (u 1) (u 2) (u 3) (u 4))) (e := rfl)
  have e_v922 := (win16 (F := Ideal) V0).reshape 47 main_v921 main_v922 (hn := shapeCasts_S5x207x1040_S5x207x65x16) (e := rfl)
  have e_v923 := (win16 (F := Ideal) V0).unary 48 main_v922 main_v923 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v924 := (win16 (F := Ideal) V0).reshape 49 main_v923 main_v924 (hn := shapeCasts_S16x207x65x5_S3312x325) (e := rfl)
  have e_v925 := (win16 (F := Ideal) V0).binary 50 main_v924 main_arg9 main_v925 (f := ((fun l r => Host.dotGeneral (F := Ideal) dot_S3312x325_S325x64_S3312x64_1_0_0_1_n_n none l r) : (⟨S3312x325, .f32⟩ : BufTy).Contents (Elt Ideal) → (⟨S325x64, .f32⟩ : BufTy).Contents (Elt Ideal) → (⟨S3312x64, .f32⟩ : BufTy).Contents (Elt Ideal))) (e := rfl)
  have e_v926 := (win16 (F := Ideal) V0).unary 51 main_arg10 main_v926 (f := (broadcastInDim S1x64 ![1] bcast_S64_S1x64_1 : (⟨S64, .f32⟩ : BufTy).Contents (Elt Ideal) → (⟨S1x64, .f32⟩ : BufTy).Contents (Elt Ideal))) (e := rfl)
  have e_v927 := (win16 (F := Ideal) V0).unary 52 main_v926 main_v927 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v928 := (win16 (F := Ideal) V0).binary 53 main_v925 main_v927 main_v928 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v929 := (win16 (F := Ideal) V0).reshape 54 main_v928 main_v929 (hn := shapeCasts_S3312x64_S16x13248) (e := rfl)
  have e_v930 := (win16 (F := Ideal) V0).unary 55 main_v929 main_v930 (f := (Host.tanh (F := Ideal) : (⟨S16x13248, .f32⟩ : BufTy).Contents (Elt Ideal) → (⟨S16x13248, .f32⟩ : BufTy).Contents (Elt Ideal))) (e := rfl)
  have e_v931 := (win16 (F := Ideal) V0).binary 56 main_v900 main_v854 main_v931 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_84 := (win16 (F := Ideal) V0).nullary 57 main_cst_84 (v := (constant (F := Ideal) S_ .f32 0x3F800000#32)) (e := rfl)
  have e_v932 := (win16 (F := Ideal) V0).unary 58 main_cst_84 main_v932 (f := (broadcastInDim S16x13248 ![] bcast_S_S16x13248 : (⟨S_, .f32⟩ : BufTy).Contents (Elt Ideal) → (⟨S16x13248, .f32⟩ : BufTy).Contents (Elt Ideal))) (e := rfl)
  have e_v933 := (win16 (F := Ideal) V0).binary 59 main_v932 main_v900 main_v933 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v934 := (win17 (F := Ideal) V0).binary 0 main_v933 main_v930 main_v934 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v935 := (win17 (F := Ideal) V0).binary 1 main_v931 main_v934 main_v935 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact decCell (W (Proc.devRef .tc main_v861)) (W (Proc.devRef .tc main_v854)) (V0 (Proc.devRef .tc main_arg1)) (V0 (Proc.devRef .tc main_arg2)) (V0 (Proc.devRef .tc main_arg7)) (V0 (Proc.devRef .tc main_arg8)) (V0 (Proc.devRef .tc main_arg9)) (V0 (Proc.devRef .tc main_arg10)) (W (Proc.devRef .tc main_v865)) (W (Proc.devRef .tc main_v866)) (W (Proc.devRef .tc main_v871)) (W (Proc.devRef .tc main_v905)) (W (Proc.devRef .tc main_v906)) (W (Proc.devRef .tc main_v911)) (W (Proc.devRef .tc main_v896)) (W (Proc.devRef .tc main_v900)) (W (Proc.devRef .tc main_v935))
    (by rw [e_v865, e_v864, e_v863, e_v862] <;> rfl)
    (by rw [e_v866, k_arg1] <;> rfl)
    (by rw [e_v871, k_arg2] <;> rfl)
    (by rw [e_v896, e_v895, e_v894, e_cst_81, e_v893, e_v892, e_cst_80, e_v891, e_v890, e_v889, e_v888, e_v887, e_v886, e_v885, e_v884, e_v883, e_v882, e_v881, e_v880, e_v879, e_v878, e_v877, e_v876, e_v875, e_v874, e_v873, e_cst_79, e_v872, e_v870, e_v869, e_v868, e_cst_78, e_v867, k_arg1, k_arg2, k_arg7, k_arg8] <;> rfl)
    (by rw [e_v900, e_v899] <;> rfl)
    (by rw [e_v905, e_v904, e_v903, e_v902, e_v901, e_v898, e_v897] <;> rfl)
    (by rw [e_v906, k_arg1] <;> rfl)
    (by rw [e_v911, k_arg2] <;> rfl)
    (by rw [e_v935, e_v934, e_v933, e_v932, e_cst_84, e_v931, e_v930, e_v929, e_v928, e_v927, e_v926, e_v925, e_v924, e_v923, e_v922, e_v921, e_v920, e_v919, e_v918, e_v917, e_v916, e_v915, e_v914, e_v913, e_cst_83, e_v912, e_v910, e_v909, e_v908, e_cst_82, e_v907, k_arg1, k_arg10, k_arg2, k_arg9] <;> rfl)
    X H hx hH

set_option maxRecDepth 8192 in
set_option maxHeartbeats 2000000 in
/-- A buffer's final contents as an explicit term of other buffers' (and of the arguments as launched): the equations of
    the operations that produce it, rewritten latest first. -/
theorem dec_p_3 (V0 : Valuation τ sig (Elt Ideal)) :
    (after (ops (F := Ideal)) V0 (Proc.devRef .tc main_v941)) = projT (after (ops (F := Ideal)) V0 (Proc.devRef .tc main_v935)) (V0 (Proc.devRef .tc main_arg11)) (V0 (Proc.devRef .tc main_arg12)) := by
  have k_arg11 := arg_keep (F := Ideal) V0 main_arg11 (by decide)
  have k_arg12 := arg_keep (F := Ideal) V0 main_arg12 (by decide)
  have e_v936 := (win17 (F := Ideal) V0).reshape 2 main_v935 main_v936 (hn := shapeCasts_S16x13248_S3312x64) (e := rfl)
  have e_v937 := (win17 (F := Ideal) V0).binary 3 main_v936 main_arg11 main_v937 (f := ((fun l r => Host.dotGeneral (F := Ideal) dot_S3312x64_S64x1_S3312x1_1_0_0_1_n_n none l r) : (⟨S3312x64, .f32⟩ : BufTy).Contents (Elt Ideal) → (⟨S64x1, .f32⟩ : BufTy).Contents (Elt Ideal) → (⟨S3312x1, .f32⟩ : BufTy).Contents (Elt Ideal))) (e := rfl)
  have e_v938 := (win17 (F := Ideal) V0).unary 4 main_arg12 main_v938 (f := (broadcastInDim S1x1 ![1] bcast_S1_S1x1_1 : (⟨S1, .f32⟩ : BufTy).Contents (Elt Ideal) → (⟨S1x1, .f32⟩ : BufTy).Contents (Elt Ideal))) (e := rfl)
  have e_v939 := (win17 (F := Ideal) V0).unary 5 main_v938 main_v939 (f := (broadcastInDim S3312x1 ![0, 1] bcast_S1x1_S3312x1_0_1 : (⟨S1x1, .f32⟩ : BufTy).Contents (Elt Ideal) → (⟨S3312x1, .f32⟩ : BufTy).Contents (Elt Ideal))) (e := rfl)
  have e_v940 := (win17 (F := Ideal) V0).binary 6 main_v937 main_v939 main_v940 (f := (addf (F := Ideal) : (⟨S3312x1, .f32⟩ : BufTy).Contents (Elt Ideal) → (⟨S3312x1, .f32⟩ : BufTy).Contents (Elt Ideal) → (⟨S3312x1, .f32⟩ : BufTy).Contents (Elt Ideal))) (e := rfl)
  have e_v941 := (win17 (F := Ideal) V0).reshape 7 main_v940 main_v941 (hn := shapeCasts_S3312x1_S16x207) (e := rfl)
  generalize after (ops (F := Ideal)) V0 = W at *
  rw [e_v941, e_v940, e_v939, e_v938, e_v937, e_v936, k_arg11, k_arg12] <;> rfl

set_option maxRecDepth 8192 in
set_option maxHeartbeats 2000000 in
/-- A buffer's final contents as an explicit term of other buffers' (and of the arguments as launched): the equations of
    the operations that produce it, rewritten latest first. -/
theorem dec_x_4 (V0 : Valuation τ sig (Elt Ideal)) :
    (after (ops (F := Ideal)) V0 (Proc.devRef .tc main_v942)) = decIn (after (ops (F := Ideal)) V0 (Proc.devRef .tc main_v941)) := by
  have e_v942 := (win17 (F := Ideal) V0).reshape 8 main_v941 main_v942 (hn := shapeCasts_S16x207_S16x207x1) (e := rfl)
  generalize after (ops (F := Ideal)) V0 = W at *
  rw [e_v942] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem dec_step_4 (V0 : Valuation τ sig (Elt Ideal)) (X : Cert.Spec.Arr3 1) (H : Cert.Spec.Arr3 64)
    (hx : toArr3 (d := 1) (after (ops (F := Ideal)) V0 (Proc.devRef .tc main_v942)) = X) (hH : hFlat (after (ops (F := Ideal)) V0 (Proc.devRef .tc main_v935)) = H) :
    hFlat (after (ops (F := Ideal)) V0 (Proc.devRef .tc main_v1016)) = Cert.Spec.cell X H (toMat (V0 (Proc.devRef .tc main_arg1))) (toMat (V0 (Proc.devRef .tc main_arg2))) (toMat (V0 (Proc.devRef .tc main_arg7))) (toVec (V0 (Proc.devRef .tc main_arg8))) (toMat (V0 (Proc.devRef .tc main_arg9))) (toVec (V0 (Proc.devRef .tc main_arg10))) := by
  have k_arg1 := arg_keep (F := Ideal) V0 main_arg1 (by decide)
  have k_arg10 := arg_keep (F := Ideal) V0 main_arg10 (by decide)
  have k_arg2 := arg_keep (F := Ideal) V0 main_arg2 (by decide)
  have k_arg7 := arg_keep (F := Ideal) V0 main_arg7 (by decide)
  have k_arg8 := arg_keep (F := Ideal) V0 main_arg8 (by decide)
  have k_arg9 := arg_keep (F := Ideal) V0 main_arg9 (by decide)
  have e_v943 := (win17 (F := Ideal) V0).reshape 9 main_v935 main_v943 (hn := shapeCasts_S16x13248_S16x207x64) (e := rfl)
  have e_v944 := (win17 (F := Ideal) V0).binary 10 main_v942 main_v943 main_v944 (f := (fn_main_v944 (F := Ideal))) (e := rfl)
  have e_v945 := (win17 (F := Ideal) V0).unary 11 main_v944 main_v945 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v946 := (win17 (F := Ideal) V0).reshape 12 main_v945 main_v946 (hn := shapeCasts_S207x65x16_S207x1040) (e := rfl)
  have e_v947 := (win17 (F := Ideal) V0).binary 13 main_arg1 main_v946 main_v947 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v948 := (win17 (F := Ideal) V0).binary 14 main_arg1 main_v947 main_v948 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_85 := (win17 (F := Ideal) V0).nullary 15 main_cst_85 (v := (constant (F := Ideal) S_ .f32 0x40000000#32)) (e := rfl)
  have e_v949 := (win17 (F := Ideal) V0).unary 16 main_cst_85 main_v949 (f := (broadcastInDim S207x1040 ![] bcast_S_S207x1040 : (⟨S_, .f32⟩ : BufTy).Contents (Elt Ideal) → (⟨S207x1040, .f32⟩ : BufTy).Contents (Elt Ideal))) (e := rfl)
  have e_v950 := (win17 (F := Ideal) V0).binary 17 main_v949 main_v948 main_v950 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v951 := (win17 (F := Ideal) V0).binary 18 main_v950 main_v946 main_v951 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v952 := (win17 (F := Ideal) V0).binary 19 main_arg2 main_v946 main_v952 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v953 := (win17 (F := Ideal) V0).binary 20 main_arg2 main_v952 main_v953 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_86 := (win17 (F := Ideal) V0).nullary 21 main_cst_86 (v := (constant (F := Ideal) S_ .f32 0x40000000#32)) (e := rfl)
  have e_v954 := (win17 (F := Ideal) V0).unary 22 main_cst_86 main_v954 (f := (broadcastInDim S207x1040 ![] bcast_S_S207x1040 : (⟨S_, .f32⟩ : BufTy).Contents (Elt Ideal) → (⟨S207x1040, .f32⟩ : BufTy).Contents (Elt Ideal))) (e := rfl)
  have e_v955 := (win17 (F := Ideal) V0).binary 23 main_v954 main_v953 main_v955 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v956 := (win17 (F := Ideal) V0).binary 24 main_v955 main_v946 main_v956 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v957 := (win17 (F := Ideal) V0).unary 25 main_v946 main_v957 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v958 := (win17 (F := Ideal) V0).unary 26 main_v947 main_v958 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v959 := (win17 (F := Ideal) V0).unary 27 main_v951 main_v959 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v960 := (win17 (F := Ideal) V0).unary 28 main_v952 main_v960 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v961 := (win17 (F := Ideal) V0).unary 29 main_v956 main_v961 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v962 := (win17 (F := Ideal) V0).nary5 30 main_v957 main_v958 main_v959 main_v960 main_v961 main_v962 (f := (fun u => fn_main_v962 (F := Ideal) (u 0) (u 1) (u 2) (u 3) (u 4))) (e := rfl)
  have e_v963 := (win17 (F := Ideal) V0).reshape 31 main_v962 main_v963 (hn := shapeCasts_S5x207x1040_S5x207x65x16) (e := rfl)
  have e_v964 := (win17 (F := Ideal) V0).unary 32 main_v963 main_v964 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v965 := (win17 (F := Ideal) V0).reshape 33 main_v964 main_v965 (hn := shapeCasts_S16x207x65x5_S3312x325) (e := rfl)
  have e_v966 := (win17 (F := Ideal) V0).binary 34 main_v965 main_arg7 main_v966 (f := ((fun l r => Host.dotGeneral (F := Ideal) dot_S3312x325_S325x128_S3312x128_1_0_0_1_n_n none l r) : (⟨S3312x325, .f32⟩ : BufTy).Contents (Elt Ideal) → (⟨S325x128, .f32⟩ : BufTy).Contents (Elt Ideal) → (⟨S3312x128, .f32⟩ : BufTy).Contents (Elt Ideal))) (e := rfl)
  have e_v967 := (win17 (F := Ideal) V0).unary 35 main_arg8 main_v967 (f := (broadcastInDim S1x128 ![1] bcast_S128_S1x128_1 : (⟨S128, .f32⟩ : BufTy).Contents (Elt Ideal) → (⟨S1x128, .f32⟩ : BufTy).Contents (Elt Ideal))) (e := rfl)
  have e_v968 := (win17 (F := Ideal) V0).unary 36 main_v967 main_v968 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v969 := (win17 (F := Ideal) V0).binary 37 main_v966 main_v968 main_v969 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v970 := (win17 (F := Ideal) V0).reshape 38 main_v969 main_v970 (hn := shapeCasts_S3312x128_S16x26496) (e := rfl)
  have e_v971 := (win17 (F := Ideal) V0).unary 39 main_v970 main_v971 (f := (Host.negf (F := Ideal) : (⟨S16x26496, .f32⟩ : BufTy).Contents (Elt Ideal) → (⟨S16x26496, .f32⟩ : BufTy).Contents (Elt Ideal))) (e := rfl)
  have e_v972 := (win17 (F := Ideal) V0).unary 40 main_v971 main_v972 (f := (Host.exp (F := Ideal) : (⟨S16x26496, .f32⟩ : BufTy).Contents (Elt Ideal) → (⟨S16x26496, .f32⟩ : BufTy).Contents (Elt Ideal))) (e := rfl)
  have e_cst_87 := (win17 (F := Ideal) V0).nullary 41 main_cst_87 (v := (constant (F := Ideal) S_ .f32 0x3F800000#32)) (e := rfl)
  have e_v973 := (win17 (F := Ideal) V0).unary 42 main_cst_87 main_v973 (f := (broadcastInDim S16x26496 ![] bcast_S_S16x26496 : (⟨S_, .f32⟩ : BufTy).Contents (Elt Ideal) → (⟨S16x26496, .f32⟩ : BufTy).Contents (Elt Ideal))) (e := rfl)
  have e_v974 := (win17 (F := Ideal) V0).binary 43 main_v973 main_v972 main_v974 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_88 := (win17 (F := Ideal) V0).nullary 44 main_cst_88 (v := (constant (F := Ideal) S_ .f32 0x3F800000#32)) (e := rfl)
  have e_v975 := (win17 (F := Ideal) V0).unary 45 main_cst_88 main_v975 (f := (broadcastInDim S16x26496 ![] bcast_S_S16x26496 : (⟨S_, .f32⟩ : BufTy).Contents (Elt Ideal) → (⟨S16x26496, .f32⟩ : BufTy).Contents (Elt Ideal))) (e := rfl)
  have e_v976 := (win17 (F := Ideal) V0).binary 46 main_v975 main_v974 main_v976 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v977 := (win17 (F := Ideal) V0).reshape 47 main_v976 main_v977 (hn := shapeCasts_S16x26496_S16x207x128) (e := rfl)
  have e_v978 := (win17 (F := Ideal) V0).unary 48 main_v977 main_v978 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v979 := (win17 (F := Ideal) V0).reshape 49 main_v978 main_v979 (hn := shapeCasts_S16x207x64_S16x13248) (e := rfl)
  have e_v980 := (win17 (F := Ideal) V0).unary 50 main_v977 main_v980 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v981 := (win17 (F := Ideal) V0).reshape 51 main_v980 main_v981 (hn := shapeCasts_S16x207x64_S16x13248) (e := rfl)
  have e_v982 := (win17 (F := Ideal) V0).binary 52 main_v979 main_v935 main_v982 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v983 := (win17 (F := Ideal) V0).reshape 53 main_v982 main_v983 (hn := shapeCasts_S16x13248_S16x207x64) (e := rfl)
  have e_v984 := (win17 (F := Ideal) V0).binary 54 main_v942 main_v983 main_v984 (f := (fn_main_v984 (F := Ideal))) (e := rfl)
  have e_v985 := (win17 (F := Ideal) V0).unary 55 main_v984 main_v985 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v986 := (win17 (F := Ideal) V0).reshape 56 main_v985 main_v986 (hn := shapeCasts_S207x65x16_S207x1040) (e := rfl)
  have e_v987 := (win17 (F := Ideal) V0).binary 57 main_arg1 main_v986 main_v987 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v988 := (win17 (F := Ideal) V0).binary 58 main_arg1 main_v987 main_v988 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_89 := (win17 (F := Ideal) V0).nullary 59 main_cst_89 (v := (constant (F := Ideal) S_ .f32 0x40000000#32)) (e := rfl)
  have e_v989 := (win18 (F := Ideal) V0).unary 0 main_cst_89 main_v989 (f := (broadcastInDim S207x1040 ![] bcast_S_S207x1040 : (⟨S_, .f32⟩ : BufTy).Contents (Elt Ideal) → (⟨S207x1040, .f32⟩ : BufTy).Contents (Elt Ideal))) (e := rfl)
  have e_v990 := (win18 (F := Ideal) V0).binary 1 main_v989 main_v988 main_v990 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v991 := (win18 (F := Ideal) V0).binary 2 main_v990 main_v986 main_v991 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v992 := (win18 (F := Ideal) V0).binary 3 main_arg2 main_v986 main_v992 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v993 := (win18 (F := Ideal) V0).binary 4 main_arg2 main_v992 main_v993 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_90 := (win18 (F := Ideal) V0).nullary 5 main_cst_90 (v := (constant (F := Ideal) S_ .f32 0x40000000#32)) (e := rfl)
  have e_v994 := (win18 (F := Ideal) V0).unary 6 main_cst_90 main_v994 (f := (broadcastInDim S207x1040 ![] bcast_S_S207x1040 : (⟨S_, .f32⟩ : BufTy).Contents (Elt Ideal) → (⟨S207x1040, .f32⟩ : BufTy).Contents (Elt Ideal))) (e := rfl)
  have e_v995 := (win18 (F := Ideal) V0).binary 7 main_v994 main_v993 main_v995 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v996 := (win18 (F := Ideal) V0).binary 8 main_v995 main_v986 main_v996 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v997 := (win18 (F := Ideal) V0).unary 9 main_v986 main_v997 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v998 := (win18 (F := Ideal) V0).unary 10 main_v987 main_v998 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v999 := (win18 (F := Ideal) V0).unary 11 main_v991 main_v999 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1000 := (win18 (F := Ideal) V0).unary 12 main_v992 main_v1000 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1001 := (win18 (F := Ideal) V0).unary 13 main_v996 main_v1001 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1002 := (win18 (F := Ideal) V0).nary5 14 main_v997 main_v998 main_v999 main_v1000 main_v1001 main_v1002 (f := (fun u => fn_main_v1002 (F := Ideal) (u 0) (u 1) (u 2) (u 3) (u 4))) (e := rfl)
  have e_v1003 := (win18 (F := Ideal) V0).reshape 15 main_v1002 main_v1003 (hn := shapeCasts_S5x207x1040_S5x207x65x16) (e := rfl)
  have e_v1004 := (win18 (F := Ideal) V0).unary 16 main_v1003 main_v1004 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v1005 := (win18 (F := Ideal) V0).reshape 17 main_v1004 main_v1005 (hn := shapeCasts_S16x207x65x5_S3312x325) (e := rfl)
  have e_v1006 := (win18 (F := Ideal) V0).binary 18 main_v1005 main_arg9 main_v1006 (f := ((fun l r => Host.dotGeneral (F := Ideal) dot_S3312x325_S325x64_S3312x64_1_0_0_1_n_n none l r) : (⟨S3312x325, .f32⟩ : BufTy).Contents (Elt Ideal) → (⟨S325x64, .f32⟩ : BufTy).Contents (Elt Ideal) → (⟨S3312x64, .f32⟩ : BufTy).Contents (Elt Ideal))) (e := rfl)
  have e_v1007 := (win18 (F := Ideal) V0).unary 19 main_arg10 main_v1007 (f := (broadcastInDim S1x64 ![1] bcast_S64_S1x64_1 : (⟨S64, .f32⟩ : BufTy).Contents (Elt Ideal) → (⟨S1x64, .f32⟩ : BufTy).Contents (Elt Ideal))) (e := rfl)
  have e_v1008 := (win18 (F := Ideal) V0).unary 20 main_v1007 main_v1008 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v1009 := (win18 (F := Ideal) V0).binary 21 main_v1006 main_v1008 main_v1009 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v1010 := (win18 (F := Ideal) V0).reshape 22 main_v1009 main_v1010 (hn := shapeCasts_S3312x64_S16x13248) (e := rfl)
  have e_v1011 := (win18 (F := Ideal) V0).unary 23 main_v1010 main_v1011 (f := (Host.tanh (F := Ideal) : (⟨S16x13248, .f32⟩ : BufTy).Contents (Elt Ideal) → (⟨S16x13248, .f32⟩ : BufTy).Contents (Elt Ideal))) (e := rfl)
  have e_v1012 := (win18 (F := Ideal) V0).binary 24 main_v981 main_v935 main_v1012 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_91 := (win18 (F := Ideal) V0).nullary 25 main_cst_91 (v := (constant (F := Ideal) S_ .f32 0x3F800000#32)) (e := rfl)
  have e_v1013 := (win18 (F := Ideal) V0).unary 26 main_cst_91 main_v1013 (f := (broadcastInDim S16x13248 ![] bcast_S_S16x13248 : (⟨S_, .f32⟩ : BufTy).Contents (Elt Ideal) → (⟨S16x13248, .f32⟩ : BufTy).Contents (Elt Ideal))) (e := rfl)
  have e_v1014 := (win18 (F := Ideal) V0).binary 27 main_v1013 main_v981 main_v1014 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v1015 := (win18 (F := Ideal) V0).binary 28 main_v1014 main_v1011 main_v1015 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v1016 := (win18 (F := Ideal) V0).binary 29 main_v1012 main_v1015 main_v1016 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact decCell (W (Proc.devRef .tc main_v942)) (W (Proc.devRef .tc main_v935)) (V0 (Proc.devRef .tc main_arg1)) (V0 (Proc.devRef .tc main_arg2)) (V0 (Proc.devRef .tc main_arg7)) (V0 (Proc.devRef .tc main_arg8)) (V0 (Proc.devRef .tc main_arg9)) (V0 (Proc.devRef .tc main_arg10)) (W (Proc.devRef .tc main_v946)) (W (Proc.devRef .tc main_v947)) (W (Proc.devRef .tc main_v952)) (W (Proc.devRef .tc main_v986)) (W (Proc.devRef .tc main_v987)) (W (Proc.devRef .tc main_v992)) (W (Proc.devRef .tc main_v977)) (W (Proc.devRef .tc main_v981)) (W (Proc.devRef .tc main_v1016))
    (by rw [e_v946, e_v945, e_v944, e_v943] <;> rfl)
    (by rw [e_v947, k_arg1] <;> rfl)
    (by rw [e_v952, k_arg2] <;> rfl)
    (by rw [e_v977, e_v976, e_v975, e_cst_88, e_v974, e_v973, e_cst_87, e_v972, e_v971, e_v970, e_v969, e_v968, e_v967, e_v966, e_v965, e_v964, e_v963, e_v962, e_v961, e_v960, e_v959, e_v958, e_v957, e_v956, e_v955, e_v954, e_cst_86, e_v953, e_v951, e_v950, e_v949, e_cst_85, e_v948, k_arg1, k_arg2, k_arg7, k_arg8] <;> rfl)
    (by rw [e_v981, e_v980] <;> rfl)
    (by rw [e_v986, e_v985, e_v984, e_v983, e_v982, e_v979, e_v978] <;> rfl)
    (by rw [e_v987, k_arg1] <;> rfl)
    (by rw [e_v992, k_arg2] <;> rfl)
    (by rw [e_v1016, e_v1015, e_v1014, e_v1013, e_cst_91, e_v1012, e_v1011, e_v1010, e_v1009, e_v1008, e_v1007, e_v1006, e_v1005, e_v1004, e_v1003, e_v1002, e_v1001, e_v1000, e_v999, e_v998, e_v997, e_v996, e_v995, e_v994, e_cst_90, e_v993, e_v991, e_v990, e_v989, e_cst_89, e_v988, k_arg1, k_arg10, k_arg2, k_arg9] <;> rfl)
    X H hx hH

set_option maxRecDepth 8192 in
set_option maxHeartbeats 2000000 in
/-- A buffer's final contents as an explicit term of other buffers' (and of the arguments as launched): the equations of
    the operations that produce it, rewritten latest first. -/
theorem dec_p_4 (V0 : Valuation τ sig (Elt Ideal)) :
    (after (ops (F := Ideal)) V0 (Proc.devRef .tc main_v1022)) = projT (after (ops (F := Ideal)) V0 (Proc.devRef .tc main_v1016)) (V0 (Proc.devRef .tc main_arg11)) (V0 (Proc.devRef .tc main_arg12)) := by
  have k_arg11 := arg_keep (F := Ideal) V0 main_arg11 (by decide)
  have k_arg12 := arg_keep (F := Ideal) V0 main_arg12 (by decide)
  have e_v1017 := (win18 (F := Ideal) V0).reshape 30 main_v1016 main_v1017 (hn := shapeCasts_S16x13248_S3312x64) (e := rfl)
  have e_v1018 := (win18 (F := Ideal) V0).binary 31 main_v1017 main_arg11 main_v1018 (f := ((fun l r => Host.dotGeneral (F := Ideal) dot_S3312x64_S64x1_S3312x1_1_0_0_1_n_n none l r) : (⟨S3312x64, .f32⟩ : BufTy).Contents (Elt Ideal) → (⟨S64x1, .f32⟩ : BufTy).Contents (Elt Ideal) → (⟨S3312x1, .f32⟩ : BufTy).Contents (Elt Ideal))) (e := rfl)
  have e_v1019 := (win18 (F := Ideal) V0).unary 32 main_arg12 main_v1019 (f := (broadcastInDim S1x1 ![1] bcast_S1_S1x1_1 : (⟨S1, .f32⟩ : BufTy).Contents (Elt Ideal) → (⟨S1x1, .f32⟩ : BufTy).Contents (Elt Ideal))) (e := rfl)
  have e_v1020 := (win18 (F := Ideal) V0).unary 33 main_v1019 main_v1020 (f := (broadcastInDim S3312x1 ![0, 1] bcast_S1x1_S3312x1_0_1 : (⟨S1x1, .f32⟩ : BufTy).Contents (Elt Ideal) → (⟨S3312x1, .f32⟩ : BufTy).Contents (Elt Ideal))) (e := rfl)
  have e_v1021 := (win18 (F := Ideal) V0).binary 34 main_v1018 main_v1020 main_v1021 (f := (addf (F := Ideal) : (⟨S3312x1, .f32⟩ : BufTy).Contents (Elt Ideal) → (⟨S3312x1, .f32⟩ : BufTy).Contents (Elt Ideal) → (⟨S3312x1, .f32⟩ : BufTy).Contents (Elt Ideal))) (e := rfl)
  have e_v1022 := (win18 (F := Ideal) V0).reshape 35 main_v1021 main_v1022 (hn := shapeCasts_S3312x1_S16x207) (e := rfl)
  generalize after (ops (F := Ideal)) V0 = W at *
  rw [e_v1022, e_v1021, e_v1020, e_v1019, e_v1018, e_v1017, k_arg11, k_arg12] <;> rfl

set_option maxRecDepth 8192 in
set_option maxHeartbeats 2000000 in
/-- A buffer's final contents as an explicit term of other buffers' (and of the arguments as launched): the equations of
    the operations that produce it, rewritten latest first. -/
theorem dec_x_5 (V0 : Valuation τ sig (Elt Ideal)) :
    (after (ops (F := Ideal)) V0 (Proc.devRef .tc main_v1023)) = decIn (after (ops (F := Ideal)) V0 (Proc.devRef .tc main_v1022)) := by
  have e_v1023 := (win18 (F := Ideal) V0).reshape 36 main_v1022 main_v1023 (hn := shapeCasts_S16x207_S16x207x1) (e := rfl)
  generalize after (ops (F := Ideal)) V0 = W at *
  rw [e_v1023] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem dec_step_5 (V0 : Valuation τ sig (Elt Ideal)) (X : Cert.Spec.Arr3 1) (H : Cert.Spec.Arr3 64)
    (hx : toArr3 (d := 1) (after (ops (F := Ideal)) V0 (Proc.devRef .tc main_v1023)) = X) (hH : hFlat (after (ops (F := Ideal)) V0 (Proc.devRef .tc main_v1016)) = H) :
    hFlat (after (ops (F := Ideal)) V0 (Proc.devRef .tc main_v1097)) = Cert.Spec.cell X H (toMat (V0 (Proc.devRef .tc main_arg1))) (toMat (V0 (Proc.devRef .tc main_arg2))) (toMat (V0 (Proc.devRef .tc main_arg7))) (toVec (V0 (Proc.devRef .tc main_arg8))) (toMat (V0 (Proc.devRef .tc main_arg9))) (toVec (V0 (Proc.devRef .tc main_arg10))) := by
  have k_arg1 := arg_keep (F := Ideal) V0 main_arg1 (by decide)
  have k_arg10 := arg_keep (F := Ideal) V0 main_arg10 (by decide)
  have k_arg2 := arg_keep (F := Ideal) V0 main_arg2 (by decide)
  have k_arg7 := arg_keep (F := Ideal) V0 main_arg7 (by decide)
  have k_arg8 := arg_keep (F := Ideal) V0 main_arg8 (by decide)
  have k_arg9 := arg_keep (F := Ideal) V0 main_arg9 (by decide)
  have e_v1024 := (win18 (F := Ideal) V0).reshape 37 main_v1016 main_v1024 (hn := shapeCasts_S16x13248_S16x207x64) (e := rfl)
  have e_v1025 := (win18 (F := Ideal) V0).binary 38 main_v1023 main_v1024 main_v1025 (f := (fn_main_v1025 (F := Ideal))) (e := rfl)
  have e_v1026 := (win18 (F := Ideal) V0).unary 39 main_v1025 main_v1026 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v1027 := (win18 (F := Ideal) V0).reshape 40 main_v1026 main_v1027 (hn := shapeCasts_S207x65x16_S207x1040) (e := rfl)
  have e_v1028 := (win18 (F := Ideal) V0).binary 41 main_arg1 main_v1027 main_v1028 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1029 := (win18 (F := Ideal) V0).binary 42 main_arg1 main_v1028 main_v1029 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_92 := (win18 (F := Ideal) V0).nullary 43 main_cst_92 (v := (constant (F := Ideal) S_ .f32 0x40000000#32)) (e := rfl)
  have e_v1030 := (win18 (F := Ideal) V0).unary 44 main_cst_92 main_v1030 (f := (broadcastInDim S207x1040 ![] bcast_S_S207x1040 : (⟨S_, .f32⟩ : BufTy).Contents (Elt Ideal) → (⟨S207x1040, .f32⟩ : BufTy).Contents (Elt Ideal))) (e := rfl)
  have e_v1031 := (win18 (F := Ideal) V0).binary 45 main_v1030 main_v1029 main_v1031 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1032 := (win18 (F := Ideal) V0).binary 46 main_v1031 main_v1027 main_v1032 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1033 := (win18 (F := Ideal) V0).binary 47 main_arg2 main_v1027 main_v1033 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1034 := (win18 (F := Ideal) V0).binary 48 main_arg2 main_v1033 main_v1034 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_93 := (win18 (F := Ideal) V0).nullary 49 main_cst_93 (v := (constant (F := Ideal) S_ .f32 0x40000000#32)) (e := rfl)
  have e_v1035 := (win18 (F := Ideal) V0).unary 50 main_cst_93 main_v1035 (f := (broadcastInDim S207x1040 ![] bcast_S_S207x1040 : (⟨S_, .f32⟩ : BufTy).Contents (Elt Ideal) → (⟨S207x1040, .f32⟩ : BufTy).Contents (Elt Ideal))) (e := rfl)
  have e_v1036 := (win18 (F := Ideal) V0).binary 51 main_v1035 main_v1034 main_v1036 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1037 := (win18 (F := Ideal) V0).binary 52 main_v1036 main_v1027 main_v1037 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1038 := (win18 (F := Ideal) V0).unary 53 main_v1027 main_v1038 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1039 := (win18 (F := Ideal) V0).unary 54 main_v1028 main_v1039 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1040 := (win18 (F := Ideal) V0).unary 55 main_v1032 main_v1040 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1041 := (win18 (F := Ideal) V0).unary 56 main_v1033 main_v1041 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1042 := (win18 (F := Ideal) V0).unary 57 main_v1037 main_v1042 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1043 := (win18 (F := Ideal) V0).nary5 58 main_v1038 main_v1039 main_v1040 main_v1041 main_v1042 main_v1043 (f := (fun u => fn_main_v1043 (F := Ideal) (u 0) (u 1) (u 2) (u 3) (u 4))) (e := rfl)
  have e_v1044 := (win18 (F := Ideal) V0).reshape 59 main_v1043 main_v1044 (hn := shapeCasts_S5x207x1040_S5x207x65x16) (e := rfl)
  have e_v1045 := (win19 (F := Ideal) V0).unary 0 main_v1044 main_v1045 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v1046 := (win19 (F := Ideal) V0).reshape 1 main_v1045 main_v1046 (hn := shapeCasts_S16x207x65x5_S3312x325) (e := rfl)
  have e_v1047 := (win19 (F := Ideal) V0).binary 2 main_v1046 main_arg7 main_v1047 (f := ((fun l r => Host.dotGeneral (F := Ideal) dot_S3312x325_S325x128_S3312x128_1_0_0_1_n_n none l r) : (⟨S3312x325, .f32⟩ : BufTy).Contents (Elt Ideal) → (⟨S325x128, .f32⟩ : BufTy).Contents (Elt Ideal) → (⟨S3312x128, .f32⟩ : BufTy).Contents (Elt Ideal))) (e := rfl)
  have e_v1048 := (win19 (F := Ideal) V0).unary 3 main_arg8 main_v1048 (f := (broadcastInDim S1x128 ![1] bcast_S128_S1x128_1 : (⟨S128, .f32⟩ : BufTy).Contents (Elt Ideal) → (⟨S1x128, .f32⟩ : BufTy).Contents (Elt Ideal))) (e := rfl)
  have e_v1049 := (win19 (F := Ideal) V0).unary 4 main_v1048 main_v1049 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v1050 := (win19 (F := Ideal) V0).binary 5 main_v1047 main_v1049 main_v1050 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v1051 := (win19 (F := Ideal) V0).reshape 6 main_v1050 main_v1051 (hn := shapeCasts_S3312x128_S16x26496) (e := rfl)
  have e_v1052 := (win19 (F := Ideal) V0).unary 7 main_v1051 main_v1052 (f := (Host.negf (F := Ideal) : (⟨S16x26496, .f32⟩ : BufTy).Contents (Elt Ideal) → (⟨S16x26496, .f32⟩ : BufTy).Contents (Elt Ideal))) (e := rfl)
  have e_v1053 := (win19 (F := Ideal) V0).unary 8 main_v1052 main_v1053 (f := (Host.exp (F := Ideal) : (⟨S16x26496, .f32⟩ : BufTy).Contents (Elt Ideal) → (⟨S16x26496, .f32⟩ : BufTy).Contents (Elt Ideal))) (e := rfl)
  have e_cst_94 := (win19 (F := Ideal) V0).nullary 9 main_cst_94 (v := (constant (F := Ideal) S_ .f32 0x3F800000#32)) (e := rfl)
  have e_v1054 := (win19 (F := Ideal) V0).unary 10 main_cst_94 main_v1054 (f := (broadcastInDim S16x26496 ![] bcast_S_S16x26496 : (⟨S_, .f32⟩ : BufTy).Contents (Elt Ideal) → (⟨S16x26496, .f32⟩ : BufTy).Contents (Elt Ideal))) (e := rfl)
  have e_v1055 := (win19 (F := Ideal) V0).binary 11 main_v1054 main_v1053 main_v1055 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_95 := (win19 (F := Ideal) V0).nullary 12 main_cst_95 (v := (constant (F := Ideal) S_ .f32 0x3F800000#32)) (e := rfl)
  have e_v1056 := (win19 (F := Ideal) V0).unary 13 main_cst_95 main_v1056 (f := (broadcastInDim S16x26496 ![] bcast_S_S16x26496 : (⟨S_, .f32⟩ : BufTy).Contents (Elt Ideal) → (⟨S16x26496, .f32⟩ : BufTy).Contents (Elt Ideal))) (e := rfl)
  have e_v1057 := (win19 (F := Ideal) V0).binary 14 main_v1056 main_v1055 main_v1057 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v1058 := (win19 (F := Ideal) V0).reshape 15 main_v1057 main_v1058 (hn := shapeCasts_S16x26496_S16x207x128) (e := rfl)
  have e_v1059 := (win19 (F := Ideal) V0).unary 16 main_v1058 main_v1059 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v1060 := (win19 (F := Ideal) V0).reshape 17 main_v1059 main_v1060 (hn := shapeCasts_S16x207x64_S16x13248) (e := rfl)
  have e_v1061 := (win19 (F := Ideal) V0).unary 18 main_v1058 main_v1061 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v1062 := (win19 (F := Ideal) V0).reshape 19 main_v1061 main_v1062 (hn := shapeCasts_S16x207x64_S16x13248) (e := rfl)
  have e_v1063 := (win19 (F := Ideal) V0).binary 20 main_v1060 main_v1016 main_v1063 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v1064 := (win19 (F := Ideal) V0).reshape 21 main_v1063 main_v1064 (hn := shapeCasts_S16x13248_S16x207x64) (e := rfl)
  have e_v1065 := (win19 (F := Ideal) V0).binary 22 main_v1023 main_v1064 main_v1065 (f := (fn_main_v1065 (F := Ideal))) (e := rfl)
  have e_v1066 := (win19 (F := Ideal) V0).unary 23 main_v1065 main_v1066 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v1067 := (win19 (F := Ideal) V0).reshape 24 main_v1066 main_v1067 (hn := shapeCasts_S207x65x16_S207x1040) (e := rfl)
  have e_v1068 := (win19 (F := Ideal) V0).binary 25 main_arg1 main_v1067 main_v1068 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1069 := (win19 (F := Ideal) V0).binary 26 main_arg1 main_v1068 main_v1069 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_96 := (win19 (F := Ideal) V0).nullary 27 main_cst_96 (v := (constant (F := Ideal) S_ .f32 0x40000000#32)) (e := rfl)
  have e_v1070 := (win19 (F := Ideal) V0).unary 28 main_cst_96 main_v1070 (f := (broadcastInDim S207x1040 ![] bcast_S_S207x1040 : (⟨S_, .f32⟩ : BufTy).Contents (Elt Ideal) → (⟨S207x1040, .f32⟩ : BufTy).Contents (Elt Ideal))) (e := rfl)
  have e_v1071 := (win19 (F := Ideal) V0).binary 29 main_v1070 main_v1069 main_v1071 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1072 := (win19 (F := Ideal) V0).binary 30 main_v1071 main_v1067 main_v1072 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1073 := (win19 (F := Ideal) V0).binary 31 main_arg2 main_v1067 main_v1073 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1074 := (win19 (F := Ideal) V0).binary 32 main_arg2 main_v1073 main_v1074 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_97 := (win19 (F := Ideal) V0).nullary 33 main_cst_97 (v := (constant (F := Ideal) S_ .f32 0x40000000#32)) (e := rfl)
  have e_v1075 := (win19 (F := Ideal) V0).unary 34 main_cst_97 main_v1075 (f := (broadcastInDim S207x1040 ![] bcast_S_S207x1040 : (⟨S_, .f32⟩ : BufTy).Contents (Elt Ideal) → (⟨S207x1040, .f32⟩ : BufTy).Contents (Elt Ideal))) (e := rfl)
  have e_v1076 := (win19 (F := Ideal) V0).binary 35 main_v1075 main_v1074 main_v1076 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1077 := (win19 (F := Ideal) V0).binary 36 main_v1076 main_v1067 main_v1077 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1078 := (win19 (F := Ideal) V0).unary 37 main_v1067 main_v1078 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1079 := (win19 (F := Ideal) V0).unary 38 main_v1068 main_v1079 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1080 := (win19 (F := Ideal) V0).unary 39 main_v1072 main_v1080 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1081 := (win19 (F := Ideal) V0).unary 40 main_v1073 main_v1081 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1082 := (win19 (F := Ideal) V0).unary 41 main_v1077 main_v1082 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1083 := (win19 (F := Ideal) V0).nary5 42 main_v1078 main_v1079 main_v1080 main_v1081 main_v1082 main_v1083 (f := (fun u => fn_main_v1083 (F := Ideal) (u 0) (u 1) (u 2) (u 3) (u 4))) (e := rfl)
  have e_v1084 := (win19 (F := Ideal) V0).reshape 43 main_v1083 main_v1084 (hn := shapeCasts_S5x207x1040_S5x207x65x16) (e := rfl)
  have e_v1085 := (win19 (F := Ideal) V0).unary 44 main_v1084 main_v1085 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v1086 := (win19 (F := Ideal) V0).reshape 45 main_v1085 main_v1086 (hn := shapeCasts_S16x207x65x5_S3312x325) (e := rfl)
  have e_v1087 := (win19 (F := Ideal) V0).binary 46 main_v1086 main_arg9 main_v1087 (f := ((fun l r => Host.dotGeneral (F := Ideal) dot_S3312x325_S325x64_S3312x64_1_0_0_1_n_n none l r) : (⟨S3312x325, .f32⟩ : BufTy).Contents (Elt Ideal) → (⟨S325x64, .f32⟩ : BufTy).Contents (Elt Ideal) → (⟨S3312x64, .f32⟩ : BufTy).Contents (Elt Ideal))) (e := rfl)
  have e_v1088 := (win19 (F := Ideal) V0).unary 47 main_arg10 main_v1088 (f := (broadcastInDim S1x64 ![1] bcast_S64_S1x64_1 : (⟨S64, .f32⟩ : BufTy).Contents (Elt Ideal) → (⟨S1x64, .f32⟩ : BufTy).Contents (Elt Ideal))) (e := rfl)
  have e_v1089 := (win19 (F := Ideal) V0).unary 48 main_v1088 main_v1089 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v1090 := (win19 (F := Ideal) V0).binary 49 main_v1087 main_v1089 main_v1090 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v1091 := (win19 (F := Ideal) V0).reshape 50 main_v1090 main_v1091 (hn := shapeCasts_S3312x64_S16x13248) (e := rfl)
  have e_v1092 := (win19 (F := Ideal) V0).unary 51 main_v1091 main_v1092 (f := (Host.tanh (F := Ideal) : (⟨S16x13248, .f32⟩ : BufTy).Contents (Elt Ideal) → (⟨S16x13248, .f32⟩ : BufTy).Contents (Elt Ideal))) (e := rfl)
  have e_v1093 := (win19 (F := Ideal) V0).binary 52 main_v1062 main_v1016 main_v1093 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_98 := (win19 (F := Ideal) V0).nullary 53 main_cst_98 (v := (constant (F := Ideal) S_ .f32 0x3F800000#32)) (e := rfl)
  have e_v1094 := (win19 (F := Ideal) V0).unary 54 main_cst_98 main_v1094 (f := (broadcastInDim S16x13248 ![] bcast_S_S16x13248 : (⟨S_, .f32⟩ : BufTy).Contents (Elt Ideal) → (⟨S16x13248, .f32⟩ : BufTy).Contents (Elt Ideal))) (e := rfl)
  have e_v1095 := (win19 (F := Ideal) V0).binary 55 main_v1094 main_v1062 main_v1095 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v1096 := (win19 (F := Ideal) V0).binary 56 main_v1095 main_v1092 main_v1096 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v1097 := (win19 (F := Ideal) V0).binary 57 main_v1093 main_v1096 main_v1097 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact decCell (W (Proc.devRef .tc main_v1023)) (W (Proc.devRef .tc main_v1016)) (V0 (Proc.devRef .tc main_arg1)) (V0 (Proc.devRef .tc main_arg2)) (V0 (Proc.devRef .tc main_arg7)) (V0 (Proc.devRef .tc main_arg8)) (V0 (Proc.devRef .tc main_arg9)) (V0 (Proc.devRef .tc main_arg10)) (W (Proc.devRef .tc main_v1027)) (W (Proc.devRef .tc main_v1028)) (W (Proc.devRef .tc main_v1033)) (W (Proc.devRef .tc main_v1067)) (W (Proc.devRef .tc main_v1068)) (W (Proc.devRef .tc main_v1073)) (W (Proc.devRef .tc main_v1058)) (W (Proc.devRef .tc main_v1062)) (W (Proc.devRef .tc main_v1097))
    (by rw [e_v1027, e_v1026, e_v1025, e_v1024] <;> rfl)
    (by rw [e_v1028, k_arg1] <;> rfl)
    (by rw [e_v1033, k_arg2] <;> rfl)
    (by rw [e_v1058, e_v1057, e_v1056, e_cst_95, e_v1055, e_v1054, e_cst_94, e_v1053, e_v1052, e_v1051, e_v1050, e_v1049, e_v1048, e_v1047, e_v1046, e_v1045, e_v1044, e_v1043, e_v1042, e_v1041, e_v1040, e_v1039, e_v1038, e_v1037, e_v1036, e_v1035, e_cst_93, e_v1034, e_v1032, e_v1031, e_v1030, e_cst_92, e_v1029, k_arg1, k_arg2, k_arg7, k_arg8] <;> rfl)
    (by rw [e_v1062, e_v1061] <;> rfl)
    (by rw [e_v1067, e_v1066, e_v1065, e_v1064, e_v1063, e_v1060, e_v1059] <;> rfl)
    (by rw [e_v1068, k_arg1] <;> rfl)
    (by rw [e_v1073, k_arg2] <;> rfl)
    (by rw [e_v1097, e_v1096, e_v1095, e_v1094, e_cst_98, e_v1093, e_v1092, e_v1091, e_v1090, e_v1089, e_v1088, e_v1087, e_v1086, e_v1085, e_v1084, e_v1083, e_v1082, e_v1081, e_v1080, e_v1079, e_v1078, e_v1077, e_v1076, e_v1075, e_cst_97, e_v1074, e_v1072, e_v1071, e_v1070, e_cst_96, e_v1069, k_arg1, k_arg10, k_arg2, k_arg9] <;> rfl)
    X H hx hH

set_option maxRecDepth 8192 in
set_option maxHeartbeats 2000000 in
/-- A buffer's final contents as an explicit term of other buffers' (and of the arguments as launched): the equations of
    the operations that produce it, rewritten latest first. -/
theorem dec_p_5 (V0 : Valuation τ sig (Elt Ideal)) :
    (after (ops (F := Ideal)) V0 (Proc.devRef .tc main_v1103)) = projT (after (ops (F := Ideal)) V0 (Proc.devRef .tc main_v1097)) (V0 (Proc.devRef .tc main_arg11)) (V0 (Proc.devRef .tc main_arg12)) := by
  have k_arg11 := arg_keep (F := Ideal) V0 main_arg11 (by decide)
  have k_arg12 := arg_keep (F := Ideal) V0 main_arg12 (by decide)
  have e_v1098 := (win19 (F := Ideal) V0).reshape 58 main_v1097 main_v1098 (hn := shapeCasts_S16x13248_S3312x64) (e := rfl)
  have e_v1099 := (win19 (F := Ideal) V0).binary 59 main_v1098 main_arg11 main_v1099 (f := ((fun l r => Host.dotGeneral (F := Ideal) dot_S3312x64_S64x1_S3312x1_1_0_0_1_n_n none l r) : (⟨S3312x64, .f32⟩ : BufTy).Contents (Elt Ideal) → (⟨S64x1, .f32⟩ : BufTy).Contents (Elt Ideal) → (⟨S3312x1, .f32⟩ : BufTy).Contents (Elt Ideal))) (e := rfl)
  have e_v1100 := (win20 (F := Ideal) V0).unary 0 main_arg12 main_v1100 (f := (broadcastInDim S1x1 ![1] bcast_S1_S1x1_1 : (⟨S1, .f32⟩ : BufTy).Contents (Elt Ideal) → (⟨S1x1, .f32⟩ : BufTy).Contents (Elt Ideal))) (e := rfl)
  have e_v1101 := (win20 (F := Ideal) V0).unary 1 main_v1100 main_v1101 (f := (broadcastInDim S3312x1 ![0, 1] bcast_S1x1_S3312x1_0_1 : (⟨S1x1, .f32⟩ : BufTy).Contents (Elt Ideal) → (⟨S3312x1, .f32⟩ : BufTy).Contents (Elt Ideal))) (e := rfl)
  have e_v1102 := (win20 (F := Ideal) V0).binary 2 main_v1099 main_v1101 main_v1102 (f := (addf (F := Ideal) : (⟨S3312x1, .f32⟩ : BufTy).Contents (Elt Ideal) → (⟨S3312x1, .f32⟩ : BufTy).Contents (Elt Ideal) → (⟨S3312x1, .f32⟩ : BufTy).Contents (Elt Ideal))) (e := rfl)
  have e_v1103 := (win20 (F := Ideal) V0).reshape 3 main_v1102 main_v1103 (hn := shapeCasts_S3312x1_S16x207) (e := rfl)
  generalize after (ops (F := Ideal)) V0 = W at *
  rw [e_v1103, e_v1102, e_v1101, e_v1100, e_v1099, e_v1098, k_arg11, k_arg12] <;> rfl

set_option maxRecDepth 8192 in
set_option maxHeartbeats 2000000 in
/-- A buffer's final contents as an explicit term of other buffers' (and of the arguments as launched): the equations of
    the operations that produce it, rewritten latest first. -/
theorem dec_x_6 (V0 : Valuation τ sig (Elt Ideal)) :
    (after (ops (F := Ideal)) V0 (Proc.devRef .tc main_v1104)) = decIn (after (ops (F := Ideal)) V0 (Proc.devRef .tc main_v1103)) := by
  have e_v1104 := (win20 (F := Ideal) V0).reshape 4 main_v1103 main_v1104 (hn := shapeCasts_S16x207_S16x207x1) (e := rfl)
  generalize after (ops (F := Ideal)) V0 = W at *
  rw [e_v1104] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem dec_step_6 (V0 : Valuation τ sig (Elt Ideal)) (X : Cert.Spec.Arr3 1) (H : Cert.Spec.Arr3 64)
    (hx : toArr3 (d := 1) (after (ops (F := Ideal)) V0 (Proc.devRef .tc main_v1104)) = X) (hH : hFlat (after (ops (F := Ideal)) V0 (Proc.devRef .tc main_v1097)) = H) :
    hFlat (after (ops (F := Ideal)) V0 (Proc.devRef .tc main_v1178)) = Cert.Spec.cell X H (toMat (V0 (Proc.devRef .tc main_arg1))) (toMat (V0 (Proc.devRef .tc main_arg2))) (toMat (V0 (Proc.devRef .tc main_arg7))) (toVec (V0 (Proc.devRef .tc main_arg8))) (toMat (V0 (Proc.devRef .tc main_arg9))) (toVec (V0 (Proc.devRef .tc main_arg10))) := by
  have k_arg1 := arg_keep (F := Ideal) V0 main_arg1 (by decide)
  have k_arg10 := arg_keep (F := Ideal) V0 main_arg10 (by decide)
  have k_arg2 := arg_keep (F := Ideal) V0 main_arg2 (by decide)
  have k_arg7 := arg_keep (F := Ideal) V0 main_arg7 (by decide)
  have k_arg8 := arg_keep (F := Ideal) V0 main_arg8 (by decide)
  have k_arg9 := arg_keep (F := Ideal) V0 main_arg9 (by decide)
  have e_v1105 := (win20 (F := Ideal) V0).reshape 5 main_v1097 main_v1105 (hn := shapeCasts_S16x13248_S16x207x64) (e := rfl)
  have e_v1106 := (win20 (F := Ideal) V0).binary 6 main_v1104 main_v1105 main_v1106 (f := (fn_main_v1106 (F := Ideal))) (e := rfl)
  have e_v1107 := (win20 (F := Ideal) V0).unary 7 main_v1106 main_v1107 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v1108 := (win20 (F := Ideal) V0).reshape 8 main_v1107 main_v1108 (hn := shapeCasts_S207x65x16_S207x1040) (e := rfl)
  have e_v1109 := (win20 (F := Ideal) V0).binary 9 main_arg1 main_v1108 main_v1109 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1110 := (win20 (F := Ideal) V0).binary 10 main_arg1 main_v1109 main_v1110 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_99 := (win20 (F := Ideal) V0).nullary 11 main_cst_99 (v := (constant (F := Ideal) S_ .f32 0x40000000#32)) (e := rfl)
  have e_v1111 := (win20 (F := Ideal) V0).unary 12 main_cst_99 main_v1111 (f := (broadcastInDim S207x1040 ![] bcast_S_S207x1040 : (⟨S_, .f32⟩ : BufTy).Contents (Elt Ideal) → (⟨S207x1040, .f32⟩ : BufTy).Contents (Elt Ideal))) (e := rfl)
  have e_v1112 := (win20 (F := Ideal) V0).binary 13 main_v1111 main_v1110 main_v1112 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1113 := (win20 (F := Ideal) V0).binary 14 main_v1112 main_v1108 main_v1113 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1114 := (win20 (F := Ideal) V0).binary 15 main_arg2 main_v1108 main_v1114 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1115 := (win20 (F := Ideal) V0).binary 16 main_arg2 main_v1114 main_v1115 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_100 := (win20 (F := Ideal) V0).nullary 17 main_cst_100 (v := (constant (F := Ideal) S_ .f32 0x40000000#32)) (e := rfl)
  have e_v1116 := (win20 (F := Ideal) V0).unary 18 main_cst_100 main_v1116 (f := (broadcastInDim S207x1040 ![] bcast_S_S207x1040 : (⟨S_, .f32⟩ : BufTy).Contents (Elt Ideal) → (⟨S207x1040, .f32⟩ : BufTy).Contents (Elt Ideal))) (e := rfl)
  have e_v1117 := (win20 (F := Ideal) V0).binary 19 main_v1116 main_v1115 main_v1117 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1118 := (win20 (F := Ideal) V0).binary 20 main_v1117 main_v1108 main_v1118 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1119 := (win20 (F := Ideal) V0).unary 21 main_v1108 main_v1119 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1120 := (win20 (F := Ideal) V0).unary 22 main_v1109 main_v1120 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1121 := (win20 (F := Ideal) V0).unary 23 main_v1113 main_v1121 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1122 := (win20 (F := Ideal) V0).unary 24 main_v1114 main_v1122 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1123 := (win20 (F := Ideal) V0).unary 25 main_v1118 main_v1123 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1124 := (win20 (F := Ideal) V0).nary5 26 main_v1119 main_v1120 main_v1121 main_v1122 main_v1123 main_v1124 (f := (fun u => fn_main_v1124 (F := Ideal) (u 0) (u 1) (u 2) (u 3) (u 4))) (e := rfl)
  have e_v1125 := (win20 (F := Ideal) V0).reshape 27 main_v1124 main_v1125 (hn := shapeCasts_S5x207x1040_S5x207x65x16) (e := rfl)
  have e_v1126 := (win20 (F := Ideal) V0).unary 28 main_v1125 main_v1126 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v1127 := (win20 (F := Ideal) V0).reshape 29 main_v1126 main_v1127 (hn := shapeCasts_S16x207x65x5_S3312x325) (e := rfl)
  have e_v1128 := (win20 (F := Ideal) V0).binary 30 main_v1127 main_arg7 main_v1128 (f := ((fun l r => Host.dotGeneral (F := Ideal) dot_S3312x325_S325x128_S3312x128_1_0_0_1_n_n none l r) : (⟨S3312x325, .f32⟩ : BufTy).Contents (Elt Ideal) → (⟨S325x128, .f32⟩ : BufTy).Contents (Elt Ideal) → (⟨S3312x128, .f32⟩ : BufTy).Contents (Elt Ideal))) (e := rfl)
  have e_v1129 := (win20 (F := Ideal) V0).unary 31 main_arg8 main_v1129 (f := (broadcastInDim S1x128 ![1] bcast_S128_S1x128_1 : (⟨S128, .f32⟩ : BufTy).Contents (Elt Ideal) → (⟨S1x128, .f32⟩ : BufTy).Contents (Elt Ideal))) (e := rfl)
  have e_v1130 := (win20 (F := Ideal) V0).unary 32 main_v1129 main_v1130 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v1131 := (win20 (F := Ideal) V0).binary 33 main_v1128 main_v1130 main_v1131 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v1132 := (win20 (F := Ideal) V0).reshape 34 main_v1131 main_v1132 (hn := shapeCasts_S3312x128_S16x26496) (e := rfl)
  have e_v1133 := (win20 (F := Ideal) V0).unary 35 main_v1132 main_v1133 (f := (Host.negf (F := Ideal) : (⟨S16x26496, .f32⟩ : BufTy).Contents (Elt Ideal) → (⟨S16x26496, .f32⟩ : BufTy).Contents (Elt Ideal))) (e := rfl)
  have e_v1134 := (win20 (F := Ideal) V0).unary 36 main_v1133 main_v1134 (f := (Host.exp (F := Ideal) : (⟨S16x26496, .f32⟩ : BufTy).Contents (Elt Ideal) → (⟨S16x26496, .f32⟩ : BufTy).Contents (Elt Ideal))) (e := rfl)
  have e_cst_101 := (win20 (F := Ideal) V0).nullary 37 main_cst_101 (v := (constant (F := Ideal) S_ .f32 0x3F800000#32)) (e := rfl)
  have e_v1135 := (win20 (F := Ideal) V0).unary 38 main_cst_101 main_v1135 (f := (broadcastInDim S16x26496 ![] bcast_S_S16x26496 : (⟨S_, .f32⟩ : BufTy).Contents (Elt Ideal) → (⟨S16x26496, .f32⟩ : BufTy).Contents (Elt Ideal))) (e := rfl)
  have e_v1136 := (win20 (F := Ideal) V0).binary 39 main_v1135 main_v1134 main_v1136 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_102 := (win20 (F := Ideal) V0).nullary 40 main_cst_102 (v := (constant (F := Ideal) S_ .f32 0x3F800000#32)) (e := rfl)
  have e_v1137 := (win20 (F := Ideal) V0).unary 41 main_cst_102 main_v1137 (f := (broadcastInDim S16x26496 ![] bcast_S_S16x26496 : (⟨S_, .f32⟩ : BufTy).Contents (Elt Ideal) → (⟨S16x26496, .f32⟩ : BufTy).Contents (Elt Ideal))) (e := rfl)
  have e_v1138 := (win20 (F := Ideal) V0).binary 42 main_v1137 main_v1136 main_v1138 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v1139 := (win20 (F := Ideal) V0).reshape 43 main_v1138 main_v1139 (hn := shapeCasts_S16x26496_S16x207x128) (e := rfl)
  have e_v1140 := (win20 (F := Ideal) V0).unary 44 main_v1139 main_v1140 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v1141 := (win20 (F := Ideal) V0).reshape 45 main_v1140 main_v1141 (hn := shapeCasts_S16x207x64_S16x13248) (e := rfl)
  have e_v1142 := (win20 (F := Ideal) V0).unary 46 main_v1139 main_v1142 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v1143 := (win20 (F := Ideal) V0).reshape 47 main_v1142 main_v1143 (hn := shapeCasts_S16x207x64_S16x13248) (e := rfl)
  have e_v1144 := (win20 (F := Ideal) V0).binary 48 main_v1141 main_v1097 main_v1144 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v1145 := (win20 (F := Ideal) V0).reshape 49 main_v1144 main_v1145 (hn := shapeCasts_S16x13248_S16x207x64) (e := rfl)
  have e_v1146 := (win20 (F := Ideal) V0).binary 50 main_v1104 main_v1145 main_v1146 (f := (fn_main_v1146 (F := Ideal))) (e := rfl)
  have e_v1147 := (win20 (F := Ideal) V0).unary 51 main_v1146 main_v1147 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v1148 := (win20 (F := Ideal) V0).reshape 52 main_v1147 main_v1148 (hn := shapeCasts_S207x65x16_S207x1040) (e := rfl)
  have e_v1149 := (win20 (F := Ideal) V0).binary 53 main_arg1 main_v1148 main_v1149 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1150 := (win20 (F := Ideal) V0).binary 54 main_arg1 main_v1149 main_v1150 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_103 := (win20 (F := Ideal) V0).nullary 55 main_cst_103 (v := (constant (F := Ideal) S_ .f32 0x40000000#32)) (e := rfl)
  have e_v1151 := (win20 (F := Ideal) V0).unary 56 main_cst_103 main_v1151 (f := (broadcastInDim S207x1040 ![] bcast_S_S207x1040 : (⟨S_, .f32⟩ : BufTy).Contents (Elt Ideal) → (⟨S207x1040, .f32⟩ : BufTy).Contents (Elt Ideal))) (e := rfl)
  have e_v1152 := (win20 (F := Ideal) V0).binary 57 main_v1151 main_v1150 main_v1152 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1153 := (win20 (F := Ideal) V0).binary 58 main_v1152 main_v1148 main_v1153 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1154 := (win20 (F := Ideal) V0).binary 59 main_arg2 main_v1148 main_v1154 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1155 := (win21 (F := Ideal) V0).binary 0 main_arg2 main_v1154 main_v1155 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_104 := (win21 (F := Ideal) V0).nullary 1 main_cst_104 (v := (constant (F := Ideal) S_ .f32 0x40000000#32)) (e := rfl)
  have e_v1156 := (win21 (F := Ideal) V0).unary 2 main_cst_104 main_v1156 (f := (broadcastInDim S207x1040 ![] bcast_S_S207x1040 : (⟨S_, .f32⟩ : BufTy).Contents (Elt Ideal) → (⟨S207x1040, .f32⟩ : BufTy).Contents (Elt Ideal))) (e := rfl)
  have e_v1157 := (win21 (F := Ideal) V0).binary 3 main_v1156 main_v1155 main_v1157 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1158 := (win21 (F := Ideal) V0).binary 4 main_v1157 main_v1148 main_v1158 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1159 := (win21 (F := Ideal) V0).unary 5 main_v1148 main_v1159 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1160 := (win21 (F := Ideal) V0).unary 6 main_v1149 main_v1160 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1161 := (win21 (F := Ideal) V0).unary 7 main_v1153 main_v1161 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1162 := (win21 (F := Ideal) V0).unary 8 main_v1154 main_v1162 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1163 := (win21 (F := Ideal) V0).unary 9 main_v1158 main_v1163 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1164 := (win21 (F := Ideal) V0).nary5 10 main_v1159 main_v1160 main_v1161 main_v1162 main_v1163 main_v1164 (f := (fun u => fn_main_v1164 (F := Ideal) (u 0) (u 1) (u 2) (u 3) (u 4))) (e := rfl)
  have e_v1165 := (win21 (F := Ideal) V0).reshape 11 main_v1164 main_v1165 (hn := shapeCasts_S5x207x1040_S5x207x65x16) (e := rfl)
  have e_v1166 := (win21 (F := Ideal) V0).unary 12 main_v1165 main_v1166 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v1167 := (win21 (F := Ideal) V0).reshape 13 main_v1166 main_v1167 (hn := shapeCasts_S16x207x65x5_S3312x325) (e := rfl)
  have e_v1168 := (win21 (F := Ideal) V0).binary 14 main_v1167 main_arg9 main_v1168 (f := ((fun l r => Host.dotGeneral (F := Ideal) dot_S3312x325_S325x64_S3312x64_1_0_0_1_n_n none l r) : (⟨S3312x325, .f32⟩ : BufTy).Contents (Elt Ideal) → (⟨S325x64, .f32⟩ : BufTy).Contents (Elt Ideal) → (⟨S3312x64, .f32⟩ : BufTy).Contents (Elt Ideal))) (e := rfl)
  have e_v1169 := (win21 (F := Ideal) V0).unary 15 main_arg10 main_v1169 (f := (broadcastInDim S1x64 ![1] bcast_S64_S1x64_1 : (⟨S64, .f32⟩ : BufTy).Contents (Elt Ideal) → (⟨S1x64, .f32⟩ : BufTy).Contents (Elt Ideal))) (e := rfl)
  have e_v1170 := (win21 (F := Ideal) V0).unary 16 main_v1169 main_v1170 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v1171 := (win21 (F := Ideal) V0).binary 17 main_v1168 main_v1170 main_v1171 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v1172 := (win21 (F := Ideal) V0).reshape 18 main_v1171 main_v1172 (hn := shapeCasts_S3312x64_S16x13248) (e := rfl)
  have e_v1173 := (win21 (F := Ideal) V0).unary 19 main_v1172 main_v1173 (f := (Host.tanh (F := Ideal) : (⟨S16x13248, .f32⟩ : BufTy).Contents (Elt Ideal) → (⟨S16x13248, .f32⟩ : BufTy).Contents (Elt Ideal))) (e := rfl)
  have e_v1174 := (win21 (F := Ideal) V0).binary 20 main_v1143 main_v1097 main_v1174 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_105 := (win21 (F := Ideal) V0).nullary 21 main_cst_105 (v := (constant (F := Ideal) S_ .f32 0x3F800000#32)) (e := rfl)
  have e_v1175 := (win21 (F := Ideal) V0).unary 22 main_cst_105 main_v1175 (f := (broadcastInDim S16x13248 ![] bcast_S_S16x13248 : (⟨S_, .f32⟩ : BufTy).Contents (Elt Ideal) → (⟨S16x13248, .f32⟩ : BufTy).Contents (Elt Ideal))) (e := rfl)
  have e_v1176 := (win21 (F := Ideal) V0).binary 23 main_v1175 main_v1143 main_v1176 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v1177 := (win21 (F := Ideal) V0).binary 24 main_v1176 main_v1173 main_v1177 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v1178 := (win21 (F := Ideal) V0).binary 25 main_v1174 main_v1177 main_v1178 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact decCell (W (Proc.devRef .tc main_v1104)) (W (Proc.devRef .tc main_v1097)) (V0 (Proc.devRef .tc main_arg1)) (V0 (Proc.devRef .tc main_arg2)) (V0 (Proc.devRef .tc main_arg7)) (V0 (Proc.devRef .tc main_arg8)) (V0 (Proc.devRef .tc main_arg9)) (V0 (Proc.devRef .tc main_arg10)) (W (Proc.devRef .tc main_v1108)) (W (Proc.devRef .tc main_v1109)) (W (Proc.devRef .tc main_v1114)) (W (Proc.devRef .tc main_v1148)) (W (Proc.devRef .tc main_v1149)) (W (Proc.devRef .tc main_v1154)) (W (Proc.devRef .tc main_v1139)) (W (Proc.devRef .tc main_v1143)) (W (Proc.devRef .tc main_v1178))
    (by rw [e_v1108, e_v1107, e_v1106, e_v1105] <;> rfl)
    (by rw [e_v1109, k_arg1] <;> rfl)
    (by rw [e_v1114, k_arg2] <;> rfl)
    (by rw [e_v1139, e_v1138, e_v1137, e_cst_102, e_v1136, e_v1135, e_cst_101, e_v1134, e_v1133, e_v1132, e_v1131, e_v1130, e_v1129, e_v1128, e_v1127, e_v1126, e_v1125, e_v1124, e_v1123, e_v1122, e_v1121, e_v1120, e_v1119, e_v1118, e_v1117, e_v1116, e_cst_100, e_v1115, e_v1113, e_v1112, e_v1111, e_cst_99, e_v1110, k_arg1, k_arg2, k_arg7, k_arg8] <;> rfl)
    (by rw [e_v1143, e_v1142] <;> rfl)
    (by rw [e_v1148, e_v1147, e_v1146, e_v1145, e_v1144, e_v1141, e_v1140] <;> rfl)
    (by rw [e_v1149, k_arg1] <;> rfl)
    (by rw [e_v1154, k_arg2] <;> rfl)
    (by rw [e_v1178, e_v1177, e_v1176, e_v1175, e_cst_105, e_v1174, e_v1173, e_v1172, e_v1171, e_v1170, e_v1169, e_v1168, e_v1167, e_v1166, e_v1165, e_v1164, e_v1163, e_v1162, e_v1161, e_v1160, e_v1159, e_v1158, e_v1157, e_v1156, e_cst_104, e_v1155, e_v1153, e_v1152, e_v1151, e_cst_103, e_v1150, k_arg1, k_arg10, k_arg2, k_arg9] <;> rfl)
    X H hx hH

set_option maxRecDepth 8192 in
set_option maxHeartbeats 2000000 in
/-- A buffer's final contents as an explicit term of other buffers' (and of the arguments as launched): the equations of
    the operations that produce it, rewritten latest first. -/
theorem dec_p_6 (V0 : Valuation τ sig (Elt Ideal)) :
    (after (ops (F := Ideal)) V0 (Proc.devRef .tc main_v1184)) = projT (after (ops (F := Ideal)) V0 (Proc.devRef .tc main_v1178)) (V0 (Proc.devRef .tc main_arg11)) (V0 (Proc.devRef .tc main_arg12)) := by
  have k_arg11 := arg_keep (F := Ideal) V0 main_arg11 (by decide)
  have k_arg12 := arg_keep (F := Ideal) V0 main_arg12 (by decide)
  have e_v1179 := (win21 (F := Ideal) V0).reshape 26 main_v1178 main_v1179 (hn := shapeCasts_S16x13248_S3312x64) (e := rfl)
  have e_v1180 := (win21 (F := Ideal) V0).binary 27 main_v1179 main_arg11 main_v1180 (f := ((fun l r => Host.dotGeneral (F := Ideal) dot_S3312x64_S64x1_S3312x1_1_0_0_1_n_n none l r) : (⟨S3312x64, .f32⟩ : BufTy).Contents (Elt Ideal) → (⟨S64x1, .f32⟩ : BufTy).Contents (Elt Ideal) → (⟨S3312x1, .f32⟩ : BufTy).Contents (Elt Ideal))) (e := rfl)
  have e_v1181 := (win21 (F := Ideal) V0).unary 28 main_arg12 main_v1181 (f := (broadcastInDim S1x1 ![1] bcast_S1_S1x1_1 : (⟨S1, .f32⟩ : BufTy).Contents (Elt Ideal) → (⟨S1x1, .f32⟩ : BufTy).Contents (Elt Ideal))) (e := rfl)
  have e_v1182 := (win21 (F := Ideal) V0).unary 29 main_v1181 main_v1182 (f := (broadcastInDim S3312x1 ![0, 1] bcast_S1x1_S3312x1_0_1 : (⟨S1x1, .f32⟩ : BufTy).Contents (Elt Ideal) → (⟨S3312x1, .f32⟩ : BufTy).Contents (Elt Ideal))) (e := rfl)
  have e_v1183 := (win21 (F := Ideal) V0).binary 30 main_v1180 main_v1182 main_v1183 (f := (addf (F := Ideal) : (⟨S3312x1, .f32⟩ : BufTy).Contents (Elt Ideal) → (⟨S3312x1, .f32⟩ : BufTy).Contents (Elt Ideal) → (⟨S3312x1, .f32⟩ : BufTy).Contents (Elt Ideal))) (e := rfl)
  have e_v1184 := (win21 (F := Ideal) V0).reshape 31 main_v1183 main_v1184 (hn := shapeCasts_S3312x1_S16x207) (e := rfl)
  generalize after (ops (F := Ideal)) V0 = W at *
  rw [e_v1184, e_v1183, e_v1182, e_v1181, e_v1180, e_v1179, k_arg11, k_arg12] <;> rfl

set_option maxRecDepth 8192 in
set_option maxHeartbeats 2000000 in
/-- A buffer's final contents as an explicit term of other buffers' (and of the arguments as launched): the equations of
    the operations that produce it, rewritten latest first. -/
theorem dec_x_7 (V0 : Valuation τ sig (Elt Ideal)) :
    (after (ops (F := Ideal)) V0 (Proc.devRef .tc main_v1185)) = decIn (after (ops (F := Ideal)) V0 (Proc.devRef .tc main_v1184)) := by
  have e_v1185 := (win21 (F := Ideal) V0).reshape 32 main_v1184 main_v1185 (hn := shapeCasts_S16x207_S16x207x1) (e := rfl)
  generalize after (ops (F := Ideal)) V0 = W at *
  rw [e_v1185] <;> rfl

set_option maxRecDepth 8192 in
set_option maxHeartbeats 2000000 in
/-- One recurrent step read off the final contents W the operation list leaves: the step's nine named buffers (feature
    matrix, its two diffusions, gates, update gate, candidate's feature matrix, its two diffusions, new state) each hold the
    reference cell's term of the others, because W satisfies the equation of every operation between them (rewritten latest
    first, then the arguments as launched); so the new state buffer holds the specification's step of the input and the
    previous state. -/
theorem dec_step_7 (V0 : Valuation τ sig (Elt Ideal)) (X : Cert.Spec.Arr3 1) (H : Cert.Spec.Arr3 64)
    (hx : toArr3 (d := 1) (after (ops (F := Ideal)) V0 (Proc.devRef .tc main_v1185)) = X) (hH : hFlat (after (ops (F := Ideal)) V0 (Proc.devRef .tc main_v1178)) = H) :
    hFlat (after (ops (F := Ideal)) V0 (Proc.devRef .tc main_v1259)) = Cert.Spec.cell X H (toMat (V0 (Proc.devRef .tc main_arg1))) (toMat (V0 (Proc.devRef .tc main_arg2))) (toMat (V0 (Proc.devRef .tc main_arg7))) (toVec (V0 (Proc.devRef .tc main_arg8))) (toMat (V0 (Proc.devRef .tc main_arg9))) (toVec (V0 (Proc.devRef .tc main_arg10))) := by
  have k_arg1 := arg_keep (F := Ideal) V0 main_arg1 (by decide)
  have k_arg10 := arg_keep (F := Ideal) V0 main_arg10 (by decide)
  have k_arg2 := arg_keep (F := Ideal) V0 main_arg2 (by decide)
  have k_arg7 := arg_keep (F := Ideal) V0 main_arg7 (by decide)
  have k_arg8 := arg_keep (F := Ideal) V0 main_arg8 (by decide)
  have k_arg9 := arg_keep (F := Ideal) V0 main_arg9 (by decide)
  have e_v1186 := (win21 (F := Ideal) V0).reshape 33 main_v1178 main_v1186 (hn := shapeCasts_S16x13248_S16x207x64) (e := rfl)
  have e_v1187 := (win21 (F := Ideal) V0).binary 34 main_v1185 main_v1186 main_v1187 (f := (fn_main_v1187 (F := Ideal))) (e := rfl)
  have e_v1188 := (win21 (F := Ideal) V0).unary 35 main_v1187 main_v1188 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v1189 := (win21 (F := Ideal) V0).reshape 36 main_v1188 main_v1189 (hn := shapeCasts_S207x65x16_S207x1040) (e := rfl)
  have e_v1190 := (win21 (F := Ideal) V0).binary 37 main_arg1 main_v1189 main_v1190 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1191 := (win21 (F := Ideal) V0).binary 38 main_arg1 main_v1190 main_v1191 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_106 := (win21 (F := Ideal) V0).nullary 39 main_cst_106 (v := (constant (F := Ideal) S_ .f32 0x40000000#32)) (e := rfl)
  have e_v1192 := (win21 (F := Ideal) V0).unary 40 main_cst_106 main_v1192 (f := (broadcastInDim S207x1040 ![] bcast_S_S207x1040 : (⟨S_, .f32⟩ : BufTy).Contents (Elt Ideal) → (⟨S207x1040, .f32⟩ : BufTy).Contents (Elt Ideal))) (e := rfl)
  have e_v1193 := (win21 (F := Ideal) V0).binary 41 main_v1192 main_v1191 main_v1193 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1194 := (win21 (F := Ideal) V0).binary 42 main_v1193 main_v1189 main_v1194 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1195 := (win21 (F := Ideal) V0).binary 43 main_arg2 main_v1189 main_v1195 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1196 := (win21 (F := Ideal) V0).binary 44 main_arg2 main_v1195 main_v1196 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_107 := (win21 (F := Ideal) V0).nullary 45 main_cst_107 (v := (constant (F := Ideal) S_ .f32 0x40000000#32)) (e := rfl)
  have e_v1197 := (win21 (F := Ideal) V0).unary 46 main_cst_107 main_v1197 (f := (broadcastInDim S207x1040 ![] bcast_S_S207x1040 : (⟨S_, .f32⟩ : BufTy).Contents (Elt Ideal) → (⟨S207x1040, .f32⟩ : BufTy).Contents (Elt Ideal))) (e := rfl)
  have e_v1198 := (win21 (F := Ideal) V0).binary 47 main_v1197 main_v1196 main_v1198 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1199 := (win21 (F := Ideal) V0).binary 48 main_v1198 main_v1189 main_v1199 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1200 := (win21 (F := Ideal) V0).unary 49 main_v1189 main_v1200 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1201 := (win21 (F := Ideal) V0).unary 50 main_v1190 main_v1201 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1202 := (win21 (F := Ideal) V0).unary 51 main_v1194 main_v1202 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1203 := (win21 (F := Ideal) V0).unary 52 main_v1195 main_v1203 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1204 := (win21 (F := Ideal) V0).unary 53 main_v1199 main_v1204 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1205 := (win21 (F := Ideal) V0).nary5 54 main_v1200 main_v1201 main_v1202 main_v1203 main_v1204 main_v1205 (f := (fun u => fn_main_v1205 (F := Ideal) (u 0) (u 1) (u 2) (u 3) (u 4))) (e := rfl)
  have e_v1206 := (win21 (F := Ideal) V0).reshape 55 main_v1205 main_v1206 (hn := shapeCasts_S5x207x1040_S5x207x65x16) (e := rfl)
  have e_v1207 := (win21 (F := Ideal) V0).unary 56 main_v1206 main_v1207 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v1208 := (win21 (F := Ideal) V0).reshape 57 main_v1207 main_v1208 (hn := shapeCasts_S16x207x65x5_S3312x325) (e := rfl)
  have e_v1209 := (win21 (F := Ideal) V0).binary 58 main_v1208 main_arg7 main_v1209 (f := ((fun l r => Host.dotGeneral (F := Ideal) dot_S3312x325_S325x128_S3312x128_1_0_0_1_n_n none l r) : (⟨S3312x325, .f32⟩ : BufTy).Contents (Elt Ideal) → (⟨S325x128, .f32⟩ : BufTy).Contents (Elt Ideal) → (⟨S3312x128, .f32⟩ : BufTy).Contents (Elt Ideal))) (e := rfl)
  have e_v1210 := (win21 (F := Ideal) V0).unary 59 main_arg8 main_v1210 (f := (broadcastInDim S1x128 ![1] bcast_S128_S1x128_1 : (⟨S128, .f32⟩ : BufTy).Contents (Elt Ideal) → (⟨S1x128, .f32⟩ : BufTy).Contents (Elt Ideal))) (e := rfl)
  have e_v1211 := (win22 (F := Ideal) V0).unary 0 main_v1210 main_v1211 (f := (broadcastInDim S3312x128 ![0, 1] bcast_S1x128_S3312x128_0_1 : (⟨S1x128, .f32⟩ : BufTy).Contents (Elt Ideal) → (⟨S3312x128, .f32⟩ : BufTy).Contents (Elt Ideal))) (e := rfl)
  have e_v1212 := (win22 (F := Ideal) V0).binary 1 main_v1209 main_v1211 main_v1212 (f := (addf (F := Ideal) : (⟨S3312x128, .f32⟩ : BufTy).Contents (Elt Ideal) → (⟨S3312x128, .f32⟩ : BufTy).Contents (Elt Ideal) → (⟨S3312x128, .f32⟩ : BufTy).Contents (Elt Ideal))) (e := rfl)
  have e_v1213 := (win22 (F := Ideal) V0).reshape 2 main_v1212 main_v1213 (hn := shapeCasts_S3312x128_S16x26496) (e := rfl)
  have e_v1214 := (win22 (F := Ideal) V0).unary 3 main_v1213 main_v1214 (f := (Host.negf (F := Ideal) : (⟨S16x26496, .f32⟩ : BufTy).Contents (Elt Ideal) → (⟨S16x26496, .f32⟩ : BufTy).Contents (Elt Ideal))) (e := rfl)
  have e_v1215 := (win22 (F := Ideal) V0).unary 4 main_v1214 main_v1215 (f := (Host.exp (F := Ideal) : (⟨S16x26496, .f32⟩ : BufTy).Contents (Elt Ideal) → (⟨S16x26496, .f32⟩ : BufTy).Contents (Elt Ideal))) (e := rfl)
  have e_cst_108 := (win22 (F := Ideal) V0).nullary 5 main_cst_108 (v := (constant (F := Ideal) S_ .f32 0x3F800000#32)) (e := rfl)
  have e_v1216 := (win22 (F := Ideal) V0).unary 6 main_cst_108 main_v1216 (f := (broadcastInDim S16x26496 ![] bcast_S_S16x26496 : (⟨S_, .f32⟩ : BufTy).Contents (Elt Ideal) → (⟨S16x26496, .f32⟩ : BufTy).Contents (Elt Ideal))) (e := rfl)
  have e_v1217 := (win22 (F := Ideal) V0).binary 7 main_v1216 main_v1215 main_v1217 (f := (addf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_cst_109 := (win22 (F := Ideal) V0).nullary 8 main_cst_109 (v := (constant (F := Ideal) S_ .f32 0x3F800000#32)) (e := rfl)
  have e_v1218 := (win22 (F := Ideal) V0).unary 9 main_cst_109 main_v1218 (f := (broadcastInDim S16x26496 ![] bcast_S_S16x26496 : (⟨S_, .f32⟩ : BufTy).Contents (Elt Ideal) → (⟨S16x26496, .f32⟩ : BufTy).Contents (Elt Ideal))) (e := rfl)
  have e_v1219 := (win22 (F := Ideal) V0).binary 10 main_v1218 main_v1217 main_v1219 (f := (Host.divf (F := Ideal) : (⟨S16x26496, .f32⟩ : BufTy).Contents (Elt Ideal) → (⟨S16x26496, .f32⟩ : BufTy).Contents (Elt Ideal) → (⟨S16x26496, .f32⟩ : BufTy).Contents (Elt Ideal))) (e := rfl)
  have e_v1220 := (win22 (F := Ideal) V0).reshape 11 main_v1219 main_v1220 (hn := shapeCasts_S16x26496_S16x207x128) (e := rfl)
  have e_v1221 := (win22 (F := Ideal) V0).unary 12 main_v1220 main_v1221 (f := ((extractStridedSlice S16x207x64 ![0, 0, 0] · slices_S16x207x128_S16x207x64_0_0_0) : (⟨S16x207x128, .f32⟩ : BufTy).Contents (Elt Ideal) → (⟨S16x207x64, .f32⟩ : BufTy).Contents (Elt Ideal))) (e := rfl)
  have e_v1222 := (win22 (F := Ideal) V0).reshape 13 main_v1221 main_v1222 (hn := shapeCasts_S16x207x64_S16x13248) (e := rfl)
  have e_v1223 := (win22 (F := Ideal) V0).unary 14 main_v1220 main_v1223 (f := ((extractStridedSlice S16x207x64 ![0, 0, 64] · slices_S16x207x128_S16x207x64_0_0_64) : (⟨S16x207x128, .f32⟩ : BufTy).Contents (Elt Ideal) → (⟨S16x207x64, .f32⟩ : BufTy).Contents (Elt Ideal))) (e := rfl)
  have e_v1224 := (win22 (F := Ideal) V0).reshape 15 main_v1223 main_v1224 (hn := shapeCasts_S16x207x64_S16x13248) (e := rfl)
  have e_v1225 := (win22 (F := Ideal) V0).binary 16 main_v1222 main_v1178 main_v1225 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v1226 := (win22 (F := Ideal) V0).reshape 17 main_v1225 main_v1226 (hn := shapeCasts_S16x13248_S16x207x64) (e := rfl)
  have e_v1227 := (win22 (F := Ideal) V0).binary 18 main_v1185 main_v1226 main_v1227 (f := (fn_main_v1227 (F := Ideal))) (e := rfl)
  have e_v1228 := (win22 (F := Ideal) V0).unary 19 main_v1227 main_v1228 (f := ((transpose S207x65x16 [1, 2, 0] · transposes_S16x207x65_S207x65x16_1_2_0) : (⟨S16x207x65, .f32⟩ : BufTy).Contents (Elt Ideal) → (⟨S207x65x16, .f32⟩ : BufTy).Contents (Elt Ideal))) (e := rfl)
  have e_v1229 := (win22 (F := Ideal) V0).reshape 20 main_v1228 main_v1229 (hn := shapeCasts_S207x65x16_S207x1040) (e := rfl)
  have e_v1230 := (win22 (F := Ideal) V0).binary 21 main_arg1 main_v1229 main_v1230 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1231 := (win22 (F := Ideal) V0).binary 22 main_arg1 main_v1230 main_v1231 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_110 := (win22 (F := Ideal) V0).nullary 23 main_cst_110 (v := (constant (F := Ideal) S_ .f32 0x40000000#32)) (e := rfl)
  have e_v1232 := (win22 (F := Ideal) V0).unary 24 main_cst_110 main_v1232 (f := (broadcastInDim S207x1040 ![] bcast_S_S207x1040 : (⟨S_, .f32⟩ : BufTy).Contents (Elt Ideal) → (⟨S207x1040, .f32⟩ : BufTy).Contents (Elt Ideal))) (e := rfl)
  have e_v1233 := (win22 (F := Ideal) V0).binary 25 main_v1232 main_v1231 main_v1233 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1234 := (win22 (F := Ideal) V0).binary 26 main_v1233 main_v1229 main_v1234 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1235 := (win22 (F := Ideal) V0).binary 27 main_arg2 main_v1229 main_v1235 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_v1236 := (win22 (F := Ideal) V0).binary 28 main_arg2 main_v1235 main_v1236 (f := ((fun l r => Host.dotGeneral (F := Ideal) dot_S207x207_S207x1040_S207x1040_1_0_0_1_n_n none l r) : (⟨S207x207, .f32⟩ : BufTy).Contents (Elt Ideal) → (⟨S207x1040, .f32⟩ : BufTy).Contents (Elt Ideal) → (⟨S207x1040, .f32⟩ : BufTy).Contents (Elt Ideal))) (e := rfl)
  have e_cst_111 := (win22 (F := Ideal) V0).nullary 29 main_cst_111 (v := (constant (F := Ideal) S_ .f32 0x40000000#32)) (e := rfl)
  have e_v1237 := (win22 (F := Ideal) V0).unary 30 main_cst_111 main_v1237 (f := (broadcastInDim S207x1040 ![] bcast_S_S207x1040 : (⟨S_, .f32⟩ : BufTy).Contents (Elt Ideal) → (⟨S207x1040, .f32⟩ : BufTy).Contents (Elt Ideal))) (e := rfl)
  have e_v1238 := (win22 (F := Ideal) V0).binary 31 main_v1237 main_v1236 main_v1238 (f := (mulf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1239 := (win22 (F := Ideal) V0).binary 32 main_v1238 main_v1229 main_v1239 (f := (subf (F := Ideal) : (⟨S207x1040, .f32⟩ : BufTy).Contents (Elt Ideal) → (⟨S207x1040, .f32⟩ : BufTy).Contents (Elt Ideal) → (⟨S207x1040, .f32⟩ : BufTy).Contents (Elt Ideal))) (e := rfl)
  have e_v1240 := (win22 (F := Ideal) V0).unary 33 main_v1229 main_v1240 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1241 := (win22 (F := Ideal) V0).unary 34 main_v1230 main_v1241 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1242 := (win22 (F := Ideal) V0).unary 35 main_v1234 main_v1242 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1243 := (win22 (F := Ideal) V0).unary 36 main_v1235 main_v1243 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1244 := (win22 (F := Ideal) V0).unary 37 main_v1239 main_v1244 (f := (broadcastInDim S1x207x1040 ![1, 2] bcast_S207x1040_S1x207x1040_1_2 : (⟨S207x1040, .f32⟩ : BufTy).Contents (Elt Ideal) → (⟨S1x207x1040, .f32⟩ : BufTy).Contents (Elt Ideal))) (e := rfl)
  have e_v1245 := (win22 (F := Ideal) V0).nary5 38 main_v1240 main_v1241 main_v1242 main_v1243 main_v1244 main_v1245 (f := (fun u => fn_main_v1245 (F := Ideal) (u 0) (u 1) (u 2) (u 3) (u 4))) (e := rfl)
  have e_v1246 := (win22 (F := Ideal) V0).reshape 39 main_v1245 main_v1246 (hn := shapeCasts_S5x207x1040_S5x207x65x16) (e := rfl)
  have e_v1247 := (win22 (F := Ideal) V0).unary 40 main_v1246 main_v1247 (f := ((transpose S16x207x65x5 [3, 1, 2, 0] · transposes_S5x207x65x16_S16x207x65x5_3_1_2_0) : (⟨S5x207x65x16, .f32⟩ : BufTy).Contents (Elt Ideal) → (⟨S16x207x65x5, .f32⟩ : BufTy).Contents (Elt Ideal))) (e := rfl)
  have e_v1248 := (win22 (F := Ideal) V0).reshape 41 main_v1247 main_v1248 (hn := shapeCasts_S16x207x65x5_S3312x325) (e := rfl)
  have e_v1249 := (win22 (F := Ideal) V0).binary 42 main_v1248 main_arg9 main_v1249 (f := ((fun l r => Host.dotGeneral (F := Ideal) dot_S3312x325_S325x64_S3312x64_1_0_0_1_n_n none l r) : (⟨S3312x325, .f32⟩ : BufTy).Contents (Elt Ideal) → (⟨S325x64, .f32⟩ : BufTy).Contents (Elt Ideal) → (⟨S3312x64, .f32⟩ : BufTy).Contents (Elt Ideal))) (e := rfl)
  have e_v1250 := (win22 (F := Ideal) V0).unary 43 main_arg10 main_v1250 (f := (broadcastInDim S1x64 ![1] bcast_S64_S1x64_1 : (⟨S64, .f32⟩ : BufTy).Contents (Elt Ideal) → (⟨S1x64, .f32⟩ : BufTy).Contents (Elt Ideal))) (e := rfl)
  have e_v1251 := (win22 (F := Ideal) V0).unary 44 main_v1250 main_v1251 (f := (broadcastInDim S3312x64 ![0, 1] bcast_S1x64_S3312x64_0_1 : (⟨S1x64, .f32⟩ : BufTy).Contents (Elt Ideal) → (⟨S3312x64, .f32⟩ : BufTy).Contents (Elt Ideal))) (e := rfl)
  have e_v1252 := (win22 (F := Ideal) V0).binary 45 main_v1249 main_v1251 main_v1252 (f := (addf (F := Ideal) : (⟨S3312x64, .f32⟩ : BufTy).Contents (Elt Ideal) → (⟨S3312x64, .f32⟩ : BufTy).Contents (Elt Ideal) → (⟨S3312x64, .f32⟩ : BufTy).Contents (Elt Ideal))) (e := rfl)
  have e_v1253 := (win22 (F := Ideal) V0).reshape 46 main_v1252 main_v1253 (hn := shapeCasts_S3312x64_S16x13248) (e := rfl)
  have e_v1254 := (win22 (F := Ideal) V0).unary 47 main_v1253 main_v1254 (f := (Host.tanh (F := Ideal) : (⟨S16x13248, .f32⟩ : BufTy).Contents (Elt Ideal) → (⟨S16x13248, .f32⟩ : BufTy).Contents (Elt Ideal))) (e := rfl)
  have e_v1255 := (win22 (F := Ideal) V0).binary 48 main_v1224 main_v1178 main_v1255 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_cst_112 := (win22 (F := Ideal) V0).nullary 49 main_cst_112 (v := (constant (F := Ideal) S_ .f32 0x3F800000#32)) (e := rfl)
  have e_v1256 := (win22 (F := Ideal) V0).unary 50 main_cst_112 main_v1256 (f := (broadcastInDim S16x13248 ![] bcast_S_S16x13248 : (⟨S_, .f32⟩ : BufTy).Contents (Elt Ideal) → (⟨S16x13248, .f32⟩ : BufTy).Contents (Elt Ideal))) (e := rfl)
  have e_v1257 := (win22 (F := Ideal) V0).binary 51 main_v1256 main_v1224 main_v1257 (f := (subf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v1258 := (win22 (F := Ideal) V0).binary 52 main_v1257 main_v1254 main_v1258 (f := (mulf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  have e_v1259 := (win22 (F := Ideal) V0).binary 53 main_v1255 main_v1258 main_v1259 (f := (addf (F := Ideal) : (⟨S16x13248, .f32⟩ : BufTy).Contents (Elt Ideal) → (⟨S16x13248, .f32⟩ : BufTy).Contents (Elt Ideal) → (⟨S16x13248, .f32⟩ : BufTy).Contents (Elt Ideal))) (e := rfl)
  generalize after (ops (F := Ideal)) V0 = W at *
  exact decCell (W (Proc.devRef .tc main_v1185)) (W (Proc.devRef .tc main_v1178)) (V0 (Proc.devRef .tc main_arg1)) (V0 (Proc.devRef .tc main_arg2)) (V0 (Proc.devRef .tc main_arg7)) (V0 (Proc.devRef .tc main_arg8)) (V0 (Proc.devRef .tc main_arg9)) (V0 (Proc.devRef .tc main_arg10)) (W (Proc.devRef .tc main_v1189)) (W (Proc.devRef .tc main_v1190)) (W (Proc.devRef .tc main_v1195)) (W (Proc.devRef .tc main_v1229)) (W (Proc.devRef .tc main_v1230)) (W (Proc.devRef .tc main_v1235)) (W (Proc.devRef .tc main_v1220)) (W (Proc.devRef .tc main_v1224)) (W (Proc.devRef .tc main_v1259))
    (by rw [e_v1189, e_v1188, e_v1187, e_v1186] <;> rfl)
    (by rw [e_v1190, k_arg1] <;> rfl)
    (by rw [e_v1195, k_arg2] <;> rfl)
    (by rw [e_v1220, e_v1219, e_v1218, e_cst_109, e_v1217, e_v1216, e_cst_108, e_v1215, e_v1214, e_v1213, e_v1212, e_v1211, e_v1210, e_v1209, e_v1208, e_v1207, e_v1206, e_v1205, e_v1204, e_v1203, e_v1202, e_v1201, e_v1200, e_v1199, e_v1198, e_v1197, e_cst_107, e_v1196, e_v1194, e_v1193, e_v1192, e_cst_106, e_v1191, k_arg1, k_arg2, k_arg7, k_arg8] <;> rfl)
    (by rw [e_v1224, e_v1223] <;> rfl)
    (by rw [e_v1229, e_v1228, e_v1227, e_v1226, e_v1225, e_v1222, e_v1221] <;> rfl)
    (by rw [e_v1230, k_arg1] <;> rfl)
    (by rw [e_v1235, k_arg2] <;> rfl)
    (by rw [e_v1259, e_v1258, e_v1257, e_v1256, e_cst_112, e_v1255, e_v1254, e_v1253, e_v1252, e_v1251, e_v1250, e_v1249, e_v1248, e_v1247, e_v1246, e_v1245, e_v1244, e_v1243, e_v1242, e_v1241, e_v1240, e_v1239, e_v1238, e_v1237, e_cst_111, e_v1236, e_v1234, e_v1233, e_v1232, e_cst_110, e_v1231, k_arg1, k_arg10, k_arg2, k_arg9] <;> rfl)
    X H hx hH

set_option maxRecDepth 8192 in
set_option maxHeartbeats 2000000 in
/-- A buffer's final contents as an explicit term of other buffers' (and of the arguments as launched): the equations of
    the operations that produce it, rewritten latest first. -/
theorem dec_p_7 (V0 : Valuation τ sig (Elt Ideal)) :
    (after (ops (F := Ideal)) V0 (Proc.devRef .tc main_v1265)) = projT (after (ops (F := Ideal)) V0 (Proc.devRef .tc main_v1259)) (V0 (Proc.devRef .tc main_arg11)) (V0 (Proc.devRef .tc main_arg12)) := by
  have k_arg11 := arg_keep (F := Ideal) V0 main_arg11 (by decide)
  have k_arg12 := arg_keep (F := Ideal) V0 main_arg12 (by decide)
  have e_v1260 := (win22 (F := Ideal) V0).reshape 54 main_v1259 main_v1260 (hn := shapeCasts_S16x13248_S3312x64) (e := rfl)
  have e_v1261 := (win22 (F := Ideal) V0).binary 55 main_v1260 main_arg11 main_v1261 (f := ((fun l r => Host.dotGeneral (F := Ideal) dot_S3312x64_S64x1_S3312x1_1_0_0_1_n_n none l r) : (⟨S3312x64, .f32⟩ : BufTy).Contents (Elt Ideal) → (⟨S64x1, .f32⟩ : BufTy).Contents (Elt Ideal) → (⟨S3312x1, .f32⟩ : BufTy).Contents (Elt Ideal))) (e := rfl)
  have e_v1262 := (win22 (F := Ideal) V0).unary 56 main_arg12 main_v1262 (f := (broadcastInDim S1x1 ![1] bcast_S1_S1x1_1 : (⟨S1, .f32⟩ : BufTy).Contents (Elt Ideal) → (⟨S1x1, .f32⟩ : BufTy).Contents (Elt Ideal))) (e := rfl)
  have e_v1263 := (win22 (F := Ideal) V0).unary 57 main_v1262 main_v1263 (f := (broadcastInDim S3312x1 ![0, 1] bcast_S1x1_S3312x1_0_1 : (⟨S1x1, .f32⟩ : BufTy).Contents (Elt Ideal) → (⟨S3312x1, .f32⟩ : BufTy).Contents (Elt Ideal))) (e := rfl)
  have e_v1264 := (win22 (F := Ideal) V0).binary 58 main_v1261 main_v1263 main_v1264 (f := (addf (F := Ideal) : (⟨S3312x1, .f32⟩ : BufTy).Contents (Elt Ideal) → (⟨S3312x1, .f32⟩ : BufTy).Contents (Elt Ideal) → (⟨S3312x1, .f32⟩ : BufTy).Contents (Elt Ideal))) (e := rfl)
  have e_v1265 := (win22 (F := Ideal) V0).reshape 59 main_v1264 main_v1265 (hn := shapeCasts_S3312x1_S16x207) (e := rfl)
  generalize after (ops (F := Ideal)) V0 = W at *
  rw [e_v1265, e_v1264, e_v1263, e_v1262, e_v1261, e_v1260, k_arg11, k_arg12] <;> rfl

set_option maxRecDepth 8192 in
set_option maxHeartbeats 2000000 in
/-- A buffer's final contents as an explicit term of other buffers' (and of the arguments as launched): the equations of
    the operations that produce it, rewritten latest first. -/
theorem dec_x_0 (V0 : Valuation τ sig (Elt Ideal)) :
    (after (ops (F := Ideal)) V0 (Proc.devRef .tc main_v618)) = shapeCast S16x207x1 (broadcastInDim S16x207 ![] bcast_S_S16x207 (constant (F := Ideal) S_ .f32 0x00000000#32)) shapeCasts_S16x207_S16x207x1 := by
  have e_cst_56 := (win11 (F := Ideal) V0).nullary 14 main_cst_56 (v := (constant (F := Ideal) S_ .f32 0x00000000#32)) (e := rfl)
  have e_v617 := (win11 (F := Ideal) V0).unary 15 main_cst_56 main_v617 (f := (broadcastInDim S16x207 ![] bcast_S_S16x207 : (⟨S_, .f32⟩ : BufTy).Contents (Elt Ideal) → (⟨S16x207, .f32⟩ : BufTy).Contents (Elt Ideal))) (e := rfl)
  have e_v618 := (win11 (F := Ideal) V0).reshape 16 main_v617 main_v618 (hn := shapeCasts_S16x207_S16x207x1) (e := rfl)
  generalize after (ops (F := Ideal)) V0 = W at *
  rw [e_v618, e_v617, e_cst_56] <;> rfl

set_option maxRecDepth 8192 in
set_option maxHeartbeats 2000000 in
/-- A buffer's final contents as an explicit term of other buffers' (and of the arguments as launched): the equations of
    the operations that produce it, rewritten latest first. -/
theorem res_stack (V0 : Valuation τ sig (Elt Ideal)) :
    (after (ops (F := Ideal)) V0 (Proc.devRef .tc main_v1274)) = concatenate S8x16x207 0 [⟨S1x16x207, broadcastInDim S1x16x207 ![1, 2] bcast_S16x207_S1x16x207_1_2 (after (ops (F := Ideal)) V0 (Proc.devRef .tc main_v698))⟩, ⟨S1x16x207, broadcastInDim S1x16x207 ![1, 2] bcast_S16x207_S1x16x207_1_2 (after (ops (F := Ideal)) V0 (Proc.devRef .tc main_v779))⟩, ⟨S1x16x207, broadcastInDim S1x16x207 ![1, 2] bcast_S16x207_S1x16x207_1_2 (after (ops (F := Ideal)) V0 (Proc.devRef .tc main_v860))⟩, ⟨S1x16x207, broadcastInDim S1x16x207 ![1, 2] bcast_S16x207_S1x16x207_1_2 (after (ops (F := Ideal)) V0 (Proc.devRef .tc main_v941))⟩, ⟨S1x16x207, broadcastInDim S1x16x207 ![1, 2] bcast_S16x207_S1x16x207_1_2 (after (ops (F := Ideal)) V0 (Proc.devRef .tc main_v1022))⟩, ⟨S1x16x207, broadcastInDim S1x16x207 ![1, 2] bcast_S16x207_S1x16x207_1_2 (after (ops (F := Ideal)) V0 (Proc.devRef .tc main_v1103))⟩, ⟨S1x16x207, broadcastInDim S1x16x207 ![1, 2] bcast_S16x207_S1x16x207_1_2 (after (ops (F := Ideal)) V0 (Proc.devRef .tc main_v1184))⟩, ⟨S1x16x207, broadcastInDim S1x16x207 ![1, 2] bcast_S16x207_S1x16x207_1_2 (after (ops (F := Ideal)) V0 (Proc.devRef .tc main_v1265))⟩] concatenates_S1x16x207_S1x16x207_S1x16x207_S1x16x207_S1x16x207_S1x16x207_S1x16x207_S1x16x207_S8x16x207_d0 := by
  have e_v1266 := (win23 (F := Ideal) V0).unary 0 main_v698 main_v1266 (f := (broadcastInDim S1x16x207 ![1, 2] bcast_S16x207_S1x16x207_1_2 : (⟨S16x207, .f32⟩ : BufTy).Contents (Elt Ideal) → (⟨S1x16x207, .f32⟩ : BufTy).Contents (Elt Ideal))) (e := rfl)
  have e_v1267 := (win23 (F := Ideal) V0).unary 1 main_v779 main_v1267 (f := (broadcastInDim S1x16x207 ![1, 2] bcast_S16x207_S1x16x207_1_2 : (⟨S16x207, .f32⟩ : BufTy).Contents (Elt Ideal) → (⟨S1x16x207, .f32⟩ : BufTy).Contents (Elt Ideal))) (e := rfl)
  have e_v1268 := (win23 (F := Ideal) V0).unary 2 main_v860 main_v1268 (f := (broadcastInDim S1x16x207 ![1, 2] bcast_S16x207_S1x16x207_1_2 : (⟨S16x207, .f32⟩ : BufTy).Contents (Elt Ideal) → (⟨S1x16x207, .f32⟩ : BufTy).Contents (Elt Ideal))) (e := rfl)
  have e_v1269 := (win23 (F := Ideal) V0).unary 3 main_v941 main_v1269 (f := (broadcastInDim S1x16x207 ![1, 2] bcast_S16x207_S1x16x207_1_2 : (⟨S16x207, .f32⟩ : BufTy).Contents (Elt Ideal) → (⟨S1x16x207, .f32⟩ : BufTy).Contents (Elt Ideal))) (e := rfl)
  have e_v1270 := (win23 (F := Ideal) V0).unary 4 main_v1022 main_v1270 (f := (broadcastInDim S1x16x207 ![1, 2] bcast_S16x207_S1x16x207_1_2 : (⟨S16x207, .f32⟩ : BufTy).Contents (Elt Ideal) → (⟨S1x16x207, .f32⟩ : BufTy).Contents (Elt Ideal))) (e := rfl)
  have e_v1271 := (win23 (F := Ideal) V0).unary 5 main_v1103 main_v1271 (f := (broadcastInDim S1x16x207 ![1, 2] bcast_S16x207_S1x16x207_1_2 : (⟨S16x207, .f32⟩ : BufTy).Contents (Elt Ideal) → (⟨S1x16x207, .f32⟩ : BufTy).Contents (Elt Ideal))) (e := rfl)
  have e_v1272 := (win23 (F := Ideal) V0).unary 6 main_v1184 main_v1272 (f := (broadcastInDim S1x16x207 ![1, 2] bcast_S16x207_S1x16x207_1_2 : (⟨S16x207, .f32⟩ : BufTy).Contents (Elt Ideal) → (⟨S1x16x207, .f32⟩ : BufTy).Contents (Elt Ideal))) (e := rfl)
  have e_v1273 := (win23 (F := Ideal) V0).unary 7 main_v1265 main_v1273 (f := (broadcastInDim S1x16x207 ![1, 2] bcast_S16x207_S1x16x207_1_2 : (⟨S16x207, .f32⟩ : BufTy).Contents (Elt Ideal) → (⟨S1x16x207, .f32⟩ : BufTy).Contents (Elt Ideal))) (e := rfl)
  have e_v1274 := (win23 (F := Ideal) V0).nary8 8 main_v1266 main_v1267 main_v1268 main_v1269 main_v1270 main_v1271 main_v1272 main_v1273 main_v1274 (f := (fun u => fn_main_v1274 (F := Ideal) (u 0) (u 1) (u 2) (u 3) (u 4) (u 5) (u 6) (u 7))) (e := rfl)
  generalize after (ops (F := Ideal)) V0 = W at *
  rw [e_v1274, e_v1273, e_v1272, e_v1271, e_v1270, e_v1269, e_v1268, e_v1267, e_v1266] <;> rfl

end Cert.RefHand

end
-- ==== Proof.RefHandChain.lean ====
/- The sixteen steps chained, one case per step naming the step's buffers (input, previous state, new state, projection,
   next input): by induction along the program the state buffer after step t holds the specification's state after
   step t (RefHandEnc / RefHandDec give the step, RefHandBase the specification's recurrence), and each decoder step's
   projection buffer the specification's projection, which the next step reads as its input. -/
import proofs.«113864_g48979807044058_cont_8to1_c_230_28_alg».proof.Proof.RefHandBase
import proofs.«113864_g48979807044058_cont_8to1_c_230_28_alg».proof.Proof.RefHandEnc
import proofs.«113864_g48979807044058_cont_8to1_c_230_28_alg».proof.Proof.RefHandDec

noncomputable section

namespace Cert.RefHand

open Cert.ReferenceIdeal Cert.ReferenceIdeal.Gen Cert.ReferenceIdeal.HandRun Idealize.ShloMosaic Idealize.ShloMosaic.TcCoe
  Idealize.SL.Sem Idealize.ShloMosaic.StableHlo Idealize.ShloMosaic.ValueIdx
open Cert.RefCell Cert.RefRunOps

section Chain

variable (V0 : Valuation τ sig (Elt Ideal))

/-- Before the first step the state buffer is the zero state. -/
theorem enc_0 : hFlat (after (ops (F := Ideal)) V0 (Proc.devRef .tc main_v0)) = Cert.Spec.encState (PV V0) 0 := by
  funext b n j
  exact (congrFun (enc_h_0 V0) _).trans (zeros_apply _ _)

theorem x_0 : toArr3 (d := 8) (after (ops (F := Ideal)) V0 (Proc.devRef .tc main_v3)) = (PV V0).inp ⟨0, by decide⟩ := by
  funext b n i
  exact (congrFun (enc_x_0 V0) (ix3 b n i)).trans (xslice_apply _ 0 (by decide) _ _ _ b n i)

theorem enc_1 : hFlat (after (ops (F := Ideal)) V0 (Proc.devRef .tc main_v77)) = Cert.Spec.encState (PV V0) 1 :=
  (enc_step_0 V0 _ _ (x_0 V0) (enc_0 V0)).trans (encState_succ (PV V0) 0 (by decide)).symm

theorem x_1 : toArr3 (d := 8) (after (ops (F := Ideal)) V0 (Proc.devRef .tc main_v80)) = (PV V0).inp ⟨1, by decide⟩ := by
  funext b n i
  exact (congrFun (enc_x_1 V0) (ix3 b n i)).trans (xslice_apply _ 1 (by decide) _ _ _ b n i)

theorem enc_2 : hFlat (after (ops (F := Ideal)) V0 (Proc.devRef .tc main_v154)) = Cert.Spec.encState (PV V0) 2 :=
  (enc_step_1 V0 _ _ (x_1 V0) (enc_1 V0)).trans (encState_succ (PV V0) 1 (by decide)).symm

theorem x_2 : toArr3 (d := 8) (after (ops (F := Ideal)) V0 (Proc.devRef .tc main_v157)) = (PV V0).inp ⟨2, by decide⟩ := by
  funext b n i
  exact (congrFun (enc_x_2 V0) (ix3 b n i)).trans (xslice_apply _ 2 (by decide) _ _ _ b n i)

theorem enc_3 : hFlat (after (ops (F := Ideal)) V0 (Proc.devRef .tc main_v231)) = Cert.Spec.encState (PV V0) 3 :=
  (enc_step_2 V0 _ _ (x_2 V0) (enc_2 V0)).trans (encState_succ (PV V0) 2 (by decide)).symm

theorem x_3 : toArr3 (d := 8) (after (ops (F := Ideal)) V0 (Proc.devRef .tc main_v234)) = (PV V0).inp ⟨3, by decide⟩ := by
  funext b n i
  exact (congrFun (enc_x_3 V0) (ix3 b n i)).trans (xslice_apply _ 3 (by decide) _ _ _ b n i)

theorem enc_4 : hFlat (after (ops (F := Ideal)) V0 (Proc.devRef .tc main_v308)) = Cert.Spec.encState (PV V0) 4 :=
  (enc_step_3 V0 _ _ (x_3 V0) (enc_3 V0)).trans (encState_succ (PV V0) 3 (by decide)).symm

theorem x_4 : toArr3 (d := 8) (after (ops (F := Ideal)) V0 (Proc.devRef .tc main_v311)) = (PV V0).inp ⟨4, by decide⟩ := by
  funext b n i
  exact (congrFun (enc_x_4 V0) (ix3 b n i)).trans (xslice_apply _ 4 (by decide) _ _ _ b n i)

theorem enc_5 : hFlat (after (ops (F := Ideal)) V0 (Proc.devRef .tc main_v385)) = Cert.Spec.encState (PV V0) 5 :=
  (enc_step_4 V0 _ _ (x_4 V0) (enc_4 V0)).trans (encState_succ (PV V0) 4 (by decide)).symm

theorem x_5 : toArr3 (d := 8) (after (ops (F := Ideal)) V0 (Proc.devRef .tc main_v388)) = (PV V0).inp ⟨5, by decide⟩ := by
  funext b n i
  exact (congrFun (enc_x_5 V0) (ix3 b n i)).trans (xslice_apply _ 5 (by decide) _ _ _ b n i)

theorem enc_6 : hFlat (after (ops (F := Ideal)) V0 (Proc.devRef .tc main_v462)) = Cert.Spec.encState (PV V0) 6 :=
  (enc_step_5 V0 _ _ (x_5 V0) (enc_5 V0)).trans (encState_succ (PV V0) 5 (by decide)).symm

theorem x_6 : toArr3 (d := 8) (after (ops (F := Ideal)) V0 (Proc.devRef .tc main_v465)) = (PV V0).inp ⟨6, by decide⟩ := by
  funext b n i
  exact (congrFun (enc_x_6 V0) (ix3 b n i)).trans (xslice_apply _ 6 (by decide) _ _ _ b n i)

theorem enc_7 : hFlat (after (ops (F := Ideal)) V0 (Proc.devRef .tc main_v539)) = Cert.Spec.encState (PV V0) 7 :=
  (enc_step_6 V0 _ _ (x_6 V0) (enc_6 V0)).trans (encState_succ (PV V0) 6 (by decide)).symm

theorem x_7 : toArr3 (d := 8) (after (ops (F := Ideal)) V0 (Proc.devRef .tc main_v542)) = (PV V0).inp ⟨7, by decide⟩ := by
  funext b n i
  exact (congrFun (enc_x_7 V0) (ix3 b n i)).trans (xslice_apply _ 7 (by decide) _ _ _ b n i)

theorem enc_8 : hFlat (after (ops (F := Ideal)) V0 (Proc.devRef .tc main_v616)) = Cert.Spec.encState (PV V0) 8 :=
  (enc_step_7 V0 _ _ (x_7 V0) (enc_7 V0)).trans (encState_succ (PV V0) 7 (by decide)).symm

theorem dh_0 : hFlat (after (ops (F := Ideal)) V0 (Proc.devRef .tc main_v616)) = (Cert.Spec.decState (PV V0) 0).1 := enc_8 V0

theorem dx_0 : toArr3 (d := 1) (after (ops (F := Ideal)) V0 (Proc.devRef .tc main_v618)) = fun b n _ => (Cert.Spec.decState (PV V0) 0).2 b n := by
  funext b n i
  exact (congrFun (dec_x_0 V0) (ix3 b n i)).trans (zerosX_apply _ _ b n i)

theorem dh_1 : hFlat (after (ops (F := Ideal)) V0 (Proc.devRef .tc main_v692)) = (Cert.Spec.decState (PV V0) 1).1 :=
  (dec_step_0 V0 _ _ (dx_0 V0) (dh_0 V0)).trans (decState_succ_fst (PV V0) 0).symm

theorem dp_0 (b : Fin 16) (n : Fin 207) : (after (ops (F := Ideal)) V0 (Proc.devRef .tc main_v698)) (ix2 b n) = (Cert.Spec.decState (PV V0) 1).2 b n := by
  rw [dec_p_0 V0]
  refine (proj_apply _ _ _ b n).trans ?_
  rw [dh_1 V0]
  exact (decState_succ_snd (PV V0) 0 b n).symm

theorem dx_1 : toArr3 (d := 1) (after (ops (F := Ideal)) V0 (Proc.devRef .tc main_v699)) = fun b n _ => (Cert.Spec.decState (PV V0) 1).2 b n := by
  rw [dec_x_1 V0]
  refine (decIn_apply _).trans ?_
  funext b n _
  exact dp_0 V0 b n

theorem dh_2 : hFlat (after (ops (F := Ideal)) V0 (Proc.devRef .tc main_v773)) = (Cert.Spec.decState (PV V0) 2).1 :=
  (dec_step_1 V0 _ _ (dx_1 V0) (dh_1 V0)).trans (decState_succ_fst (PV V0) 1).symm

theorem dp_1 (b : Fin 16) (n : Fin 207) : (after (ops (F := Ideal)) V0 (Proc.devRef .tc main_v779)) (ix2 b n) = (Cert.Spec.decState (PV V0) 2).2 b n := by
  rw [dec_p_1 V0]
  refine (proj_apply _ _ _ b n).trans ?_
  rw [dh_2 V0]
  exact (decState_succ_snd (PV V0) 1 b n).symm

theorem dx_2 : toArr3 (d := 1) (after (ops (F := Ideal)) V0 (Proc.devRef .tc main_v780)) = fun b n _ => (Cert.Spec.decState (PV V0) 2).2 b n := by
  rw [dec_x_2 V0]
  refine (decIn_apply _).trans ?_
  funext b n _
  exact dp_1 V0 b n

theorem dh_3 : hFlat (after (ops (F := Ideal)) V0 (Proc.devRef .tc main_v854)) = (Cert.Spec.decState (PV V0) 3).1 :=
  (dec_step_2 V0 _ _ (dx_2 V0) (dh_2 V0)).trans (decState_succ_fst (PV V0) 2).symm

theorem dp_2 (b : Fin 16) (n : Fin 207) : (after (ops (F := Ideal)) V0 (Proc.devRef .tc main_v860)) (ix2 b n) = (Cert.Spec.decState (PV V0) 3).2 b n := by
  rw [dec_p_2 V0]
  refine (proj_apply _ _ _ b n).trans ?_
  rw [dh_3 V0]
  exact (decState_succ_snd (PV V0) 2 b n).symm

theorem dx_3 : toArr3 (d := 1) (after (ops (F := Ideal)) V0 (Proc.devRef .tc main_v861)) = fun b n _ => (Cert.Spec.decState (PV V0) 3).2 b n := by
  rw [dec_x_3 V0]
  refine (decIn_apply _).trans ?_
  funext b n _
  exact dp_2 V0 b n

theorem dh_4 : hFlat (after (ops (F := Ideal)) V0 (Proc.devRef .tc main_v935)) = (Cert.Spec.decState (PV V0) 4).1 :=
  (dec_step_3 V0 _ _ (dx_3 V0) (dh_3 V0)).trans (decState_succ_fst (PV V0) 3).symm

theorem dp_3 (b : Fin 16) (n : Fin 207) : (after (ops (F := Ideal)) V0 (Proc.devRef .tc main_v941)) (ix2 b n) = (Cert.Spec.decState (PV V0) 4).2 b n := by
  rw [dec_p_3 V0]
  refine (proj_apply _ _ _ b n).trans ?_
  rw [dh_4 V0]
  exact (decState_succ_snd (PV V0) 3 b n).symm

theorem dx_4 : toArr3 (d := 1) (after (ops (F := Ideal)) V0 (Proc.devRef .tc main_v942)) = fun b n _ => (Cert.Spec.decState (PV V0) 4).2 b n := by
  rw [dec_x_4 V0]
  refine (decIn_apply _).trans ?_
  funext b n _
  exact dp_3 V0 b n

theorem dh_5 : hFlat (after (ops (F := Ideal)) V0 (Proc.devRef .tc main_v1016)) = (Cert.Spec.decState (PV V0) 5).1 :=
  (dec_step_4 V0 _ _ (dx_4 V0) (dh_4 V0)).trans (decState_succ_fst (PV V0) 4).symm

theorem dp_4 (b : Fin 16) (n : Fin 207) : (after (ops (F := Ideal)) V0 (Proc.devRef .tc main_v1022)) (ix2 b n) = (Cert.Spec.decState (PV V0) 5).2 b n := by
  rw [dec_p_4 V0]
  refine (proj_apply _ _ _ b n).trans ?_
  rw [dh_5 V0]
  exact (decState_succ_snd (PV V0) 4 b n).symm

theorem dx_5 : toArr3 (d := 1) (after (ops (F := Ideal)) V0 (Proc.devRef .tc main_v1023)) = fun b n _ => (Cert.Spec.decState (PV V0) 5).2 b n := by
  rw [dec_x_5 V0]
  refine (decIn_apply _).trans ?_
  funext b n _
  exact dp_4 V0 b n

theorem dh_6 : hFlat (after (ops (F := Ideal)) V0 (Proc.devRef .tc main_v1097)) = (Cert.Spec.decState (PV V0) 6).1 :=
  (dec_step_5 V0 _ _ (dx_5 V0) (dh_5 V0)).trans (decState_succ_fst (PV V0) 5).symm

theorem dp_5 (b : Fin 16) (n : Fin 207) : (after (ops (F := Ideal)) V0 (Proc.devRef .tc main_v1103)) (ix2 b n) = (Cert.Spec.decState (PV V0) 6).2 b n := by
  rw [dec_p_5 V0]
  refine (proj_apply _ _ _ b n).trans ?_
  rw [dh_6 V0]
  exact (decState_succ_snd (PV V0) 5 b n).symm

theorem dx_6 : toArr3 (d := 1) (after (ops (F := Ideal)) V0 (Proc.devRef .tc main_v1104)) = fun b n _ => (Cert.Spec.decState (PV V0) 6).2 b n := by
  rw [dec_x_6 V0]
  refine (decIn_apply _).trans ?_
  funext b n _
  exact dp_5 V0 b n

theorem dh_7 : hFlat (after (ops (F := Ideal)) V0 (Proc.devRef .tc main_v1178)) = (Cert.Spec.decState (PV V0) 7).1 :=
  (dec_step_6 V0 _ _ (dx_6 V0) (dh_6 V0)).trans (decState_succ_fst (PV V0) 6).symm

theorem dp_6 (b : Fin 16) (n : Fin 207) : (after (ops (F := Ideal)) V0 (Proc.devRef .tc main_v1184)) (ix2 b n) = (Cert.Spec.decState (PV V0) 7).2 b n := by
  rw [dec_p_6 V0]
  refine (proj_apply _ _ _ b n).trans ?_
  rw [dh_7 V0]
  exact (decState_succ_snd (PV V0) 6 b n).symm

theorem dx_7 : toArr3 (d := 1) (after (ops (F := Ideal)) V0 (Proc.devRef .tc main_v1185)) = fun b n _ => (Cert.Spec.decState (PV V0) 7).2 b n := by
  rw [dec_x_7 V0]
  refine (decIn_apply _).trans ?_
  funext b n _
  exact dp_6 V0 b n

theorem dh_8 : hFlat (after (ops (F := Ideal)) V0 (Proc.devRef .tc main_v1259)) = (Cert.Spec.decState (PV V0) 8).1 :=
  (dec_step_7 V0 _ _ (dx_7 V0) (dh_7 V0)).trans (decState_succ_fst (PV V0) 7).symm

theorem dp_7 (b : Fin 16) (n : Fin 207) : (after (ops (F := Ideal)) V0 (Proc.devRef .tc main_v1265)) (ix2 b n) = (Cert.Spec.decState (PV V0) 8).2 b n := by
  rw [dec_p_7 V0]
  refine (proj_apply _ _ _ b n).trans ?_
  rw [dh_8 V0]
  exact (decState_succ_snd (PV V0) 7 b n).symm

end Chain

end Cert.RefHand

end
-- ==== Proof.RefHandRun.lean ====
/-
  The reference program read as the network of the specification.  Its run leaves every buffer at the contents its
  operation list determines; those contents satisfy each operation's own equation, and along them the state buffers
  hold the specification's states and the projection buffers its projections (the chained steps).  The result buffer is
  the stack of the eight projections, hence the specification's result array, and the thirteen arguments are as
  launched.  No hypothesis on the inputs is needed: the specification is the reference's own arithmetic.
-/
import proofs.«113864_g48979807044058_cont_8to1_c_230_28_alg».proof.Defs
import proofs.«113864_g48979807044058_cont_8to1_c_230_28_alg».proof.Proof.Gen.Pre_finite_inputs
import proofs.«113864_g48979807044058_cont_8to1_c_230_28_alg».proof.Proof.RefHandChain

noncomputable section

namespace Cert.RefHand

open Cert.ReferenceIdeal Cert.ReferenceIdeal.Gen Cert.ReferenceIdeal.HandRun Idealize.ShloMosaic Idealize.ShloMosaic.TcCoe
  Idealize.SL.Sem Idealize.ShloMosaic.StableHlo Idealize.ShloMosaic.ValueIdx
open Cert.RefCell Cert.RefRunOps

/-- Eight arrays that are the specification's eight projections, stacked, are the specification's result array. -/
theorem stack8_out (P : Cert.Spec.Params) (p0 p1 p2 p3 p4 p5 p6 p7 : FVec Ideal S16x207 .f32)
    (hb : S16x207.BroadcastsInDim S1x16x207 (![1, 2] : Fin 2 → Fin S1x16x207.rank))
    (hc : Shape.Concatenates [S1x16x207, S1x16x207, S1x16x207, S1x16x207, S1x16x207, S1x16x207, S1x16x207, S1x16x207] S8x16x207 0)
    (h0 : ∀ (b : Fin 16) (n : Fin 207), p0 (ix2 b n) = (Cert.Spec.decState P 1).2 b n)
    (h1 : ∀ (b : Fin 16) (n : Fin 207), p1 (ix2 b n) = (Cert.Spec.decState P 2).2 b n)
    (h2 : ∀ (b : Fin 16) (n : Fin 207), p2 (ix2 b n) = (Cert.Spec.decState P 3).2 b n)
    (h3 : ∀ (b : Fin 16) (n : Fin 207), p3 (ix2 b n) = (Cert.Spec.decState P 4).2 b n)
    (h4 : ∀ (b : Fin 16) (n : Fin 207), p4 (ix2 b n) = (Cert.Spec.decState P 5).2 b n)
    (h5 : ∀ (b : Fin 16) (n : Fin 207), p5 (ix2 b n) = (Cert.Spec.decState P 6).2 b n)
    (h6 : ∀ (b : Fin 16) (n : Fin 207), p6 (ix2 b n) = (Cert.Spec.decState P 7).2 b n)
    (h7 : ∀ (b : Fin 16) (n : Fin 207), p7 (ix2 b n) = (Cert.Spec.decState P 8).2 b n) :
    concatenate S8x16x207 0 [⟨S1x16x207, broadcastInDim S1x16x207 ![1, 2] hb p0⟩,
      ⟨S1x16x207, broadcastInDim S1x16x207 ![1, 2] hb p1⟩,
      ⟨S1x16x207, broadcastInDim S1x16x207 ![1, 2] hb p2⟩,
      ⟨S1x16x207, broadcastInDim S1x16x207 ![1, 2] hb p3⟩,
      ⟨S1x16x207, broadcastInDim S1x16x207 ![1, 2] hb p4⟩,
      ⟨S1x16x207, broadcastInDim S1x16x207 ![1, 2] hb p5⟩,
      ⟨S1x16x207, broadcastInDim S1x16x207 ![1, 2] hb p6⟩,
      ⟨S1x16x207, broadcastInDim S1x16x207 ![1, 2] hb p7⟩] hc
      = Cert.SpecArgs.outBuf P := by
  funext i
  obtain ⟨t, b, n, rfl⟩ : ∃ (t : Fin 8) (b : Fin 16) (n : Fin 207), i = ix3 t b n := ⟨i 0, i 1, i 2, eq_ix3 i⟩
  rw [Cert.SpecArgs.outBuf_ix3, stack8_apply]
  match t with
  | ⟨0, _⟩ => exact h0 b n
  | ⟨1, _⟩ => exact h1 b n
  | ⟨2, _⟩ => exact h2 b n
  | ⟨3, _⟩ => exact h3 b n
  | ⟨4, _⟩ => exact h4 b n
  | ⟨5, _⟩ => exact h5 b n
  | ⟨6, _⟩ => exact h6 b n
  | ⟨7, _⟩ => exact h7 b n

section Result

variable (V0 : Valuation τ sig (Elt Ideal))

/-- The result buffer holds the specification's result array: it is the stack of the eight projection buffers, each of
    which holds the specification's projection (the chained steps). -/
theorem result_eq : (after (ops (F := Ideal)) V0 (Proc.devRef .tc main_v1274)) = Cert.SpecArgs.outBuf (PV V0) :=
  (res_stack V0).trans
    (stack8_out (PV V0) _ _ _ _ _ _ _ _ _ _ (dp_0 V0) (dp_1 V0) (dp_2 V0) (dp_3 V0) (dp_4 V0) (dp_5 V0) (dp_6 V0) (dp_7 V0))

end Result

/-! ## The run -/

/-- The network's parameters read off a memory's thirteen argument arrays on device `c`. -/
abbrev argsP (m : (ℓ : Loc nD τ sig) → Buf (Elt Ideal) ℓ) (c : Dev nD) : Cert.Spec.Params :=
  Cert.SpecArgs.paramsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- From any memory with zero counters every weakly fair execution of the reference terminates with its result array
    the specification's result for the parameters the argument arrays hold, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1274) = Cert.SpecArgs.outBuf (argsP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
    obtain ⟨hr, h0, h1, h2, h3, h4, h5, h6, h7, h8, h9, h10, h11, h12⟩ := h c
    exact ⟨hr.trans (result_eq (launchContents m c)),
      h0.trans (arg_keep (launchContents m c) main_arg0 (by decide)),
      h1.trans (arg_keep (launchContents m c) main_arg1 (by decide)),
      h2.trans (arg_keep (launchContents m c) main_arg2 (by decide)),
      h3.trans (arg_keep (launchContents m c) main_arg3 (by decide)),
      h4.trans (arg_keep (launchContents m c) main_arg4 (by decide)),
      h5.trans (arg_keep (launchContents m c) main_arg5 (by decide)),
      h6.trans (arg_keep (launchContents m c) main_arg6 (by decide)),
      h7.trans (arg_keep (launchContents m c) main_arg7 (by decide)),
      h8.trans (arg_keep (launchContents m c) main_arg8 (by decide)),
      h9.trans (arg_keep (launchContents m c) main_arg9 (by decide)),
      h10.trans (arg_keep (launchContents m c) main_arg10 (by decide)),
      h11.trans (arg_keep (launchContents m c) main_arg11 (by decide)),
      h12.trans (arg_keep (launchContents m c) main_arg12 (by decide))⟩)
    (run0_named (F := Ideal) m ρ)

/-- The reference runs and leaves its arguments unchanged. -/
theorem frame : Cert.frame_ReferenceIdeal := fun m ρ _ =>
  (θ_run Cert.ReferenceIdeal.defs _ _).mono (fun _ h c => (h c).2) (run m ρ)

end Cert.RefHand

end
-- ==== Proof.lean ====
/-
  The certificate's five claims, assembled.

  Both idealized programs end with the ONE array the specification names — step t's projection at batch entry b
  and node n of the diffusion-convolution recurrent network (eight encoder steps from the zero state, eight
  decoder steps each fed the previous projection), as a function of the thirteen argument arrays.  The
  reference does so because the specification is its own mathematics read index by index; no hypothesis on the
  inputs is needed.  The kernel does so because its re-blocked weights (identity term minus the two second-order
  terms, second-order terms doubled), its zero-padded features and its per-batch transposed products compute
  the same sums once every entry is a real number: the folded Chebyshev combine is an instance of
  distributivity, which on the extended reals needs finiteness.  The precondition gives finiteness of the
  inputs, and every later state is finite because the gates take values in bounded real intervals.
  The three frames are the runs with the result dropped; the idealization rewrote nothing, so its claim is `True`.
-/
import proofs.«113864_g48979807044058_cont_8to1_c_230_28_alg».proof.Defs
import proofs.«113864_g48979807044058_cont_8to1_c_230_28_alg».proof.Proof.Gen.Kernel
import proofs.«113864_g48979807044058_cont_8to1_c_230_28_alg».proof.Proof.Gen.KernelIdeal
import proofs.«113864_g48979807044058_cont_8to1_c_230_28_alg».proof.Proof.Gen.ReferenceIdeal
import proofs.«113864_g48979807044058_cont_8to1_c_230_28_alg».proof.Proof.Gen.Pre_finite_inputs
import proofs.«113864_g48979807044058_cont_8to1_c_230_28_alg».proof.Proof.KFrameRun
import proofs.«113864_g48979807044058_cont_8to1_c_230_28_alg».proof.Proof.KFrameBitsRun
import proofs.«113864_g48979807044058_cont_8to1_c_230_28_alg».proof.Proof.KValue
import proofs.«113864_g48979807044058_cont_8to1_c_230_28_alg».proof.Proof.RefHandRun

noncomputable section

namespace Cert.Proof

open Idealize.ShloMosaic Idealize.SL.Sem

/-- The word-level kernel runs to the end, faults nowhere and leaves its arguments as they were. -/
theorem frame_k : @Cert.frame_Kernel Cert.Kernel.Gen.facts Cert.Pre_finite_inputs.Gen.facts :=
  fun m g _ => Cert.Kernel.Hand.frame (F := Bits) m g

/-- So does the idealized kernel. -/
theorem frame_ki : @Cert.frame_KernelIdeal Cert.KernelIdeal.Gen.facts Cert.Pre_finite_inputs.Gen.facts :=
  fun m g _ => Cert.KernelIdeal.Hand.frame (F := Ideal) m g

/-- And the idealized reference: its run with the result dropped. -/
theorem frame_ri : @Cert.frame_ReferenceIdeal Cert.ReferenceIdeal.Gen.facts Cert.Pre_finite_inputs.Gen.facts :=
  Cert.RefHand.frame

/-- From memories agreeing on the arguments both runs end at the specification's array of those arguments. -/
theorem algebraic :
    @Cert.algebraic_KernelIdeal_ReferenceIdeal Cert.KernelIdeal.Gen.facts Cert.ReferenceIdeal.Gen.facts Cert.Pre_finite_inputs.Gen.facts := by
  intro m g m' g' hpre hagree
  refine ⟨fun c => Cert.SpecArgs.outBuf (Cert.SpecArgs.paramsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))),
    Cert.KernelIdeal.Val.run_value m g hpre, ?_⟩
  refine (θ_run (Cert.ReferenceIdeal.defs (F := Ideal)) _ _).mono (fun _ h c => ⟨(h c).1.trans ?_, (h c).2⟩) (Cert.RefHand.run m' g')
  unfold Cert.RefHand.argsP
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
